-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v171)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v171) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S3x256 : Shape := ⟨2, ![3, 256]⟩
abbrev S3 : Shape := ⟨1, ![3]⟩
abbrev S6x256 : Shape := ⟨2, ![6, 256]⟩
abbrev S6 : Shape := ⟨1, ![6]⟩
abbrev S65536x3 : Shape := ⟨2, ![65536, 3]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S3x256 : S_.BroadcastsInDim S3x256 (![] : Fin 0 → Fin S3x256.rank)
  reducesTo_S3x256_S_d0_1 : S3x256.ReducesTo [0, 1] S_
  bcast_S_S3 : S_.BroadcastsInDim S3 (![] : Fin 0 → Fin S3.rank)
  reducesTo_S3_S_d0 : S3.ReducesTo [0] S_
  bcast_S_S6x256 : S_.BroadcastsInDim S6x256 (![] : Fin 0 → Fin S6x256.rank)
  reducesTo_S6x256_S_d0_1 : S6x256.ReducesTo [0, 1] S_
  bcast_S_S6 : S_.BroadcastsInDim S6 (![] : Fin 0 → Fin S6.rank)
  reducesTo_S6_S_d0 : S6.ReducesTo [0] S_
  bcast_S_S65536x3 : S_.BroadcastsInDim S65536x3 (![] : Fin 0 → Fin S65536x3.rank)
  reducesTo_S65536x3_S_d0_1 : S65536x3.ReducesTo [0, 1] S_

variable [Facts]

def fn_part1 {F : FTy → Type} [FloatOps F] (main_arg4 : FVec F S6 .f32) (main_arg5 : FVec F S65536x3 .f32) (main_v13 : IVec S_ 1) (main_v16 : IVec S6x256 1) : IVec S_ 1 :=
  let main_c_5 : IVec S_ 1 := constantI S_ 1 1#1
  let main_v17 : IVec S_ 1 := (fun x v => Host.reduce IntOp.andi x v reducesTo_S6x256_S_d0_1 h_S_) main_v16 main_c_5
  let main_v18 : IVec S_ 1 := andi main_v13 main_v17
  let main_v19 : FVec F S6 .f32 := Host.absf main_arg4
  let main_cst_6 : FVec F S_ .f32 := constant S_ .f32 0x7F800000#32
  let main_v20 : FVec F S6 .f32 := broadcastInDim S6 ![] bcast_S_S6 main_cst_6
  let main_v21 : IVec S6 1 := cmpf .olt main_v19 main_v20
  let main_c_7 : IVec S_ 1 := constantI S_ 1 1#1
  let main_v22 : IVec S_ 1 := (fun x v => Host.reduce IntOp.andi x v reducesTo_S6_S_d0 h_S_) main_v21 main_c_7
  let main_v23 : IVec S_ 1 := andi main_v18 main_v22
  let main_v24 : FVec F S65536x3 .f32 := Host.absf main_arg5
  let main_cst_8 : FVec F S_ .f32 := constant S_ .f32 0x7F800000#32
  let main_v25 : FVec F S65536x3 .f32 := broadcastInDim S65536x3 ![] bcast_S_S65536x3 main_cst_8
  let main_v26 : IVec S65536x3 1 := cmpf .olt main_v24 main_v25
  let main_c_9 : IVec S_ 1 := constantI S_ 1 1#1
  let main_v27 : IVec S_ 1 := (fun x v => Host.reduce IntOp.andi x v reducesTo_S65536x3_S_d0_1 h_S_) main_v26 main_c_9
  let main_v28 : IVec S_ 1 := andi main_v23 main_v27
  main_v28

def fn {F : FTy → Type} [FloatOps F] (main_arg0 : FVec F S512x256 .f32) (main_arg1 : FVec F S3x256 .f32) (main_arg2 : FVec F S3 .f32) (main_arg3 : FVec F S6x256 .f32) (main_arg4 : FVec F S6 .f32) (main_arg5 : FVec F S65536x3 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S3x256 .f32 := Host.absf main_arg1
  let main_cst_0 : FVec F S_ .f32 := constant S_ .f32 0x7F800000#32
  let main_v5 : FVec F S3x256 .f32 := broadcastInDim S3x256 ![] bcast_S_S3x256 main_cst_0
  let main_v6 : IVec S3x256 1 := cmpf .olt main_v4 main_v5
  let main_c_1 : IVec S_ 1 := constantI S_ 1 1#1
  let main_v7 : IVec S_ 1 := (fun x v => Host.reduce IntOp.andi x v reducesTo_S3x256_S_d0_1 h_S_) main_v6 main_c_1
  let main_v8 : IVec S_ 1 := andi main_v3 main_v7
  let main_v9 : FVec F S3 .f32 := Host.absf main_arg2
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S6x256 .f32 := Host.absf main_arg3
  let main_cst_4 : FVec F S_ .f32 := constant S_ .f32 0x7F800000#32
  let main_v15 : FVec F S6x256 .f32 := broadcastInDim S6x256 ![] bcast_S_S6x256 main_cst_4
  let main_v16 : IVec S6x256 1 := cmpf .olt main_v14 main_v15
  fn_part1 (F := F) main_arg4 main_arg5 main_v13 main_v16
-- ==== Kernel.lean ====
abbrev S512x256 : Shape := ⟨2, ![512, 256]⟩
abbrev S3x256 : Shape := ⟨2, ![3, 256]⟩
abbrev S3 : Shape := ⟨1, ![3]⟩
abbrev S6x256 : Shape := ⟨2, ![6, 256]⟩
abbrev S6 : Shape := ⟨1, ![6]⟩
abbrev S65536x3 : Shape := ⟨2, ![65536, 3]⟩
abbrev S256x3 : Shape := ⟨2, ![256, 3]⟩
abbrev S512x3 : Shape := ⟨2, ![512, 3]⟩
abbrev S1x3 : Shape := ⟨2, ![1, 3]⟩
abbrev S256x6 : Shape := ⟨2, ![256, 6]⟩
abbrev S512x6 : Shape := ⟨2, ![512, 6]⟩
abbrev S1x6 : Shape := ⟨2, ![1, 6]⟩
abbrev S_ : Shape := ⟨0, ![]⟩
abbrev S512x1 : Shape := ⟨2, ![512, 1]⟩
abbrev S512 : Shape := ⟨1, ![512]⟩
abbrev S512x10 : Shape := ⟨2, ![512, 10]⟩
abbrev S65536x1 : Shape := ⟨2, ![65536, 1]⟩
abbrev S65536 : Shape := ⟨1, ![65536]⟩
abbrev S1x65536 : Shape := ⟨2, ![1, 65536]⟩
abbrev S9x65536 : Shape := ⟨2, ![9, 65536]⟩
abbrev S512x2 : Shape := ⟨2, ![512, 2]⟩
abbrev S9x2048 : Shape := ⟨2, ![9, 2048]⟩
abbrev S256x10 : Shape := ⟨2, ![256, 10]⟩
abbrev S256x2 : Shape := ⟨2, ![256, 2]⟩
abbrev S256x1 : Shape := ⟨2, ![256, 1]⟩
abbrev S1x2048 : Shape := ⟨2, ![1, 2048]⟩
abbrev S256x2048 : Shape := ⟨2, ![256, 2048]⟩
abbrev S256 : Shape := ⟨1, ![256]⟩
abbrev S512x65536 : Shape := ⟨2, ![512, 65536]⟩
abbrev S512x2048 : Shape := ⟨2, ![512, 2048]⟩

abbrev nBuf : Space → Nat
  | .hbm => 252
  | .vmem => 14
  | .smem => 0
  | _ => 0

abbrev hbmTy0_0 (i : Nat) : BufTy := match i % 128 with
  | 0 => ⟨S512x256, .f32⟩
  | 1 => ⟨S3x256, .f32⟩
  | 2 => ⟨S3, .f32⟩
  | 3 => ⟨S6x256, .f32⟩
  | 4 => ⟨S6, .f32⟩
  | 5 => ⟨S65536x3, .f32⟩
  | 6 => ⟨S256x3, .f32⟩
  | 7 => ⟨S512x3, .f32⟩
  | 8 => ⟨S1x3, .f32⟩
  | 9 => ⟨S512x3, .f32⟩
  | 10 => ⟨S512x3, .f32⟩
  | 11 => ⟨S256x6, .f32⟩
  | 12 => ⟨S512x6, .f32⟩
  | 13 => ⟨S1x6, .f32⟩
  | 14 => ⟨S512x6, .f32⟩
  | 15 => ⟨S512x6, .f32⟩
  | 16 => ⟨S_, .f32⟩
  | 17 => ⟨S512x6, .f32⟩
  | 18 => ⟨S512x6, .i1⟩
  | 19 => ⟨S_, .f32⟩
  | 20 => ⟨S512x6, .f32⟩
  | 21 => ⟨S512x6, .i1⟩
  | 22 => ⟨S_, .f32⟩
  | 23 => ⟨S_, .f32⟩
  | 24 => ⟨S512x6, .f32⟩
  | 25 => ⟨S512x6, .f32⟩
  | 26 => ⟨S512x6, .f32⟩
  | 27 => ⟨S_, .f32⟩
  | 28 => ⟨S512x6, .f32⟩
  | 29 => ⟨S512x6, .f32⟩
  | 30 => ⟨S512x6, .f32⟩
  | 31 => ⟨S_, .f32⟩
  | 32 => ⟨S512x6, .f32⟩
  | 33 => ⟨S512x6, .f32⟩
  | 34 => ⟨S512x1, .f32⟩
  | 35 => ⟨S512, .f32⟩
  | 36 => ⟨S_, .f32⟩
  | 37 => ⟨S512, .f32⟩
  | 38 => ⟨S512, .f32⟩
  | 39 => ⟨S512, .f32⟩
  | 40 => ⟨S512, .f32⟩
  | 41 => ⟨S512, .i1⟩
  | 42 => ⟨S512, .f32⟩
  | 43 => ⟨S512, .f32⟩
  | 44 => ⟨S512, .f32⟩
  | 45 => ⟨S512, .f32⟩
  | 46 => ⟨S512, .f32⟩
  | 47 => ⟨S512, .f32⟩
  | 48 => ⟨S512, .f32⟩
  | 49 => ⟨S512, .f32⟩
  | 50 => ⟨S512x1, .f32⟩
  | 51 => ⟨S512, .f32⟩
  | 52 => ⟨S512x1, .f32⟩
  | 53 => ⟨S512, .f32⟩
  | 54 => ⟨S_, .f32⟩
  | 55 => ⟨S512, .f32⟩
  | 56 => ⟨S512, .f32⟩
  | 57 => ⟨S512, .f32⟩
  | 58 => ⟨S512, .f32⟩
  | 59 => ⟨S512, .i1⟩
  | 60 => ⟨S512, .f32⟩
  | 61 => ⟨S512, .f32⟩
  | 62 => ⟨S512, .f32⟩
  | 63 => ⟨S512, .f32⟩
  | 64 => ⟨S512, .f32⟩
  | 65 => ⟨S512, .f32⟩
  | 66 => ⟨S512, .f32⟩
  | 67 => ⟨S512, .f32⟩
  | 68 => ⟨S512x1, .f32⟩
  | 69 => ⟨S512, .f32⟩
  | 70 => ⟨S512x1, .f32⟩
  | 71 => ⟨S512, .f32⟩
  | 72 => ⟨S512x1, .f32⟩
  | 73 => ⟨S512, .f32⟩
  | 74 => ⟨S_, .f32⟩
  | 75 => ⟨S512, .f32⟩
  | 76 => ⟨S512, .f32⟩
  | 77 => ⟨S512, .f32⟩
  | 78 => ⟨S512, .f32⟩
  | 79 => ⟨S512, .i1⟩
  | 80 => ⟨S512, .f32⟩
  | 81 => ⟨S512, .f32⟩
  | 82 => ⟨S512, .f32⟩
  | 83 => ⟨S512, .f32⟩
  | 84 => ⟨S512, .f32⟩
  | 85 => ⟨S512, .f32⟩
  | 86 => ⟨S512, .f32⟩
  | 87 => ⟨S512, .f32⟩
  | 88 => ⟨S512, .f32⟩
  | 89 => ⟨S512, .f32⟩
  | 90 => ⟨S512, .f32⟩
  | 91 => ⟨S512, .f32⟩
  | 92 => ⟨S512, .f32⟩
  | 93 => ⟨S512x1, .f32⟩
  | 94 => ⟨S512, .f32⟩
  | 95 => ⟨S512x1, .f32⟩
  | 96 => ⟨S512, .f32⟩
  | 97 => ⟨S512x1, .f32⟩
  | 98 => ⟨S512, .f32⟩
  | 99 => ⟨S_, .f32⟩
  | 100 => ⟨S512, .f32⟩
  | 101 => ⟨S512, .f32⟩
  | 102 => ⟨S512, .f32⟩
  | 103 => ⟨S512, .f32⟩
  | 104 => ⟨S512, .f32⟩
  | 105 => ⟨S_, .f32⟩
  | 106 => ⟨S512, .f32⟩
  | 107 => ⟨S512, .f32⟩
  | 108 => ⟨S_, .f32⟩
  | 109 => ⟨S512, .f32⟩
  | 110 => ⟨S512, .f32⟩
  | 111 => ⟨S512, .f32⟩
  | 112 => ⟨S512, .f32⟩
  | 113 => ⟨S512, .f32⟩
  | 114 => ⟨S512, .f32⟩
  | 115 => ⟨S512, .f32⟩
  | 116 => ⟨S512, .f32⟩
  | 117 => ⟨S512, .f32⟩
  | 118 => ⟨S512, .f32⟩
  | 119 => ⟨S512, .f32⟩
  | 120 => ⟨S512, .f32⟩
  | 121 => ⟨S512, .f32⟩
  | 122 => ⟨S512, .f32⟩
  | 123 => ⟨S512, .f32⟩
  | 124 => ⟨S512, .f32⟩
  | 125 => ⟨S512, .f32⟩
  | 126 => ⟨S512, .f32⟩
  | 127 => ⟨S512, .f32⟩
  | _ => ⟨S512x256, .f32⟩

abbrev hbmTy0_1 (i : Nat) : BufTy := match i % 128 with
  | 0 => ⟨S512, .f32⟩
  | 1 => ⟨S512, .f32⟩
  | 2 => ⟨S512, .f32⟩
  | 3 => ⟨S_, .f32⟩
  | 4 => ⟨S512, .f32⟩
  | 5 => ⟨S512, .f32⟩
  | 6 => ⟨S_, .f32⟩
  | 7 => ⟨S512, .f32⟩
  | 8 => ⟨S512, .f32⟩
  | 9 => ⟨S512, .f32⟩
  | 10 => ⟨S_, .f32⟩
  | 11 => ⟨S512, .f32⟩
  | 12 => ⟨S512, .f32⟩
  | 13 => ⟨S512, .f32⟩
  | 14 => ⟨S_, .f32⟩
  | 15 => ⟨S512, .f32⟩
  | 16 => ⟨S512, .f32⟩
  | 17 => ⟨S_, .f32⟩
  | 18 => ⟨S512, .f32⟩
  | 19 => ⟨S512, .f32⟩
  | 20 => ⟨S_, .f32⟩
  | 21 => ⟨S512, .f32⟩
  | 22 => ⟨S512, .f32⟩
  | 23 => ⟨S_, .f32⟩
  | 24 => ⟨S512, .f32⟩
  | 25 => ⟨S512, .f32⟩
  | 26 => ⟨S_, .f32⟩
  | 27 => ⟨S512, .f32⟩
  | 28 => ⟨S512, .f32⟩
  | 29 => ⟨S_, .f32⟩
  | 30 => ⟨S512, .f32⟩
  | 31 => ⟨S512, .f32⟩
  | 32 => ⟨S512, .f32⟩
  | 33 => ⟨S_, .f32⟩
  | 34 => ⟨S512, .f32⟩
  | 35 => ⟨S512, .f32⟩
  | 36 => ⟨S512, .f32⟩
  | 37 => ⟨S512, .f32⟩
  | 38 => ⟨S_, .f32⟩
  | 39 => ⟨S512, .f32⟩
  | 40 => ⟨S512, .f32⟩
  | 41 => ⟨S512, .f32⟩
  | 42 => ⟨S512, .f32⟩
  | 43 => ⟨S512, .f32⟩
  | 44 => ⟨S_, .f32⟩
  | 45 => ⟨S512, .f32⟩
  | 46 => ⟨S512, .f32⟩
  | 47 => ⟨S512, .f32⟩
  | 48 => ⟨S512, .f32⟩
  | 49 => ⟨S_, .f32⟩
  | 50 => ⟨S512, .f32⟩
  | 51 => ⟨S512, .f32⟩
  | 52 => ⟨S512, .f32⟩
  | 53 => ⟨S512, .f32⟩
  | 54 => ⟨S512, .f32⟩
  | 55 => ⟨S_, .f32⟩
  | 56 => ⟨S512, .f32⟩
  | 57 => ⟨S512, .f32⟩
  | 58 => ⟨S512, .f32⟩
  | 59 => ⟨S512, .f32⟩
  | 60 => ⟨S_, .f32⟩
  | 61 => ⟨S512, .f32⟩
  | 62 => ⟨S512, .f32⟩
  | 63 => ⟨S512, .f32⟩
  | 64 => ⟨S512, .f32⟩
  | 65 => ⟨S512, .f32⟩
  | 66 => ⟨S512, .f32⟩
  | 67 => ⟨S512, .f32⟩
  | 68 => ⟨S512, .f32⟩
  | 69 => ⟨S512, .f32⟩
  | 70 => ⟨S512, .f32⟩
  | 71 => ⟨S512, .f32⟩
  | 72 => ⟨S512, .f32⟩
  | 73 => ⟨S512, .f32⟩
  | 74 => ⟨S512, .f32⟩
  | 75 => ⟨S512, .f32⟩
  | 76 => ⟨S512, .f32⟩
  | 77 => ⟨S512, .f32⟩
  | 78 => ⟨S512, .f32⟩
  | 79 => ⟨S512, .f32⟩
  | 80 => ⟨S512, .f32⟩
  | 81 => ⟨S512, .f32⟩
  | 82 => ⟨S_, .f32⟩
  | 83 => ⟨S512, .f32⟩
  | 84 => ⟨S512, .f32⟩
  | 85 => ⟨S_, .f32⟩
  | 86 => ⟨S512, .f32⟩
  | 87 => ⟨S512, .f32⟩
  | 88 => ⟨S512, .f32⟩
  | 89 => ⟨S512x1, .f32⟩
  | 90 => ⟨S512x1, .f32⟩
  | 91 => ⟨S512x1, .f32⟩
  | 92 => ⟨S512x1, .f32⟩
  | 93 => ⟨S512x1, .f32⟩
  | 94 => ⟨S512x1, .f32⟩
  | 95 => ⟨S512x1, .f32⟩
  | 96 => ⟨S512x1, .f32⟩
  | 97 => ⟨S512x1, .f32⟩
  | 98 => ⟨S512x1, .f32⟩
  | 99 => ⟨S512x10, .f32⟩
  | 100 => ⟨S65536x1, .f32⟩
  | 101 => ⟨S65536, .f32⟩
  | 102 => ⟨S65536x1, .f32⟩
  | 103 => ⟨S65536, .f32⟩
  | 104 => ⟨S65536x1, .f32⟩
  | 105 => ⟨S65536, .f32⟩
  | 106 => ⟨S65536, .f32⟩
  | 107 => ⟨S65536, .f32⟩
  | 108 => ⟨S65536, .f32⟩
  | 109 => ⟨S65536, .f32⟩
  | 110 => ⟨S65536, .f32⟩
  | 111 => ⟨S65536, .f32⟩
  | 112 => ⟨S1x65536, .f32⟩
  | 113 => ⟨S1x65536, .f32⟩
  | 114 => ⟨S1x65536, .f32⟩
  | 115 => ⟨S1x65536, .f32⟩
  | 116 => ⟨S1x65536, .f32⟩
  | 117 => ⟨S1x65536, .f32⟩
  | 118 => ⟨S1x65536, .f32⟩
  | 119 => ⟨S1x65536, .f32⟩
  | 120 => ⟨S1x65536, .f32⟩
  | 121 => ⟨S9x65536, .f32⟩
  | 122 => ⟨S512x2, .f32⟩
  | 123 => ⟨S512x65536, .f32⟩
  | _ => ⟨S512x256, .f32⟩

abbrev hbmTy (i : Nat) : BufTy := match i / 128 with
  | 0 => hbmTy0_0 i
  | 1 => hbmTy0_1 i
  | _ => ⟨S512x256, .f32⟩

abbrev bufTy : (tb : Table) → Fin (tcTables nBuf tb) → BufTy
  | .hbm, ⟨i, _⟩ => hbmTy i
  | .local _ .vmem, ⟨0, _⟩ => ⟨S9x2048, .f32⟩
  | .local _ .vmem, ⟨1, _⟩ => ⟨S9x2048, .f32⟩
  | .local _ .vmem, ⟨2, _⟩ => ⟨S256x10, .f32⟩
  | .local _ .vmem, ⟨3, _⟩ => ⟨S256x10, .f32⟩
  | .local _ .vmem, ⟨4, _⟩ => ⟨S256x2, .f32⟩
  | .local _ .vmem, ⟨5, _⟩ => ⟨S256x2, .f32⟩
  | .local _ .vmem, ⟨6, _⟩ => ⟨S256x1, .f32⟩
  | .local _ .vmem, ⟨7, _⟩ => ⟨S256x1, .f32⟩
  | .local _ .vmem, ⟨8, _⟩ => ⟨S9x2048, .f32⟩
  | .local _ .vmem, ⟨9, _⟩ => ⟨S9x2048, .f32⟩
  | .local _ .vmem, ⟨10, _⟩ => ⟨S512x10, .f32⟩
  | .local _ .vmem, ⟨11, _⟩ => ⟨S512x2, .f32⟩
  | .local _ .vmem, ⟨12, _⟩ => ⟨S512x2048, .f32⟩
  | .local _ .vmem, ⟨13, _⟩ => ⟨S512x2048, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_cst_0 : Ref sig .tc := ⟨.hbm, 19, rfl⟩
abbrev main_call0_v2 : Ref sig .tc := ⟨.hbm, 20, rfl⟩
abbrev main_call0_v3 : Ref sig .tc := ⟨.hbm, 21, rfl⟩
abbrev main_call0_cst_1 : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_v4 : Ref sig .tc := ⟨.hbm, 25, rfl⟩
abbrev main_call0_v5 : Ref sig .tc := ⟨.hbm, 26, rfl⟩
abbrev main_call0_cst_2 : Ref sig .tc := ⟨.hbm, 27, rfl⟩
abbrev main_call0_v6 : Ref sig .tc := ⟨.hbm, 28, rfl⟩
abbrev main_call0_v7 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_call1_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_call2_cst : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_call3_cst : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_v5 : Ref sig .tc := ⟨.hbm, 80, rfl⟩
abbrev main_call3_v6 : Ref sig .tc := ⟨.hbm, 81, rfl⟩
abbrev main_call3_v7 : Ref sig .tc := ⟨.hbm, 82, rfl⟩
abbrev main_call3_v8 : Ref sig .tc := ⟨.hbm, 83, rfl⟩
abbrev main_call3_v9 : Ref sig .tc := ⟨.hbm, 84, rfl⟩
abbrev main_call3_v10 : Ref sig .tc := ⟨.hbm, 85, rfl⟩
abbrev main_call3_v11 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_cst_0 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_cst_1 : Ref sig .tc := ⟨.hbm, 105, rfl⟩
abbrev main_v44 : Ref sig .tc := ⟨.hbm, 106, rfl⟩
abbrev main_v45 : Ref sig .tc := ⟨.hbm, 107, rfl⟩
abbrev main_cst_2 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_cst_3 : Ref sig .tc := ⟨.hbm, 131, rfl⟩
abbrev main_v68 : Ref sig .tc := ⟨.hbm, 132, rfl⟩
abbrev main_v69 : Ref sig .tc := ⟨.hbm, 133, rfl⟩
abbrev main_cst_4 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_cst_5 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_cst_6 : Ref sig .tc := ⟨.hbm, 142, rfl⟩
abbrev main_v76 : Ref sig .tc := ⟨.hbm, 143, rfl⟩
abbrev main_v77 : Ref sig .tc := ⟨.hbm, 144, rfl⟩
abbrev main_cst_7 : Ref sig .tc := ⟨.hbm, 145, rfl⟩
abbrev main_v78 : Ref sig .tc := ⟨.hbm, 146, rfl⟩
abbrev main_v79 : Ref sig .tc := ⟨.hbm, 147, rfl⟩
abbrev main_cst_8 : Ref sig .tc := ⟨.hbm, 148, rfl⟩
abbrev main_v80 : Ref sig .tc := ⟨.hbm, 149, rfl⟩
abbrev main_v81 : Ref sig .tc := ⟨.hbm, 150, rfl⟩
abbrev main_cst_9 : Ref sig .tc := ⟨.hbm, 151, rfl⟩
abbrev main_v82 : Ref sig .tc := ⟨.hbm, 152, rfl⟩
abbrev main_v83 : Ref sig .tc := ⟨.hbm, 153, rfl⟩
abbrev main_cst_10 : Ref sig .tc := ⟨.hbm, 154, rfl⟩
abbrev main_v84 : Ref sig .tc := ⟨.hbm, 155, rfl⟩
abbrev main_v85 : Ref sig .tc := ⟨.hbm, 156, rfl⟩
abbrev main_cst_11 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_cst_12 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_cst_13 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_cst_14 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_cst_15 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_cst_16 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_cst_17 : Ref sig .tc := ⟨.hbm, 188, rfl⟩
abbrev main_v111 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_cst_18 : Ref sig .tc := ⟨.hbm, 210, rfl⟩
abbrev main_v132 : Ref sig .tc := ⟨.hbm, 211, rfl⟩
abbrev main_v133 : Ref sig .tc := ⟨.hbm, 212, rfl⟩
abbrev main_cst_19 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_v143 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_v156 : Ref sig .tc := ⟨.hbm, 236, rfl⟩
abbrev main_v157 : Ref sig .tc := ⟨.hbm, 237, rfl⟩
abbrev main_v158 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v99 : BitVec 1 := Scalar.cmpi .eq arg1 c31_i32
  let v100 : BitVec 32 := Scalar.extui v99
  let c0_i32_40 : BitVec 32 := 0#32
  let v101 : BitVec 1 := Scalar.cmpi .ne v100 c0_i32_40
  v101

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S9x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S9x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x10 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S3x256_S256x3_1_0 : S3x256.Transposes [1, 0] S256x3
  bcast_S3_S1x3_1 : S3.BroadcastsInDim S1x3 (![1] : Fin 1 → Fin S1x3.rank)
  bcast_S1x3_S512x3_0_1 : S1x3.BroadcastsInDim S512x3 (![0, 1] : Fin 2 → Fin S512x3.rank)
  transposes_S6x256_S256x6_1_0 : S6x256.Transposes [1, 0] S256x6
  bcast_S6_S1x6_1 : S6.BroadcastsInDim S1x6 (![1] : Fin 1 → Fin S1x6.rank)
  bcast_S1x6_S512x6_0_1 : S1x6.BroadcastsInDim S512x6 (![0, 1] : Fin 2 → Fin S512x6.rank)
  bcast_S_S512x6 : S_.BroadcastsInDim S512x6 (![] : Fin 0 → Fin S512x6.rank)
  slices_S512x6_S512x1_0_0 : S512x6.Slices ![0, 0] S512x1
  shapeCasts_S512x1_S512 : S512x1.ShapeCasts S512
  bcast_S_S512 : S_.BroadcastsInDim S512 (![] : Fin 0 → Fin S512.rank)
  slices_S512x6_S512x1_0_1 : S512x6.Slices ![0, 1] S512x1
  slices_S512x6_S512x1_0_2 : S512x6.Slices ![0, 2] S512x1
  slices_S512x6_S512x1_0_3 : S512x6.Slices ![0, 3] S512x1
  slices_S512x6_S512x1_0_4 : S512x6.Slices ![0, 4] S512x1
  slices_S512x6_S512x1_0_5 : S512x6.Slices ![0, 5] S512x1
  slices_S512x3_S512x1_0_0 : S512x3.Slices ![0, 0] S512x1
  slices_S512x3_S512x1_0_1 : S512x3.Slices ![0, 1] S512x1
  slices_S512x3_S512x1_0_2 : S512x3.Slices ![0, 2] S512x1
  bcast_S512_S512x1_0 : S512.BroadcastsInDim S512x1 (![0] : Fin 1 → Fin S512x1.rank)
  concatenates_S512x1_S512x1_S512x1_S512x1_S512x1_S512x1_S512x1_S512x1_S512x1_S512x1_S512x10_d1 : Shape.Concatenates [S512x1, S512x1, S512x1, S512x1, S512x1, S512x1, S512x1, S512x1, S512x1, S512x1] S512x10 1
  slices_S65536x3_S65536x1_0_0 : S65536x3.Slices ![0, 0] S65536x1
  shapeCasts_S65536x1_S65536 : S65536x1.ShapeCasts S65536
  slices_S65536x3_S65536x1_0_1 : S65536x3.Slices ![0, 1] S65536x1
  slices_S65536x3_S65536x1_0_2 : S65536x3.Slices ![0, 2] S65536x1
  bcast_S65536_S1x65536_1 : S65536.BroadcastsInDim S1x65536 (![1] : Fin 1 → Fin S1x65536.rank)
  concatenates_S1x65536_S1x65536_S1x65536_S1x65536_S1x65536_S1x65536_S1x65536_S1x65536_S1x65536_S9x65536_d0 : Shape.Concatenates [S1x65536, S1x65536, S1x65536, S1x65536, S1x65536, S1x65536, S1x65536, S1x65536, S1x65536] S9x65536 0
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S9x2048_S1x2048_0_0 : ∀ a, (![0, 0] : Fin 2 → Nat) a + S1x2048.size a ≤ S9x2048.size a
  h_S1x2048 : 0 < S1x2048.numel
  shapeCasts_S1x2048_S1x2048 : S1x2048.ShapeCasts S1x2048
  inb_S9x2048_S1x2048_1_0 : ∀ a, (![1, 0] : Fin 2 → Nat) a + S1x2048.size a ≤ S9x2048.size a
  inb_S9x2048_S1x2048_2_0 : ∀ a, (![2, 0] : Fin 2 → Nat) a + S1x2048.size a ≤ S9x2048.size a
  inb_S9x2048_S1x2048_3_0 : ∀ a, (![3, 0] : Fin 2 → Nat) a + S1x2048.size a ≤ S9x2048.size a
  inb_S9x2048_S1x2048_4_0 : ∀ a, (![4, 0] : Fin 2 → Nat) a + S1x2048.size a ≤ S9x2048.size a
  inb_S9x2048_S1x2048_5_0 : ∀ a, (![5, 0] : Fin 2 → Nat) a + S1x2048.size a ≤ S9x2048.size a
  inb_S9x2048_S1x2048_6_0 : ∀ a, (![6, 0] : Fin 2 → Nat) a + S1x2048.size a ≤ S9x2048.size a
  inb_S9x2048_S1x2048_7_0 : ∀ a, (![7, 0] : Fin 2 → Nat) a + S1x2048.size a ≤ S9x2048.size a
  inb_S9x2048_S1x2048_8_0 : ∀ a, (![8, 0] : Fin 2 → Nat) a + S1x2048.size a ≤ S9x2048.size a
  inb_S256x10_S256x1_0_0 : ∀ a, (![0, 0] : Fin 2 → Nat) a + S256x1.size a ≤ S256x10.size a
  inb_S256x10_S256x1_0_1 : ∀ a, (![0, 1] : Fin 2 → Nat) a + S256x1.size a ≤ S256x10.size a
  inb_S256x10_S256x1_0_2 : ∀ a, (![0, 2] : Fin 2 → Nat) a + S256x1.size a ≤ S256x10.size a
  inb_S256x10_S256x1_0_3 : ∀ a, (![0, 3] : Fin 2 → Nat) a + S256x1.size a ≤ S256x10.size a
  inb_S256x10_S256x1_0_4 : ∀ a, (![0, 4] : Fin 2 → Nat) a + S256x1.size a ≤ S256x10.size a
  inb_S256x10_S256x1_0_5 : ∀ a, (![0, 5] : Fin 2 → Nat) a + S256x1.size a ≤ S256x10.size a
  inb_S256x10_S256x1_0_6 : ∀ a, (![0, 6] : Fin 2 → Nat) a + S256x1.size a ≤ S256x10.size a
  inb_S256x10_S256x1_0_7 : ∀ a, (![0, 7] : Fin 2 → Nat) a + S256x1.size a ≤ S256x10.size a
  inb_S256x10_S256x1_0_8 : ∀ a, (![0, 8] : Fin 2 → Nat) a + S256x1.size a ≤ S256x10.size a
  inb_S256x10_S256x1_0_9 : ∀ a, (![0, 9] : Fin 2 → Nat) a + S256x1.size a ≤ S256x10.size a
  broadcasts_S256x1_S256x2048 : S256x1.Broadcasts S256x2048
  broadcasts_S1x2048_S256x2048 : S1x2048.Broadcasts S256x2048
  reduces_S256x2048_S256 : S256x2048.Reduces [1] S256
  shapeCasts_S256_S256x1 : S256.ShapeCasts S256x1
  inb_S256x2_S256x1_0_0 : ∀ a, (![0, 0] : Fin 2 → Nat) a + S256x1.size a ≤ S256x2.size a
  inb_S256x2_S256x1_0_1 : ∀ a, (![0, 1] : Fin 2 → Nat) a + S256x1.size a ≤ S256x2.size a
  inb_S512x10_S512x1_0_0 : ∀ a, (![0, 0] : Fin 2 → Nat) a + S512x1.size a ≤ S512x10.size a
  h_S512x1 : 0 < S512x1.numel
  shapeCasts_S512x1_S512x1 : S512x1.ShapeCasts S512x1
  inb_S512x10_S512x1_0_1 : ∀ a, (![0, 1] : Fin 2 → Nat) a + S512x1.size a ≤ S512x10.size a
  inb_S512x10_S512x1_0_2 : ∀ a, (![0, 2] : Fin 2 → Nat) a + S512x1.size a ≤ S512x10.size a
  inb_S512x10_S512x1_0_3 : ∀ a, (![0, 3] : Fin 2 → Nat) a + S512x1.size a ≤ S512x10.size a
  inb_S512x10_S512x1_0_4 : ∀ a, (![0, 4] : Fin 2 → Nat) a + S512x1.size a ≤ S512x10.size a
  inb_S512x10_S512x1_0_5 : ∀ a, (![0, 5] : Fin 2 → Nat) a + S512x1.size a ≤ S512x10.size a
  inb_S512x10_S512x1_0_6 : ∀ a, (![0, 6] : Fin 2 → Nat) a + S512x1.size a ≤ S512x10.size a
  inb_S512x10_S512x1_0_7 : ∀ a, (![0, 7] : Fin 2 → Nat) a + S512x1.size a ≤ S512x10.size a
  inb_S512x10_S512x1_0_8 : ∀ a, (![0, 8] : Fin 2 → Nat) a + S512x1.size a ≤ S512x10.size a
  inb_S512x10_S512x1_0_9 : ∀ a, (![0, 9] : Fin 2 → Nat) a + S512x1.size a ≤ S512x10.size a
  broadcasts_S512x1_S512x2048 : S512x1.Broadcasts S512x2048
  broadcasts_S1x2048_S512x2048 : S1x2048.Broadcasts S512x2048
  inb_S512x2_S512x1_0_0 : ∀ a, (![0, 0] : Fin 2 → Nat) a + S512x1.size a ≤ S512x2.size a
  inb_S512x2_S512x1_0_1 : ∀ a, (![0, 1] : Fin 2 → Nat) a + S512x1.size a ≤ S512x2.size a
  inb_S512x2048_S512x2048_0_0 : ∀ a, (![0, 0] : Fin 2 → Nat) a + S512x2048.size a ≤ S512x2048.size a
  h_S512x2048 : 0 < S512x2048.numel
  dot_S512x256_S256x3_S512x3_1_0_0_1_n_n_wf : DotDims.WF S512x256 S256x3 S512x3 [1] [0] [0] [1] [] []
  dot_S512x256_S256x6_S512x6_1_0_0_1_n_n_wf : DotDims.WF S512x256 S256x6 S512x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S9x2048.size a ≤ S9x65536.size a
  hwx0_0 : ∀ i : grid0.Coords, EltTy.bits .f32 = 32 ∨ (Rect.block (s := S9x65536) S9x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x10.size a ≤ S512x10.size a
  hwx0_1 : ∀ i : grid0.Coords, EltTy.bits .f32 = 32 ∨ (Rect.block (s := S512x10) S256x10.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2.size a ≤ S512x2.size a
  hwx0_2 : ∀ i : grid0.Coords, EltTy.bits .f32 = 32 ∨ (Rect.block (s := S512x2) S256x2.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S9x2048.size a ≤ S9x65536.size a
  hwx1_0 : ∀ i : grid1.Coords, EltTy.bits .f32 = 32 ∨ (Rect.block (s := S9x65536) S9x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x10.size a ≤ S512x10.size a
  hwx1_1 : ∀ i : grid1.Coords, EltTy.bits .f32 = 32 ∨ (Rect.block (s := S512x10) S512x10.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x2.size a ≤ S512x2.size a
  hwx1_2 : ∀ i : grid1.Coords, EltTy.bits .f32 = 32 ∨ (Rect.block (s := S512x2) S512x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S512x65536.size a
  hwx1_3 : ∀ i : grid1.Coords, EltTy.bits .f32 = 32 ∨ (Rect.block (s := S512x65536) S512x2048.size (cc1_transform_3 i) (hinb1_3 i)).WholeWords (EltTy.packing .f32)

variable [Facts₀]

def dot_S512x256_S256x3_S512x3_1_0_0_1_n_n : DotDims S512x256 S256x3 S512x3 where
  lhsContracting := [1]
  rhsContracting := [0]
  lhsNonContracting := [0]
  rhsNonContracting := [1]
  lhsBatch := []
  rhsBatch := []
  wf := dot_S512x256_S256x3_S512x3_1_0_0_1_n_n_wf
def dot_S512x256_S256x6_S512x6_1_0_0_1_n_n : DotDims S512x256 S256x6 S512x6 where
  lhsContracting := [1]
  rhsContracting := [0]
  lhsNonContracting := [0]
  rhsNonContracting := [1]
  lhsBatch := []
  rhsBatch := []
  wf := dot_S512x256_S256x6_S512x6_1_0_0_1_n_n_wf

abbrev win0_0 : Pipeline.Window sig grid0 :=
  Pipeline.Window.ofSpec (Memref.whole main_v169) S9x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v147) S256x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v170) S256x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v169) S9x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v147) S512x10.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v170) S512x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v171) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S512x256 : Shape := ⟨2, ![512, 256]⟩
abbrev S3x256 : Shape := ⟨2, ![3, 256]⟩
abbrev S3 : Shape := ⟨1, ![3]⟩
abbrev S6x256 : Shape := ⟨2, ![6, 256]⟩
abbrev S6 : Shape := ⟨1, ![6]⟩
abbrev S65536x3 : Shape := ⟨2, ![65536, 3]⟩
abbrev S256x3 : Shape := ⟨2, ![256, 3]⟩
abbrev S512x3 : Shape := ⟨2, ![512, 3]⟩
abbrev S1x3 : Shape := ⟨2, ![1, 3]⟩
abbrev S256x6 : Shape := ⟨2, ![256, 6]⟩
abbrev S512x6 : Shape := ⟨2, ![512, 6]⟩
abbrev S1x6 : Shape := ⟨2, ![1, 6]⟩
abbrev S_ : Shape := ⟨0, ![]⟩
abbrev S512x1 : Shape := ⟨2, ![512, 1]⟩
abbrev S512 : Shape := ⟨1, ![512]⟩
abbrev S1x65536x3 : Shape := ⟨3, ![1, 65536, 3]⟩
abbrev S512x1x3 : Shape := ⟨3, ![512, 1, 3]⟩
abbrev S512x65536x3 : Shape := ⟨3, ![512, 65536, 3]⟩
abbrev S512x65536x1 : Shape := ⟨3, ![512, 65536, 1]⟩
abbrev S512x65536 : Shape := ⟨2, ![512, 65536]⟩

abbrev nBuf : Space → Nat
  | .hbm => 153
  | .vmem => 0
  | .smem => 0
  | _ => 0

abbrev hbmTy0_0 (i : Nat) : BufTy := match i % 128 with
  | 0 => ⟨S512x256, .f32⟩
  | 1 => ⟨S3x256, .f32⟩
  | 2 => ⟨S3, .f32⟩
  | 3 => ⟨S6x256, .f32⟩
  | 4 => ⟨S6, .f32⟩
  | 5 => ⟨S65536x3, .f32⟩
  | 6 => ⟨S256x3, .f32⟩
  | 7 => ⟨S512x3, .f32⟩
  | 8 => ⟨S1x3, .f32⟩
  | 9 => ⟨S512x3, .f32⟩
  | 10 => ⟨S512x3, .f32⟩
  | 11 => ⟨S256x6, .f32⟩
  | 12 => ⟨S512x6, .f32⟩
  | 13 => ⟨S1x6, .f32⟩
  | 14 => ⟨S512x6, .f32⟩
  | 15 => ⟨S512x6, .f32⟩
  | 16 => ⟨S_, .f32⟩
  | 17 => ⟨S512x6, .f32⟩
  | 18 => ⟨S512x6, .i1⟩
  | 19 => ⟨S_, .f32⟩
  | 20 => ⟨S512x6, .f32⟩
  | 21 => ⟨S512x6, .i1⟩
  | 22 => ⟨S_, .f32⟩
  | 23 => ⟨S_, .f32⟩
  | 24 => ⟨S512x6, .f32⟩
  | 25 => ⟨S512x6, .f32⟩
  | 26 => ⟨S512x6, .f32⟩
  | 27 => ⟨S_, .f32⟩
  | 28 => ⟨S512x6, .f32⟩
  | 29 => ⟨S512x6, .f32⟩
  | 30 => ⟨S512x6, .f32⟩
  | 31 => ⟨S_, .f32⟩
  | 32 => ⟨S512x6, .f32⟩
  | 33 => ⟨S512x6, .f32⟩
  | 34 => ⟨S512x1, .f32⟩
  | 35 => ⟨S512, .f32⟩
  | 36 => ⟨S_, .f32⟩
  | 37 => ⟨S512, .f32⟩
  | 38 => ⟨S512, .f32⟩
  | 39 => ⟨S512, .f32⟩
  | 40 => ⟨S512, .f32⟩
  | 41 => ⟨S512, .i1⟩
  | 42 => ⟨S512, .f32⟩
  | 43 => ⟨S512, .f32⟩
  | 44 => ⟨S512, .f32⟩
  | 45 => ⟨S512, .f32⟩
  | 46 => ⟨S512, .f32⟩
  | 47 => ⟨S512, .f32⟩
  | 48 => ⟨S512, .f32⟩
  | 49 => ⟨S512, .f32⟩
  | 50 => ⟨S512x1, .f32⟩
  | 51 => ⟨S512, .f32⟩
  | 52 => ⟨S512x1, .f32⟩
  | 53 => ⟨S512, .f32⟩
  | 54 => ⟨S_, .f32⟩
  | 55 => ⟨S512, .f32⟩
  | 56 => ⟨S512, .f32⟩
  | 57 => ⟨S512, .f32⟩
  | 58 => ⟨S512, .f32⟩
  | 59 => ⟨S512, .i1⟩
  | 60 => ⟨S512, .f32⟩
  | 61 => ⟨S512, .f32⟩
  | 62 => ⟨S512, .f32⟩
  | 63 => ⟨S512, .f32⟩
  | 64 => ⟨S512, .f32⟩
  | 65 => ⟨S512, .f32⟩
  | 66 => ⟨S512, .f32⟩
  | 67 => ⟨S512, .f32⟩
  | 68 => ⟨S512x1, .f32⟩
  | 69 => ⟨S512, .f32⟩
  | 70 => ⟨S512x1, .f32⟩
  | 71 => ⟨S512, .f32⟩
  | 72 => ⟨S512x1, .f32⟩
  | 73 => ⟨S512, .f32⟩
  | 74 => ⟨S_, .f32⟩
  | 75 => ⟨S512, .f32⟩
  | 76 => ⟨S512, .f32⟩
  | 77 => ⟨S512, .f32⟩
  | 78 => ⟨S512, .f32⟩
  | 79 => ⟨S512, .i1⟩
  | 80 => ⟨S512, .f32⟩
  | 81 => ⟨S512, .f32⟩
  | 82 => ⟨S512, .f32⟩
  | 83 => ⟨S512, .f32⟩
  | 84 => ⟨S512, .f32⟩
  | 85 => ⟨S512, .f32⟩
  | 86 => ⟨S512, .f32⟩
  | 87 => ⟨S512, .f32⟩
  | 88 => ⟨S1x65536x3, .f32⟩
  | 89 => ⟨S512x1x3, .f32⟩
  | 90 => ⟨S512x65536x3, .f32⟩
  | 91 => ⟨S512x65536x3, .f32⟩
  | 92 => ⟨S512x65536x3, .f32⟩
  | 93 => ⟨S512x65536x1, .f32⟩
  | 94 => ⟨S512x65536, .f32⟩
  | 95 => ⟨S512x1, .f32⟩
  | 96 => ⟨S512x65536, .f32⟩
  | 97 => ⟨S512x65536, .f32⟩
  | 98 => ⟨S512x65536x1, .f32⟩
  | 99 => ⟨S512x65536, .f32⟩
  | 100 => ⟨S512x1, .f32⟩
  | 101 => ⟨S512x65536, .f32⟩
  | 102 => ⟨S512x65536, .f32⟩
  | 103 => ⟨S512x65536, .f32⟩
  | 104 => ⟨S512x1, .f32⟩
  | 105 => ⟨S512x65536, .f32⟩
  | 106 => ⟨S512x65536, .f32⟩
  | 107 => ⟨S512x65536x1, .f32⟩
  | 108 => ⟨S512x65536, .f32⟩
  | 109 => ⟨S512x1, .f32⟩
  | 110 => ⟨S512x65536, .f32⟩
  | 111 => ⟨S512x65536, .f32⟩
  | 112 => ⟨S512x65536, .f32⟩
  | 113 => ⟨S512x1, .f32⟩
  | 114 => ⟨S512x65536, .f32⟩
  | 115 => ⟨S512x65536, .f32⟩
  | 116 => ⟨S512x65536, .f32⟩
  | 117 => ⟨S512x1, .f32⟩
  | 118 => ⟨S512x65536, .f32⟩
  | 119 => ⟨S512x65536, .f32⟩
  | 120 => ⟨S512x65536, .f32⟩
  | 121 => ⟨S512x65536, .f32⟩
  | 122 => ⟨S512x65536, .f32⟩
  | 123 => ⟨S512x65536, .f32⟩
  | 124 => ⟨S512x65536, .f32⟩
  | 125 => ⟨S512, .f32⟩
  | 126 => ⟨S512, .f32⟩
  | 127 => ⟨S512, .f32⟩
  | _ => ⟨S512x256, .f32⟩

abbrev hbmTy0_1 (i : Nat) : BufTy := match i % 128 with
  | 0 => ⟨S512, .f32⟩
  | 1 => ⟨S512, .f32⟩
  | 2 => ⟨S_, .f32⟩
  | 3 => ⟨S512x65536, .f32⟩
  | 4 => ⟨S512x65536, .f32⟩
  | 5 => ⟨S_, .f32⟩
  | 6 => ⟨S512x65536, .f32⟩
  | 7 => ⟨S512x65536, .f32⟩
  | 8 => ⟨S512x1, .f32⟩
  | 9 => ⟨S512x65536, .f32⟩
  | 10 => ⟨S512x65536, .f32⟩
  | 11 => ⟨S_, .f32⟩
  | 12 => ⟨S512, .f32⟩
  | 13 => ⟨S512x1, .f32⟩
  | 14 => ⟨S512x65536, .f32⟩
  | 15 => ⟨S512x65536, .f32⟩
  | 16 => ⟨S512x65536, .f32⟩
  | 17 => ⟨S_, .f32⟩
  | 18 => ⟨S512, .f32⟩
  | 19 => ⟨S512x1, .f32⟩
  | 20 => ⟨S_, .f32⟩
  | 21 => ⟨S512x1, .f32⟩
  | 22 => ⟨S512x1, .f32⟩
  | 23 => ⟨S512x65536, .f32⟩
  | 24 => ⟨S512x65536, .f32⟩
  | _ => ⟨S512x256, .f32⟩

abbrev hbmTy (i : Nat) : BufTy := match i / 128 with
  | 0 => hbmTy0_0 i
  | 1 => hbmTy0_1 i
  | _ => ⟨S512x256, .f32⟩

abbrev bufTy : (tb : Table) → Fin (tcTables nBuf tb) → BufTy
  | .hbm, ⟨i, _⟩ => hbmTy i
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_cst_0 : Ref sig .tc := ⟨.hbm, 19, rfl⟩
abbrev main_call0_v2 : Ref sig .tc := ⟨.hbm, 20, rfl⟩
abbrev main_call0_v3 : Ref sig .tc := ⟨.hbm, 21, rfl⟩
abbrev main_call0_cst_1 : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_v4 : Ref sig .tc := ⟨.hbm, 25, rfl⟩
abbrev main_call0_v5 : Ref sig .tc := ⟨.hbm, 26, rfl⟩
abbrev main_call0_cst_2 : Ref sig .tc := ⟨.hbm, 27, rfl⟩
abbrev main_call0_v6 : Ref sig .tc := ⟨.hbm, 28, rfl⟩
abbrev main_call0_v7 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_call1_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_call2_cst : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_call3_cst : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_v5 : Ref sig .tc := ⟨.hbm, 80, rfl⟩
abbrev main_call3_v6 : Ref sig .tc := ⟨.hbm, 81, rfl⟩
abbrev main_call3_v7 : Ref sig .tc := ⟨.hbm, 82, rfl⟩
abbrev main_call3_v8 : Ref sig .tc := ⟨.hbm, 83, rfl⟩
abbrev main_call3_v9 : Ref sig .tc := ⟨.hbm, 84, rfl⟩
abbrev main_call3_v10 : Ref sig .tc := ⟨.hbm, 85, rfl⟩
abbrev main_call3_v11 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_cst_0 : Ref sig .tc := ⟨.hbm, 130, rfl⟩
abbrev main_v70 : Ref sig .tc := ⟨.hbm, 131, rfl⟩
abbrev main_v71 : Ref sig .tc := ⟨.hbm, 132, rfl⟩
abbrev main_cst_1 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_cst_2 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_cst_3 : Ref sig .tc := ⟨.hbm, 145, rfl⟩
abbrev main_v82 : Ref sig .tc := ⟨.hbm, 146, rfl⟩
abbrev main_v83 : Ref sig .tc := ⟨.hbm, 147, rfl⟩
abbrev main_cst_4 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩

abbrev nD : Nat := 1
abbrev τ : Topo := Topo.v7x

variable {F : FTy → Type} [FloatOps F]

class Facts₀ : Prop where
  transposes_S3x256_S256x3_1_0 : S3x256.Transposes [1, 0] S256x3
  bcast_S3_S1x3_1 : S3.BroadcastsInDim S1x3 (![1] : Fin 1 → Fin S1x3.rank)
  bcast_S1x3_S512x3_0_1 : S1x3.BroadcastsInDim S512x3 (![0, 1] : Fin 2 → Fin S512x3.rank)
  transposes_S6x256_S256x6_1_0 : S6x256.Transposes [1, 0] S256x6
  bcast_S6_S1x6_1 : S6.BroadcastsInDim S1x6 (![1] : Fin 1 → Fin S1x6.rank)
  bcast_S1x6_S512x6_0_1 : S1x6.BroadcastsInDim S512x6 (![0, 1] : Fin 2 → Fin S512x6.rank)
  bcast_S_S512x6 : S_.BroadcastsInDim S512x6 (![] : Fin 0 → Fin S512x6.rank)
  slices_S512x6_S512x1_0_0 : S512x6.Slices ![0, 0] S512x1
  shapeCasts_S512x1_S512 : S512x1.ShapeCasts S512
  bcast_S_S512 : S_.BroadcastsInDim S512 (![] : Fin 0 → Fin S512.rank)
  slices_S512x6_S512x1_0_1 : S512x6.Slices ![0, 1] S512x1
  slices_S512x6_S512x1_0_2 : S512x6.Slices ![0, 2] S512x1
  slices_S512x6_S512x1_0_3 : S512x6.Slices ![0, 3] S512x1
  slices_S512x6_S512x1_0_4 : S512x6.Slices ![0, 4] S512x1
  slices_S512x6_S512x1_0_5 : S512x6.Slices ![0, 5] S512x1
  bcast_S65536x3_S1x65536x3_1_2 : S65536x3.BroadcastsInDim S1x65536x3 (![1, 2] : Fin 2 → Fin S1x65536x3.rank)
  bcast_S512x3_S512x1x3_0_2 : S512x3.BroadcastsInDim S512x1x3 (![0, 2] : Fin 2 → Fin S512x1x3.rank)
  bcast_S1x65536x3_S512x65536x3_0_1_2 : S1x65536x3.BroadcastsInDim S512x65536x3 (![0, 1, 2] : Fin 3 → Fin S512x65536x3.rank)
  bcast_S512x1x3_S512x65536x3_0_1_2 : S512x1x3.BroadcastsInDim S512x65536x3 (![0, 1, 2] : Fin 3 → Fin S512x65536x3.rank)
  slices_S512x65536x3_S512x65536x1_0_0_0 : S512x65536x3.Slices ![0, 0, 0] S512x65536x1
  shapeCasts_S512x65536x1_S512x65536 : S512x65536x1.ShapeCasts S512x65536
  bcast_S512_S512x1_0 : S512.BroadcastsInDim S512x1 (![0] : Fin 1 → Fin S512x1.rank)
  bcast_S512x1_S512x65536_0_1 : S512x1.BroadcastsInDim S512x65536 (![0, 1] : Fin 2 → Fin S512x65536.rank)
  slices_S512x65536x3_S512x65536x1_0_0_1 : S512x65536x3.Slices ![0, 0, 1] S512x65536x1
  slices_S512x65536x3_S512x65536x1_0_0_2 : S512x65536x3.Slices ![0, 0, 2] S512x65536x1
  bcast_S_S512x65536 : S_.BroadcastsInDim S512x65536 (![] : Fin 0 → Fin S512x65536.rank)
  reducesTo_S512x65536_S512_d1 : S512x65536.ReducesTo [1] S512
  h_S_ : 0 < S_.numel
  bcast_S_S512x1 : S_.BroadcastsInDim S512x1 (![] : Fin 0 → Fin S512x1.rank)
  dot_S512x256_S256x3_S512x3_1_0_0_1_n_n_wf : DotDims.WF S512x256 S256x3 S512x3 [1] [0] [0] [1] [] []
  dot_S512x256_S256x6_S512x6_1_0_0_1_n_n_wf : DotDims.WF S512x256 S256x6 S512x6 [1] [0] [0] [1] [] []

variable [Facts₀]

def dot_S512x256_S256x3_S512x3_1_0_0_1_n_n : DotDims S512x256 S256x3 S512x3 where
  lhsContracting := [1]
  rhsContracting := [0]
  lhsNonContracting := [0]
  rhsNonContracting := [1]
  lhsBatch := []
  rhsBatch := []
  wf := dot_S512x256_S256x3_S512x3_1_0_0_1_n_n_wf
def dot_S512x256_S256x6_S512x6_1_0_0_1_n_n : DotDims S512x256 S256x6 S512x6 where
  lhsContracting := [1]
  rhsContracting := [0]
  lhsNonContracting := [0]
  rhsNonContracting := [1]
  lhsBatch := []
  rhsBatch := []
  wf := dot_S512x256_S256x6_S512x6_1_0_0_1_n_n_wf

class Facts : Prop extends Facts₀ where

variable [Facts]
-- ==== Proof.KRegion0Base.lean ====
/-
  The first kernel region (the running maximum and running sum over 32 tiles of pixels, for two blocks of 256 rows):
  what its proof shares. A point t of its 64-point grid is tile t mod 32 of row block t / 32. The body resets its two
  carried buffers (the running maximum, the running sum) at a block's first tile, updates them at every tile, and
  stores its 256×2 output (maximum, sum + ε) at the block's last tile only; at the other tiles the output window is idle.
-/
import proofs.«169934_j78314433675744_2_alg».proof.Proof.Gen.Kernel.Launch
import proofs.«169934_j78314433675744_2_alg».proof.Proof.Gen.Kernel.Skeleton
import proofs.«169934_j78314433675744_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The coefficient window's buffer holds its block at every point: it is fetched at a row block's first tile and its
    block index does not move within the row block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's two branch conditions, decided over the grid -/

/-- The tile is the row block's first (the body's first conditional). -/
abbrev firstTile (i : grid0.Coords) : Prop := (Scalar.cmpi .ne (Scalar.extui (Scalar.cmpi .eq (BitVec.ofNat 32 (i 1).val) 0#32)) 0#32) = 1#1
theorem hfirst : ∀ t : Fin cfg0.N, firstTile (grid0.coords t) ↔ t.val % 32 = 0 :=
  (by decide +kernel : ∀ t : Fin grid0.N, firstTile (grid0.coords t) ↔ t.val % 32 = 0)

/-- The tile is the row block's last (the body's second conditional). -/
abbrev lastTile (i : grid0.Coords) : Prop := k0_cond2 i = 1#1
theorem hlast : ∀ t : Fin cfg0.N, lastTile (grid0.coords t) ↔ t.val % 32 = 31 :=
  (by decide +kernel : ∀ t : Fin grid0.N, lastTile (grid0.coords t) ↔ t.val % 32 = 31)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Before a row block's last tile the output window is idle and is not written back. -/
theorem idleAt0_2 : ∀ t : Fin cfg0.N, ¬lastTile (grid0.coords t) → cfg0.idle 2 (grid0.coords t) = true := by decide +kernel
theorem noFlush0_2 : ∀ t : Fin cfg0.N, ¬lastTile (grid0.coords t) → (cfg0.win 2).flush t = false := by decide +kernel
/-- At a row block's last tile the output window is live. -/
theorem liveAt0_2 : ∀ t : Fin cfg0.N, lastTile (grid0.coords t) → cfg0.idle 2 (grid0.coords t) = false := by decide +kernel

/-! ## The memrefs the body is called with -/

/-- One staging buffer of the output window, through which its contents are stated. -/
abbrev VO0_2 : View sig .tc .vmem S256x2 .f32 := (Memref.whole cc0_stg2_0 : Memref sig .tc .vmem S256x2 .f32).view
abbrev ms0_0 (t : Fin cfg0.N) : Memref sig .tc .vmem S9x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x10 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2 .f32 := win0_2.stage (cfg0.slots t 2)
abbrev hs0_2 (t : Fin cfg0.N) : (ms0_2 t).IsWhole := hstage0_2 ((cfg0.slots t 2).cast nbuf0_2)
/-- The two carried buffers: the running maximum and the running sum. -/
abbrev scMax : Memref sig .tc .vmem S256x1 .f32 := Memref.whole cc0_scratch0
abbrev scSum : Memref sig .tc .vmem S256x1 .f32 := Memref.whole cc0_scratch1
abbrev VSMax : View sig .tc .vmem S256x1 .f32 := scMax.view
abbrev VSSum : View sig .tc .vmem S256x1 .f32 := scSum.view

/-- The second region's staging buffers, whole at some contents: scoped buffers this region never touches. -/
def otherStages (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region's resting invariant, with the two carried buffers as memrefs owned at some contents. -/
theorem PhiA0_eq (c : Dev nD) :
    (Pipeline.ΦA spec0 c : sProp 𝕄)
      = iprop(iprop((∃ d, owns (c : Thread nD τ) scMax fullShare d) ∗ (∃ d, owns (c : Thread nD τ) scSum fullShare d) ∗ otherStages c) ∗ (∃ r, prngReg c r)) := by
  unfold Pipeline.ΦA otherStages; rw [scopedRest0_eq]; simp only [scMax, scSum, owns_whole]; try rfl

end Cert.Kernel.Hand

end
-- ==== Proof.KRun0A.lean ====
/-
  The first kernel region's body, run whole at a row block's first tile (the carried buffers are reset, then updated; the output is not touched):
  the pieces each buffer ends with are found by running the body symbolically.
-/
import proofs.«169934_j78314433675744_2_alg».proof.Proof.KRegion0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output's buffer and in the two carried buffers (last store first), with
    the proof that from whole buffers — the inputs' at their contents, the output's at contents handed back untouched, the carried
    buffers at anything — the body runs to its continuation with the inputs' as they were and every stored
    buffer at its pieces written. -/
noncomputable def kernelRun0_A (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : firstTile i) (hc1 : ¬lastTile i)
    (x0 : Vec F S9x2048 .f32) (x1 : Vec F S256x10 .f32) :
    Σ' (L2 : List (View.Piece (Elt F) S256x2 .f32)) (LS0 : List (View.Piece (Elt F) S256x1 .f32)), { LS1 : List (View.Piece (Elt F) S256x1 .f32) //
      ∀ (xi2 : Vec F S256x2 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg2 harg2 arg3 harg3 arg4 harg4 arg5 harg5 arg6 harg6) K } := by
  refine ⟨[], ?_, ?_, fun xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Hand

end
-- ==== Proof.KRun0B.lean ====
/-
  The first kernel region's body, run whole at a middle tile (the carried buffers are updated; the output is not touched):
  the pieces each buffer ends with are found by running the body symbolically.
-/
import proofs.«169934_j78314433675744_2_alg».proof.Proof.KRun0A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output's buffer and in the two carried buffers (last store first), with
    the proof that from whole buffers — the inputs' at their contents, the output's at contents handed back untouched, the carried
    buffers at what the tile before left — the body runs to its continuation with the inputs' as they were and every stored
    buffer at its pieces written. -/
noncomputable def kernelRun0_B (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : ¬firstTile i) (hc1 : ¬lastTile i)
    (x0 : Vec F S9x2048 .f32) (x1 : Vec F S256x10 .f32) (xs0 : Vec F S256x1 .f32) (xs1 : Vec F S256x1 .f32) :
    Σ' (L2 : List (View.Piece (Elt F) S256x2 .f32)) (LS0 : List (View.Piece (Elt F) S256x1 .f32)), { LS1 : List (View.Piece (Elt F) S256x1 .f32) //
      ∀ (xi2 : Vec F S256x2 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg2 harg2 arg3 harg3 arg4 harg4 arg5 harg5 arg6 harg6) K } := by
  refine ⟨[], ?_, ?_, fun xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Hand

end
-- ==== Proof.KRun0C.lean ====
/-
  The first kernel region's body, run whole at a row block's last tile (the carried buffers are updated, then the output's two columns are stored):
  the pieces each buffer ends with are found by running the body symbolically.
-/
import proofs.«169934_j78314433675744_2_alg».proof.Proof.KRun0B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output's buffer and in the two carried buffers (last store first), with
    the proof that from whole buffers — the inputs' at their contents, the output's at anything, the carried
    buffers at what the tile before left — the body runs to its continuation with the inputs' as they were and every stored
    buffer at its pieces written. -/
noncomputable def kernelRun0_C (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : ¬firstTile i) (hc1 : lastTile i)
    (x0 : Vec F S9x2048 .f32) (x1 : Vec F S256x10 .f32) (xs0 : Vec F S256x1 .f32) (xs1 : Vec F S256x1 .f32) :
    Σ' (L2 : List (View.Piece (Elt F) S256x2 .f32)) (LS0 : List (View.Piece (Elt F) S256x1 .f32)), { LS1 : List (View.Piece (Elt F) S256x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg2 harg2 arg3 harg3 arg4 harg4 arg5 harg5 arg6 harg6) K } := by
  refine ⟨?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [HS0]; · iexists _; iexact HS0
    iexists _; iexact HS1

end Cert.Kernel.Hand

end
-- ==== Proof.KRegion0.lean ====
/-
  The first kernel region: what its buffers hold after each tile, its proof data, and the body's obligation at every point.
  After tile t the two carried buffers hold what the body's case at t computes from the point's blocks and, except at a row
  block's first tile, from what tile t - 1 left; the output's buffer holds the two stored columns at a row block's last tile.
-/
import proofs.«169934_j78314433675744_2_alg».proof.Proof.KRun0C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What this case leaves in the output's buffer: its pieces read back (none: the case stores nothing there; a value nothing consults, the window being idle at its points). -/
def out0_A (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : firstTile i) (hc1 : ¬lastTile i)
    (x0 : Vec F S9x2048 .f32) (x1 : Vec F S256x10 .f32) : Vec F S256x2 .f32 :=
  VO0_2.read (Elt F) (VO0_2.writes (Elt F) VO0_2.junk (kernelRun0_A c i arg2 harg2 arg3 harg3 arg4 harg4 arg5 harg5 arg6 harg6 hc0 hc1 x0 x1).1)

/-- This case's stores cover the running maximum's buffer. -/
theorem mcover0_A (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : firstTile i) (hc1 : ¬lastTile i)
    (x0 : Vec F S9x2048 .f32) (x1 : Vec F S256x10 .f32) (y : S256x1.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S256x1.size (by sl_kernel_rfl) y

/-- What this case leaves in the running maximum's buffer. -/
def mout0_A (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : firstTile i) (hc1 : ¬lastTile i)
    (x0 : Vec F S9x2048 .f32) (x1 : Vec F S256x10 .f32) : Vec F S256x1 .f32 :=
  VSMax.read (Elt F) (VSMax.writes (Elt F) VSMax.junk (kernelRun0_A c i arg2 harg2 arg3 harg3 arg4 harg4 arg5 harg5 arg6 harg6 hc0 hc1 x0 x1).2.1)

/-- This case's stores cover the running sum's buffer. -/
theorem lcover0_A (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : firstTile i) (hc1 : ¬lastTile i)
    (x0 : Vec F S9x2048 .f32) (x1 : Vec F S256x10 .f32) (y : S256x1.Idx) :
    ∃ pc ∈ (kernelRun0_A c i arg2 harg2 arg3 harg3 arg4 harg4 arg5 harg5 arg6 harg6 hc0 hc1 x0 x1).2.2.1, y ∈ pc.1.set :=
  View.cover_of_tiledL (kernelRun0_A c i arg2 harg2 arg3 harg3 arg4 harg4 arg5 harg5 arg6 harg6 hc0 hc1 x0 x1).2.2.1 S256x1.size (by sl_kernel_rfl) y

/-- What this case leaves in the running sum's buffer. -/
def lout0_A (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : firstTile i) (hc1 : ¬lastTile i)
    (x0 : Vec F S9x2048 .f32) (x1 : Vec F S256x10 .f32) : Vec F S256x1 .f32 :=
  VSSum.read (Elt F) (VSSum.writes (Elt F) VSSum.junk (kernelRun0_A c i arg2 harg2 arg3 harg3 arg4 harg4 arg5 harg5 arg6 harg6 hc0 hc1 x0 x1).2.2.1)

/-- What this case leaves in the output's buffer: its pieces read back (none: the case stores nothing there; a value nothing consults, the window being idle at its points). -/
def out0_B (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : ¬firstTile i) (hc1 : ¬lastTile i)
    (x0 : Vec F S9x2048 .f32) (x1 : Vec F S256x10 .f32) (xs0 : Vec F S256x1 .f32) (xs1 : Vec F S256x1 .f32) : Vec F S256x2 .f32 :=
  VO0_2.read (Elt F) (VO0_2.writes (Elt F) VO0_2.junk (kernelRun0_B c i arg2 harg2 arg3 harg3 arg4 harg4 arg5 harg5 arg6 harg6 hc0 hc1 x0 x1 xs0 xs1).1)

/-- This case's stores cover the running maximum's buffer. -/
theorem mcover0_B (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : ¬firstTile i) (hc1 : ¬lastTile i)
    (x0 : Vec F S9x2048 .f32) (x1 : Vec F S256x10 .f32) (xs0 : Vec F S256x1 .f32) (xs1 : Vec F S256x1 .f32) (y : S256x1.Idx) :
    ∃ pc ∈ (kernelRun0_B c i arg2 harg2 arg3 harg3 arg4 harg4 arg5 harg5 arg6 harg6 hc0 hc1 x0 x1 xs0 xs1).2.1, y ∈ pc.1.set :=
  View.cover_of_tiledL (kernelRun0_B c i arg2 harg2 arg3 harg3 arg4 harg4 arg5 harg5 arg6 harg6 hc0 hc1 x0 x1 xs0 xs1).2.1 S256x1.size (by sl_kernel_rfl) y

/-- What this case leaves in the running maximum's buffer. -/
def mout0_B (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : ¬firstTile i) (hc1 : ¬lastTile i)
    (x0 : Vec F S9x2048 .f32) (x1 : Vec F S256x10 .f32) (xs0 : Vec F S256x1 .f32) (xs1 : Vec F S256x1 .f32) : Vec F S256x1 .f32 :=
  VSMax.read (Elt F) (VSMax.writes (Elt F) VSMax.junk (kernelRun0_B c i arg2 harg2 arg3 harg3 arg4 harg4 arg5 harg5 arg6 harg6 hc0 hc1 x0 x1 xs0 xs1).2.1)

/-- This case's stores cover the running sum's buffer. -/
theorem lcover0_B (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : ¬firstTile i) (hc1 : ¬lastTile i)
    (x0 : Vec F S9x2048 .f32) (x1 : Vec F S256x10 .f32) (xs0 : Vec F S256x1 .f32) (xs1 : Vec F S256x1 .f32) (y : S256x1.Idx) :
    ∃ pc ∈ (kernelRun0_B c i arg2 harg2 arg3 harg3 arg4 harg4 arg5 harg5 arg6 harg6 hc0 hc1 x0 x1 xs0 xs1).2.2.1, y ∈ pc.1.set :=
  View.cover_of_tiledL (kernelRun0_B c i arg2 harg2 arg3 harg3 arg4 harg4 arg5 harg5 arg6 harg6 hc0 hc1 x0 x1 xs0 xs1).2.2.1 S256x1.size (by sl_kernel_rfl) y

/-- What this case leaves in the running sum's buffer. -/
def lout0_B (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : ¬firstTile i) (hc1 : ¬lastTile i)
    (x0 : Vec F S9x2048 .f32) (x1 : Vec F S256x10 .f32) (xs0 : Vec F S256x1 .f32) (xs1 : Vec F S256x1 .f32) : Vec F S256x1 .f32 :=
  VSSum.read (Elt F) (VSSum.writes (Elt F) VSSum.junk (kernelRun0_B c i arg2 harg2 arg3 harg3 arg4 harg4 arg5 harg5 arg6 harg6 hc0 hc1 x0 x1 xs0 xs1).2.2.1)

/-- What this case leaves in the output's buffer: its pieces read back. -/
def out0_C (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : ¬firstTile i) (hc1 : lastTile i)
    (x0 : Vec F S9x2048 .f32) (x1 : Vec F S256x10 .f32) (xs0 : Vec F S256x1 .f32) (xs1 : Vec F S256x1 .f32) : Vec F S256x2 .f32 :=
  VO0_2.read (Elt F) (VO0_2.writes (Elt F) VO0_2.junk (kernelRun0_C c i arg2 harg2 arg3 harg3 arg4 harg4 arg5 harg5 arg6 harg6 hc0 hc1 x0 x1 xs0 xs1).1)

/-- The two column stores tile the output's 256×2 block. -/
theorem ocover0_C (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : ¬firstTile i) (hc1 : lastTile i)
    (x0 : Vec F S9x2048 .f32) (x1 : Vec F S256x10 .f32) (xs0 : Vec F S256x1 .f32) (xs1 : Vec F S256x1 .f32) (y : S256x2.Idx) :
    ∃ pc ∈ (kernelRun0_C c i arg2 harg2 arg3 harg3 arg4 harg4 arg5 harg5 arg6 harg6 hc0 hc1 x0 x1 xs0 xs1).1, y ∈ pc.1.set :=
  View.cover_of_tiledL (kernelRun0_C c i arg2 harg2 arg3 harg3 arg4 harg4 arg5 harg5 arg6 harg6 hc0 hc1 x0 x1 xs0 xs1).1 S256x1.size (by sl_kernel_rfl) y

/-- This case's stores cover the running maximum's buffer. -/
theorem mcover0_C (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : ¬firstTile i) (hc1 : lastTile i)
    (x0 : Vec F S9x2048 .f32) (x1 : Vec F S256x10 .f32) (xs0 : Vec F S256x1 .f32) (xs1 : Vec F S256x1 .f32) (y : S256x1.Idx) :
    ∃ pc ∈ (kernelRun0_C c i arg2 harg2 arg3 harg3 arg4 harg4 arg5 harg5 arg6 harg6 hc0 hc1 x0 x1 xs0 xs1).2.1, y ∈ pc.1.set :=
  View.cover_of_tiledL (kernelRun0_C c i arg2 harg2 arg3 harg3 arg4 harg4 arg5 harg5 arg6 harg6 hc0 hc1 x0 x1 xs0 xs1).2.1 S256x1.size (by sl_kernel_rfl) y

/-- What this case leaves in the running maximum's buffer. -/
def mout0_C (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : ¬firstTile i) (hc1 : lastTile i)
    (x0 : Vec F S9x2048 .f32) (x1 : Vec F S256x10 .f32) (xs0 : Vec F S256x1 .f32) (xs1 : Vec F S256x1 .f32) : Vec F S256x1 .f32 :=
  VSMax.read (Elt F) (VSMax.writes (Elt F) VSMax.junk (kernelRun0_C c i arg2 harg2 arg3 harg3 arg4 harg4 arg5 harg5 arg6 harg6 hc0 hc1 x0 x1 xs0 xs1).2.1)

/-- This case's stores cover the running sum's buffer. -/
theorem lcover0_C (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : ¬firstTile i) (hc1 : lastTile i)
    (x0 : Vec F S9x2048 .f32) (x1 : Vec F S256x10 .f32) (xs0 : Vec F S256x1 .f32) (xs1 : Vec F S256x1 .f32) (y : S256x1.Idx) :
    ∃ pc ∈ (kernelRun0_C c i arg2 harg2 arg3 harg3 arg4 harg4 arg5 harg5 arg6 harg6 hc0 hc1 x0 x1 xs0 xs1).2.2.1, y ∈ pc.1.set :=
  View.cover_of_tiledL (kernelRun0_C c i arg2 harg2 arg3 harg3 arg4 harg4 arg5 harg5 arg6 harg6 hc0 hc1 x0 x1 xs0 xs1).2.2.1 S256x1.size (by sl_kernel_rfl) y

/-- What this case leaves in the running sum's buffer. -/
def lout0_C (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : ¬firstTile i) (hc1 : lastTile i)
    (x0 : Vec F S9x2048 .f32) (x1 : Vec F S256x10 .f32) (xs0 : Vec F S256x1 .f32) (xs1 : Vec F S256x1 .f32) : Vec F S256x1 .f32 :=
  VSSum.read (Elt F) (VSSum.writes (Elt F) VSSum.junk (kernelRun0_C c i arg2 harg2 arg3 harg3 arg4 harg4 arg5 harg5 arg6 harg6 hc0 hc1 x0 x1 xs0 xs1).2.2.1)

section Region0

variable (V : (c : Dev nD) → (b : Ref sig .tc) → Buf (Elt F) ((c : Thread nD τ).loc b))

/-- THE ACCUMULATION: what the output's buffer, the running maximum and the running sum hold after the body at position
    `n`, by recursion on the position — the case the tile's place in its row block selects, run at the point's
    blocks and (after a first tile) at what position `n - 1` left in the two carried buffers. -/
def outsAt0 (c : Dev nD) : (n : ℕ) → n < cfg0.N → Vec F S256x2 .f32 × Vec F S256x1 .f32 × Vec F S256x1 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scMax (Memref.isWhole_whole _) scSum (Memref.isWhole_whole _) ((hfirst ⟨0, hn⟩).mpr (Nat.zero_mod _)) (fun h => (fun h => by (try dsimp only at h); omega) ((hlast ⟨0, hn⟩).mp h)) (iblk0 V c 0 ⟨0, hn⟩) (iblk0 V c 1 ⟨0, hn⟩), mout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scMax (Memref.isWhole_whole _) scSum (Memref.isWhole_whole _) ((hfirst ⟨0, hn⟩).mpr (Nat.zero_mod _)) (fun h => (fun h => by (try dsimp only at h); omega) ((hlast ⟨0, hn⟩).mp h)) (iblk0 V c 0 ⟨0, hn⟩) (iblk0 V c 1 ⟨0, hn⟩), lout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scMax (Memref.isWhole_whole _) scSum (Memref.isWhole_whole _) ((hfirst ⟨0, hn⟩).mpr (Nat.zero_mod _)) (fun h => (fun h => by (try dsimp only at h); omega) ((hlast ⟨0, hn⟩).mp h)) (iblk0 V c 0 ⟨0, hn⟩) (iblk0 V c 1 ⟨0, hn⟩))
  | n + 1, hn =>
    if h0 : (n + 1) % 32 = 0 then
      if h1 : (n + 1) % 32 = 31 then
        False.elim (by omega)
      else
        (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scMax (Memref.isWhole_whole _) scSum (Memref.isWhole_whole _) ((hfirst ⟨n + 1, hn⟩).mpr h0) (fun h => h1 ((hlast ⟨n + 1, hn⟩).mp h)) (iblk0 V c 0 ⟨n + 1, hn⟩) (iblk0 V c 1 ⟨n + 1, hn⟩), mout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scMax (Memref.isWhole_whole _) scSum (Memref.isWhole_whole _) ((hfirst ⟨n + 1, hn⟩).mpr h0) (fun h => h1 ((hlast ⟨n + 1, hn⟩).mp h)) (iblk0 V c 0 ⟨n + 1, hn⟩) (iblk0 V c 1 ⟨n + 1, hn⟩), lout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scMax (Memref.isWhole_whole _) scSum (Memref.isWhole_whole _) ((hfirst ⟨n + 1, hn⟩).mpr h0) (fun h => h1 ((hlast ⟨n + 1, hn⟩).mp h)) (iblk0 V c 0 ⟨n + 1, hn⟩) (iblk0 V c 1 ⟨n + 1, hn⟩))
    else
      if h1 : (n + 1) % 32 = 31 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scMax (Memref.isWhole_whole _) scSum (Memref.isWhole_whole _) (fun h => h0 ((hfirst ⟨n + 1, hn⟩).mp h)) ((hlast ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2, mout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scMax (Memref.isWhole_whole _) scSum (Memref.isWhole_whole _) (fun h => h0 ((hfirst ⟨n + 1, hn⟩).mp h)) ((hlast ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2, lout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scMax (Memref.isWhole_whole _) scSum (Memref.isWhole_whole _) (fun h => h0 ((hfirst ⟨n + 1, hn⟩).mp h)) ((hlast ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2)
      else
        (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scMax (Memref.isWhole_whole _) scSum (Memref.isWhole_whole _) (fun h => h0 ((hfirst ⟨n + 1, hn⟩).mp h)) (fun h => h1 ((hlast ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2, mout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scMax (Memref.isWhole_whole _) scSum (Memref.isWhole_whole _) (fun h => h0 ((hfirst ⟨n + 1, hn⟩).mp h)) (fun h => h1 ((hlast ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2, lout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scMax (Memref.isWhole_whole _) scSum (Memref.isWhole_whole _) (fun h => h0 ((hfirst ⟨n + 1, hn⟩).mp h)) (fun h => h1 ((hlast ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2)

theorem outsAt0_A (c : Dev nD) (t : Fin cfg0.N) (h0 : t.val % 32 = 0) (h1 : ¬t.val % 32 = 31) :
    outsAt0 V c t.val t.isLt = (out0_A c (grid0.coords t) (ms0_0 t) (hs0_0 t) (ms0_1 t) (hs0_1 t) (ms0_2 t) (hs0_2 t) scMax (Memref.isWhole_whole _) scSum (Memref.isWhole_whole _) ((hfirst t).mpr h0) (fun h => h1 ((hlast t).mp h)) (iblk0 V c 0 t) (iblk0 V c 1 t), mout0_A c (grid0.coords t) (ms0_0 t) (hs0_0 t) (ms0_1 t) (hs0_1 t) (ms0_2 t) (hs0_2 t) scMax (Memref.isWhole_whole _) scSum (Memref.isWhole_whole _) ((hfirst t).mpr h0) (fun h => h1 ((hlast t).mp h)) (iblk0 V c 0 t) (iblk0 V c 1 t), lout0_A c (grid0.coords t) (ms0_0 t) (hs0_0 t) (ms0_1 t) (hs0_1 t) (ms0_2 t) (hs0_2 t) scMax (Memref.isWhole_whole _) scSum (Memref.isWhole_whole _) ((hfirst t).mpr h0) (fun h => h1 ((hlast t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 32 = 0) (h1 : ¬t.val % 32 = 31) :
    outsAt0 V c t.val t.isLt = (out0_B c (grid0.coords t) (ms0_0 t) (hs0_0 t) (ms0_1 t) (hs0_1 t) (ms0_2 t) (hs0_2 t) scMax (Memref.isWhole_whole _) scSum (Memref.isWhole_whole _) (fun h => h0 ((hfirst t).mp h)) (fun h => h1 ((hlast t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, mout0_B c (grid0.coords t) (ms0_0 t) (hs0_0 t) (ms0_1 t) (hs0_1 t) (ms0_2 t) (hs0_2 t) scMax (Memref.isWhole_whole _) scSum (Memref.isWhole_whole _) (fun h => h0 ((hfirst t).mp h)) (fun h => h1 ((hlast t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, lout0_B c (grid0.coords t) (ms0_0 t) (hs0_0 t) (ms0_1 t) (hs0_1 t) (ms0_2 t) (hs0_2 t) scMax (Memref.isWhole_whole _) scSum (Memref.isWhole_whole _) (fun h => h0 ((hfirst t).mp h)) (fun h => h1 ((hlast t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 V c t.val t.isLt = (out0_C c (grid0.coords t) (ms0_0 t) (hs0_0 t) (ms0_1 t) (hs0_1 t) (ms0_2 t) (hs0_2 t) scMax (Memref.isWhole_whole _) scSum (Memref.isWhole_whole _) (fun h => h0 ((hfirst t).mp h)) ((hlast t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, mout0_C c (grid0.coords t) (ms0_0 t) (hs0_0 t) (ms0_1 t) (hs0_1 t) (ms0_2 t) (hs0_2 t) scMax (Memref.isWhole_whole _) scSum (Memref.isWhole_whole _) (fun h => h0 ((hfirst t).mp h)) ((hlast t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, lout0_C c (grid0.coords t) (ms0_0 t) (hs0_0 t) (ms0_1 t) (hs0_1 t) (ms0_2 t) (hs0_2 t) scMax (Memref.isWhole_whole _) scSum (Memref.isWhole_whole _) (fun h => h0 ((hfirst t).mp h)) ((hlast t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the resting one (every scoped buffer at
    anything); afterwards the two carried buffers at what the point before left, the other scoped buffers at anything, and
    the generator register at some state. -/
def PhiS (c : Dev nD) : (n : ℕ) → n ≤ cfg0.N → sProp 𝕄
  | 0, _ => Pipeline.ΦA spec0 c
  | n + 1, hn => iprop(iprop(owns (c : Thread nD τ) scMax fullShare ((outsAt0 V c n hn).2.1) ∗ owns (c : Thread nD τ) scSum fullShare ((outsAt0 V c n hn).2.2) ∗ otherStages c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scMax fullShare ((outsAt0 V c n hn).2.1) ∗ owns (c : Thread nD τ) scSum fullShare ((outsAt0 V c n hn).2.2) ∗ otherStages c) ∗ (∃ r, prngReg c r)) := rfl

theorem PhiS_pos (c : Dev nD) (n : ℕ) (h : n ≤ cfg0.N) (hz : n ≠ 0) :
    PhiS V c n h = iprop(iprop(owns (c : Thread nD τ) scMax fullShare ((outsAt0 V c (n - 1) (by omega)).2.1) ∗ owns (c : Thread nD τ) scSum fullShare ((outsAt0 V c (n - 1) (by omega)).2.2) ∗ otherStages c) ∗ (∃ r, prngReg c r)) := by
  cases n with
  | zero => exact absurd rfl hz
  | succ n => rfl

/-- The proof data of the first pipeline on core `c`: the arrays as the region finds them; after the body at a point
    each input's buffer at its block and the output's at the accumulation's first component; the invariant above;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' buffers hold their blocks; the tile's place in its row block says which case
    runs; the invariant hands the body the two carried buffers at what the tile before left (at anything at the very
    first point) and takes them back at this tile's contents, the case's stores covering each; an output the case does
    not store into is idle there and is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 32 = 0
  · have h1 : ¬t.val % 32 = 31 := by omega
    rw [Dat.leavesExact_idle (dat0 V c) 2 t (idleAt0_2 t (fun h => h1 ((hlast t).mp h))) (noFlush0_2 t (fun h => h1 ((hlast t).mp h)))]
    rw [outsAt0_A V c t h0 h1]
    unfold mout0_A lout0_A; (try dsimp only)
    by_cases hz : t.val = 0
    · rw [PhiS_castSucc V c t, PhiS_zero V c _ _ hz, PhiA0_eq]
      iintro ⟨⟨⟨HS0, HS1, Hrest⟩, Hg⟩, Ho, ⟨%d0, H0⟩, ⟨%d1, H1⟩, ⟨%d2, H2⟩⟩
      iapply ((kernelRun0_A c (grid0.coords t) _ _ _ _ _ _ _ _ _ _ ((hfirst t).mpr h0) (fun h => h1 ((hlast t).mp h)) (iblk0 V c 0 t) (iblk0 V c 1 t)).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (mcover0_A c _ _ _ _ _ _ _ _ _ _ _ _ _ _ _)
          isplitl [HS1]
          · unfold owns; iexists _; isplitr
            swap; · iexact HS1
            ipureintro; exact View.read_writes_of_cover _ _ _ _ _ (lcover0_A c _ _ _ _ _ _ _ _ _ _ _ _ _ _ _)
          iexact Hrest
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, HS1, Hrest⟩, Hg⟩, Ho, ⟨%d0, H0⟩, ⟨%d1, H1⟩, ⟨%d2, H2⟩⟩
      iapply ((kernelRun0_A c (grid0.coords t) _ _ _ _ _ _ _ _ _ _ ((hfirst t).mpr h0) (fun h => h1 ((hlast t).mp h)) (iblk0 V c 0 t) (iblk0 V c 1 t)).2.2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (mcover0_A c _ _ _ _ _ _ _ _ _ _ _ _ _ _ _)
          isplitl [HS1]
          · unfold owns; iexists _; isplitr
            swap; · iexact HS1
            ipureintro; exact View.read_writes_of_cover _ _ _ _ _ (lcover0_A c _ _ _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun e => h0 (by rw [e])
    by_cases h1 : t.val % 32 = 31
    · rw [show (dat0 V c).leavesExact 2 t = owns (c : Thread nD τ) (ms0_2 t) fullShare ((dat0 V c).after 2 t) from by
        unfold Dat.leavesExact; rw [liveAt0_2 t ((hlast t).mpr h1)], after0_2]
      rw [outsAt0_C V c t h0 h1]
      unfold out0_C mout0_C lout0_C; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩⟩
      iapply ((kernelRun0_C c (grid0.coords t) _ _ _ _ _ _ _ _ _ _ (fun h => h0 ((hfirst t).mp h)) ((hlast t).mpr h1) (iblk0 V c 0 t) (iblk0 V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (mcover0_C c _ _ _ _ _ _ _ _ _ _ _ _ _ _ _ _ _)
          isplitl [HS1]
          · unfold owns; iexists _; isplitr
            swap; · iexact HS1
            ipureintro; exact View.read_writes_of_cover _ _ _ _ _ (lcover0_C c _ _ _ _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (ocover0_C c _ _ _ _ _ _ _ _ _ _ _ _ _ _ _ _ _)
    · rw [Dat.leavesExact_idle (dat0 V c) 2 t (idleAt0_2 t (fun h => h1 ((hlast t).mp h))) (noFlush0_2 t (fun h => h1 ((hlast t).mp h)))]
      rw [outsAt0_B V c t h0 h1]
      unfold mout0_B lout0_B; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩⟩
      iapply ((kernelRun0_B c (grid0.coords t) _ _ _ _ _ _ _ _ _ _ (fun h => h0 ((hfirst t).mp h)) (fun h => h1 ((hlast t).mp h)) (iblk0 V c 0 t) (iblk0 V c 1 t) _ _).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (mcover0_B c _ _ _ _ _ _ _ _ _ _ _ _ _ _ _ _ _)
          isplitl [HS1]
          · unfold owns; iexists _; isplitr
            swap; · iexact HS1
            ipureintro; exact View.read_writes_of_cover _ _ _ _ _ (lcover0_B c _ _ _ _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The resting invariant is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the resting one back: what the carried buffers hold is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

theorem hout0 (c : Dev nD) : (dat0 V c).Φ (Fin.last cfg0.N) ⊢ Pipeline.ΦA spec0 c :=
  Phi_out0 V c _ (by rw [Fin.val_last]; have : cfg0.N = 64 := N_0; omega)

end Region0

end Cert.Kernel.Hand

end
-- ==== Proof.KRegion1.lean ====
/-
  Region 1 of the kernel's program (the normalising pass, pipeline 1): its half of the frame argument.

  The body reads nine rows of the feature block, ten columns of the coefficient table and the two columns of the
  per-row statistics, and stores one value over the whole output block.  So what it leaves in the output
  window's buffer is a closed function `out1_3` of the three input blocks, and each input window's buffer holds
  that window's block at every grid point, whether or not the block was fetched there (the coefficient table and
  the statistics are fetched once, their block index never moves).  Everything is stated at a parameter `V`:
  the buffer contents when the region is entered.
-/
import proofs.«169934_j78314433675744_2_alg».proof.Proof.Gen.Kernel.Launch
import proofs.«169934_j78314433675744_2_alg».proof.Proof.Gen.Kernel.Skeleton
import proofs.«169934_j78314433675744_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature window's buffer holds its block at every point (it is fetched at every point), for any proof data
    over `V`'s arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The coefficient window's buffer holds its (only) block at every point: fetched at the first point, and at the
    later ones the block index has not moved, so what the body left there is still the block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The statistics window's buffer likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes -/

abbrev r1FeatA : Rect S9x2048 := Rect.unit (s := S9x2048) ![0, 0] S1x2048.size inb_S9x2048_S1x2048_0_0
abbrev r1FeatB : Rect S9x2048 := Rect.unit (s := S9x2048) ![1, 0] S1x2048.size inb_S9x2048_S1x2048_1_0
abbrev r1FeatC : Rect S9x2048 := Rect.unit (s := S9x2048) ![2, 0] S1x2048.size inb_S9x2048_S1x2048_2_0
abbrev r1FeatD : Rect S9x2048 := Rect.unit (s := S9x2048) ![3, 0] S1x2048.size inb_S9x2048_S1x2048_3_0
abbrev r1FeatE : Rect S9x2048 := Rect.unit (s := S9x2048) ![4, 0] S1x2048.size inb_S9x2048_S1x2048_4_0
abbrev r1FeatF : Rect S9x2048 := Rect.unit (s := S9x2048) ![5, 0] S1x2048.size inb_S9x2048_S1x2048_5_0
abbrev r1FeatG : Rect S9x2048 := Rect.unit (s := S9x2048) ![6, 0] S1x2048.size inb_S9x2048_S1x2048_6_0
abbrev r1FeatH : Rect S9x2048 := Rect.unit (s := S9x2048) ![7, 0] S1x2048.size inb_S9x2048_S1x2048_7_0
abbrev r1FeatI : Rect S9x2048 := Rect.unit (s := S9x2048) ![8, 0] S1x2048.size inb_S9x2048_S1x2048_8_0
abbrev r1CoefA : Rect S512x10 := Rect.unit (s := S512x10) ![0, 0] S512x1.size inb_S512x10_S512x1_0_0
abbrev r1CoefB : Rect S512x10 := Rect.unit (s := S512x10) ![0, 1] S512x1.size inb_S512x10_S512x1_0_1
abbrev r1CoefC : Rect S512x10 := Rect.unit (s := S512x10) ![0, 2] S512x1.size inb_S512x10_S512x1_0_2
abbrev r1CoefD : Rect S512x10 := Rect.unit (s := S512x10) ![0, 3] S512x1.size inb_S512x10_S512x1_0_3
abbrev r1CoefE : Rect S512x10 := Rect.unit (s := S512x10) ![0, 4] S512x1.size inb_S512x10_S512x1_0_4
abbrev r1CoefF : Rect S512x10 := Rect.unit (s := S512x10) ![0, 5] S512x1.size inb_S512x10_S512x1_0_5
abbrev r1CoefG : Rect S512x10 := Rect.unit (s := S512x10) ![0, 6] S512x1.size inb_S512x10_S512x1_0_6
abbrev r1CoefH : Rect S512x10 := Rect.unit (s := S512x10) ![0, 7] S512x1.size inb_S512x10_S512x1_0_7
abbrev r1CoefI : Rect S512x10 := Rect.unit (s := S512x10) ![0, 8] S512x1.size inb_S512x10_S512x1_0_8
abbrev r1CoefJ : Rect S512x10 := Rect.unit (s := S512x10) ![0, 9] S512x1.size inb_S512x10_S512x1_0_9
abbrev r1StatA : Rect S512x2 := Rect.unit (s := S512x2) ![0, 0] S512x1.size inb_S512x2_S512x1_0_0
abbrev r1StatB : Rect S512x2 := Rect.unit (s := S512x2) ![0, 1] S512x1.size inb_S512x2_S512x1_0_1
abbrev r1OutAll : Rect S512x2048 := Rect.unit (s := S512x2048) ![0, 0] S512x2048.size inb_S512x2048_S512x2048_0_0

/-! ## What the body leaves in the output window's buffer -/

/-- The polynomial in the nine features with the row's ten coefficients, as the body computes it over the block. -/
def logDensity1 (x0 : Vec F S9x2048 .f32) (x1 : Vec F S512x10 .f32) : FVec F S512x2048 .f32 :=
  k1_pay16 (k1_pay2 (View.ld x0 r1FeatA)) (k1_pay3 (View.ld x0 r1FeatB)) (k1_pay4 (View.ld x0 r1FeatC))
    (k1_pay5 (View.ld x0 r1FeatD)) (k1_pay6 (View.ld x0 r1FeatE)) (k1_pay7 (View.ld x0 r1FeatF))
    (k1_pay8 (View.ld x0 r1FeatG)) (k1_pay9 (View.ld x0 r1FeatH)) (k1_pay10 (View.ld x0 r1FeatI))
    (k1_pay11 (View.ld x1 r1CoefA)) (k1_pay12 (View.ld x1 r1CoefB)) (k1_pay13 (View.ld x1 r1CoefC))
    (k1_pay14 (View.ld x1 r1CoefD)) (k1_pay15 (View.ld x1 r1CoefE))
    (View.ld x1 r1CoefF) (View.ld x1 r1CoefG) (View.ld x1 r1CoefH) (View.ld x1 r1CoefI) (View.ld x1 r1CoefJ)

/-- The output window's buffer after the body, from the three input blocks: its one store, over the whole block. -/
def out1_3 (x0 : Vec F S9x2048 .f32) (x1 : Vec F S512x10 .f32) (x2 : Vec F S512x2 .f32) : Vec F S512x2048 .f32 :=
  View.canon [⟨r1OutAll, k1_pay1 (logDensity1 x0 x1) (k1_pay17 (View.ld x2 r1StatA)) (View.ld x2 r1StatB)⟩]

/-- The one store covers the buffer. -/
theorem cover1_3 (p0 : Vec F S512x2048 .f32) (y : S512x2048.Idx) :
    ∃ pc ∈ ([⟨r1OutAll, p0⟩] : List (View.Piece (Elt F) S512x2048 .f32)), y ∈ pc.1.set :=
  View.cover_of_tiled [⟨r1OutAll, p0⟩] S512x2048.size (by rfl) y

/-! ## The body's triple -/

set_option maxHeartbeats 2000000 in
/-- The body on whole staging buffers, the inputs' at read contents `x0 x1 x2` and the output's at anything, runs to
    the continuation holding the inputs' as they were and the output's at `out1_3 x0 x1 x2`. -/
theorem sound_kernel1 (c : Dev nD) (E : Set ℕ) (i : grid1.Coords)
    (arg1 : Memref sig .tc .vmem S9x2048 .f32) (harg1 : arg1.IsWhole)
    (arg2 : Memref sig .tc .vmem S512x10 .f32) (harg2 : arg2.IsWhole)
    (arg3 : Memref sig .tc .vmem S512x2 .f32) (harg3 : arg3.IsWhole)
    (arg4 : Memref sig .tc .vmem S512x2048 .f32) (harg4 : arg4.IsWhole)
    (x0 : Vec F S9x2048 .f32) (x1 : Vec F S512x10 .f32) (x2 : Vec F S512x2 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out1_3 x0 x1 x2)) -∗ K ⟨⟩))
      ⊢ wp frame (wpE (defs₀ (F := F)) Variants.none c none) E (cc1__norm_kernel i arg1 harg1 arg2 harg2 arg3 harg3 arg4 harg4) K := by
  simp only [cc1__norm_kernel_eq_skeleton]; unfold cc1__norm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t` each
    input's buffer at its block and the output's at `out1_3` of the three input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 1000000 in
/-- The body at any point: the inputs' buffers hold their blocks, so the body's triple applies; the invariant and the
    core's owed count pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.LibStraightLine.lean ====
/-
  A straight line of operations in which every reference is written at most once, read back operation by operation.
  `after ops V` folds the operations' results over the contents `V`. When operation `i` writes only the reference `W[i]`
  and the list `W` has no repetition, the contents after the whole line satisfy, at each operation's own result
  reference, the operation's equation over contents that agree with the final ones at every reference not written from
  position `i` on: the references an operation reads were all written before it, so the final contents are a solution
  of the operations' equations. This turns the nested fold into one flat equation per operation.
-/
import Idealize.ShloMosaic.Lib.StableHlo.Run

noncomputable section

namespace Cert.StraightLine

open Idealize.ShloMosaic Idealize.ShloMosaic.StableHlo Idealize.SL.Sem

variable {τ : Topo} {sig : RefSig} {Val : EltTy → Type}

/-- Two lines folded one after the other are their concatenation folded at once. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- Operation by operation, the line `ops` writes at most the reference at the same position of `W`. -/
abbrev WritesAt (ops : List (HloOp τ sig Val)) (W : List (Ref sig .tc)) : Prop :=
  List.Forall₂ (fun op w => op.writes ⊆ {Proc.devRef (τ := τ) .tc w}) ops W

/-- Two lines, each writing position by position, concatenated. -/
theorem WritesAt.append {l₁ l₂ : List (HloOp τ sig Val)} {w₁ w₂ : List (Ref sig .tc)} (h₁ : WritesAt l₁ w₁) (h₂ : WritesAt l₂ w₂) :
    WritesAt (l₁ ++ l₂) (w₁ ++ w₂) := by
  induction h₁ with
  | nil => exact h₂
  | cons h _ ih => exact List.Forall₂.cons h ih

/-- A reference outside `W` keeps its contents. -/
theorem after_kept : ∀ {ops : List (HloOp τ sig Val)} {W : List (Ref sig .tc)}, WritesAt ops W →
    ∀ (V : Valuation τ sig Val) {r : Ref sig .tc}, r ∉ W → after ops V (Proc.devRef .tc r) = V (Proc.devRef .tc r)
  | _, _, .nil, _, _, _ => rfl
  | _, _, @List.Forall₂.cons _ _ _ op w _ _ h t, V, r, hr => by
    rw [after_cons, after_kept t _ (fun h' => hr (List.mem_cons_of_mem _ h')), op.result_of_not_mem V]
    intro hm
    exact hr ((Proc.devRef_injective _ (Finset.mem_singleton.mp (h hm))) ▸ List.mem_cons_self)

/-- **The line read at operation `i`.** There are contents `F'` (those before the operation) that agree with the final
    contents at every reference not written from position `i` on, and at its own result reference the final contents
    are the operation's result over `F'`. -/
theorem after_at : ∀ {ops : List (HloOp τ sig Val)} {W : List (Ref sig .tc)}, WritesAt ops W → W.Nodup →
    ∀ (V : Valuation τ sig Val) (i : Nat) (op : HloOp τ sig Val) (y : Ref sig .tc), ops[i]? = some op → W[i]? = some y →
      ∃ F' : Valuation τ sig Val,
        (∀ r : Ref sig .tc, r ∉ W.drop i → F' (Proc.devRef .tc r) = after ops V (Proc.devRef .tc r)) ∧
          after ops V (Proc.devRef .tc y) = op.result F' (Proc.devRef .tc y)
  | _, _, .nil, _, _, _, _, _, hop, _ => by simp at hop
  | _, _, @List.Forall₂.cons _ _ _ o w ops W h t, hnd, V, 0, op, y, hop, hy => by
    simp only [List.getElem?_cons_zero, Option.some.injEq] at hop hy
    subst hop hy
    have hnd' := List.nodup_cons.mp hnd
    refine ⟨V, fun r hr => ?_, ?_⟩
    · rw [List.drop_zero] at hr
      rw [after_cons, after_kept t _ (fun h' => hr (List.mem_cons_of_mem _ h')), o.result_of_not_mem V]
      intro hm
      exact hr ((Proc.devRef_injective _ (Finset.mem_singleton.mp (h hm))) ▸ List.mem_cons_self)
    · rw [after_cons, after_kept t _ hnd'.1]
  | _, _, @List.Forall₂.cons _ _ _ o w ops W h t, hnd, V, i + 1, op, y, hop, hy => by
    simp only [List.getElem?_cons_succ] at hop hy
    obtain ⟨F', hF, hy'⟩ := after_at t (List.nodup_cons.mp hnd).2 (o.result V) i op y hop hy
    exact ⟨F', fun r hr => by rw [after_cons]; exact hF r (by simpa using hr), by rw [after_cons]; exact hy'⟩

end Cert.StraightLine

end
-- ==== Proof.KGlueValue.lean ====
/-
  The host operations the kernel program runs before its two kernel regions, read back. They form nine straight
  stretches; `glue V` is the memory the first region is entered with when the program starts from contents `V`: the
  fold of the nine stretches' results, in order. No stretch writes an argument buffer, so the six arguments are in
  `glue V` what they are in `V`.
-/
import proofs.«169934_j78314433675744_2_alg».proof.Proof.Gen.Kernel.Launch
import Idealize.ShloMosaic.Lib.StableHlo.Run
import proofs.«169934_j78314433675744_2_alg».proof.Proof.LibStraightLine

set_option maxRecDepth 4096

noncomputable section

namespace Cert.Kernel.GlueValue

open Cert.Kernel Cert.Kernel.Gen Idealize.ShloMosaic Idealize.ShloMosaic.TcCoe Idealize.SL.Sem Idealize.ShloMosaic.StableHlo

variable {F : FTy → Type} [FloatOps F]

/-- The contents after the nine host stretches, in order, from contents `V`. -/
def glue (V : Valuation τ sig (Elt F)) : Valuation τ sig (Elt F) :=
  after hostOps0_8 (after hostOps0_7 (after hostOps0_6 (after hostOps0_5 (after hostOps0_4
    (after hostOps0_3 (after hostOps0_2 (after hostOps0_1 (after hostOps0 V))))))))

/-- The references stretch 0 writes: each operation's result. -/
abbrev written0 : List (Ref sig .tc) := [main_v0, main_v1, main_v2, main_v3, main_v4, main_v5, main_v6, main_v7, main_v8, main_v9]

/-- The references stretch 1 writes: each operation's result. -/
abbrev written1 : List (Ref sig .tc) := [main_call0_cst, main_call0_v0, main_call0_v1, main_call0_cst_0, main_call0_v2, main_call0_v3, main_call0_cst_1, main_call0_call0_v0, main_call0_call0_v1, main_call0_v4, main_call0_v5, main_call0_cst_2, main_call0_v6, main_call0_v7, main_v10]

/-- The references stretch 2 writes: each operation's result. -/
abbrev written2 : List (Ref sig .tc) := [main_cst, main_v11, main_v12, main_v13, main_v14]

/-- The references stretch 3 writes: each operation's result. -/
abbrev written3 : List (Ref sig .tc) := [main_call1_cst, main_call1_v0, main_call1_v1, main_call1_v2, main_call1_v3, main_call1_v4, main_call1_v5, main_call1_v6, main_call1_v7, main_call1_v8, main_call1_v9, main_call1_v10, main_call1_v11, main_v15]

/-- The references stretch 4 writes: each operation's result. -/
abbrev written4 : List (Ref sig .tc) := [main_v16, main_v17, main_v18, main_v19]

/-- The references stretch 5 writes: each operation's result. -/
abbrev written5 : List (Ref sig .tc) := [main_call2_cst, main_call2_v0, main_call2_v1, main_call2_v2, main_call2_v3, main_call2_v4, main_call2_v5, main_call2_v6, main_call2_v7, main_call2_v8, main_call2_v9, main_call2_v10, main_call2_v11, main_v20]

/-- The references stretch 6 writes: each operation's result. -/
abbrev written6 : List (Ref sig .tc) := [main_v21, main_v22, main_v23, main_v24, main_v25, main_v26]

/-- The references stretch 7 writes: each operation's result. -/
abbrev written7 : List (Ref sig .tc) := [main_call3_cst, main_call3_v0, main_call3_v1, main_call3_v2, main_call3_v3, main_call3_v4, main_call3_v5, main_call3_v6, main_call3_v7, main_call3_v8, main_call3_v9, main_call3_v10, main_call3_v11, main_v27]

/-- The references stretch 8 writes: each operation's result. -/
abbrev written8 : List (Ref sig .tc) := [main_v28, main_v29, main_v30, main_v31, main_v32, main_v33, main_v34, main_v35, main_v36, main_v37, main_v38, main_cst_0, main_v39, main_v40, main_v41, main_v42, main_v43, main_cst_1, main_v44, main_v45, main_cst_2, main_v46, main_v47, main_v48, main_v49, main_v50, main_v51, main_v52, main_v53, main_v54, main_v55, main_v56, main_v57, main_v58, main_v59, main_v60, main_v61, main_v62, main_v63, main_v64, main_v65, main_v66, main_v67, main_cst_3, main_v68, main_v69, main_cst_4, main_v70, main_v71, main_v72, main_cst_5, main_v73, main_v74, main_v75, main_cst_6, main_v76, main_v77, main_cst_7, main_v78, main_v79, main_cst_8, main_v80, main_v81, main_cst_9, main_v82, main_v83, main_cst_10, main_v84, main_v85, main_cst_11, main_v86, main_v87, main_v88, main_cst_12, main_v89, main_v90, main_v91, main_v92, main_cst_13, main_v93, main_v94, main_v95, main_v96, main_v97, main_cst_14, main_v98, main_v99, main_v100, main_v101, main_cst_15, main_v102, main_v103, main_v104, main_v105, main_v106, main_cst_16, main_v107, main_v108, main_v109, main_v110, main_cst_17, main_v111, main_v112, main_v113, main_v114, main_v115, main_v116, main_v117, main_v118, main_v119, main_v120, main_v121, main_v122, main_v123, main_v124, main_v125, main_v126, main_v127, main_v128, main_v129, main_v130, main_v131, main_cst_18, main_v132, main_v133, main_cst_19, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167, main_v168, main_v169]

theorem writes0 : (hostOps0 : List (HloOp τ sig (Elt F))).Forall fun op => op.writes ⊆ ((written0).map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  and_intros <;> (refine List.mem_map_of_mem ?_; decide)

theorem writes1 : (hostOps0_1 : List (HloOp τ sig (Elt F))).Forall fun op => op.writes ⊆ ((written1).map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  and_intros <;> (refine List.mem_map_of_mem ?_; decide)

theorem writes2 : (hostOps0_2 : List (HloOp τ sig (Elt F))).Forall fun op => op.writes ⊆ ((written2).map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  and_intros <;> (refine List.mem_map_of_mem ?_; decide)

theorem writes3 : (hostOps0_3 : List (HloOp τ sig (Elt F))).Forall fun op => op.writes ⊆ ((written3).map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  and_intros <;> (refine List.mem_map_of_mem ?_; decide)

theorem writes4 : (hostOps0_4 : List (HloOp τ sig (Elt F))).Forall fun op => op.writes ⊆ ((written4).map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  and_intros <;> (refine List.mem_map_of_mem ?_; decide)

theorem writes5 : (hostOps0_5 : List (HloOp τ sig (Elt F))).Forall fun op => op.writes ⊆ ((written5).map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  and_intros <;> (refine List.mem_map_of_mem ?_; decide)

theorem writes6 : (hostOps0_6 : List (HloOp τ sig (Elt F))).Forall fun op => op.writes ⊆ ((written6).map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  and_intros <;> (refine List.mem_map_of_mem ?_; decide)

theorem writes7 : (hostOps0_7 : List (HloOp τ sig (Elt F))).Forall fun op => op.writes ⊆ ((written7).map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  and_intros <;> (refine List.mem_map_of_mem ?_; decide)

set_option maxRecDepth 8192 in
set_option maxHeartbeats 4000000 in
theorem writes8 : (hostOps0_8 : List (HloOp τ sig (Elt F))).Forall fun op => op.writes ⊆ ((written8).map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  and_intros <;> (refine List.mem_map_of_mem ?_; decide)

/-- A reference none of the nine stretches writes holds in `glue V` what it holds in `V`. -/
theorem glue_kept (V : Valuation τ sig (Elt F)) (r : Ref sig .tc)
    (h0 : r ∉ written0) (h1 : r ∉ written1) (h2 : r ∉ written2) (h3 : r ∉ written3) (h4 : r ∉ written4)
    (h5 : r ∉ written5) (h6 : r ∉ written6) (h7 : r ∉ written7) (h8 : r ∉ written8) :
    glue V (r : DevRef τ sig) = V (r : DevRef τ sig) := by
  unfold glue
  rw [after_of_writes_sub hostOps0_8 _ writes8 h8, after_of_writes_sub hostOps0_7 _ writes7 h7,
    after_of_writes_sub hostOps0_6 _ writes6 h6, after_of_writes_sub hostOps0_5 _ writes5 h5,
    after_of_writes_sub hostOps0_4 _ writes4 h4, after_of_writes_sub hostOps0_3 _ writes3 h3,
    after_of_writes_sub hostOps0_2 _ writes2 h2, after_of_writes_sub hostOps0_1 _ writes1 h1,
    after_of_writes_sub hostOps0 _ writes0 h0]

/-- Argument 0 is never written. -/
theorem glue_arg0 (V : Valuation τ sig (Elt F)) : glue V (main_arg0 : DevRef τ sig) = V (main_arg0 : DevRef τ sig) :=
  glue_kept V main_arg0 (by decide) (by decide) (by decide) (by decide) (by decide) (by decide) (by decide) (by decide) (by decide)

/-- Argument 1 is never written. -/
theorem glue_arg1 (V : Valuation τ sig (Elt F)) : glue V (main_arg1 : DevRef τ sig) = V (main_arg1 : DevRef τ sig) :=
  glue_kept V main_arg1 (by decide) (by decide) (by decide) (by decide) (by decide) (by decide) (by decide) (by decide) (by decide)

/-- Argument 2 is never written. -/
theorem glue_arg2 (V : Valuation τ sig (Elt F)) : glue V (main_arg2 : DevRef τ sig) = V (main_arg2 : DevRef τ sig) :=
  glue_kept V main_arg2 (by decide) (by decide) (by decide) (by decide) (by decide) (by decide) (by decide) (by decide) (by decide)

/-- Argument 3 is never written. -/
theorem glue_arg3 (V : Valuation τ sig (Elt F)) : glue V (main_arg3 : DevRef τ sig) = V (main_arg3 : DevRef τ sig) :=
  glue_kept V main_arg3 (by decide) (by decide) (by decide) (by decide) (by decide) (by decide) (by decide) (by decide) (by decide)

/-- Argument 4 is never written. -/
theorem glue_arg4 (V : Valuation τ sig (Elt F)) : glue V (main_arg4 : DevRef τ sig) = V (main_arg4 : DevRef τ sig) :=
  glue_kept V main_arg4 (by decide) (by decide) (by decide) (by decide) (by decide) (by decide) (by decide) (by decide) (by decide)

/-- Argument 5 is never written. -/
theorem glue_arg5 (V : Valuation τ sig (Elt F)) : glue V (main_arg5 : DevRef τ sig) = V (main_arg5 : DevRef τ sig) :=
  glue_kept V main_arg5 (by decide) (by decide) (by decide) (by decide) (by decide) (by decide) (by decide) (by decide) (by decide)

/-! ## The nine stretches as one line, read operation by operation -/

/-- The nine stretches, in order, as one line of 244 operations. -/
abbrev allOps : List (HloOp τ sig (Elt F)) :=
  hostOps0 ++ (hostOps0_1 ++ (hostOps0_2 ++ (hostOps0_3 ++ (hostOps0_4 ++ (hostOps0_5 ++ (hostOps0_6 ++ (hostOps0_7 ++ hostOps0_8)))))))

/-- The reference each of the 244 operations writes, in the same order. -/
abbrev allW : List (Ref sig .tc) :=
  written0 ++ (written1 ++ (written2 ++ (written3 ++ (written4 ++ (written5 ++ (written6 ++ (written7 ++ written8)))))))

/-- `glue` is the fold of that one line. -/
theorem glue_eq (V : Valuation τ sig (Elt F)) : glue V = after allOps V := by
  simp only [glue, allOps, Cert.StraightLine.after_append]

theorem writesAt0 : Cert.StraightLine.WritesAt (hostOps0 : List (HloOp τ sig (Elt F))) written0 := by
  repeat (first | exact List.Forall₂.nil | refine List.Forall₂.cons subset_rfl ?_)

theorem writesAt1 : Cert.StraightLine.WritesAt (hostOps0_1 : List (HloOp τ sig (Elt F))) written1 := by
  repeat (first | exact List.Forall₂.nil | refine List.Forall₂.cons subset_rfl ?_)

theorem writesAt2 : Cert.StraightLine.WritesAt (hostOps0_2 : List (HloOp τ sig (Elt F))) written2 := by
  repeat (first | exact List.Forall₂.nil | refine List.Forall₂.cons subset_rfl ?_)

theorem writesAt3 : Cert.StraightLine.WritesAt (hostOps0_3 : List (HloOp τ sig (Elt F))) written3 := by
  repeat (first | exact List.Forall₂.nil | refine List.Forall₂.cons subset_rfl ?_)

theorem writesAt4 : Cert.StraightLine.WritesAt (hostOps0_4 : List (HloOp τ sig (Elt F))) written4 := by
  repeat (first | exact List.Forall₂.nil | refine List.Forall₂.cons subset_rfl ?_)

theorem writesAt5 : Cert.StraightLine.WritesAt (hostOps0_5 : List (HloOp τ sig (Elt F))) written5 := by
  repeat (first | exact List.Forall₂.nil | refine List.Forall₂.cons subset_rfl ?_)

theorem writesAt6 : Cert.StraightLine.WritesAt (hostOps0_6 : List (HloOp τ sig (Elt F))) written6 := by
  repeat (first | exact List.Forall₂.nil | refine List.Forall₂.cons subset_rfl ?_)

theorem writesAt7 : Cert.StraightLine.WritesAt (hostOps0_7 : List (HloOp τ sig (Elt F))) written7 := by
  repeat (first | exact List.Forall₂.nil | refine List.Forall₂.cons subset_rfl ?_)

set_option maxHeartbeats 4000000 in
theorem writesAt8 : Cert.StraightLine.WritesAt (hostOps0_8 : List (HloOp τ sig (Elt F))) written8 := by
  repeat (first | exact List.Forall₂.nil | refine List.Forall₂.cons subset_rfl ?_)

/-- Operation by operation the line writes the references of `allW`. -/
theorem allOps_writesAt : Cert.StraightLine.WritesAt (allOps : List (HloOp τ sig (Elt F))) allW :=
  writesAt0.append (writesAt1.append (writesAt2.append (writesAt3.append (writesAt4.append (writesAt5.append (writesAt6.append (writesAt7.append writesAt8)))))))

/-- No reference is written twice. -/
theorem allW_nodup : allW.Nodup := by decide

/-- **The glue read at operation `i`**: there are contents `F'` that agree with `glue V` at every reference not written
    from position `i` on, and at its own result reference `glue V` is the operation's result over `F'`. -/
theorem glue_at (V : Valuation τ sig (Elt F)) (i : Nat) (op : HloOp τ sig (Elt F)) (y : Ref sig .tc)
    (hop : (allOps : List (HloOp τ sig (Elt F)))[i]? = some op) (hy : allW[i]? = some y) :
    ∃ F' : Valuation τ sig (Elt F),
      (∀ r : Ref sig .tc, r ∉ allW.drop i → F' (Proc.devRef .tc r) = glue V (Proc.devRef .tc r)) ∧
        glue V (Proc.devRef .tc y) = op.result F' (Proc.devRef .tc y) := by
  rw [glue_eq]
  exact Cert.StraightLine.after_at allOps_writesAt allW_nodup V i op y hop hy

/-- Closes `glue V y = f (glue V a) …` for the operation at position `i` of the line (`y` its result reference, `l` its
    builder's result lemma): the operation's result over the contents before it, which are `glue V` at every reference
    the operation reads; the transports of a typed reference's contents along `rfl` are then removed. -/
macro "line_eq " v:ident i:num " with " l:term : tactic =>
  `(tactic| (obtain ⟨F', hF, hy⟩ := glue_at $v $i _ _ rfl rfl
             refine hy.trans ?_
             rw [$l:term]
             repeat (rw [hF]; rotate_left; decide)
             try simp only [StableHlo.TRef.toBuf, StableHlo.TRef.ofBuf, cast_eq]
             all_goals rfl))

end Cert.Kernel.GlueValue

end
-- ==== Proof.KRun.lean ====
/-
  The whole run of the program: nine stretches of host operations, then the two kernel regions. Between two items every
  unscoped buffer is held at named contents — the launch memory folded through the host stretches, then each region's
  arrays at what its write-backs leave — so every weakly fair execution terminates, faulting nowhere, with every unscoped
  buffer at the last of these contents; the argument buffers are written by no item.
-/
import proofs.«169934_j78314433675744_2_alg».proof.Proof.KRegion0
import proofs.«169934_j78314433675744_2_alg».proof.Proof.KRegion1
import proofs.«169934_j78314433675744_2_alg».proof.Proof.KGlueValue

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- After the host stretch `hostOps0_1`. -/
abbrev W2 : Dev nD → Valuation τ sig (Elt F) := fun c => StableHlo.after hostOps0_1 (W1 m ρ c)
/-- After the host stretch `hostOps0_2`. -/
abbrev W3 : Dev nD → Valuation τ sig (Elt F) := fun c => StableHlo.after hostOps0_2 (W2 m ρ c)
/-- After the host stretch `hostOps0_3`. -/
abbrev W4 : Dev nD → Valuation τ sig (Elt F) := fun c => StableHlo.after hostOps0_3 (W3 m ρ c)
/-- After the host stretch `hostOps0_4`. -/
abbrev W5 : Dev nD → Valuation τ sig (Elt F) := fun c => StableHlo.after hostOps0_4 (W4 m ρ c)
/-- After the host stretch `hostOps0_5`. -/
abbrev W6 : Dev nD → Valuation τ sig (Elt F) := fun c => StableHlo.after hostOps0_5 (W5 m ρ c)
/-- After the host stretch `hostOps0_6`. -/
abbrev W7 : Dev nD → Valuation τ sig (Elt F) := fun c => StableHlo.after hostOps0_6 (W6 m ρ c)
/-- After the host stretch `hostOps0_7`. -/
abbrev W8 : Dev nD → Valuation τ sig (Elt F) := fun c => StableHlo.after hostOps0_7 (W7 m ρ c)
/-- After the host stretch `hostOps0_8`. -/
abbrev W9 : Dev nD → Valuation τ sig (Elt F) := fun c => StableHlo.after hostOps0_8 (W8 m ρ c)

/-- The same read at the TensorCore's references: what the first region's proof data take. -/
abbrev V9 : (c : Dev nD) → (b : Ref sig .tc) → Buf (Elt F) ((c : Thread nD τ).loc b) := fun c b => W9 m ρ c b

/-- At region 0's exit: its arrays at what the pipeline's write-backs leave, every other buffer as entered. -/
def W10 (c : Dev nD) : Valuation τ sig (Elt F) :=
  Pipeline.withArrays spec0 c (W9 m ρ c) fun w => (dat0 (V9 m ρ) c).arrAt w cfg0.N
theorem W10_arr (c : Dev nD) (w : Fin cfg0.W) :
    W10 m ρ c (Proc.devRef .tc (Pipeline.arrRef spec0 w)) = (dat0 (V9 m ρ) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 m ρ c (Proc.devRef .tc b) = W9 m ρ c (Proc.devRef .tc b) := by
  unfold W10; exact Pipeline.withArrays_of_ne spec0 c _ _ b hb
abbrev V10 : (c : Dev nD) → (b : Ref sig .tc) → Buf (Elt F) ((c : Thread nD τ).loc b) := fun c b => W10 m ρ c b
theorem hF0 (c : Dev nD) (w : Fin cfg0.W) : (dat0 (V9 m ρ) c).arrAt w cfg0.N = V10 m ρ c (Pipeline.arrRef spec0 w) :=
  (W10_arr m ρ c w).symm
theorem hrest0 (c : Dev nD) : ∀ b, b ∉ Finset.univ.image (Pipeline.arrRef spec0) → V10 m ρ c b = V9 m ρ c b :=
  fun b hb => W10_of_ne m ρ c b fun w e => hb (Finset.mem_image.mpr ⟨w, Finset.mem_univ _, e⟩)

/-- At region 1's exit: its arrays at what the pipeline's write-backs leave, every other buffer as entered. -/
def W11 (c : Dev nD) : Valuation τ sig (Elt F) :=
  Pipeline.withArrays spec1 c (W10 m ρ c) fun w => (dat1 (V10 m ρ) c).arrAt w cfg1.N
theorem W11_arr (c : Dev nD) (w : Fin cfg1.W) :
    W11 m ρ c (Proc.devRef .tc (Pipeline.arrRef spec1 w)) = (dat1 (V10 m ρ) c).arrAt w cfg1.N := by
  unfold W11; exact Pipeline.withArrays_arr spec1 launch1.win.arr_inj c _ _ w
theorem W11_of_ne (c : Dev nD) (b : Ref sig .tc) (hb : ∀ w, Pipeline.arrRef spec1 w ≠ b) :
    W11 m ρ c (Proc.devRef .tc b) = W10 m ρ c (Proc.devRef .tc b) := by
  unfold W11; exact Pipeline.withArrays_of_ne spec1 c _ _ b hb
abbrev V11 : (c : Dev nD) → (b : Ref sig .tc) → Buf (Elt F) ((c : Thread nD τ).loc b) := fun c b => W11 m ρ c b
theorem hF1 (c : Dev nD) (w : Fin cfg1.W) : (dat1 (V10 m ρ) c).arrAt w cfg1.N = V11 m ρ c (Pipeline.arrRef spec1 w) :=
  (W11_arr m ρ c w).symm
theorem hrest1 (c : Dev nD) : ∀ b, b ∉ Finset.univ.image (Pipeline.arrRef spec1) → V11 m ρ c b = V10 m ρ c b :=
  fun b hb => W11_of_ne m ρ c b fun w e => hb (Finset.mem_image.mpr ⟨w, Finset.mem_univ _, e⟩)

/-! The arguments end as launched: no host operation and no region writes one. -/
theorem W11_main_arg0 (c : Dev nD) : W11 m ρ c (Proc.devRef .tc main_arg0) = m ((c : Thread nD τ).loc main_arg0) :=
  calc W11 m ρ c (Proc.devRef .tc main_arg0)
    _ = W10 m ρ c (Proc.devRef .tc main_arg0) := W11_of_ne m ρ c main_arg0 (by decide)
    _ = W9 m ρ c (Proc.devRef .tc main_arg0) := W10_of_ne m ρ c main_arg0 (by decide)
    _ = W0 m ρ c (Proc.devRef .tc main_arg0) := GlueValue.glue_arg0 (W0 m ρ c)
    _ = m ((c : Thread nD τ).loc main_arg0) := rfl
theorem W11_main_arg1 (c : Dev nD) : W11 m ρ c (Proc.devRef .tc main_arg1) = m ((c : Thread nD τ).loc main_arg1) :=
  calc W11 m ρ c (Proc.devRef .tc main_arg1)
    _ = W10 m ρ c (Proc.devRef .tc main_arg1) := W11_of_ne m ρ c main_arg1 (by decide)
    _ = W9 m ρ c (Proc.devRef .tc main_arg1) := W10_of_ne m ρ c main_arg1 (by decide)
    _ = W0 m ρ c (Proc.devRef .tc main_arg1) := GlueValue.glue_arg1 (W0 m ρ c)
    _ = m ((c : Thread nD τ).loc main_arg1) := rfl
theorem W11_main_arg2 (c : Dev nD) : W11 m ρ c (Proc.devRef .tc main_arg2) = m ((c : Thread nD τ).loc main_arg2) :=
  calc W11 m ρ c (Proc.devRef .tc main_arg2)
    _ = W10 m ρ c (Proc.devRef .tc main_arg2) := W11_of_ne m ρ c main_arg2 (by decide)
    _ = W9 m ρ c (Proc.devRef .tc main_arg2) := W10_of_ne m ρ c main_arg2 (by decide)
    _ = W0 m ρ c (Proc.devRef .tc main_arg2) := GlueValue.glue_arg2 (W0 m ρ c)
    _ = m ((c : Thread nD τ).loc main_arg2) := rfl
theorem W11_main_arg3 (c : Dev nD) : W11 m ρ c (Proc.devRef .tc main_arg3) = m ((c : Thread nD τ).loc main_arg3) :=
  calc W11 m ρ c (Proc.devRef .tc main_arg3)
    _ = W10 m ρ c (Proc.devRef .tc main_arg3) := W11_of_ne m ρ c main_arg3 (by decide)
    _ = W9 m ρ c (Proc.devRef .tc main_arg3) := W10_of_ne m ρ c main_arg3 (by decide)
    _ = W0 m ρ c (Proc.devRef .tc main_arg3) := GlueValue.glue_arg3 (W0 m ρ c)
    _ = m ((c : Thread nD τ).loc main_arg3) := rfl
theorem W11_main_arg4 (c : Dev nD) : W11 m ρ c (Proc.devRef .tc main_arg4) = m ((c : Thread nD τ).loc main_arg4) :=
  calc W11 m ρ c (Proc.devRef .tc main_arg4)
    _ = W10 m ρ c (Proc.devRef .tc main_arg4) := W11_of_ne m ρ c main_arg4 (by decide)
    _ = W9 m ρ c (Proc.devRef .tc main_arg4) := W10_of_ne m ρ c main_arg4 (by decide)
    _ = W0 m ρ c (Proc.devRef .tc main_arg4) := GlueValue.glue_arg4 (W0 m ρ c)
    _ = m ((c : Thread nD τ).loc main_arg4) := rfl
theorem W11_main_arg5 (c : Dev nD) : W11 m ρ c (Proc.devRef .tc main_arg5) = m ((c : Thread nD τ).loc main_arg5) :=
  calc W11 m ρ c (Proc.devRef .tc main_arg5)
    _ = W10 m ρ c (Proc.devRef .tc main_arg5) := W11_of_ne m ρ c main_arg5 (by decide)
    _ = W9 m ρ c (Proc.devRef .tc main_arg5) := W10_of_ne m ρ c main_arg5 (by decide)
    _ = W0 m ρ c (Proc.devRef .tc main_arg5) := GlueValue.glue_arg5 (W0 m ρ c)
    _ = m ((c : Thread nD τ).loc main_arg5) := rfl

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V9 m ρ) c
  | ⟨1, _⟩ => fun c => dat1 (V10 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W11 m ρ c) ∗ ∃ r, prngReg c r)

set_option backward.isDefEq.respectTransparency.types false in
/-- Region 0 over the thread state: entered from every unscoped buffer at the contents before it, left at the contents
    after it. Its arrays are split out of the unscoped buffers at entry and put back at their final contents at exit; the
    generator register and the scoped buffers go into the region's invariant and come back; nothing is owed; the kernel
    has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V9 m ρ) c).loose
  hwaits := Pipeline.hwaits_of_owed_zero _ _ _ _ L lv 0 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec0 c (V9 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = (dat0 (V9 m ρ) c).Φ (Fin.last cfg0.N) from rfl]
    have h := hout0 (V9 m ρ) c
    unfold Pipeline.ΦA at h
    iintro HPhi
    ihave H := h $$ HPhi
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V9 m ρ c) (V10 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers at entry and put back at their final contents at exit; the
    generator register and the scoped buffers go into the region's invariant and come back; nothing is owed; the kernel
    has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V10 m ρ) c).loose
  hwaits := Pipeline.hwaits_of_owed_zero _ _ _ _ L lv 1 fun _ _ => rfl
  pre c := iprop(StableHlo.held (c : Thread nD τ) (Pipeline.ucRefs τ sig) (W10 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V10 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V10 m ρ c) (V11 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's eleven segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .region (reg0 m ρ),
    .region (reg1 m ρ) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- The frame: every argument buffer ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c _ (mem_uc main_arg0 (by decide))).trans (W11_main_arg0 m ρ c),
    (h c _ (mem_uc main_arg1 (by decide))).trans (W11_main_arg1 m ρ c),
    (h c _ (mem_uc main_arg2 (by decide))).trans (W11_main_arg2 m ρ c),
    (h c _ (mem_uc main_arg3 (by decide))).trans (W11_main_arg3 m ρ c),
    (h c _ (mem_uc main_arg4 (by decide))).trans (W11_main_arg4 m ρ c),
    (h c _ (mem_uc main_arg5 (by decide))).trans (W11_main_arg5 m ρ c)⟩) (run_all m ρ)

end Cert.Kernel.Hand

end
-- ==== Proof.KIRegion0Base.lean ====
/-
  The first kernel region (the running maximum and running sum over 32 tiles of pixels, for two blocks of 256 rows):
  what its proof shares. A point t of its 64-point grid is tile t mod 32 of row block t / 32. The body resets its two
  carried buffers (the running maximum, the running sum) at a block's first tile, updates them at every tile, and
  stores its 256×2 output (maximum, sum + ε) at the block's last tile only; at the other tiles the output window is idle.
-/
import proofs.«169934_j78314433675744_2_alg».proof.Proof.Gen.KernelIdeal.Launch
import proofs.«169934_j78314433675744_2_alg».proof.Proof.Gen.KernelIdeal.Skeleton
import proofs.«169934_j78314433675744_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The coefficient window's buffer holds its block at every point: it is fetched at a row block's first tile and its
    block index does not move within the row block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's two branch conditions, decided over the grid -/

/-- The tile is the row block's first (the body's first conditional). -/
abbrev firstTile (i : grid0.Coords) : Prop := (Scalar.cmpi .ne (Scalar.extui (Scalar.cmpi .eq (BitVec.ofNat 32 (i 1).val) 0#32)) 0#32) = 1#1
theorem hfirst : ∀ t : Fin cfg0.N, firstTile (grid0.coords t) ↔ t.val % 32 = 0 :=
  (by decide +kernel : ∀ t : Fin grid0.N, firstTile (grid0.coords t) ↔ t.val % 32 = 0)

/-- The tile is the row block's last (the body's second conditional). -/
abbrev lastTile (i : grid0.Coords) : Prop := k0_cond2 i = 1#1
theorem hlast : ∀ t : Fin cfg0.N, lastTile (grid0.coords t) ↔ t.val % 32 = 31 :=
  (by decide +kernel : ∀ t : Fin grid0.N, lastTile (grid0.coords t) ↔ t.val % 32 = 31)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Before a row block's last tile the output window is idle and is not written back. -/
theorem idleAt0_2 : ∀ t : Fin cfg0.N, ¬lastTile (grid0.coords t) → cfg0.idle 2 (grid0.coords t) = true := by decide +kernel
theorem noFlush0_2 : ∀ t : Fin cfg0.N, ¬lastTile (grid0.coords t) → (cfg0.win 2).flush t = false := by decide +kernel
/-- At a row block's last tile the output window is live. -/
theorem liveAt0_2 : ∀ t : Fin cfg0.N, lastTile (grid0.coords t) → cfg0.idle 2 (grid0.coords t) = false := by decide +kernel

/-! ## The memrefs the body is called with -/

/-- One staging buffer of the output window, through which its contents are stated. -/
abbrev VO0_2 : View sig .tc .vmem S256x2 .f32 := (Memref.whole cc0_stg2_0 : Memref sig .tc .vmem S256x2 .f32).view
abbrev ms0_0 (t : Fin cfg0.N) : Memref sig .tc .vmem S9x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x10 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2 .f32 := win0_2.stage (cfg0.slots t 2)
abbrev hs0_2 (t : Fin cfg0.N) : (ms0_2 t).IsWhole := hstage0_2 ((cfg0.slots t 2).cast nbuf0_2)
/-- The two carried buffers: the running maximum and the running sum. -/
abbrev scMax : Memref sig .tc .vmem S256x1 .f32 := Memref.whole cc0_scratch0
abbrev scSum : Memref sig .tc .vmem S256x1 .f32 := Memref.whole cc0_scratch1
abbrev VSMax : View sig .tc .vmem S256x1 .f32 := scMax.view
abbrev VSSum : View sig .tc .vmem S256x1 .f32 := scSum.view

/-- The second region's staging buffers, whole at some contents: scoped buffers this region never touches. -/
def otherStages (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region's resting invariant, with the two carried buffers as memrefs owned at some contents. -/
theorem PhiA0_eq (c : Dev nD) :
    (Pipeline.ΦA spec0 c : sProp 𝕄)
      = iprop(iprop((∃ d, owns (c : Thread nD τ) scMax fullShare d) ∗ (∃ d, owns (c : Thread nD τ) scSum fullShare d) ∗ otherStages c) ∗ (∃ r, prngReg c r)) := by
  unfold Pipeline.ΦA otherStages; rw [scopedRest0_eq]; simp only [scMax, scSum, owns_whole]; try rfl

end Cert.KernelIdeal.Hand

end
-- ==== Proof.KIRun0A.lean ====
/-
  The first kernel region's body, run whole at a row block's first tile (the carried buffers are reset, then updated; the output is not touched):
  the pieces each buffer ends with are found by running the body symbolically.
-/
import proofs.«169934_j78314433675744_2_alg».proof.Proof.KIRegion0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces the body's stores leave in the output's buffer and in the two carried buffers (last store first), with
    the proof that from whole buffers — the inputs' at their contents, the output's at contents handed back untouched, the carried
    buffers at anything — the body runs to its continuation with the inputs' as they were and every stored
    buffer at its pieces written. -/
noncomputable def kernelRun0_A (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : firstTile i) (hc1 : ¬lastTile i)
    (x0 : Vec F S9x2048 .f32) (x1 : Vec F S256x10 .f32) :
    Σ' (L2 : List (View.Piece (Elt F) S256x2 .f32)) (LS0 : List (View.Piece (Elt F) S256x1 .f32)), { LS1 : List (View.Piece (Elt F) S256x1 .f32) //
      ∀ (xi2 : Vec F S256x2 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg2 harg2 arg3 harg3 arg4 harg4 arg5 harg5 arg6 harg6) K } := by
  refine ⟨[], ?_, ?_, fun xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Hand

end
-- ==== Proof.KIRun0B.lean ====
/-
  The first kernel region's body, run whole at a middle tile (the carried buffers are updated; the output is not touched):
  the pieces each buffer ends with are found by running the body symbolically.
-/
import proofs.«169934_j78314433675744_2_alg».proof.Proof.KIRun0A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces the body's stores leave in the output's buffer and in the two carried buffers (last store first), with
    the proof that from whole buffers — the inputs' at their contents, the output's at contents handed back untouched, the carried
    buffers at what the tile before left — the body runs to its continuation with the inputs' as they were and every stored
    buffer at its pieces written. -/
noncomputable def kernelRun0_B (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : ¬firstTile i) (hc1 : ¬lastTile i)
    (x0 : Vec F S9x2048 .f32) (x1 : Vec F S256x10 .f32) (xs0 : Vec F S256x1 .f32) (xs1 : Vec F S256x1 .f32) :
    Σ' (L2 : List (View.Piece (Elt F) S256x2 .f32)) (LS0 : List (View.Piece (Elt F) S256x1 .f32)), { LS1 : List (View.Piece (Elt F) S256x1 .f32) //
      ∀ (xi2 : Vec F S256x2 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg2 harg2 arg3 harg3 arg4 harg4 arg5 harg5 arg6 harg6) K } := by
  refine ⟨[], ?_, ?_, fun xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Hand

end
-- ==== Proof.KIRun0C.lean ====
/-
  The first kernel region's body, run whole at a row block's last tile (the carried buffers are updated, then the output's two columns are stored):
  the pieces each buffer ends with are found by running the body symbolically.
-/
import proofs.«169934_j78314433675744_2_alg».proof.Proof.KIRun0B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces the body's stores leave in the output's buffer and in the two carried buffers (last store first), with
    the proof that from whole buffers — the inputs' at their contents, the output's at anything, the carried
    buffers at what the tile before left — the body runs to its continuation with the inputs' as they were and every stored
    buffer at its pieces written. -/
noncomputable def kernelRun0_C (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : ¬firstTile i) (hc1 : lastTile i)
    (x0 : Vec F S9x2048 .f32) (x1 : Vec F S256x10 .f32) (xs0 : Vec F S256x1 .f32) (xs1 : Vec F S256x1 .f32) :
    Σ' (L2 : List (View.Piece (Elt F) S256x2 .f32)) (LS0 : List (View.Piece (Elt F) S256x1 .f32)), { LS1 : List (View.Piece (Elt F) S256x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg2 harg2 arg3 harg3 arg4 harg4 arg5 harg5 arg6 harg6) K } := by
  refine ⟨?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [HS0]; · iexists _; iexact HS0
    iexists _; iexact HS1

end Cert.KernelIdeal.Hand

end
-- ==== Proof.KIRegion0.lean ====
/-
  The first kernel region: what its buffers hold after each tile, its proof data, and the body's obligation at every point.
  After tile t the two carried buffers hold what the body's case at t computes from the point's blocks and, except at a row
  block's first tile, from what tile t - 1 left; the output's buffer holds the two stored columns at a row block's last tile.
-/
import proofs.«169934_j78314433675744_2_alg».proof.Proof.KIRun0C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What this case leaves in the output's buffer: its pieces read back (none: the case stores nothing there; a value nothing consults, the window being idle at its points). -/
def out0_A (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : firstTile i) (hc1 : ¬lastTile i)
    (x0 : Vec F S9x2048 .f32) (x1 : Vec F S256x10 .f32) : Vec F S256x2 .f32 :=
  VO0_2.read (Elt F) (VO0_2.writes (Elt F) VO0_2.junk (kernelRun0_A c i arg2 harg2 arg3 harg3 arg4 harg4 arg5 harg5 arg6 harg6 hc0 hc1 x0 x1).1)

/-- This case's stores cover the running maximum's buffer. -/
theorem mcover0_A (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : firstTile i) (hc1 : ¬lastTile i)
    (x0 : Vec F S9x2048 .f32) (x1 : Vec F S256x10 .f32) (y : S256x1.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S256x1.size (by sl_kernel_rfl) y

/-- What this case leaves in the running maximum's buffer. -/
def mout0_A (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : firstTile i) (hc1 : ¬lastTile i)
    (x0 : Vec F S9x2048 .f32) (x1 : Vec F S256x10 .f32) : Vec F S256x1 .f32 :=
  VSMax.read (Elt F) (VSMax.writes (Elt F) VSMax.junk (kernelRun0_A c i arg2 harg2 arg3 harg3 arg4 harg4 arg5 harg5 arg6 harg6 hc0 hc1 x0 x1).2.1)

/-- This case's stores cover the running sum's buffer. -/
theorem lcover0_A (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : firstTile i) (hc1 : ¬lastTile i)
    (x0 : Vec F S9x2048 .f32) (x1 : Vec F S256x10 .f32) (y : S256x1.Idx) :
    ∃ pc ∈ (kernelRun0_A c i arg2 harg2 arg3 harg3 arg4 harg4 arg5 harg5 arg6 harg6 hc0 hc1 x0 x1).2.2.1, y ∈ pc.1.set :=
  View.cover_of_tiledL (kernelRun0_A c i arg2 harg2 arg3 harg3 arg4 harg4 arg5 harg5 arg6 harg6 hc0 hc1 x0 x1).2.2.1 S256x1.size (by sl_kernel_rfl) y

/-- What this case leaves in the running sum's buffer. -/
def lout0_A (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : firstTile i) (hc1 : ¬lastTile i)
    (x0 : Vec F S9x2048 .f32) (x1 : Vec F S256x10 .f32) : Vec F S256x1 .f32 :=
  VSSum.read (Elt F) (VSSum.writes (Elt F) VSSum.junk (kernelRun0_A c i arg2 harg2 arg3 harg3 arg4 harg4 arg5 harg5 arg6 harg6 hc0 hc1 x0 x1).2.2.1)

/-- What this case leaves in the output's buffer: its pieces read back (none: the case stores nothing there; a value nothing consults, the window being idle at its points). -/
def out0_B (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : ¬firstTile i) (hc1 : ¬lastTile i)
    (x0 : Vec F S9x2048 .f32) (x1 : Vec F S256x10 .f32) (xs0 : Vec F S256x1 .f32) (xs1 : Vec F S256x1 .f32) : Vec F S256x2 .f32 :=
  VO0_2.read (Elt F) (VO0_2.writes (Elt F) VO0_2.junk (kernelRun0_B c i arg2 harg2 arg3 harg3 arg4 harg4 arg5 harg5 arg6 harg6 hc0 hc1 x0 x1 xs0 xs1).1)

/-- This case's stores cover the running maximum's buffer. -/
theorem mcover0_B (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : ¬firstTile i) (hc1 : ¬lastTile i)
    (x0 : Vec F S9x2048 .f32) (x1 : Vec F S256x10 .f32) (xs0 : Vec F S256x1 .f32) (xs1 : Vec F S256x1 .f32) (y : S256x1.Idx) :
    ∃ pc ∈ (kernelRun0_B c i arg2 harg2 arg3 harg3 arg4 harg4 arg5 harg5 arg6 harg6 hc0 hc1 x0 x1 xs0 xs1).2.1, y ∈ pc.1.set :=
  View.cover_of_tiledL (kernelRun0_B c i arg2 harg2 arg3 harg3 arg4 harg4 arg5 harg5 arg6 harg6 hc0 hc1 x0 x1 xs0 xs1).2.1 S256x1.size (by sl_kernel_rfl) y

/-- What this case leaves in the running maximum's buffer. -/
def mout0_B (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : ¬firstTile i) (hc1 : ¬lastTile i)
    (x0 : Vec F S9x2048 .f32) (x1 : Vec F S256x10 .f32) (xs0 : Vec F S256x1 .f32) (xs1 : Vec F S256x1 .f32) : Vec F S256x1 .f32 :=
  VSMax.read (Elt F) (VSMax.writes (Elt F) VSMax.junk (kernelRun0_B c i arg2 harg2 arg3 harg3 arg4 harg4 arg5 harg5 arg6 harg6 hc0 hc1 x0 x1 xs0 xs1).2.1)

/-- This case's stores cover the running sum's buffer. -/
theorem lcover0_B (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : ¬firstTile i) (hc1 : ¬lastTile i)
    (x0 : Vec F S9x2048 .f32) (x1 : Vec F S256x10 .f32) (xs0 : Vec F S256x1 .f32) (xs1 : Vec F S256x1 .f32) (y : S256x1.Idx) :
    ∃ pc ∈ (kernelRun0_B c i arg2 harg2 arg3 harg3 arg4 harg4 arg5 harg5 arg6 harg6 hc0 hc1 x0 x1 xs0 xs1).2.2.1, y ∈ pc.1.set :=
  View.cover_of_tiledL (kernelRun0_B c i arg2 harg2 arg3 harg3 arg4 harg4 arg5 harg5 arg6 harg6 hc0 hc1 x0 x1 xs0 xs1).2.2.1 S256x1.size (by sl_kernel_rfl) y

/-- What this case leaves in the running sum's buffer. -/
def lout0_B (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : ¬firstTile i) (hc1 : ¬lastTile i)
    (x0 : Vec F S9x2048 .f32) (x1 : Vec F S256x10 .f32) (xs0 : Vec F S256x1 .f32) (xs1 : Vec F S256x1 .f32) : Vec F S256x1 .f32 :=
  VSSum.read (Elt F) (VSSum.writes (Elt F) VSSum.junk (kernelRun0_B c i arg2 harg2 arg3 harg3 arg4 harg4 arg5 harg5 arg6 harg6 hc0 hc1 x0 x1 xs0 xs1).2.2.1)

/-- What this case leaves in the output's buffer: its pieces read back. -/
def out0_C (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : ¬firstTile i) (hc1 : lastTile i)
    (x0 : Vec F S9x2048 .f32) (x1 : Vec F S256x10 .f32) (xs0 : Vec F S256x1 .f32) (xs1 : Vec F S256x1 .f32) : Vec F S256x2 .f32 :=
  VO0_2.read (Elt F) (VO0_2.writes (Elt F) VO0_2.junk (kernelRun0_C c i arg2 harg2 arg3 harg3 arg4 harg4 arg5 harg5 arg6 harg6 hc0 hc1 x0 x1 xs0 xs1).1)

/-- The two column stores tile the output's 256×2 block. -/
theorem ocover0_C (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : ¬firstTile i) (hc1 : lastTile i)
    (x0 : Vec F S9x2048 .f32) (x1 : Vec F S256x10 .f32) (xs0 : Vec F S256x1 .f32) (xs1 : Vec F S256x1 .f32) (y : S256x2.Idx) :
    ∃ pc ∈ (kernelRun0_C c i arg2 harg2 arg3 harg3 arg4 harg4 arg5 harg5 arg6 harg6 hc0 hc1 x0 x1 xs0 xs1).1, y ∈ pc.1.set :=
  View.cover_of_tiledL (kernelRun0_C c i arg2 harg2 arg3 harg3 arg4 harg4 arg5 harg5 arg6 harg6 hc0 hc1 x0 x1 xs0 xs1).1 S256x1.size (by sl_kernel_rfl) y

/-- This case's stores cover the running maximum's buffer. -/
theorem mcover0_C (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : ¬firstTile i) (hc1 : lastTile i)
    (x0 : Vec F S9x2048 .f32) (x1 : Vec F S256x10 .f32) (xs0 : Vec F S256x1 .f32) (xs1 : Vec F S256x1 .f32) (y : S256x1.Idx) :
    ∃ pc ∈ (kernelRun0_C c i arg2 harg2 arg3 harg3 arg4 harg4 arg5 harg5 arg6 harg6 hc0 hc1 x0 x1 xs0 xs1).2.1, y ∈ pc.1.set :=
  View.cover_of_tiledL (kernelRun0_C c i arg2 harg2 arg3 harg3 arg4 harg4 arg5 harg5 arg6 harg6 hc0 hc1 x0 x1 xs0 xs1).2.1 S256x1.size (by sl_kernel_rfl) y

/-- What this case leaves in the running maximum's buffer. -/
def mout0_C (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : ¬firstTile i) (hc1 : lastTile i)
    (x0 : Vec F S9x2048 .f32) (x1 : Vec F S256x10 .f32) (xs0 : Vec F S256x1 .f32) (xs1 : Vec F S256x1 .f32) : Vec F S256x1 .f32 :=
  VSMax.read (Elt F) (VSMax.writes (Elt F) VSMax.junk (kernelRun0_C c i arg2 harg2 arg3 harg3 arg4 harg4 arg5 harg5 arg6 harg6 hc0 hc1 x0 x1 xs0 xs1).2.1)

/-- This case's stores cover the running sum's buffer. -/
theorem lcover0_C (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : ¬firstTile i) (hc1 : lastTile i)
    (x0 : Vec F S9x2048 .f32) (x1 : Vec F S256x10 .f32) (xs0 : Vec F S256x1 .f32) (xs1 : Vec F S256x1 .f32) (y : S256x1.Idx) :
    ∃ pc ∈ (kernelRun0_C c i arg2 harg2 arg3 harg3 arg4 harg4 arg5 harg5 arg6 harg6 hc0 hc1 x0 x1 xs0 xs1).2.2.1, y ∈ pc.1.set :=
  View.cover_of_tiledL (kernelRun0_C c i arg2 harg2 arg3 harg3 arg4 harg4 arg5 harg5 arg6 harg6 hc0 hc1 x0 x1 xs0 xs1).2.2.1 S256x1.size (by sl_kernel_rfl) y

/-- What this case leaves in the running sum's buffer. -/
def lout0_C (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : ¬firstTile i) (hc1 : lastTile i)
    (x0 : Vec F S9x2048 .f32) (x1 : Vec F S256x10 .f32) (xs0 : Vec F S256x1 .f32) (xs1 : Vec F S256x1 .f32) : Vec F S256x1 .f32 :=
  VSSum.read (Elt F) (VSSum.writes (Elt F) VSSum.junk (kernelRun0_C c i arg2 harg2 arg3 harg3 arg4 harg4 arg5 harg5 arg6 harg6 hc0 hc1 x0 x1 xs0 xs1).2.2.1)

section Region0

variable (V : (c : Dev nD) → (b : Ref sig .tc) → Buf (Elt F) ((c : Thread nD τ).loc b))

/-- THE ACCUMULATION: what the output's buffer, the running maximum and the running sum hold after the body at position
    `n`, by recursion on the position — the case the tile's place in its row block selects, run at the point's
    blocks and (after a first tile) at what position `n - 1` left in the two carried buffers. -/
def outsAt0 (c : Dev nD) : (n : ℕ) → n < cfg0.N → Vec F S256x2 .f32 × Vec F S256x1 .f32 × Vec F S256x1 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scMax (Memref.isWhole_whole _) scSum (Memref.isWhole_whole _) ((hfirst ⟨0, hn⟩).mpr (Nat.zero_mod _)) (fun h => (fun h => by (try dsimp only at h); omega) ((hlast ⟨0, hn⟩).mp h)) (iblk0 V c 0 ⟨0, hn⟩) (iblk0 V c 1 ⟨0, hn⟩), mout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scMax (Memref.isWhole_whole _) scSum (Memref.isWhole_whole _) ((hfirst ⟨0, hn⟩).mpr (Nat.zero_mod _)) (fun h => (fun h => by (try dsimp only at h); omega) ((hlast ⟨0, hn⟩).mp h)) (iblk0 V c 0 ⟨0, hn⟩) (iblk0 V c 1 ⟨0, hn⟩), lout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scMax (Memref.isWhole_whole _) scSum (Memref.isWhole_whole _) ((hfirst ⟨0, hn⟩).mpr (Nat.zero_mod _)) (fun h => (fun h => by (try dsimp only at h); omega) ((hlast ⟨0, hn⟩).mp h)) (iblk0 V c 0 ⟨0, hn⟩) (iblk0 V c 1 ⟨0, hn⟩))
  | n + 1, hn =>
    if h0 : (n + 1) % 32 = 0 then
      if h1 : (n + 1) % 32 = 31 then
        False.elim (by omega)
      else
        (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scMax (Memref.isWhole_whole _) scSum (Memref.isWhole_whole _) ((hfirst ⟨n + 1, hn⟩).mpr h0) (fun h => h1 ((hlast ⟨n + 1, hn⟩).mp h)) (iblk0 V c 0 ⟨n + 1, hn⟩) (iblk0 V c 1 ⟨n + 1, hn⟩), mout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scMax (Memref.isWhole_whole _) scSum (Memref.isWhole_whole _) ((hfirst ⟨n + 1, hn⟩).mpr h0) (fun h => h1 ((hlast ⟨n + 1, hn⟩).mp h)) (iblk0 V c 0 ⟨n + 1, hn⟩) (iblk0 V c 1 ⟨n + 1, hn⟩), lout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scMax (Memref.isWhole_whole _) scSum (Memref.isWhole_whole _) ((hfirst ⟨n + 1, hn⟩).mpr h0) (fun h => h1 ((hlast ⟨n + 1, hn⟩).mp h)) (iblk0 V c 0 ⟨n + 1, hn⟩) (iblk0 V c 1 ⟨n + 1, hn⟩))
    else
      if h1 : (n + 1) % 32 = 31 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scMax (Memref.isWhole_whole _) scSum (Memref.isWhole_whole _) (fun h => h0 ((hfirst ⟨n + 1, hn⟩).mp h)) ((hlast ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2, mout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scMax (Memref.isWhole_whole _) scSum (Memref.isWhole_whole _) (fun h => h0 ((hfirst ⟨n + 1, hn⟩).mp h)) ((hlast ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2, lout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scMax (Memref.isWhole_whole _) scSum (Memref.isWhole_whole _) (fun h => h0 ((hfirst ⟨n + 1, hn⟩).mp h)) ((hlast ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2)
      else
        (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scMax (Memref.isWhole_whole _) scSum (Memref.isWhole_whole _) (fun h => h0 ((hfirst ⟨n + 1, hn⟩).mp h)) (fun h => h1 ((hlast ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2, mout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scMax (Memref.isWhole_whole _) scSum (Memref.isWhole_whole _) (fun h => h0 ((hfirst ⟨n + 1, hn⟩).mp h)) (fun h => h1 ((hlast ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2, lout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scMax (Memref.isWhole_whole _) scSum (Memref.isWhole_whole _) (fun h => h0 ((hfirst ⟨n + 1, hn⟩).mp h)) (fun h => h1 ((hlast ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2)

theorem outsAt0_A (c : Dev nD) (t : Fin cfg0.N) (h0 : t.val % 32 = 0) (h1 : ¬t.val % 32 = 31) :
    outsAt0 V c t.val t.isLt = (out0_A c (grid0.coords t) (ms0_0 t) (hs0_0 t) (ms0_1 t) (hs0_1 t) (ms0_2 t) (hs0_2 t) scMax (Memref.isWhole_whole _) scSum (Memref.isWhole_whole _) ((hfirst t).mpr h0) (fun h => h1 ((hlast t).mp h)) (iblk0 V c 0 t) (iblk0 V c 1 t), mout0_A c (grid0.coords t) (ms0_0 t) (hs0_0 t) (ms0_1 t) (hs0_1 t) (ms0_2 t) (hs0_2 t) scMax (Memref.isWhole_whole _) scSum (Memref.isWhole_whole _) ((hfirst t).mpr h0) (fun h => h1 ((hlast t).mp h)) (iblk0 V c 0 t) (iblk0 V c 1 t), lout0_A c (grid0.coords t) (ms0_0 t) (hs0_0 t) (ms0_1 t) (hs0_1 t) (ms0_2 t) (hs0_2 t) scMax (Memref.isWhole_whole _) scSum (Memref.isWhole_whole _) ((hfirst t).mpr h0) (fun h => h1 ((hlast t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 32 = 0) (h1 : ¬t.val % 32 = 31) :
    outsAt0 V c t.val t.isLt = (out0_B c (grid0.coords t) (ms0_0 t) (hs0_0 t) (ms0_1 t) (hs0_1 t) (ms0_2 t) (hs0_2 t) scMax (Memref.isWhole_whole _) scSum (Memref.isWhole_whole _) (fun h => h0 ((hfirst t).mp h)) (fun h => h1 ((hlast t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, mout0_B c (grid0.coords t) (ms0_0 t) (hs0_0 t) (ms0_1 t) (hs0_1 t) (ms0_2 t) (hs0_2 t) scMax (Memref.isWhole_whole _) scSum (Memref.isWhole_whole _) (fun h => h0 ((hfirst t).mp h)) (fun h => h1 ((hlast t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, lout0_B c (grid0.coords t) (ms0_0 t) (hs0_0 t) (ms0_1 t) (hs0_1 t) (ms0_2 t) (hs0_2 t) scMax (Memref.isWhole_whole _) scSum (Memref.isWhole_whole _) (fun h => h0 ((hfirst t).mp h)) (fun h => h1 ((hlast t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 V c t.val t.isLt = (out0_C c (grid0.coords t) (ms0_0 t) (hs0_0 t) (ms0_1 t) (hs0_1 t) (ms0_2 t) (hs0_2 t) scMax (Memref.isWhole_whole _) scSum (Memref.isWhole_whole _) (fun h => h0 ((hfirst t).mp h)) ((hlast t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, mout0_C c (grid0.coords t) (ms0_0 t) (hs0_0 t) (ms0_1 t) (hs0_1 t) (ms0_2 t) (hs0_2 t) scMax (Memref.isWhole_whole _) scSum (Memref.isWhole_whole _) (fun h => h0 ((hfirst t).mp h)) ((hlast t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, lout0_C c (grid0.coords t) (ms0_0 t) (hs0_0 t) (ms0_1 t) (hs0_1 t) (ms0_2 t) (hs0_2 t) scMax (Memref.isWhole_whole _) scSum (Memref.isWhole_whole _) (fun h => h0 ((hfirst t).mp h)) ((hlast t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the resting one (every scoped buffer at
    anything); afterwards the two carried buffers at what the point before left, the other scoped buffers at anything, and
    the generator register at some state. -/
def PhiS (c : Dev nD) : (n : ℕ) → n ≤ cfg0.N → sProp 𝕄
  | 0, _ => Pipeline.ΦA spec0 c
  | n + 1, hn => iprop(iprop(owns (c : Thread nD τ) scMax fullShare ((outsAt0 V c n hn).2.1) ∗ owns (c : Thread nD τ) scSum fullShare ((outsAt0 V c n hn).2.2) ∗ otherStages c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scMax fullShare ((outsAt0 V c n hn).2.1) ∗ owns (c : Thread nD τ) scSum fullShare ((outsAt0 V c n hn).2.2) ∗ otherStages c) ∗ (∃ r, prngReg c r)) := rfl

theorem PhiS_pos (c : Dev nD) (n : ℕ) (h : n ≤ cfg0.N) (hz : n ≠ 0) :
    PhiS V c n h = iprop(iprop(owns (c : Thread nD τ) scMax fullShare ((outsAt0 V c (n - 1) (by omega)).2.1) ∗ owns (c : Thread nD τ) scSum fullShare ((outsAt0 V c (n - 1) (by omega)).2.2) ∗ otherStages c) ∗ (∃ r, prngReg c r)) := by
  cases n with
  | zero => exact absurd rfl hz
  | succ n => rfl

/-- The proof data of the first pipeline on core `c`: the arrays as the region finds them; after the body at a point
    each input's buffer at its block and the output's at the accumulation's first component; the invariant above;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' buffers hold their blocks; the tile's place in its row block says which case
    runs; the invariant hands the body the two carried buffers at what the tile before left (at anything at the very
    first point) and takes them back at this tile's contents, the case's stores covering each; an output the case does
    not store into is idle there and is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 32 = 0
  · have h1 : ¬t.val % 32 = 31 := by omega
    rw [Dat.leavesExact_idle (dat0 V c) 2 t (idleAt0_2 t (fun h => h1 ((hlast t).mp h))) (noFlush0_2 t (fun h => h1 ((hlast t).mp h)))]
    rw [outsAt0_A V c t h0 h1]
    unfold mout0_A lout0_A; (try dsimp only)
    by_cases hz : t.val = 0
    · rw [PhiS_castSucc V c t, PhiS_zero V c _ _ hz, PhiA0_eq]
      iintro ⟨⟨⟨HS0, HS1, Hrest⟩, Hg⟩, Ho, ⟨%d0, H0⟩, ⟨%d1, H1⟩, ⟨%d2, H2⟩⟩
      iapply ((kernelRun0_A c (grid0.coords t) _ _ _ _ _ _ _ _ _ _ ((hfirst t).mpr h0) (fun h => h1 ((hlast t).mp h)) (iblk0 V c 0 t) (iblk0 V c 1 t)).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (mcover0_A c _ _ _ _ _ _ _ _ _ _ _ _ _ _ _)
          isplitl [HS1]
          · unfold owns; iexists _; isplitr
            swap; · iexact HS1
            ipureintro; exact View.read_writes_of_cover _ _ _ _ _ (lcover0_A c _ _ _ _ _ _ _ _ _ _ _ _ _ _ _)
          iexact Hrest
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, HS1, Hrest⟩, Hg⟩, Ho, ⟨%d0, H0⟩, ⟨%d1, H1⟩, ⟨%d2, H2⟩⟩
      iapply ((kernelRun0_A c (grid0.coords t) _ _ _ _ _ _ _ _ _ _ ((hfirst t).mpr h0) (fun h => h1 ((hlast t).mp h)) (iblk0 V c 0 t) (iblk0 V c 1 t)).2.2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (mcover0_A c _ _ _ _ _ _ _ _ _ _ _ _ _ _ _)
          isplitl [HS1]
          · unfold owns; iexists _; isplitr
            swap; · iexact HS1
            ipureintro; exact View.read_writes_of_cover _ _ _ _ _ (lcover0_A c _ _ _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun e => h0 (by rw [e])
    by_cases h1 : t.val % 32 = 31
    · rw [show (dat0 V c).leavesExact 2 t = owns (c : Thread nD τ) (ms0_2 t) fullShare ((dat0 V c).after 2 t) from by
        unfold Dat.leavesExact; rw [liveAt0_2 t ((hlast t).mpr h1)], after0_2]
      rw [outsAt0_C V c t h0 h1]
      unfold out0_C mout0_C lout0_C; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩⟩
      iapply ((kernelRun0_C c (grid0.coords t) _ _ _ _ _ _ _ _ _ _ (fun h => h0 ((hfirst t).mp h)) ((hlast t).mpr h1) (iblk0 V c 0 t) (iblk0 V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (mcover0_C c _ _ _ _ _ _ _ _ _ _ _ _ _ _ _ _ _)
          isplitl [HS1]
          · unfold owns; iexists _; isplitr
            swap; · iexact HS1
            ipureintro; exact View.read_writes_of_cover _ _ _ _ _ (lcover0_C c _ _ _ _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (ocover0_C c _ _ _ _ _ _ _ _ _ _ _ _ _ _ _ _ _)
    · rw [Dat.leavesExact_idle (dat0 V c) 2 t (idleAt0_2 t (fun h => h1 ((hlast t).mp h))) (noFlush0_2 t (fun h => h1 ((hlast t).mp h)))]
      rw [outsAt0_B V c t h0 h1]
      unfold mout0_B lout0_B; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩⟩
      iapply ((kernelRun0_B c (grid0.coords t) _ _ _ _ _ _ _ _ _ _ (fun h => h0 ((hfirst t).mp h)) (fun h => h1 ((hlast t).mp h)) (iblk0 V c 0 t) (iblk0 V c 1 t) _ _).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (mcover0_B c _ _ _ _ _ _ _ _ _ _ _ _ _ _ _ _ _)
          isplitl [HS1]
          · unfold owns; iexists _; isplitr
            swap; · iexact HS1
            ipureintro; exact View.read_writes_of_cover _ _ _ _ _ (lcover0_B c _ _ _ _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The resting invariant is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the resting one back: what the carried buffers hold is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

theorem hout0 (c : Dev nD) : (dat0 V c).Φ (Fin.last cfg0.N) ⊢ Pipeline.ΦA spec0 c :=
  Phi_out0 V c _ (by rw [Fin.val_last]; have : cfg0.N = 64 := N_0; omega)

end Region0

end Cert.KernelIdeal.Hand

end
-- ==== Proof.KIRegion1.lean ====
/-
  Region 1 of the kernel's program (the normalising pass, pipeline 1): its half of the frame argument.

  The body reads nine rows of the feature block, ten columns of the coefficient table and the two columns of the
  per-row statistics, and stores one value over the whole output block.  So what it leaves in the output
  window's buffer is a closed function `out1_3` of the three input blocks, and each input window's buffer holds
  that window's block at every grid point, whether or not the block was fetched there (the coefficient table and
  the statistics are fetched once, their block index never moves).  Everything is stated at a parameter `V`:
  the buffer contents when the region is entered.
-/
import proofs.«169934_j78314433675744_2_alg».proof.Proof.Gen.KernelIdeal.Launch
import proofs.«169934_j78314433675744_2_alg».proof.Proof.Gen.KernelIdeal.Skeleton
import proofs.«169934_j78314433675744_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region1
-- the buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature window's buffer holds its block at every point (it is fetched at every point), for any proof data
    over `V`'s arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The coefficient window's buffer holds its (only) block at every point: fetched at the first point, and at the
    later ones the block index has not moved, so what the body left there is still the block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The statistics window's buffer likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes -/

abbrev r1FeatA : Rect S9x2048 := Rect.unit (s := S9x2048) ![0, 0] S1x2048.size inb_S9x2048_S1x2048_0_0
abbrev r1FeatB : Rect S9x2048 := Rect.unit (s := S9x2048) ![1, 0] S1x2048.size inb_S9x2048_S1x2048_1_0
abbrev r1FeatC : Rect S9x2048 := Rect.unit (s := S9x2048) ![2, 0] S1x2048.size inb_S9x2048_S1x2048_2_0
abbrev r1FeatD : Rect S9x2048 := Rect.unit (s := S9x2048) ![3, 0] S1x2048.size inb_S9x2048_S1x2048_3_0
abbrev r1FeatE : Rect S9x2048 := Rect.unit (s := S9x2048) ![4, 0] S1x2048.size inb_S9x2048_S1x2048_4_0
abbrev r1FeatF : Rect S9x2048 := Rect.unit (s := S9x2048) ![5, 0] S1x2048.size inb_S9x2048_S1x2048_5_0
abbrev r1FeatG : Rect S9x2048 := Rect.unit (s := S9x2048) ![6, 0] S1x2048.size inb_S9x2048_S1x2048_6_0
abbrev r1FeatH : Rect S9x2048 := Rect.unit (s := S9x2048) ![7, 0] S1x2048.size inb_S9x2048_S1x2048_7_0
abbrev r1FeatI : Rect S9x2048 := Rect.unit (s := S9x2048) ![8, 0] S1x2048.size inb_S9x2048_S1x2048_8_0
abbrev r1CoefA : Rect S512x10 := Rect.unit (s := S512x10) ![0, 0] S512x1.size inb_S512x10_S512x1_0_0
abbrev r1CoefB : Rect S512x10 := Rect.unit (s := S512x10) ![0, 1] S512x1.size inb_S512x10_S512x1_0_1
abbrev r1CoefC : Rect S512x10 := Rect.unit (s := S512x10) ![0, 2] S512x1.size inb_S512x10_S512x1_0_2
abbrev r1CoefD : Rect S512x10 := Rect.unit (s := S512x10) ![0, 3] S512x1.size inb_S512x10_S512x1_0_3
abbrev r1CoefE : Rect S512x10 := Rect.unit (s := S512x10) ![0, 4] S512x1.size inb_S512x10_S512x1_0_4
abbrev r1CoefF : Rect S512x10 := Rect.unit (s := S512x10) ![0, 5] S512x1.size inb_S512x10_S512x1_0_5
abbrev r1CoefG : Rect S512x10 := Rect.unit (s := S512x10) ![0, 6] S512x1.size inb_S512x10_S512x1_0_6
abbrev r1CoefH : Rect S512x10 := Rect.unit (s := S512x10) ![0, 7] S512x1.size inb_S512x10_S512x1_0_7
abbrev r1CoefI : Rect S512x10 := Rect.unit (s := S512x10) ![0, 8] S512x1.size inb_S512x10_S512x1_0_8
abbrev r1CoefJ : Rect S512x10 := Rect.unit (s := S512x10) ![0, 9] S512x1.size inb_S512x10_S512x1_0_9
abbrev r1StatA : Rect S512x2 := Rect.unit (s := S512x2) ![0, 0] S512x1.size inb_S512x2_S512x1_0_0
abbrev r1StatB : Rect S512x2 := Rect.unit (s := S512x2) ![0, 1] S512x1.size inb_S512x2_S512x1_0_1
abbrev r1OutAll : Rect S512x2048 := Rect.unit (s := S512x2048) ![0, 0] S512x2048.size inb_S512x2048_S512x2048_0_0

/-! ## What the body leaves in the output window's buffer -/

/-- The polynomial in the nine features with the row's ten coefficients, as the body computes it over the block. -/
def logDensity1 (x0 : Vec F S9x2048 .f32) (x1 : Vec F S512x10 .f32) : FVec F S512x2048 .f32 :=
  k1_pay16 (k1_pay2 (View.ld x0 r1FeatA)) (k1_pay3 (View.ld x0 r1FeatB)) (k1_pay4 (View.ld x0 r1FeatC))
    (k1_pay5 (View.ld x0 r1FeatD)) (k1_pay6 (View.ld x0 r1FeatE)) (k1_pay7 (View.ld x0 r1FeatF))
    (k1_pay8 (View.ld x0 r1FeatG)) (k1_pay9 (View.ld x0 r1FeatH)) (k1_pay10 (View.ld x0 r1FeatI))
    (k1_pay11 (View.ld x1 r1CoefA)) (k1_pay12 (View.ld x1 r1CoefB)) (k1_pay13 (View.ld x1 r1CoefC))
    (k1_pay14 (View.ld x1 r1CoefD)) (k1_pay15 (View.ld x1 r1CoefE))
    (View.ld x1 r1CoefF) (View.ld x1 r1CoefG) (View.ld x1 r1CoefH) (View.ld x1 r1CoefI) (View.ld x1 r1CoefJ)

/-- The output window's buffer after the body, from the three input blocks: its one store, over the whole block. -/
def out1_3 (x0 : Vec F S9x2048 .f32) (x1 : Vec F S512x10 .f32) (x2 : Vec F S512x2 .f32) : Vec F S512x2048 .f32 :=
  View.canon [⟨r1OutAll, k1_pay1 (logDensity1 x0 x1) (k1_pay17 (View.ld x2 r1StatA)) (View.ld x2 r1StatB)⟩]

/-- The one store covers the buffer. -/
theorem cover1_3 (p0 : Vec F S512x2048 .f32) (y : S512x2048.Idx) :
    ∃ pc ∈ ([⟨r1OutAll, p0⟩] : List (View.Piece (Elt F) S512x2048 .f32)), y ∈ pc.1.set :=
  View.cover_of_tiled [⟨r1OutAll, p0⟩] S512x2048.size (by rfl) y

/-! ## The body's triple -/

set_option maxHeartbeats 2000000 in
/-- The body on whole staging buffers, the inputs' at read contents `x0 x1 x2` and the output's at anything, runs to
    the continuation holding the inputs' as they were and the output's at `out1_3 x0 x1 x2`. -/
theorem sound_kernel1 (c : Dev nD) (E : Set ℕ) (i : grid1.Coords)
    (arg1 : Memref sig .tc .vmem S9x2048 .f32) (harg1 : arg1.IsWhole)
    (arg2 : Memref sig .tc .vmem S512x10 .f32) (harg2 : arg2.IsWhole)
    (arg3 : Memref sig .tc .vmem S512x2 .f32) (harg3 : arg3.IsWhole)
    (arg4 : Memref sig .tc .vmem S512x2048 .f32) (harg4 : arg4.IsWhole)
    (x0 : Vec F S9x2048 .f32) (x1 : Vec F S512x10 .f32) (x2 : Vec F S512x2 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out1_3 x0 x1 x2)) -∗ K ⟨⟩))
      ⊢ wp frame (wpE (defs₀ (F := F)) Variants.none c none) E (cc1__norm_kernel i arg1 harg1 arg2 harg2 arg3 harg3 arg4 harg4) K := by
  simp only [cc1__norm_kernel_eq_skeleton]; unfold cc1__norm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t` each
    input's buffer at its block and the output's at `out1_3` of the three input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 1000000 in
/-- The body at any point: the inputs' buffers hold their blocks, so the body's triple applies; the invariant and the
    core's owed count pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.GlueValue.lean ====
/-
  The host operations the kernel program runs before its two kernel regions, read back. They form nine straight
  stretches; `glue V` is the memory the first region is entered with when the program starts from contents `V`: the
  fold of the nine stretches' results, in order. No stretch writes an argument buffer, so the six arguments are in
  `glue V` what they are in `V`.
-/
import proofs.«169934_j78314433675744_2_alg».proof.Proof.Gen.KernelIdeal.Launch
import Idealize.ShloMosaic.Lib.StableHlo.Run
import proofs.«169934_j78314433675744_2_alg».proof.Proof.LibStraightLine

set_option maxRecDepth 4096

noncomputable section

namespace Cert.KernelIdeal.GlueValue

open Cert.KernelIdeal Cert.KernelIdeal.Gen Idealize.ShloMosaic Idealize.ShloMosaic.TcCoe Idealize.SL.Sem Idealize.ShloMosaic.StableHlo

variable {F : FTy → Type} [FloatOps F] [Named F]

/-- The contents after the nine host stretches, in order, from contents `V`. -/
def glue (V : Valuation τ sig (Elt F)) : Valuation τ sig (Elt F) :=
  after hostOps0_8 (after hostOps0_7 (after hostOps0_6 (after hostOps0_5 (after hostOps0_4
    (after hostOps0_3 (after hostOps0_2 (after hostOps0_1 (after hostOps0 V))))))))

/-- The references stretch 0 writes: each operation's result. -/
abbrev written0 : List (Ref sig .tc) := [main_v0, main_v1, main_v2, main_v3, main_v4, main_v5, main_v6, main_v7, main_v8, main_v9]

/-- The references stretch 1 writes: each operation's result. -/
abbrev written1 : List (Ref sig .tc) := [main_call0_cst, main_call0_v0, main_call0_v1, main_call0_cst_0, main_call0_v2, main_call0_v3, main_call0_cst_1, main_call0_call0_v0, main_call0_call0_v1, main_call0_v4, main_call0_v5, main_call0_cst_2, main_call0_v6, main_call0_v7, main_v10]

/-- The references stretch 2 writes: each operation's result. -/
abbrev written2 : List (Ref sig .tc) := [main_cst, main_v11, main_v12, main_v13, main_v14]

/-- The references stretch 3 writes: each operation's result. -/
abbrev written3 : List (Ref sig .tc) := [main_call1_cst, main_call1_v0, main_call1_v1, main_call1_v2, main_call1_v3, main_call1_v4, main_call1_v5, main_call1_v6, main_call1_v7, main_call1_v8, main_call1_v9, main_call1_v10, main_call1_v11, main_v15]

/-- The references stretch 4 writes: each operation's result. -/
abbrev written4 : List (Ref sig .tc) := [main_v16, main_v17, main_v18, main_v19]

/-- The references stretch 5 writes: each operation's result. -/
abbrev written5 : List (Ref sig .tc) := [main_call2_cst, main_call2_v0, main_call2_v1, main_call2_v2, main_call2_v3, main_call2_v4, main_call2_v5, main_call2_v6, main_call2_v7, main_call2_v8, main_call2_v9, main_call2_v10, main_call2_v11, main_v20]

/-- The references stretch 6 writes: each operation's result. -/
abbrev written6 : List (Ref sig .tc) := [main_v21, main_v22, main_v23, main_v24, main_v25, main_v26]

/-- The references stretch 7 writes: each operation's result. -/
abbrev written7 : List (Ref sig .tc) := [main_call3_cst, main_call3_v0, main_call3_v1, main_call3_v2, main_call3_v3, main_call3_v4, main_call3_v5, main_call3_v6, main_call3_v7, main_call3_v8, main_call3_v9, main_call3_v10, main_call3_v11, main_v27]

/-- The references stretch 8 writes: each operation's result. -/
abbrev written8 : List (Ref sig .tc) := [main_v28, main_v29, main_v30, main_v31, main_v32, main_v33, main_v34, main_v35, main_v36, main_v37, main_v38, main_cst_0, main_v39, main_v40, main_v41, main_v42, main_v43, main_cst_1, main_v44, main_v45, main_cst_2, main_v46, main_v47, main_v48, main_v49, main_v50, main_v51, main_v52, main_v53, main_v54, main_v55, main_v56, main_v57, main_v58, main_v59, main_v60, main_v61, main_v62, main_v63, main_v64, main_v65, main_v66, main_v67, main_cst_3, main_v68, main_v69, main_cst_4, main_v70, main_v71, main_v72, main_cst_5, main_v73, main_v74, main_v75, main_cst_6, main_v76, main_v77, main_cst_7, main_v78, main_v79, main_cst_8, main_v80, main_v81, main_cst_9, main_v82, main_v83, main_cst_10, main_v84, main_v85, main_cst_11, main_v86, main_v87, main_v88, main_cst_12, main_v89, main_v90, main_v91, main_v92, main_cst_13, main_v93, main_v94, main_v95, main_v96, main_v97, main_cst_14, main_v98, main_v99, main_v100, main_v101, main_cst_15, main_v102, main_v103, main_v104, main_v105, main_v106, main_cst_16, main_v107, main_v108, main_v109, main_v110, main_cst_17, main_v111, main_v112, main_v113, main_v114, main_v115, main_v116, main_v117, main_v118, main_v119, main_v120, main_v121, main_v122, main_v123, main_v124, main_v125, main_v126, main_v127, main_v128, main_v129, main_v130, main_v131, main_cst_18, main_v132, main_v133, main_cst_19, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167, main_v168, main_v169]

theorem writes0 : (hostOps0 : List (HloOp τ sig (Elt F))).Forall fun op => op.writes ⊆ ((written0).map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  and_intros <;> (refine List.mem_map_of_mem ?_; decide)

theorem writes1 : (hostOps0_1 : List (HloOp τ sig (Elt F))).Forall fun op => op.writes ⊆ ((written1).map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  and_intros <;> (refine List.mem_map_of_mem ?_; decide)

theorem writes2 : (hostOps0_2 : List (HloOp τ sig (Elt F))).Forall fun op => op.writes ⊆ ((written2).map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  and_intros <;> (refine List.mem_map_of_mem ?_; decide)

theorem writes3 : (hostOps0_3 : List (HloOp τ sig (Elt F))).Forall fun op => op.writes ⊆ ((written3).map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  and_intros <;> (refine List.mem_map_of_mem ?_; decide)

theorem writes4 : (hostOps0_4 : List (HloOp τ sig (Elt F))).Forall fun op => op.writes ⊆ ((written4).map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  and_intros <;> (refine List.mem_map_of_mem ?_; decide)

theorem writes5 : (hostOps0_5 : List (HloOp τ sig (Elt F))).Forall fun op => op.writes ⊆ ((written5).map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  and_intros <;> (refine List.mem_map_of_mem ?_; decide)

theorem writes6 : (hostOps0_6 : List (HloOp τ sig (Elt F))).Forall fun op => op.writes ⊆ ((written6).map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  and_intros <;> (refine List.mem_map_of_mem ?_; decide)

theorem writes7 : (hostOps0_7 : List (HloOp τ sig (Elt F))).Forall fun op => op.writes ⊆ ((written7).map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  and_intros <;> (refine List.mem_map_of_mem ?_; decide)

set_option maxRecDepth 8192 in
set_option maxHeartbeats 4000000 in
theorem writes8 : (hostOps0_8 : List (HloOp τ sig (Elt F))).Forall fun op => op.writes ⊆ ((written8).map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  and_intros <;> (refine List.mem_map_of_mem ?_; decide)

/-- A reference none of the nine stretches writes holds in `glue V` what it holds in `V`. -/
theorem glue_kept (V : Valuation τ sig (Elt F)) (r : Ref sig .tc)
    (h0 : r ∉ written0) (h1 : r ∉ written1) (h2 : r ∉ written2) (h3 : r ∉ written3) (h4 : r ∉ written4)
    (h5 : r ∉ written5) (h6 : r ∉ written6) (h7 : r ∉ written7) (h8 : r ∉ written8) :
    glue V (r : DevRef τ sig) = V (r : DevRef τ sig) := by
  unfold glue
  rw [after_of_writes_sub hostOps0_8 _ writes8 h8, after_of_writes_sub hostOps0_7 _ writes7 h7,
    after_of_writes_sub hostOps0_6 _ writes6 h6, after_of_writes_sub hostOps0_5 _ writes5 h5,
    after_of_writes_sub hostOps0_4 _ writes4 h4, after_of_writes_sub hostOps0_3 _ writes3 h3,
    after_of_writes_sub hostOps0_2 _ writes2 h2, after_of_writes_sub hostOps0_1 _ writes1 h1,
    after_of_writes_sub hostOps0 _ writes0 h0]

/-- Argument 0 is never written. -/
theorem glue_arg0 (V : Valuation τ sig (Elt F)) : glue V (main_arg0 : DevRef τ sig) = V (main_arg0 : DevRef τ sig) :=
  glue_kept V main_arg0 (by decide) (by decide) (by decide) (by decide) (by decide) (by decide) (by decide) (by decide) (by decide)

/-- Argument 1 is never written. -/
theorem glue_arg1 (V : Valuation τ sig (Elt F)) : glue V (main_arg1 : DevRef τ sig) = V (main_arg1 : DevRef τ sig) :=
  glue_kept V main_arg1 (by decide) (by decide) (by decide) (by decide) (by decide) (by decide) (by decide) (by decide) (by decide)

/-- Argument 2 is never written. -/
theorem glue_arg2 (V : Valuation τ sig (Elt F)) : glue V (main_arg2 : DevRef τ sig) = V (main_arg2 : DevRef τ sig) :=
  glue_kept V main_arg2 (by decide) (by decide) (by decide) (by decide) (by decide) (by decide) (by decide) (by decide) (by decide)

/-- Argument 3 is never written. -/
theorem glue_arg3 (V : Valuation τ sig (Elt F)) : glue V (main_arg3 : DevRef τ sig) = V (main_arg3 : DevRef τ sig) :=
  glue_kept V main_arg3 (by decide) (by decide) (by decide) (by decide) (by decide) (by decide) (by decide) (by decide) (by decide)

/-- Argument 4 is never written. -/
theorem glue_arg4 (V : Valuation τ sig (Elt F)) : glue V (main_arg4 : DevRef τ sig) = V (main_arg4 : DevRef τ sig) :=
  glue_kept V main_arg4 (by decide) (by decide) (by decide) (by decide) (by decide) (by decide) (by decide) (by decide) (by decide)

/-- Argument 5 is never written. -/
theorem glue_arg5 (V : Valuation τ sig (Elt F)) : glue V (main_arg5 : DevRef τ sig) = V (main_arg5 : DevRef τ sig) :=
  glue_kept V main_arg5 (by decide) (by decide) (by decide) (by decide) (by decide) (by decide) (by decide) (by decide) (by decide)

/-! ## The nine stretches as one line, read operation by operation -/

/-- The nine stretches, in order, as one line of 244 operations. -/
abbrev allOps : List (HloOp τ sig (Elt F)) :=
  hostOps0 ++ (hostOps0_1 ++ (hostOps0_2 ++ (hostOps0_3 ++ (hostOps0_4 ++ (hostOps0_5 ++ (hostOps0_6 ++ (hostOps0_7 ++ hostOps0_8)))))))

/-- The reference each of the 244 operations writes, in the same order. -/
abbrev allW : List (Ref sig .tc) :=
  written0 ++ (written1 ++ (written2 ++ (written3 ++ (written4 ++ (written5 ++ (written6 ++ (written7 ++ written8)))))))

/-- `glue` is the fold of that one line. -/
theorem glue_eq (V : Valuation τ sig (Elt F)) : glue V = after allOps V := by
  simp only [glue, allOps, Cert.StraightLine.after_append]

theorem writesAt0 : Cert.StraightLine.WritesAt (hostOps0 : List (HloOp τ sig (Elt F))) written0 := by
  repeat (first | exact List.Forall₂.nil | refine List.Forall₂.cons subset_rfl ?_)

theorem writesAt1 : Cert.StraightLine.WritesAt (hostOps0_1 : List (HloOp τ sig (Elt F))) written1 := by
  repeat (first | exact List.Forall₂.nil | refine List.Forall₂.cons subset_rfl ?_)

theorem writesAt2 : Cert.StraightLine.WritesAt (hostOps0_2 : List (HloOp τ sig (Elt F))) written2 := by
  repeat (first | exact List.Forall₂.nil | refine List.Forall₂.cons subset_rfl ?_)

theorem writesAt3 : Cert.StraightLine.WritesAt (hostOps0_3 : List (HloOp τ sig (Elt F))) written3 := by
  repeat (first | exact List.Forall₂.nil | refine List.Forall₂.cons subset_rfl ?_)

theorem writesAt4 : Cert.StraightLine.WritesAt (hostOps0_4 : List (HloOp τ sig (Elt F))) written4 := by
  repeat (first | exact List.Forall₂.nil | refine List.Forall₂.cons subset_rfl ?_)

theorem writesAt5 : Cert.StraightLine.WritesAt (hostOps0_5 : List (HloOp τ sig (Elt F))) written5 := by
  repeat (first | exact List.Forall₂.nil | refine List.Forall₂.cons subset_rfl ?_)

theorem writesAt6 : Cert.StraightLine.WritesAt (hostOps0_6 : List (HloOp τ sig (Elt F))) written6 := by
  repeat (first | exact List.Forall₂.nil | refine List.Forall₂.cons subset_rfl ?_)

theorem writesAt7 : Cert.StraightLine.WritesAt (hostOps0_7 : List (HloOp τ sig (Elt F))) written7 := by
  repeat (first | exact List.Forall₂.nil | refine List.Forall₂.cons subset_rfl ?_)

set_option maxHeartbeats 4000000 in
theorem writesAt8 : Cert.StraightLine.WritesAt (hostOps0_8 : List (HloOp τ sig (Elt F))) written8 := by
  repeat (first | exact List.Forall₂.nil | refine List.Forall₂.cons subset_rfl ?_)

/-- Operation by operation the line writes the references of `allW`. -/
theorem allOps_writesAt : Cert.StraightLine.WritesAt (allOps : List (HloOp τ sig (Elt F))) allW :=
  writesAt0.append (writesAt1.append (writesAt2.append (writesAt3.append (writesAt4.append (writesAt5.append (writesAt6.append (writesAt7.append writesAt8)))))))

/-- No reference is written twice. -/
theorem allW_nodup : allW.Nodup := by decide

/-- **The glue read at operation `i`**: there are contents `F'` that agree with `glue V` at every reference not written
    from position `i` on, and at its own result reference `glue V` is the operation's result over `F'`. -/
theorem glue_at (V : Valuation τ sig (Elt F)) (i : Nat) (op : HloOp τ sig (Elt F)) (y : Ref sig .tc)
    (hop : (allOps : List (HloOp τ sig (Elt F)))[i]? = some op) (hy : allW[i]? = some y) :
    ∃ F' : Valuation τ sig (Elt F),
      (∀ r : Ref sig .tc, r ∉ allW.drop i → F' (Proc.devRef .tc r) = glue V (Proc.devRef .tc r)) ∧
        glue V (Proc.devRef .tc y) = op.result F' (Proc.devRef .tc y) := by
  rw [glue_eq]
  exact Cert.StraightLine.after_at allOps_writesAt allW_nodup V i op y hop hy

/-- Closes `glue V y = f (glue V a) …` for the operation at position `i` of the line (`y` its result reference, `l` its
    builder's result lemma): the operation's result over the contents before it, which are `glue V` at every reference
    the operation reads; the transports of a typed reference's contents along `rfl` are then removed. -/
macro "line_eq " v:ident i:num " with " l:term : tactic =>
  `(tactic| (obtain ⟨F', hF, hy⟩ := glue_at $v $i _ _ rfl rfl
             refine hy.trans ?_
             rw [$l:term]
             repeat (rw [hF]; rotate_left; decide)
             try simp only [StableHlo.TRef.toBuf, StableHlo.TRef.ofBuf, cast_eq]
             all_goals rfl))

end Cert.KernelIdeal.GlueValue

end
-- ==== Proof.KIRun.lean ====
/-
  The whole run of the program: nine stretches of host operations, then the two kernel regions. Between two items every
  unscoped buffer is held at named contents — the launch memory folded through the host stretches, then each region's
  arrays at what its write-backs leave — so every weakly fair execution terminates, faulting nowhere, with every unscoped
  buffer at the last of these contents; the argument buffers are written by no item.
-/
import proofs.«169934_j78314433675744_2_alg».proof.Proof.KIRegion0
import proofs.«169934_j78314433675744_2_alg».proof.Proof.KIRegion1
import proofs.«169934_j78314433675744_2_alg».proof.Proof.GlueValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- After the host stretch `hostOps0_1`. -/
abbrev W2 : Dev nD → Valuation τ sig (Elt F) := fun c => StableHlo.after hostOps0_1 (W1 m ρ c)
/-- After the host stretch `hostOps0_2`. -/
abbrev W3 : Dev nD → Valuation τ sig (Elt F) := fun c => StableHlo.after hostOps0_2 (W2 m ρ c)
/-- After the host stretch `hostOps0_3`. -/
abbrev W4 : Dev nD → Valuation τ sig (Elt F) := fun c => StableHlo.after hostOps0_3 (W3 m ρ c)
/-- After the host stretch `hostOps0_4`. -/
abbrev W5 : Dev nD → Valuation τ sig (Elt F) := fun c => StableHlo.after hostOps0_4 (W4 m ρ c)
/-- After the host stretch `hostOps0_5`. -/
abbrev W6 : Dev nD → Valuation τ sig (Elt F) := fun c => StableHlo.after hostOps0_5 (W5 m ρ c)
/-- After the host stretch `hostOps0_6`. -/
abbrev W7 : Dev nD → Valuation τ sig (Elt F) := fun c => StableHlo.after hostOps0_6 (W6 m ρ c)
/-- After the host stretch `hostOps0_7`. -/
abbrev W8 : Dev nD → Valuation τ sig (Elt F) := fun c => StableHlo.after hostOps0_7 (W7 m ρ c)
/-- After the host stretch `hostOps0_8`. -/
abbrev W9 : Dev nD → Valuation τ sig (Elt F) := fun c => StableHlo.after hostOps0_8 (W8 m ρ c)

/-- The same read at the TensorCore's references: what the first region's proof data take. -/
abbrev V9 : (c : Dev nD) → (b : Ref sig .tc) → Buf (Elt F) ((c : Thread nD τ).loc b) := fun c b => W9 m ρ c b

/-- At region 0's exit: its arrays at what the pipeline's write-backs leave, every other buffer as entered. -/
def W10 (c : Dev nD) : Valuation τ sig (Elt F) :=
  Pipeline.withArrays spec0 c (W9 m ρ c) fun w => (dat0 (V9 m ρ) c).arrAt w cfg0.N
theorem W10_arr (c : Dev nD) (w : Fin cfg0.W) :
    W10 m ρ c (Proc.devRef .tc (Pipeline.arrRef spec0 w)) = (dat0 (V9 m ρ) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 m ρ c (Proc.devRef .tc b) = W9 m ρ c (Proc.devRef .tc b) := by
  unfold W10; exact Pipeline.withArrays_of_ne spec0 c _ _ b hb
abbrev V10 : (c : Dev nD) → (b : Ref sig .tc) → Buf (Elt F) ((c : Thread nD τ).loc b) := fun c b => W10 m ρ c b
theorem hF0 (c : Dev nD) (w : Fin cfg0.W) : (dat0 (V9 m ρ) c).arrAt w cfg0.N = V10 m ρ c (Pipeline.arrRef spec0 w) :=
  (W10_arr m ρ c w).symm
theorem hrest0 (c : Dev nD) : ∀ b, b ∉ Finset.univ.image (Pipeline.arrRef spec0) → V10 m ρ c b = V9 m ρ c b :=
  fun b hb => W10_of_ne m ρ c b fun w e => hb (Finset.mem_image.mpr ⟨w, Finset.mem_univ _, e⟩)

/-- At region 1's exit: its arrays at what the pipeline's write-backs leave, every other buffer as entered. -/
def W11 (c : Dev nD) : Valuation τ sig (Elt F) :=
  Pipeline.withArrays spec1 c (W10 m ρ c) fun w => (dat1 (V10 m ρ) c).arrAt w cfg1.N
theorem W11_arr (c : Dev nD) (w : Fin cfg1.W) :
    W11 m ρ c (Proc.devRef .tc (Pipeline.arrRef spec1 w)) = (dat1 (V10 m ρ) c).arrAt w cfg1.N := by
  unfold W11; exact Pipeline.withArrays_arr spec1 launch1.win.arr_inj c _ _ w
theorem W11_of_ne (c : Dev nD) (b : Ref sig .tc) (hb : ∀ w, Pipeline.arrRef spec1 w ≠ b) :
    W11 m ρ c (Proc.devRef .tc b) = W10 m ρ c (Proc.devRef .tc b) := by
  unfold W11; exact Pipeline.withArrays_of_ne spec1 c _ _ b hb
abbrev V11 : (c : Dev nD) → (b : Ref sig .tc) → Buf (Elt F) ((c : Thread nD τ).loc b) := fun c b => W11 m ρ c b
theorem hF1 (c : Dev nD) (w : Fin cfg1.W) : (dat1 (V10 m ρ) c).arrAt w cfg1.N = V11 m ρ c (Pipeline.arrRef spec1 w) :=
  (W11_arr m ρ c w).symm
theorem hrest1 (c : Dev nD) : ∀ b, b ∉ Finset.univ.image (Pipeline.arrRef spec1) → V11 m ρ c b = V10 m ρ c b :=
  fun b hb => W11_of_ne m ρ c b fun w e => hb (Finset.mem_image.mpr ⟨w, Finset.mem_univ _, e⟩)

/-! The arguments end as launched: no host operation and no region writes one. -/
theorem W11_main_arg0 (c : Dev nD) : W11 m ρ c (Proc.devRef .tc main_arg0) = m ((c : Thread nD τ).loc main_arg0) :=
  calc W11 m ρ c (Proc.devRef .tc main_arg0)
    _ = W10 m ρ c (Proc.devRef .tc main_arg0) := W11_of_ne m ρ c main_arg0 (by decide)
    _ = W9 m ρ c (Proc.devRef .tc main_arg0) := W10_of_ne m ρ c main_arg0 (by decide)
    _ = W0 m ρ c (Proc.devRef .tc main_arg0) := GlueValue.glue_arg0 (W0 m ρ c)
    _ = m ((c : Thread nD τ).loc main_arg0) := rfl
theorem W11_main_arg1 (c : Dev nD) : W11 m ρ c (Proc.devRef .tc main_arg1) = m ((c : Thread nD τ).loc main_arg1) :=
  calc W11 m ρ c (Proc.devRef .tc main_arg1)
    _ = W10 m ρ c (Proc.devRef .tc main_arg1) := W11_of_ne m ρ c main_arg1 (by decide)
    _ = W9 m ρ c (Proc.devRef .tc main_arg1) := W10_of_ne m ρ c main_arg1 (by decide)
    _ = W0 m ρ c (Proc.devRef .tc main_arg1) := GlueValue.glue_arg1 (W0 m ρ c)
    _ = m ((c : Thread nD τ).loc main_arg1) := rfl
theorem W11_main_arg2 (c : Dev nD) : W11 m ρ c (Proc.devRef .tc main_arg2) = m ((c : Thread nD τ).loc main_arg2) :=
  calc W11 m ρ c (Proc.devRef .tc main_arg2)
    _ = W10 m ρ c (Proc.devRef .tc main_arg2) := W11_of_ne m ρ c main_arg2 (by decide)
    _ = W9 m ρ c (Proc.devRef .tc main_arg2) := W10_of_ne m ρ c main_arg2 (by decide)
    _ = W0 m ρ c (Proc.devRef .tc main_arg2) := GlueValue.glue_arg2 (W0 m ρ c)
    _ = m ((c : Thread nD τ).loc main_arg2) := rfl
theorem W11_main_arg3 (c : Dev nD) : W11 m ρ c (Proc.devRef .tc main_arg3) = m ((c : Thread nD τ).loc main_arg3) :=
  calc W11 m ρ c (Proc.devRef .tc main_arg3)
    _ = W10 m ρ c (Proc.devRef .tc main_arg3) := W11_of_ne m ρ c main_arg3 (by decide)
    _ = W9 m ρ c (Proc.devRef .tc main_arg3) := W10_of_ne m ρ c main_arg3 (by decide)
    _ = W0 m ρ c (Proc.devRef .tc main_arg3) := GlueValue.glue_arg3 (W0 m ρ c)
    _ = m ((c : Thread nD τ).loc main_arg3) := rfl
theorem W11_main_arg4 (c : Dev nD) : W11 m ρ c (Proc.devRef .tc main_arg4) = m ((c : Thread nD τ).loc main_arg4) :=
  calc W11 m ρ c (Proc.devRef .tc main_arg4)
    _ = W10 m ρ c (Proc.devRef .tc main_arg4) := W11_of_ne m ρ c main_arg4 (by decide)
    _ = W9 m ρ c (Proc.devRef .tc main_arg4) := W10_of_ne m ρ c main_arg4 (by decide)
    _ = W0 m ρ c (Proc.devRef .tc main_arg4) := GlueValue.glue_arg4 (W0 m ρ c)
    _ = m ((c : Thread nD τ).loc main_arg4) := rfl
theorem W11_main_arg5 (c : Dev nD) : W11 m ρ c (Proc.devRef .tc main_arg5) = m ((c : Thread nD τ).loc main_arg5) :=
  calc W11 m ρ c (Proc.devRef .tc main_arg5)
    _ = W10 m ρ c (Proc.devRef .tc main_arg5) := W11_of_ne m ρ c main_arg5 (by decide)
    _ = W9 m ρ c (Proc.devRef .tc main_arg5) := W10_of_ne m ρ c main_arg5 (by decide)
    _ = W0 m ρ c (Proc.devRef .tc main_arg5) := GlueValue.glue_arg5 (W0 m ρ c)
    _ = m ((c : Thread nD τ).loc main_arg5) := rfl

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V9 m ρ) c
  | ⟨1, _⟩ => fun c => dat1 (V10 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W11 m ρ c) ∗ ∃ r, prngReg c r)

set_option backward.isDefEq.respectTransparency.types false in
/-- Region 0 over the thread state: entered from every unscoped buffer at the contents before it, left at the contents
    after it. Its arrays are split out of the unscoped buffers at entry and put back at their final contents at exit; the
    generator register and the scoped buffers go into the region's invariant and come back; nothing is owed; the kernel
    has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V9 m ρ) c).loose
  hwaits := Pipeline.hwaits_of_owed_zero _ _ _ _ L lv 0 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec0 c (V9 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = (dat0 (V9 m ρ) c).Φ (Fin.last cfg0.N) from rfl]
    have h := hout0 (V9 m ρ) c
    unfold Pipeline.ΦA at h
    iintro HPhi
    ihave H := h $$ HPhi
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V9 m ρ c) (V10 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers at entry and put back at their final contents at exit; the
    generator register and the scoped buffers go into the region's invariant and come back; nothing is owed; the kernel
    has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V10 m ρ) c).loose
  hwaits := Pipeline.hwaits_of_owed_zero _ _ _ _ L lv 1 fun _ _ => rfl
  pre c := iprop(StableHlo.held (c : Thread nD τ) (Pipeline.ucRefs τ sig) (W10 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V10 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V10 m ρ c) (V11 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's eleven segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .region (reg0 m ρ),
    .region (reg1 m ρ) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- The frame: every argument buffer ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c _ (mem_uc main_arg0 (by decide))).trans (W11_main_arg0 m ρ c),
    (h c _ (mem_uc main_arg1 (by decide))).trans (W11_main_arg1 m ρ c),
    (h c _ (mem_uc main_arg2 (by decide))).trans (W11_main_arg2 m ρ c),
    (h c _ (mem_uc main_arg3 (by decide))).trans (W11_main_arg3 m ρ c),
    (h c _ (mem_uc main_arg4 (by decide))).trans (W11_main_arg4 m ρ c),
    (h c _ (mem_uc main_arg5 (by decide))).trans (W11_main_arg5 m ρ c)⟩) (run_all m ρ)

end Cert.KernelIdeal.Hand

end
-- ==== Proof.RefRun.lean ====
/-
  The reference program's run, read back. Its entry function is a straight line of host operations — the functions it
  calls (an exponential linear unit, which itself calls two selects, and three softplus) unfolded at their calls over the
  buffers of each call — so every weakly fair execution ends, faulting nowhere, with each buffer at the fold of the
  operations' results over the launch contents. No operation writes an argument buffer, so the arguments end as launched.
-/
import proofs.«169934_j78314433675744_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry function's 147 operations, in order, the called functions' lines in place of the calls. -/
abbrev ops : List (HloOp τ sig (Elt F)) :=
  [ StableHlo.unary main_arg1 main_v0 ((transpose S256x3 [1, 0] · transposes_S3x256_S256x3_1_0) : (⟨S3x256, .f32⟩ : BufTy).Contents (Elt F) → (⟨S256x3, .f32⟩ : BufTy).Contents (Elt F)),
    StableHlo.binary main_arg0 main_v0 main_v1 ((fun l r => Host.dotGeneral dot_S512x256_S256x3_S512x3_1_0_0_1_n_n none l r) : (⟨S512x256, .f32⟩ : BufTy).Contents (Elt F) → (⟨S256x3, .f32⟩ : BufTy).Contents (Elt F) → (⟨S512x3, .f32⟩ : BufTy).Contents (Elt F)),
    StableHlo.unary main_arg2 main_v2 (broadcastInDim S1x3 ![1] bcast_S3_S1x3_1 : (⟨S3, .f32⟩ : BufTy).Contents (Elt F) → (⟨S1x3, .f32⟩ : BufTy).Contents (Elt F)),
    StableHlo.unary main_v2 main_v3 (broadcastInDim S512x3 ![0, 1] bcast_S1x3_S512x3_0_1 : (⟨S1x3, .f32⟩ : BufTy).Contents (Elt F) → (⟨S512x3, .f32⟩ : BufTy).Contents (Elt F)),
    StableHlo.binary main_v1 main_v3 main_v4 (addf : (⟨S512x3, .f32⟩ : BufTy).Contents (Elt F) → (⟨S512x3, .f32⟩ : BufTy).Contents (Elt F) → (⟨S512x3, .f32⟩ : BufTy).Contents (Elt F)),
    StableHlo.unary main_arg3 main_v5 ((transpose S256x6 [1, 0] · transposes_S6x256_S256x6_1_0) : (⟨S6x256, .f32⟩ : BufTy).Contents (Elt F) → (⟨S256x6, .f32⟩ : BufTy).Contents (Elt F)),
    StableHlo.binary main_arg0 main_v5 main_v6 ((fun l r => Host.dotGeneral dot_S512x256_S256x6_S512x6_1_0_0_1_n_n none l r) : (⟨S512x256, .f32⟩ : BufTy).Contents (Elt F) → (⟨S256x6, .f32⟩ : BufTy).Contents (Elt F) → (⟨S512x6, .f32⟩ : BufTy).Contents (Elt F)),
    StableHlo.unary main_arg4 main_v7 (broadcastInDim S1x6 ![1] bcast_S6_S1x6_1 : (⟨S6, .f32⟩ : BufTy).Contents (Elt F) → (⟨S1x6, .f32⟩ : BufTy).Contents (Elt F)),
    StableHlo.unary main_v7 main_v8 (broadcastInDim S512x6 ![0, 1] bcast_S1x6_S512x6_0_1 : (⟨S1x6, .f32⟩ : BufTy).Contents (Elt F) → (⟨S512x6, .f32⟩ : BufTy).Contents (Elt F)),
    StableHlo.binary main_v6 main_v8 main_v9 (addf : (⟨S512x6, .f32⟩ : BufTy).Contents (Elt F) → (⟨S512x6, .f32⟩ : BufTy).Contents (Elt F) → (⟨S512x6, .f32⟩ : BufTy).Contents (Elt F)),
    StableHlo.TRef.nullary main_call0.cst (constant S_ .f32 0x00000000#32),
    StableHlo.TRef.unary main_call0.cst main_call0.v0 (broadcastInDim S512x6 ![] bcast_S_S512x6),
    StableHlo.TRef.binary (.of main_v9 : StableHlo.TRef sig ⟨S512x6, .f32⟩) main_call0.v0 main_call0.v1 (cmpf .ogt),
    StableHlo.TRef.nullary main_call0.cst_0 (constant S_ .f32 0x00000000#32),
    StableHlo.TRef.unary main_call0.cst_0 main_call0.v2 (broadcastInDim S512x6 ![] bcast_S_S512x6),
    StableHlo.TRef.binary (.of main_v9 : StableHlo.TRef sig ⟨S512x6, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S512x6 ![] bcast_S_S512x6),
    StableHlo.TRef.ternary main_call0.v3 main_call0.call0.v1 (.of main_v9 : StableHlo.TRef sig ⟨S512x6, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S512x6 ![] bcast_S_S512x6),
    StableHlo.TRef.binary main_call0.v6 main_call0.v5 main_call0.v7 mulf,
    StableHlo.TRef.ternary main_call0.v1 (.of main_v9 : StableHlo.TRef sig ⟨S512x6, .f32⟩) main_call0.v7 main_call0.call1.v0 select,
    StableHlo.nullary main_cst (constant S_ .f32 0x3F800000#32),
    StableHlo.unary main_cst main_v11 (broadcastInDim S512x6 ![] bcast_S_S512x6 : (⟨S_, .f32⟩ : BufTy).Contents (Elt F) → (⟨S512x6, .f32⟩ : BufTy).Contents (Elt F)),
    StableHlo.binary main_v10 main_v11 main_v12 (addf : (⟨S512x6, .f32⟩ : BufTy).Contents (Elt F) → (⟨S512x6, .f32⟩ : BufTy).Contents (Elt F) → (⟨S512x6, .f32⟩ : BufTy).Contents (Elt F)),
    StableHlo.unary main_v12 main_v13 ((extractStridedSlice S512x1 ![0, 0] · slices_S512x6_S512x1_0_0) : (⟨S512x6, .f32⟩ : BufTy).Contents (Elt F) → (⟨S512x1, .f32⟩ : BufTy).Contents (Elt F)),
    StableHlo.reshape main_v13 main_v14 rfl shapeCasts_S512x1_S512,
    StableHlo.TRef.nullary main_call1.cst (constant S_ .f32 0x00000000#32),
    StableHlo.TRef.unary main_call1.cst main_call1.v0 (broadcastInDim S512 ![] bcast_S_S512),
    StableHlo.TRef.binary (.of main_v14 : StableHlo.TRef sig ⟨S512, .f32⟩) main_call1.v0 main_call1.v1 maximumf,
    StableHlo.TRef.unary main_call1.cst main_call1.v2 (broadcastInDim S512 ![] bcast_S_S512),
    StableHlo.TRef.binary (.of main_v14 : StableHlo.TRef sig ⟨S512, .f32⟩) main_call1.v2 main_call1.v3 subf,
    StableHlo.TRef.binary main_call1.v3 main_call1.v3 main_call1.v4 (cmpf .une),
    StableHlo.TRef.unary main_call1.cst main_call1.v5 (broadcastInDim S512 ![] bcast_S_S512),
    StableHlo.TRef.binary (.of main_v14 : StableHlo.TRef sig ⟨S512, .f32⟩) main_call1.v5 main_call1.v6 addf,
    StableHlo.TRef.unary main_call1.v3 main_call1.v7 Host.absf,
    StableHlo.TRef.unary main_call1.v7 main_call1.v8 Host.negf,
    StableHlo.TRef.unary main_call1.v8 main_call1.v9 Host.exp,
    StableHlo.TRef.unary main_call1.v9 main_call1.v10 Host.log1p,
    StableHlo.TRef.binary main_call1.v1 main_call1.v10 main_call1.v11 addf,
    StableHlo.TRef.ternary main_call1.v4 main_call1.v6 main_call1.v11 main_call1.v12 select,
    StableHlo.unary main_v12 main_v16 ((extractStridedSlice S512x1 ![0, 1] · slices_S512x6_S512x1_0_1) : (⟨S512x6, .f32⟩ : BufTy).Contents (Elt F) → (⟨S512x1, .f32⟩ : BufTy).Contents (Elt F)),
    StableHlo.reshape main_v16 main_v17 rfl shapeCasts_S512x1_S512,
    StableHlo.unary main_v12 main_v18 ((extractStridedSlice S512x1 ![0, 2] · slices_S512x6_S512x1_0_2) : (⟨S512x6, .f32⟩ : BufTy).Contents (Elt F) → (⟨S512x1, .f32⟩ : BufTy).Contents (Elt F)),
    StableHlo.reshape main_v18 main_v19 rfl shapeCasts_S512x1_S512,
    StableHlo.TRef.nullary main_call2.cst (constant S_ .f32 0x00000000#32),
    StableHlo.TRef.unary main_call2.cst main_call2.v0 (broadcastInDim S512 ![] bcast_S_S512),
    StableHlo.TRef.binary (.of main_v19 : StableHlo.TRef sig ⟨S512, .f32⟩) main_call2.v0 main_call2.v1 maximumf,
    StableHlo.TRef.unary main_call2.cst main_call2.v2 (broadcastInDim S512 ![] bcast_S_S512),
    StableHlo.TRef.binary (.of main_v19 : StableHlo.TRef sig ⟨S512, .f32⟩) main_call2.v2 main_call2.v3 subf,
    StableHlo.TRef.binary main_call2.v3 main_call2.v3 main_call2.v4 (cmpf .une),
    StableHlo.TRef.unary main_call2.cst main_call2.v5 (broadcastInDim S512 ![] bcast_S_S512),
    StableHlo.TRef.binary (.of main_v19 : StableHlo.TRef sig ⟨S512, .f32⟩) main_call2.v5 main_call2.v6 addf,
    StableHlo.TRef.unary main_call2.v3 main_call2.v7 Host.absf,
    StableHlo.TRef.unary main_call2.v7 main_call2.v8 Host.negf,
    StableHlo.TRef.unary main_call2.v8 main_call2.v9 Host.exp,
    StableHlo.TRef.unary main_call2.v9 main_call2.v10 Host.log1p,
    StableHlo.TRef.binary main_call2.v1 main_call2.v10 main_call2.v11 addf,
    StableHlo.TRef.ternary main_call2.v4 main_call2.v6 main_call2.v11 main_call2.v12 select,
    StableHlo.unary main_v12 main_v21 ((extractStridedSlice S512x1 ![0, 3] · slices_S512x6_S512x1_0_3) : (⟨S512x6, .f32⟩ : BufTy).Contents (Elt F) → (⟨S512x1, .f32⟩ : BufTy).Contents (Elt F)),
    StableHlo.reshape main_v21 main_v22 rfl shapeCasts_S512x1_S512,
    StableHlo.unary main_v12 main_v23 ((extractStridedSlice S512x1 ![0, 4] · slices_S512x6_S512x1_0_4) : (⟨S512x6, .f32⟩ : BufTy).Contents (Elt F) → (⟨S512x1, .f32⟩ : BufTy).Contents (Elt F)),
    StableHlo.reshape main_v23 main_v24 rfl shapeCasts_S512x1_S512,
    StableHlo.unary main_v12 main_v25 ((extractStridedSlice S512x1 ![0, 5] · slices_S512x6_S512x1_0_5) : (⟨S512x6, .f32⟩ : BufTy).Contents (Elt F) → (⟨S512x1, .f32⟩ : BufTy).Contents (Elt F)),
    StableHlo.reshape main_v25 main_v26 rfl shapeCasts_S512x1_S512,
    StableHlo.TRef.nullary main_call3.cst (constant S_ .f32 0x00000000#32),
    StableHlo.TRef.unary main_call3.cst main_call3.v0 (broadcastInDim S512 ![] bcast_S_S512),
    StableHlo.TRef.binary (.of main_v26 : StableHlo.TRef sig ⟨S512, .f32⟩) main_call3.v0 main_call3.v1 maximumf,
    StableHlo.TRef.unary main_call3.cst main_call3.v2 (broadcastInDim S512 ![] bcast_S_S512),
    StableHlo.TRef.binary (.of main_v26 : StableHlo.TRef sig ⟨S512, .f32⟩) main_call3.v2 main_call3.v3 subf,
    StableHlo.TRef.binary main_call3.v3 main_call3.v3 main_call3.v4 (cmpf .une),
    StableHlo.TRef.unary main_call3.cst main_call3.v5 (broadcastInDim S512 ![] bcast_S_S512),
    StableHlo.TRef.binary (.of main_v26 : StableHlo.TRef sig ⟨S512, .f32⟩) main_call3.v5 main_call3.v6 addf,
    StableHlo.TRef.unary main_call3.v3 main_call3.v7 Host.absf,
    StableHlo.TRef.unary main_call3.v7 main_call3.v8 Host.negf,
    StableHlo.TRef.unary main_call3.v8 main_call3.v9 Host.exp,
    StableHlo.TRef.unary main_call3.v9 main_call3.v10 Host.log1p,
    StableHlo.TRef.binary main_call3.v1 main_call3.v10 main_call3.v11 addf,
    StableHlo.TRef.ternary main_call3.v4 main_call3.v6 main_call3.v11 main_call3.v12 select,
    StableHlo.unary main_arg5 main_v28 (broadcastInDim S1x65536x3 ![1, 2] bcast_S65536x3_S1x65536x3_1_2 : (⟨S65536x3, .f32⟩ : BufTy).Contents (Elt F) → (⟨S1x65536x3, .f32⟩ : BufTy).Contents (Elt F)),
    StableHlo.unary main_v4 main_v29 (broadcastInDim S512x1x3 ![0, 2] bcast_S512x3_S512x1x3_0_2 : (⟨S512x3, .f32⟩ : BufTy).Contents (Elt F) → (⟨S512x1x3, .f32⟩ : BufTy).Contents (Elt F)),
    StableHlo.unary main_v28 main_v30 (broadcastInDim S512x65536x3 ![0, 1, 2] bcast_S1x65536x3_S512x65536x3_0_1_2 : (⟨S1x65536x3, .f32⟩ : BufTy).Contents (Elt F) → (⟨S512x65536x3, .f32⟩ : BufTy).Contents (Elt F)),
    StableHlo.unary main_v29 main_v31 (broadcastInDim S512x65536x3 ![0, 1, 2] bcast_S512x1x3_S512x65536x3_0_1_2 : (⟨S512x1x3, .f32⟩ : BufTy).Contents (Elt F) → (⟨S512x65536x3, .f32⟩ : BufTy).Contents (Elt F)),
    StableHlo.binary main_v30 main_v31 main_v32 (subf : (⟨S512x65536x3, .f32⟩ : BufTy).Contents (Elt F) → (⟨S512x65536x3, .f32⟩ : BufTy).Contents (Elt F) → (⟨S512x65536x3, .f32⟩ : BufTy).Contents (Elt F)),
    StableHlo.unary main_v32 main_v33 ((extractStridedSlice S512x65536x1 ![0, 0, 0] · slices_S512x65536x3_S512x65536x1_0_0_0) : (⟨S512x65536x3, .f32⟩ : BufTy).Contents (Elt F) → (⟨S512x65536x1, .f32⟩ : BufTy).Contents (Elt F)),
    StableHlo.reshape main_v33 main_v34 rfl shapeCasts_S512x65536x1_S512x65536,
    StableHlo.unary main_v15 main_v35 (broadcastInDim S512x1 ![0] bcast_S512_S512x1_0 : (⟨S512, .f32⟩ : BufTy).Contents (Elt F) → (⟨S512x1, .f32⟩ : BufTy).Contents (Elt F)),
    StableHlo.unary main_v35 main_v36 (broadcastInDim S512x65536 ![0, 1] bcast_S512x1_S512x65536_0_1 : (⟨S512x1, .f32⟩ : BufTy).Contents (Elt F) → (⟨S512x65536, .f32⟩ : BufTy).Contents (Elt F)),
    StableHlo.binary main_v34 main_v36 main_v37 (Host.divf : (⟨S512x65536, .f32⟩ : BufTy).Contents (Elt F) → (⟨S512x65536, .f32⟩ : BufTy).Contents (Elt F) → (⟨S512x65536, .f32⟩ : BufTy).Contents (Elt F)),
    StableHlo.unary main_v32 main_v38 ((extractStridedSlice S512x65536x1 ![0, 0, 1] · slices_S512x65536x3_S512x65536x1_0_0_1) : (⟨S512x65536x3, .f32⟩ : BufTy).Contents (Elt F) → (⟨S512x65536x1, .f32⟩ : BufTy).Contents (Elt F)),
    StableHlo.reshape main_v38 main_v39 rfl shapeCasts_S512x65536x1_S512x65536,
    StableHlo.unary main_v17 main_v40 (broadcastInDim S512x1 ![0] bcast_S512_S512x1_0 : (⟨S512, .f32⟩ : BufTy).Contents (Elt F) → (⟨S512x1, .f32⟩ : BufTy).Contents (Elt F)),
    StableHlo.unary main_v40 main_v41 (broadcastInDim S512x65536 ![0, 1] bcast_S512x1_S512x65536_0_1 : (⟨S512x1, .f32⟩ : BufTy).Contents (Elt F) → (⟨S512x65536, .f32⟩ : BufTy).Contents (Elt F)),
    StableHlo.binary main_v41 main_v37 main_v42 (mulf : (⟨S512x65536, .f32⟩ : BufTy).Contents (Elt F) → (⟨S512x65536, .f32⟩ : BufTy).Contents (Elt F) → (⟨S512x65536, .f32⟩ : BufTy).Contents (Elt F)),
    StableHlo.binary main_v39 main_v42 main_v43 (subf : (⟨S512x65536, .f32⟩ : BufTy).Contents (Elt F) → (⟨S512x65536, .f32⟩ : BufTy).Contents (Elt F) → (⟨S512x65536, .f32⟩ : BufTy).Contents (Elt F)),
    StableHlo.unary main_v20 main_v44 (broadcastInDim S512x1 ![0] bcast_S512_S512x1_0 : (⟨S512, .f32⟩ : BufTy).Contents (Elt F) → (⟨S512x1, .f32⟩ : BufTy).Contents (Elt F)),
    StableHlo.unary main_v44 main_v45 (broadcastInDim S512x65536 ![0, 1] bcast_S512x1_S512x65536_0_1 : (⟨S512x1, .f32⟩ : BufTy).Contents (Elt F) → (⟨S512x65536, .f32⟩ : BufTy).Contents (Elt F)),
    StableHlo.binary main_v43 main_v45 main_v46 (Host.divf : (⟨S512x65536, .f32⟩ : BufTy).Contents (Elt F) → (⟨S512x65536, .f32⟩ : BufTy).Contents (Elt F) → (⟨S512x65536, .f32⟩ : BufTy).Contents (Elt F)),
    StableHlo.unary main_v32 main_v47 ((extractStridedSlice S512x65536x1 ![0, 0, 2] · slices_S512x65536x3_S512x65536x1_0_0_2) : (⟨S512x65536x3, .f32⟩ : BufTy).Contents (Elt F) → (⟨S512x65536x1, .f32⟩ : BufTy).Contents (Elt F)),
    StableHlo.reshape main_v47 main_v48 rfl shapeCasts_S512x65536x1_S512x65536,
    StableHlo.unary main_v22 main_v49 (broadcastInDim S512x1 ![0] bcast_S512_S512x1_0 : (⟨S512, .f32⟩ : BufTy).Contents (Elt F) → (⟨S512x1, .f32⟩ : BufTy).Contents (Elt F)),
    StableHlo.unary main_v49 main_v50 (broadcastInDim S512x65536 ![0, 1] bcast_S512x1_S512x65536_0_1 : (⟨S512x1, .f32⟩ : BufTy).Contents (Elt F) → (⟨S512x65536, .f32⟩ : BufTy).Contents (Elt F)),
    StableHlo.binary main_v50 main_v37 main_v51 (mulf : (⟨S512x65536, .f32⟩ : BufTy).Contents (Elt F) → (⟨S512x65536, .f32⟩ : BufTy).Contents (Elt F) → (⟨S512x65536, .f32⟩ : BufTy).Contents (Elt F)),
    StableHlo.binary main_v48 main_v51 main_v52 (subf : (⟨S512x65536, .f32⟩ : BufTy).Contents (Elt F) → (⟨S512x65536, .f32⟩ : BufTy).Contents (Elt F) → (⟨S512x65536, .f32⟩ : BufTy).Contents (Elt F)),
    StableHlo.unary main_v24 main_v53 (broadcastInDim S512x1 ![0] bcast_S512_S512x1_0 : (⟨S512, .f32⟩ : BufTy).Contents (Elt F) → (⟨S512x1, .f32⟩ : BufTy).Contents (Elt F)),
    StableHlo.unary main_v53 main_v54 (broadcastInDim S512x65536 ![0, 1] bcast_S512x1_S512x65536_0_1 : (⟨S512x1, .f32⟩ : BufTy).Contents (Elt F) → (⟨S512x65536, .f32⟩ : BufTy).Contents (Elt F)),
    StableHlo.binary main_v54 main_v46 main_v55 (mulf : (⟨S512x65536, .f32⟩ : BufTy).Contents (Elt F) → (⟨S512x65536, .f32⟩ : BufTy).Contents (Elt F) → (⟨S512x65536, .f32⟩ : BufTy).Contents (Elt F)),
    StableHlo.binary main_v52 main_v55 main_v56 (subf : (⟨S512x65536, .f32⟩ : BufTy).Contents (Elt F) → (⟨S512x65536, .f32⟩ : BufTy).Contents (Elt F) → (⟨S512x65536, .f32⟩ : BufTy).Contents (Elt F)),
    StableHlo.unary main_v27 main_v57 (broadcastInDim S512x1 ![0] bcast_S512_S512x1_0 : (⟨S512, .f32⟩ : BufTy).Contents (Elt F) → (⟨S512x1, .f32⟩ : BufTy).Contents (Elt F)),
    StableHlo.unary main_v57 main_v58 (broadcastInDim S512x65536 ![0, 1] bcast_S512x1_S512x65536_0_1 : (⟨S512x1, .f32⟩ : BufTy).Contents (Elt F) → (⟨S512x65536, .f32⟩ : BufTy).Contents (Elt F)),
    StableHlo.binary main_v56 main_v58 main_v59 (Host.divf : (⟨S512x65536, .f32⟩ : BufTy).Contents (Elt F) → (⟨S512x65536, .f32⟩ : BufTy).Contents (Elt F) → (⟨S512x65536, .f32⟩ : BufTy).Contents (Elt F)),
    StableHlo.binary main_v37 main_v37 main_v60 (mulf : (⟨S512x65536, .f32⟩ : BufTy).Contents (Elt F) → (⟨S512x65536, .f32⟩ : BufTy).Contents (Elt F) → (⟨S512x65536, .f32⟩ : BufTy).Contents (Elt F)),
    StableHlo.binary main_v46 main_v46 main_v61 (mulf : (⟨S512x65536, .f32⟩ : BufTy).Contents (Elt F) → (⟨S512x65536, .f32⟩ : BufTy).Contents (Elt F) → (⟨S512x65536, .f32⟩ : BufTy).Contents (Elt F)),
    StableHlo.binary main_v60 main_v61 main_v62 (addf : (⟨S512x65536, .f32⟩ : BufTy).Contents (Elt F) → (⟨S512x65536, .f32⟩ : BufTy).Contents (Elt F) → (⟨S512x65536, .f32⟩ : BufTy).Contents (Elt F)),
    StableHlo.binary main_v59 main_v59 main_v63 (mulf : (⟨S512x65536, .f32⟩ : BufTy).Contents (Elt F) → (⟨S512x65536, .f32⟩ : BufTy).Contents (Elt F) → (⟨S512x65536, .f32⟩ : BufTy).Contents (Elt F)),
    StableHlo.binary main_v62 main_v63 main_v64 (addf : (⟨S512x65536, .f32⟩ : BufTy).Contents (Elt F) → (⟨S512x65536, .f32⟩ : BufTy).Contents (Elt F) → (⟨S512x65536, .f32⟩ : BufTy).Contents (Elt F)),
    StableHlo.unary main_v15 main_v65 (Host.log : (⟨S512, .f32⟩ : BufTy).Contents (Elt F) → (⟨S512, .f32⟩ : BufTy).Contents (Elt F)),
    StableHlo.unary main_v20 main_v66 (Host.log : (⟨S512, .f32⟩ : BufTy).Contents (Elt F) → (⟨S512, .f32⟩ : BufTy).Contents (Elt F)),
    StableHlo.binary main_v65 main_v66 main_v67 (addf : (⟨S512, .f32⟩ : BufTy).Contents (Elt F) → (⟨S512, .f32⟩ : BufTy).Contents (Elt F) → (⟨S512, .f32⟩ : BufTy).Contents (Elt F)),
    StableHlo.unary main_v27 main_v68 (Host.log : (⟨S512, .f32⟩ : BufTy).Contents (Elt F) → (⟨S512, .f32⟩ : BufTy).Contents (Elt F)),
    StableHlo.binary main_v67 main_v68 main_v69 (addf : (⟨S512, .f32⟩ : BufTy).Contents (Elt F) → (⟨S512, .f32⟩ : BufTy).Contents (Elt F) → (⟨S512, .f32⟩ : BufTy).Contents (Elt F)),
    StableHlo.nullary main_cst_0 (constant S_ .f32 0xBF000000#32),
    StableHlo.unary main_cst_0 main_v70 (broadcastInDim S512x65536 ![] bcast_S_S512x65536 : (⟨S_, .f32⟩ : BufTy).Contents (Elt F) → (⟨S512x65536, .f32⟩ : BufTy).Contents (Elt F)),
    StableHlo.binary main_v70 main_v64 main_v71 (mulf : (⟨S512x65536, .f32⟩ : BufTy).Contents (Elt F) → (⟨S512x65536, .f32⟩ : BufTy).Contents (Elt F) → (⟨S512x65536, .f32⟩ : BufTy).Contents (Elt F)),
    StableHlo.nullary main_cst_1 (constant S_ .f32 0x40306FAB#32),
    StableHlo.unary main_cst_1 main_v72 (broadcastInDim S512x65536 ![] bcast_S_S512x65536 : (⟨S_, .f32⟩ : BufTy).Contents (Elt F) → (⟨S512x65536, .f32⟩ : BufTy).Contents (Elt F)),
    StableHlo.binary main_v71 main_v72 main_v73 (subf : (⟨S512x65536, .f32⟩ : BufTy).Contents (Elt F) → (⟨S512x65536, .f32⟩ : BufTy).Contents (Elt F) → (⟨S512x65536, .f32⟩ : BufTy).Contents (Elt F)),
    StableHlo.unary main_v69 main_v74 (broadcastInDim S512x1 ![0] bcast_S512_S512x1_0 : (⟨S512, .f32⟩ : BufTy).Contents (Elt F) → (⟨S512x1, .f32⟩ : BufTy).Contents (Elt F)),
    StableHlo.unary main_v74 main_v75 (broadcastInDim S512x65536 ![0, 1] bcast_S512x1_S512x65536_0_1 : (⟨S512x1, .f32⟩ : BufTy).Contents (Elt F) → (⟨S512x65536, .f32⟩ : BufTy).Contents (Elt F)),
    StableHlo.binary main_v73 main_v75 main_v76 (subf : (⟨S512x65536, .f32⟩ : BufTy).Contents (Elt F) → (⟨S512x65536, .f32⟩ : BufTy).Contents (Elt F) → (⟨S512x65536, .f32⟩ : BufTy).Contents (Elt F)),
    StableHlo.nullary main_cst_2 (constant S_ .f32 0xFF800000#32),
    StableHlo.binary main_v76 main_cst_2 main_v77 ((fun x v => Host.reduce FloatOps.maximumf x v reducesTo_S512x65536_S512_d1 h_S_) : (⟨S512x65536, .f32⟩ : BufTy).Contents (Elt F) → (⟨S_, .f32⟩ : BufTy).Contents (Elt F) → (⟨S512, .f32⟩ : BufTy).Contents (Elt F)),
    StableHlo.unary main_v77 main_v78 (broadcastInDim S512x1 ![0] bcast_S512_S512x1_0 : (⟨S512, .f32⟩ : BufTy).Contents (Elt F) → (⟨S512x1, .f32⟩ : BufTy).Contents (Elt F)),
    StableHlo.unary main_v78 main_v79 (broadcastInDim S512x65536 ![0, 1] bcast_S512x1_S512x65536_0_1 : (⟨S512x1, .f32⟩ : BufTy).Contents (Elt F) → (⟨S512x65536, .f32⟩ : BufTy).Contents (Elt F)),
    StableHlo.binary main_v76 main_v79 main_v80 (subf : (⟨S512x65536, .f32⟩ : BufTy).Contents (Elt F) → (⟨S512x65536, .f32⟩ : BufTy).Contents (Elt F) → (⟨S512x65536, .f32⟩ : BufTy).Contents (Elt F)),
    StableHlo.unary main_v80 main_v81 (Host.exp : (⟨S512x65536, .f32⟩ : BufTy).Contents (Elt F) → (⟨S512x65536, .f32⟩ : BufTy).Contents (Elt F)),
    StableHlo.nullary main_cst_3 (constant S_ .f32 0x00000000#32),
    StableHlo.binary main_v81 main_cst_3 main_v82 ((fun x v => Host.reduceAdd x v reducesTo_S512x65536_S512_d1 h_S_) : (⟨S512x65536, .f32⟩ : BufTy).Contents (Elt F) → (⟨S_, .f32⟩ : BufTy).Contents (Elt F) → (⟨S512, .f32⟩ : BufTy).Contents (Elt F)),
    StableHlo.unary main_v82 main_v83 (broadcastInDim S512x1 ![0] bcast_S512_S512x1_0 : (⟨S512, .f32⟩ : BufTy).Contents (Elt F) → (⟨S512x1, .f32⟩ : BufTy).Contents (Elt F)),
    StableHlo.nullary main_cst_4 (constant S_ .f32 0x2EDBE6FF#32),
    StableHlo.unary main_cst_4 main_v84 (broadcastInDim S512x1 ![] bcast_S_S512x1 : (⟨S_, .f32⟩ : BufTy).Contents (Elt F) → (⟨S512x1, .f32⟩ : BufTy).Contents (Elt F)),
    StableHlo.binary main_v83 main_v84 main_v85 (addf : (⟨S512x1, .f32⟩ : BufTy).Contents (Elt F) → (⟨S512x1, .f32⟩ : BufTy).Contents (Elt F) → (⟨S512x1, .f32⟩ : BufTy).Contents (Elt F)),
    StableHlo.unary main_v85 main_v86 (broadcastInDim S512x65536 ![0, 1] bcast_S512x1_S512x65536_0_1 : (⟨S512x1, .f32⟩ : BufTy).Contents (Elt F) → (⟨S512x65536, .f32⟩ : BufTy).Contents (Elt F)),
    StableHlo.binary main_v81 main_v86 main_v87 (Host.divf : (⟨S512x65536, .f32⟩ : BufTy).Contents (Elt F) → (⟨S512x65536, .f32⟩ : BufTy).Contents (Elt F) → (⟨S512x65536, .f32⟩ : BufTy).Contents (Elt F)) ]

set_option maxRecDepth 4096 in
/-- The entry function is that straight line: the two halves it is printed in and the called functions unfolded, the
    sequencing re-associated. -/
theorem main_eq (c : Dev nD) : main (F := F) c = seq ops := by
  simp only [main, main_part0, main_part1, fn_elu.body, fn_where.body, fn_where_0.body, fn_softplus.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., unary_bufs_sub .., reshape_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., reshape_bufs_sub .., unary_bufs_sub .., reshape_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., reshape_bufs_sub .., unary_bufs_sub .., reshape_bufs_sub .., unary_bufs_sub .., reshape_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., binary_bufs_sub .., unary_bufs_sub .., unary_bufs_sub .., binary_bufs_sub .., unary_bufs_sub .., reshape_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub .., binary_bufs_sub .., binary_bufs_sub .., unary_bufs_sub .., unary_bufs_sub .., binary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., unary_bufs_sub .., unary_bufs_sub .., binary_bufs_sub .., unary_bufs_sub .., nullary_bufs_sub .., binary_bufs_sub .., unary_bufs_sub .., nullary_bufs_sub .., unary_bufs_sub .., binary_bufs_sub .., unary_bufs_sub .., binary_bufs_sub ..⟩

/-- Every weakly fair execution of the entry function terminates, and every final state has each buffer at the
    operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The buffers the operations write: each operation's result. No argument is among them. -/
abbrev written : List (Ref sig .tc) := [main_v0, main_v1, main_v2, main_v3, main_v4, main_v5, main_v6, main_v7, main_v8, main_v9, main_call0_cst, main_call0_v0, main_call0_v1, main_call0_cst_0, main_call0_v2, main_call0_v3, main_call0_cst_1, main_call0_call0_v0, main_call0_call0_v1, main_call0_v4, main_call0_v5, main_call0_cst_2, main_call0_v6, main_call0_v7, main_v10, main_cst, main_v11, main_v12, main_v13, main_v14, main_call1_cst, main_call1_v0, main_call1_v1, main_call1_v2, main_call1_v3, main_call1_v4, main_call1_v5, main_call1_v6, main_call1_v7, main_call1_v8, main_call1_v9, main_call1_v10, main_call1_v11, main_v15, main_v16, main_v17, main_v18, main_v19, main_call2_cst, main_call2_v0, main_call2_v1, main_call2_v2, main_call2_v3, main_call2_v4, main_call2_v5, main_call2_v6, main_call2_v7, main_call2_v8, main_call2_v9, main_call2_v10, main_call2_v11, main_v20, main_v21, main_v22, main_v23, main_v24, main_v25, main_v26, main_call3_cst, main_call3_v0, main_call3_v1, main_call3_v2, main_call3_v3, main_call3_v4, main_call3_v5, main_call3_v6, main_call3_v7, main_call3_v8, main_call3_v9, main_call3_v10, main_call3_v11, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_cst_0, main_v70, main_v71, main_cst_1, main_v72, main_v73, main_v74, main_v75, main_v76, main_cst_2, main_v77, main_v78, main_v79, main_v80, main_v81, main_cst_3, main_v82, main_v83, main_cst_4, main_v84, main_v85, main_v86, main_v87]

theorem ops_writes : (ops : List (HloOp τ sig (Elt F))).Forall fun op => op.writes ⊆ (written.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> (refine List.mem_map_of_mem ?_; decide)

/-- A buffer no operation writes holds at the end what it held at the start. -/
theorem kept (V : Valuation τ sig (Elt F)) (r : Ref sig .tc) (h : r ∉ written) : after ops V (r : DevRef τ sig) = V (r : DevRef τ sig) :=
  after_of_writes_sub ops V ops_writes h

end Cert.ReferenceIdeal.RefRun

end
-- ==== Proof.KIRegion1Value.lean ====
/-
  The value of region 1's output block, read at an index, over extended reals.

  At row `b` and pixel `j` of the block the body stores  exp (lp − m) · (1 / s),  where  m  and  s  are the row's two
  statistics and  lp  is the polynomial  c₀ + c₁x + c₂y + c₃z + c₄x² + c₅y² + c₆z² + c₇xy + c₈xz + c₉yz  in the pixel's
  nine features with the row's ten coefficients, summed left to right.  The proof pushes the index through each
  elementwise operation, reads a broadcast of a column (or a row) at the column's (row's) one entry, an identity
  shape cast as nothing, and a load of one row or one column of a block as the block at that row or column.
-/
import proofs.«169934_j78314433675744_2_alg».proof.Proof.KIRegion1
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-! ## Layout facts at rank two -/

section Layout
variable {α : Type}

/-- One row of an `[n, m]` array, loaded as a `[1, m]` block, reads at `(u, j)` the array at `(k, j)`. -/
theorem ld_row_apply {Val : EltTy → Type} {e : EltTy} {n m : ℕ} (X : (⟨2, ![n, m]⟩ : Shape).Idx → Val e) (k : Fin n)
    (inb : ∀ a, (![k.val, 0] : Fin 2 → ℕ) a + (![1, m] : Fin 2 → ℕ) a ≤ (⟨2, ![n, m]⟩ : Shape).size a)
    (u : Fin 1) (j : Fin m) :
    View.ld X (Rect.unit (s := ⟨2, ![n, m]⟩) ![k.val, 0] ![1, m] inb) (ix2 u j) = X (ix2 k j) := by
  show X ((Rect.unit (s := ⟨2, ![n, m]⟩) ![k.val, 0] ![1, m] inb).idx (ix2 u j)) = X (ix2 k j)
  refine congrArg X (funext fun a => ?_)
  match a with
  | ⟨0, _⟩ => exact Fin.ext (by show k.val + 1 * u.val = k.val; omega)
  | ⟨1, _⟩ => exact Fin.ext (by show 0 + 1 * j.val = j.val; omega)

/-- One column of an `[n, m]` array, loaded as an `[n, 1]` block, reads at `(b, u)` the array at `(b, k)`. -/
theorem ld_col_apply {Val : EltTy → Type} {e : EltTy} {n m : ℕ} (X : (⟨2, ![n, m]⟩ : Shape).Idx → Val e) (k : Fin m)
    (inb : ∀ a, (![0, k.val] : Fin 2 → ℕ) a + (![n, 1] : Fin 2 → ℕ) a ≤ (⟨2, ![n, m]⟩ : Shape).size a)
    (b : Fin n) (u : Fin 1) :
    View.ld X (Rect.unit (s := ⟨2, ![n, m]⟩) ![0, k.val] ![n, 1] inb) (ix2 b u) = X (ix2 b k) := by
  show X ((Rect.unit (s := ⟨2, ![n, m]⟩) ![0, k.val] ![n, 1] inb).idx (ix2 b u)) = X (ix2 b k)
  refine congrArg X (funext fun a => ?_)
  match a with
  | ⟨0, _⟩ => exact Fin.ext (by show 0 + 1 * b.val = b.val; omega)
  | ⟨1, _⟩ => exact Fin.ext (by show k.val + 1 * u.val = k.val; omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The body's loads, read at an index -/

theorem r1FeatA_apply (x0 : Vec Ideal S9x2048 .f32) (u : Fin 1) (j : Fin 2048) :
    View.ld x0 r1FeatA (ix2 u j) = x0 (ix2 (0 : Fin 9) j) := ld_row_apply x0 0 _ u j
theorem r1FeatB_apply (x0 : Vec Ideal S9x2048 .f32) (u : Fin 1) (j : Fin 2048) :
    View.ld x0 r1FeatB (ix2 u j) = x0 (ix2 (1 : Fin 9) j) := ld_row_apply x0 1 _ u j
theorem r1FeatC_apply (x0 : Vec Ideal S9x2048 .f32) (u : Fin 1) (j : Fin 2048) :
    View.ld x0 r1FeatC (ix2 u j) = x0 (ix2 (2 : Fin 9) j) := ld_row_apply x0 2 _ u j
theorem r1FeatD_apply (x0 : Vec Ideal S9x2048 .f32) (u : Fin 1) (j : Fin 2048) :
    View.ld x0 r1FeatD (ix2 u j) = x0 (ix2 (3 : Fin 9) j) := ld_row_apply x0 3 _ u j
theorem r1FeatE_apply (x0 : Vec Ideal S9x2048 .f32) (u : Fin 1) (j : Fin 2048) :
    View.ld x0 r1FeatE (ix2 u j) = x0 (ix2 (4 : Fin 9) j) := ld_row_apply x0 4 _ u j
theorem r1FeatF_apply (x0 : Vec Ideal S9x2048 .f32) (u : Fin 1) (j : Fin 2048) :
    View.ld x0 r1FeatF (ix2 u j) = x0 (ix2 (5 : Fin 9) j) := ld_row_apply x0 5 _ u j
theorem r1FeatG_apply (x0 : Vec Ideal S9x2048 .f32) (u : Fin 1) (j : Fin 2048) :
    View.ld x0 r1FeatG (ix2 u j) = x0 (ix2 (6 : Fin 9) j) := ld_row_apply x0 6 _ u j
theorem r1FeatH_apply (x0 : Vec Ideal S9x2048 .f32) (u : Fin 1) (j : Fin 2048) :
    View.ld x0 r1FeatH (ix2 u j) = x0 (ix2 (7 : Fin 9) j) := ld_row_apply x0 7 _ u j
theorem r1FeatI_apply (x0 : Vec Ideal S9x2048 .f32) (u : Fin 1) (j : Fin 2048) :
    View.ld x0 r1FeatI (ix2 u j) = x0 (ix2 (8 : Fin 9) j) := ld_row_apply x0 8 _ u j

theorem r1CoefA_apply (x1 : Vec Ideal S512x10 .f32) (b : Fin 512) (u : Fin 1) :
    View.ld x1 r1CoefA (ix2 b u) = x1 (ix2 b (0 : Fin 10)) := ld_col_apply x1 0 _ b u
theorem r1CoefB_apply (x1 : Vec Ideal S512x10 .f32) (b : Fin 512) (u : Fin 1) :
    View.ld x1 r1CoefB (ix2 b u) = x1 (ix2 b (1 : Fin 10)) := ld_col_apply x1 1 _ b u
theorem r1CoefC_apply (x1 : Vec Ideal S512x10 .f32) (b : Fin 512) (u : Fin 1) :
    View.ld x1 r1CoefC (ix2 b u) = x1 (ix2 b (2 : Fin 10)) := ld_col_apply x1 2 _ b u
theorem r1CoefD_apply (x1 : Vec Ideal S512x10 .f32) (b : Fin 512) (u : Fin 1) :
    View.ld x1 r1CoefD (ix2 b u) = x1 (ix2 b (3 : Fin 10)) := ld_col_apply x1 3 _ b u
theorem r1CoefE_apply (x1 : Vec Ideal S512x10 .f32) (b : Fin 512) (u : Fin 1) :
    View.ld x1 r1CoefE (ix2 b u) = x1 (ix2 b (4 : Fin 10)) := ld_col_apply x1 4 _ b u
theorem r1CoefF_apply (x1 : Vec Ideal S512x10 .f32) (b : Fin 512) (u : Fin 1) :
    View.ld x1 r1CoefF (ix2 b u) = x1 (ix2 b (5 : Fin 10)) := ld_col_apply x1 5 _ b u
theorem r1CoefG_apply (x1 : Vec Ideal S512x10 .f32) (b : Fin 512) (u : Fin 1) :
    View.ld x1 r1CoefG (ix2 b u) = x1 (ix2 b (6 : Fin 10)) := ld_col_apply x1 6 _ b u
theorem r1CoefH_apply (x1 : Vec Ideal S512x10 .f32) (b : Fin 512) (u : Fin 1) :
    View.ld x1 r1CoefH (ix2 b u) = x1 (ix2 b (7 : Fin 10)) := ld_col_apply x1 7 _ b u
theorem r1CoefI_apply (x1 : Vec Ideal S512x10 .f32) (b : Fin 512) (u : Fin 1) :
    View.ld x1 r1CoefI (ix2 b u) = x1 (ix2 b (8 : Fin 10)) := ld_col_apply x1 8 _ b u
theorem r1CoefJ_apply (x1 : Vec Ideal S512x10 .f32) (b : Fin 512) (u : Fin 1) :
    View.ld x1 r1CoefJ (ix2 b u) = x1 (ix2 b (9 : Fin 10)) := ld_col_apply x1 9 _ b u

theorem r1StatA_apply (x2 : Vec Ideal S512x2 .f32) (b : Fin 512) (u : Fin 1) :
    View.ld x2 r1StatA (ix2 b u) = x2 (ix2 b (0 : Fin 2)) := ld_col_apply x2 0 _ b u
theorem r1StatB_apply (x2 : Vec Ideal S512x2 .f32) (b : Fin 512) (u : Fin 1) :
    View.ld x2 r1StatB (ix2 b u) = x2 (ix2 b (1 : Fin 2)) := ld_col_apply x2 1 _ b u

/-! ## The constant one -/

/-- The single-precision pattern of 1.0 denotes the extended real one. -/
theorem one_f32 : (Scalar.ofBits (F := Ideal) .f32 0x3F800000#32 : Ideal .f32) = 1 := by
  show Ideal.ofBits .f32 0x3F800000#32 = 1
  simp [Ideal.ofBits, Ideal.ieee, -EReal.coe_mul]; norm_num

/-! ## The polynomial, and the stored value, at an index -/

section AtIdeal

/-- An exponential at an index is the exponential of the element. -/
theorem exp_apply {s : Shape} {φ : FTy} (a : FVec Ideal s φ) (i : s.Idx) : exp a i = Ideal.exp (a i) := rfl

/-- The row's polynomial in the pixel's nine features: the ten terms summed left to right. -/
def lpAt (x0 : Vec Ideal S9x2048 .f32) (x1 : Vec Ideal S512x10 .f32) (b : Fin 512) (j : Fin 2048) : Ideal .f32 :=
  (((((((((x1 (ix2 b (0 : Fin 10)) + x1 (ix2 b (1 : Fin 10)) * x0 (ix2 (0 : Fin 9) j))
    + x1 (ix2 b (2 : Fin 10)) * x0 (ix2 (1 : Fin 9) j)) + x1 (ix2 b (3 : Fin 10)) * x0 (ix2 (2 : Fin 9) j))
    + x1 (ix2 b (4 : Fin 10)) * x0 (ix2 (3 : Fin 9) j)) + x1 (ix2 b (5 : Fin 10)) * x0 (ix2 (4 : Fin 9) j))
    + x1 (ix2 b (6 : Fin 10)) * x0 (ix2 (5 : Fin 9) j)) + x1 (ix2 b (7 : Fin 10)) * x0 (ix2 (6 : Fin 9) j))
    + x1 (ix2 b (8 : Fin 10)) * x0 (ix2 (7 : Fin 9) j)) + x1 (ix2 b (9 : Fin 10)) * x0 (ix2 (8 : Fin 9) j))

/-- The body's polynomial block at row `b`, pixel `j`. -/
theorem logDensity1_apply (x0 : Vec Ideal S9x2048 .f32) (x1 : Vec Ideal S512x10 .f32) (b : Fin 512) (j : Fin 2048) :
    logDensity1 x0 x1 (ix2 b j) = lpAt x0 x1 b j := by
  unfold logDensity1 k1_pay16 k1_pay2 k1_pay3 k1_pay4 k1_pay5 k1_pay6 k1_pay7 k1_pay8 k1_pay9 k1_pay10
    k1_pay11 k1_pay12 k1_pay13 k1_pay14 k1_pay15 lpAt
  simp only [addf_apply, mulf_apply, shapeCast_self, broadcastTo_a1_ab_apply, broadcastTo_1b_ab_apply]
  rw [r1FeatA_apply, r1FeatB_apply, r1FeatC_apply, r1FeatD_apply, r1FeatE_apply, r1FeatF_apply, r1FeatG_apply,
    r1FeatH_apply, r1FeatI_apply, r1CoefA_apply, r1CoefB_apply, r1CoefC_apply, r1CoefD_apply, r1CoefE_apply,
    r1CoefF_apply, r1CoefG_apply, r1CoefH_apply, r1CoefI_apply, r1CoefJ_apply]

/-- What the body leaves in the output block at row `b`, pixel `j`, from the three input blocks: the exponential of
    the polynomial less the row's first statistic, times one over the row's second statistic. -/
theorem out1_3_apply (x0 : Vec Ideal S9x2048 .f32) (x1 : Vec Ideal S512x10 .f32) (x2 : Vec Ideal S512x2 .f32)
    (b : Fin 512) (j : Fin 2048) :
    out1_3 x0 x1 x2 (ix2 b j)
      = Ideal.exp (lpAt x0 x1 b j - x2 (ix2 b (0 : Fin 2))) * Ideal.div 1 (x2 (ix2 b (1 : Fin 2))) := by
  have hz : (![0, 0] : Fin S512x2048.rank → ℕ) = fun _ => 0 := by
    funext a; match a with | ⟨0, _⟩ => rfl | ⟨1, _⟩ => rfl
  unfold out1_3
  rw [View.canon_unit_zero hz]
  unfold k1_pay1 k1_pay17
  simp only [mulf_apply, exp_apply, subf_apply, divf_apply, broadcast_apply, shapeCast_self, broadcastTo_a1_ab_apply,
    logDensity1_apply, one_f32]
  rw [r1StatA_apply, r1StatB_apply]

end AtIdeal

end Cert.KernelIdeal.Hand

end
-- ==== Proof.KIRegion1Final.lean ====
/-
  Region 1's output array after the region, as one function of the three arrays the region reads.

  Each grid point `t` writes back the block of columns  2048·t … 2048·t + 2047  of the output array; what it writes is,
  entry by entry, the normalised density  exp (lp − m) · (1 / s)  of the row at that pixel, the pixel's features read
  from the feature array at the same columns and the row's coefficients and statistics from their whole arrays.  The
  thirty-two blocks tile the array, so after the region the array is that function everywhere.
-/
import proofs.«169934_j78314433675744_2_alg».proof.Proof.KIRegion1Value
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx

/-! ## The printed block index maps, over the grid -/

/-- At grid point `t`: the feature window and the output window sit at block `(0, t)`; the coefficient table and the
    statistics are one block each, at `(0, 0)`. -/
theorem idx_facts1 : ∀ t : Fin cfg1.N,
    win1_0.index t (0 : Fin 2) = 0 ∧ win1_0.index t (1 : Fin 2) = t.val
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = t.val :=
  (by decide +kernel : ∀ t : Fin grid1.N, _)

/-! ## The whole output array as one function of the three arrays the region reads -/

/-- The row's polynomial at pixel `n` of the whole feature array: the ten terms summed left to right. -/
def lpArr (feat : Vec Ideal S9x65536 .f32) (coef : Vec Ideal S512x10 .f32) (b : Fin 512) (n : Fin 65536) : Ideal .f32 :=
  (((((((((coef (ix2 b (0 : Fin 10)) + coef (ix2 b (1 : Fin 10)) * feat (ix2 (0 : Fin 9) n))
    + coef (ix2 b (2 : Fin 10)) * feat (ix2 (1 : Fin 9) n)) + coef (ix2 b (3 : Fin 10)) * feat (ix2 (2 : Fin 9) n))
    + coef (ix2 b (4 : Fin 10)) * feat (ix2 (3 : Fin 9) n)) + coef (ix2 b (5 : Fin 10)) * feat (ix2 (4 : Fin 9) n))
    + coef (ix2 b (6 : Fin 10)) * feat (ix2 (5 : Fin 9) n)) + coef (ix2 b (7 : Fin 10)) * feat (ix2 (6 : Fin 9) n))
    + coef (ix2 b (8 : Fin 10)) * feat (ix2 (7 : Fin 9) n)) + coef (ix2 b (9 : Fin 10)) * feat (ix2 (8 : Fin 9) n))

/-- The normalised density of row `i 0` at pixel `i 1`: the exponential of the polynomial less the row's first statistic,
    times one over the row's second statistic. -/
def normOut (feat : Vec Ideal S9x65536 .f32) (coef : Vec Ideal S512x10 .f32) (stats : Vec Ideal S512x2 .f32) :
    S512x65536.Idx → EReal :=
  fun i => Ideal.exp (lpArr feat coef (i 0) (i 1) - stats (ix2 (i 0) (0 : Fin 2))) * Ideal.div 1 (stats (ix2 (i 0) (1 : Fin 2)))

/-- The stored block at `(b, j)` is `normOut` at `(b, n)` when the feature block's column `j` is the feature array's
    column `n` and the other two blocks are their arrays. -/
theorem out1_3_eq_normOut (x0 : Vec Ideal S9x2048 .f32) (x1 : Vec Ideal S512x10 .f32) (x2 : Vec Ideal S512x2 .f32)
    (feat : Vec Ideal S9x65536 .f32) (coef : Vec Ideal S512x10 .f32) (stats : Vec Ideal S512x2 .f32)
    (b : Fin 512) (j : Fin 2048) (n : Fin 65536)
    (h0 : ∀ k : Fin 9, x0 (ix2 k j) = feat (ix2 k n))
    (h1 : ∀ k : Fin 10, x1 (ix2 b k) = coef (ix2 b k))
    (h2 : ∀ k : Fin 2, x2 (ix2 b k) = stats (ix2 b k)) :
    out1_3 x0 x1 x2 (ix2 b j) = normOut feat coef stats (ix2 b n) := by
  rw [out1_3_apply]
  unfold lpAt
  rw [h0, h0, h0, h0, h0, h0, h0, h0, h0, h1, h1, h1, h1, h1, h1, h1, h1, h1, h1, h2, h2]
  rfl

/-! ## What a grid point writes back, and the array after the region -/

section Final
open Idealize.ShloMosaic.TcCoe Idealize.SL.Sem
open Idealize.ShloMosaic.Pipeline (Dat)

-- the buffer contents when the region is entered
variable (V : (c : Dev nD) → (b : Ref sig .tc) → Buf (Elt Ideal) ((c : Thread nD τ).loc b))

/-- WHAT POINT `t` WRITES BACK is block `t` of `normOut` of the three arrays as the region finds them. -/
theorem flushed1_3_eq (c : Dev nD) (t : Fin cfg1.N) :
    (dat1 V c).flushed 3 t
      = ((cfg1.win 3).blk t).view.read (Elt Ideal) (normOut (V c main_v169) (V c main_v147) (V c main_v170)) := by
  show (cfg1.win 3).cut (grid1.coords t) ((dat1 V c).after 3 t) = _
  rw [after1_3]
  obtain ⟨e00, e01, e10, e11, e20, e21, e30, e31⟩ := idx_facts1 t
  have ht : t.val < 32 := t.isLt
  funext y
  have hy0 : (y 0).val < 512 := (y 0).isLt
  have hy1 : (y 1).val < 2048 := (y 1).isLt
  show out1_3 (iblk1 V c 0 t) (iblk1 V c 1 t) (iblk1 V c 2 t) y
      = normOut (V c main_v169) (V c main_v147) (V c main_v170) (((cfg1.win 3).blk t).view.emb y)
  have hemb : ((cfg1.win 3).blk t).view.emb y
      = (ix2 (⟨(y 0).val, hy0⟩ : Fin 512) (⟨t.val * 2048 + (y 1).val, by omega⟩ : Fin 65536) : S512x65536.Idx) := by
    funext a; apply Fin.ext
    match a with
    | ⟨0, _⟩ => show win1_3.index t (0 : Fin 2) * 512 + 1 * (y 0).val = (y 0).val; omega
    | ⟨1, _⟩ => show win1_3.index t (1 : Fin 2) * 2048 + 1 * (y 1).val = t.val * 2048 + (y 1).val; omega
  have hy : y = (ix2 (⟨(y 0).val, hy0⟩ : Fin 512) (⟨(y 1).val, hy1⟩ : Fin 2048) : S512x2048.Idx) := by
    funext a; apply Fin.ext
    match a with
    | ⟨0, _⟩ => rfl
    | ⟨1, _⟩ => rfl
  rw [hemb]
  refine (congrArg (out1_3 (iblk1 V c 0 t) (iblk1 V c 1 t) (iblk1 V c 2 t)) hy).trans ?_
  refine out1_3_eq_normOut (iblk1 V c 0 t) (iblk1 V c 1 t) (iblk1 V c 2 t) (V c main_v169) (V c main_v147) (V c main_v170)
    ⟨(y 0).val, hy0⟩ ⟨(y 1).val, hy1⟩ ⟨t.val * 2048 + (y 1).val, by omega⟩ (fun k => ?_) (fun k => ?_) (fun k => ?_)
  · show V c main_v169 (((cfg1.win 0).blk t).view.emb (ix2 k (⟨(y 1).val, hy1⟩ : Fin 2048))) = V c main_v169 (ix2 k ⟨t.val * 2048 + (y 1).val, _⟩)
    refine congrArg (V c main_v169) (funext fun a => Fin.ext ?_)
    match a with
    | ⟨0, _⟩ => show win1_0.index t (0 : Fin 2) * 9 + 1 * k.val = k.val; omega
    | ⟨1, _⟩ => show win1_0.index t (1 : Fin 2) * 2048 + 1 * (y 1).val = t.val * 2048 + (y 1).val; omega
  · show V c main_v147 (((cfg1.win 1).blk t).view.emb (ix2 (⟨(y 0).val, hy0⟩ : Fin 512) k)) = V c main_v147 (ix2 ⟨(y 0).val, hy0⟩ k)
    refine congrArg (V c main_v147) (funext fun a => Fin.ext ?_)
    match a with
    | ⟨0, _⟩ => show win1_1.index t (0 : Fin 2) * 512 + 1 * (y 0).val = (y 0).val; omega
    | ⟨1, _⟩ => show win1_1.index t (1 : Fin 2) * 10 + 1 * k.val = k.val; omega
  · show V c main_v170 (((cfg1.win 2).blk t).view.emb (ix2 (⟨(y 0).val, hy0⟩ : Fin 512) k)) = V c main_v170 (ix2 ⟨(y 0).val, hy0⟩ k)
    refine congrArg (V c main_v170) (funext fun a => Fin.ext ?_)
    match a with
    | ⟨0, _⟩ => show win1_2.index t (0 : Fin 2) * 512 + 1 * (y 0).val = (y 0).val; omega
    | ⟨1, _⟩ => show win1_2.index t (1 : Fin 2) * 2 + 1 * k.val = k.val; omega

/-- An index of the output array is in point `t`'s block iff each coordinate is in the block's range on its axis. -/
theorem mem_blk1_3 (t : Fin cfg1.N) (i : S512x65536.Idx) :
    i ∈ ((cfg1.win 3).blk t).view.set ↔ ∀ a : Fin 2, win1_3.index t a * S512x2048.size a ≤ (i a).val
      ∧ (i a).val < win1_3.index t a * S512x2048.size a + S512x2048.size a := by
  show i ∈ ((View.whole main_v171).slice (win1_3.rect t)).set ↔ _
  rw [View.set_slice_whole, Rect.mem_set_unit]
  exact Iff.rfl

/-- Every index of the output array is in the block of a point that writes back: pixel `n` in that of point `n / 2048`. -/
theorem cover1_3_arr (i : S512x65536.Idx) :
    ∃ t : Fin cfg1.N, (cfg1.win 3).flush t = true ∧ i ∈ ((cfg1.win 3).blk t).view.set := by
  have hi0 : (i 0).val < 512 := (i 0).isLt
  have hi1 : (i 1).val < 65536 := (i 1).isLt
  have hN : cfg1.N = 32 := N_1
  obtain ⟨t, ht⟩ : ∃ t : Fin cfg1.N, t.val = (i 1).val / 2048 := ⟨⟨(i 1).val / 2048, by rw [hN]; omega⟩, rfl⟩
  obtain ⟨e00, e01, e10, e11, e20, e21, e30, e31⟩ := idx_facts1 t
  refine ⟨t, flush1_3 t, ?_⟩
  rw [mem_blk1_3]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 2048 ≤ (i 1).val ∧ (i 1).val < win1_3.index t (1 : Fin 2) * 2048 + 2048; omega

/-- THE OUTPUT ARRAY after the region's thirty-two write-backs is `normOut` of the three arrays the region reads. -/
theorem final1 (c : Dev nD) :
    (dat1 V c).arrAt 3 cfg1.N = normOut (V c main_v169) (V c main_v147) (V c main_v170) :=
  (dat1 V c).arrAt_eq_of_cover 3 (normOut (V c main_v169) (V c main_v147) (V c main_v170))
    (fun t _ => flushed1_3_eq V c t) cover1_3_arr

/-- The arrays the region's four windows move. -/
theorem arrRef1_0 : Pipeline.arrRef spec1 0 = main_v169 := rfl
theorem arrRef1_1 : Pipeline.arrRef spec1 1 = main_v147 := rfl
theorem arrRef1_2 : Pipeline.arrRef spec1 2 = main_v170 := rfl
theorem arrRef1_3 : Pipeline.arrRef spec1 3 = main_v171 := rfl

end Final

end Cert.KernelIdeal.Hand

end
-- ==== Proof.KIRegion0Final.lean ====
/-
  Region 0's output array after the region: the per-row statistics, read off the accumulation.

  The statistics array has 512 rows in two blocks of 256.  Row block `q` is written back once, at the last of its
  thirty-two tiles, position  32·q + 31,  and what is written there is the first component of the accumulation at
  that position.  The two blocks tile the array, so after the region row `b` holds row  b mod 256  of the
  accumulation's first component at position  32·(b / 256) + 31.
-/
import proofs.«169934_j78314433675744_2_alg».proof.Proof.KIRegion0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F] [Named F]

/-- At position `t` the statistics window sits at block `(t / 32, 0)`. -/
theorem idx_facts0_2 : ∀ t : Fin cfg0.N, win0_2.index t (0 : Fin 2) = t.val / 32 ∧ win0_2.index t (1 : Fin 2) = 0 :=
  (by decide +kernel : ∀ t : Fin grid0.N, _)

section Final0
variable (V : (c : Dev nD) → (b : Ref sig .tc) → Buf (Elt F) ((c : Thread nD τ).loc b))

/-- The accumulation depends on the position only through its value. -/
theorem outsAt0_cast (c : Dev nD) {n n' : ℕ} (e : n = n') (h : n < cfg0.N) (h' : n' < cfg0.N) :
    outsAt0 V c n h = outsAt0 V c n' h' := by
  subst e; rfl

/-- The last tile of a row's block is a position of the grid. -/
theorem lastTile_lt (r : ℕ) (hr : r < 512) : 32 * (r / 256) + 31 < cfg0.N := by
  have hN : cfg0.N = 64 := N_0
  rw [hN]; omega

/-- The statistics array after the region, row by row: row `b` is row `b mod 256` of what the accumulation's first
    component holds at the last tile of the row's block. -/
def statsArr0 (c : Dev nD) : S512x2.Idx → Elt F .f32 := fun i =>
  (outsAt0 V c (32 * ((i 0).val / 256) + 31) (lastTile_lt _ (i 0).isLt)).1
    (ix2 (⟨(i 0).val % 256, Nat.mod_lt _ (by decide)⟩ : Fin 256) (⟨(i 1).val, (i 1).isLt⟩ : Fin 2))

/-- The same at explicit coordinates. -/
theorem statsArr0_apply (c : Dev nD) (b : Fin 512) (col : Fin 2) :
    statsArr0 V c (ix2 b col)
      = (outsAt0 V c (32 * (b.val / 256) + 31) (lastTile_lt _ b.isLt)).1 (ix2 (⟨b.val % 256, Nat.mod_lt _ (by decide)⟩ : Fin 256) col) := rfl

/-- At a block's last tile `t`, the array's entry under the block's entry `(y0, y1)` is the accumulation's at `t`. -/
theorem statsArr0_at (c : Dev nD) (t : Fin cfg0.N) (hf : t.val % 32 = 31) (y0 : Fin 256) (y1 : Fin 2) (i : S512x2.Idx)
    (hi0 : (i 0).val = t.val / 32 * 256 + y0.val) (hi1 : (i 1).val = y1.val) :
    statsArr0 V c i = (outsAt0 V c t.val t.isLt).1 (ix2 y0 y1) := by
  have hy0 : y0.val < 256 := y0.isLt
  have e : 32 * ((i 0).val / 256) + 31 = t.val := by rw [hi0]; omega
  unfold statsArr0
  rw [outsAt0_cast V c e _ t.isLt]
  refine congrArg _ (funext fun a => ?_)
  match a with
  | ⟨0, _⟩ => exact Fin.ext (by show (i 0).val % 256 = y0.val; rw [hi0]; omega)
  | ⟨1, _⟩ => exact Fin.ext hi1

/-- WHAT A WRITING POINT `t` WRITES BACK is block `t` of `statsArr0`. -/
theorem flushed0_2_eq (c : Dev nD) (t : Fin cfg0.N) (hfl : (cfg0.win 2).flush t = true) :
    (dat0 V c).flushed 2 t = ((cfg0.win 2).blk t).view.read (Elt F) (statsArr0 V c) := by
  have hf : t.val % 32 = 31 := (flush0_2 t).mp hfl
  show (cfg0.win 2).cut (grid0.coords t) ((dat0 V c).after 2 t) = _
  rw [after0_2]
  obtain ⟨e0, e1⟩ := idx_facts0_2 t
  funext y
  have hy0 : (y 0).val < 256 := (y 0).isLt
  have hy1 : (y 1).val < 2 := (y 1).isLt
  show (outsAt0 V c t.val t.isLt).1 y = statsArr0 V c (((cfg0.win 2).blk t).view.emb y)
  have hy : y = (ix2 (⟨(y 0).val, hy0⟩ : Fin 256) (⟨(y 1).val, hy1⟩ : Fin 2) : S256x2.Idx) := by
    funext a; apply Fin.ext
    match a with
    | ⟨0, _⟩ => rfl
    | ⟨1, _⟩ => rfl
  refine (congrArg (outsAt0 V c t.val t.isLt).1 hy).trans ?_
  refine (statsArr0_at V c t hf ⟨(y 0).val, hy0⟩ ⟨(y 1).val, hy1⟩ (((cfg0.win 2).blk t).view.emb y) ?_ ?_).symm
  · show win0_2.index t (0 : Fin 2) * 256 + 1 * (y 0).val = t.val / 32 * 256 + (y 0).val; omega
  · show win0_2.index t (1 : Fin 2) * 2 + 1 * (y 1).val = (y 1).val; omega

/-- An index of the statistics array is in point `t`'s block iff each coordinate is in the block's range on its axis. -/
theorem mem_blk0_2 (t : Fin cfg0.N) (i : S512x2.Idx) :
    i ∈ ((cfg0.win 2).blk t).view.set ↔ ∀ a : Fin 2, win0_2.index t a * S256x2.size a ≤ (i a).val
      ∧ (i a).val < win0_2.index t a * S256x2.size a + S256x2.size a := by
  show i ∈ ((View.whole main_v170).slice (win0_2.rect t)).set ↔ _
  rw [View.set_slice_whole, Rect.mem_set_unit]
  exact Iff.rfl

/-- Every index of the statistics array is in the block of a point that writes back: row `b` in that of the last tile
    of its row block. -/
theorem cover0_2_arr (i : S512x2.Idx) :
    ∃ t : Fin cfg0.N, (cfg0.win 2).flush t = true ∧ i ∈ ((cfg0.win 2).blk t).view.set := by
  have hi0 : (i 0).val < 512 := (i 0).isLt
  have hi1 : (i 1).val < 2 := (i 1).isLt
  obtain ⟨t, ht⟩ : ∃ t : Fin cfg0.N, t.val = 32 * ((i 0).val / 256) + 31 := ⟨⟨_, lastTile_lt _ hi0⟩, rfl⟩
  obtain ⟨e0, e1⟩ := idx_facts0_2 t
  refine ⟨t, (flush0_2 t).mpr (by omega), ?_⟩
  rw [mem_blk0_2]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 2 ≤ (i 1).val ∧ (i 1).val < win0_2.index t (1 : Fin 2) * 2 + 2; omega

/-- THE STATISTICS ARRAY after the region's two write-backs. -/
theorem final0 (c : Dev nD) : (dat0 V c).arrAt 2 cfg0.N = statsArr0 V c :=
  (dat0 V c).arrAt_eq_of_cover 2 (statsArr0 V c) (fun t hfl => flushed0_2_eq V c t hfl) cover0_2_arr

/-- The array the region's output window moves. -/
theorem arrRef0_2 : Pipeline.arrRef spec0 2 = main_v170 := rfl

end Final0

end Cert.KernelIdeal.Hand

end
-- ==== Proof.KIValue.lean ====
/-
  The kernel program's result array as one function of the arrays the host glue computes: the second region's
  write-backs tile the output, each block the normalised exponential of the log-density polynomial of the feature and
  coefficient arrays (which the first region only reads) relative to the row statistics the first region leaves.
-/
import proofs.«169934_j78314433675744_2_alg».proof.Proof.KIRun
import proofs.«169934_j78314433675744_2_alg».proof.Proof.KIRegion1Final
import proofs.«169934_j78314433675744_2_alg».proof.Proof.KIRegion0Final

noncomputable section

namespace Cert.KernelIdeal.Hand

open Cert.KernelIdeal Cert.KernelIdeal.Gen
open Idealize.ShloMosaic Idealize.ShloMosaic.TcCoe
open Idealize.SL.Sem
open Idealize.ShloMosaic.Pipeline (Dat)

variable (m : (ℓ : Loc nD τ sig) → Buf (Elt Ideal) ℓ) (ρ : Dev nD → PrngReg)

/-- The first region only reads the feature array. -/
theorem V10_feat (c : Dev nD) : V10 m ρ c main_v169 = V9 m ρ c main_v169 :=
  (W10_arr m ρ c 0).trans (((dat0 (V9 m ρ) c).arrAt_in 0 rfl _).trans (A_eq0 (V9 m ρ) c 0))

/-- The first region only reads the coefficient array. -/
theorem V10_coef (c : Dev nD) : V10 m ρ c main_v147 = V9 m ρ c main_v147 :=
  (W10_arr m ρ c 1).trans (((dat0 (V9 m ρ) c).arrAt_in 1 rfl _).trans (A_eq0 (V9 m ρ) c 1))

/-- The first region leaves the row statistics: its output's blocks, each written back at its row block's last tile. -/
theorem V10_stats (c : Dev nD) : V10 m ρ c main_v170 = statsArr0 (V9 m ρ) c :=
  (W10_arr m ρ c 2).trans (final0 (V9 m ρ) c)

/-- The result array after the run. -/
theorem result_array (c : Dev nD) :
    W11 m ρ c (Proc.devRef .tc main_v171) = normOut (V9 m ρ c main_v169) (V9 m ρ c main_v147) (statsArr0 (V9 m ρ) c) :=
  (W11_arr m ρ c 3).trans ((final1 (V10 m ρ) c).trans (by rw [V10_feat, V10_coef, V10_stats]))

end Cert.KernelIdeal.Hand

end
-- ==== Proof.KIStatsPieces.lean ====
/-
  What each case of the first kernel's body leaves in the running maximum's buffer, the running sum's buffer and the
  output's buffer, as the body's own arithmetic applied to the point's two input blocks and (after a first tile) to what
  the tile before left: with lp the tile's 256×2048 block of log-densities,
      new maximum = max(old maximum, row maximum of lp),
      new sum = exp(old maximum - new maximum) · old sum + row sum of exp(lp - new maximum),
  from (the constant standing for -∞, 0) at a first tile; at a last tile the output's two columns are the new maximum and
  the new sum plus ε.
-/
import proofs.«169934_j78314433675744_2_alg».proof.Proof.KIRegion0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz2 : (![0, 0] : Fin 2 → Nat) = fun _ => 0 := funext fun a => by fin_cases a <;> rfl

/-- The tile's block of log-densities is `lpHead + lpLast`: the polynomial's first nine terms, and its last term, of the
    nine feature rows and the ten coefficient columns as the body loads them. -/
def lpHead (x0 : Vec F S9x2048 .f32) (x1 : Vec F S256x10 .f32) : FVec F S256x2048 .f32 := k0_pay21 (k0_pay8 (View.ld x0 (Rect.unit (s := S9x2048) ![0, 0] S1x2048.size inb_S9x2048_S1x2048_0_0))) (k0_pay9 (View.ld x0 (Rect.unit (s := S9x2048) ![1, 0] S1x2048.size inb_S9x2048_S1x2048_1_0))) (k0_pay10 (View.ld x0 (Rect.unit (s := S9x2048) ![2, 0] S1x2048.size inb_S9x2048_S1x2048_2_0))) (k0_pay11 (View.ld x0 (Rect.unit (s := S9x2048) ![3, 0] S1x2048.size inb_S9x2048_S1x2048_3_0))) (k0_pay12 (View.ld x0 (Rect.unit (s := S9x2048) ![4, 0] S1x2048.size inb_S9x2048_S1x2048_4_0))) (k0_pay13 (View.ld x0 (Rect.unit (s := S9x2048) ![5, 0] S1x2048.size inb_S9x2048_S1x2048_5_0))) (k0_pay14 (View.ld x0 (Rect.unit (s := S9x2048) ![6, 0] S1x2048.size inb_S9x2048_S1x2048_6_0))) (k0_pay15 (View.ld x0 (Rect.unit (s := S9x2048) ![7, 0] S1x2048.size inb_S9x2048_S1x2048_7_0))) (k0_pay17 (View.ld x1 (Rect.unit (s := S256x10) ![0, 0] S256x1.size inb_S256x10_S256x1_0_0))) (k0_pay18 (View.ld x1 (Rect.unit (s := S256x10) ![0, 1] S256x1.size inb_S256x10_S256x1_0_1))) (k0_pay19 (View.ld x1 (Rect.unit (s := S256x10) ![0, 2] S256x1.size inb_S256x10_S256x1_0_2))) (k0_pay20 (View.ld x1 (Rect.unit (s := S256x10) ![0, 3] S256x1.size inb_S256x10_S256x1_0_3))) (View.ld x1 (Rect.unit (s := S256x10) ![0, 4] S256x1.size inb_S256x10_S256x1_0_4)) (View.ld x1 (Rect.unit (s := S256x10) ![0, 5] S256x1.size inb_S256x10_S256x1_0_5)) (View.ld x1 (Rect.unit (s := S256x10) ![0, 6] S256x1.size inb_S256x10_S256x1_0_6)) (View.ld x1 (Rect.unit (s := S256x10) ![0, 7] S256x1.size inb_S256x10_S256x1_0_7)) (View.ld x1 (Rect.unit (s := S256x10) ![0, 8] S256x1.size inb_S256x10_S256x1_0_8))
def lpLast (x0 : Vec F S9x2048 .f32) (x1 : Vec F S256x10 .f32) : FVec F S256x2048 .f32 := k0_pay22 (k0_pay16 (View.ld x0 (Rect.unit (s := S9x2048) ![8, 0] S1x2048.size inb_S9x2048_S1x2048_8_0))) (View.ld x1 (Rect.unit (s := S256x10) ![0, 9] S256x1.size inb_S256x10_S256x1_0_9))

theorem mout0_A_eq (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : firstTile i) (hc1 : ¬lastTile i)
    (x0 : Vec F S9x2048 .f32) (x1 : Vec F S256x10 .f32) :
    mout0_A c i arg2 harg2 arg3 harg3 arg4 harg4 arg5 harg5 arg6 harg6 hc0 hc1 x0 x1 = k0_pay4 (lpHead x0 x1) (lpLast x0 x1) k0_pay6 := by
  unfold mout0_A
  rw [View.read_writes_eq_canon _ _ _ (mcover0_A c i arg2 harg2 arg3 harg3 arg4 harg4 arg5 harg5 arg6 harg6 hc0 hc1 x0 x1)]
  unfold kernelRun0_A
  dsimp only
  sl_unfold_words
  rw [View.canon_cons_unit_zero (S := S256x1) hz2]
  simp only [View.readCov_unit_zero (S := S256x1) _ hz2]
  simp only [View.readAt_eq_ld, harg2.read_unread, harg3.read_unread, harg5.read_unread, harg6.read_unread, View.ld_unit_zero (S := S256x1) hz2]
  rfl

theorem lout0_A_eq (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : firstTile i) (hc1 : ¬lastTile i)
    (x0 : Vec F S9x2048 .f32) (x1 : Vec F S256x10 .f32) :
    lout0_A c i arg2 harg2 arg3 harg3 arg4 harg4 arg5 harg5 arg6 harg6 hc0 hc1 x0 x1 = k0_pay3 (lpHead x0 x1) (lpLast x0 x1) k0_pay6 k0_pay6 k0_pay7 := by
  unfold lout0_A
  rw [View.read_writes_eq_canon _ _ _ (lcover0_A c i arg2 harg2 arg3 harg3 arg4 harg4 arg5 harg5 arg6 harg6 hc0 hc1 x0 x1)]
  unfold kernelRun0_A
  dsimp only
  sl_unfold_words
  rw [View.canon_cons_unit_zero (S := S256x1) hz2]
  simp only [View.readCov_unit_zero (S := S256x1) _ hz2]
  simp only [View.readAt_eq_ld, harg2.read_unread, harg3.read_unread, harg5.read_unread, harg6.read_unread, View.ld_unit_zero (S := S256x1) hz2]
  rfl

theorem mout0_B_eq (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : ¬firstTile i) (hc1 : ¬lastTile i)
    (x0 : Vec F S9x2048 .f32) (x1 : Vec F S256x10 .f32) (xs0 : Vec F S256x1 .f32) (xs1 : Vec F S256x1 .f32) :
    mout0_B c i arg2 harg2 arg3 harg3 arg4 harg4 arg5 harg5 arg6 harg6 hc0 hc1 x0 x1 xs0 xs1 = k0_pay4 (lpHead x0 x1) (lpLast x0 x1) xs0 := by
  unfold mout0_B
  rw [View.read_writes_eq_canon _ _ _ (mcover0_B c i arg2 harg2 arg3 harg3 arg4 harg4 arg5 harg5 arg6 harg6 hc0 hc1 x0 x1 xs0 xs1)]
  unfold kernelRun0_B
  dsimp only
  sl_unfold_words
  rw [View.canon_unit_zero hz2]
  simp only [View.readAt_eq_ld, harg2.read_unread, harg3.read_unread, harg5.read_unread, harg6.read_unread, View.ld_unit_zero (S := S256x1) hz2]
  rfl

theorem lout0_B_eq (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : ¬firstTile i) (hc1 : ¬lastTile i)
    (x0 : Vec F S9x2048 .f32) (x1 : Vec F S256x10 .f32) (xs0 : Vec F S256x1 .f32) (xs1 : Vec F S256x1 .f32) :
    lout0_B c i arg2 harg2 arg3 harg3 arg4 harg4 arg5 harg5 arg6 harg6 hc0 hc1 x0 x1 xs0 xs1 = k0_pay3 (lpHead x0 x1) (lpLast x0 x1) xs0 xs0 xs1 := by
  unfold lout0_B
  rw [View.read_writes_eq_canon _ _ _ (lcover0_B c i arg2 harg2 arg3 harg3 arg4 harg4 arg5 harg5 arg6 harg6 hc0 hc1 x0 x1 xs0 xs1)]
  unfold kernelRun0_B
  dsimp only
  sl_unfold_words
  rw [View.canon_unit_zero hz2]
  simp only [View.readAt_eq_ld, harg2.read_unread, harg3.read_unread, harg5.read_unread, harg6.read_unread, View.ld_unit_zero (S := S256x1) hz2]
  rfl

theorem mout0_C_eq (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : ¬firstTile i) (hc1 : lastTile i)
    (x0 : Vec F S9x2048 .f32) (x1 : Vec F S256x10 .f32) (xs0 : Vec F S256x1 .f32) (xs1 : Vec F S256x1 .f32) :
    mout0_C c i arg2 harg2 arg3 harg3 arg4 harg4 arg5 harg5 arg6 harg6 hc0 hc1 x0 x1 xs0 xs1 = k0_pay4 (lpHead x0 x1) (lpLast x0 x1) xs0 := by
  unfold mout0_C
  rw [View.read_writes_eq_canon _ _ _ (mcover0_C c i arg2 harg2 arg3 harg3 arg4 harg4 arg5 harg5 arg6 harg6 hc0 hc1 x0 x1 xs0 xs1)]
  unfold kernelRun0_C
  dsimp only
  sl_unfold_words
  rw [View.canon_unit_zero hz2]
  simp only [View.readAt_eq_ld, harg2.read_unread, harg3.read_unread, harg5.read_unread, harg6.read_unread, View.ld_unit_zero (S := S256x1) hz2]
  rfl

theorem lout0_C_eq (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : ¬firstTile i) (hc1 : lastTile i)
    (x0 : Vec F S9x2048 .f32) (x1 : Vec F S256x10 .f32) (xs0 : Vec F S256x1 .f32) (xs1 : Vec F S256x1 .f32) :
    lout0_C c i arg2 harg2 arg3 harg3 arg4 harg4 arg5 harg5 arg6 harg6 hc0 hc1 x0 x1 xs0 xs1 = k0_pay3 (lpHead x0 x1) (lpLast x0 x1) xs0 xs0 xs1 := by
  unfold lout0_C
  rw [View.read_writes_eq_canon _ _ _ (lcover0_C c i arg2 harg2 arg3 harg3 arg4 harg4 arg5 harg5 arg6 harg6 hc0 hc1 x0 x1 xs0 xs1)]
  unfold kernelRun0_C
  dsimp only
  sl_unfold_words
  rw [View.canon_unit_zero hz2]
  simp only [View.readAt_eq_ld, harg2.read_unread, harg3.read_unread, harg5.read_unread, harg6.read_unread, View.ld_unit_zero (S := S256x1) hz2]
  rfl

/-- At a last tile the output's second column is the new running sum plus ε. -/
theorem out0_C_col1 (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : ¬firstTile i) (hc1 : lastTile i)
    (x0 : Vec F S9x2048 .f32) (x1 : Vec F S256x10 .f32) (xs0 : Vec F S256x1 .f32) (xs1 : Vec F S256x1 .f32) (x : (Rect.unit (s := S256x2) ![0, 1] S256x1.size inb_S256x2_S256x1_0_1).shape.Idx) :
    out0_C c i arg2 harg2 arg3 harg3 arg4 harg4 arg5 harg5 arg6 harg6 hc0 hc1 x0 x1 xs0 xs1 ((Rect.unit (s := S256x2) ![0, 1] S256x1.size inb_S256x2_S256x1_0_1).emb x) = k0_pay5 (k0_pay3 (lpHead x0 x1) (lpLast x0 x1) xs0 xs0 xs1) x := by
  unfold out0_C
  rw [View.read_writes_eq_canon _ _ _ (ocover0_C c i arg2 harg2 arg3 harg3 arg4 harg4 arg5 harg5 arg6 harg6 hc0 hc1 x0 x1 xs0 xs1)]
  unfold kernelRun0_C
  dsimp only
  sl_unfold_words
  rw [View.canon_cons_emb]
  simp only [View.readCov_unit_zero (S := S256x1) _ hz2]
  simp only [View.readAt_eq_ld, harg2.read_unread, harg3.read_unread, harg5.read_unread, harg6.read_unread, View.ld_unit_zero (S := S256x1) hz2]
  rfl

/-- The first column's cells are not in the second column. -/
theorem col0_not_mem_col1 (x : (Rect.unit (s := S256x2) ![0, 0] S256x1.size inb_S256x2_S256x1_0_0).shape.Idx) : (Rect.unit (s := S256x2) ![0, 0] S256x1.size inb_S256x2_S256x1_0_0).emb x ∉ (Rect.unit (s := S256x2) ![0, 1] S256x1.size inb_S256x2_S256x1_0_1).set :=
  Finset.disjoint_left.mp (Rect.unit_disjoint (1 : Fin 2) (Or.inl (by decide))) (LoadRect.idx_mem _ x)

/-- Of two column stores, the second column last, a cell of the first column reads the first column's store. -/
theorem canon_two_cols (w1 : (Rect.unit (s := S256x2) ![0, 1] S256x1.size inb_S256x2_S256x1_0_1).shape.Idx → Elt F .f32) (w0 : (Rect.unit (s := S256x2) ![0, 0] S256x1.size inb_S256x2_S256x1_0_0).shape.Idx → Elt F .f32)
    (x : (Rect.unit (s := S256x2) ![0, 0] S256x1.size inb_S256x2_S256x1_0_0).shape.Idx) :
    View.canon [⟨(Rect.unit (s := S256x2) ![0, 1] S256x1.size inb_S256x2_S256x1_0_1), w1⟩, ⟨(Rect.unit (s := S256x2) ![0, 0] S256x1.size inb_S256x2_S256x1_0_0), w0⟩] ((Rect.unit (s := S256x2) ![0, 0] S256x1.size inb_S256x2_S256x1_0_0).emb x) = w0 x := by
  have h := View.canon_cons_of_not_mem (Val := Elt F) (⟨(Rect.unit (s := S256x2) ![0, 1] S256x1.size inb_S256x2_S256x1_0_1), w1⟩ : View.Piece (Elt F) S256x2 .f32) [⟨(Rect.unit (s := S256x2) ![0, 0] S256x1.size inb_S256x2_S256x1_0_0), w0⟩] (y := (Rect.unit (s := S256x2) ![0, 0] S256x1.size inb_S256x2_S256x1_0_0).emb x) (col0_not_mem_col1 x)
  exact h.trans (View.canon_cons_emb _ w0 [] x)

/-- At a last tile the output's first column is the new running maximum. -/
theorem out0_C_col0 (c : Dev nD) (i : grid0.Coords) (arg2 : Memref sig .tc .vmem S9x2048 .f32) (harg2 : arg2.IsWhole) (arg3 : Memref sig .tc .vmem S256x10 .f32) (harg3 : arg3.IsWhole) (arg4 : Memref sig .tc .vmem S256x2 .f32) (harg4 : arg4.IsWhole) (arg5 : Memref sig .tc .vmem S256x1 .f32) (harg5 : arg5.IsWhole) (arg6 : Memref sig .tc .vmem S256x1 .f32) (harg6 : arg6.IsWhole) (hc0 : ¬firstTile i) (hc1 : lastTile i)
    (x0 : Vec F S9x2048 .f32) (x1 : Vec F S256x10 .f32) (xs0 : Vec F S256x1 .f32) (xs1 : Vec F S256x1 .f32) (x : (Rect.unit (s := S256x2) ![0, 0] S256x1.size inb_S256x2_S256x1_0_0).shape.Idx) :
    out0_C c i arg2 harg2 arg3 harg3 arg4 harg4 arg5 harg5 arg6 harg6 hc0 hc1 x0 x1 xs0 xs1 ((Rect.unit (s := S256x2) ![0, 0] S256x1.size inb_S256x2_S256x1_0_0).emb x) = (k0_pay4 (lpHead x0 x1) (lpLast x0 x1) xs0) x := by
  unfold out0_C
  rw [View.read_writes_eq_canon _ _ _ (ocover0_C c i arg2 harg2 arg3 harg3 arg4 harg4 arg5 harg5 arg6 harg6 hc0 hc1 x0 x1 xs0 xs1)]
  unfold kernelRun0_C
  dsimp only
  sl_unfold_words
  rw [canon_two_cols]
  simp only [View.readCov_unit_zero (S := S256x1) _ hz2]
  simp only [View.readAt_eq_ld, harg2.read_unread, harg3.read_unread, harg5.read_unread, harg6.read_unread, View.ld_unit_zero (S := S256x1) hz2]
  rfl

end Cert.KernelIdeal.Hand

end
-- ==== Proof.LibOnlineSoftmax.lean ====
/-
  The running maximum and running sum of a numerically stable softmax, read tile by tile.

  A row of real scores `y i` is read in disjoint tiles. A pair `(m, l)` of extended reals starts at `(-∞, 0)`.
  Reading a tile `B` replaces it by
      m' = max m (max over B of y),      l' = exp (m - m') · l + ∑ over B of exp (y i - m'),
  with `exp (-∞) = 0` on the extended reals. After the scores of a nonempty set `A` have been read,
      m = max over A of y      and      l = ∑ over A of exp (y i - max over A of y):
  the pair a two-pass softmax computes from the whole row. The first tile is not special: from `(-∞, 0)` the factor
  `exp (-∞ - m')` is `0`, so nothing of the empty start survives. General in the index type and in the tiles.
-/
import Idealize.ShloMosaic.PureOps.Ideal

namespace Cert.LibOnlineSoftmax

open Idealize.ShloMosaic

variable {κ : Type} [DecidableEq κ]

/-- A finite sum of reals, read in the extended reals, is the sum of the readings. -/
theorem coe_sum (s : Finset κ) (f : κ → ℝ) : ((∑ i ∈ s, f i : ℝ) : EReal) = ∑ i ∈ s, (f i : EReal) := by
  induction s using Finset.induction_on with
  | empty => simp
  | insert a s ha ih => rw [Finset.sum_insert ha, Finset.sum_insert ha, EReal.coe_add, ih]

/-- The larger of two reals, read in the extended reals, is the larger of the readings. -/
theorem coe_max (a b : ℝ) : ((max a b : ℝ) : EReal) = max (a : EReal) (b : EReal) :=
  EReal.coe_strictMono.monotone.map_max

/-- `Seen y A m l`: the pair `(m, l)` is what reading exactly the scores of `A` leaves — the start `(-∞, 0)` when
    nothing has been read, otherwise the maximum of the scores read and the sum of their exponentials taken
    relative to that maximum. -/
def Seen (y : κ → ℝ) (A : Finset κ) (m l : EReal) : Prop :=
  (A = ∅ ∧ m = ⊥ ∧ l = 0) ∨
    ∃ h : A.Nonempty, m = ((A.sup' h y : ℝ) : EReal) ∧ l = ((∑ i ∈ A, Real.exp (y i - A.sup' h y) : ℝ) : EReal)

theorem seen_empty (y : κ → ℝ) : Seen y ∅ ⊥ 0 := Or.inl ⟨rfl, rfl, rfl⟩

/-- Relative to a real `M`, the exponentials of a tile's scores sum, on the extended reals, to the reading of their
    real sum. -/
theorem sum_exp_sub (y : κ → ℝ) (B : Finset κ) (M : ℝ) :
    ∑ i ∈ B, Ideal.exp ((y i : EReal) - (M : EReal)) = ((∑ i ∈ B, Real.exp (y i - M) : ℝ) : EReal) := by
  rw [coe_sum]
  refine Finset.sum_congr rfl fun i _ => ?_
  rw [← EReal.coe_sub, Ideal.exp_coe]

/-- One tile. If `(m, l)` is what reading `A` leaves and `B` is a nonempty tile of new scores, then the updated pair
    is what reading `A ∪ B` leaves: rescaling the old sum by `exp (m - m')` re-bases each of its terms from the old
    maximum to the new one, since `exp (m - m') · exp (y - m) = exp (y - m')` for real `m, m', y`. -/
theorem seen_step (y : κ → ℝ) {A B : Finset κ} (hAB : Disjoint A B) (hB : B.Nonempty) {m l : EReal}
    (h : Seen y A m l) :
    Seen y (A ∪ B) (max m ((B.sup' hB y : ℝ) : EReal))
      (Ideal.exp (m - max m ((B.sup' hB y : ℝ) : EReal)) * l
        + ∑ i ∈ B, Ideal.exp ((y i : EReal) - max m ((B.sup' hB y : ℝ) : EReal))) := by
  rcases h with ⟨rfl, rfl, rfl⟩ | ⟨hA, rfl, rfl⟩
  · -- nothing read yet: the old pair contributes nothing
    refine Or.inr ⟨by rw [Finset.empty_union]; exact hB, ?_, ?_⟩
    · simp only [Finset.empty_union, bot_le, max_eq_right]
    · simp only [Finset.empty_union, bot_le, max_eq_right]
      rw [sum_exp_sub, sub_eq_add_neg, EReal.bot_add, Ideal.exp_bot, zero_mul, zero_add]
  · -- a maximum and a sum are there: re-base the sum to the new maximum
    have hsup : (A ∪ B).sup' (hA.mono Finset.subset_union_left) y = max (A.sup' hA y) (B.sup' hB y) :=
      Finset.sup'_union hA hB y
    refine Or.inr ⟨hA.mono Finset.subset_union_left, ?_, ?_⟩
    · rw [hsup, coe_max]
    · rw [hsup, ← coe_max, sum_exp_sub, ← EReal.coe_sub, Ideal.exp_coe, ← EReal.coe_mul, ← EReal.coe_add,
        Finset.sum_union hAB, Finset.mul_sum]
      congr 2
      refine Finset.sum_congr rfl fun i _ => ?_
      rw [← Real.exp_add]
      congr 1
      ring

end Cert.LibOnlineSoftmax
-- ==== Proof.LibIdealReal.lean ====
/-
  The exact float model on readings of real numbers.

  In the extended-real model of float arithmetic every operation is the textbook operation on
  `[-∞, +∞]`, with documented junk values at the corners IEEE answers with a NaN. This file says
  what each operation does AWAY from every corner: on the readings `(r : EReal)` of real numbers
  `r` the operation is the reading of the real operation. So a computation whose inputs are real and
  whose divisors and logarithm arguments stay off their corners can be carried out over `ℝ`, where
  `ring` and `field_simp` apply, and read back once at the end.

  • sum, difference, product, negation, maximum, minimum, absolute value (`max x (-x)`);
  • the quotient by a nonzero real, the reciprocal `1 / s`, and `p * (1 / d) = p / d`;
  • `exp`, `exp - 1`, `log` of a positive real, `log (1 + ·)` where `1 + r` is positive;
  • the comparisons: on readings of reals they are the comparisons of the reals, and `x ≠ x` is false at
    every extended real (there is no NaN); a selection on such a comparison is an `if` on the reals;
  • literals of the 32-bit format: `0`, `1`, `1/2`, `2`, `-1/2`, `-∞` exactly; a pattern whose exponent field is not
    all ones is a real, and a positive real when its sign bit is clear and the exponent field is not zero;
  • finite sums, and the fold of `max` from `-∞` over a nonempty finite set, of readings of reals.

  Each statement is oriented to push the reading outward: the left side is an operation of the model
  applied to readings, the right side the reading of a real.
-/
import Idealize.ShloMosaic.PureOps.Ideal

namespace Cert.LibIdealReal

open Idealize.ShloMosaic

/-! ### Arithmetic -/

theorem add_coe (r s : ℝ) : (r : EReal) + (s : EReal) = ((r + s : ℝ) : EReal) := (EReal.coe_add r s).symm

theorem sub_coe (r s : ℝ) : (r : EReal) - (s : EReal) = ((r - s : ℝ) : EReal) := (EReal.coe_sub r s).symm

theorem mul_coe (r s : ℝ) : (r : EReal) * (s : EReal) = ((r * s : ℝ) : EReal) := (EReal.coe_mul r s).symm

theorem neg_coe (r : ℝ) : -(r : EReal) = ((-r : ℝ) : EReal) := (EReal.coe_neg r).symm

theorem max_coe (r s : ℝ) : max (r : EReal) (s : EReal) = ((max r s : ℝ) : EReal) :=
  (EReal.coe_strictMono.monotone.map_max).symm

theorem min_coe (r s : ℝ) : min (r : EReal) (s : EReal) = ((min r s : ℝ) : EReal) :=
  (EReal.coe_strictMono.monotone.map_min).symm

/-- The model's absolute value, `max x (-x)`, of the reading of a real. -/
theorem abs_coe (r : ℝ) : max (r : EReal) (-(r : EReal)) = ((|r| : ℝ) : EReal) := by
  rw [neg_coe, max_coe, abs_eq_max_neg]

/-- The quotient by a nonzero real. -/
theorem div_coe (r : ℝ) {s : ℝ} (hs : s ≠ 0) : Ideal.div (r : EReal) (s : EReal) = ((r / s : ℝ) : EReal) := by
  rw [Ideal.div_coe hs, mul_coe, mul_one_div]

/-- The reciprocal of a nonzero real: the model's `1 / s`. -/
theorem one_div_coe {s : ℝ} (hs : s ≠ 0) : Ideal.div 1 (s : EReal) = ((1 / s : ℝ) : EReal) := by
  rw [← EReal.coe_one, div_coe 1 hs]

/-- Multiplying by the reciprocal of a nonzero real is dividing by it. -/
theorem mul_one_div_coe (p : ℝ) {d : ℝ} (hd : d ≠ 0) :
    (p : EReal) * Ideal.div 1 (d : EReal) = Ideal.div (p : EReal) (d : EReal) := by
  rw [one_div_coe hd, Ideal.div_coe hd]

/-! ### Exponential and logarithm -/

theorem exp_coe (r : ℝ) : Ideal.exp (r : EReal) = ((Real.exp r : ℝ) : EReal) := Ideal.exp_coe r

theorem expm1_coe (r : ℝ) : Ideal.exp (r : EReal) - 1 = ((Real.exp r - 1 : ℝ) : EReal) := by
  rw [Ideal.exp_coe, ← EReal.coe_one, sub_coe]

theorem log_coe {r : ℝ} (hr : 0 < r) : Ideal.log (r : EReal) = ((Real.log r : ℝ) : EReal) := by
  rw [Ideal.log_coe, if_neg (not_le.mpr hr)]

theorem log1p_coe {r : ℝ} (hr : 0 < 1 + r) : Ideal.log1p (r : EReal) = ((Real.log (1 + r) : ℝ) : EReal) := by
  rw [Ideal.log1p, ← EReal.coe_one, add_coe, log_coe hr]

/-! ### Comparisons and selection -/

theorem cmp_ogt_coe (r s : ℝ) : Ideal.cmp .ogt (r : EReal) (s : EReal) = BitVec.ofBool (decide (s < r)) := by
  show BitVec.ofBool (decide ((s : EReal) < (r : EReal))) = _
  simp only [EReal.coe_lt_coe_iff]

theorem cmp_olt_coe (r s : ℝ) : Ideal.cmp .olt (r : EReal) (s : EReal) = BitVec.ofBool (decide (r < s)) := by
  show BitVec.ofBool (decide ((r : EReal) < (s : EReal))) = _
  simp only [EReal.coe_lt_coe_iff]

/-- `x ≠ x`, the test for a NaN, is false at every extended real. -/
theorem cmp_une_self (x : EReal) : Ideal.cmp .une x x = 0#1 := by
  show BitVec.ofBool (decide (x ≠ x)) = _
  simp

theorem select_ofBool {α : Type} (p : Bool) (a b : α) : Scalar.select (BitVec.ofBool p) a b = if p then a else b := by
  cases p <;> rfl

theorem select_zero {α : Type} (a b : α) : Scalar.select (0#1) a b = b := rfl

theorem select_one {α : Type} (a b : α) : Scalar.select (1#1) a b = a := rfl

/-- Selecting on `r > s` between readings of reals. -/
theorem select_cmp_ogt_coe {α : Type} (r s : ℝ) (a b : α) :
    Scalar.select (Ideal.cmp .ogt (r : EReal) (s : EReal)) a b = if s < r then a else b := by
  rw [cmp_ogt_coe, select_ofBool]; simp

/-- Selecting on the NaN test takes the second branch. -/
theorem select_cmp_une_self {α : Type} (x : EReal) (a b : α) : Scalar.select (Ideal.cmp .une x x) a b = b := by
  rw [cmp_une_self, select_zero]

/-! ### Literals -/

theorem ofBits_zero_f32 : Ideal.ofBits .f32 0x00000000#32 = ((0 : ℝ) : EReal) := by
  simp [Ideal.ofBits, Ideal.ieee]

theorem ofBits_one_f32 : Ideal.ofBits .f32 0x3F800000#32 = ((1 : ℝ) : EReal) := by
  simp [Ideal.ofBits, Ideal.ieee, -EReal.coe_mul]; norm_num

/-- A pattern whose exponent field is not all ones denotes a real number. -/
theorem ieee_real (e m : Nat) {w : Nat} (b : BitVec w) (h : (b.extractLsb' m e).toNat ≠ 2 ^ e - 1) :
    ∃ r : ℝ, Ideal.ieee e m b = (r : EReal) := by
  dsimp only [Ideal.ieee]
  rw [if_neg h]
  split_ifs <;> exact ⟨_, rfl⟩

/-- A pattern with a clear sign bit and an exponent field neither zero nor all ones denotes a positive real. -/
theorem ieee_pos_real (e m : Nat) {w : Nat} (b : BitVec w) (hs : (b.extractLsb' (e + m) 1 == 1#1) = false)
    (h1 : (b.extractLsb' m e).toNat ≠ 2 ^ e - 1) (h0 : (b.extractLsb' m e).toNat ≠ 0) :
    ∃ r : ℝ, 0 < r ∧ Ideal.ieee e m b = (r : EReal) := by
  dsimp only [Ideal.ieee]
  rw [if_neg h1, if_neg h0, hs]
  refine ⟨_, ?_, rfl⟩
  simp only [Bool.false_eq_true, if_false, one_mul]
  positivity

theorem ofBits_f32_real (b : BitVec 32) (h : (b.extractLsb' 23 8).toNat ≠ 2 ^ 8 - 1) :
    ∃ r : ℝ, Ideal.ofBits .f32 b = (r : EReal) :=
  ieee_real 8 23 b h

theorem ofBits_f32_pos_real (b : BitVec 32) (hs : (b.extractLsb' (8 + 23) 1 == 1#1) = false)
    (h1 : (b.extractLsb' 23 8).toNat ≠ 2 ^ 8 - 1) (h0 : (b.extractLsb' 23 8).toNat ≠ 0) :
    ∃ r : ℝ, 0 < r ∧ Ideal.ofBits .f32 b = (r : EReal) :=
  ieee_pos_real 8 23 b hs h1 h0

theorem ofBits_half_f32 : Ideal.ofBits .f32 0x3F000000#32 = ((0.5 : ℝ) : EReal) := by
  simp [Ideal.ofBits, Ideal.ieee, -EReal.coe_mul]; norm_num

theorem ofBits_two_f32 : Ideal.ofBits .f32 0x40000000#32 = ((2 : ℝ) : EReal) := by
  simp [Ideal.ofBits, Ideal.ieee, -EReal.coe_mul]; norm_num

theorem ofBits_neg_half_f32 : Ideal.ofBits .f32 0xBF000000#32 = ((-0.5 : ℝ) : EReal) := by
  simp [Ideal.ofBits, Ideal.ieee, -EReal.coe_mul]; norm_num

theorem ofBits_neg_inf_f32 : Ideal.ofBits .f32 0xFF800000#32 = (⊥ : EReal) := by
  simp [Ideal.ofBits, Ideal.ieee]

/-- The 32-bit word `0x40306FAB` (about `2.7568`) denotes a real number. -/
theorem ofBits_40306FAB_real : ∃ K : ℝ, Ideal.ofBits .f32 0x40306FAB#32 = (K : EReal) :=
  ofBits_f32_real _ (by decide)

/-- The 32-bit word `0x2EDBE6FF` (about `10⁻¹⁰`) denotes a positive real number. -/
theorem ofBits_2EDBE6FF_pos_real : ∃ ε : ℝ, 0 < ε ∧ Ideal.ofBits .f32 0x2EDBE6FF#32 = (ε : EReal) :=
  ofBits_f32_pos_real _ (by decide) (by decide) (by decide)

/-! ### Finite sums and maxima -/

variable {κ : Type} [DecidableEq κ]

/-- A finite sum of readings of reals is the reading of the real sum. -/
theorem sum_coe (s : Finset κ) (f : κ → ℝ) : ∑ i ∈ s, (f i : EReal) = ((∑ i ∈ s, f i : ℝ) : EReal) := by
  induction s using Finset.induction_on with
  | empty => simp
  | insert a s ha ih => rw [Finset.sum_insert ha, Finset.sum_insert ha, ih, add_coe]

/-- The same, for a summand known to be a reading of a real on the set summed over. -/
theorem sum_eq_coe (s : Finset κ) (g : κ → EReal) (f : κ → ℝ) (h : ∀ i ∈ s, g i = (f i : EReal)) :
    ∑ i ∈ s, g i = ((∑ i ∈ s, f i : ℝ) : EReal) := by
  rw [Finset.sum_congr rfl h, sum_coe]

/-- The fold of `max` from `-∞` over a nonempty finite set of readings of reals is the reading of their
    maximum. -/
theorem fold_max_coe {s : Finset κ} (hs : s.Nonempty) (f : κ → ℝ) :
    s.fold max (⊥ : EReal) (fun i => (f i : EReal)) = ((s.sup' hs f : ℝ) : EReal) := by
  induction hs using Finset.Nonempty.cons_induction with
  | singleton a => simp
  | cons a s ha hs ih => rw [Finset.fold_cons, ih, Finset.sup'_cons hs, max_coe]

/-- The same, for a function known to be a reading of a real on the set folded over. -/
theorem fold_max_eq_coe {s : Finset κ} (hs : s.Nonempty) (g : κ → EReal) (f : κ → ℝ)
    (h : ∀ i ∈ s, g i = (f i : EReal)) : s.fold max (⊥ : EReal) g = ((s.sup' hs f : ℝ) : EReal) := by
  rw [← fold_max_coe hs f]
  exact Finset.fold_congr h

end Cert.LibIdealReal
-- ==== Proof.KIStatsPayloads.lean ====
/-
  The first pass of the two-pass softmax, tile by tile: what each value it stores is, entry by entry.

  One step of the first pass reads a tile of 2048 positions for 256 rows. From nine feature rows
  `x, y, z, x², y², z², xy, xz, yz` of the tile and ten coefficient columns `c0 … c9` of the rows it forms the scores

      lp (r, j) = c0 r + c1 r · x j + c2 r · y j + … + c8 r · xz j   +   c9 r · yz j

  (the first nine terms summed from the left, then the last product added), and replaces the running pair
  `(m, l)` of each row by

      m' r = max (m r) (max over the tile of lp (r, ·)),
      l' r = exp (m r - m' r) · l r + ∑ over the tile of exp (lp (r, j) - m' r).

  The pair starts at `(-∞, 0)`, and what is stored at the end is `(m, l + ε)`. This file reads each of these
  values at a row `r` (and a lane `j`): the broadcasts of a column and of a row, the cast of a vector of row results to
  a column, the lane maximum as a fold of `max` from `-∞` and the lane sum as a finite sum over the 2048 lanes.

  The last part ties one step to the running maximum and sum of a whole row of 65536 real scores: tile `t` holds
  the positions `2048 t … 2048 t + 2047`; if the pair before the step is what reading a set `A` of positions leaves
  and `A` does not meet tile `t`, the pair after the step is what reading `A ∪ tile t` leaves; the positions below
  `2048 n` grow by one tile at a time from the empty set to all of them after 32 tiles.
-/
import proofs.«169934_j78314433675744_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«169934_j78314433675744_2_alg».proof.Proof.LibOnlineSoftmax
import proofs.«169934_j78314433675744_2_alg».proof.Proof.LibIdealReal

noncomputable section

namespace Cert.KernelIdeal.StatsPayloads

open Idealize.ShloMosaic Idealize.ShloMosaic.ValueIdx Cert.KernelIdeal Cert.KernelIdeal.Gen

variable {α : Type}

/-! ### Two column layouts read at coordinates -/

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The constants and the pointwise payloads -/

theorem neg_big_eq : Named.named (F := Ideal) Cert.KernelIdeal.κ "neg_big" (φ := .f32) 0xFF333332#32 = (⊥ : EReal) :=
  IdealRules.named_const.ideal_named_scalar _ _ _ _ rfl

theorem neg_inf_eq : FloatOps.ofBits (F := Ideal) .f32 0xFF800000#32 = (⊥ : EReal) := by
  simp [Ideal.ofBits, Ideal.ieee]

theorem pay6_apply (i : S256x1.Idx) : k0_pay6 (F := Ideal) i = (⊥ : EReal) := by
  unfold k0_pay6
  rw [shapeCast_self, broadcast_apply]
  exact neg_big_eq

theorem pay7_apply (i : S256x1.Idx) : k0_pay7 (F := Ideal) i = (0 : EReal) := by
  unfold k0_pay7
  rw [shapeCast_self, broadcast_apply]
  exact Ideal.ofBits_zero_f32

theorem pay5_apply (v : Vec Ideal S256x1 .f32) (i : S256x1.Idx) :
    k0_pay5 (F := Ideal) v i = v i + Ideal.ofBits .f32 0x2EDBE6FF#32 := by
  unfold k0_pay5
  rfl

theorem pay1_apply (v73 v76 : FVec Ideal S256x2048 .f32) (i : S256x2048.Idx) :
    k0_pay1 (F := Ideal) v73 v76 i = v73 i + v76 i := rfl

theorem exp_apply {s : Shape} {φ : FTy} (a : FVec Ideal s φ) (i : s.Idx) : exp a i = Ideal.exp (a i) := rfl

/-- The index a lane reduction of a `[256, 2048]` vector inserts: row `r`, lane `k`. -/
theorem lift_ix (h : S256x2048.Reduces [1] S256) (r : Fin 256) (k : Fin 2048) :
    h.lift (ix1 r) k = ix2 r k := by
  funext a
  match a with
  | ⟨0, _⟩ => exact Fin.ext rfl
  | ⟨1, _⟩ => exact Fin.ext rfl

/-! ### The two lane reductions read at a row -/

/-- The lane sum of a `[256, 2048]` vector, at row `r`, is the sum over the row's 2048 lanes. -/
theorem rowSum_apply (src : FVec Ideal S256x2048 .f32) (h : S256x2048.Reduces [1] S256) (hφ : FKind.Formats .f32)
    (hacc : (0x00000000#32 : BitVec 32) = 0x00000000#32) (r : Fin 256) :
    multiReduction (F := Ideal) .add [1] S256 src 0x00000000#32 h hφ hacc (ix1 r) = ∑ k : Fin 2048, src (ix2 r k) :=
  (Ideal.multiReduction_add_single src 0x00000000#32 h hφ hacc (ix1 r)).trans
    (Finset.sum_congr rfl fun k _ => congrArg src (lift_ix h r k))

/-- The lane maximum of a `[256, 2048]` vector from `-∞`, at row `r`, is the fold of `max` from `-∞` over the row's
    2048 lanes. -/
theorem rowMax_apply (src : FVec Ideal S256x2048 .f32) (h : S256x2048.Reduces [1] S256) (hφ : FKind.Formats .f32)
    (hacc : (0xFF800000#32 : BitVec 32) = 0xFF800000#32) (r : Fin 256) :
    multiReduction (F := Ideal) .maximumf [1] S256 src 0xFF800000#32 h hφ hacc (ix1 r)
      = (Finset.univ : Finset (Fin 2048)).fold max (⊥ : EReal) (fun k => src (ix2 r k)) := by
  refine (Ideal.multiReduction_maximumf_single src 0xFF800000#32 h hφ hacc (ix1 r)).trans ?_
  rw [neg_inf_eq]
  exact Finset.fold_congr fun k _ => congrArg src (lift_ix h r k)

/-! ### The running maximum and the running sum -/

/-- The tile's row maximum, from `-∞`, of the scores `v73 + v76`. -/
def tileMax (v73 v76 : FVec Ideal S256x2048 .f32) (r : Fin 256) : EReal :=
  (Finset.univ : Finset (Fin 2048)).fold max (⊥ : EReal) (fun k => v73 (ix2 r k) + v76 (ix2 r k))

theorem pay2_apply (v73 v76 : FVec Ideal S256x2048 .f32) (mOld : Vec Ideal S256x1 .f32) (r : Fin 256) (u : Fin 1) :
    k0_pay2 (F := Ideal) v73 v76 mOld (ix2 r u) = max (mOld (ix2 r u)) (tileMax v73 v76 r) := by
  unfold k0_pay2
  rw [maximumf_apply, shapeCast_a_a1_apply]
  refine congrArg (max (mOld (ix2 r u))) ?_
  exact rowMax_apply _ _ _ _ r

theorem pay4_apply (v73 v76 : FVec Ideal S256x2048 .f32) (mOld : Vec Ideal S256x1 .f32) (r : Fin 256) (u : Fin 1) :
    k0_pay4 (F := Ideal) v73 v76 mOld (ix2 r u) = max (mOld (ix2 r u)) (tileMax v73 v76 r) := by
  unfold k0_pay4
  rw [shapeCast_self, pay2_apply]

theorem pay3_apply (v73 v76 : FVec Ideal S256x2048 .f32) (mOld mOld' lOld : Vec Ideal S256x1 .f32) (r : Fin 256) :
    k0_pay3 (F := Ideal) v73 v76 mOld mOld' lOld (ix2 r (0 : Fin 1))
      = Ideal.exp (mOld' (ix2 r (0 : Fin 1)) - max (mOld (ix2 r (0 : Fin 1))) (tileMax v73 v76 r)) * lOld (ix2 r (0 : Fin 1))
        + ∑ k : Fin 2048, Ideal.exp ((v73 (ix2 r k) + v76 (ix2 r k)) - max (mOld (ix2 r (0 : Fin 1))) (tileMax v73 v76 r)) := by
  unfold k0_pay3
  rw [shapeCast_self, addf_apply, mulf_apply, exp_apply, subf_apply, pay2_apply, shapeCast_a_a1_apply]
  refine congrArg₂ (fun a b : EReal => a + b) rfl ?_
  refine (rowSum_apply _ _ _ _ r).trans (Finset.sum_congr rfl fun k _ => ?_)
  rw [exp_apply, subf_apply, broadcastTo_a1_ab_apply, pay2_apply, pay1_apply]

/-! ### The scores: a polynomial in the tile's features -/

/-- The first nine terms, summed from the left: coefficient columns broadcast along the lanes, feature rows broadcast
    down the rows. -/
theorem pay21_apply (x y z xx yy zz xy xz : FVec Ideal S1x2048 .f32) (c0 c1 c2 c3 : FVec Ideal S256x1 .f32)
    (c4 c5 c6 c7 c8 : Vec Ideal S256x1 .f32) (r : Fin 256) (j : Fin 2048) :
    k0_pay21 (F := Ideal) x y z xx yy zz xy xz c0 c1 c2 c3 c4 c5 c6 c7 c8 (ix2 r j)
      = c0 (ix2 r (0 : Fin 1)) + c1 (ix2 r (0 : Fin 1)) * x (ix2 (0 : Fin 1) j)
        + c2 (ix2 r (0 : Fin 1)) * y (ix2 (0 : Fin 1) j) + c3 (ix2 r (0 : Fin 1)) * z (ix2 (0 : Fin 1) j)
        + c4 (ix2 r (0 : Fin 1)) * xx (ix2 (0 : Fin 1) j) + c5 (ix2 r (0 : Fin 1)) * yy (ix2 (0 : Fin 1) j)
        + c6 (ix2 r (0 : Fin 1)) * zz (ix2 (0 : Fin 1) j) + c7 (ix2 r (0 : Fin 1)) * xy (ix2 (0 : Fin 1) j)
        + c8 (ix2 r (0 : Fin 1)) * xz (ix2 (0 : Fin 1) j) := by
  unfold k0_pay21
  simp only [addf_apply, mulf_apply, broadcastTo_a1_ab_apply, broadcastTo_1b_ab_apply, shapeCast_self]

/-- The tenth term. -/
theorem pay22_apply (yz : FVec Ideal S1x2048 .f32) (c9 : Vec Ideal S256x1 .f32) (r : Fin 256) (j : Fin 2048) :
    k0_pay22 (F := Ideal) yz c9 (ix2 r j) = c9 (ix2 r (0 : Fin 1)) * yz (ix2 (0 : Fin 1) j) := by
  unfold k0_pay22
  simp only [mulf_apply, broadcastTo_a1_ab_apply, broadcastTo_1b_ab_apply, shapeCast_self]

/-! ### One step against the running maximum and sum of a whole row -/

/-- Position `j` of tile `t` among the 65536 positions of a row. -/
def tileEmb (t : Fin 32) : Fin 2048 ↪ Fin 65536 where
  toFun j := ⟨t.val * 2048 + j.val, by have := t.isLt; have := j.isLt; omega⟩
  inj' a b h := by
    have h' : t.val * 2048 + a.val = t.val * 2048 + b.val := congrArg Fin.val h
    exact Fin.ext (by omega)

theorem tileEmb_val (t : Fin 32) (j : Fin 2048) : (tileEmb t j).val = t.val * 2048 + j.val := rfl

/-- The 2048 positions of tile `t`. -/
def tile (t : Fin 32) : Finset (Fin 65536) := Finset.univ.map (tileEmb t)

theorem mem_tile (t : Fin 32) (i : Fin 65536) : i ∈ tile t ↔ t.val * 2048 ≤ i.val ∧ i.val < t.val * 2048 + 2048 := by
  unfold tile
  rw [Finset.mem_map]
  constructor
  · rintro ⟨j, _, rfl⟩
    rw [tileEmb_val]
    have := j.isLt
    omega
  · rintro ⟨h1, h2⟩
    exact ⟨⟨i.val - t.val * 2048, by omega⟩, Finset.mem_univ _, Fin.ext (by rw [tileEmb_val]; show t.val * 2048 + (i.val - t.val * 2048) = i.val; omega)⟩

theorem tile_nonempty (t : Fin 32) : (tile t).Nonempty :=
  ⟨tileEmb t ⟨0, by omega⟩, Finset.mem_map_of_mem _ (Finset.mem_univ _)⟩

/-- The positions of the first `n` tiles. -/
def below (n : ℕ) : Finset (Fin 65536) := Finset.univ.filter fun i => i.val < n * 2048

theorem mem_below (n : ℕ) (i : Fin 65536) : i ∈ below n ↔ i.val < n * 2048 := by
  unfold below
  rw [Finset.mem_filter]
  exact ⟨fun h => h.2, fun h => ⟨Finset.mem_univ _, h⟩⟩

theorem below_zero : below 0 = ∅ := by
  ext i
  rw [mem_below]
  constructor
  · intro h; omega
  · intro h; exact absurd h (Finset.notMem_empty i)

theorem below_succ (t : Fin 32) : below (t.val + 1) = below t.val ∪ tile t := by
  ext i
  rw [Finset.mem_union, mem_below, mem_below, mem_tile]
  constructor
  · intro h; omega
  · intro h; omega

theorem below_disjoint_tile (t : Fin 32) : Disjoint (below t.val) (tile t) := by
  rw [Finset.disjoint_left]
  intro i hi hi'
  rw [mem_below] at hi
  rw [mem_tile] at hi'
  omega

theorem below_all : below 32 = Finset.univ := by
  ext i
  rw [mem_below]
  have := i.isLt
  constructor
  · intro _; exact Finset.mem_univ _
  · intro _; omega

/-- The tile's lane maximum, when the tile's scores are the real scores `y` at the tile's positions, is the reading of
    their maximum. -/
theorem tileMax_eq (y : Fin 65536 → ℝ) (t : Fin 32) (v73 v76 : FVec Ideal S256x2048 .f32) (r : Fin 256)
    (hy : ∀ j : Fin 2048, v73 (ix2 r j) + v76 (ix2 r j) = ((y (tileEmb t j) : ℝ) : EReal)) :
    tileMax v73 v76 r = (((tile t).sup' (tile_nonempty t) y : ℝ) : EReal) := by
  rw [← Cert.LibIdealReal.fold_max_coe (tile_nonempty t) y]
  unfold tileMax tile
  rw [Finset.fold_map]
  exact Finset.fold_congr fun k _ => hy k

/-- One step of the first pass, on a row whose scores in tile `t` are the real scores `y` at the tile's positions: if
    the pair before the step is what reading the positions `A` leaves and `A` does not meet the tile, the pair the
    step stores is what reading `A ∪ tile t` leaves. -/
theorem tile_step (y : Fin 65536 → ℝ) (t : Fin 32) (v73 v76 : FVec Ideal S256x2048 .f32)
    (mOld lOld : Vec Ideal S256x1 .f32) (r : Fin 256)
    (hy : ∀ j : Fin 2048, v73 (ix2 r j) + v76 (ix2 r j) = ((y (tileEmb t j) : ℝ) : EReal))
    {A : Finset (Fin 65536)} (hA : Disjoint A (tile t))
    (h : Cert.LibOnlineSoftmax.Seen y A (mOld (ix2 r (0 : Fin 1))) (lOld (ix2 r (0 : Fin 1)))) :
    Cert.LibOnlineSoftmax.Seen y (A ∪ tile t) (k0_pay4 (F := Ideal) v73 v76 mOld (ix2 r (0 : Fin 1)))
      (k0_pay3 (F := Ideal) v73 v76 mOld mOld lOld (ix2 r (0 : Fin 1))) := by
  rw [pay4_apply, pay3_apply, tileMax_eq y t v73 v76 r hy]
  have hsum : ∀ M : EReal, ∑ k : Fin 2048, Ideal.exp ((v73 (ix2 r k) + v76 (ix2 r k)) - M)
      = ∑ i ∈ tile t, Ideal.exp (((y i : ℝ) : EReal) - M) := by
    intro M
    unfold tile
    rw [Finset.sum_map]
    exact Finset.sum_congr rfl fun k _ => by rw [hy k]
  rw [hsum]
  exact Cert.LibOnlineSoftmax.seen_step y hA (tile_nonempty t) h

end Cert.KernelIdeal.StatsPayloads

end
-- ==== Proof.LibSoftmaxRow.lean ====
/-
  A whole row of a numerically stable softmax over real scores, read in the extended-real float model.

  For real scores `y i` over a nonempty finite index set, with `M` their maximum:
  • the running pair of a tile-by-tile pass, once every index has been read, is `(M, ∑ exp (y i - M))`;
  • the one-pass maximum — the fold of `max` from `-∞` over all indices — is the reading of `M`, and the one-pass sum
    `0 + ∑ exp (y i - M)` on the extended reals is the reading of the real sum;
  • the sum is positive, so with a positive `ε` added it is a nonzero real, and multiplying an exponential by the
    reciprocal `1 / (L + ε)` is dividing it by `L + ε`: both are the reading of `exp (y n - M) / (L + ε)`.
  So the two ways of normalising a row give, entry by entry, the same extended real.
-/
import proofs.«169934_j78314433675744_2_alg».proof.Proof.LibOnlineSoftmax
import proofs.«169934_j78314433675744_2_alg».proof.Proof.LibIdealReal

namespace Cert.LibSoftmaxRow

open Idealize.ShloMosaic Cert.LibOnlineSoftmax

variable {κ : Type} [DecidableEq κ]

/-! ### The tile-by-tile pass, at its end -/

/-- Once a nonempty set of scores has been read, the pair is their maximum and the sum of their exponentials relative
    to it. -/
theorem seen_nonempty (y : κ → ℝ) {A : Finset κ} (hA : A.Nonempty) {m l : EReal} (h : Seen y A m l) :
    m = ((A.sup' hA y : ℝ) : EReal) ∧ l = ((∑ i ∈ A, Real.exp (y i - A.sup' hA y) : ℝ) : EReal) := by
  rcases h with ⟨he, _, _⟩ | ⟨_, hm, hl⟩
  · exact absurd he hA.ne_empty
  · exact ⟨hm, hl⟩

/-- The same with every index read. -/
theorem seen_univ [Fintype κ] [Nonempty κ] (y : κ → ℝ) {m l : EReal} (h : Seen y Finset.univ m l) :
    m = ((Finset.univ.sup' Finset.univ_nonempty y : ℝ) : EReal)
      ∧ l = ((∑ i, Real.exp (y i - Finset.univ.sup' Finset.univ_nonempty y) : ℝ) : EReal) :=
  seen_nonempty y Finset.univ_nonempty h

/-! ### The one-pass maximum and sum -/

/-- The fold of `max` from `-∞` over every index is the reading of the maximum. -/
theorem fold_max_univ [Fintype κ] [Nonempty κ] (y : κ → ℝ) :
    Finset.univ.fold max (⊥ : EReal) (fun i => ((y i : ℝ) : EReal))
      = ((Finset.univ.sup' Finset.univ_nonempty y : ℝ) : EReal) :=
  Cert.LibIdealReal.fold_max_coe Finset.univ_nonempty y

/-- The sum of exponentials relative to a real `M`, started from the zero literal, is the reading of the real sum. -/
theorem zero_add_sum_exp_sub [Fintype κ] (y : κ → ℝ) (M : ℝ) :
    Ideal.ofBits .f32 0x00000000#32 + ∑ i, Ideal.exp (((y i : ℝ) : EReal) - (M : EReal))
      = ((∑ i, Real.exp (y i - M) : ℝ) : EReal) := by
  rw [Cert.LibIdealReal.ofBits_zero_f32, EReal.coe_zero, zero_add, sum_exp_sub]

/-- The sum of exponentials relative to the maximum is positive: the term at a maximiser is `1`. -/
theorem sum_exp_pos {A : Finset κ} (hA : A.Nonempty) (y : κ → ℝ) (M : ℝ) : 0 < ∑ i ∈ A, Real.exp (y i - M) :=
  Finset.sum_pos (fun i _ => Real.exp_pos _) hA

/-! ### The normalised entry -/

/-- An exponential times the reciprocal of `L + ε`, a nonzero real, is the exponential divided by `L + ε`. -/
theorem exp_mul_one_div (a M L ε : ℝ) (h : L + ε ≠ 0) :
    Ideal.exp ((a : EReal) - (M : EReal)) * Ideal.div 1 ((L : EReal) + (ε : EReal))
      = Ideal.div (Ideal.exp ((a : EReal) - (M : EReal))) ((L : EReal) + (ε : EReal)) := by
  rw [Cert.LibIdealReal.sub_coe, Cert.LibIdealReal.exp_coe, Cert.LibIdealReal.add_coe,
    Cert.LibIdealReal.mul_one_div_coe _ h]

/-- Both are the reading of the real quotient. -/
theorem exp_div_coe (a M L ε : ℝ) (h : L + ε ≠ 0) :
    Ideal.div (Ideal.exp ((a : EReal) - (M : EReal))) ((L : EReal) + (ε : EReal))
      = ((Real.exp (a - M) / (L + ε) : ℝ) : EReal) := by
  rw [Cert.LibIdealReal.sub_coe, Cert.LibIdealReal.exp_coe, Cert.LibIdealReal.add_coe, Cert.LibIdealReal.div_coe _ h]

/-- With `L` a sum of exponentials over a nonempty set and `ε` positive, `L + ε` is not zero. -/
theorem sum_exp_add_ne_zero {A : Finset κ} (hA : A.Nonempty) (y : κ → ℝ) (M : ℝ) {ε : ℝ} (hε : 0 < ε) :
    (∑ i ∈ A, Real.exp (y i - M)) + ε ≠ 0 := by
  have := sum_exp_pos hA y M
  exact (by linarith : 0 < (∑ i ∈ A, Real.exp (y i - M)) + ε).ne'

end Cert.LibSoftmaxRow
-- ==== Proof.KIStatsRun.lean ====
/-
  The first pass over a whole row: thirty-two tiles, then the two statistics.

  A row block's thirty-two tiles are read in order. At the first tile the running pair of every row starts from
  `(-∞, 0)`; at each later tile it starts from what the tile before left. If the scores of row `r` in tile `kv` are the
  real numbers `y (2048 kv + j)`, then after tile `kv` the row's pair is what reading the positions below `2048 (kv + 1)`
  leaves (induction on the tile, one step each), so after the last tile it is
      M = max over all 65536 positions of y,      L = ∑ over all positions of exp (y n - M),
  and the last tile stores `M` in the row's first statistic and `L + ε` in its second.
-/
import proofs.«169934_j78314433675744_2_alg».proof.Proof.KIStatsPieces
import proofs.«169934_j78314433675744_2_alg».proof.Proof.KIStatsPayloads
import proofs.«169934_j78314433675744_2_alg».proof.Proof.LibSoftmaxRow

set_option maxRecDepth 16384

noncomputable section

namespace Cert.KernelIdeal.Hand

open Cert.KernelIdeal Cert.KernelIdeal.Gen Cert.KernelIdeal.StatsPayloads
open Idealize.ShloMosaic Idealize.ShloMosaic.TcCoe Idealize.ShloMosaic.ValueIdx
open Idealize.SL.Sem
open Cert.LibOnlineSoftmax

section StatsRun

variable (V : (c : Dev nD) → (b : Ref sig .tc) → Buf (Elt Ideal) ((c : Thread nD τ).loc b)) (c : Dev nD)
variable (bb : Fin 2) (r : Fin 256) (y : Fin 65536 → ℝ)

/-- Row `r` of row block `bb` has the real scores `y`: at the grid position of value `32 bb + kv` the tile's score at lane
    `j` is the reading of `y` at position `j` of tile `kv`. -/
def RowScores : Prop :=
  ∀ (kv : Fin 32) (t : Fin cfg0.N), t.val = 32 * bb.val + kv.val → ∀ j : Fin 2048,
    lpHead (F := Ideal) (iblk0 V c 0 t) (iblk0 V c 1 t) (ix2 r j) + lpLast (F := Ideal) (iblk0 V c 0 t) (iblk0 V c 1 t) (ix2 r j)
      = ((y (tileEmb kv j) : ℝ) : EReal)

/-- After tile `kv` of the row block the row's pair is what reading the positions of tiles `0 … kv` leaves. -/
theorem seen_tiles (hlp : RowScores V c bb r y) :
    ∀ (kv : ℕ) (hkv : kv < 32) (t : Fin cfg0.N) (ht : t.val = 32 * bb.val + kv),
      Seen y (below (kv + 1)) ((outsAt0 V c t.val t.isLt).2.1 (ix2 r (0 : Fin 1)))
        ((outsAt0 V c t.val t.isLt).2.2 (ix2 r (0 : Fin 1))) := by
  intro kv
  induction kv with
  | zero =>
    intro hkv t ht
    have h0 : t.val % 32 = 0 := by omega
    have h1 : ¬t.val % 32 = 31 := by omega
    rw [outsAt0_A V c t h0 h1]
    dsimp only
    rw [mout0_A_eq, lout0_A_eq]
    have hb : below (0 + 1) = ∅ ∪ tile (⟨0, hkv⟩ : Fin 32) :=
      (below_succ (⟨0, hkv⟩ : Fin 32)).trans (congrArg (· ∪ tile (⟨0, hkv⟩ : Fin 32)) below_zero)
    rw [hb]
    refine tile_step y ⟨0, hkv⟩ _ _ _ _ r (hlp ⟨0, hkv⟩ t ht) (Finset.disjoint_empty_left _) ?_
    rw [pay6_apply, pay7_apply]
    exact seen_empty y
  | succ kv ih =>
    intro hkv t ht
    have hN : cfg0.N = 64 := N_0
    have h0 : ¬t.val % 32 = 0 := by omega
    have hlt : t.val - 1 < cfg0.N := by have := t.isLt; omega
    have ihp := ih (by omega) ⟨t.val - 1, hlt⟩ (by show t.val - 1 = 32 * bb.val + kv; omega)
    have hstep := fun (xs0 xs1 : Vec Ideal S256x1 .f32)
        (h : Seen y (below (kv + 1)) (xs0 (ix2 r (0 : Fin 1))) (xs1 (ix2 r (0 : Fin 1)))) =>
      tile_step y ⟨kv + 1, hkv⟩ (lpHead (F := Ideal) (iblk0 V c 0 t) (iblk0 V c 1 t))
        (lpLast (F := Ideal) (iblk0 V c 0 t) (iblk0 V c 1 t)) xs0 xs1 r (hlp ⟨kv + 1, hkv⟩ t ht)
        (below_disjoint_tile ⟨kv + 1, hkv⟩) h
    rw [show below (kv + 1 + 1) = below (kv + 1) ∪ tile ⟨kv + 1, hkv⟩ from below_succ ⟨kv + 1, hkv⟩]
    by_cases h1 : t.val % 32 = 31
    · rw [outsAt0_C V c t h0 h1]
      dsimp only
      rw [mout0_C_eq, lout0_C_eq]
      exact hstep _ _ ihp
    · rw [outsAt0_B V c t h0 h1]
      dsimp only
      rw [mout0_B_eq, lout0_B_eq]
      exact hstep _ _ ihp

/-- After the row block's last tile the row's pair is the maximum of all its scores and the sum of their
    exponentials relative to it. -/
theorem seen_row (hlp : RowScores V c bb r y) (t : Fin cfg0.N) (ht : t.val = 32 * bb.val + 31) :
    (outsAt0 V c t.val t.isLt).2.1 (ix2 r (0 : Fin 1)) = ((Finset.univ.sup' Finset.univ_nonempty y : ℝ) : EReal)
      ∧ (outsAt0 V c t.val t.isLt).2.2 (ix2 r (0 : Fin 1))
          = ((∑ n, Real.exp (y n - Finset.univ.sup' Finset.univ_nonempty y) : ℝ) : EReal) := by
  have h := seen_tiles V c bb r y hlp 31 (by omega) t ht
  rw [show below (31 + 1) = Finset.univ from below_all] at h
  exact Cert.LibSoftmaxRow.seen_univ y h

/-- Row `r` of the first stored column is cell `(r, 0)` of the `256 × 2` block. -/
theorem emb_col0 :
    (Rect.unit (s := S256x2) ![0, 0] S256x1.size inb_S256x2_S256x1_0_0).emb (ix2 r (0 : Fin 1)) = ix2 r (0 : Fin 2) := by
  funext a
  match a with
  | ⟨0, _⟩ => exact Fin.ext (by show 0 + 1 * r.val = r.val; omega)
  | ⟨1, _⟩ => exact Fin.ext (by show 0 + 1 * 0 = 0; omega)

/-- Row `r` of the second stored column is cell `(r, 1)` of the `256 × 2` block. -/
theorem emb_col1 :
    (Rect.unit (s := S256x2) ![0, 1] S256x1.size inb_S256x2_S256x1_0_1).emb (ix2 r (0 : Fin 1)) = ix2 r (1 : Fin 2) := by
  funext a
  match a with
  | ⟨0, _⟩ => exact Fin.ext (by show 0 + 1 * r.val = r.val; omega)
  | ⟨1, _⟩ => exact Fin.ext (by show 1 + 1 * 0 = 1; omega)

/-- The row's first statistic after the last tile: the maximum of its scores. -/
theorem stats_col0 (hlp : RowScores V c bb r y) (t : Fin cfg0.N) (ht : t.val = 32 * bb.val + 31) :
    (outsAt0 V c t.val t.isLt).1 (ix2 r (0 : Fin 2)) = ((Finset.univ.sup' Finset.univ_nonempty y : ℝ) : EReal) := by
  have h0 : ¬t.val % 32 = 0 := by omega
  have h1 : t.val % 32 = 31 := by omega
  have hm := (seen_row V c bb r y hlp t ht).1
  rw [outsAt0_C V c t h0 h1] at hm ⊢
  dsimp only at hm ⊢
  rw [mout0_C_eq] at hm
  rw [← emb_col0 r, out0_C_col0]
  exact hm

/-- The row's second statistic after the last tile: the sum of the exponentials relative to the maximum, plus `ε`. -/
theorem stats_col1 (hlp : RowScores V c bb r y) (t : Fin cfg0.N) (ht : t.val = 32 * bb.val + 31) :
    (outsAt0 V c t.val t.isLt).1 (ix2 r (1 : Fin 2))
      = ((∑ n, Real.exp (y n - Finset.univ.sup' Finset.univ_nonempty y) : ℝ) : EReal)
          + Ideal.ofBits .f32 0x2EDBE6FF#32 := by
  have h0 : ¬t.val % 32 = 0 := by omega
  have h1 : t.val % 32 = 31 := by omega
  have hl := (seen_row V c bb r y hlp t ht).2
  rw [outsAt0_C V c t h0 h1] at hl ⊢
  dsimp only at hl ⊢
  rw [lout0_C_eq] at hl
  rw [← emb_col1 r, out0_C_col1]
  refine (pay5_apply _ _).trans ?_
  rw [hl]

end StatsRun

end Cert.KernelIdeal.Hand

end
-- ==== Proof.KIRegion0Lp.lean ====
/-
  The first region's tile of log-densities, read off the arrays.

  At position `t` of the first region's grid (row block  t / 32,  tile  t mod 32) the body forms, for each of the
  block's 256 rows and 2048 pixels, the ten-term polynomial of the pixel's nine features with the row's ten
  coefficients: nine terms summed from the left, then the tenth added.  The feature block is columns
  2048·(t mod 32) …  of the feature array and the coefficient block is rows  256·(t / 32) …  of the coefficient table,
  so the tile is the same polynomial of the same two arrays that the second region evaluates, at that row and pixel.
-/
import proofs.«169934_j78314433675744_2_alg».proof.Proof.KIStatsPieces
import proofs.«169934_j78314433675744_2_alg».proof.Proof.KIStatsPayloads
import proofs.«169934_j78314433675744_2_alg».proof.Proof.KIRegion1Final

set_option maxRecDepth 16384

noncomputable section

namespace Cert.KernelIdeal.Hand

open Cert.KernelIdeal Cert.KernelIdeal.Gen
open Idealize.ShloMosaic Idealize.ShloMosaic.ValueIdx

/-! ## The index maps of the first region's two input windows -/

/-- At position `t` the feature window sits at block `(0, t mod 32)` and the coefficient window at `(t / 32, 0)`. -/
theorem idx_facts0_in : ∀ t : Fin cfg0.N,
    win0_0.index t (0 : Fin 2) = 0 ∧ win0_0.index t (1 : Fin 2) = t.val % 32
    ∧ win0_1.index t (0 : Fin 2) = t.val / 32 ∧ win0_1.index t (1 : Fin 2) = 0 :=
  (by decide +kernel : ∀ t : Fin grid0.N, _)

/-- The row of the coefficient table, and the pixel of the feature array, under entry `(r, j)` of position `t`'s blocks. -/
theorem rowOf_lt (t : Fin cfg0.N) (r : Fin 256) : 256 * (t.val / 32) + r.val < 512 := by
  have hN : cfg0.N = 64 := N_0
  have ht : t.val < 64 := lt_of_lt_of_eq t.isLt hN
  have hr : r.val < 256 := r.isLt
  omega

theorem pixOf_lt (t : Fin cfg0.N) (j : Fin 2048) : 2048 * (t.val % 32) + j.val < 65536 := by
  have hj : j.val < 2048 := j.isLt
  omega

/-! ## The coefficient block's column loads, read at an index -/

theorem r0CoefA_apply (x1 : Vec Ideal S256x10 .f32) (r : Fin 256) (u : Fin 1) :
    View.ld x1 (Rect.unit (s := S256x10) ![0, 0] S256x1.size inb_S256x10_S256x1_0_0) (ix2 r u) = x1 (ix2 r (0 : Fin 10)) :=
  ld_col_apply x1 0 _ r u
theorem r0CoefB_apply (x1 : Vec Ideal S256x10 .f32) (r : Fin 256) (u : Fin 1) :
    View.ld x1 (Rect.unit (s := S256x10) ![0, 1] S256x1.size inb_S256x10_S256x1_0_1) (ix2 r u) = x1 (ix2 r (1 : Fin 10)) :=
  ld_col_apply x1 1 _ r u
theorem r0CoefC_apply (x1 : Vec Ideal S256x10 .f32) (r : Fin 256) (u : Fin 1) :
    View.ld x1 (Rect.unit (s := S256x10) ![0, 2] S256x1.size inb_S256x10_S256x1_0_2) (ix2 r u) = x1 (ix2 r (2 : Fin 10)) :=
  ld_col_apply x1 2 _ r u
theorem r0CoefD_apply (x1 : Vec Ideal S256x10 .f32) (r : Fin 256) (u : Fin 1) :
    View.ld x1 (Rect.unit (s := S256x10) ![0, 3] S256x1.size inb_S256x10_S256x1_0_3) (ix2 r u) = x1 (ix2 r (3 : Fin 10)) :=
  ld_col_apply x1 3 _ r u
theorem r0CoefE_apply (x1 : Vec Ideal S256x10 .f32) (r : Fin 256) (u : Fin 1) :
    View.ld x1 (Rect.unit (s := S256x10) ![0, 4] S256x1.size inb_S256x10_S256x1_0_4) (ix2 r u) = x1 (ix2 r (4 : Fin 10)) :=
  ld_col_apply x1 4 _ r u
theorem r0CoefF_apply (x1 : Vec Ideal S256x10 .f32) (r : Fin 256) (u : Fin 1) :
    View.ld x1 (Rect.unit (s := S256x10) ![0, 5] S256x1.size inb_S256x10_S256x1_0_5) (ix2 r u) = x1 (ix2 r (5 : Fin 10)) :=
  ld_col_apply x1 5 _ r u
theorem r0CoefG_apply (x1 : Vec Ideal S256x10 .f32) (r : Fin 256) (u : Fin 1) :
    View.ld x1 (Rect.unit (s := S256x10) ![0, 6] S256x1.size inb_S256x10_S256x1_0_6) (ix2 r u) = x1 (ix2 r (6 : Fin 10)) :=
  ld_col_apply x1 6 _ r u
theorem r0CoefH_apply (x1 : Vec Ideal S256x10 .f32) (r : Fin 256) (u : Fin 1) :
    View.ld x1 (Rect.unit (s := S256x10) ![0, 7] S256x1.size inb_S256x10_S256x1_0_7) (ix2 r u) = x1 (ix2 r (7 : Fin 10)) :=
  ld_col_apply x1 7 _ r u
theorem r0CoefI_apply (x1 : Vec Ideal S256x10 .f32) (r : Fin 256) (u : Fin 1) :
    View.ld x1 (Rect.unit (s := S256x10) ![0, 8] S256x1.size inb_S256x10_S256x1_0_8) (ix2 r u) = x1 (ix2 r (8 : Fin 10)) :=
  ld_col_apply x1 8 _ r u
theorem r0CoefJ_apply (x1 : Vec Ideal S256x10 .f32) (r : Fin 256) (u : Fin 1) :
    View.ld x1 (Rect.unit (s := S256x10) ![0, 9] S256x1.size inb_S256x10_S256x1_0_9) (ix2 r u) = x1 (ix2 r (9 : Fin 10)) :=
  ld_col_apply x1 9 _ r u

/-! ## The tile's log-densities as the polynomial of the arrays -/

/-- Entry `(r, j)` of the tile's log-densities is the ten-term polynomial at row `b`, pixel `n` of the arrays, when column `j`
    of the feature block is column `n` of the feature array and row `r` of the coefficient block is row `b` of the table. -/
theorem lpTile_eq_lpArr (x0 : Vec Ideal S9x2048 .f32) (x1 : Vec Ideal S256x10 .f32)
    (feat : Vec Ideal S9x65536 .f32) (coef : Vec Ideal S512x10 .f32)
    (r : Fin 256) (j : Fin 2048) (b : Fin 512) (n : Fin 65536)
    (h0 : ∀ k : Fin 9, x0 (ix2 k j) = feat (ix2 k n))
    (h1 : ∀ k : Fin 10, x1 (ix2 r k) = coef (ix2 b k)) :
    lpHead x0 x1 (ix2 r j) + lpLast x0 x1 (ix2 r j) = lpArr feat coef b n := by
  unfold lpHead lpLast
  rw [Cert.KernelIdeal.StatsPayloads.pay21_apply, Cert.KernelIdeal.StatsPayloads.pay22_apply]
  unfold k0_pay8 k0_pay9 k0_pay10 k0_pay11 k0_pay12 k0_pay13 k0_pay14 k0_pay15 k0_pay16 k0_pay17 k0_pay18 k0_pay19 k0_pay20
  simp only [Idealize.ShloMosaic.shapeCast_self]
  rw [r1FeatA_apply, r1FeatB_apply, r1FeatC_apply, r1FeatD_apply, r1FeatE_apply, r1FeatF_apply, r1FeatG_apply,
    r1FeatH_apply, r1FeatI_apply, r0CoefA_apply, r0CoefB_apply, r0CoefC_apply, r0CoefD_apply, r0CoefE_apply,
    r0CoefF_apply, r0CoefG_apply, r0CoefH_apply, r0CoefI_apply, r0CoefJ_apply]
  rw [h0, h0, h0, h0, h0, h0, h0, h0, h0, h1, h1, h1, h1, h1, h1, h1, h1, h1, h1]
  rfl

section Tile
open Idealize.ShloMosaic.TcCoe Idealize.SL.Sem
variable (V : (c : Dev nD) → (b : Ref sig .tc) → Buf (Elt Ideal) ((c : Thread nD τ).loc b))

/-- THE TILE OF LOG-DENSITIES the first region computes at position `t` is the polynomial of the same two arrays the
    second region reads, at the row and the pixel the blocks' places say. -/
theorem lpTile0_eq (c : Dev nD) (t : Fin cfg0.N) (r : Fin 256) (j : Fin 2048) :
    lpHead (iblk0 V c 0 t) (iblk0 V c 1 t) (ix2 r j) + lpLast (iblk0 V c 0 t) (iblk0 V c 1 t) (ix2 r j)
      = lpArr (V c main_v169) (V c main_v147) ⟨256 * (t.val / 32) + r.val, rowOf_lt t r⟩ ⟨2048 * (t.val % 32) + j.val, pixOf_lt t j⟩ := by
  obtain ⟨e00, e01, e10, e11⟩ := idx_facts0_in t
  have hr : r.val < 256 := r.isLt
  have hj : j.val < 2048 := j.isLt
  refine lpTile_eq_lpArr (iblk0 V c 0 t) (iblk0 V c 1 t) (V c main_v169) (V c main_v147) r j
    ⟨256 * (t.val / 32) + r.val, rowOf_lt t r⟩ ⟨2048 * (t.val % 32) + j.val, pixOf_lt t j⟩ (fun k => ?_) (fun k => ?_)
  · show V c main_v169 (((cfg0.win 0).blk t).view.emb (ix2 k j)) = V c main_v169 (ix2 k ⟨2048 * (t.val % 32) + j.val, _⟩)
    refine congrArg (V c main_v169) (funext fun a => Fin.ext ?_)
    match a with
    | ⟨0, _⟩ => show win0_0.index t (0 : Fin 2) * 9 + 1 * k.val = k.val; omega
    | ⟨1, _⟩ => show win0_0.index t (1 : Fin 2) * 2048 + 1 * j.val = 2048 * (t.val % 32) + j.val; omega
  · show V c main_v147 (((cfg0.win 1).blk t).view.emb (ix2 r k)) = V c main_v147 (ix2 ⟨256 * (t.val / 32) + r.val, _⟩ k)
    refine congrArg (V c main_v147) (funext fun a => Fin.ext ?_)
    match a with
    | ⟨0, _⟩ => show win0_1.index t (0 : Fin 2) * 256 + 1 * r.val = 256 * (t.val / 32) + r.val; omega
    | ⟨1, _⟩ => show win0_1.index t (1 : Fin 2) * 10 + 1 * k.val = k.val; omega

/-- The same with the position split into its row block `bb` and its tile `kv`: the pixel is position `j` of tile `kv`. -/
theorem lpTile0_eq_tile (c : Dev nD) (bb : Fin 2) (kv : Fin 32) (t : Fin cfg0.N) (ht : t.val = 32 * bb.val + kv.val)
    (r : Fin 256) (j : Fin 2048) :
    lpHead (iblk0 V c 0 t) (iblk0 V c 1 t) (ix2 r j) + lpLast (iblk0 V c 0 t) (iblk0 V c 1 t) (ix2 r j)
      = lpArr (V c main_v169) (V c main_v147)
          ⟨256 * bb.val + r.val, by have := bb.isLt; have := r.isLt; omega⟩ (Cert.KernelIdeal.StatsPayloads.tileEmb kv j) := by
  have hb : bb.val < 2 := bb.isLt
  have hk : kv.val < 32 := kv.isLt
  rw [lpTile0_eq V c t r j]
  have e1 : (⟨256 * (t.val / 32) + r.val, rowOf_lt t r⟩ : Fin 512) = ⟨256 * bb.val + r.val, by have := r.isLt; omega⟩ :=
    Fin.ext (by show 256 * (t.val / 32) + r.val = 256 * bb.val + r.val; omega)
  have e2 : (⟨2048 * (t.val % 32) + j.val, pixOf_lt t j⟩ : Fin 65536) = Cert.KernelIdeal.StatsPayloads.tileEmb kv j :=
    Fin.ext (by show 2048 * (t.val % 32) + j.val = kv.val * 2048 + j.val; omega)
  rw [e1, e2]

end Tile

end Cert.KernelIdeal.Hand

end
-- ==== Proof.KIRowFinal.lean ====
/-
  A row of the result: the normalised density, entry by entry.

  The second pass writes, at row `b` and position `n`, the exponential of the row's score at `n` less the row's first
  statistic, times one over the row's second statistic. When the row's scores are the real numbers `y n`, the first
  pass has left the statistics `M = max y` and `L + ε` with `L = ∑ exp (y n' - M)` (the tiles of the first pass read the
  same polynomial of the same two arrays, row `b` being row `b mod 256` of row block `b / 256`); `L` is positive and `ε` is
  positive, so `L + ε` is a nonzero real and the entry is the reading of the real number

      exp (y n - M) / (L + ε).
-/
import proofs.«169934_j78314433675744_2_alg».proof.Proof.KIStatsRun
import proofs.«169934_j78314433675744_2_alg».proof.Proof.KIRegion0Final
import proofs.«169934_j78314433675744_2_alg».proof.Proof.KIRegion1Final
import proofs.«169934_j78314433675744_2_alg».proof.Proof.KIRegion0Lp

set_option maxRecDepth 16384

noncomputable section

namespace Cert.KernelIdeal.Hand

open Cert.KernelIdeal Cert.KernelIdeal.Gen Cert.KernelIdeal.StatsPayloads
open Idealize.ShloMosaic Idealize.ShloMosaic.TcCoe Idealize.ShloMosaic.ValueIdx
open Idealize.SL.Sem

section RowFinal

variable (V : (c : Dev nD) → (b : Ref sig .tc) → Buf (Elt Ideal) ((c : Thread nD τ).loc b)) (c : Dev nD)

/-- A row of the arrays with real scores gives every tile of the first pass its real scores. -/
theorem rowScores_of_row (bb : Fin 2) (r : Fin 256) (y : Fin 65536 → ℝ)
    (hy : ∀ n, lpArr (V c main_v169) (V c main_v147)
      ⟨256 * bb.val + r.val, by have := bb.isLt; have := r.isLt; omega⟩ n = ((y n : ℝ) : EReal)) :
    RowScores V c bb r y :=
  fun kv t ht j => (lpTile0_eq_tile V c bb kv t ht r j).trans (hy _)

/-- The two statistics of row `b` after the first pass. -/
theorem stats_row (b : Fin 512) (y : Fin 65536 → ℝ)
    (hy : ∀ n, lpArr (V c main_v169) (V c main_v147) b n = ((y n : ℝ) : EReal)) :
    statsArr0 V c (ix2 b (0 : Fin 2)) = ((Finset.univ.sup' Finset.univ_nonempty y : ℝ) : EReal)
      ∧ statsArr0 V c (ix2 b (1 : Fin 2))
          = ((∑ n, Real.exp (y n - Finset.univ.sup' Finset.univ_nonempty y) : ℝ) : EReal)
              + Ideal.ofBits .f32 0x2EDBE6FF#32 := by
  have hb : b.val < 512 := b.isLt
  have hlp : RowScores V c ⟨b.val / 256, by omega⟩ ⟨b.val % 256, Nat.mod_lt _ (by decide)⟩ y :=
    rowScores_of_row V c ⟨b.val / 256, by omega⟩ ⟨b.val % 256, Nat.mod_lt _ (by decide)⟩ y (fun n => by
      have e : (⟨256 * (b.val / 256) + b.val % 256, by omega⟩ : Fin 512) = b := Fin.ext (Nat.div_add_mod b.val 256)
      show lpArr (V c main_v169) (V c main_v147) (⟨256 * (b.val / 256) + b.val % 256, _⟩ : Fin 512) n = _
      rw [e]
      exact hy n)
  exact ⟨(statsArr0_apply V c b 0).trans
      (stats_col0 V c ⟨b.val / 256, by omega⟩ ⟨b.val % 256, Nat.mod_lt _ (by decide)⟩ y hlp
        ⟨32 * (b.val / 256) + 31, lastTile_lt _ b.isLt⟩ rfl),
    (statsArr0_apply V c b 1).trans
      (stats_col1 V c ⟨b.val / 256, by omega⟩ ⟨b.val % 256, Nat.mod_lt _ (by decide)⟩ y hlp
        ⟨32 * (b.val / 256) + 31, lastTile_lt _ b.isLt⟩ rfl)⟩

/-- THE ROW'S RESULT: with real scores `y` and `ε` the positive real the added constant denotes, entry `n` of row `b` is the
    reading of `exp (y n - M) / (L + ε)`. -/
theorem row_final (b : Fin 512) (y : Fin 65536 → ℝ)
    (hy : ∀ n, lpArr (V c main_v169) (V c main_v147) b n = ((y n : ℝ) : EReal))
    (ε : ℝ) (hε : 0 < ε) (heps : Ideal.ofBits .f32 0x2EDBE6FF#32 = ((ε : ℝ) : EReal)) (n : Fin 65536) :
    normOut (V c main_v169) (V c main_v147) (statsArr0 V c) (ix2 b n)
      = ((Real.exp (y n - Finset.univ.sup' Finset.univ_nonempty y)
          / ((∑ n', Real.exp (y n' - Finset.univ.sup' Finset.univ_nonempty y)) + ε) : ℝ) : EReal) := by
  obtain ⟨h0, h1⟩ := stats_row V c b y hy
  have hne : (∑ n', Real.exp (y n' - Finset.univ.sup' Finset.univ_nonempty y)) + ε ≠ 0 :=
    Cert.LibSoftmaxRow.sum_exp_add_ne_zero Finset.univ_nonempty y _ hε
  show Ideal.exp (lpArr (V c main_v169) (V c main_v147) b n - statsArr0 V c (ix2 b (0 : Fin 2)))
      * Ideal.div 1 (statsArr0 V c (ix2 b (1 : Fin 2))) = _
  rw [h0, h1, hy n, heps, Cert.LibSoftmaxRow.exp_mul_one_div _ _ _ _ hne, Cert.LibSoftmaxRow.exp_div_coe _ _ _ _ hne]

end RowFinal

end Cert.KernelIdeal.Hand

end
-- ==== Proof.RefStages.lean ====
/-
  The reference program's result as whole arrays, stage by stage. The entry function's operations are cut at the stages of
  the computation — the two affine maps of the representation, the exponential linear unit plus one, the six columns of the
  scale with a softplus on the diagonal ones, the pixel positions minus the mean, the three coordinates of the forward
  substitution, their squares' sum, the log-diagonal's sum, the log-density, its row maximum, the exponential of the
  difference, its row sum, and the quotient — and every array that a later stage reads is named as a function of the
  argument arrays it depends on. What the buffers hold after the whole line is then read window by window.
-/
import proofs.«169934_j78314433675744_2_alg».proof.Proof.RefRun
import Idealize.ShloMosaic.Lib.StableHlo.Run
import Idealize.ShloMosaic.Lib.Pipeline.Frame

noncomputable section

namespace Cert.ReferenceIdeal.RefStages

open Cert.ReferenceIdeal Cert.ReferenceIdeal.Gen Idealize.ShloMosaic Idealize.ShloMosaic.TcCoe Idealize.SL.Sem Idealize.ShloMosaic.StableHlo

variable {F : FTy → Type} [FloatOps F]

/-! ## The stages as arrays -/

/-- The exponential linear unit, elementwise on a 512×6 array: x where x > 0, else 1·expm1 of (x where x ≤ 0, else 0). -/
def eluArr (x : (⟨S512x6, .f32⟩ : BufTy).Contents (Elt F)) : (⟨S512x6, .f32⟩ : BufTy).Contents (Elt F) :=
  (select ((cmpf .ogt (x) ((broadcastInDim S512x6 ![] bcast_S_S512x6 ((constant (F := F) S_ .f32 0x00000000#32)))))) (x) ((mulf ((broadcastInDim S512x6 ![] bcast_S_S512x6 ((constant (F := F) S_ .f32 0x3F800000#32)))) ((Host.expm1 ((select ((cmpf .ogt (x) ((broadcastInDim S512x6 ![] bcast_S_S512x6 ((constant (F := F) S_ .f32 0x00000000#32)))))) ((broadcastInDim S512x6 ![] bcast_S_S512x6 (((constant (F := F) S_ .f32 0x00000000#32))))) (x))))))))

/-- The softplus, elementwise on a 512-vector: x + 0 where x - 0 is not a number, else max x 0 + log1p (exp (-|x - 0|)). -/
def softplusArr (x : (⟨S512, .f32⟩ : BufTy).Contents (Elt F)) : (⟨S512, .f32⟩ : BufTy).Contents (Elt F) :=
  (select ((cmpf .une ((subf (x) ((broadcastInDim S512 ![] bcast_S_S512 ((constant (F := F) S_ .f32 0x00000000#32)))))) ((subf (x) ((broadcastInDim S512 ![] bcast_S_S512 ((constant (F := F) S_ .f32 0x00000000#32)))))))) ((addf (x) ((broadcastInDim S512 ![] bcast_S_S512 ((constant (F := F) S_ .f32 0x00000000#32)))))) ((addf ((maximumf (x) ((broadcastInDim S512 ![] bcast_S_S512 ((constant (F := F) S_ .f32 0x00000000#32)))))) ((Host.log1p ((Host.exp ((Host.negf ((Host.absf ((subf (x) ((broadcastInDim S512 ![] bcast_S_S512 ((constant (F := F) S_ .f32 0x00000000#32)))))))))))))))))

def R_main_v4 (a0 : (⟨S512x256, .f32⟩ : BufTy).Contents (Elt F)) (a1 : (⟨S3x256, .f32⟩ : BufTy).Contents (Elt F)) (a2 : (⟨S3, .f32⟩ : BufTy).Contents (Elt F)) : (⟨S512x3, .f32⟩ : BufTy).Contents (Elt F) :=
  (addf ((Host.dotGeneral dot_S512x256_S256x3_S512x3_1_0_0_1_n_n none (a0) ((transpose S256x3 [1, 0] (a1) transposes_S3x256_S256x3_1_0)))) ((broadcastInDim S512x3 ![0, 1] bcast_S1x3_S512x3_0_1 ((broadcastInDim S1x3 ![1] bcast_S3_S1x3_1 (a2))))))

def R_main_v9 (a0 : (⟨S512x256, .f32⟩ : BufTy).Contents (Elt F)) (a3 : (⟨S6x256, .f32⟩ : BufTy).Contents (Elt F)) (a4 : (⟨S6, .f32⟩ : BufTy).Contents (Elt F)) : (⟨S512x6, .f32⟩ : BufTy).Contents (Elt F) :=
  (addf ((Host.dotGeneral dot_S512x256_S256x6_S512x6_1_0_0_1_n_n none (a0) ((transpose S256x6 [1, 0] (a3) transposes_S6x256_S256x6_1_0)))) ((broadcastInDim S512x6 ![0, 1] bcast_S1x6_S512x6_0_1 ((broadcastInDim S1x6 ![1] bcast_S6_S1x6_1 (a4))))))

def R_main_v12 (a0 : (⟨S512x256, .f32⟩ : BufTy).Contents (Elt F)) (a3 : (⟨S6x256, .f32⟩ : BufTy).Contents (Elt F)) (a4 : (⟨S6, .f32⟩ : BufTy).Contents (Elt F)) : (⟨S512x6, .f32⟩ : BufTy).Contents (Elt F) :=
  (addf (eluArr (F := F) (R_main_v9 (F := F) a0 a3 a4)) ((broadcastInDim S512x6 ![] bcast_S_S512x6 ((constant (F := F) S_ .f32 0x3F800000#32)))))

def R_main_v14 (a0 : (⟨S512x256, .f32⟩ : BufTy).Contents (Elt F)) (a3 : (⟨S6x256, .f32⟩ : BufTy).Contents (Elt F)) (a4 : (⟨S6, .f32⟩ : BufTy).Contents (Elt F)) : (⟨S512, .f32⟩ : BufTy).Contents (Elt F) :=
  (shapeCast S512 ((extractStridedSlice S512x1 ![0, 0] (R_main_v12 (F := F) a0 a3 a4) slices_S512x6_S512x1_0_0)) shapeCasts_S512x1_S512)

def R_main_v15 (a0 : (⟨S512x256, .f32⟩ : BufTy).Contents (Elt F)) (a3 : (⟨S6x256, .f32⟩ : BufTy).Contents (Elt F)) (a4 : (⟨S6, .f32⟩ : BufTy).Contents (Elt F)) : (⟨S512, .f32⟩ : BufTy).Contents (Elt F) :=
  softplusArr (F := F) (R_main_v14 (F := F) a0 a3 a4)

def R_main_v17 (a0 : (⟨S512x256, .f32⟩ : BufTy).Contents (Elt F)) (a3 : (⟨S6x256, .f32⟩ : BufTy).Contents (Elt F)) (a4 : (⟨S6, .f32⟩ : BufTy).Contents (Elt F)) : (⟨S512, .f32⟩ : BufTy).Contents (Elt F) :=
  (shapeCast S512 ((extractStridedSlice S512x1 ![0, 1] (R_main_v12 (F := F) a0 a3 a4) slices_S512x6_S512x1_0_1)) shapeCasts_S512x1_S512)

def R_main_v19 (a0 : (⟨S512x256, .f32⟩ : BufTy).Contents (Elt F)) (a3 : (⟨S6x256, .f32⟩ : BufTy).Contents (Elt F)) (a4 : (⟨S6, .f32⟩ : BufTy).Contents (Elt F)) : (⟨S512, .f32⟩ : BufTy).Contents (Elt F) :=
  (shapeCast S512 ((extractStridedSlice S512x1 ![0, 2] (R_main_v12 (F := F) a0 a3 a4) slices_S512x6_S512x1_0_2)) shapeCasts_S512x1_S512)

def R_main_v20 (a0 : (⟨S512x256, .f32⟩ : BufTy).Contents (Elt F)) (a3 : (⟨S6x256, .f32⟩ : BufTy).Contents (Elt F)) (a4 : (⟨S6, .f32⟩ : BufTy).Contents (Elt F)) : (⟨S512, .f32⟩ : BufTy).Contents (Elt F) :=
  softplusArr (F := F) (R_main_v19 (F := F) a0 a3 a4)

def R_main_v22 (a0 : (⟨S512x256, .f32⟩ : BufTy).Contents (Elt F)) (a3 : (⟨S6x256, .f32⟩ : BufTy).Contents (Elt F)) (a4 : (⟨S6, .f32⟩ : BufTy).Contents (Elt F)) : (⟨S512, .f32⟩ : BufTy).Contents (Elt F) :=
  (shapeCast S512 ((extractStridedSlice S512x1 ![0, 3] (R_main_v12 (F := F) a0 a3 a4) slices_S512x6_S512x1_0_3)) shapeCasts_S512x1_S512)

def R_main_v24 (a0 : (⟨S512x256, .f32⟩ : BufTy).Contents (Elt F)) (a3 : (⟨S6x256, .f32⟩ : BufTy).Contents (Elt F)) (a4 : (⟨S6, .f32⟩ : BufTy).Contents (Elt F)) : (⟨S512, .f32⟩ : BufTy).Contents (Elt F) :=
  (shapeCast S512 ((extractStridedSlice S512x1 ![0, 4] (R_main_v12 (F := F) a0 a3 a4) slices_S512x6_S512x1_0_4)) shapeCasts_S512x1_S512)

def R_main_v26 (a0 : (⟨S512x256, .f32⟩ : BufTy).Contents (Elt F)) (a3 : (⟨S6x256, .f32⟩ : BufTy).Contents (Elt F)) (a4 : (⟨S6, .f32⟩ : BufTy).Contents (Elt F)) : (⟨S512, .f32⟩ : BufTy).Contents (Elt F) :=
  (shapeCast S512 ((extractStridedSlice S512x1 ![0, 5] (R_main_v12 (F := F) a0 a3 a4) slices_S512x6_S512x1_0_5)) shapeCasts_S512x1_S512)

def R_main_v27 (a0 : (⟨S512x256, .f32⟩ : BufTy).Contents (Elt F)) (a3 : (⟨S6x256, .f32⟩ : BufTy).Contents (Elt F)) (a4 : (⟨S6, .f32⟩ : BufTy).Contents (Elt F)) : (⟨S512, .f32⟩ : BufTy).Contents (Elt F) :=
  softplusArr (F := F) (R_main_v26 (F := F) a0 a3 a4)

def R_main_v32 (a0 : (⟨S512x256, .f32⟩ : BufTy).Contents (Elt F)) (a1 : (⟨S3x256, .f32⟩ : BufTy).Contents (Elt F)) (a2 : (⟨S3, .f32⟩ : BufTy).Contents (Elt F)) (a5 : (⟨S65536x3, .f32⟩ : BufTy).Contents (Elt F)) : (⟨S512x65536x3, .f32⟩ : BufTy).Contents (Elt F) :=
  (subf ((broadcastInDim S512x65536x3 ![0, 1, 2] bcast_S1x65536x3_S512x65536x3_0_1_2 ((broadcastInDim S1x65536x3 ![1, 2] bcast_S65536x3_S1x65536x3_1_2 (a5))))) ((broadcastInDim S512x65536x3 ![0, 1, 2] bcast_S512x1x3_S512x65536x3_0_1_2 ((broadcastInDim S512x1x3 ![0, 2] bcast_S512x3_S512x1x3_0_2 (R_main_v4 (F := F) a0 a1 a2))))))

def R_main_v37 (a0 : (⟨S512x256, .f32⟩ : BufTy).Contents (Elt F)) (a1 : (⟨S3x256, .f32⟩ : BufTy).Contents (Elt F)) (a2 : (⟨S3, .f32⟩ : BufTy).Contents (Elt F)) (a3 : (⟨S6x256, .f32⟩ : BufTy).Contents (Elt F)) (a4 : (⟨S6, .f32⟩ : BufTy).Contents (Elt F)) (a5 : (⟨S65536x3, .f32⟩ : BufTy).Contents (Elt F)) : (⟨S512x65536, .f32⟩ : BufTy).Contents (Elt F) :=
  (Host.divf ((shapeCast S512x65536 ((extractStridedSlice S512x65536x1 ![0, 0, 0] (R_main_v32 (F := F) a0 a1 a2 a5) slices_S512x65536x3_S512x65536x1_0_0_0)) shapeCasts_S512x65536x1_S512x65536)) ((broadcastInDim S512x65536 ![0, 1] bcast_S512x1_S512x65536_0_1 ((broadcastInDim S512x1 ![0] bcast_S512_S512x1_0 (R_main_v15 (F := F) a0 a3 a4))))))

def R_main_v46 (a0 : (⟨S512x256, .f32⟩ : BufTy).Contents (Elt F)) (a1 : (⟨S3x256, .f32⟩ : BufTy).Contents (Elt F)) (a2 : (⟨S3, .f32⟩ : BufTy).Contents (Elt F)) (a3 : (⟨S6x256, .f32⟩ : BufTy).Contents (Elt F)) (a4 : (⟨S6, .f32⟩ : BufTy).Contents (Elt F)) (a5 : (⟨S65536x3, .f32⟩ : BufTy).Contents (Elt F)) : (⟨S512x65536, .f32⟩ : BufTy).Contents (Elt F) :=
  (Host.divf ((subf ((shapeCast S512x65536 ((extractStridedSlice S512x65536x1 ![0, 0, 1] (R_main_v32 (F := F) a0 a1 a2 a5) slices_S512x65536x3_S512x65536x1_0_0_1)) shapeCasts_S512x65536x1_S512x65536)) ((mulf ((broadcastInDim S512x65536 ![0, 1] bcast_S512x1_S512x65536_0_1 ((broadcastInDim S512x1 ![0] bcast_S512_S512x1_0 (R_main_v17 (F := F) a0 a3 a4))))) (R_main_v37 (F := F) a0 a1 a2 a3 a4 a5))))) ((broadcastInDim S512x65536 ![0, 1] bcast_S512x1_S512x65536_0_1 ((broadcastInDim S512x1 ![0] bcast_S512_S512x1_0 (R_main_v20 (F := F) a0 a3 a4))))))

def R_main_v59 (a0 : (⟨S512x256, .f32⟩ : BufTy).Contents (Elt F)) (a1 : (⟨S3x256, .f32⟩ : BufTy).Contents (Elt F)) (a2 : (⟨S3, .f32⟩ : BufTy).Contents (Elt F)) (a3 : (⟨S6x256, .f32⟩ : BufTy).Contents (Elt F)) (a4 : (⟨S6, .f32⟩ : BufTy).Contents (Elt F)) (a5 : (⟨S65536x3, .f32⟩ : BufTy).Contents (Elt F)) : (⟨S512x65536, .f32⟩ : BufTy).Contents (Elt F) :=
  (Host.divf ((subf ((subf ((shapeCast S512x65536 ((extractStridedSlice S512x65536x1 ![0, 0, 2] (R_main_v32 (F := F) a0 a1 a2 a5) slices_S512x65536x3_S512x65536x1_0_0_2)) shapeCasts_S512x65536x1_S512x65536)) ((mulf ((broadcastInDim S512x65536 ![0, 1] bcast_S512x1_S512x65536_0_1 ((broadcastInDim S512x1 ![0] bcast_S512_S512x1_0 (R_main_v22 (F := F) a0 a3 a4))))) (R_main_v37 (F := F) a0 a1 a2 a3 a4 a5))))) ((mulf ((broadcastInDim S512x65536 ![0, 1] bcast_S512x1_S512x65536_0_1 ((broadcastInDim S512x1 ![0] bcast_S512_S512x1_0 (R_main_v24 (F := F) a0 a3 a4))))) (R_main_v46 (F := F) a0 a1 a2 a3 a4 a5))))) ((broadcastInDim S512x65536 ![0, 1] bcast_S512x1_S512x65536_0_1 ((broadcastInDim S512x1 ![0] bcast_S512_S512x1_0 (R_main_v27 (F := F) a0 a3 a4))))))

def R_main_v64 (a0 : (⟨S512x256, .f32⟩ : BufTy).Contents (Elt F)) (a1 : (⟨S3x256, .f32⟩ : BufTy).Contents (Elt F)) (a2 : (⟨S3, .f32⟩ : BufTy).Contents (Elt F)) (a3 : (⟨S6x256, .f32⟩ : BufTy).Contents (Elt F)) (a4 : (⟨S6, .f32⟩ : BufTy).Contents (Elt F)) (a5 : (⟨S65536x3, .f32⟩ : BufTy).Contents (Elt F)) : (⟨S512x65536, .f32⟩ : BufTy).Contents (Elt F) :=
  (addf ((addf ((mulf (R_main_v37 (F := F) a0 a1 a2 a3 a4 a5) (R_main_v37 (F := F) a0 a1 a2 a3 a4 a5))) ((mulf (R_main_v46 (F := F) a0 a1 a2 a3 a4 a5) (R_main_v46 (F := F) a0 a1 a2 a3 a4 a5))))) ((mulf (R_main_v59 (F := F) a0 a1 a2 a3 a4 a5) (R_main_v59 (F := F) a0 a1 a2 a3 a4 a5))))

def R_main_v69 (a0 : (⟨S512x256, .f32⟩ : BufTy).Contents (Elt F)) (a3 : (⟨S6x256, .f32⟩ : BufTy).Contents (Elt F)) (a4 : (⟨S6, .f32⟩ : BufTy).Contents (Elt F)) : (⟨S512, .f32⟩ : BufTy).Contents (Elt F) :=
  (addf ((addf ((Host.log (R_main_v15 (F := F) a0 a3 a4))) ((Host.log (R_main_v20 (F := F) a0 a3 a4))))) ((Host.log (R_main_v27 (F := F) a0 a3 a4))))

def R_main_v76 (a0 : (⟨S512x256, .f32⟩ : BufTy).Contents (Elt F)) (a1 : (⟨S3x256, .f32⟩ : BufTy).Contents (Elt F)) (a2 : (⟨S3, .f32⟩ : BufTy).Contents (Elt F)) (a3 : (⟨S6x256, .f32⟩ : BufTy).Contents (Elt F)) (a4 : (⟨S6, .f32⟩ : BufTy).Contents (Elt F)) (a5 : (⟨S65536x3, .f32⟩ : BufTy).Contents (Elt F)) : (⟨S512x65536, .f32⟩ : BufTy).Contents (Elt F) :=
  (subf ((subf ((mulf ((broadcastInDim S512x65536 ![] bcast_S_S512x65536 ((constant (F := F) S_ .f32 0xBF000000#32)))) (R_main_v64 (F := F) a0 a1 a2 a3 a4 a5))) ((broadcastInDim S512x65536 ![] bcast_S_S512x65536 ((constant (F := F) S_ .f32 0x40306FAB#32)))))) ((broadcastInDim S512x65536 ![0, 1] bcast_S512x1_S512x65536_0_1 ((broadcastInDim S512x1 ![0] bcast_S512_S512x1_0 (R_main_v69 (F := F) a0 a3 a4))))))

def R_main_v77 (a0 : (⟨S512x256, .f32⟩ : BufTy).Contents (Elt F)) (a1 : (⟨S3x256, .f32⟩ : BufTy).Contents (Elt F)) (a2 : (⟨S3, .f32⟩ : BufTy).Contents (Elt F)) (a3 : (⟨S6x256, .f32⟩ : BufTy).Contents (Elt F)) (a4 : (⟨S6, .f32⟩ : BufTy).Contents (Elt F)) (a5 : (⟨S65536x3, .f32⟩ : BufTy).Contents (Elt F)) : (⟨S512, .f32⟩ : BufTy).Contents (Elt F) :=
  (Host.reduce FloatOps.maximumf (R_main_v76 (F := F) a0 a1 a2 a3 a4 a5) ((constant (F := F) S_ .f32 0xFF800000#32)) reducesTo_S512x65536_S512_d1 h_S_)

def R_main_v81 (a0 : (⟨S512x256, .f32⟩ : BufTy).Contents (Elt F)) (a1 : (⟨S3x256, .f32⟩ : BufTy).Contents (Elt F)) (a2 : (⟨S3, .f32⟩ : BufTy).Contents (Elt F)) (a3 : (⟨S6x256, .f32⟩ : BufTy).Contents (Elt F)) (a4 : (⟨S6, .f32⟩ : BufTy).Contents (Elt F)) (a5 : (⟨S65536x3, .f32⟩ : BufTy).Contents (Elt F)) : (⟨S512x65536, .f32⟩ : BufTy).Contents (Elt F) :=
  (Host.exp ((subf (R_main_v76 (F := F) a0 a1 a2 a3 a4 a5) ((broadcastInDim S512x65536 ![0, 1] bcast_S512x1_S512x65536_0_1 ((broadcastInDim S512x1 ![0] bcast_S512_S512x1_0 (R_main_v77 (F := F) a0 a1 a2 a3 a4 a5))))))))

def R_main_v82 (a0 : (⟨S512x256, .f32⟩ : BufTy).Contents (Elt F)) (a1 : (⟨S3x256, .f32⟩ : BufTy).Contents (Elt F)) (a2 : (⟨S3, .f32⟩ : BufTy).Contents (Elt F)) (a3 : (⟨S6x256, .f32⟩ : BufTy).Contents (Elt F)) (a4 : (⟨S6, .f32⟩ : BufTy).Contents (Elt F)) (a5 : (⟨S65536x3, .f32⟩ : BufTy).Contents (Elt F)) : (⟨S512, .f32⟩ : BufTy).Contents (Elt F) :=
  (Host.reduceAdd (R_main_v81 (F := F) a0 a1 a2 a3 a4 a5) ((constant (F := F) S_ .f32 0x00000000#32)) reducesTo_S512x65536_S512_d1 h_S_)

def R_main_v87 (a0 : (⟨S512x256, .f32⟩ : BufTy).Contents (Elt F)) (a1 : (⟨S3x256, .f32⟩ : BufTy).Contents (Elt F)) (a2 : (⟨S3, .f32⟩ : BufTy).Contents (Elt F)) (a3 : (⟨S6x256, .f32⟩ : BufTy).Contents (Elt F)) (a4 : (⟨S6, .f32⟩ : BufTy).Contents (Elt F)) (a5 : (⟨S65536x3, .f32⟩ : BufTy).Contents (Elt F)) : (⟨S512x65536, .f32⟩ : BufTy).Contents (Elt F) :=
  (Host.divf (R_main_v81 (F := F) a0 a1 a2 a3 a4 a5) ((broadcastInDim S512x65536 ![0, 1] bcast_S512x1_S512x65536_0_1 ((addf ((broadcastInDim S512x1 ![0] bcast_S512_S512x1_0 (R_main_v82 (F := F) a0 a1 a2 a3 a4 a5))) ((broadcastInDim S512x1 ![] bcast_S_S512x1 ((constant (F := F) S_ .f32 0x2EDBE6FF#32)))))))))

/-! ## The operations, window by window -/

abbrev part1 : List (HloOp τ sig (Elt F)) :=
  [ StableHlo.unary main_arg1 main_v0 ((transpose S256x3 [1, 0] · transposes_S3x256_S256x3_1_0) : (⟨S3x256, .f32⟩ : BufTy).Contents (Elt F) → (⟨S256x3, .f32⟩ : BufTy).Contents (Elt F)),
    StableHlo.binary main_arg0 main_v0 main_v1 ((fun l r => Host.dotGeneral dot_S512x256_S256x3_S512x3_1_0_0_1_n_n none l r) : (⟨S512x256, .f32⟩ : BufTy).Contents (Elt F) → (⟨S256x3, .f32⟩ : BufTy).Contents (Elt F) → (⟨S512x3, .f32⟩ : BufTy).Contents (Elt F)),
    StableHlo.unary main_arg2 main_v2 (broadcastInDim S1x3 ![1] bcast_S3_S1x3_1 : (⟨S3, .f32⟩ : BufTy).Contents (Elt F) → (⟨S1x3, .f32⟩ : BufTy).Contents (Elt F)),
    StableHlo.unary main_v2 main_v3 (broadcastInDim S512x3 ![0, 1] bcast_S1x3_S512x3_0_1 : (⟨S1x3, .f32⟩ : BufTy).Contents (Elt F) → (⟨S512x3, .f32⟩ : BufTy).Contents (Elt F)),
    StableHlo.binary main_v1 main_v3 main_v4 (addf : (⟨S512x3, .f32⟩ : BufTy).Contents (Elt F) → (⟨S512x3, .f32⟩ : BufTy).Contents (Elt F) → (⟨S512x3, .f32⟩ : BufTy).Contents (Elt F)),
    StableHlo.unary main_arg3 main_v5 ((transpose S256x6 [1, 0] · transposes_S6x256_S256x6_1_0) : (⟨S6x256, .f32⟩ : BufTy).Contents (Elt F) → (⟨S256x6, .f32⟩ : BufTy).Contents (Elt F)),
    StableHlo.binary main_arg0 main_v5 main_v6 ((fun l r => Host.dotGeneral dot_S512x256_S256x6_S512x6_1_0_0_1_n_n none l r) : (⟨S512x256, .f32⟩ : BufTy).Contents (Elt F) → (⟨S256x6, .f32⟩ : BufTy).Contents (Elt F) → (⟨S512x6, .f32⟩ : BufTy).Contents (Elt F)),
    StableHlo.unary main_arg4 main_v7 (broadcastInDim S1x6 ![1] bcast_S6_S1x6_1 : (⟨S6, .f32⟩ : BufTy).Contents (Elt F) → (⟨S1x6, .f32⟩ : BufTy).Contents (Elt F)),
    StableHlo.unary main_v7 main_v8 (broadcastInDim S512x6 ![0, 1] bcast_S1x6_S512x6_0_1 : (⟨S1x6, .f32⟩ : BufTy).Contents (Elt F) → (⟨S512x6, .f32⟩ : BufTy).Contents (Elt F)),
    StableHlo.binary main_v6 main_v8 main_v9 (addf : (⟨S512x6, .f32⟩ : BufTy).Contents (Elt F) → (⟨S512x6, .f32⟩ : BufTy).Contents (Elt F) → (⟨S512x6, .f32⟩ : BufTy).Contents (Elt F)) ]

abbrev part2 : List (HloOp τ sig (Elt F)) :=
  [ StableHlo.TRef.nullary main_call0.cst (constant S_ .f32 0x00000000#32),
    StableHlo.TRef.unary main_call0.cst main_call0.v0 (broadcastInDim S512x6 ![] bcast_S_S512x6),
    StableHlo.TRef.binary (.of main_v9 : StableHlo.TRef sig ⟨S512x6, .f32⟩) main_call0.v0 main_call0.v1 (cmpf .ogt),
    StableHlo.TRef.nullary main_call0.cst_0 (constant S_ .f32 0x00000000#32),
    StableHlo.TRef.unary main_call0.cst_0 main_call0.v2 (broadcastInDim S512x6 ![] bcast_S_S512x6),
    StableHlo.TRef.binary (.of main_v9 : StableHlo.TRef sig ⟨S512x6, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S512x6 ![] bcast_S_S512x6),
    StableHlo.TRef.ternary main_call0.v3 main_call0.call0.v1 (.of main_v9 : StableHlo.TRef sig ⟨S512x6, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S512x6 ![] bcast_S_S512x6),
    StableHlo.TRef.binary main_call0.v6 main_call0.v5 main_call0.v7 mulf,
    StableHlo.TRef.ternary main_call0.v1 (.of main_v9 : StableHlo.TRef sig ⟨S512x6, .f32⟩) main_call0.v7 main_call0.call1.v0 select,
    StableHlo.nullary main_cst (constant S_ .f32 0x3F800000#32),
    StableHlo.unary main_cst main_v11 (broadcastInDim S512x6 ![] bcast_S_S512x6 : (⟨S_, .f32⟩ : BufTy).Contents (Elt F) → (⟨S512x6, .f32⟩ : BufTy).Contents (Elt F)),
    StableHlo.binary main_v10 main_v11 main_v12 (addf : (⟨S512x6, .f32⟩ : BufTy).Contents (Elt F) → (⟨S512x6, .f32⟩ : BufTy).Contents (Elt F) → (⟨S512x6, .f32⟩ : BufTy).Contents (Elt F)) ]

abbrev part3 : List (HloOp τ sig (Elt F)) :=
  [ StableHlo.unary main_v12 main_v13 ((extractStridedSlice S512x1 ![0, 0] · slices_S512x6_S512x1_0_0) : (⟨S512x6, .f32⟩ : BufTy).Contents (Elt F) → (⟨S512x1, .f32⟩ : BufTy).Contents (Elt F)),
    StableHlo.reshape main_v13 main_v14 rfl shapeCasts_S512x1_S512 ]

abbrev part4 : List (HloOp τ sig (Elt F)) :=
  [ StableHlo.TRef.nullary main_call1.cst (constant S_ .f32 0x00000000#32),
    StableHlo.TRef.unary main_call1.cst main_call1.v0 (broadcastInDim S512 ![] bcast_S_S512),
    StableHlo.TRef.binary (.of main_v14 : StableHlo.TRef sig ⟨S512, .f32⟩) main_call1.v0 main_call1.v1 maximumf,
    StableHlo.TRef.unary main_call1.cst main_call1.v2 (broadcastInDim S512 ![] bcast_S_S512),
    StableHlo.TRef.binary (.of main_v14 : StableHlo.TRef sig ⟨S512, .f32⟩) main_call1.v2 main_call1.v3 subf,
    StableHlo.TRef.binary main_call1.v3 main_call1.v3 main_call1.v4 (cmpf .une),
    StableHlo.TRef.unary main_call1.cst main_call1.v5 (broadcastInDim S512 ![] bcast_S_S512),
    StableHlo.TRef.binary (.of main_v14 : StableHlo.TRef sig ⟨S512, .f32⟩) main_call1.v5 main_call1.v6 addf,
    StableHlo.TRef.unary main_call1.v3 main_call1.v7 Host.absf,
    StableHlo.TRef.unary main_call1.v7 main_call1.v8 Host.negf,
    StableHlo.TRef.unary main_call1.v8 main_call1.v9 Host.exp,
    StableHlo.TRef.unary main_call1.v9 main_call1.v10 Host.log1p,
    StableHlo.TRef.binary main_call1.v1 main_call1.v10 main_call1.v11 addf,
    StableHlo.TRef.ternary main_call1.v4 main_call1.v6 main_call1.v11 main_call1.v12 select ]

abbrev part5 : List (HloOp τ sig (Elt F)) :=
  [ StableHlo.unary main_v12 main_v16 ((extractStridedSlice S512x1 ![0, 1] · slices_S512x6_S512x1_0_1) : (⟨S512x6, .f32⟩ : BufTy).Contents (Elt F) → (⟨S512x1, .f32⟩ : BufTy).Contents (Elt F)),
    StableHlo.reshape main_v16 main_v17 rfl shapeCasts_S512x1_S512,
    StableHlo.unary main_v12 main_v18 ((extractStridedSlice S512x1 ![0, 2] · slices_S512x6_S512x1_0_2) : (⟨S512x6, .f32⟩ : BufTy).Contents (Elt F) → (⟨S512x1, .f32⟩ : BufTy).Contents (Elt F)),
    StableHlo.reshape main_v18 main_v19 rfl shapeCasts_S512x1_S512 ]

abbrev part6 : List (HloOp τ sig (Elt F)) :=
  [ StableHlo.TRef.nullary main_call2.cst (constant S_ .f32 0x00000000#32),
    StableHlo.TRef.unary main_call2.cst main_call2.v0 (broadcastInDim S512 ![] bcast_S_S512),
    StableHlo.TRef.binary (.of main_v19 : StableHlo.TRef sig ⟨S512, .f32⟩) main_call2.v0 main_call2.v1 maximumf,
    StableHlo.TRef.unary main_call2.cst main_call2.v2 (broadcastInDim S512 ![] bcast_S_S512),
    StableHlo.TRef.binary (.of main_v19 : StableHlo.TRef sig ⟨S512, .f32⟩) main_call2.v2 main_call2.v3 subf,
    StableHlo.TRef.binary main_call2.v3 main_call2.v3 main_call2.v4 (cmpf .une),
    StableHlo.TRef.unary main_call2.cst main_call2.v5 (broadcastInDim S512 ![] bcast_S_S512),
    StableHlo.TRef.binary (.of main_v19 : StableHlo.TRef sig ⟨S512, .f32⟩) main_call2.v5 main_call2.v6 addf,
    StableHlo.TRef.unary main_call2.v3 main_call2.v7 Host.absf,
    StableHlo.TRef.unary main_call2.v7 main_call2.v8 Host.negf,
    StableHlo.TRef.unary main_call2.v8 main_call2.v9 Host.exp,
    StableHlo.TRef.unary main_call2.v9 main_call2.v10 Host.log1p,
    StableHlo.TRef.binary main_call2.v1 main_call2.v10 main_call2.v11 addf,
    StableHlo.TRef.ternary main_call2.v4 main_call2.v6 main_call2.v11 main_call2.v12 select ]

abbrev part7 : List (HloOp τ sig (Elt F)) :=
  [ StableHlo.unary main_v12 main_v21 ((extractStridedSlice S512x1 ![0, 3] · slices_S512x6_S512x1_0_3) : (⟨S512x6, .f32⟩ : BufTy).Contents (Elt F) → (⟨S512x1, .f32⟩ : BufTy).Contents (Elt F)),
    StableHlo.reshape main_v21 main_v22 rfl shapeCasts_S512x1_S512,
    StableHlo.unary main_v12 main_v23 ((extractStridedSlice S512x1 ![0, 4] · slices_S512x6_S512x1_0_4) : (⟨S512x6, .f32⟩ : BufTy).Contents (Elt F) → (⟨S512x1, .f32⟩ : BufTy).Contents (Elt F)),
    StableHlo.reshape main_v23 main_v24 rfl shapeCasts_S512x1_S512,
    StableHlo.unary main_v12 main_v25 ((extractStridedSlice S512x1 ![0, 5] · slices_S512x6_S512x1_0_5) : (⟨S512x6, .f32⟩ : BufTy).Contents (Elt F) → (⟨S512x1, .f32⟩ : BufTy).Contents (Elt F)),
    StableHlo.reshape main_v25 main_v26 rfl shapeCasts_S512x1_S512 ]

abbrev part8 : List (HloOp τ sig (Elt F)) :=
  [ StableHlo.TRef.nullary main_call3.cst (constant S_ .f32 0x00000000#32),
    StableHlo.TRef.unary main_call3.cst main_call3.v0 (broadcastInDim S512 ![] bcast_S_S512),
    StableHlo.TRef.binary (.of main_v26 : StableHlo.TRef sig ⟨S512, .f32⟩) main_call3.v0 main_call3.v1 maximumf,
    StableHlo.TRef.unary main_call3.cst main_call3.v2 (broadcastInDim S512 ![] bcast_S_S512),
    StableHlo.TRef.binary (.of main_v26 : StableHlo.TRef sig ⟨S512, .f32⟩) main_call3.v2 main_call3.v3 subf,
    StableHlo.TRef.binary main_call3.v3 main_call3.v3 main_call3.v4 (cmpf .une),
    StableHlo.TRef.unary main_call3.cst main_call3.v5 (broadcastInDim S512 ![] bcast_S_S512),
    StableHlo.TRef.binary (.of main_v26 : StableHlo.TRef sig ⟨S512, .f32⟩) main_call3.v5 main_call3.v6 addf,
    StableHlo.TRef.unary main_call3.v3 main_call3.v7 Host.absf,
    StableHlo.TRef.unary main_call3.v7 main_call3.v8 Host.negf,
    StableHlo.TRef.unary main_call3.v8 main_call3.v9 Host.exp,
    StableHlo.TRef.unary main_call3.v9 main_call3.v10 Host.log1p,
    StableHlo.TRef.binary main_call3.v1 main_call3.v10 main_call3.v11 addf,
    StableHlo.TRef.ternary main_call3.v4 main_call3.v6 main_call3.v11 main_call3.v12 select ]

abbrev part9 : List (HloOp τ sig (Elt F)) :=
  [ StableHlo.unary main_arg5 main_v28 (broadcastInDim S1x65536x3 ![1, 2] bcast_S65536x3_S1x65536x3_1_2 : (⟨S65536x3, .f32⟩ : BufTy).Contents (Elt F) → (⟨S1x65536x3, .f32⟩ : BufTy).Contents (Elt F)),
    StableHlo.unary main_v4 main_v29 (broadcastInDim S512x1x3 ![0, 2] bcast_S512x3_S512x1x3_0_2 : (⟨S512x3, .f32⟩ : BufTy).Contents (Elt F) → (⟨S512x1x3, .f32⟩ : BufTy).Contents (Elt F)),
    StableHlo.unary main_v28 main_v30 (broadcastInDim S512x65536x3 ![0, 1, 2] bcast_S1x65536x3_S512x65536x3_0_1_2 : (⟨S1x65536x3, .f32⟩ : BufTy).Contents (Elt F) → (⟨S512x65536x3, .f32⟩ : BufTy).Contents (Elt F)),
    StableHlo.unary main_v29 main_v31 (broadcastInDim S512x65536x3 ![0, 1, 2] bcast_S512x1x3_S512x65536x3_0_1_2 : (⟨S512x1x3, .f32⟩ : BufTy).Contents (Elt F) → (⟨S512x65536x3, .f32⟩ : BufTy).Contents (Elt F)),
    StableHlo.binary main_v30 main_v31 main_v32 (subf : (⟨S512x65536x3, .f32⟩ : BufTy).Contents (Elt F) → (⟨S512x65536x3, .f32⟩ : BufTy).Contents (Elt F) → (⟨S512x65536x3, .f32⟩ : BufTy).Contents (Elt F)) ]

abbrev part10 : List (HloOp τ sig (Elt F)) :=
  [ StableHlo.unary main_v32 main_v33 ((extractStridedSlice S512x65536x1 ![0, 0, 0] · slices_S512x65536x3_S512x65536x1_0_0_0) : (⟨S512x65536x3, .f32⟩ : BufTy).Contents (Elt F) → (⟨S512x65536x1, .f32⟩ : BufTy).Contents (Elt F)),
    StableHlo.reshape main_v33 main_v34 rfl shapeCasts_S512x65536x1_S512x65536,
    StableHlo.unary main_v15 main_v35 (broadcastInDim S512x1 ![0] bcast_S512_S512x1_0 : (⟨S512, .f32⟩ : BufTy).Contents (Elt F) → (⟨S512x1, .f32⟩ : BufTy).Contents (Elt F)),
    StableHlo.unary main_v35 main_v36 (broadcastInDim S512x65536 ![0, 1] bcast_S512x1_S512x65536_0_1 : (⟨S512x1, .f32⟩ : BufTy).Contents (Elt F) → (⟨S512x65536, .f32⟩ : BufTy).Contents (Elt F)),
    StableHlo.binary main_v34 main_v36 main_v37 (Host.divf : (⟨S512x65536, .f32⟩ : BufTy).Contents (Elt F) → (⟨S512x65536, .f32⟩ : BufTy).Contents (Elt F) → (⟨S512x65536, .f32⟩ : BufTy).Contents (Elt F)) ]

abbrev part11 : List (HloOp τ sig (Elt F)) :=
  [ StableHlo.unary main_v32 main_v38 ((extractStridedSlice S512x65536x1 ![0, 0, 1] · slices_S512x65536x3_S512x65536x1_0_0_1) : (⟨S512x65536x3, .f32⟩ : BufTy).Contents (Elt F) → (⟨S512x65536x1, .f32⟩ : BufTy).Contents (Elt F)),
    StableHlo.reshape main_v38 main_v39 rfl shapeCasts_S512x65536x1_S512x65536,
    StableHlo.unary main_v17 main_v40 (broadcastInDim S512x1 ![0] bcast_S512_S512x1_0 : (⟨S512, .f32⟩ : BufTy).Contents (Elt F) → (⟨S512x1, .f32⟩ : BufTy).Contents (Elt F)),
    StableHlo.unary main_v40 main_v41 (broadcastInDim S512x65536 ![0, 1] bcast_S512x1_S512x65536_0_1 : (⟨S512x1, .f32⟩ : BufTy).Contents (Elt F) → (⟨S512x65536, .f32⟩ : BufTy).Contents (Elt F)),
    StableHlo.binary main_v41 main_v37 main_v42 (mulf : (⟨S512x65536, .f32⟩ : BufTy).Contents (Elt F) → (⟨S512x65536, .f32⟩ : BufTy).Contents (Elt F) → (⟨S512x65536, .f32⟩ : BufTy).Contents (Elt F)),
    StableHlo.binary main_v39 main_v42 main_v43 (subf : (⟨S512x65536, .f32⟩ : BufTy).Contents (Elt F) → (⟨S512x65536, .f32⟩ : BufTy).Contents (Elt F) → (⟨S512x65536, .f32⟩ : BufTy).Contents (Elt F)),
    StableHlo.unary main_v20 main_v44 (broadcastInDim S512x1 ![0] bcast_S512_S512x1_0 : (⟨S512, .f32⟩ : BufTy).Contents (Elt F) → (⟨S512x1, .f32⟩ : BufTy).Contents (Elt F)),
    StableHlo.unary main_v44 main_v45 (broadcastInDim S512x65536 ![0, 1] bcast_S512x1_S512x65536_0_1 : (⟨S512x1, .f32⟩ : BufTy).Contents (Elt F) → (⟨S512x65536, .f32⟩ : BufTy).Contents (Elt F)),
    StableHlo.binary main_v43 main_v45 main_v46 (Host.divf : (⟨S512x65536, .f32⟩ : BufTy).Contents (Elt F) → (⟨S512x65536, .f32⟩ : BufTy).Contents (Elt F) → (⟨S512x65536, .f32⟩ : BufTy).Contents (Elt F)) ]

abbrev part12 : List (HloOp τ sig (Elt F)) :=
  [ StableHlo.unary main_v32 main_v47 ((extractStridedSlice S512x65536x1 ![0, 0, 2] · slices_S512x65536x3_S512x65536x1_0_0_2) : (⟨S512x65536x3, .f32⟩ : BufTy).Contents (Elt F) → (⟨S512x65536x1, .f32⟩ : BufTy).Contents (Elt F)),
    StableHlo.reshape main_v47 main_v48 rfl shapeCasts_S512x65536x1_S512x65536,
    StableHlo.unary main_v22 main_v49 (broadcastInDim S512x1 ![0] bcast_S512_S512x1_0 : (⟨S512, .f32⟩ : BufTy).Contents (Elt F) → (⟨S512x1, .f32⟩ : BufTy).Contents (Elt F)),
    StableHlo.unary main_v49 main_v50 (broadcastInDim S512x65536 ![0, 1] bcast_S512x1_S512x65536_0_1 : (⟨S512x1, .f32⟩ : BufTy).Contents (Elt F) → (⟨S512x65536, .f32⟩ : BufTy).Contents (Elt F)),
    StableHlo.binary main_v50 main_v37 main_v51 (mulf : (⟨S512x65536, .f32⟩ : BufTy).Contents (Elt F) → (⟨S512x65536, .f32⟩ : BufTy).Contents (Elt F) → (⟨S512x65536, .f32⟩ : BufTy).Contents (Elt F)),
    StableHlo.binary main_v48 main_v51 main_v52 (subf : (⟨S512x65536, .f32⟩ : BufTy).Contents (Elt F) → (⟨S512x65536, .f32⟩ : BufTy).Contents (Elt F) → (⟨S512x65536, .f32⟩ : BufTy).Contents (Elt F)),
    StableHlo.unary main_v24 main_v53 (broadcastInDim S512x1 ![0] bcast_S512_S512x1_0 : (⟨S512, .f32⟩ : BufTy).Contents (Elt F) → (⟨S512x1, .f32⟩ : BufTy).Contents (Elt F)),
    StableHlo.unary main_v53 main_v54 (broadcastInDim S512x65536 ![0, 1] bcast_S512x1_S512x65536_0_1 : (⟨S512x1, .f32⟩ : BufTy).Contents (Elt F) → (⟨S512x65536, .f32⟩ : BufTy).Contents (Elt F)),
    StableHlo.binary main_v54 main_v46 main_v55 (mulf : (⟨S512x65536, .f32⟩ : BufTy).Contents (Elt F) → (⟨S512x65536, .f32⟩ : BufTy).Contents (Elt F) → (⟨S512x65536, .f32⟩ : BufTy).Contents (Elt F)),
    StableHlo.binary main_v52 main_v55 main_v56 (subf : (⟨S512x65536, .f32⟩ : BufTy).Contents (Elt F) → (⟨S512x65536, .f32⟩ : BufTy).Contents (Elt F) → (⟨S512x65536, .f32⟩ : BufTy).Contents (Elt F)),
    StableHlo.unary main_v27 main_v57 (broadcastInDim S512x1 ![0] bcast_S512_S512x1_0 : (⟨S512, .f32⟩ : BufTy).Contents (Elt F) → (⟨S512x1, .f32⟩ : BufTy).Contents (Elt F)),
    StableHlo.unary main_v57 main_v58 (broadcastInDim S512x65536 ![0, 1] bcast_S512x1_S512x65536_0_1 : (⟨S512x1, .f32⟩ : BufTy).Contents (Elt F) → (⟨S512x65536, .f32⟩ : BufTy).Contents (Elt F)),
    StableHlo.binary main_v56 main_v58 main_v59 (Host.divf : (⟨S512x65536, .f32⟩ : BufTy).Contents (Elt F) → (⟨S512x65536, .f32⟩ : BufTy).Contents (Elt F) → (⟨S512x65536, .f32⟩ : BufTy).Contents (Elt F)) ]

abbrev part13 : List (HloOp τ sig (Elt F)) :=
  [ StableHlo.binary main_v37 main_v37 main_v60 (mulf : (⟨S512x65536, .f32⟩ : BufTy).Contents (Elt F) → (⟨S512x65536, .f32⟩ : BufTy).Contents (Elt F) → (⟨S512x65536, .f32⟩ : BufTy).Contents (Elt F)),
    StableHlo.binary main_v46 main_v46 main_v61 (mulf : (⟨S512x65536, .f32⟩ : BufTy).Contents (Elt F) → (⟨S512x65536, .f32⟩ : BufTy).Contents (Elt F) → (⟨S512x65536, .f32⟩ : BufTy).Contents (Elt F)),
    StableHlo.binary main_v60 main_v61 main_v62 (addf : (⟨S512x65536, .f32⟩ : BufTy).Contents (Elt F) → (⟨S512x65536, .f32⟩ : BufTy).Contents (Elt F) → (⟨S512x65536, .f32⟩ : BufTy).Contents (Elt F)),
    StableHlo.binary main_v59 main_v59 main_v63 (mulf : (⟨S512x65536, .f32⟩ : BufTy).Contents (Elt F) → (⟨S512x65536, .f32⟩ : BufTy).Contents (Elt F) → (⟨S512x65536, .f32⟩ : BufTy).Contents (Elt F)),
    StableHlo.binary main_v62 main_v63 main_v64 (addf : (⟨S512x65536, .f32⟩ : BufTy).Contents (Elt F) → (⟨S512x65536, .f32⟩ : BufTy).Contents (Elt F) → (⟨S512x65536, .f32⟩ : BufTy).Contents (Elt F)) ]

abbrev part14 : List (HloOp τ sig (Elt F)) :=
  [ StableHlo.unary main_v15 main_v65 (Host.log : (⟨S512, .f32⟩ : BufTy).Contents (Elt F) → (⟨S512, .f32⟩ : BufTy).Contents (Elt F)),
    StableHlo.unary main_v20 main_v66 (Host.log : (⟨S512, .f32⟩ : BufTy).Contents (Elt F) → (⟨S512, .f32⟩ : BufTy).Contents (Elt F)),
    StableHlo.binary main_v65 main_v66 main_v67 (addf : (⟨S512, .f32⟩ : BufTy).Contents (Elt F) → (⟨S512, .f32⟩ : BufTy).Contents (Elt F) → (⟨S512, .f32⟩ : BufTy).Contents (Elt F)),
    StableHlo.unary main_v27 main_v68 (Host.log : (⟨S512, .f32⟩ : BufTy).Contents (Elt F) → (⟨S512, .f32⟩ : BufTy).Contents (Elt F)),
    StableHlo.binary main_v67 main_v68 main_v69 (addf : (⟨S512, .f32⟩ : BufTy).Contents (Elt F) → (⟨S512, .f32⟩ : BufTy).Contents (Elt F) → (⟨S512, .f32⟩ : BufTy).Contents (Elt F)) ]

abbrev part15 : List (HloOp τ sig (Elt F)) :=
  [ StableHlo.nullary main_cst_0 (constant S_ .f32 0xBF000000#32),
    StableHlo.unary main_cst_0 main_v70 (broadcastInDim S512x65536 ![] bcast_S_S512x65536 : (⟨S_, .f32⟩ : BufTy).Contents (Elt F) → (⟨S512x65536, .f32⟩ : BufTy).Contents (Elt F)),
    StableHlo.binary main_v70 main_v64 main_v71 (mulf : (⟨S512x65536, .f32⟩ : BufTy).Contents (Elt F) → (⟨S512x65536, .f32⟩ : BufTy).Contents (Elt F) → (⟨S512x65536, .f32⟩ : BufTy).Contents (Elt F)),
    StableHlo.nullary main_cst_1 (constant S_ .f32 0x40306FAB#32),
    StableHlo.unary main_cst_1 main_v72 (broadcastInDim S512x65536 ![] bcast_S_S512x65536 : (⟨S_, .f32⟩ : BufTy).Contents (Elt F) → (⟨S512x65536, .f32⟩ : BufTy).Contents (Elt F)),
    StableHlo.binary main_v71 main_v72 main_v73 (subf : (⟨S512x65536, .f32⟩ : BufTy).Contents (Elt F) → (⟨S512x65536, .f32⟩ : BufTy).Contents (Elt F) → (⟨S512x65536, .f32⟩ : BufTy).Contents (Elt F)),
    StableHlo.unary main_v69 main_v74 (broadcastInDim S512x1 ![0] bcast_S512_S512x1_0 : (⟨S512, .f32⟩ : BufTy).Contents (Elt F) → (⟨S512x1, .f32⟩ : BufTy).Contents (Elt F)),
    StableHlo.unary main_v74 main_v75 (broadcastInDim S512x65536 ![0, 1] bcast_S512x1_S512x65536_0_1 : (⟨S512x1, .f32⟩ : BufTy).Contents (Elt F) → (⟨S512x65536, .f32⟩ : BufTy).Contents (Elt F)),
    StableHlo.binary main_v73 main_v75 main_v76 (subf : (⟨S512x65536, .f32⟩ : BufTy).Contents (Elt F) → (⟨S512x65536, .f32⟩ : BufTy).Contents (Elt F) → (⟨S512x65536, .f32⟩ : BufTy).Contents (Elt F)) ]

abbrev part16 : List (HloOp τ sig (Elt F)) :=
  [ StableHlo.nullary main_cst_2 (constant S_ .f32 0xFF800000#32),
    StableHlo.binary main_v76 main_cst_2 main_v77 ((fun x v => Host.reduce FloatOps.maximumf x v reducesTo_S512x65536_S512_d1 h_S_) : (⟨S512x65536, .f32⟩ : BufTy).Contents (Elt F) → (⟨S_, .f32⟩ : BufTy).Contents (Elt F) → (⟨S512, .f32⟩ : BufTy).Contents (Elt F)) ]

abbrev part17 : List (HloOp τ sig (Elt F)) :=
  [ StableHlo.unary main_v77 main_v78 (broadcastInDim S512x1 ![0] bcast_S512_S512x1_0 : (⟨S512, .f32⟩ : BufTy).Contents (Elt F) → (⟨S512x1, .f32⟩ : BufTy).Contents (Elt F)),
    StableHlo.unary main_v78 main_v79 (broadcastInDim S512x65536 ![0, 1] bcast_S512x1_S512x65536_0_1 : (⟨S512x1, .f32⟩ : BufTy).Contents (Elt F) → (⟨S512x65536, .f32⟩ : BufTy).Contents (Elt F)),
    StableHlo.binary main_v76 main_v79 main_v80 (subf : (⟨S512x65536, .f32⟩ : BufTy).Contents (Elt F) → (⟨S512x65536, .f32⟩ : BufTy).Contents (Elt F) → (⟨S512x65536, .f32⟩ : BufTy).Contents (Elt F)),
    StableHlo.unary main_v80 main_v81 (Host.exp : (⟨S512x65536, .f32⟩ : BufTy).Contents (Elt F) → (⟨S512x65536, .f32⟩ : BufTy).Contents (Elt F)) ]

abbrev part18 : List (HloOp τ sig (Elt F)) :=
  [ StableHlo.nullary main_cst_3 (constant S_ .f32 0x00000000#32),
    StableHlo.binary main_v81 main_cst_3 main_v82 ((fun x v => Host.reduceAdd x v reducesTo_S512x65536_S512_d1 h_S_) : (⟨S512x65536, .f32⟩ : BufTy).Contents (Elt F) → (⟨S_, .f32⟩ : BufTy).Contents (Elt F) → (⟨S512, .f32⟩ : BufTy).Contents (Elt F)) ]

abbrev part19 : List (HloOp τ sig (Elt F)) :=
  [ StableHlo.unary main_v82 main_v83 (broadcastInDim S512x1 ![0] bcast_S512_S512x1_0 : (⟨S512, .f32⟩ : BufTy).Contents (Elt F) → (⟨S512x1, .f32⟩ : BufTy).Contents (Elt F)),
    StableHlo.nullary main_cst_4 (constant S_ .f32 0x2EDBE6FF#32),
    StableHlo.unary main_cst_4 main_v84 (broadcastInDim S512x1 ![] bcast_S_S512x1 : (⟨S_, .f32⟩ : BufTy).Contents (Elt F) → (⟨S512x1, .f32⟩ : BufTy).Contents (Elt F)),
    StableHlo.binary main_v83 main_v84 main_v85 (addf : (⟨S512x1, .f32⟩ : BufTy).Contents (Elt F) → (⟨S512x1, .f32⟩ : BufTy).Contents (Elt F) → (⟨S512x1, .f32⟩ : BufTy).Contents (Elt F)),
    StableHlo.unary main_v85 main_v86 (broadcastInDim S512x65536 ![0, 1] bcast_S512x1_S512x65536_0_1 : (⟨S512x1, .f32⟩ : BufTy).Contents (Elt F) → (⟨S512x65536, .f32⟩ : BufTy).Contents (Elt F)),
    StableHlo.binary main_v81 main_v86 main_v87 (Host.divf : (⟨S512x65536, .f32⟩ : BufTy).Contents (Elt F) → (⟨S512x65536, .f32⟩ : BufTy).Contents (Elt F) → (⟨S512x65536, .f32⟩ : BufTy).Contents (Elt F)) ]

set_option maxRecDepth 8192 in
/-- The entry function's operations are the windows, in order. -/
theorem ops_split : (RefRun.ops : List (HloOp τ sig (Elt F))) = part1 ++ (part2 ++ (part3 ++ (part4 ++ (part5 ++ (part6 ++ (part7 ++ (part8 ++ (part9 ++ (part10 ++ (part11 ++ (part12 ++ (part13 ++ (part14 ++ (part15 ++ (part16 ++ (part17 ++ (part18 ++ (part19)))))))))))))))))) := by
  simp only [RefRun.ops, part1, part2, part3, part4, part5, part6, part7, part8, part9, part10, part11, part12, part13, part14, part15, part16, part17, part18, part19, List.cons_append, List.nil_append]

/-- The buffers' contents before the first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl

/-- The buffers' contents after the first 1 window. -/
def val1 (V0 : Valuation τ sig (Elt F)) : Valuation τ sig (Elt F) := after part1 (val0 V0)
abbrev part1_W : List (Ref sig .tc) := [main_v0, main_v1, main_v2, main_v3, main_v4, main_v5, main_v6, main_v7, main_v8, main_v9]
theorem part1_writes : (part1 : List (HloOp τ sig (Elt F))).Forall fun op => op.writes ⊆ (part1_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> (refine List.mem_map_of_mem ?_; decide)
theorem val1_keep (V0 : Valuation τ sig (Elt F)) (r : Ref sig .tc) (h : r ∉ part1_W) :
    val1 V0 (Proc.devRef .tc r) = val0 V0 (Proc.devRef .tc r) :=
  after_of_writes_sub part1 _ part1_writes h
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_v4 (V0 : Valuation τ sig (Elt F)) : val1 V0 (no_index (Proc.devRef .tc main_v4)) = R_main_v4 (F := F) (V0 (Proc.devRef .tc main_arg0)) (V0 (Proc.devRef .tc main_arg1)) (V0 (Proc.devRef .tc main_arg2)) := by
  unfold val1
  simp only [part1]
  after_results_simp
  simp only [val0_main_arg2, val0_main_arg1, val0_main_arg0] <;> rfl
theorem val1_main_v9 (V0 : Valuation τ sig (Elt F)) : val1 V0 (no_index (Proc.devRef .tc main_v9)) = R_main_v9 (F := F) (V0 (Proc.devRef .tc main_arg0)) (V0 (Proc.devRef .tc main_arg3)) (V0 (Proc.devRef .tc main_arg4)) := by
  unfold val1
  simp only [part1]
  after_results_simp
  simp only [val0_main_arg4, val0_main_arg3, val0_main_arg0] <;> rfl

/-- The buffers' contents after the first 2 windows. -/
def val2 (V0 : Valuation τ sig (Elt F)) : Valuation τ sig (Elt F) := after part2 (val1 V0)
abbrev part2_W : List (Ref sig .tc) := [main_call0_cst, main_call0_v0, main_call0_v1, main_call0_cst_0, main_call0_v2, main_call0_v3, main_call0_cst_1, main_call0_call0_v0, main_call0_call0_v1, main_call0_v4, main_call0_v5, main_call0_cst_2, main_call0_v6, main_call0_v7, main_v10, main_cst, main_v11, main_v12]
theorem part2_writes : (part2 : List (HloOp τ sig (Elt F))).Forall fun op => op.writes ⊆ (part2_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> (refine List.mem_map_of_mem ?_; decide)
theorem val2_keep (V0 : Valuation τ sig (Elt F)) (r : Ref sig .tc) (h : r ∉ part2_W) :
    val2 V0 (Proc.devRef .tc r) = val1 V0 (Proc.devRef .tc r) :=
  after_of_writes_sub part2 _ part2_writes h
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_v4 (V0 : Valuation τ sig (Elt F)) : val2 V0 (no_index (Proc.devRef .tc main_v4)) = R_main_v4 (F := F) (V0 (Proc.devRef .tc main_arg0)) (V0 (Proc.devRef .tc main_arg1)) (V0 (Proc.devRef .tc main_arg2)) :=
  (val2_keep V0 main_v4 (by decide)).trans (val1_main_v4 V0)
theorem val2_main_v12 (V0 : Valuation τ sig (Elt F)) : val2 V0 (no_index (Proc.devRef .tc main_v12)) = R_main_v12 (F := F) (V0 (Proc.devRef .tc main_arg0)) (V0 (Proc.devRef .tc main_arg3)) (V0 (Proc.devRef .tc main_arg4)) := by
  unfold val2
  simp only [part2]
  after_results_simp
  simp only [val1_main_v9] <;> rfl

/-- The buffers' contents after the first 3 windows. -/
def val3 (V0 : Valuation τ sig (Elt F)) : Valuation τ sig (Elt F) := after part3 (val2 V0)
abbrev part3_W : List (Ref sig .tc) := [main_v13, main_v14]
theorem part3_writes : (part3 : List (HloOp τ sig (Elt F))).Forall fun op => op.writes ⊆ (part3_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> (refine List.mem_map_of_mem ?_; decide)
theorem val3_keep (V0 : Valuation τ sig (Elt F)) (r : Ref sig .tc) (h : r ∉ part3_W) :
    val3 V0 (Proc.devRef .tc r) = val2 V0 (Proc.devRef .tc r) :=
  after_of_writes_sub part3 _ part3_writes h
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_v4 (V0 : Valuation τ sig (Elt F)) : val3 V0 (no_index (Proc.devRef .tc main_v4)) = R_main_v4 (F := F) (V0 (Proc.devRef .tc main_arg0)) (V0 (Proc.devRef .tc main_arg1)) (V0 (Proc.devRef .tc main_arg2)) :=
  (val3_keep V0 main_v4 (by decide)).trans (val2_main_v4 V0)
theorem val3_main_v12 (V0 : Valuation τ sig (Elt F)) : val3 V0 (no_index (Proc.devRef .tc main_v12)) = R_main_v12 (F := F) (V0 (Proc.devRef .tc main_arg0)) (V0 (Proc.devRef .tc main_arg3)) (V0 (Proc.devRef .tc main_arg4)) :=
  (val3_keep V0 main_v12 (by decide)).trans (val2_main_v12 V0)
theorem val3_main_v14 (V0 : Valuation τ sig (Elt F)) : val3 V0 (no_index (Proc.devRef .tc main_v14)) = R_main_v14 (F := F) (V0 (Proc.devRef .tc main_arg0)) (V0 (Proc.devRef .tc main_arg3)) (V0 (Proc.devRef .tc main_arg4)) := by
  unfold val3
  simp only [part3]
  after_results_simp
  simp only [val2_main_v12] <;> rfl

/-- The buffers' contents after the first 4 windows. -/
def val4 (V0 : Valuation τ sig (Elt F)) : Valuation τ sig (Elt F) := after part4 (val3 V0)
abbrev part4_W : List (Ref sig .tc) := [main_call1_cst, main_call1_v0, main_call1_v1, main_call1_v2, main_call1_v3, main_call1_v4, main_call1_v5, main_call1_v6, main_call1_v7, main_call1_v8, main_call1_v9, main_call1_v10, main_call1_v11, main_v15]
theorem part4_writes : (part4 : List (HloOp τ sig (Elt F))).Forall fun op => op.writes ⊆ (part4_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> (refine List.mem_map_of_mem ?_; decide)
theorem val4_keep (V0 : Valuation τ sig (Elt F)) (r : Ref sig .tc) (h : r ∉ part4_W) :
    val4 V0 (Proc.devRef .tc r) = val3 V0 (Proc.devRef .tc r) :=
  after_of_writes_sub part4 _ part4_writes h
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_v4 (V0 : Valuation τ sig (Elt F)) : val4 V0 (no_index (Proc.devRef .tc main_v4)) = R_main_v4 (F := F) (V0 (Proc.devRef .tc main_arg0)) (V0 (Proc.devRef .tc main_arg1)) (V0 (Proc.devRef .tc main_arg2)) :=
  (val4_keep V0 main_v4 (by decide)).trans (val3_main_v4 V0)
theorem val4_main_v12 (V0 : Valuation τ sig (Elt F)) : val4 V0 (no_index (Proc.devRef .tc main_v12)) = R_main_v12 (F := F) (V0 (Proc.devRef .tc main_arg0)) (V0 (Proc.devRef .tc main_arg3)) (V0 (Proc.devRef .tc main_arg4)) :=
  (val4_keep V0 main_v12 (by decide)).trans (val3_main_v12 V0)
theorem val4_main_v15 (V0 : Valuation τ sig (Elt F)) : val4 V0 (no_index (Proc.devRef .tc main_v15)) = R_main_v15 (F := F) (V0 (Proc.devRef .tc main_arg0)) (V0 (Proc.devRef .tc main_arg3)) (V0 (Proc.devRef .tc main_arg4)) := by
  unfold val4
  simp only [part4]
  after_results_simp
  simp only [val3_main_v14] <;> rfl

/-- The buffers' contents after the first 5 windows. -/
def val5 (V0 : Valuation τ sig (Elt F)) : Valuation τ sig (Elt F) := after part5 (val4 V0)
abbrev part5_W : List (Ref sig .tc) := [main_v16, main_v17, main_v18, main_v19]
theorem part5_writes : (part5 : List (HloOp τ sig (Elt F))).Forall fun op => op.writes ⊆ (part5_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> (refine List.mem_map_of_mem ?_; decide)
theorem val5_keep (V0 : Valuation τ sig (Elt F)) (r : Ref sig .tc) (h : r ∉ part5_W) :
    val5 V0 (Proc.devRef .tc r) = val4 V0 (Proc.devRef .tc r) :=
  after_of_writes_sub part5 _ part5_writes h
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_v4 (V0 : Valuation τ sig (Elt F)) : val5 V0 (no_index (Proc.devRef .tc main_v4)) = R_main_v4 (F := F) (V0 (Proc.devRef .tc main_arg0)) (V0 (Proc.devRef .tc main_arg1)) (V0 (Proc.devRef .tc main_arg2)) :=
  (val5_keep V0 main_v4 (by decide)).trans (val4_main_v4 V0)
theorem val5_main_v12 (V0 : Valuation τ sig (Elt F)) : val5 V0 (no_index (Proc.devRef .tc main_v12)) = R_main_v12 (F := F) (V0 (Proc.devRef .tc main_arg0)) (V0 (Proc.devRef .tc main_arg3)) (V0 (Proc.devRef .tc main_arg4)) :=
  (val5_keep V0 main_v12 (by decide)).trans (val4_main_v12 V0)
theorem val5_main_v15 (V0 : Valuation τ sig (Elt F)) : val5 V0 (no_index (Proc.devRef .tc main_v15)) = R_main_v15 (F := F) (V0 (Proc.devRef .tc main_arg0)) (V0 (Proc.devRef .tc main_arg3)) (V0 (Proc.devRef .tc main_arg4)) :=
  (val5_keep V0 main_v15 (by decide)).trans (val4_main_v15 V0)
theorem val5_main_v17 (V0 : Valuation τ sig (Elt F)) : val5 V0 (no_index (Proc.devRef .tc main_v17)) = R_main_v17 (F := F) (V0 (Proc.devRef .tc main_arg0)) (V0 (Proc.devRef .tc main_arg3)) (V0 (Proc.devRef .tc main_arg4)) := by
  unfold val5
  simp only [part5]
  after_results_simp
  simp only [val4_main_v12] <;> rfl
theorem val5_main_v19 (V0 : Valuation τ sig (Elt F)) : val5 V0 (no_index (Proc.devRef .tc main_v19)) = R_main_v19 (F := F) (V0 (Proc.devRef .tc main_arg0)) (V0 (Proc.devRef .tc main_arg3)) (V0 (Proc.devRef .tc main_arg4)) := by
  unfold val5
  simp only [part5]
  after_results_simp
  simp only [val4_main_v12] <;> rfl

/-- The buffers' contents after the first 6 windows. -/
def val6 (V0 : Valuation τ sig (Elt F)) : Valuation τ sig (Elt F) := after part6 (val5 V0)
abbrev part6_W : List (Ref sig .tc) := [main_call2_cst, main_call2_v0, main_call2_v1, main_call2_v2, main_call2_v3, main_call2_v4, main_call2_v5, main_call2_v6, main_call2_v7, main_call2_v8, main_call2_v9, main_call2_v10, main_call2_v11, main_v20]
theorem part6_writes : (part6 : List (HloOp τ sig (Elt F))).Forall fun op => op.writes ⊆ (part6_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> (refine List.mem_map_of_mem ?_; decide)
theorem val6_keep (V0 : Valuation τ sig (Elt F)) (r : Ref sig .tc) (h : r ∉ part6_W) :
    val6 V0 (Proc.devRef .tc r) = val5 V0 (Proc.devRef .tc r) :=
  after_of_writes_sub part6 _ part6_writes h
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_v4 (V0 : Valuation τ sig (Elt F)) : val6 V0 (no_index (Proc.devRef .tc main_v4)) = R_main_v4 (F := F) (V0 (Proc.devRef .tc main_arg0)) (V0 (Proc.devRef .tc main_arg1)) (V0 (Proc.devRef .tc main_arg2)) :=
  (val6_keep V0 main_v4 (by decide)).trans (val5_main_v4 V0)
theorem val6_main_v12 (V0 : Valuation τ sig (Elt F)) : val6 V0 (no_index (Proc.devRef .tc main_v12)) = R_main_v12 (F := F) (V0 (Proc.devRef .tc main_arg0)) (V0 (Proc.devRef .tc main_arg3)) (V0 (Proc.devRef .tc main_arg4)) :=
  (val6_keep V0 main_v12 (by decide)).trans (val5_main_v12 V0)
theorem val6_main_v15 (V0 : Valuation τ sig (Elt F)) : val6 V0 (no_index (Proc.devRef .tc main_v15)) = R_main_v15 (F := F) (V0 (Proc.devRef .tc main_arg0)) (V0 (Proc.devRef .tc main_arg3)) (V0 (Proc.devRef .tc main_arg4)) :=
  (val6_keep V0 main_v15 (by decide)).trans (val5_main_v15 V0)
theorem val6_main_v17 (V0 : Valuation τ sig (Elt F)) : val6 V0 (no_index (Proc.devRef .tc main_v17)) = R_main_v17 (F := F) (V0 (Proc.devRef .tc main_arg0)) (V0 (Proc.devRef .tc main_arg3)) (V0 (Proc.devRef .tc main_arg4)) :=
  (val6_keep V0 main_v17 (by decide)).trans (val5_main_v17 V0)
theorem val6_main_v20 (V0 : Valuation τ sig (Elt F)) : val6 V0 (no_index (Proc.devRef .tc main_v20)) = R_main_v20 (F := F) (V0 (Proc.devRef .tc main_arg0)) (V0 (Proc.devRef .tc main_arg3)) (V0 (Proc.devRef .tc main_arg4)) := by
  unfold val6
  simp only [part6]
  after_results_simp
  simp only [val5_main_v19] <;> rfl

/-- The buffers' contents after the first 7 windows. -/
def val7 (V0 : Valuation τ sig (Elt F)) : Valuation τ sig (Elt F) := after part7 (val6 V0)
abbrev part7_W : List (Ref sig .tc) := [main_v21, main_v22, main_v23, main_v24, main_v25, main_v26]
theorem part7_writes : (part7 : List (HloOp τ sig (Elt F))).Forall fun op => op.writes ⊆ (part7_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> (refine List.mem_map_of_mem ?_; decide)
theorem val7_keep (V0 : Valuation τ sig (Elt F)) (r : Ref sig .tc) (h : r ∉ part7_W) :
    val7 V0 (Proc.devRef .tc r) = val6 V0 (Proc.devRef .tc r) :=
  after_of_writes_sub part7 _ part7_writes h
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_v4 (V0 : Valuation τ sig (Elt F)) : val7 V0 (no_index (Proc.devRef .tc main_v4)) = R_main_v4 (F := F) (V0 (Proc.devRef .tc main_arg0)) (V0 (Proc.devRef .tc main_arg1)) (V0 (Proc.devRef .tc main_arg2)) :=
  (val7_keep V0 main_v4 (by decide)).trans (val6_main_v4 V0)
theorem val7_main_v15 (V0 : Valuation τ sig (Elt F)) : val7 V0 (no_index (Proc.devRef .tc main_v15)) = R_main_v15 (F := F) (V0 (Proc.devRef .tc main_arg0)) (V0 (Proc.devRef .tc main_arg3)) (V0 (Proc.devRef .tc main_arg4)) :=
  (val7_keep V0 main_v15 (by decide)).trans (val6_main_v15 V0)
theorem val7_main_v17 (V0 : Valuation τ sig (Elt F)) : val7 V0 (no_index (Proc.devRef .tc main_v17)) = R_main_v17 (F := F) (V0 (Proc.devRef .tc main_arg0)) (V0 (Proc.devRef .tc main_arg3)) (V0 (Proc.devRef .tc main_arg4)) :=
  (val7_keep V0 main_v17 (by decide)).trans (val6_main_v17 V0)
theorem val7_main_v20 (V0 : Valuation τ sig (Elt F)) : val7 V0 (no_index (Proc.devRef .tc main_v20)) = R_main_v20 (F := F) (V0 (Proc.devRef .tc main_arg0)) (V0 (Proc.devRef .tc main_arg3)) (V0 (Proc.devRef .tc main_arg4)) :=
  (val7_keep V0 main_v20 (by decide)).trans (val6_main_v20 V0)
theorem val7_main_v22 (V0 : Valuation τ sig (Elt F)) : val7 V0 (no_index (Proc.devRef .tc main_v22)) = R_main_v22 (F := F) (V0 (Proc.devRef .tc main_arg0)) (V0 (Proc.devRef .tc main_arg3)) (V0 (Proc.devRef .tc main_arg4)) := by
  unfold val7
  simp only [part7]
  after_results_simp
  simp only [val6_main_v12] <;> rfl
theorem val7_main_v24 (V0 : Valuation τ sig (Elt F)) : val7 V0 (no_index (Proc.devRef .tc main_v24)) = R_main_v24 (F := F) (V0 (Proc.devRef .tc main_arg0)) (V0 (Proc.devRef .tc main_arg3)) (V0 (Proc.devRef .tc main_arg4)) := by
  unfold val7
  simp only [part7]
  after_results_simp
  simp only [val6_main_v12] <;> rfl
theorem val7_main_v26 (V0 : Valuation τ sig (Elt F)) : val7 V0 (no_index (Proc.devRef .tc main_v26)) = R_main_v26 (F := F) (V0 (Proc.devRef .tc main_arg0)) (V0 (Proc.devRef .tc main_arg3)) (V0 (Proc.devRef .tc main_arg4)) := by
  unfold val7
  simp only [part7]
  after_results_simp
  simp only [val6_main_v12] <;> rfl

/-- The buffers' contents after the first 8 windows. -/
def val8 (V0 : Valuation τ sig (Elt F)) : Valuation τ sig (Elt F) := after part8 (val7 V0)
abbrev part8_W : List (Ref sig .tc) := [main_call3_cst, main_call3_v0, main_call3_v1, main_call3_v2, main_call3_v3, main_call3_v4, main_call3_v5, main_call3_v6, main_call3_v7, main_call3_v8, main_call3_v9, main_call3_v10, main_call3_v11, main_v27]
theorem part8_writes : (part8 : List (HloOp τ sig (Elt F))).Forall fun op => op.writes ⊆ (part8_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> (refine List.mem_map_of_mem ?_; decide)
theorem val8_keep (V0 : Valuation τ sig (Elt F)) (r : Ref sig .tc) (h : r ∉ part8_W) :
    val8 V0 (Proc.devRef .tc r) = val7 V0 (Proc.devRef .tc r) :=
  after_of_writes_sub part8 _ part8_writes h
theorem val8_main_arg5 (V0 : Valuation τ sig (Elt F)) : val8 V0 (no_index (Proc.devRef .tc main_arg5)) = V0 (Proc.devRef .tc main_arg5) :=
  (val8_keep V0 main_arg5 (by decide)).trans (val7_main_arg5 V0)
theorem val8_main_v4 (V0 : Valuation τ sig (Elt F)) : val8 V0 (no_index (Proc.devRef .tc main_v4)) = R_main_v4 (F := F) (V0 (Proc.devRef .tc main_arg0)) (V0 (Proc.devRef .tc main_arg1)) (V0 (Proc.devRef .tc main_arg2)) :=
  (val8_keep V0 main_v4 (by decide)).trans (val7_main_v4 V0)
theorem val8_main_v15 (V0 : Valuation τ sig (Elt F)) : val8 V0 (no_index (Proc.devRef .tc main_v15)) = R_main_v15 (F := F) (V0 (Proc.devRef .tc main_arg0)) (V0 (Proc.devRef .tc main_arg3)) (V0 (Proc.devRef .tc main_arg4)) :=
  (val8_keep V0 main_v15 (by decide)).trans (val7_main_v15 V0)
theorem val8_main_v17 (V0 : Valuation τ sig (Elt F)) : val8 V0 (no_index (Proc.devRef .tc main_v17)) = R_main_v17 (F := F) (V0 (Proc.devRef .tc main_arg0)) (V0 (Proc.devRef .tc main_arg3)) (V0 (Proc.devRef .tc main_arg4)) :=
  (val8_keep V0 main_v17 (by decide)).trans (val7_main_v17 V0)
theorem val8_main_v20 (V0 : Valuation τ sig (Elt F)) : val8 V0 (no_index (Proc.devRef .tc main_v20)) = R_main_v20 (F := F) (V0 (Proc.devRef .tc main_arg0)) (V0 (Proc.devRef .tc main_arg3)) (V0 (Proc.devRef .tc main_arg4)) :=
  (val8_keep V0 main_v20 (by decide)).trans (val7_main_v20 V0)
theorem val8_main_v22 (V0 : Valuation τ sig (Elt F)) : val8 V0 (no_index (Proc.devRef .tc main_v22)) = R_main_v22 (F := F) (V0 (Proc.devRef .tc main_arg0)) (V0 (Proc.devRef .tc main_arg3)) (V0 (Proc.devRef .tc main_arg4)) :=
  (val8_keep V0 main_v22 (by decide)).trans (val7_main_v22 V0)
theorem val8_main_v24 (V0 : Valuation τ sig (Elt F)) : val8 V0 (no_index (Proc.devRef .tc main_v24)) = R_main_v24 (F := F) (V0 (Proc.devRef .tc main_arg0)) (V0 (Proc.devRef .tc main_arg3)) (V0 (Proc.devRef .tc main_arg4)) :=
  (val8_keep V0 main_v24 (by decide)).trans (val7_main_v24 V0)
theorem val8_main_v27 (V0 : Valuation τ sig (Elt F)) : val8 V0 (no_index (Proc.devRef .tc main_v27)) = R_main_v27 (F := F) (V0 (Proc.devRef .tc main_arg0)) (V0 (Proc.devRef .tc main_arg3)) (V0 (Proc.devRef .tc main_arg4)) := by
  unfold val8
  simp only [part8]
  after_results_simp
  simp only [val7_main_v26] <;> rfl

/-- The buffers' contents after the first 9 windows. -/
def val9 (V0 : Valuation τ sig (Elt F)) : Valuation τ sig (Elt F) := after part9 (val8 V0)
abbrev part9_W : List (Ref sig .tc) := [main_v28, main_v29, main_v30, main_v31, main_v32]
theorem part9_writes : (part9 : List (HloOp τ sig (Elt F))).Forall fun op => op.writes ⊆ (part9_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> (refine List.mem_map_of_mem ?_; decide)
theorem val9_keep (V0 : Valuation τ sig (Elt F)) (r : Ref sig .tc) (h : r ∉ part9_W) :
    val9 V0 (Proc.devRef .tc r) = val8 V0 (Proc.devRef .tc r) :=
  after_of_writes_sub part9 _ part9_writes h
theorem val9_main_v15 (V0 : Valuation τ sig (Elt F)) : val9 V0 (no_index (Proc.devRef .tc main_v15)) = R_main_v15 (F := F) (V0 (Proc.devRef .tc main_arg0)) (V0 (Proc.devRef .tc main_arg3)) (V0 (Proc.devRef .tc main_arg4)) :=
  (val9_keep V0 main_v15 (by decide)).trans (val8_main_v15 V0)
theorem val9_main_v17 (V0 : Valuation τ sig (Elt F)) : val9 V0 (no_index (Proc.devRef .tc main_v17)) = R_main_v17 (F := F) (V0 (Proc.devRef .tc main_arg0)) (V0 (Proc.devRef .tc main_arg3)) (V0 (Proc.devRef .tc main_arg4)) :=
  (val9_keep V0 main_v17 (by decide)).trans (val8_main_v17 V0)
theorem val9_main_v20 (V0 : Valuation τ sig (Elt F)) : val9 V0 (no_index (Proc.devRef .tc main_v20)) = R_main_v20 (F := F) (V0 (Proc.devRef .tc main_arg0)) (V0 (Proc.devRef .tc main_arg3)) (V0 (Proc.devRef .tc main_arg4)) :=
  (val9_keep V0 main_v20 (by decide)).trans (val8_main_v20 V0)
theorem val9_main_v22 (V0 : Valuation τ sig (Elt F)) : val9 V0 (no_index (Proc.devRef .tc main_v22)) = R_main_v22 (F := F) (V0 (Proc.devRef .tc main_arg0)) (V0 (Proc.devRef .tc main_arg3)) (V0 (Proc.devRef .tc main_arg4)) :=
  (val9_keep V0 main_v22 (by decide)).trans (val8_main_v22 V0)
theorem val9_main_v24 (V0 : Valuation τ sig (Elt F)) : val9 V0 (no_index (Proc.devRef .tc main_v24)) = R_main_v24 (F := F) (V0 (Proc.devRef .tc main_arg0)) (V0 (Proc.devRef .tc main_arg3)) (V0 (Proc.devRef .tc main_arg4)) :=
  (val9_keep V0 main_v24 (by decide)).trans (val8_main_v24 V0)
theorem val9_main_v27 (V0 : Valuation τ sig (Elt F)) : val9 V0 (no_index (Proc.devRef .tc main_v27)) = R_main_v27 (F := F) (V0 (Proc.devRef .tc main_arg0)) (V0 (Proc.devRef .tc main_arg3)) (V0 (Proc.devRef .tc main_arg4)) :=
  (val9_keep V0 main_v27 (by decide)).trans (val8_main_v27 V0)
theorem val9_main_v32 (V0 : Valuation τ sig (Elt F)) : val9 V0 (no_index (Proc.devRef .tc main_v32)) = R_main_v32 (F := F) (V0 (Proc.devRef .tc main_arg0)) (V0 (Proc.devRef .tc main_arg1)) (V0 (Proc.devRef .tc main_arg2)) (V0 (Proc.devRef .tc main_arg5)) := by
  unfold val9
  simp only [part9]
  after_results_simp
  simp only [val8_main_v4, val8_main_arg5] <;> rfl

/-- The buffers' contents after the first 10 windows. -/
def val10 (V0 : Valuation τ sig (Elt F)) : Valuation τ sig (Elt F) := after part10 (val9 V0)
abbrev part10_W : List (Ref sig .tc) := [main_v33, main_v34, main_v35, main_v36, main_v37]
theorem part10_writes : (part10 : List (HloOp τ sig (Elt F))).Forall fun op => op.writes ⊆ (part10_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> (refine List.mem_map_of_mem ?_; decide)
theorem val10_keep (V0 : Valuation τ sig (Elt F)) (r : Ref sig .tc) (h : r ∉ part10_W) :
    val10 V0 (Proc.devRef .tc r) = val9 V0 (Proc.devRef .tc r) :=
  after_of_writes_sub part10 _ part10_writes h
theorem val10_main_v15 (V0 : Valuation τ sig (Elt F)) : val10 V0 (no_index (Proc.devRef .tc main_v15)) = R_main_v15 (F := F) (V0 (Proc.devRef .tc main_arg0)) (V0 (Proc.devRef .tc main_arg3)) (V0 (Proc.devRef .tc main_arg4)) :=
  (val10_keep V0 main_v15 (by decide)).trans (val9_main_v15 V0)
theorem val10_main_v17 (V0 : Valuation τ sig (Elt F)) : val10 V0 (no_index (Proc.devRef .tc main_v17)) = R_main_v17 (F := F) (V0 (Proc.devRef .tc main_arg0)) (V0 (Proc.devRef .tc main_arg3)) (V0 (Proc.devRef .tc main_arg4)) :=
  (val10_keep V0 main_v17 (by decide)).trans (val9_main_v17 V0)
theorem val10_main_v20 (V0 : Valuation τ sig (Elt F)) : val10 V0 (no_index (Proc.devRef .tc main_v20)) = R_main_v20 (F := F) (V0 (Proc.devRef .tc main_arg0)) (V0 (Proc.devRef .tc main_arg3)) (V0 (Proc.devRef .tc main_arg4)) :=
  (val10_keep V0 main_v20 (by decide)).trans (val9_main_v20 V0)
theorem val10_main_v22 (V0 : Valuation τ sig (Elt F)) : val10 V0 (no_index (Proc.devRef .tc main_v22)) = R_main_v22 (F := F) (V0 (Proc.devRef .tc main_arg0)) (V0 (Proc.devRef .tc main_arg3)) (V0 (Proc.devRef .tc main_arg4)) :=
  (val10_keep V0 main_v22 (by decide)).trans (val9_main_v22 V0)
theorem val10_main_v24 (V0 : Valuation τ sig (Elt F)) : val10 V0 (no_index (Proc.devRef .tc main_v24)) = R_main_v24 (F := F) (V0 (Proc.devRef .tc main_arg0)) (V0 (Proc.devRef .tc main_arg3)) (V0 (Proc.devRef .tc main_arg4)) :=
  (val10_keep V0 main_v24 (by decide)).trans (val9_main_v24 V0)
theorem val10_main_v27 (V0 : Valuation τ sig (Elt F)) : val10 V0 (no_index (Proc.devRef .tc main_v27)) = R_main_v27 (F := F) (V0 (Proc.devRef .tc main_arg0)) (V0 (Proc.devRef .tc main_arg3)) (V0 (Proc.devRef .tc main_arg4)) :=
  (val10_keep V0 main_v27 (by decide)).trans (val9_main_v27 V0)
theorem val10_main_v32 (V0 : Valuation τ sig (Elt F)) : val10 V0 (no_index (Proc.devRef .tc main_v32)) = R_main_v32 (F := F) (V0 (Proc.devRef .tc main_arg0)) (V0 (Proc.devRef .tc main_arg1)) (V0 (Proc.devRef .tc main_arg2)) (V0 (Proc.devRef .tc main_arg5)) :=
  (val10_keep V0 main_v32 (by decide)).trans (val9_main_v32 V0)
theorem val10_main_v37 (V0 : Valuation τ sig (Elt F)) : val10 V0 (no_index (Proc.devRef .tc main_v37)) = R_main_v37 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val10
  simp only [part10]
  after_results_simp
  simp only [val9_main_v15, val9_main_v32] <;> rfl

/-- The buffers' contents after the first 11 windows. -/
def val11 (V0 : Valuation τ sig (Elt F)) : Valuation τ sig (Elt F) := after part11 (val10 V0)
abbrev part11_W : List (Ref sig .tc) := [main_v38, main_v39, main_v40, main_v41, main_v42, main_v43, main_v44, main_v45, main_v46]
theorem part11_writes : (part11 : List (HloOp τ sig (Elt F))).Forall fun op => op.writes ⊆ (part11_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> (refine List.mem_map_of_mem ?_; decide)
theorem val11_keep (V0 : Valuation τ sig (Elt F)) (r : Ref sig .tc) (h : r ∉ part11_W) :
    val11 V0 (Proc.devRef .tc r) = val10 V0 (Proc.devRef .tc r) :=
  after_of_writes_sub part11 _ part11_writes h
theorem val11_main_v15 (V0 : Valuation τ sig (Elt F)) : val11 V0 (no_index (Proc.devRef .tc main_v15)) = R_main_v15 (F := F) (V0 (Proc.devRef .tc main_arg0)) (V0 (Proc.devRef .tc main_arg3)) (V0 (Proc.devRef .tc main_arg4)) :=
  (val11_keep V0 main_v15 (by decide)).trans (val10_main_v15 V0)
theorem val11_main_v20 (V0 : Valuation τ sig (Elt F)) : val11 V0 (no_index (Proc.devRef .tc main_v20)) = R_main_v20 (F := F) (V0 (Proc.devRef .tc main_arg0)) (V0 (Proc.devRef .tc main_arg3)) (V0 (Proc.devRef .tc main_arg4)) :=
  (val11_keep V0 main_v20 (by decide)).trans (val10_main_v20 V0)
theorem val11_main_v22 (V0 : Valuation τ sig (Elt F)) : val11 V0 (no_index (Proc.devRef .tc main_v22)) = R_main_v22 (F := F) (V0 (Proc.devRef .tc main_arg0)) (V0 (Proc.devRef .tc main_arg3)) (V0 (Proc.devRef .tc main_arg4)) :=
  (val11_keep V0 main_v22 (by decide)).trans (val10_main_v22 V0)
theorem val11_main_v24 (V0 : Valuation τ sig (Elt F)) : val11 V0 (no_index (Proc.devRef .tc main_v24)) = R_main_v24 (F := F) (V0 (Proc.devRef .tc main_arg0)) (V0 (Proc.devRef .tc main_arg3)) (V0 (Proc.devRef .tc main_arg4)) :=
  (val11_keep V0 main_v24 (by decide)).trans (val10_main_v24 V0)
theorem val11_main_v27 (V0 : Valuation τ sig (Elt F)) : val11 V0 (no_index (Proc.devRef .tc main_v27)) = R_main_v27 (F := F) (V0 (Proc.devRef .tc main_arg0)) (V0 (Proc.devRef .tc main_arg3)) (V0 (Proc.devRef .tc main_arg4)) :=
  (val11_keep V0 main_v27 (by decide)).trans (val10_main_v27 V0)
theorem val11_main_v32 (V0 : Valuation τ sig (Elt F)) : val11 V0 (no_index (Proc.devRef .tc main_v32)) = R_main_v32 (F := F) (V0 (Proc.devRef .tc main_arg0)) (V0 (Proc.devRef .tc main_arg1)) (V0 (Proc.devRef .tc main_arg2)) (V0 (Proc.devRef .tc main_arg5)) :=
  (val11_keep V0 main_v32 (by decide)).trans (val10_main_v32 V0)
theorem val11_main_v37 (V0 : Valuation τ sig (Elt F)) : val11 V0 (no_index (Proc.devRef .tc main_v37)) = R_main_v37 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) :=
  (val11_keep V0 main_v37 (by decide)).trans (val10_main_v37 V0)
theorem val11_main_v46 (V0 : Valuation τ sig (Elt F)) : val11 V0 (no_index (Proc.devRef .tc main_v46)) = R_main_v46 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val11
  simp only [part11]
  after_results_simp
  simp only [val10_main_v20, val10_main_v37, val10_main_v17, val10_main_v32] <;> rfl

/-- The buffers' contents after the first 12 windows. -/
def val12 (V0 : Valuation τ sig (Elt F)) : Valuation τ sig (Elt F) := after part12 (val11 V0)
abbrev part12_W : List (Ref sig .tc) := [main_v47, main_v48, main_v49, main_v50, main_v51, main_v52, main_v53, main_v54, main_v55, main_v56, main_v57, main_v58, main_v59]
theorem part12_writes : (part12 : List (HloOp τ sig (Elt F))).Forall fun op => op.writes ⊆ (part12_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> (refine List.mem_map_of_mem ?_; decide)
theorem val12_keep (V0 : Valuation τ sig (Elt F)) (r : Ref sig .tc) (h : r ∉ part12_W) :
    val12 V0 (Proc.devRef .tc r) = val11 V0 (Proc.devRef .tc r) :=
  after_of_writes_sub part12 _ part12_writes h
theorem val12_main_v15 (V0 : Valuation τ sig (Elt F)) : val12 V0 (no_index (Proc.devRef .tc main_v15)) = R_main_v15 (F := F) (V0 (Proc.devRef .tc main_arg0)) (V0 (Proc.devRef .tc main_arg3)) (V0 (Proc.devRef .tc main_arg4)) :=
  (val12_keep V0 main_v15 (by decide)).trans (val11_main_v15 V0)
theorem val12_main_v20 (V0 : Valuation τ sig (Elt F)) : val12 V0 (no_index (Proc.devRef .tc main_v20)) = R_main_v20 (F := F) (V0 (Proc.devRef .tc main_arg0)) (V0 (Proc.devRef .tc main_arg3)) (V0 (Proc.devRef .tc main_arg4)) :=
  (val12_keep V0 main_v20 (by decide)).trans (val11_main_v20 V0)
theorem val12_main_v27 (V0 : Valuation τ sig (Elt F)) : val12 V0 (no_index (Proc.devRef .tc main_v27)) = R_main_v27 (F := F) (V0 (Proc.devRef .tc main_arg0)) (V0 (Proc.devRef .tc main_arg3)) (V0 (Proc.devRef .tc main_arg4)) :=
  (val12_keep V0 main_v27 (by decide)).trans (val11_main_v27 V0)
theorem val12_main_v37 (V0 : Valuation τ sig (Elt F)) : val12 V0 (no_index (Proc.devRef .tc main_v37)) = R_main_v37 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) :=
  (val12_keep V0 main_v37 (by decide)).trans (val11_main_v37 V0)
theorem val12_main_v46 (V0 : Valuation τ sig (Elt F)) : val12 V0 (no_index (Proc.devRef .tc main_v46)) = R_main_v46 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) :=
  (val12_keep V0 main_v46 (by decide)).trans (val11_main_v46 V0)
theorem val12_main_v59 (V0 : Valuation τ sig (Elt F)) : val12 V0 (no_index (Proc.devRef .tc main_v59)) = R_main_v59 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val12
  simp only [part12]
  after_results_simp
  simp only [val11_main_v27, val11_main_v46, val11_main_v24, val11_main_v37, val11_main_v22, val11_main_v32] <;> rfl

/-- The buffers' contents after the first 13 windows. -/
def val13 (V0 : Valuation τ sig (Elt F)) : Valuation τ sig (Elt F) := after part13 (val12 V0)
abbrev part13_W : List (Ref sig .tc) := [main_v60, main_v61, main_v62, main_v63, main_v64]
theorem part13_writes : (part13 : List (HloOp τ sig (Elt F))).Forall fun op => op.writes ⊆ (part13_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> (refine List.mem_map_of_mem ?_; decide)
theorem val13_keep (V0 : Valuation τ sig (Elt F)) (r : Ref sig .tc) (h : r ∉ part13_W) :
    val13 V0 (Proc.devRef .tc r) = val12 V0 (Proc.devRef .tc r) :=
  after_of_writes_sub part13 _ part13_writes h
theorem val13_main_v15 (V0 : Valuation τ sig (Elt F)) : val13 V0 (no_index (Proc.devRef .tc main_v15)) = R_main_v15 (F := F) (V0 (Proc.devRef .tc main_arg0)) (V0 (Proc.devRef .tc main_arg3)) (V0 (Proc.devRef .tc main_arg4)) :=
  (val13_keep V0 main_v15 (by decide)).trans (val12_main_v15 V0)
theorem val13_main_v20 (V0 : Valuation τ sig (Elt F)) : val13 V0 (no_index (Proc.devRef .tc main_v20)) = R_main_v20 (F := F) (V0 (Proc.devRef .tc main_arg0)) (V0 (Proc.devRef .tc main_arg3)) (V0 (Proc.devRef .tc main_arg4)) :=
  (val13_keep V0 main_v20 (by decide)).trans (val12_main_v20 V0)
theorem val13_main_v27 (V0 : Valuation τ sig (Elt F)) : val13 V0 (no_index (Proc.devRef .tc main_v27)) = R_main_v27 (F := F) (V0 (Proc.devRef .tc main_arg0)) (V0 (Proc.devRef .tc main_arg3)) (V0 (Proc.devRef .tc main_arg4)) :=
  (val13_keep V0 main_v27 (by decide)).trans (val12_main_v27 V0)
theorem val13_main_v64 (V0 : Valuation τ sig (Elt F)) : val13 V0 (no_index (Proc.devRef .tc main_v64)) = R_main_v64 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val13
  simp only [part13]
  after_results_simp
  simp only [val12_main_v59, val12_main_v46, val12_main_v37] <;> rfl

/-- The buffers' contents after the first 14 windows. -/
def val14 (V0 : Valuation τ sig (Elt F)) : Valuation τ sig (Elt F) := after part14 (val13 V0)
abbrev part14_W : List (Ref sig .tc) := [main_v65, main_v66, main_v67, main_v68, main_v69]
theorem part14_writes : (part14 : List (HloOp τ sig (Elt F))).Forall fun op => op.writes ⊆ (part14_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> (refine List.mem_map_of_mem ?_; decide)
theorem val14_keep (V0 : Valuation τ sig (Elt F)) (r : Ref sig .tc) (h : r ∉ part14_W) :
    val14 V0 (Proc.devRef .tc r) = val13 V0 (Proc.devRef .tc r) :=
  after_of_writes_sub part14 _ part14_writes h
theorem val14_main_v64 (V0 : Valuation τ sig (Elt F)) : val14 V0 (no_index (Proc.devRef .tc main_v64)) = R_main_v64 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) :=
  (val14_keep V0 main_v64 (by decide)).trans (val13_main_v64 V0)
theorem val14_main_v69 (V0 : Valuation τ sig (Elt F)) : val14 V0 (no_index (Proc.devRef .tc main_v69)) = R_main_v69 (F := F) (V0 (Proc.devRef .tc main_arg0)) (V0 (Proc.devRef .tc main_arg3)) (V0 (Proc.devRef .tc main_arg4)) := by
  unfold val14
  simp only [part14]
  after_results_simp
  simp only [val13_main_v27, val13_main_v20, val13_main_v15] <;> rfl

/-- The buffers' contents after the first 15 windows. -/
def val15 (V0 : Valuation τ sig (Elt F)) : Valuation τ sig (Elt F) := after part15 (val14 V0)
abbrev part15_W : List (Ref sig .tc) := [main_cst_0, main_v70, main_v71, main_cst_1, main_v72, main_v73, main_v74, main_v75, main_v76]
theorem part15_writes : (part15 : List (HloOp τ sig (Elt F))).Forall fun op => op.writes ⊆ (part15_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> (refine List.mem_map_of_mem ?_; decide)
theorem val15_keep (V0 : Valuation τ sig (Elt F)) (r : Ref sig .tc) (h : r ∉ part15_W) :
    val15 V0 (Proc.devRef .tc r) = val14 V0 (Proc.devRef .tc r) :=
  after_of_writes_sub part15 _ part15_writes h
theorem val15_main_v76 (V0 : Valuation τ sig (Elt F)) : val15 V0 (no_index (Proc.devRef .tc main_v76)) = R_main_v76 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val15
  simp only [part15]
  after_results_simp
  simp only [val14_main_v69, val14_main_v64] <;> rfl

/-- The buffers' contents after the first 16 windows. -/
def val16 (V0 : Valuation τ sig (Elt F)) : Valuation τ sig (Elt F) := after part16 (val15 V0)
abbrev part16_W : List (Ref sig .tc) := [main_cst_2, main_v77]
theorem part16_writes : (part16 : List (HloOp τ sig (Elt F))).Forall fun op => op.writes ⊆ (part16_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> (refine List.mem_map_of_mem ?_; decide)
theorem val16_keep (V0 : Valuation τ sig (Elt F)) (r : Ref sig .tc) (h : r ∉ part16_W) :
    val16 V0 (Proc.devRef .tc r) = val15 V0 (Proc.devRef .tc r) :=
  after_of_writes_sub part16 _ part16_writes h
theorem val16_main_v76 (V0 : Valuation τ sig (Elt F)) : val16 V0 (no_index (Proc.devRef .tc main_v76)) = R_main_v76 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) :=
  (val16_keep V0 main_v76 (by decide)).trans (val15_main_v76 V0)
theorem val16_main_v77 (V0 : Valuation τ sig (Elt F)) : val16 V0 (no_index (Proc.devRef .tc main_v77)) = R_main_v77 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val16
  simp only [part16]
  after_results_simp
  simp only [val15_main_v76] <;> rfl

/-- The buffers' contents after the first 17 windows. -/
def val17 (V0 : Valuation τ sig (Elt F)) : Valuation τ sig (Elt F) := after part17 (val16 V0)
abbrev part17_W : List (Ref sig .tc) := [main_v78, main_v79, main_v80, main_v81]
theorem part17_writes : (part17 : List (HloOp τ sig (Elt F))).Forall fun op => op.writes ⊆ (part17_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> (refine List.mem_map_of_mem ?_; decide)
theorem val17_keep (V0 : Valuation τ sig (Elt F)) (r : Ref sig .tc) (h : r ∉ part17_W) :
    val17 V0 (Proc.devRef .tc r) = val16 V0 (Proc.devRef .tc r) :=
  after_of_writes_sub part17 _ part17_writes h
theorem val17_main_v81 (V0 : Valuation τ sig (Elt F)) : val17 V0 (no_index (Proc.devRef .tc main_v81)) = R_main_v81 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val17
  simp only [part17]
  after_results_simp
  simp only [val16_main_v77, val16_main_v76] <;> rfl

/-- The buffers' contents after the first 18 windows. -/
def val18 (V0 : Valuation τ sig (Elt F)) : Valuation τ sig (Elt F) := after part18 (val17 V0)
abbrev part18_W : List (Ref sig .tc) := [main_cst_3, main_v82]
theorem part18_writes : (part18 : List (HloOp τ sig (Elt F))).Forall fun op => op.writes ⊆ (part18_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> (refine List.mem_map_of_mem ?_; decide)
theorem val18_keep (V0 : Valuation τ sig (Elt F)) (r : Ref sig .tc) (h : r ∉ part18_W) :
    val18 V0 (Proc.devRef .tc r) = val17 V0 (Proc.devRef .tc r) :=
  after_of_writes_sub part18 _ part18_writes h
theorem val18_main_v81 (V0 : Valuation τ sig (Elt F)) : val18 V0 (no_index (Proc.devRef .tc main_v81)) = R_main_v81 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) :=
  (val18_keep V0 main_v81 (by decide)).trans (val17_main_v81 V0)
theorem val18_main_v82 (V0 : Valuation τ sig (Elt F)) : val18 V0 (no_index (Proc.devRef .tc main_v82)) = R_main_v82 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val18
  simp only [part18]
  after_results_simp
  simp only [val17_main_v81] <;> rfl

/-- The buffers' contents after the first 19 windows. -/
def val19 (V0 : Valuation τ sig (Elt F)) : Valuation τ sig (Elt F) := after part19 (val18 V0)
abbrev part19_W : List (Ref sig .tc) := [main_v83, main_cst_4, main_v84, main_v85, main_v86, main_v87]
theorem part19_writes : (part19 : List (HloOp τ sig (Elt F))).Forall fun op => op.writes ⊆ (part19_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> (refine List.mem_map_of_mem ?_; decide)
theorem val19_keep (V0 : Valuation τ sig (Elt F)) (r : Ref sig .tc) (h : r ∉ part19_W) :
    val19 V0 (Proc.devRef .tc r) = val18 V0 (Proc.devRef .tc r) :=
  after_of_writes_sub part19 _ part19_writes h
theorem val19_main_v87 (V0 : Valuation τ sig (Elt F)) : val19 V0 (no_index (Proc.devRef .tc main_v87)) = R_main_v87 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val19
  simp only [part19]
  after_results_simp
  simp only [val18_main_v82, val18_main_v81] <;> rfl

/-- The whole line is its windows one after the other. -/
theorem after_ops (V0 : Valuation τ sig (Elt F)) : after RefRun.ops V0 = val19 V0 := by
  rw [ops_split]
  simp only [after_append]
  rfl

/-- The result buffer after the whole line: the last stage, of the argument arrays as launched. -/
theorem result_stage (V0 : Valuation τ sig (Elt F)) :
    after RefRun.ops V0 (Proc.devRef .tc main_v87) = R_main_v87 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  rw [after_ops]; exact val19_main_v87 V0

end Cert.ReferenceIdeal.RefStages

end
-- ==== Proof.RefValue.lean ====
/-
  The reference's result read index by index. Each row b of the representation gives a mean (three affine forms of the
  row) and a lower-triangular scale: six affine forms, passed through the exponential linear unit plus one, the three
  diagonal ones then through a softplus. Each pixel n of a row has the log-density of a trivariate Gaussian at its
  position: minus half the squared length of the forward substitution's solution, minus a constant, minus the sum of the
  logarithms of the diagonal. The result is the softmax of the log-density along each row: the exponential of the
  log-density minus the row's maximum, over the row's sum of these exponentials plus a small constant.
-/
import proofs.«169934_j78314433675744_2_alg».proof.Proof.RefStages
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.RefStages Idealize.ShloMosaic Idealize.ShloMosaic.TcCoe Idealize.SL.Sem Idealize.ShloMosaic.StableHlo Idealize.ShloMosaic.ValueIdx

/-! ## Layout operations read at an index, over any element type -/

section Layout
variable {α : Type}

/-- Column n of a 512×6 array as a 512-vector: the unit-stride slice at that column with its unit axis dropped. -/
theorem col6_apply (x : S512x6.Idx → α) (n : Nat) (hn : n < 6) (h : S512x6.Slices ![0, n] S512x1) (b : Fin 512) :
    shapeCast S512 (extractStridedSlice S512x1 ![0, n] x h) shapeCasts_S512x1_S512 (ix1 b) = x (ix2 b ⟨n, hn⟩) := by
  rw [shapeCast_apply _ shapeCasts_S512x1_S512 (ix1 b) (ix2 b (0 : Fin 1))
    (by rewrite [Shape.rowMajor_val_two, Shape.rowMajor_val_one]; show b.val * 1 + 0 = b.val; omega)]
  exact extractStridedSlice_apply _ x h (ix2 b (0 : Fin 1)) (ix2 b ⟨n, hn⟩) (fun a => match a with
    | ⟨0, _⟩ => by show b.val = 0 + b.val; omega
    | ⟨1, _⟩ => by show n = n + 0; omega)

/-- A 512-vector as a column: the entry of row b. -/
theorem bcast0_apply (v : S512.Idx → α) (b : Fin 512) :
    broadcastInDim S512x1 ![0] bcast_S512_S512x1_0 v (ix2 b (0 : Fin 1)) = v (ix1 b) :=
  broadcastInDim_apply _ bcast_S512_S512x1_0 v (ix2 b (0 : Fin 1)) (ix1 b) (fun a => match a with
    | ⟨0, _⟩ => by show b.val = if (512 : Nat) = 1 then 0 else b.val; rw [if_neg (by decide)])

/-- A column repeated along each row of a 512×65536 array: the entry of row b. -/
theorem bcast01_apply (y : S512x1.Idx → α) (b : Fin 512) (n : Fin 65536) :
    broadcastInDim S512x65536 ![0, 1] bcast_S512x1_S512x65536_0_1 y (ix2 b n) = y (ix2 b (0 : Fin 1)) :=
  broadcastInDim_apply _ bcast_S512x1_S512x65536_0_1 y (ix2 b n) (ix2 b (0 : Fin 1)) (fun a => match a with
    | ⟨0, _⟩ => by show b.val = if (512 : Nat) = 1 then 0 else b.val; rw [if_neg (by decide)]
    | ⟨1, _⟩ => by show 0 = if (1 : Nat) = 1 then 0 else n.val; rw [if_pos rfl])

/-- A 512-vector repeated along each row of a 512×65536 array: the entry of row b. -/
theorem rowBcast_apply (v : S512.Idx → α) (b : Fin 512) (n : Fin 65536) :
    broadcastInDim S512x65536 ![0, 1] bcast_S512x1_S512x65536_0_1 (broadcastInDim S512x1 ![0] bcast_S512_S512x1_0 v) (ix2 b n)
      = v (ix1 b) := by
  rw [bcast01_apply, bcast0_apply]

/-- A 3-vector repeated down the 512 rows: the entry of column k. -/
theorem bias3_apply (v : S3.Idx → α) (b : Fin 512) (k : Fin 3) :
    broadcastInDim S512x3 ![0, 1] bcast_S1x3_S512x3_0_1 (broadcastInDim S1x3 ![1] bcast_S3_S1x3_1 v) (ix2 b k) = v (ix1 k) := by
  rw [broadcastInDim_apply _ bcast_S1x3_S512x3_0_1 _ (ix2 b k) (ix2 (0 : Fin 1) k) (fun a => match a with
    | ⟨0, _⟩ => by show 0 = if (1 : Nat) = 1 then 0 else b.val; rw [if_pos rfl]
    | ⟨1, _⟩ => by show k.val = if (3 : Nat) = 1 then 0 else k.val; rw [if_neg (by decide)])]
  exact broadcastInDim_apply _ bcast_S3_S1x3_1 v (ix2 (0 : Fin 1) k) (ix1 k) (fun a => match a with
    | ⟨0, _⟩ => by show k.val = if (3 : Nat) = 1 then 0 else k.val; rw [if_neg (by decide)])

/-- A 6-vector repeated down the 512 rows: the entry of column k. -/
theorem bias6_apply (v : S6.Idx → α) (b : Fin 512) (k : Fin 6) :
    broadcastInDim S512x6 ![0, 1] bcast_S1x6_S512x6_0_1 (broadcastInDim S1x6 ![1] bcast_S6_S1x6_1 v) (ix2 b k) = v (ix1 k) := by
  rw [broadcastInDim_apply _ bcast_S1x6_S512x6_0_1 _ (ix2 b k) (ix2 (0 : Fin 1) k) (fun a => match a with
    | ⟨0, _⟩ => by show 0 = if (1 : Nat) = 1 then 0 else b.val; rw [if_pos rfl]
    | ⟨1, _⟩ => by show k.val = if (6 : Nat) = 1 then 0 else k.val; rw [if_neg (by decide)])]
  exact broadcastInDim_apply _ bcast_S6_S1x6_1 v (ix2 (0 : Fin 1) k) (ix1 k) (fun a => match a with
    | ⟨0, _⟩ => by show k.val = if (6 : Nat) = 1 then 0 else k.val; rw [if_neg (by decide)])

/-- The transpose of a 3×256 array at (d, k) is the array at (k, d). -/
theorem transpose3_apply (x : S3x256.Idx → α) (d : Fin 256) (k : Fin 3) :
    transpose S256x3 [1, 0] x transposes_S3x256_S256x3_1_0 (ix2 d k) = x (ix2 k d) :=
  transpose_apply [1, 0] x transposes_S3x256_S256x3_1_0 (ix2 d k) (ix2 k d) (fun b => match b with
    | ⟨0, _⟩ => rfl
    | ⟨1, _⟩ => rfl)

/-- The transpose of a 6×256 array at (d, k) is the array at (k, d). -/
theorem transpose6_apply (x : S6x256.Idx → α) (d : Fin 256) (k : Fin 6) :
    transpose S256x6 [1, 0] x transposes_S6x256_S256x6_1_0 (ix2 d k) = x (ix2 k d) :=
  transpose_apply [1, 0] x transposes_S6x256_S256x6_1_0 (ix2 d k) (ix2 k d) (fun b => match b with
    | ⟨0, _⟩ => rfl
    | ⟨1, _⟩ => rfl)

end Layout

/-! ## The two affine maps of a row -/

theorem lhs3_0 (i : S512x3.Idx) (q : dot_S512x256_S256x3_S512x3_1_0_0_1_n_n.contr.Idx) : (dot_S512x256_S256x3_S512x3_1_0_0_1_n_n.lhsIdx i q 0).val = (i 0).val := by
  unfold DotDims.lhsIdx
  rw [dif_neg (show ¬(0 : Fin S512x256.rank) ∈ dot_S512x256_S256x3_S512x3_1_0_0_1_n_n.lhsBatch by decide), dif_pos (show (0 : Fin S512x256.rank) ∈ dot_S512x256_S256x3_S512x3_1_0_0_1_n_n.lhsNonContracting by decide)]
  rfl
theorem lhs3_1 (i : S512x3.Idx) (q : dot_S512x256_S256x3_S512x3_1_0_0_1_n_n.contr.Idx) : (dot_S512x256_S256x3_S512x3_1_0_0_1_n_n.lhsIdx i q 1).val = (q ⟨0, by decide⟩).val :=
  dot_S512x256_S256x3_S512x3_1_0_0_1_n_n.lhsIdx_val_of_single rfl i q
theorem rhs3_0 (i : S512x3.Idx) (q : dot_S512x256_S256x3_S512x3_1_0_0_1_n_n.contr.Idx) : (dot_S512x256_S256x3_S512x3_1_0_0_1_n_n.rhsIdx i q 0).val = (q ⟨0, by decide⟩).val :=
  dot_S512x256_S256x3_S512x3_1_0_0_1_n_n.rhsIdx_val_of_single rfl i q
theorem rhs3_1 (i : S512x3.Idx) (q : dot_S512x256_S256x3_S512x3_1_0_0_1_n_n.contr.Idx) : (dot_S512x256_S256x3_S512x3_1_0_0_1_n_n.rhsIdx i q 1).val = (i 1).val := by
  unfold DotDims.rhsIdx
  rw [dif_neg (show ¬(1 : Fin S256x3.rank) ∈ dot_S512x256_S256x3_S512x3_1_0_0_1_n_n.rhsBatch by decide), dif_pos (show (1 : Fin S256x3.rank) ∈ dot_S512x256_S256x3_S512x3_1_0_0_1_n_n.rhsNonContracting by decide)]
  rfl

/-- The matrix product of a 512×256 array with a 256×3 one at (b, k): the sum over the 256 shared coordinates. -/
theorem dot3_apply (x : FVec Ideal S512x256 .f32) (y : FVec Ideal S256x3 .f32) (b : Fin 512) (k : Fin 3) :
    Host.dotGeneral (F := Ideal) dot_S512x256_S256x3_S512x3_1_0_0_1_n_n none x y (ix2 b k) = ∑ d : Fin 256, x (ix2 b d) * y (ix2 d k) := by
  simp only [Host.dotGeneral]
  rw [Ideal.dotGeneral_apply, ← Equiv.sum_comp (ValueIdx.contrEquiv1 dot_S512x256_S256x3_S512x3_1_0_0_1_n_n 256 rfl rfl).symm]
  refine Finset.sum_congr rfl fun d _ => ?_
  have hk := ValueIdx.contrEquiv1_symm_val dot_S512x256_S256x3_S512x3_1_0_0_1_n_n 256 rfl rfl d
  have el : dot_S512x256_S256x3_S512x3_1_0_0_1_n_n.lhsIdx (ix2 b k) ((ValueIdx.contrEquiv1 dot_S512x256_S256x3_S512x3_1_0_0_1_n_n 256 rfl rfl).symm d) = ix2 b d := funext fun a => Fin.ext (by
    match a with
    | ⟨0, _⟩ => exact lhs3_0 _ _
    | ⟨1, _⟩ => exact (lhs3_1 _ _).trans hk)
  have er : dot_S512x256_S256x3_S512x3_1_0_0_1_n_n.rhsIdx (ix2 b k) ((ValueIdx.contrEquiv1 dot_S512x256_S256x3_S512x3_1_0_0_1_n_n 256 rfl rfl).symm d) = ix2 d k := funext fun a => Fin.ext (by
    match a with
    | ⟨0, _⟩ => exact (rhs3_0 _ _).trans hk
    | ⟨1, _⟩ => exact rhs3_1 _ _)
  rw [el, er]

theorem lhs6_0 (i : S512x6.Idx) (q : dot_S512x256_S256x6_S512x6_1_0_0_1_n_n.contr.Idx) : (dot_S512x256_S256x6_S512x6_1_0_0_1_n_n.lhsIdx i q 0).val = (i 0).val := by
  unfold DotDims.lhsIdx
  rw [dif_neg (show ¬(0 : Fin S512x256.rank) ∈ dot_S512x256_S256x6_S512x6_1_0_0_1_n_n.lhsBatch by decide), dif_pos (show (0 : Fin S512x256.rank) ∈ dot_S512x256_S256x6_S512x6_1_0_0_1_n_n.lhsNonContracting by decide)]
  rfl
theorem lhs6_1 (i : S512x6.Idx) (q : dot_S512x256_S256x6_S512x6_1_0_0_1_n_n.contr.Idx) : (dot_S512x256_S256x6_S512x6_1_0_0_1_n_n.lhsIdx i q 1).val = (q ⟨0, by decide⟩).val :=
  dot_S512x256_S256x6_S512x6_1_0_0_1_n_n.lhsIdx_val_of_single rfl i q
theorem rhs6_0 (i : S512x6.Idx) (q : dot_S512x256_S256x6_S512x6_1_0_0_1_n_n.contr.Idx) : (dot_S512x256_S256x6_S512x6_1_0_0_1_n_n.rhsIdx i q 0).val = (q ⟨0, by decide⟩).val :=
  dot_S512x256_S256x6_S512x6_1_0_0_1_n_n.rhsIdx_val_of_single rfl i q
theorem rhs6_1 (i : S512x6.Idx) (q : dot_S512x256_S256x6_S512x6_1_0_0_1_n_n.contr.Idx) : (dot_S512x256_S256x6_S512x6_1_0_0_1_n_n.rhsIdx i q 1).val = (i 1).val := by
  unfold DotDims.rhsIdx
  rw [dif_neg (show ¬(1 : Fin S256x6.rank) ∈ dot_S512x256_S256x6_S512x6_1_0_0_1_n_n.rhsBatch by decide), dif_pos (show (1 : Fin S256x6.rank) ∈ dot_S512x256_S256x6_S512x6_1_0_0_1_n_n.rhsNonContracting by decide)]
  rfl

/-- The matrix product of a 512×256 array with a 256×6 one at (b, k): the sum over the 256 shared coordinates. -/
theorem dot6_apply (x : FVec Ideal S512x256 .f32) (y : FVec Ideal S256x6 .f32) (b : Fin 512) (k : Fin 6) :
    Host.dotGeneral (F := Ideal) dot_S512x256_S256x6_S512x6_1_0_0_1_n_n none x y (ix2 b k) = ∑ d : Fin 256, x (ix2 b d) * y (ix2 d k) := by
  simp only [Host.dotGeneral]
  rw [Ideal.dotGeneral_apply, ← Equiv.sum_comp (ValueIdx.contrEquiv1 dot_S512x256_S256x6_S512x6_1_0_0_1_n_n 256 rfl rfl).symm]
  refine Finset.sum_congr rfl fun d _ => ?_
  have hk := ValueIdx.contrEquiv1_symm_val dot_S512x256_S256x6_S512x6_1_0_0_1_n_n 256 rfl rfl d
  have el : dot_S512x256_S256x6_S512x6_1_0_0_1_n_n.lhsIdx (ix2 b k) ((ValueIdx.contrEquiv1 dot_S512x256_S256x6_S512x6_1_0_0_1_n_n 256 rfl rfl).symm d) = ix2 b d := funext fun a => Fin.ext (by
    match a with
    | ⟨0, _⟩ => exact lhs6_0 _ _
    | ⟨1, _⟩ => exact (lhs6_1 _ _).trans hk)
  have er : dot_S512x256_S256x6_S512x6_1_0_0_1_n_n.rhsIdx (ix2 b k) ((ValueIdx.contrEquiv1 dot_S512x256_S256x6_S512x6_1_0_0_1_n_n 256 rfl rfl).symm d) = ix2 d k := funext fun a => Fin.ext (by
    match a with
    | ⟨0, _⟩ => exact (rhs6_0 _ _).trans hk
    | ⟨1, _⟩ => exact rhs6_1 _ _)
  rw [el, er]

/-- The mean of row b, coordinate k: the row's inner product with the k-th weight row, plus the k-th bias. -/
def means (a0 : FVec Ideal S512x256 .f32) (a1 : FVec Ideal S3x256 .f32) (a2 : FVec Ideal S3 .f32) (b : Fin 512) (k : Fin 3) : EReal :=
  (∑ d : Fin 256, a0 (ix2 b d) * a1 (ix2 k d)) + a2 (ix1 k)

/-- The raw scale of row b, entry k: the row's inner product with the k-th weight row, plus the k-th bias. -/
def sraw (a0 : FVec Ideal S512x256 .f32) (a3 : FVec Ideal S6x256 .f32) (a4 : FVec Ideal S6 .f32) (b : Fin 512) (k : Fin 6) : EReal :=
  (∑ d : Fin 256, a0 (ix2 b d) * a3 (ix2 k d)) + a4 (ix1 k)

theorem R4_apply (a0 : FVec Ideal S512x256 .f32) (a1 : FVec Ideal S3x256 .f32) (a2 : FVec Ideal S3 .f32) (b : Fin 512) (k : Fin 3) :
    R_main_v4 (F := Ideal) a0 a1 a2 (ix2 b k) = means a0 a1 a2 b k := by
  unfold R_main_v4 means
  rw [addf_apply, dot3_apply, bias3_apply]
  refine congrArg (· + _) (Finset.sum_congr rfl fun d _ => ?_)
  rw [transpose3_apply]

theorem R9_apply (a0 : FVec Ideal S512x256 .f32) (a3 : FVec Ideal S6x256 .f32) (a4 : FVec Ideal S6 .f32) (b : Fin 512) (k : Fin 6) :
    R_main_v9 (F := Ideal) a0 a3 a4 (ix2 b k) = sraw a0 a3 a4 b k := by
  unfold R_main_v9 sraw
  rw [addf_apply, dot6_apply, bias6_apply]
  refine congrArg (· + _) (Finset.sum_congr rfl fun d _ => ?_)
  rw [transpose6_apply]

/-! ## The host's pointwise operations at an index -/

theorem hostDivf_apply {s : Shape} (x y : FVec Ideal s .f32) (i : s.Idx) : Host.divf (F := Ideal) x y i = Ideal.div (x i) (y i) := rfl
theorem hostExp_apply {s : Shape} (x : FVec Ideal s .f32) (i : s.Idx) : Host.exp (F := Ideal) x i = Ideal.exp (x i) := rfl
theorem hostLog_apply {s : Shape} (x : FVec Ideal s .f32) (i : s.Idx) : Host.log (F := Ideal) x i = Ideal.log (x i) := rfl

/-! ## The scale of a row -/

/-- The float literals of the program, as the extended reals their words denote. -/
def zeroF : EReal := Ideal.ofBits .f32 0x00000000#32
def oneF : EReal := Ideal.ofBits .f32 0x3F800000#32
def mhalfF : EReal := Ideal.ofBits .f32 0xBF000000#32
def logNormF : EReal := Ideal.ofBits .f32 0x40306FAB#32
def negInfF : EReal := Ideal.ofBits .f32 0xFF800000#32
def epsF : EReal := Ideal.ofBits .f32 0x2EDBE6FF#32

/-- The exponential linear unit of one value: x where x > 0, else 1 · (exp y - 1) at y = 0 where x > 0, else x. -/
def eluS (x : EReal) : EReal :=
  Scalar.select (Ideal.cmp .ogt x zeroF) x (oneF * (Ideal.exp (Scalar.select (Ideal.cmp .ogt x zeroF) zeroF x) - 1))

/-- The softplus of one value: x + 0 where x - 0 differs from itself, else max x 0 + log1p (exp (-|x - 0|)). -/
def softplusS (x : EReal) : EReal :=
  Scalar.select (Ideal.cmp .une (x - zeroF) (x - zeroF)) (x + zeroF)
    (max x zeroF + Ideal.log1p (Ideal.exp (-(max (x - zeroF) (-(x - zeroF))))))

theorem eluArr_apply (x : FVec Ideal S512x6 .f32) (i : S512x6.Idx) : eluArr (F := Ideal) x i = eluS (x i) := rfl
theorem softplusArr_apply (x : FVec Ideal S512 .f32) (i : S512.Idx) : softplusArr (F := Ideal) x i = softplusS (x i) := rfl

/-- Entry k of the scale of row b before the softplus: the exponential linear unit of the raw entry, plus one. -/
def sVal (a0 : FVec Ideal S512x256 .f32) (a3 : FVec Ideal S6x256 .f32) (a4 : FVec Ideal S6 .f32) (b : Fin 512) (k : Fin 6) : EReal := eluS (sraw a0 a3 a4 b k) + oneF

theorem R12_apply (a0 : FVec Ideal S512x256 .f32) (a3 : FVec Ideal S6x256 .f32) (a4 : FVec Ideal S6 .f32) (b : Fin 512) (k : Fin 6) : R_main_v12 (F := Ideal) a0 a3 a4 (ix2 b k) = sVal a0 a3 a4 b k := by
  unfold R_main_v12 sVal
  rw [addf_apply, eluArr_apply, R9_apply]
  rfl

/-- The six entries of the lower-triangular scale of row b: the diagonal through the softplus, the rest as they are. -/
def d00 (a0 : FVec Ideal S512x256 .f32) (a3 : FVec Ideal S6x256 .f32) (a4 : FVec Ideal S6 .f32) (b : Fin 512) : EReal := sVal a0 a3 a4 b ⟨0, by decide⟩
def l10 (a0 : FVec Ideal S512x256 .f32) (a3 : FVec Ideal S6x256 .f32) (a4 : FVec Ideal S6 .f32) (b : Fin 512) : EReal := sVal a0 a3 a4 b ⟨1, by decide⟩
def d11 (a0 : FVec Ideal S512x256 .f32) (a3 : FVec Ideal S6x256 .f32) (a4 : FVec Ideal S6 .f32) (b : Fin 512) : EReal := sVal a0 a3 a4 b ⟨2, by decide⟩
def l20 (a0 : FVec Ideal S512x256 .f32) (a3 : FVec Ideal S6x256 .f32) (a4 : FVec Ideal S6 .f32) (b : Fin 512) : EReal := sVal a0 a3 a4 b ⟨3, by decide⟩
def l21 (a0 : FVec Ideal S512x256 .f32) (a3 : FVec Ideal S6x256 .f32) (a4 : FVec Ideal S6 .f32) (b : Fin 512) : EReal := sVal a0 a3 a4 b ⟨4, by decide⟩
def d22 (a0 : FVec Ideal S512x256 .f32) (a3 : FVec Ideal S6x256 .f32) (a4 : FVec Ideal S6 .f32) (b : Fin 512) : EReal := sVal a0 a3 a4 b ⟨5, by decide⟩
def l00 (a0 : FVec Ideal S512x256 .f32) (a3 : FVec Ideal S6x256 .f32) (a4 : FVec Ideal S6 .f32) (b : Fin 512) : EReal := softplusS (d00 a0 a3 a4 b)
def l11 (a0 : FVec Ideal S512x256 .f32) (a3 : FVec Ideal S6x256 .f32) (a4 : FVec Ideal S6 .f32) (b : Fin 512) : EReal := softplusS (d11 a0 a3 a4 b)
def l22 (a0 : FVec Ideal S512x256 .f32) (a3 : FVec Ideal S6x256 .f32) (a4 : FVec Ideal S6 .f32) (b : Fin 512) : EReal := softplusS (d22 a0 a3 a4 b)

theorem R14_apply (a0 : FVec Ideal S512x256 .f32) (a3 : FVec Ideal S6x256 .f32) (a4 : FVec Ideal S6 .f32) (b : Fin 512) : R_main_v14 (F := Ideal) a0 a3 a4 (ix1 b) = d00 a0 a3 a4 b := by
  unfold R_main_v14 d00
  exact (col6_apply _ 0 (by decide) _ b).trans (R12_apply a0 a3 a4 b ⟨0, by decide⟩)
theorem R17_apply (a0 : FVec Ideal S512x256 .f32) (a3 : FVec Ideal S6x256 .f32) (a4 : FVec Ideal S6 .f32) (b : Fin 512) : R_main_v17 (F := Ideal) a0 a3 a4 (ix1 b) = l10 a0 a3 a4 b := by
  unfold R_main_v17 l10
  exact (col6_apply _ 1 (by decide) _ b).trans (R12_apply a0 a3 a4 b ⟨1, by decide⟩)
theorem R19_apply (a0 : FVec Ideal S512x256 .f32) (a3 : FVec Ideal S6x256 .f32) (a4 : FVec Ideal S6 .f32) (b : Fin 512) : R_main_v19 (F := Ideal) a0 a3 a4 (ix1 b) = d11 a0 a3 a4 b := by
  unfold R_main_v19 d11
  exact (col6_apply _ 2 (by decide) _ b).trans (R12_apply a0 a3 a4 b ⟨2, by decide⟩)
theorem R22_apply (a0 : FVec Ideal S512x256 .f32) (a3 : FVec Ideal S6x256 .f32) (a4 : FVec Ideal S6 .f32) (b : Fin 512) : R_main_v22 (F := Ideal) a0 a3 a4 (ix1 b) = l20 a0 a3 a4 b := by
  unfold R_main_v22 l20
  exact (col6_apply _ 3 (by decide) _ b).trans (R12_apply a0 a3 a4 b ⟨3, by decide⟩)
theorem R24_apply (a0 : FVec Ideal S512x256 .f32) (a3 : FVec Ideal S6x256 .f32) (a4 : FVec Ideal S6 .f32) (b : Fin 512) : R_main_v24 (F := Ideal) a0 a3 a4 (ix1 b) = l21 a0 a3 a4 b := by
  unfold R_main_v24 l21
  exact (col6_apply _ 4 (by decide) _ b).trans (R12_apply a0 a3 a4 b ⟨4, by decide⟩)
theorem R26_apply (a0 : FVec Ideal S512x256 .f32) (a3 : FVec Ideal S6x256 .f32) (a4 : FVec Ideal S6 .f32) (b : Fin 512) : R_main_v26 (F := Ideal) a0 a3 a4 (ix1 b) = d22 a0 a3 a4 b := by
  unfold R_main_v26 d22
  exact (col6_apply _ 5 (by decide) _ b).trans (R12_apply a0 a3 a4 b ⟨5, by decide⟩)

theorem R15_apply (a0 : FVec Ideal S512x256 .f32) (a3 : FVec Ideal S6x256 .f32) (a4 : FVec Ideal S6 .f32) (b : Fin 512) : R_main_v15 (F := Ideal) a0 a3 a4 (ix1 b) = l00 a0 a3 a4 b := by
  unfold R_main_v15 l00
  rw [softplusArr_apply, R14_apply]
theorem R20_apply (a0 : FVec Ideal S512x256 .f32) (a3 : FVec Ideal S6x256 .f32) (a4 : FVec Ideal S6 .f32) (b : Fin 512) : R_main_v20 (F := Ideal) a0 a3 a4 (ix1 b) = l11 a0 a3 a4 b := by
  unfold R_main_v20 l11
  rw [softplusArr_apply, R19_apply]
theorem R27_apply (a0 : FVec Ideal S512x256 .f32) (a3 : FVec Ideal S6x256 .f32) (a4 : FVec Ideal S6 .f32) (b : Fin 512) : R_main_v27 (F := Ideal) a0 a3 a4 (ix1 b) = l22 a0 a3 a4 b := by
  unfold R_main_v27 l22
  rw [softplusArr_apply, R26_apply]

/-! ## The log-density of a pixel -/

section Layout3
variable {α : Type}

/-- The pixel positions repeated over the 512 rows: the entry of pixel n, coordinate k. -/
theorem posBcast_apply (v : S65536x3.Idx → α) (b : Fin 512) (n : Fin 65536) (k : Fin 3) :
    broadcastInDim S512x65536x3 ![0, 1, 2] bcast_S1x65536x3_S512x65536x3_0_1_2
      (broadcastInDim S1x65536x3 ![1, 2] bcast_S65536x3_S1x65536x3_1_2 v) (ix3 b n k) = v (ix2 n k) := by
  rw [broadcastInDim_apply _ bcast_S1x65536x3_S512x65536x3_0_1_2 _ (ix3 b n k) (ix3 (0 : Fin 1) n k) (fun a => match a with
    | ⟨0, _⟩ => by show 0 = if (1 : Nat) = 1 then 0 else b.val; rw [if_pos rfl]
    | ⟨1, _⟩ => by show n.val = if (65536 : Nat) = 1 then 0 else n.val; rw [if_neg (by decide)]
    | ⟨2, _⟩ => by show k.val = if (3 : Nat) = 1 then 0 else k.val; rw [if_neg (by decide)])]
  exact broadcastInDim_apply _ bcast_S65536x3_S1x65536x3_1_2 v (ix3 (0 : Fin 1) n k) (ix2 n k) (fun a => match a with
    | ⟨0, _⟩ => by show n.val = if (65536 : Nat) = 1 then 0 else n.val; rw [if_neg (by decide)]
    | ⟨1, _⟩ => by show k.val = if (3 : Nat) = 1 then 0 else k.val; rw [if_neg (by decide)])

/-- The means repeated over the 65536 pixels: the entry of row b, coordinate k. -/
theorem meanBcast_apply (v : S512x3.Idx → α) (b : Fin 512) (n : Fin 65536) (k : Fin 3) :
    broadcastInDim S512x65536x3 ![0, 1, 2] bcast_S512x1x3_S512x65536x3_0_1_2
      (broadcastInDim S512x1x3 ![0, 2] bcast_S512x3_S512x1x3_0_2 v) (ix3 b n k) = v (ix2 b k) := by
  rw [broadcastInDim_apply _ bcast_S512x1x3_S512x65536x3_0_1_2 _ (ix3 b n k) (ix3 b (0 : Fin 1) k) (fun a => match a with
    | ⟨0, _⟩ => by show b.val = if (512 : Nat) = 1 then 0 else b.val; rw [if_neg (by decide)]
    | ⟨1, _⟩ => by show 0 = if (1 : Nat) = 1 then 0 else n.val; rw [if_pos rfl]
    | ⟨2, _⟩ => by show k.val = if (3 : Nat) = 1 then 0 else k.val; rw [if_neg (by decide)])]
  exact broadcastInDim_apply _ bcast_S512x3_S512x1x3_0_2 v (ix3 b (0 : Fin 1) k) (ix2 b k) (fun a => match a with
    | ⟨0, _⟩ => by show b.val = if (512 : Nat) = 1 then 0 else b.val; rw [if_neg (by decide)]
    | ⟨1, _⟩ => by show k.val = if (3 : Nat) = 1 then 0 else k.val; rw [if_neg (by decide)])

/-- Coordinate j of a 512×65536×3 array as a 512×65536 one: the unit-stride slice at that coordinate, its unit axis dropped. -/
theorem coord3_apply (x : S512x65536x3.Idx → α) (j : Nat) (hj : j < 3) (h : S512x65536x3.Slices ![0, 0, j] S512x65536x1)
    (b : Fin 512) (n : Fin 65536) :
    shapeCast S512x65536 (extractStridedSlice S512x65536x1 ![0, 0, j] x h) shapeCasts_S512x65536x1_S512x65536 (ix2 b n)
      = x (ix3 b n ⟨j, hj⟩) := by
  rw [shapeCast_apply _ shapeCasts_S512x65536x1_S512x65536 (ix2 b n) (ix3 b n (0 : Fin 1))
    (by rewrite [Shape.rowMajor_val_three, Shape.rowMajor_val_two]
        show (b.val * 65536 + n.val) * 1 + 0 = b.val * 65536 + n.val; omega)]
  exact extractStridedSlice_apply _ x h (ix3 b n (0 : Fin 1)) (ix3 b n ⟨j, hj⟩) (fun a => match a with
    | ⟨0, _⟩ => by show b.val = 0 + b.val; omega
    | ⟨1, _⟩ => by show n.val = 0 + n.val; omega
    | ⟨2, _⟩ => by show j = j + 0; omega)

end Layout3

/-- Coordinate k of pixel n's position minus the mean of row b. -/
def diff (a0 : FVec Ideal S512x256 .f32) (a1 : FVec Ideal S3x256 .f32) (a2 : FVec Ideal S3 .f32) (a5 : FVec Ideal S65536x3 .f32) (b : Fin 512) (n : Fin 65536) (k : Fin 3) : EReal := a5 (ix2 n k) - means a0 a1 a2 b k

theorem R32_apply (a0 : FVec Ideal S512x256 .f32) (a1 : FVec Ideal S3x256 .f32) (a2 : FVec Ideal S3 .f32) (a5 : FVec Ideal S65536x3 .f32) (b : Fin 512) (n : Fin 65536) (k : Fin 3) :
    R_main_v32 (F := Ideal) a0 a1 a2 a5 (ix3 b n k) = diff a0 a1 a2 a5 b n k := by
  unfold R_main_v32 diff
  rw [subf_apply, posBcast_apply, meanBcast_apply, R4_apply]

/-- The forward substitution: the solution z of L z = position - mean for the lower-triangular scale L of the row. -/
def z0 (a0 : FVec Ideal S512x256 .f32) (a1 : FVec Ideal S3x256 .f32) (a2 : FVec Ideal S3 .f32) (a3 : FVec Ideal S6x256 .f32) (a4 : FVec Ideal S6 .f32) (a5 : FVec Ideal S65536x3 .f32) (b : Fin 512) (n : Fin 65536) : EReal :=
  Ideal.div (diff a0 a1 a2 a5 b n ⟨0, by decide⟩) (l00 a0 a3 a4 b)
def z1 (a0 : FVec Ideal S512x256 .f32) (a1 : FVec Ideal S3x256 .f32) (a2 : FVec Ideal S3 .f32) (a3 : FVec Ideal S6x256 .f32) (a4 : FVec Ideal S6 .f32) (a5 : FVec Ideal S65536x3 .f32) (b : Fin 512) (n : Fin 65536) : EReal :=
  Ideal.div (diff a0 a1 a2 a5 b n ⟨1, by decide⟩ - l10 a0 a3 a4 b * z0 a0 a1 a2 a3 a4 a5 b n) (l11 a0 a3 a4 b)
def z2 (a0 : FVec Ideal S512x256 .f32) (a1 : FVec Ideal S3x256 .f32) (a2 : FVec Ideal S3 .f32) (a3 : FVec Ideal S6x256 .f32) (a4 : FVec Ideal S6 .f32) (a5 : FVec Ideal S65536x3 .f32) (b : Fin 512) (n : Fin 65536) : EReal :=
  Ideal.div ((diff a0 a1 a2 a5 b n ⟨2, by decide⟩ - l20 a0 a3 a4 b * z0 a0 a1 a2 a3 a4 a5 b n) - l21 a0 a3 a4 b * z1 a0 a1 a2 a3 a4 a5 b n) (l22 a0 a3 a4 b)

theorem R37_apply (a0 : FVec Ideal S512x256 .f32) (a1 : FVec Ideal S3x256 .f32) (a2 : FVec Ideal S3 .f32) (a3 : FVec Ideal S6x256 .f32) (a4 : FVec Ideal S6 .f32) (a5 : FVec Ideal S65536x3 .f32) (b : Fin 512) (n : Fin 65536) : R_main_v37 (F := Ideal) a0 a1 a2 a3 a4 a5 (ix2 b n) = z0 a0 a1 a2 a3 a4 a5 b n := by
  unfold R_main_v37 z0
  rw [hostDivf_apply]
  rw [coord3_apply _ 0 (by decide), R32_apply, rowBcast_apply, R15_apply]

theorem R46_apply (a0 : FVec Ideal S512x256 .f32) (a1 : FVec Ideal S3x256 .f32) (a2 : FVec Ideal S3 .f32) (a3 : FVec Ideal S6x256 .f32) (a4 : FVec Ideal S6 .f32) (a5 : FVec Ideal S65536x3 .f32) (b : Fin 512) (n : Fin 65536) : R_main_v46 (F := Ideal) a0 a1 a2 a3 a4 a5 (ix2 b n) = z1 a0 a1 a2 a3 a4 a5 b n := by
  unfold R_main_v46 z1
  rw [hostDivf_apply]
  rw [subf_apply, mulf_apply, coord3_apply _ 1 (by decide), R32_apply, rowBcast_apply, R17_apply, R37_apply, rowBcast_apply, R20_apply]

theorem R59_apply (a0 : FVec Ideal S512x256 .f32) (a1 : FVec Ideal S3x256 .f32) (a2 : FVec Ideal S3 .f32) (a3 : FVec Ideal S6x256 .f32) (a4 : FVec Ideal S6 .f32) (a5 : FVec Ideal S65536x3 .f32) (b : Fin 512) (n : Fin 65536) : R_main_v59 (F := Ideal) a0 a1 a2 a3 a4 a5 (ix2 b n) = z2 a0 a1 a2 a3 a4 a5 b n := by
  unfold R_main_v59 z2
  rw [hostDivf_apply]
  rw [subf_apply, subf_apply, mulf_apply, mulf_apply, coord3_apply _ 2 (by decide), R32_apply, rowBcast_apply, R22_apply, R37_apply,
    rowBcast_apply, R24_apply, R46_apply, rowBcast_apply, R27_apply]

/-! ## The log-density, and its softmax along a row -/

/-- The squared length of the forward substitution's solution. -/
def sqLen (a0 : FVec Ideal S512x256 .f32) (a1 : FVec Ideal S3x256 .f32) (a2 : FVec Ideal S3 .f32) (a3 : FVec Ideal S6x256 .f32) (a4 : FVec Ideal S6 .f32) (a5 : FVec Ideal S65536x3 .f32) (b : Fin 512) (n : Fin 65536) : EReal :=
  (z0 a0 a1 a2 a3 a4 a5 b n * z0 a0 a1 a2 a3 a4 a5 b n + z1 a0 a1 a2 a3 a4 a5 b n * z1 a0 a1 a2 a3 a4 a5 b n) + z2 a0 a1 a2 a3 a4 a5 b n * z2 a0 a1 a2 a3 a4 a5 b n

/-- The sum of the logarithms of the scale's diagonal: the logarithm of its determinant. -/
def logDet (a0 : FVec Ideal S512x256 .f32) (a3 : FVec Ideal S6x256 .f32) (a4 : FVec Ideal S6 .f32) (b : Fin 512) : EReal := (Ideal.log (l00 a0 a3 a4 b) + Ideal.log (l11 a0 a3 a4 b)) + Ideal.log (l22 a0 a3 a4 b)

/-- The log-density of pixel n in row b. -/
def lp (a0 : FVec Ideal S512x256 .f32) (a1 : FVec Ideal S3x256 .f32) (a2 : FVec Ideal S3 .f32) (a3 : FVec Ideal S6x256 .f32) (a4 : FVec Ideal S6 .f32) (a5 : FVec Ideal S65536x3 .f32) (b : Fin 512) (n : Fin 65536) : EReal := ((mhalfF * sqLen a0 a1 a2 a3 a4 a5 b n) - logNormF) - logDet a0 a3 a4 b

theorem R64_apply (a0 : FVec Ideal S512x256 .f32) (a1 : FVec Ideal S3x256 .f32) (a2 : FVec Ideal S3 .f32) (a3 : FVec Ideal S6x256 .f32) (a4 : FVec Ideal S6 .f32) (a5 : FVec Ideal S65536x3 .f32) (b : Fin 512) (n : Fin 65536) : R_main_v64 (F := Ideal) a0 a1 a2 a3 a4 a5 (ix2 b n) = sqLen a0 a1 a2 a3 a4 a5 b n := by
  unfold R_main_v64 sqLen
  rw [addf_apply, addf_apply, mulf_apply, mulf_apply, mulf_apply, R37_apply, R46_apply, R59_apply]

theorem R69_apply (a0 : FVec Ideal S512x256 .f32) (a3 : FVec Ideal S6x256 .f32) (a4 : FVec Ideal S6 .f32) (b : Fin 512) : R_main_v69 (F := Ideal) a0 a3 a4 (ix1 b) = logDet a0 a3 a4 b := by
  unfold R_main_v69 logDet
  rw [addf_apply, addf_apply, hostLog_apply, hostLog_apply, hostLog_apply, R15_apply, R20_apply, R27_apply]

theorem R76_apply (a0 : FVec Ideal S512x256 .f32) (a1 : FVec Ideal S3x256 .f32) (a2 : FVec Ideal S3 .f32) (a3 : FVec Ideal S6x256 .f32) (a4 : FVec Ideal S6 .f32) (a5 : FVec Ideal S65536x3 .f32) (b : Fin 512) (n : Fin 65536) : R_main_v76 (F := Ideal) a0 a1 a2 a3 a4 a5 (ix2 b n) = lp a0 a1 a2 a3 a4 a5 b n := by
  unfold R_main_v76 lp
  rw [subf_apply, subf_apply, mulf_apply, R64_apply, rowBcast_apply, R69_apply]
  rfl

/-- The reduced index b with pixel n put back on the reduced axis is (b, n). -/
theorem lift_row (h : S512x65536.Reduces [1] S512) (b : Fin 512) (n : Fin (S512x65536.size 1)) :
    h.lift (ix1 b) n = ix2 b (⟨n.val, n.isLt⟩ : Fin 65536) := by
  funext c; apply Fin.ext
  fin_cases c <;> rfl

/-- The maximum of the log-density along row b, folded from the program's starting value. -/
def rowMax (a0 : FVec Ideal S512x256 .f32) (a1 : FVec Ideal S3x256 .f32) (a2 : FVec Ideal S3 .f32) (a3 : FVec Ideal S6x256 .f32) (a4 : FVec Ideal S6 .f32) (a5 : FVec Ideal S65536x3 .f32) (b : Fin 512) : EReal := (Finset.univ : Finset (Fin 65536)).fold max negInfF (fun n => lp a0 a1 a2 a3 a4 a5 b n)

theorem R77_apply (a0 : FVec Ideal S512x256 .f32) (a1 : FVec Ideal S3x256 .f32) (a2 : FVec Ideal S3 .f32) (a3 : FVec Ideal S6x256 .f32) (a4 : FVec Ideal S6 .f32) (a5 : FVec Ideal S65536x3 .f32) (b : Fin 512) : R_main_v77 (F := Ideal) a0 a1 a2 a3 a4 a5 (ix1 b) = rowMax a0 a1 a2 a3 a4 a5 b := by
  have h : S512x65536.Reduces [1] S512 := by decide
  unfold R_main_v77 rowMax
  rw [Host.reduce_eq_fold_single FloatOps.maximumf _ _ reducesTo_S512x65536_S512_d1 h h_S_]
  have e : (R_main_v76 (F := Ideal) a0 a1 a2 a3 a4 a5 ∘ h.lift (ix1 b)) = fun n : Fin 65536 => lp a0 a1 a2 a3 a4 a5 b n :=
    funext fun n => by
      show R_main_v76 (F := Ideal) a0 a1 a2 a3 a4 a5 (h.lift (ix1 b) n) = _
      rw [lift_row, R76_apply]
      rfl
  rw [e]
  rfl

/-- The exponential of the log-density relative to the row's maximum. -/
def expRel (a0 : FVec Ideal S512x256 .f32) (a1 : FVec Ideal S3x256 .f32) (a2 : FVec Ideal S3 .f32) (a3 : FVec Ideal S6x256 .f32) (a4 : FVec Ideal S6 .f32) (a5 : FVec Ideal S65536x3 .f32) (b : Fin 512) (n : Fin 65536) : EReal := Ideal.exp (lp a0 a1 a2 a3 a4 a5 b n - rowMax a0 a1 a2 a3 a4 a5 b)

theorem R81_apply (a0 : FVec Ideal S512x256 .f32) (a1 : FVec Ideal S3x256 .f32) (a2 : FVec Ideal S3 .f32) (a3 : FVec Ideal S6x256 .f32) (a4 : FVec Ideal S6 .f32) (a5 : FVec Ideal S65536x3 .f32) (b : Fin 512) (n : Fin 65536) : R_main_v81 (F := Ideal) a0 a1 a2 a3 a4 a5 (ix2 b n) = expRel a0 a1 a2 a3 a4 a5 b n := by
  unfold R_main_v81 expRel
  rw [hostExp_apply, subf_apply, R76_apply, rowBcast_apply, R77_apply]

/-- The sum of these exponentials along row b, added to the program's starting value. -/
def rowSum (a0 : FVec Ideal S512x256 .f32) (a1 : FVec Ideal S3x256 .f32) (a2 : FVec Ideal S3 .f32) (a3 : FVec Ideal S6x256 .f32) (a4 : FVec Ideal S6 .f32) (a5 : FVec Ideal S65536x3 .f32) (b : Fin 512) : EReal := zeroF + ∑ n : Fin 65536, expRel a0 a1 a2 a3 a4 a5 b n

theorem R82_apply (a0 : FVec Ideal S512x256 .f32) (a1 : FVec Ideal S3x256 .f32) (a2 : FVec Ideal S3 .f32) (a3 : FVec Ideal S6x256 .f32) (a4 : FVec Ideal S6 .f32) (a5 : FVec Ideal S65536x3 .f32) (b : Fin 512) : R_main_v82 (F := Ideal) a0 a1 a2 a3 a4 a5 (ix1 b) = rowSum a0 a1 a2 a3 a4 a5 b := by
  have h : S512x65536.Reduces [1] S512 := by decide
  unfold R_main_v82 rowSum
  simp only [Host.reduceAdd, Ideal.hostReduceAdd_def]
  rw [Ideal.hostReduceAdd_single reducesTo_S512x65536_S512_d1 h]
  refine congrArg₂ (· + ·) rfl (Finset.sum_congr rfl fun n _ => ?_)
  rw [lift_row, R81_apply]
  rfl

/-- The reference's result: the softmax of the log-density along each row, the row's sum offset by a small constant. -/
def outAt (a0 : FVec Ideal S512x256 .f32) (a1 : FVec Ideal S3x256 .f32) (a2 : FVec Ideal S3 .f32) (a3 : FVec Ideal S6x256 .f32) (a4 : FVec Ideal S6 .f32) (a5 : FVec Ideal S65536x3 .f32) (b : Fin 512) (n : Fin 65536) : EReal := Ideal.div (expRel a0 a1 a2 a3 a4 a5 b n) (rowSum a0 a1 a2 a3 a4 a5 b + epsF)

def outR (a0 : FVec Ideal S512x256 .f32) (a1 : FVec Ideal S3x256 .f32) (a2 : FVec Ideal S3 .f32) (a3 : FVec Ideal S6x256 .f32) (a4 : FVec Ideal S6 .f32) (a5 : FVec Ideal S65536x3 .f32) : FVec Ideal S512x65536 .f32 := fun i => outAt a0 a1 a2 a3 a4 a5 (i 0) (i 1)

theorem R87_apply (a0 : FVec Ideal S512x256 .f32) (a1 : FVec Ideal S3x256 .f32) (a2 : FVec Ideal S3 .f32) (a3 : FVec Ideal S6x256 .f32) (a4 : FVec Ideal S6 .f32) (a5 : FVec Ideal S65536x3 .f32) (b : Fin 512) (n : Fin 65536) : R_main_v87 (F := Ideal) a0 a1 a2 a3 a4 a5 (ix2 b n) = outAt a0 a1 a2 a3 a4 a5 b n := by
  unfold R_main_v87 outAt
  rw [hostDivf_apply, R81_apply, bcast01_apply, addf_apply, bcast0_apply, R82_apply]
  rfl

theorem R87_eq (a0 : FVec Ideal S512x256 .f32) (a1 : FVec Ideal S3x256 .f32) (a2 : FVec Ideal S3 .f32) (a3 : FVec Ideal S6x256 .f32) (a4 : FVec Ideal S6 .f32) (a5 : FVec Ideal S65536x3 .f32) : R_main_v87 (F := Ideal) a0 a1 a2 a3 a4 a5 = outR a0 a1 a2 a3 a4 a5 := by
  funext i
  rw [eq_ix2 i]
  exact R87_apply a0 a1 a2 a3 a4 a5 (i 0) (i 1)

/-- After the reference's whole line, from any contents, the result buffer holds the softmax of the log-density of the
    argument arrays as they were at the start. -/
theorem result_eq (V : Valuation τ sig (Elt Ideal)) :
    after RefRun.ops V (Proc.devRef .tc main_v87)
      = outR (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [result_stage]
  exact R87_eq _ _ _ _ _ _

end Cert.ReferenceIdeal.RefValue

end
-- ==== Proof.Softplus.lean ====
/-
  The softplus and the exponential linear unit on real numbers, in the forms in which they are computed.

  The softplus `log (1 + eˣ)` is computed as `logaddexp x 0`:

      sp x = max x 0 + log (1 + exp (-|x - 0|)),

  returned unless `x - 0` fails to equal itself (the test for a NaN). It is a positive real at every real `x`: the
  first summand is at least `0` and the logarithm is of a number above `1`. The exponential linear unit is

      elu x = if x > 0 then x else 1 · (exp (if x > 0 then 0 else x) - 1),

  a real at every real `x`. The second half of the file reads both in the extended-real model of float arithmetic:
  applied to the reading of a real `x`, the model's operations, composed as above, give the reading of `sp x` and of
  `elu x` — no operation meets a corner (the logarithm's argument is positive, the NaN test is false, nothing is
  infinite) — so a positive-definite scale built from them has a real, positive diagonal with a real logarithm.
-/
import Idealize.ShloMosaic.PureOps.Ideal

noncomputable section

namespace Cert.SoftplusReal

open Idealize.ShloMosaic

/-! ### On the reals -/

/-- The softplus as `logaddexp x 0`. -/
def sp (x : ℝ) : ℝ := max x 0 + Real.log (1 + Real.exp (-|x - 0|))

theorem one_add_exp_pos (t : ℝ) : 0 < 1 + Real.exp t := by
  have := Real.exp_pos t
  linarith

/-- The logarithm's argument is above `1`, so the logarithm is positive. -/
theorem log_one_add_exp_pos (t : ℝ) : 0 < Real.log (1 + Real.exp t) :=
  Real.log_pos (by have := Real.exp_pos t; linarith)

theorem sp_pos (x : ℝ) : 0 < sp x := by
  have h1 : 0 ≤ max x 0 := le_max_right x 0
  have h2 := log_one_add_exp_pos (-|x - 0|)
  unfold sp
  linarith

theorem sp_ne_zero (x : ℝ) : sp x ≠ 0 := (sp_pos x).ne'

/-- The softplus is the textbook `log (1 + eˣ)`. -/
theorem sp_eq_log_one_add_exp (x : ℝ) : sp x = Real.log (1 + Real.exp x) := by
  unfold sp
  rw [sub_zero]
  rcases le_total 0 x with h | h
  · rw [max_eq_left h, abs_of_nonneg h, ← Real.log_exp x, ← Real.log_mul (Real.exp_pos x).ne' (one_add_exp_pos _).ne',
      Real.log_exp, mul_add, mul_one, ← Real.exp_add, add_neg_cancel, Real.exp_zero, add_comm]
  · rw [max_eq_right h, abs_of_nonpos h, neg_neg, zero_add]

/-- The exponential linear unit (with unit scale), as computed: both selections test `x > 0`. -/
def eluR (x : ℝ) : ℝ := if 0 < x then x else 1 * (Real.exp (if 0 < x then 0 else x) - 1)

theorem eluR_of_pos {x : ℝ} (h : 0 < x) : eluR x = x := by
  unfold eluR; rw [if_pos h]

theorem eluR_of_not_pos {x : ℝ} (h : ¬ 0 < x) : eluR x = Real.exp x - 1 := by
  unfold eluR; rw [if_neg h, if_neg h, one_mul]

/-- The unit shifted by one is positive: above `1` right of zero, an exponential elsewhere. -/
theorem eluR_add_one_pos (x : ℝ) : 0 < eluR x + 1 := by
  by_cases h : 0 < x
  · rw [eluR_of_pos h]; linarith
  · rw [eluR_of_not_pos h]; have := Real.exp_pos x; linarith

/-! ### In the extended-real model, on the reading of a real -/

private theorem coe_max' (a b : ℝ) : max (a : EReal) (b : EReal) = ((max a b : ℝ) : EReal) :=
  (EReal.coe_strictMono.monotone.map_max).symm

private theorem select_zero' {α : Type} (a b : α) : Scalar.select (0#1) a b = b := rfl

private theorem cmp_une_self' (x : EReal) : Ideal.cmp .une x x = 0#1 := by
  show BitVec.ofBool (decide (x ≠ x)) = _
  simp

private theorem select_ogt' {α : Type} (r s : ℝ) (a b : α) :
    Scalar.select (Ideal.cmp .ogt (r : EReal) (s : EReal)) a b = if s < r then a else b := by
  show Scalar.select (BitVec.ofBool (decide ((s : EReal) < (r : EReal)))) a b = _
  by_cases h : s < r
  · rw [if_pos h, decide_eq_true (EReal.coe_lt_coe_iff.mpr h)]; rfl
  · rw [if_neg h, decide_eq_false (fun h' => h (EReal.coe_lt_coe_iff.mp h'))]; rfl

/-- The softplus as the model computes it — `max x 0 + log1p (exp (-|x - 0|))`, selected against `x + 0` on the NaN
    test of `x - 0`, the absolute value being `max t (-t)` — at the reading of a real `x` is the reading of `sp x`. -/
theorem softplus_coe (x : ℝ) :
    Scalar.select (Ideal.cmp .une ((x : EReal) - ((0 : ℝ) : EReal)) ((x : EReal) - ((0 : ℝ) : EReal)))
        ((x : EReal) + ((0 : ℝ) : EReal))
        (max (x : EReal) ((0 : ℝ) : EReal)
          + Ideal.log1p (Ideal.exp (-(max ((x : EReal) - ((0 : ℝ) : EReal)) (-((x : EReal) - ((0 : ℝ) : EReal)))))))
      = ((sp x : ℝ) : EReal) := by
  have habs : max ((x : EReal) - ((0 : ℝ) : EReal)) (-((x : EReal) - ((0 : ℝ) : EReal))) = ((|x - 0| : ℝ) : EReal) := by
    rw [← EReal.coe_sub, ← EReal.coe_neg, coe_max', ← abs_eq_max_neg]
  have hlog : Ideal.log1p (((Real.exp (-|x - 0|) : ℝ) : EReal)) = ((Real.log (1 + Real.exp (-|x - 0|)) : ℝ) : EReal) := by
    rw [Ideal.log1p, ← EReal.coe_one, ← EReal.coe_add, Ideal.log_coe, if_neg (not_le.mpr (one_add_exp_pos _))]
  rw [cmp_une_self', select_zero', habs, ← EReal.coe_neg, Ideal.exp_coe, hlog, coe_max', ← EReal.coe_add]
  rfl

/-- The exponential linear unit as the model computes it — `select (x > 0) x (1 · (exp (select (x > 0) 0 x) - 1))` —
    at the reading of a real `x` is the reading of `eluR x`. -/
theorem elu_coe (x : ℝ) :
    Scalar.select (Ideal.cmp .ogt (x : EReal) ((0 : ℝ) : EReal)) (x : EReal)
        (((1 : ℝ) : EReal)
          * (Ideal.exp (Scalar.select (Ideal.cmp .ogt (x : EReal) ((0 : ℝ) : EReal)) ((0 : ℝ) : EReal) (x : EReal)) - 1))
      = ((eluR x : ℝ) : EReal) := by
  rw [select_ogt', select_ogt']
  by_cases h : 0 < x
  · rw [if_pos h, eluR_of_pos h]
  · rw [if_neg h, if_neg h, eluR_of_not_pos h, Ideal.exp_coe, ← EReal.coe_one, ← EReal.coe_sub, ← EReal.coe_mul,
      one_mul]

/-- The logarithm of a softplus, in the model, is the reading of the real logarithm. -/
theorem log_sp_coe (x : ℝ) : Ideal.log ((sp x : ℝ) : EReal) = ((Real.log (sp x) : ℝ) : EReal) := by
  rw [Ideal.log_coe, if_neg (not_le.mpr (sp_pos x))]

/-- Multiplying by the reciprocal of a nonzero real is dividing by it. -/
theorem mul_one_div_coe (p : ℝ) {d : ℝ} (hd : d ≠ 0) :
    (p : EReal) * Ideal.div 1 (d : EReal) = Ideal.div (p : EReal) (d : EReal) := by
  rw [Ideal.div_coe hd, Ideal.div_coe hd, one_mul]

end Cert.SoftplusReal

end
-- ==== Proof.QuadForm.lean ====
/-
  The log-density of a trivariate Gaussian as a polynomial in the position.

  A lower-triangular scale matrix `L = [[l00, 0, 0], [l10, l11, 0], [l20, l21, l22]]` with nonzero diagonal,
  a mean `(mx, my, mz)` and a position `(x, y, z)`. Forward substitution solves `L w = position - mean`:

      z0 = (x - mx) / l00,   z1 = ((y - my) - l10 z0) / l11,   z2 = ((z - mz) - l20 z0 - l21 z1) / l22,

  and the log-density is `-1/2 (z0² + z1² + z2²) - K - ld` (`K` the normalising constant, `ld` the
  log-determinant). Each `zi` is a linear form in `position - mean`,

      z0 = A0 dx,   z1 = B0 dx + B1 dy,   z2 = C0 dx + C1 dy + C2 dz,

  with `A0 = 1/l00`, `B0 = -l10 A0 / l11`, `B1 = 1/l11`, `C2 = 1/l22`, `C1 = -l21 B1 C2`,
  `C0 = -(l20 A0 + l21 B0) C2`; so the sum of squares is a quadratic form in `position - mean`, and expanding it
  about the mean gives ten coefficients `c0 … c9` with

      log-density = c0 + c1 x + c2 y + c3 z + c4 x² + c5 y² + c6 z² + c7 xy + c8 xz + c9 yz.

  Both sides are written here term by term, in the association in which they are computed, and the identity
  is proved over `ℝ` for nonzero `l00, l11, l22`: clear the three denominators, then it is a polynomial identity.
-/
import Mathlib.Tactic.FieldSimp
import Mathlib.Tactic.Ring
import Mathlib.Tactic.NormNum.OfScientific
import Mathlib.Data.Real.Basic

noncomputable section

namespace Cert.QuadForm

variable (l00 l10 l11 l20 l21 l22 mx my mz K ld x y z : ℝ)

/-! ### The linear forms of the forward substitution -/

def A0 : ℝ := 1 / l00
def B0 : ℝ := -l10 * A0 l00 / l11
def B1 : ℝ := 1 / l11
def C2 : ℝ := 1 / l22
def C1 : ℝ := -l21 * B1 l11 * C2 l22
def C0 : ℝ := -(l20 * A0 l00 + l21 * B0 l00 l10 l11) * C2 l22

/-! ### The quadratic form's coefficients -/

def coefXX : ℝ := A0 l00 * A0 l00 + B0 l00 l10 l11 * B0 l00 l10 l11 + C0 l00 l10 l11 l20 l21 l22 * C0 l00 l10 l11 l20 l21 l22
def coefYY : ℝ := B1 l11 * B1 l11 + C1 l11 l21 l22 * C1 l11 l21 l22
def coefZZ : ℝ := C2 l22 * C2 l22
def coefXY : ℝ := 2 * (B0 l00 l10 l11 * B1 l11 + C0 l00 l10 l11 l20 l21 l22 * C1 l11 l21 l22)
def coefXZ : ℝ := 2 * C0 l00 l10 l11 l20 l21 l22 * C2 l22
def coefYZ : ℝ := 2 * C1 l11 l21 l22 * C2 l22

/-! ### The ten polynomial coefficients -/

def c4 : ℝ := -0.5 * coefXX l00 l10 l11 l20 l21 l22
def c5 : ℝ := -0.5 * coefYY l11 l21 l22
def c6 : ℝ := -0.5 * coefZZ l22
def c7 : ℝ := -0.5 * coefXY l00 l10 l11 l20 l21 l22
def c8 : ℝ := -0.5 * coefXZ l00 l10 l11 l20 l21 l22
def c9 : ℝ := -0.5 * coefYZ l11 l21 l22

def c1 : ℝ :=
  coefXX l00 l10 l11 l20 l21 l22 * mx + 0.5 * coefXY l00 l10 l11 l20 l21 l22 * my
    + 0.5 * coefXZ l00 l10 l11 l20 l21 l22 * mz
def c2 : ℝ :=
  coefYY l11 l21 l22 * my + 0.5 * coefXY l00 l10 l11 l20 l21 l22 * mx + 0.5 * coefYZ l11 l21 l22 * mz
def c3 : ℝ :=
  coefZZ l22 * mz + 0.5 * coefXZ l00 l10 l11 l20 l21 l22 * mx + 0.5 * coefYZ l11 l21 l22 * my

/-- The quadratic form at the mean. -/
def cst : ℝ :=
  coefXX l00 l10 l11 l20 l21 l22 * mx * mx + coefYY l11 l21 l22 * my * my + coefZZ l22 * mz * mz
    + coefXY l00 l10 l11 l20 l21 l22 * mx * my + coefXZ l00 l10 l11 l20 l21 l22 * mx * mz
    + coefYZ l11 l21 l22 * my * mz

def c0 : ℝ := -0.5 * cst l00 l10 l11 l20 l21 l22 mx my mz - K - ld

/-- The polynomial, summed term by term from the left. -/
def polyLp : ℝ :=
  c0 l00 l10 l11 l20 l21 l22 mx my mz K ld + c1 l00 l10 l11 l20 l21 l22 mx my mz * x
    + c2 l00 l10 l11 l20 l21 l22 mx my mz * y + c3 l00 l10 l11 l20 l21 l22 mx my mz * z
    + c4 l00 l10 l11 l20 l21 l22 * (x * x) + c5 l11 l21 l22 * (y * y) + c6 l22 * (z * z)
    + c7 l00 l10 l11 l20 l21 l22 * (x * y) + c8 l00 l10 l11 l20 l21 l22 * (x * z) + c9 l11 l21 l22 * (y * z)

/-! ### The forward substitution itself -/

def z0 : ℝ := (x - mx) / l00
def z1 : ℝ := ((y - my) - l10 * z0 l00 mx x) / l11
def z2 : ℝ := ((z - mz) - l20 * z0 l00 mx x - l21 * z1 l00 l10 l11 mx my x y) / l22

/-- The sum of squares of the solved vector. -/
def maha : ℝ :=
  z0 l00 mx x * z0 l00 mx x + z1 l00 l10 l11 mx my x y * z1 l00 l10 l11 mx my x y
    + z2 l00 l10 l11 l20 l21 l22 mx my mz x y z * z2 l00 l10 l11 l20 l21 l22 mx my mz x y z

def refLp : ℝ := -0.5 * maha l00 l10 l11 l20 l21 l22 mx my mz x y z - K - ld

/-! ### The identity -/

variable {l00 l11 l22}

/-- The solved vector is the three linear forms of `position - mean`. -/
theorem z0_eq (h00 : l00 ≠ 0) : z0 l00 mx x = A0 l00 * (x - mx) := by
  unfold z0 A0; field_simp

theorem z1_eq (h00 : l00 ≠ 0) (h11 : l11 ≠ 0) :
    z1 l00 l10 l11 mx my x y = B0 l00 l10 l11 * (x - mx) + B1 l11 * (y - my) := by
  unfold z1 z0 B0 B1 A0; field_simp; ring

theorem z2_eq (h00 : l00 ≠ 0) (h11 : l11 ≠ 0) (h22 : l22 ≠ 0) :
    z2 l00 l10 l11 l20 l21 l22 mx my mz x y z
      = C0 l00 l10 l11 l20 l21 l22 * (x - mx) + C1 l11 l21 l22 * (y - my) + C2 l22 * (z - mz) := by
  unfold z2 z1 z0 C0 C1 C2 B0 B1 A0; field_simp; ring

/-- The polynomial in the position, with the ten coefficients above, is the log-density computed by forward
    substitution. -/
theorem polyLp_eq_refLp (h00 : l00 ≠ 0) (h11 : l11 ≠ 0) (h22 : l22 ≠ 0) :
    polyLp l00 l10 l11 l20 l21 l22 mx my mz K ld x y z = refLp l00 l10 l11 l20 l21 l22 mx my mz K ld x y z := by
  unfold refLp maha
  rw [z0_eq mx x h00, z1_eq l10 mx my x y h00 h11, z2_eq l10 l20 l21 mx my mz x y z h00 h11 h22]
  unfold polyLp c0 c1 c2 c3 c4 c5 c6 c7 c8 c9 cst coefXX coefYY coefZZ coefXY coefXZ coefYZ
  ring

end Cert.QuadForm

end
-- ==== Proof.RefReal.lean ====
/-
  The reference in real numbers. When the six argument arrays are readings of arrays of reals, no operation of the
  reference meets a corner of the extended-real arithmetic: the affine maps are real; the exponential linear unit plus
  one and the softplus are real, the softplus positive, so the forward substitution divides by nonzero reals and the
  logarithms are of positive reals; the log-density is therefore the reading of a real — the log-density of a trivariate
  Gaussian computed by forward substitution — its row maximum is the reading of the real maximum, each exponential
  relative to it the reading of a real exponential, the row sum the reading of a positive real, and the result the
  reading of the real softmax with the small positive offset in the denominator.
-/
import proofs.«169934_j78314433675744_2_alg».proof.Proof.RefValue
import proofs.«169934_j78314433675744_2_alg».proof.Proof.LibIdealReal
import proofs.«169934_j78314433675744_2_alg».proof.Proof.Softplus
import proofs.«169934_j78314433675744_2_alg».proof.Proof.QuadForm
import Mathlib.Tactic.Positivity
import Mathlib.Tactic.NormNum

noncomputable section

namespace Cert.ReferenceIdeal.RefReal

open Cert.ReferenceIdeal Cert.ReferenceIdeal.RefValue Idealize.ShloMosaic Idealize.ShloMosaic.ValueIdx Cert.SoftplusReal

/-! ## The float literals as real numbers -/

/-- A 32-bit word whose exponent field is not all ones denotes a real number. -/
theorem f32_real (w : BitVec 32) (h : (w.extractLsb' 23 8).toNat ≠ 2 ^ 8 - 1) : ∃ r : ℝ, Ideal.ofBits .f32 w = (r : EReal) := by
  show ∃ r : ℝ, Ideal.ieee 8 23 w = (r : EReal)
  unfold Ideal.ieee
  dsimp only
  rw [if_neg h]
  split_ifs
  all_goals exact ⟨_, rfl⟩

/-- A 32-bit word with a clear sign bit and an exponent field neither zero nor all ones denotes a positive real. -/
theorem f32_pos (w : BitVec 32) (hs : (w.extractLsb' (8 + 23) 1 == 1#1) = false) (h1 : (w.extractLsb' 23 8).toNat ≠ 2 ^ 8 - 1)
    (h0 : (w.extractLsb' 23 8).toNat ≠ 0) : ∃ r : ℝ, 0 < r ∧ Ideal.ofBits .f32 w = (r : EReal) := by
  show ∃ r : ℝ, 0 < r ∧ Ideal.ieee 8 23 w = (r : EReal)
  unfold Ideal.ieee
  dsimp only
  rw [if_neg h1, if_neg h0, hs]
  refine ⟨_, ?_, rfl⟩
  simp only [Bool.false_eq_true, if_false]
  positivity

theorem logNorm_real : ∃ K : ℝ, Ideal.ofBits .f32 0x40306FAB#32 = (K : EReal) := f32_real _ (by decide)
theorem eps_pos : ∃ e : ℝ, 0 < e ∧ Ideal.ofBits .f32 0x2EDBE6FF#32 = (e : EReal) := f32_pos _ (by decide) (by decide) (by decide)
theorem ofBits_neg_inf_f32 : Ideal.ofBits .f32 0xFF800000#32 = (⊥ : EReal) := by
  simp [Ideal.ofBits, Ideal.ieee]
theorem ofBits_mhalf_f32 : Ideal.ofBits .f32 0xBF000000#32 = ((-0.5 : ℝ) : EReal) := by
  simp [Ideal.ofBits, Ideal.ieee, -EReal.coe_mul]; norm_num

/-- The normalising constant of the log-density, as a real number. -/
def KR : ℝ := Classical.choose logNorm_real
theorem logNorm_coe : Ideal.ofBits .f32 0x40306FAB#32 = ((KR : ℝ) : EReal) := Classical.choose_spec logNorm_real

/-- The small offset of the softmax's denominator, as a real number: it is positive. -/
def epsR : ℝ := Classical.choose eps_pos
theorem epsR_pos : 0 < epsR := (Classical.choose_spec eps_pos).1
theorem eps_coe : Ideal.ofBits .f32 0x2EDBE6FF#32 = ((epsR : ℝ) : EReal) := (Classical.choose_spec eps_pos).2

/-- The reading of an array of reals. -/
abbrev up {s : Shape} (r : s.Idx → ℝ) : FVec Ideal s .f32 := fun i => ((r i : ℝ) : EReal)

theorem univ_ne : (Finset.univ : Finset (Fin 65536)).Nonempty := ⟨⟨0, by decide⟩, Finset.mem_univ _⟩

/-! ## A row: the mean and the scale -/

def meansR (r0 : S512x256.Idx → ℝ) (r1 : S3x256.Idx → ℝ) (r2 : S3.Idx → ℝ) (b : Fin 512) (k : Fin 3) : ℝ := (∑ d : Fin 256, r0 (ix2 b d) * r1 (ix2 k d)) + r2 (ix1 k)
def srawR (r0 : S512x256.Idx → ℝ) (r3 : S6x256.Idx → ℝ) (r4 : S6.Idx → ℝ) (b : Fin 512) (k : Fin 6) : ℝ := (∑ d : Fin 256, r0 (ix2 b d) * r3 (ix2 k d)) + r4 (ix1 k)
/-- Entry k of the scale before the softplus: the exponential linear unit of the raw entry, plus one. -/
def sR (r0 : S512x256.Idx → ℝ) (r3 : S6x256.Idx → ℝ) (r4 : S6.Idx → ℝ) (b : Fin 512) (k : Fin 6) : ℝ := eluR (srawR r0 r3 r4 b k) + 1
def l00R (r0 : S512x256.Idx → ℝ) (r3 : S6x256.Idx → ℝ) (r4 : S6.Idx → ℝ) (b : Fin 512) : ℝ := sp (sR r0 r3 r4 b ⟨0, by decide⟩)
def l10R (r0 : S512x256.Idx → ℝ) (r3 : S6x256.Idx → ℝ) (r4 : S6.Idx → ℝ) (b : Fin 512) : ℝ := sR r0 r3 r4 b ⟨1, by decide⟩
def l11R (r0 : S512x256.Idx → ℝ) (r3 : S6x256.Idx → ℝ) (r4 : S6.Idx → ℝ) (b : Fin 512) : ℝ := sp (sR r0 r3 r4 b ⟨2, by decide⟩)
def l20R (r0 : S512x256.Idx → ℝ) (r3 : S6x256.Idx → ℝ) (r4 : S6.Idx → ℝ) (b : Fin 512) : ℝ := sR r0 r3 r4 b ⟨3, by decide⟩
def l21R (r0 : S512x256.Idx → ℝ) (r3 : S6x256.Idx → ℝ) (r4 : S6.Idx → ℝ) (b : Fin 512) : ℝ := sR r0 r3 r4 b ⟨4, by decide⟩
def l22R (r0 : S512x256.Idx → ℝ) (r3 : S6x256.Idx → ℝ) (r4 : S6.Idx → ℝ) (b : Fin 512) : ℝ := sp (sR r0 r3 r4 b ⟨5, by decide⟩)

theorem l00R_pos (r0 : S512x256.Idx → ℝ) (r3 : S6x256.Idx → ℝ) (r4 : S6.Idx → ℝ) (b : Fin 512) : 0 < l00R r0 r3 r4 b := sp_pos _
theorem l11R_pos (r0 : S512x256.Idx → ℝ) (r3 : S6x256.Idx → ℝ) (r4 : S6.Idx → ℝ) (b : Fin 512) : 0 < l11R r0 r3 r4 b := sp_pos _
theorem l22R_pos (r0 : S512x256.Idx → ℝ) (r3 : S6x256.Idx → ℝ) (r4 : S6.Idx → ℝ) (b : Fin 512) : 0 < l22R r0 r3 r4 b := sp_pos _
theorem l00R_ne (r0 : S512x256.Idx → ℝ) (r3 : S6x256.Idx → ℝ) (r4 : S6.Idx → ℝ) (b : Fin 512) : l00R r0 r3 r4 b ≠ 0 := sp_ne_zero _
theorem l11R_ne (r0 : S512x256.Idx → ℝ) (r3 : S6x256.Idx → ℝ) (r4 : S6.Idx → ℝ) (b : Fin 512) : l11R r0 r3 r4 b ≠ 0 := sp_ne_zero _
theorem l22R_ne (r0 : S512x256.Idx → ℝ) (r3 : S6x256.Idx → ℝ) (r4 : S6.Idx → ℝ) (b : Fin 512) : l22R r0 r3 r4 b ≠ 0 := sp_ne_zero _

theorem means_coe (r0 : S512x256.Idx → ℝ) (r1 : S3x256.Idx → ℝ) (r2 : S3.Idx → ℝ) (b : Fin 512) (k : Fin 3) : means (up r0) (up r1) (up r2) b k = ((meansR r0 r1 r2 b k : ℝ) : EReal) := by
  unfold means meansR
  have hs : (∑ d : Fin 256, ((r0 (ix2 b d) : ℝ) : EReal) * ((r1 (ix2 k d) : ℝ) : EReal))
      = ((∑ d : Fin 256, r0 (ix2 b d) * r1 (ix2 k d) : ℝ) : EReal) :=
    LibIdealReal.sum_eq_coe _ _ _ (fun d _ => LibIdealReal.mul_coe _ _)
  show (∑ d : Fin 256, ((r0 (ix2 b d) : ℝ) : EReal) * ((r1 (ix2 k d) : ℝ) : EReal)) + ((r2 (ix1 k) : ℝ) : EReal) = _
  rw [hs, LibIdealReal.add_coe]

theorem sraw_coe (r0 : S512x256.Idx → ℝ) (r3 : S6x256.Idx → ℝ) (r4 : S6.Idx → ℝ) (b : Fin 512) (k : Fin 6) : sraw (up r0) (up r3) (up r4) b k = ((srawR r0 r3 r4 b k : ℝ) : EReal) := by
  unfold sraw srawR
  have hs : (∑ d : Fin 256, ((r0 (ix2 b d) : ℝ) : EReal) * ((r3 (ix2 k d) : ℝ) : EReal))
      = ((∑ d : Fin 256, r0 (ix2 b d) * r3 (ix2 k d) : ℝ) : EReal) :=
    LibIdealReal.sum_eq_coe _ _ _ (fun d _ => LibIdealReal.mul_coe _ _)
  show (∑ d : Fin 256, ((r0 (ix2 b d) : ℝ) : EReal) * ((r3 (ix2 k d) : ℝ) : EReal)) + ((r4 (ix1 k) : ℝ) : EReal) = _
  rw [hs, LibIdealReal.add_coe]

theorem sVal_coe (r0 : S512x256.Idx → ℝ) (r3 : S6x256.Idx → ℝ) (r4 : S6.Idx → ℝ) (b : Fin 512) (k : Fin 6) : sVal (up r0) (up r3) (up r4) b k = ((sR r0 r3 r4 b k : ℝ) : EReal) := by
  unfold sVal eluS sR zeroF oneF
  rw [sraw_coe, LibIdealReal.ofBits_zero_f32, LibIdealReal.ofBits_one_f32, elu_coe, LibIdealReal.add_coe]

theorem l00_coe (r0 : S512x256.Idx → ℝ) (r3 : S6x256.Idx → ℝ) (r4 : S6.Idx → ℝ) (b : Fin 512) : l00 (up r0) (up r3) (up r4) b = ((l00R r0 r3 r4 b : ℝ) : EReal) := by
  unfold l00 d00 softplusS zeroF l00R
  rw [sVal_coe, LibIdealReal.ofBits_zero_f32, softplus_coe]
theorem l11_coe (r0 : S512x256.Idx → ℝ) (r3 : S6x256.Idx → ℝ) (r4 : S6.Idx → ℝ) (b : Fin 512) : l11 (up r0) (up r3) (up r4) b = ((l11R r0 r3 r4 b : ℝ) : EReal) := by
  unfold l11 d11 softplusS zeroF l11R
  rw [sVal_coe, LibIdealReal.ofBits_zero_f32, softplus_coe]
theorem l22_coe (r0 : S512x256.Idx → ℝ) (r3 : S6x256.Idx → ℝ) (r4 : S6.Idx → ℝ) (b : Fin 512) : l22 (up r0) (up r3) (up r4) b = ((l22R r0 r3 r4 b : ℝ) : EReal) := by
  unfold l22 d22 softplusS zeroF l22R
  rw [sVal_coe, LibIdealReal.ofBits_zero_f32, softplus_coe]
theorem l10_coe (r0 : S512x256.Idx → ℝ) (r3 : S6x256.Idx → ℝ) (r4 : S6.Idx → ℝ) (b : Fin 512) : l10 (up r0) (up r3) (up r4) b = ((l10R r0 r3 r4 b : ℝ) : EReal) := by
  unfold l10 l10R; exact sVal_coe r0 r3 r4 b _
theorem l20_coe (r0 : S512x256.Idx → ℝ) (r3 : S6x256.Idx → ℝ) (r4 : S6.Idx → ℝ) (b : Fin 512) : l20 (up r0) (up r3) (up r4) b = ((l20R r0 r3 r4 b : ℝ) : EReal) := by
  unfold l20 l20R; exact sVal_coe r0 r3 r4 b _
theorem l21_coe (r0 : S512x256.Idx → ℝ) (r3 : S6x256.Idx → ℝ) (r4 : S6.Idx → ℝ) (b : Fin 512) : l21 (up r0) (up r3) (up r4) b = ((l21R r0 r3 r4 b : ℝ) : EReal) := by
  unfold l21 l21R; exact sVal_coe r0 r3 r4 b _

/-! ## A pixel: the forward substitution and the log-density -/

theorem diff_coe (r0 : S512x256.Idx → ℝ) (r1 : S3x256.Idx → ℝ) (r2 : S3.Idx → ℝ) (r5 : S65536x3.Idx → ℝ) (b : Fin 512) (n : Fin 65536) (k : Fin 3) :
    diff (up r0) (up r1) (up r2) (up r5) b n k = ((r5 (ix2 n k) - meansR r0 r1 r2 b k : ℝ) : EReal) := by
  unfold diff
  rw [means_coe]
  exact LibIdealReal.sub_coe _ _

theorem z0_coe (r0 : S512x256.Idx → ℝ) (r1 : S3x256.Idx → ℝ) (r2 : S3.Idx → ℝ) (r3 : S6x256.Idx → ℝ) (r4 : S6.Idx → ℝ) (r5 : S65536x3.Idx → ℝ) (b : Fin 512) (n : Fin 65536) : z0 (up r0) (up r1) (up r2) (up r3) (up r4) (up r5) b n = ((QuadForm.z0 (l00R r0 r3 r4 b) (meansR r0 r1 r2 b ⟨0, by decide⟩) (r5 (ix2 n ⟨0, by decide⟩)) : ℝ) : EReal) := by
  unfold z0 QuadForm.z0
  rw [diff_coe, l00_coe, LibIdealReal.div_coe _ (l00R_ne r0 r3 r4 b)]

theorem z1_coe (r0 : S512x256.Idx → ℝ) (r1 : S3x256.Idx → ℝ) (r2 : S3.Idx → ℝ) (r3 : S6x256.Idx → ℝ) (r4 : S6.Idx → ℝ) (r5 : S65536x3.Idx → ℝ) (b : Fin 512) (n : Fin 65536) : z1 (up r0) (up r1) (up r2) (up r3) (up r4) (up r5) b n = ((QuadForm.z1 (l00R r0 r3 r4 b) (l10R r0 r3 r4 b) (l11R r0 r3 r4 b) (meansR r0 r1 r2 b ⟨0, by decide⟩) (meansR r0 r1 r2 b ⟨1, by decide⟩) (r5 (ix2 n ⟨0, by decide⟩)) (r5 (ix2 n ⟨1, by decide⟩)) : ℝ) : EReal) := by
  unfold z1 QuadForm.z1
  rw [diff_coe, l10_coe, z0_coe, LibIdealReal.mul_coe, LibIdealReal.sub_coe, l11_coe, LibIdealReal.div_coe _ (l11R_ne r0 r3 r4 b)]

theorem z2_coe (r0 : S512x256.Idx → ℝ) (r1 : S3x256.Idx → ℝ) (r2 : S3.Idx → ℝ) (r3 : S6x256.Idx → ℝ) (r4 : S6.Idx → ℝ) (r5 : S65536x3.Idx → ℝ) (b : Fin 512) (n : Fin 65536) : z2 (up r0) (up r1) (up r2) (up r3) (up r4) (up r5) b n = ((QuadForm.z2 (l00R r0 r3 r4 b) (l10R r0 r3 r4 b) (l11R r0 r3 r4 b) (l20R r0 r3 r4 b) (l21R r0 r3 r4 b) (l22R r0 r3 r4 b) (meansR r0 r1 r2 b ⟨0, by decide⟩) (meansR r0 r1 r2 b ⟨1, by decide⟩) (meansR r0 r1 r2 b ⟨2, by decide⟩) (r5 (ix2 n ⟨0, by decide⟩)) (r5 (ix2 n ⟨1, by decide⟩)) (r5 (ix2 n ⟨2, by decide⟩)) : ℝ) : EReal) := by
  unfold z2 QuadForm.z2
  rw [diff_coe, l20_coe, z0_coe, LibIdealReal.mul_coe, LibIdealReal.sub_coe, l21_coe, z1_coe, LibIdealReal.mul_coe,
    LibIdealReal.sub_coe, l22_coe, LibIdealReal.div_coe _ (l22R_ne r0 r3 r4 b)]

theorem sqLen_coe (r0 : S512x256.Idx → ℝ) (r1 : S3x256.Idx → ℝ) (r2 : S3.Idx → ℝ) (r3 : S6x256.Idx → ℝ) (r4 : S6.Idx → ℝ) (r5 : S65536x3.Idx → ℝ) (b : Fin 512) (n : Fin 65536) : sqLen (up r0) (up r1) (up r2) (up r3) (up r4) (up r5) b n = ((QuadForm.maha (l00R r0 r3 r4 b) (l10R r0 r3 r4 b) (l11R r0 r3 r4 b) (l20R r0 r3 r4 b) (l21R r0 r3 r4 b) (l22R r0 r3 r4 b) (meansR r0 r1 r2 b ⟨0, by decide⟩) (meansR r0 r1 r2 b ⟨1, by decide⟩) (meansR r0 r1 r2 b ⟨2, by decide⟩) (r5 (ix2 n ⟨0, by decide⟩)) (r5 (ix2 n ⟨1, by decide⟩)) (r5 (ix2 n ⟨2, by decide⟩)) : ℝ) : EReal) := by
  unfold sqLen QuadForm.maha
  rw [z0_coe, z1_coe, z2_coe, LibIdealReal.mul_coe, LibIdealReal.mul_coe, LibIdealReal.mul_coe, LibIdealReal.add_coe,
    LibIdealReal.add_coe]

/-- The logarithm of the scale's determinant, as a real number. -/
def ldR (r0 : S512x256.Idx → ℝ) (r3 : S6x256.Idx → ℝ) (r4 : S6.Idx → ℝ) (b : Fin 512) : ℝ := Real.log (l00R r0 r3 r4 b) + Real.log (l11R r0 r3 r4 b) + Real.log (l22R r0 r3 r4 b)

theorem logDet_coe (r0 : S512x256.Idx → ℝ) (r3 : S6x256.Idx → ℝ) (r4 : S6.Idx → ℝ) (b : Fin 512) : logDet (up r0) (up r3) (up r4) b = ((ldR r0 r3 r4 b : ℝ) : EReal) := by
  unfold logDet ldR
  rw [l00_coe, l11_coe, l22_coe, LibIdealReal.log_coe (l00R_pos r0 r3 r4 b), LibIdealReal.log_coe (l11R_pos r0 r3 r4 b),
    LibIdealReal.log_coe (l22R_pos r0 r3 r4 b), LibIdealReal.add_coe, LibIdealReal.add_coe]

/-- The log-density of pixel n in row b, as a real number: a trivariate Gaussian's, by forward substitution. -/
def lpR (r0 : S512x256.Idx → ℝ) (r1 : S3x256.Idx → ℝ) (r2 : S3.Idx → ℝ) (r3 : S6x256.Idx → ℝ) (r4 : S6.Idx → ℝ) (r5 : S65536x3.Idx → ℝ) (b : Fin 512) (n : Fin 65536) : ℝ :=
  QuadForm.refLp (l00R r0 r3 r4 b) (l10R r0 r3 r4 b) (l11R r0 r3 r4 b) (l20R r0 r3 r4 b) (l21R r0 r3 r4 b) (l22R r0 r3 r4 b) (meansR r0 r1 r2 b ⟨0, by decide⟩) (meansR r0 r1 r2 b ⟨1, by decide⟩) (meansR r0 r1 r2 b ⟨2, by decide⟩) KR (ldR r0 r3 r4 b) (r5 (ix2 n ⟨0, by decide⟩)) (r5 (ix2 n ⟨1, by decide⟩)) (r5 (ix2 n ⟨2, by decide⟩))

theorem lp_coe (r0 : S512x256.Idx → ℝ) (r1 : S3x256.Idx → ℝ) (r2 : S3.Idx → ℝ) (r3 : S6x256.Idx → ℝ) (r4 : S6.Idx → ℝ) (r5 : S65536x3.Idx → ℝ) (b : Fin 512) (n : Fin 65536) : lp (up r0) (up r1) (up r2) (up r3) (up r4) (up r5) b n = ((lpR r0 r1 r2 r3 r4 r5 b n : ℝ) : EReal) := by
  unfold lp lpR QuadForm.refLp mhalfF logNormF
  rw [sqLen_coe, logDet_coe, ofBits_mhalf_f32, logNorm_coe, LibIdealReal.mul_coe, LibIdealReal.sub_coe, LibIdealReal.sub_coe]

/-! ## The softmax along a row -/

/-- The maximum of the log-density along row b, as a real number. -/
def maxR (r0 : S512x256.Idx → ℝ) (r1 : S3x256.Idx → ℝ) (r2 : S3.Idx → ℝ) (r3 : S6x256.Idx → ℝ) (r4 : S6.Idx → ℝ) (r5 : S65536x3.Idx → ℝ) (b : Fin 512) : ℝ := Finset.univ.sup' univ_ne (lpR r0 r1 r2 r3 r4 r5 b)

theorem rowMax_coe (r0 : S512x256.Idx → ℝ) (r1 : S3x256.Idx → ℝ) (r2 : S3.Idx → ℝ) (r3 : S6x256.Idx → ℝ) (r4 : S6.Idx → ℝ) (r5 : S65536x3.Idx → ℝ) (b : Fin 512) : rowMax (up r0) (up r1) (up r2) (up r3) (up r4) (up r5) b = ((maxR r0 r1 r2 r3 r4 r5 b : ℝ) : EReal) := by
  unfold rowMax negInfF maxR
  rw [ofBits_neg_inf_f32]
  exact LibIdealReal.fold_max_eq_coe univ_ne _ _ (fun n _ => lp_coe r0 r1 r2 r3 r4 r5 b n)

theorem expRel_coe (r0 : S512x256.Idx → ℝ) (r1 : S3x256.Idx → ℝ) (r2 : S3.Idx → ℝ) (r3 : S6x256.Idx → ℝ) (r4 : S6.Idx → ℝ) (r5 : S65536x3.Idx → ℝ) (b : Fin 512) (n : Fin 65536) :
    expRel (up r0) (up r1) (up r2) (up r3) (up r4) (up r5) b n = ((Real.exp (lpR r0 r1 r2 r3 r4 r5 b n - maxR r0 r1 r2 r3 r4 r5 b) : ℝ) : EReal) := by
  unfold expRel
  rw [lp_coe, rowMax_coe, LibIdealReal.sub_coe, LibIdealReal.exp_coe]

/-- The sum along row b of the exponentials relative to the maximum, as a real number: it is positive. -/
def sumR (r0 : S512x256.Idx → ℝ) (r1 : S3x256.Idx → ℝ) (r2 : S3.Idx → ℝ) (r3 : S6x256.Idx → ℝ) (r4 : S6.Idx → ℝ) (r5 : S65536x3.Idx → ℝ) (b : Fin 512) : ℝ := ∑ n : Fin 65536, Real.exp (lpR r0 r1 r2 r3 r4 r5 b n - maxR r0 r1 r2 r3 r4 r5 b)

theorem sumR_pos (r0 : S512x256.Idx → ℝ) (r1 : S3x256.Idx → ℝ) (r2 : S3.Idx → ℝ) (r3 : S6x256.Idx → ℝ) (r4 : S6.Idx → ℝ) (r5 : S65536x3.Idx → ℝ) (b : Fin 512) : 0 < sumR r0 r1 r2 r3 r4 r5 b :=
  Finset.sum_pos (fun n _ => Real.exp_pos _) univ_ne

theorem rowSum_coe (r0 : S512x256.Idx → ℝ) (r1 : S3x256.Idx → ℝ) (r2 : S3.Idx → ℝ) (r3 : S6x256.Idx → ℝ) (r4 : S6.Idx → ℝ) (r5 : S65536x3.Idx → ℝ) (b : Fin 512) : rowSum (up r0) (up r1) (up r2) (up r3) (up r4) (up r5) b = ((sumR r0 r1 r2 r3 r4 r5 b : ℝ) : EReal) := by
  unfold rowSum zeroF sumR
  have hs : (∑ n : Fin 65536, expRel (up r0) (up r1) (up r2) (up r3) (up r4) (up r5) b n)
      = ((∑ n : Fin 65536, Real.exp (lpR r0 r1 r2 r3 r4 r5 b n - maxR r0 r1 r2 r3 r4 r5 b) : ℝ) : EReal) :=
    LibIdealReal.sum_eq_coe _ _ _ (fun n _ => expRel_coe r0 r1 r2 r3 r4 r5 b n)
  rw [hs, LibIdealReal.ofBits_zero_f32, LibIdealReal.add_coe, zero_add]

/-- The result at row b, pixel n, as a real number: the softmax of the log-density along the row, the denominator offset
    by the small positive constant. -/
def outRR (r0 : S512x256.Idx → ℝ) (r1 : S3x256.Idx → ℝ) (r2 : S3.Idx → ℝ) (r3 : S6x256.Idx → ℝ) (r4 : S6.Idx → ℝ) (r5 : S65536x3.Idx → ℝ) (b : Fin 512) (n : Fin 65536) : ℝ :=
  Real.exp (lpR r0 r1 r2 r3 r4 r5 b n - maxR r0 r1 r2 r3 r4 r5 b) / (sumR r0 r1 r2 r3 r4 r5 b + epsR)

theorem outAt_coe (r0 : S512x256.Idx → ℝ) (r1 : S3x256.Idx → ℝ) (r2 : S3.Idx → ℝ) (r3 : S6x256.Idx → ℝ) (r4 : S6.Idx → ℝ) (r5 : S65536x3.Idx → ℝ) (b : Fin 512) (n : Fin 65536) : outAt (up r0) (up r1) (up r2) (up r3) (up r4) (up r5) b n = ((outRR r0 r1 r2 r3 r4 r5 b n : ℝ) : EReal) := by
  unfold outAt epsF outRR
  rw [expRel_coe, rowSum_coe, eps_coe, LibIdealReal.add_coe,
    LibIdealReal.div_coe _ (ne_of_gt (add_pos (sumR_pos r0 r1 r2 r3 r4 r5 b) epsR_pos))]

/-- On readings of real arrays the reference's result is, at every row and pixel, the reading of the real softmax. -/
theorem outR_coe (r0 : S512x256.Idx → ℝ) (r1 : S3x256.Idx → ℝ) (r2 : S3.Idx → ℝ) (r3 : S6x256.Idx → ℝ) (r4 : S6.Idx → ℝ) (r5 : S65536x3.Idx → ℝ) (b : Fin 512) (n : Fin 65536) :
    outR (up r0) (up r1) (up r2) (up r3) (up r4) (up r5) (ix2 b n) = ((outRR r0 r1 r2 r3 r4 r5 b n : ℝ) : EReal) :=
  outAt_coe r0 r1 r2 r3 r4 r5 b n

end Cert.ReferenceIdeal.RefReal

end
-- ==== Proof.KICoefSpec.lean ====
/-
  The ten polynomial coefficients of a row and the nine monomials of a pixel, in the order in which they are computed.
  The log-density of a trivariate Gaussian with lower-triangular scale L and mean m, at a position p, is a polynomial of
  degree two in p. With the forward substitution's linear forms z0 = A0 dx, z1 = B0 dx + B1 dy, z2 = C0 dx + C1 dy + C2 dz
  (d = p - m), the sum of squares is a quadratic form in d with coefficients Qxx … Qyz; expanding about the mean gives a
  constant term, three linear and six quadratic coefficients, to be paired with the monomials x, y, z, x², y², z², xy, xz,
  yz of the position. Here each quantity is written on the extended reals with every product, sum, quotient and negation
  in its computed association, and read on real arguments with nonzero diagonal: each is the reading of the real quantity
  of the same name, so the ten-term polynomial is the reading of the log-density by forward substitution.
-/
import proofs.«169934_j78314433675744_2_alg».proof.Proof.RefReal

noncomputable section

namespace Cert.KernelIdeal.KICoefSpec

open Cert.ReferenceIdeal Cert.ReferenceIdeal.RefValue Cert.ReferenceIdeal.RefReal Idealize.ShloMosaic Idealize.ShloMosaic.ValueIdx

/-! ## Two more literals -/

def twoF : EReal := Ideal.ofBits .f32 0x40000000#32
def halfF : EReal := Ideal.ofBits .f32 0x3F000000#32

theorem twoF_coe : twoF = ((2 : ℝ) : EReal) := by
  unfold twoF; simp [Ideal.ofBits, Ideal.ieee, -EReal.coe_mul]; norm_num
theorem halfF_coe : halfF = ((0.5 : ℝ) : EReal) := by
  unfold halfF; simp [Ideal.ofBits, Ideal.ieee, -EReal.coe_mul]; norm_num
theorem oneF_coe : oneF = ((1 : ℝ) : EReal) := LibIdealReal.ofBits_one_f32
theorem mhalfF_coe : mhalfF = ((-0.5 : ℝ) : EReal) := ofBits_mhalf_f32
theorem logNormF_coe : logNormF = ((KR : ℝ) : EReal) := logNorm_coe

/-! ## The quantities, in their computed association -/

def A0E (l00 : EReal) : EReal := Ideal.div oneF l00
def B0E (l00 : EReal) (l10 : EReal) (l11 : EReal) : EReal := Ideal.div ((-l10) * A0E l00) l11
def B1E (l11 : EReal) : EReal := Ideal.div oneF l11
def C2E (l22 : EReal) : EReal := Ideal.div oneF l22
def C1E (l11 : EReal) (l21 : EReal) (l22 : EReal) : EReal := ((-l21) * B1E l11) * C2E l22
def C0E (l00 : EReal) (l10 : EReal) (l11 : EReal) (l20 : EReal) (l21 : EReal) (l22 : EReal) : EReal := (-((l20 * A0E l00) + (l21 * B0E l00 l10 l11))) * C2E l22
def QxxE (l00 : EReal) (l10 : EReal) (l11 : EReal) (l20 : EReal) (l21 : EReal) (l22 : EReal) : EReal := ((A0E l00 * A0E l00) + (B0E l00 l10 l11 * B0E l00 l10 l11)) + (C0E l00 l10 l11 l20 l21 l22 * C0E l00 l10 l11 l20 l21 l22)
def QyyE (l11 : EReal) (l21 : EReal) (l22 : EReal) : EReal := (B1E l11 * B1E l11) + (C1E l11 l21 l22 * C1E l11 l21 l22)
def QzzE (l22 : EReal) : EReal := C2E l22 * C2E l22
def QxyE (l00 : EReal) (l10 : EReal) (l11 : EReal) (l20 : EReal) (l21 : EReal) (l22 : EReal) : EReal := twoF * ((B0E l00 l10 l11 * B1E l11) + (C0E l00 l10 l11 l20 l21 l22 * C1E l11 l21 l22))
def QxzE (l00 : EReal) (l10 : EReal) (l11 : EReal) (l20 : EReal) (l21 : EReal) (l22 : EReal) : EReal := (twoF * C0E l00 l10 l11 l20 l21 l22) * C2E l22
def QyzE (l11 : EReal) (l21 : EReal) (l22 : EReal) : EReal := (twoF * C1E l11 l21 l22) * C2E l22
def c4E (l00 : EReal) (l10 : EReal) (l11 : EReal) (l20 : EReal) (l21 : EReal) (l22 : EReal) : EReal := mhalfF * QxxE l00 l10 l11 l20 l21 l22
def c5E (l11 : EReal) (l21 : EReal) (l22 : EReal) : EReal := mhalfF * QyyE l11 l21 l22
def c6E (l22 : EReal) : EReal := mhalfF * QzzE l22
def c7E (l00 : EReal) (l10 : EReal) (l11 : EReal) (l20 : EReal) (l21 : EReal) (l22 : EReal) : EReal := mhalfF * QxyE l00 l10 l11 l20 l21 l22
def c8E (l00 : EReal) (l10 : EReal) (l11 : EReal) (l20 : EReal) (l21 : EReal) (l22 : EReal) : EReal := mhalfF * QxzE l00 l10 l11 l20 l21 l22
def c9E (l11 : EReal) (l21 : EReal) (l22 : EReal) : EReal := mhalfF * QyzE l11 l21 l22
def c1E (l00 : EReal) (l10 : EReal) (l11 : EReal) (l20 : EReal) (l21 : EReal) (l22 : EReal) (m0 : EReal) (m1 : EReal) (m2 : EReal) : EReal := ((QxxE l00 l10 l11 l20 l21 l22 * m0) + ((halfF * QxyE l00 l10 l11 l20 l21 l22) * m1)) + ((halfF * QxzE l00 l10 l11 l20 l21 l22) * m2)
def c2E (l00 : EReal) (l10 : EReal) (l11 : EReal) (l20 : EReal) (l21 : EReal) (l22 : EReal) (m0 : EReal) (m1 : EReal) (m2 : EReal) : EReal := ((QyyE l11 l21 l22 * m1) + ((halfF * QxyE l00 l10 l11 l20 l21 l22) * m0)) + ((halfF * QyzE l11 l21 l22) * m2)
def c3E (l00 : EReal) (l10 : EReal) (l11 : EReal) (l20 : EReal) (l21 : EReal) (l22 : EReal) (m0 : EReal) (m1 : EReal) (m2 : EReal) : EReal := ((QzzE l22 * m2) + ((halfF * QxzE l00 l10 l11 l20 l21 l22) * m0)) + ((halfF * QyzE l11 l21 l22) * m1)
def quadE (l00 : EReal) (l10 : EReal) (l11 : EReal) (l20 : EReal) (l21 : EReal) (l22 : EReal) (m0 : EReal) (m1 : EReal) (m2 : EReal) : EReal := ((((((QxxE l00 l10 l11 l20 l21 l22 * m0) * m0) + ((QyyE l11 l21 l22 * m1) * m1)) + ((QzzE l22 * m2) * m2)) + ((QxyE l00 l10 l11 l20 l21 l22 * m0) * m1)) + ((QxzE l00 l10 l11 l20 l21 l22 * m0) * m2)) + ((QyzE l11 l21 l22 * m1) * m2)
def c0E (l00 : EReal) (l10 : EReal) (l11 : EReal) (l20 : EReal) (l21 : EReal) (l22 : EReal) (m0 : EReal) (m1 : EReal) (m2 : EReal) (ld : EReal) : EReal := ((mhalfF * quadE l00 l10 l11 l20 l21 l22 m0 m1 m2) - logNormF) - ld

/-- The ten coefficients of a row, constant term first, then x y z, then x² y² z², then xy xz yz. -/
def coefS (l00 : EReal) (l10 : EReal) (l11 : EReal) (l20 : EReal) (l21 : EReal) (l22 : EReal) (m0 : EReal) (m1 : EReal) (m2 : EReal) (ld : EReal) (k : Fin 10) : EReal :=
  ![c0E l00 l10 l11 l20 l21 l22 m0 m1 m2 ld, c1E l00 l10 l11 l20 l21 l22 m0 m1 m2, c2E l00 l10 l11 l20 l21 l22 m0 m1 m2, c3E l00 l10 l11 l20 l21 l22 m0 m1 m2, c4E l00 l10 l11 l20 l21 l22, c5E l11 l21 l22, c6E l22, c7E l00 l10 l11 l20 l21 l22, c8E l00 l10 l11 l20 l21 l22, c9E l11 l21 l22] k

/-- The nine monomials of a position. -/
def featS (x y z : EReal) (k : Fin 9) : EReal := ![x, y, z, x * x, y * y, z * z, x * y, x * z, y * z] k

/-- The polynomial: the constant term plus the nine products, summed from the left. -/
def lpPoly (c : Fin 10 → EReal) (f : Fin 9 → EReal) : EReal :=
  ((((((((c 0 + c 1 * f 0) + c 2 * f 1) + c 3 * f 2) + c 4 * f 3) + c 5 * f 4) + c 6 * f 5) + c 7 * f 6) + c 8 * f 7) + c 9 * f 8

/-! ## Their readings on real arguments -/

theorem A0E_coe (l00 : ℝ) (h00 : l00 ≠ 0) :
    A0E ((l00 : ℝ) : EReal) = ((QuadForm.A0 l00 : ℝ) : EReal) := by
  unfold A0E QuadForm.A0
  simp only [LibIdealReal.div_coe _ h00, LibIdealReal.mul_coe, LibIdealReal.add_coe, LibIdealReal.sub_coe, LibIdealReal.neg_coe, oneF_coe, twoF_coe, halfF_coe, mhalfF_coe]
theorem B0E_coe (l00 : ℝ) (l10 : ℝ) (l11 : ℝ) (h00 : l00 ≠ 0) (h11 : l11 ≠ 0) :
    B0E ((l00 : ℝ) : EReal) ((l10 : ℝ) : EReal) ((l11 : ℝ) : EReal) = ((QuadForm.B0 l00 l10 l11 : ℝ) : EReal) := by
  unfold B0E QuadForm.B0
  simp only [A0E_coe l00 h00, LibIdealReal.div_coe _ h00, LibIdealReal.div_coe _ h11, LibIdealReal.mul_coe, LibIdealReal.add_coe, LibIdealReal.sub_coe, LibIdealReal.neg_coe, oneF_coe, twoF_coe, halfF_coe, mhalfF_coe]
theorem B1E_coe (l11 : ℝ) (h11 : l11 ≠ 0) :
    B1E ((l11 : ℝ) : EReal) = ((QuadForm.B1 l11 : ℝ) : EReal) := by
  unfold B1E QuadForm.B1
  simp only [LibIdealReal.div_coe _ h11, LibIdealReal.mul_coe, LibIdealReal.add_coe, LibIdealReal.sub_coe, LibIdealReal.neg_coe, oneF_coe, twoF_coe, halfF_coe, mhalfF_coe]
theorem C2E_coe (l22 : ℝ) (h22 : l22 ≠ 0) :
    C2E ((l22 : ℝ) : EReal) = ((QuadForm.C2 l22 : ℝ) : EReal) := by
  unfold C2E QuadForm.C2
  simp only [LibIdealReal.div_coe _ h22, LibIdealReal.mul_coe, LibIdealReal.add_coe, LibIdealReal.sub_coe, LibIdealReal.neg_coe, oneF_coe, twoF_coe, halfF_coe, mhalfF_coe]
theorem C1E_coe (l11 : ℝ) (l21 : ℝ) (l22 : ℝ) (h11 : l11 ≠ 0) (h22 : l22 ≠ 0) :
    C1E ((l11 : ℝ) : EReal) ((l21 : ℝ) : EReal) ((l22 : ℝ) : EReal) = ((QuadForm.C1 l11 l21 l22 : ℝ) : EReal) := by
  unfold C1E QuadForm.C1
  simp only [B1E_coe l11 h11, C2E_coe l22 h22, LibIdealReal.div_coe _ h11, LibIdealReal.div_coe _ h22, LibIdealReal.mul_coe, LibIdealReal.add_coe, LibIdealReal.sub_coe, LibIdealReal.neg_coe, oneF_coe, twoF_coe, halfF_coe, mhalfF_coe]
theorem C0E_coe (l00 : ℝ) (l10 : ℝ) (l11 : ℝ) (l20 : ℝ) (l21 : ℝ) (l22 : ℝ) (h00 : l00 ≠ 0) (h11 : l11 ≠ 0) (h22 : l22 ≠ 0) :
    C0E ((l00 : ℝ) : EReal) ((l10 : ℝ) : EReal) ((l11 : ℝ) : EReal) ((l20 : ℝ) : EReal) ((l21 : ℝ) : EReal) ((l22 : ℝ) : EReal) = ((QuadForm.C0 l00 l10 l11 l20 l21 l22 : ℝ) : EReal) := by
  unfold C0E QuadForm.C0
  simp only [A0E_coe l00 h00, B0E_coe l00 l10 l11 h00 h11, C2E_coe l22 h22, LibIdealReal.div_coe _ h00, LibIdealReal.div_coe _ h11, LibIdealReal.div_coe _ h22, LibIdealReal.mul_coe, LibIdealReal.add_coe, LibIdealReal.sub_coe, LibIdealReal.neg_coe, oneF_coe, twoF_coe, halfF_coe, mhalfF_coe]
theorem QxxE_coe (l00 : ℝ) (l10 : ℝ) (l11 : ℝ) (l20 : ℝ) (l21 : ℝ) (l22 : ℝ) (h00 : l00 ≠ 0) (h11 : l11 ≠ 0) (h22 : l22 ≠ 0) :
    QxxE ((l00 : ℝ) : EReal) ((l10 : ℝ) : EReal) ((l11 : ℝ) : EReal) ((l20 : ℝ) : EReal) ((l21 : ℝ) : EReal) ((l22 : ℝ) : EReal) = ((QuadForm.coefXX l00 l10 l11 l20 l21 l22 : ℝ) : EReal) := by
  unfold QxxE QuadForm.coefXX
  simp only [A0E_coe l00 h00, B0E_coe l00 l10 l11 h00 h11, C0E_coe l00 l10 l11 l20 l21 l22 h00 h11 h22, LibIdealReal.div_coe _ h00, LibIdealReal.div_coe _ h11, LibIdealReal.div_coe _ h22, LibIdealReal.mul_coe, LibIdealReal.add_coe, LibIdealReal.sub_coe, LibIdealReal.neg_coe, oneF_coe, twoF_coe, halfF_coe, mhalfF_coe]
theorem QyyE_coe (l11 : ℝ) (l21 : ℝ) (l22 : ℝ) (h11 : l11 ≠ 0) (h22 : l22 ≠ 0) :
    QyyE ((l11 : ℝ) : EReal) ((l21 : ℝ) : EReal) ((l22 : ℝ) : EReal) = ((QuadForm.coefYY l11 l21 l22 : ℝ) : EReal) := by
  unfold QyyE QuadForm.coefYY
  simp only [B1E_coe l11 h11, C1E_coe l11 l21 l22 h11 h22, LibIdealReal.div_coe _ h11, LibIdealReal.div_coe _ h22, LibIdealReal.mul_coe, LibIdealReal.add_coe, LibIdealReal.sub_coe, LibIdealReal.neg_coe, oneF_coe, twoF_coe, halfF_coe, mhalfF_coe]
theorem QzzE_coe (l22 : ℝ) (h22 : l22 ≠ 0) :
    QzzE ((l22 : ℝ) : EReal) = ((QuadForm.coefZZ l22 : ℝ) : EReal) := by
  unfold QzzE QuadForm.coefZZ
  simp only [C2E_coe l22 h22, LibIdealReal.div_coe _ h22, LibIdealReal.mul_coe, LibIdealReal.add_coe, LibIdealReal.sub_coe, LibIdealReal.neg_coe, oneF_coe, twoF_coe, halfF_coe, mhalfF_coe]
theorem QxyE_coe (l00 : ℝ) (l10 : ℝ) (l11 : ℝ) (l20 : ℝ) (l21 : ℝ) (l22 : ℝ) (h00 : l00 ≠ 0) (h11 : l11 ≠ 0) (h22 : l22 ≠ 0) :
    QxyE ((l00 : ℝ) : EReal) ((l10 : ℝ) : EReal) ((l11 : ℝ) : EReal) ((l20 : ℝ) : EReal) ((l21 : ℝ) : EReal) ((l22 : ℝ) : EReal) = ((QuadForm.coefXY l00 l10 l11 l20 l21 l22 : ℝ) : EReal) := by
  unfold QxyE QuadForm.coefXY
  simp only [B0E_coe l00 l10 l11 h00 h11, B1E_coe l11 h11, C1E_coe l11 l21 l22 h11 h22, C0E_coe l00 l10 l11 l20 l21 l22 h00 h11 h22, LibIdealReal.div_coe _ h00, LibIdealReal.div_coe _ h11, LibIdealReal.div_coe _ h22, LibIdealReal.mul_coe, LibIdealReal.add_coe, LibIdealReal.sub_coe, LibIdealReal.neg_coe, oneF_coe, twoF_coe, halfF_coe, mhalfF_coe]
theorem QxzE_coe (l00 : ℝ) (l10 : ℝ) (l11 : ℝ) (l20 : ℝ) (l21 : ℝ) (l22 : ℝ) (h00 : l00 ≠ 0) (h11 : l11 ≠ 0) (h22 : l22 ≠ 0) :
    QxzE ((l00 : ℝ) : EReal) ((l10 : ℝ) : EReal) ((l11 : ℝ) : EReal) ((l20 : ℝ) : EReal) ((l21 : ℝ) : EReal) ((l22 : ℝ) : EReal) = ((QuadForm.coefXZ l00 l10 l11 l20 l21 l22 : ℝ) : EReal) := by
  unfold QxzE QuadForm.coefXZ
  simp only [C2E_coe l22 h22, C0E_coe l00 l10 l11 l20 l21 l22 h00 h11 h22, LibIdealReal.div_coe _ h00, LibIdealReal.div_coe _ h11, LibIdealReal.div_coe _ h22, LibIdealReal.mul_coe, LibIdealReal.add_coe, LibIdealReal.sub_coe, LibIdealReal.neg_coe, oneF_coe, twoF_coe, halfF_coe, mhalfF_coe]
theorem QyzE_coe (l11 : ℝ) (l21 : ℝ) (l22 : ℝ) (h11 : l11 ≠ 0) (h22 : l22 ≠ 0) :
    QyzE ((l11 : ℝ) : EReal) ((l21 : ℝ) : EReal) ((l22 : ℝ) : EReal) = ((QuadForm.coefYZ l11 l21 l22 : ℝ) : EReal) := by
  unfold QyzE QuadForm.coefYZ
  simp only [C2E_coe l22 h22, C1E_coe l11 l21 l22 h11 h22, LibIdealReal.div_coe _ h11, LibIdealReal.div_coe _ h22, LibIdealReal.mul_coe, LibIdealReal.add_coe, LibIdealReal.sub_coe, LibIdealReal.neg_coe, oneF_coe, twoF_coe, halfF_coe, mhalfF_coe]
theorem c4E_coe (l00 : ℝ) (l10 : ℝ) (l11 : ℝ) (l20 : ℝ) (l21 : ℝ) (l22 : ℝ) (h00 : l00 ≠ 0) (h11 : l11 ≠ 0) (h22 : l22 ≠ 0) :
    c4E ((l00 : ℝ) : EReal) ((l10 : ℝ) : EReal) ((l11 : ℝ) : EReal) ((l20 : ℝ) : EReal) ((l21 : ℝ) : EReal) ((l22 : ℝ) : EReal) = ((QuadForm.c4 l00 l10 l11 l20 l21 l22 : ℝ) : EReal) := by
  unfold c4E QuadForm.c4
  simp only [QxxE_coe l00 l10 l11 l20 l21 l22 h00 h11 h22, LibIdealReal.div_coe _ h00, LibIdealReal.div_coe _ h11, LibIdealReal.div_coe _ h22, LibIdealReal.mul_coe, LibIdealReal.add_coe, LibIdealReal.sub_coe, LibIdealReal.neg_coe, oneF_coe, twoF_coe, halfF_coe, mhalfF_coe]
theorem c5E_coe (l11 : ℝ) (l21 : ℝ) (l22 : ℝ) (h11 : l11 ≠ 0) (h22 : l22 ≠ 0) :
    c5E ((l11 : ℝ) : EReal) ((l21 : ℝ) : EReal) ((l22 : ℝ) : EReal) = ((QuadForm.c5 l11 l21 l22 : ℝ) : EReal) := by
  unfold c5E QuadForm.c5
  simp only [QyyE_coe l11 l21 l22 h11 h22, LibIdealReal.div_coe _ h11, LibIdealReal.div_coe _ h22, LibIdealReal.mul_coe, LibIdealReal.add_coe, LibIdealReal.sub_coe, LibIdealReal.neg_coe, oneF_coe, twoF_coe, halfF_coe, mhalfF_coe]
theorem c6E_coe (l22 : ℝ) (h22 : l22 ≠ 0) :
    c6E ((l22 : ℝ) : EReal) = ((QuadForm.c6 l22 : ℝ) : EReal) := by
  unfold c6E QuadForm.c6
  simp only [QzzE_coe l22 h22, LibIdealReal.div_coe _ h22, LibIdealReal.mul_coe, LibIdealReal.add_coe, LibIdealReal.sub_coe, LibIdealReal.neg_coe, oneF_coe, twoF_coe, halfF_coe, mhalfF_coe]
theorem c7E_coe (l00 : ℝ) (l10 : ℝ) (l11 : ℝ) (l20 : ℝ) (l21 : ℝ) (l22 : ℝ) (h00 : l00 ≠ 0) (h11 : l11 ≠ 0) (h22 : l22 ≠ 0) :
    c7E ((l00 : ℝ) : EReal) ((l10 : ℝ) : EReal) ((l11 : ℝ) : EReal) ((l20 : ℝ) : EReal) ((l21 : ℝ) : EReal) ((l22 : ℝ) : EReal) = ((QuadForm.c7 l00 l10 l11 l20 l21 l22 : ℝ) : EReal) := by
  unfold c7E QuadForm.c7
  simp only [QxyE_coe l00 l10 l11 l20 l21 l22 h00 h11 h22, LibIdealReal.div_coe _ h00, LibIdealReal.div_coe _ h11, LibIdealReal.div_coe _ h22, LibIdealReal.mul_coe, LibIdealReal.add_coe, LibIdealReal.sub_coe, LibIdealReal.neg_coe, oneF_coe, twoF_coe, halfF_coe, mhalfF_coe]
theorem c8E_coe (l00 : ℝ) (l10 : ℝ) (l11 : ℝ) (l20 : ℝ) (l21 : ℝ) (l22 : ℝ) (h00 : l00 ≠ 0) (h11 : l11 ≠ 0) (h22 : l22 ≠ 0) :
    c8E ((l00 : ℝ) : EReal) ((l10 : ℝ) : EReal) ((l11 : ℝ) : EReal) ((l20 : ℝ) : EReal) ((l21 : ℝ) : EReal) ((l22 : ℝ) : EReal) = ((QuadForm.c8 l00 l10 l11 l20 l21 l22 : ℝ) : EReal) := by
  unfold c8E QuadForm.c8
  simp only [QxzE_coe l00 l10 l11 l20 l21 l22 h00 h11 h22, LibIdealReal.div_coe _ h00, LibIdealReal.div_coe _ h11, LibIdealReal.div_coe _ h22, LibIdealReal.mul_coe, LibIdealReal.add_coe, LibIdealReal.sub_coe, LibIdealReal.neg_coe, oneF_coe, twoF_coe, halfF_coe, mhalfF_coe]
theorem c9E_coe (l11 : ℝ) (l21 : ℝ) (l22 : ℝ) (h11 : l11 ≠ 0) (h22 : l22 ≠ 0) :
    c9E ((l11 : ℝ) : EReal) ((l21 : ℝ) : EReal) ((l22 : ℝ) : EReal) = ((QuadForm.c9 l11 l21 l22 : ℝ) : EReal) := by
  unfold c9E QuadForm.c9
  simp only [QyzE_coe l11 l21 l22 h11 h22, LibIdealReal.div_coe _ h11, LibIdealReal.div_coe _ h22, LibIdealReal.mul_coe, LibIdealReal.add_coe, LibIdealReal.sub_coe, LibIdealReal.neg_coe, oneF_coe, twoF_coe, halfF_coe, mhalfF_coe]
theorem c1E_coe (l00 : ℝ) (l10 : ℝ) (l11 : ℝ) (l20 : ℝ) (l21 : ℝ) (l22 : ℝ) (m0 : ℝ) (m1 : ℝ) (m2 : ℝ) (h00 : l00 ≠ 0) (h11 : l11 ≠ 0) (h22 : l22 ≠ 0) :
    c1E ((l00 : ℝ) : EReal) ((l10 : ℝ) : EReal) ((l11 : ℝ) : EReal) ((l20 : ℝ) : EReal) ((l21 : ℝ) : EReal) ((l22 : ℝ) : EReal) ((m0 : ℝ) : EReal) ((m1 : ℝ) : EReal) ((m2 : ℝ) : EReal) = ((QuadForm.c1 l00 l10 l11 l20 l21 l22 m0 m1 m2 : ℝ) : EReal) := by
  unfold c1E QuadForm.c1
  simp only [QxxE_coe l00 l10 l11 l20 l21 l22 h00 h11 h22, QxyE_coe l00 l10 l11 l20 l21 l22 h00 h11 h22, QxzE_coe l00 l10 l11 l20 l21 l22 h00 h11 h22, LibIdealReal.div_coe _ h00, LibIdealReal.div_coe _ h11, LibIdealReal.div_coe _ h22, LibIdealReal.mul_coe, LibIdealReal.add_coe, LibIdealReal.sub_coe, LibIdealReal.neg_coe, oneF_coe, twoF_coe, halfF_coe, mhalfF_coe]
theorem c2E_coe (l00 : ℝ) (l10 : ℝ) (l11 : ℝ) (l20 : ℝ) (l21 : ℝ) (l22 : ℝ) (m0 : ℝ) (m1 : ℝ) (m2 : ℝ) (h00 : l00 ≠ 0) (h11 : l11 ≠ 0) (h22 : l22 ≠ 0) :
    c2E ((l00 : ℝ) : EReal) ((l10 : ℝ) : EReal) ((l11 : ℝ) : EReal) ((l20 : ℝ) : EReal) ((l21 : ℝ) : EReal) ((l22 : ℝ) : EReal) ((m0 : ℝ) : EReal) ((m1 : ℝ) : EReal) ((m2 : ℝ) : EReal) = ((QuadForm.c2 l00 l10 l11 l20 l21 l22 m0 m1 m2 : ℝ) : EReal) := by
  unfold c2E QuadForm.c2
  simp only [QyyE_coe l11 l21 l22 h11 h22, QxyE_coe l00 l10 l11 l20 l21 l22 h00 h11 h22, QyzE_coe l11 l21 l22 h11 h22, LibIdealReal.div_coe _ h00, LibIdealReal.div_coe _ h11, LibIdealReal.div_coe _ h22, LibIdealReal.mul_coe, LibIdealReal.add_coe, LibIdealReal.sub_coe, LibIdealReal.neg_coe, oneF_coe, twoF_coe, halfF_coe, mhalfF_coe]
theorem c3E_coe (l00 : ℝ) (l10 : ℝ) (l11 : ℝ) (l20 : ℝ) (l21 : ℝ) (l22 : ℝ) (m0 : ℝ) (m1 : ℝ) (m2 : ℝ) (h00 : l00 ≠ 0) (h11 : l11 ≠ 0) (h22 : l22 ≠ 0) :
    c3E ((l00 : ℝ) : EReal) ((l10 : ℝ) : EReal) ((l11 : ℝ) : EReal) ((l20 : ℝ) : EReal) ((l21 : ℝ) : EReal) ((l22 : ℝ) : EReal) ((m0 : ℝ) : EReal) ((m1 : ℝ) : EReal) ((m2 : ℝ) : EReal) = ((QuadForm.c3 l00 l10 l11 l20 l21 l22 m0 m1 m2 : ℝ) : EReal) := by
  unfold c3E QuadForm.c3
  simp only [QzzE_coe l22 h22, QxzE_coe l00 l10 l11 l20 l21 l22 h00 h11 h22, QyzE_coe l11 l21 l22 h11 h22, LibIdealReal.div_coe _ h00, LibIdealReal.div_coe _ h11, LibIdealReal.div_coe _ h22, LibIdealReal.mul_coe, LibIdealReal.add_coe, LibIdealReal.sub_coe, LibIdealReal.neg_coe, oneF_coe, twoF_coe, halfF_coe, mhalfF_coe]
theorem quadE_coe (l00 : ℝ) (l10 : ℝ) (l11 : ℝ) (l20 : ℝ) (l21 : ℝ) (l22 : ℝ) (m0 : ℝ) (m1 : ℝ) (m2 : ℝ) (h00 : l00 ≠ 0) (h11 : l11 ≠ 0) (h22 : l22 ≠ 0) :
    quadE ((l00 : ℝ) : EReal) ((l10 : ℝ) : EReal) ((l11 : ℝ) : EReal) ((l20 : ℝ) : EReal) ((l21 : ℝ) : EReal) ((l22 : ℝ) : EReal) ((m0 : ℝ) : EReal) ((m1 : ℝ) : EReal) ((m2 : ℝ) : EReal) = ((QuadForm.cst l00 l10 l11 l20 l21 l22 m0 m1 m2 : ℝ) : EReal) := by
  unfold quadE QuadForm.cst
  simp only [QxxE_coe l00 l10 l11 l20 l21 l22 h00 h11 h22, QyyE_coe l11 l21 l22 h11 h22, QzzE_coe l22 h22, QxyE_coe l00 l10 l11 l20 l21 l22 h00 h11 h22, QxzE_coe l00 l10 l11 l20 l21 l22 h00 h11 h22, QyzE_coe l11 l21 l22 h11 h22, LibIdealReal.div_coe _ h00, LibIdealReal.div_coe _ h11, LibIdealReal.div_coe _ h22, LibIdealReal.mul_coe, LibIdealReal.add_coe, LibIdealReal.sub_coe, LibIdealReal.neg_coe, oneF_coe, twoF_coe, halfF_coe, mhalfF_coe]
theorem c0E_coe (l00 : ℝ) (l10 : ℝ) (l11 : ℝ) (l20 : ℝ) (l21 : ℝ) (l22 : ℝ) (m0 : ℝ) (m1 : ℝ) (m2 : ℝ) (ld : ℝ) (h00 : l00 ≠ 0) (h11 : l11 ≠ 0) (h22 : l22 ≠ 0) :
    c0E ((l00 : ℝ) : EReal) ((l10 : ℝ) : EReal) ((l11 : ℝ) : EReal) ((l20 : ℝ) : EReal) ((l21 : ℝ) : EReal) ((l22 : ℝ) : EReal) ((m0 : ℝ) : EReal) ((m1 : ℝ) : EReal) ((m2 : ℝ) : EReal) ((ld : ℝ) : EReal) = ((QuadForm.c0 l00 l10 l11 l20 l21 l22 m0 m1 m2 RefReal.KR ld : ℝ) : EReal) := by
  unfold c0E QuadForm.c0
  simp only [quadE_coe l00 l10 l11 l20 l21 l22 m0 m1 m2 h00 h11 h22, logNormF_coe, LibIdealReal.mul_coe, LibIdealReal.add_coe, LibIdealReal.sub_coe, LibIdealReal.neg_coe, oneF_coe, twoF_coe, halfF_coe, mhalfF_coe]

/-- On real arguments with nonzero diagonal the polynomial is the reading of the log-density by forward substitution. -/
theorem lpPoly_coe (l00 : ℝ) (l10 : ℝ) (l11 : ℝ) (l20 : ℝ) (l21 : ℝ) (l22 : ℝ) (m0 : ℝ) (m1 : ℝ) (m2 : ℝ) (ld : ℝ) (x : ℝ) (y : ℝ) (z : ℝ) (h00 : l00 ≠ 0) (h11 : l11 ≠ 0) (h22 : l22 ≠ 0) :
    lpPoly (coefS ((l00 : ℝ) : EReal) ((l10 : ℝ) : EReal) ((l11 : ℝ) : EReal) ((l20 : ℝ) : EReal) ((l21 : ℝ) : EReal) ((l22 : ℝ) : EReal) ((m0 : ℝ) : EReal) ((m1 : ℝ) : EReal) ((m2 : ℝ) : EReal) ((ld : ℝ) : EReal)) (featS ((x : ℝ) : EReal) ((y : ℝ) : EReal) ((z : ℝ) : EReal))
      = ((QuadForm.refLp l00 l10 l11 l20 l21 l22 m0 m1 m2 KR ld x y z : ℝ) : EReal) := by
  rw [← QuadForm.polyLp_eq_refLp l10 l20 l21 m0 m1 m2 KR ld x y z h00 h11 h22]
  show ((((((((c0E ((l00 : ℝ) : EReal) ((l10 : ℝ) : EReal) ((l11 : ℝ) : EReal) ((l20 : ℝ) : EReal) ((l21 : ℝ) : EReal) ((l22 : ℝ) : EReal) ((m0 : ℝ) : EReal) ((m1 : ℝ) : EReal) ((m2 : ℝ) : EReal) ((ld : ℝ) : EReal) + c1E ((l00 : ℝ) : EReal) ((l10 : ℝ) : EReal) ((l11 : ℝ) : EReal) ((l20 : ℝ) : EReal) ((l21 : ℝ) : EReal) ((l22 : ℝ) : EReal) ((m0 : ℝ) : EReal) ((m1 : ℝ) : EReal) ((m2 : ℝ) : EReal) * (((x : ℝ) : EReal))) + c2E ((l00 : ℝ) : EReal) ((l10 : ℝ) : EReal) ((l11 : ℝ) : EReal) ((l20 : ℝ) : EReal) ((l21 : ℝ) : EReal) ((l22 : ℝ) : EReal) ((m0 : ℝ) : EReal) ((m1 : ℝ) : EReal) ((m2 : ℝ) : EReal) * (((y : ℝ) : EReal))) + c3E ((l00 : ℝ) : EReal) ((l10 : ℝ) : EReal) ((l11 : ℝ) : EReal) ((l20 : ℝ) : EReal) ((l21 : ℝ) : EReal) ((l22 : ℝ) : EReal) ((m0 : ℝ) : EReal) ((m1 : ℝ) : EReal) ((m2 : ℝ) : EReal) * (((z : ℝ) : EReal))) + c4E ((l00 : ℝ) : EReal) ((l10 : ℝ) : EReal) ((l11 : ℝ) : EReal) ((l20 : ℝ) : EReal) ((l21 : ℝ) : EReal) ((l22 : ℝ) : EReal) * (((x : ℝ) : EReal) * ((x : ℝ) : EReal))) + c5E ((l11 : ℝ) : EReal) ((l21 : ℝ) : EReal) ((l22 : ℝ) : EReal) * (((y : ℝ) : EReal) * ((y : ℝ) : EReal))) + c6E ((l22 : ℝ) : EReal) * (((z : ℝ) : EReal) * ((z : ℝ) : EReal))) + c7E ((l00 : ℝ) : EReal) ((l10 : ℝ) : EReal) ((l11 : ℝ) : EReal) ((l20 : ℝ) : EReal) ((l21 : ℝ) : EReal) ((l22 : ℝ) : EReal) * (((x : ℝ) : EReal) * ((y : ℝ) : EReal))) + c8E ((l00 : ℝ) : EReal) ((l10 : ℝ) : EReal) ((l11 : ℝ) : EReal) ((l20 : ℝ) : EReal) ((l21 : ℝ) : EReal) ((l22 : ℝ) : EReal) * (((x : ℝ) : EReal) * ((z : ℝ) : EReal))) + c9E ((l11 : ℝ) : EReal) ((l21 : ℝ) : EReal) ((l22 : ℝ) : EReal) * (((y : ℝ) : EReal) * ((z : ℝ) : EReal)) = _
  unfold QuadForm.polyLp
  simp only [c0E_coe l00 l10 l11 l20 l21 l22 m0 m1 m2 ld h00 h11 h22, c1E_coe l00 l10 l11 l20 l21 l22 m0 m1 m2 h00 h11 h22, c2E_coe l00 l10 l11 l20 l21 l22 m0 m1 m2 h00 h11 h22,
    c3E_coe l00 l10 l11 l20 l21 l22 m0 m1 m2 h00 h11 h22, c4E_coe l00 l10 l11 l20 l21 l22 h00 h11 h22, c5E_coe l11 l21 l22 h11 h22, c6E_coe l22 h22,
    c7E_coe l00 l10 l11 l20 l21 l22 h00 h11 h22, c8E_coe l00 l10 l11 l20 l21 l22 h00 h11 h22, c9E_coe l11 l21 l22 h11 h22, LibIdealReal.mul_coe, LibIdealReal.add_coe]

/-! ## On the arrays -/

/-- Coefficient k of row b, from the row's scale and mean. -/
def coefI (a0 : FVec Ideal S512x256 .f32) (a1 : FVec Ideal S3x256 .f32) (a2 : FVec Ideal S3 .f32) (a3 : FVec Ideal S6x256 .f32) (a4 : FVec Ideal S6 .f32) (b : Fin 512) (k : Fin 10) : EReal :=
  coefS (l00 a0 a3 a4 b) (l10 a0 a3 a4 b) (l11 a0 a3 a4 b) (l20 a0 a3 a4 b) (l21 a0 a3 a4 b) (l22 a0 a3 a4 b)
    (means a0 a1 a2 b ⟨0, by decide⟩) (means a0 a1 a2 b ⟨1, by decide⟩) (means a0 a1 a2 b ⟨2, by decide⟩) (logDet a0 a3 a4 b) k

/-- Monomial k of pixel n's position. -/
def featI (a5 : FVec Ideal S65536x3 .f32) (k : Fin 9) (n : Fin 65536) : EReal :=
  featS (a5 (ix2 n ⟨0, by decide⟩)) (a5 (ix2 n ⟨1, by decide⟩)) (a5 (ix2 n ⟨2, by decide⟩)) k

/-- On readings of real arrays the polynomial of row b at pixel n is the reading of the real log-density. -/
theorem lpPoly_coefI_featI (r0 : S512x256.Idx → ℝ) (r1 : S3x256.Idx → ℝ) (r2 : S3.Idx → ℝ) (r3 : S6x256.Idx → ℝ) (r4 : S6.Idx → ℝ) (r5 : S65536x3.Idx → ℝ) (b : Fin 512) (n : Fin 65536) :
    lpPoly (coefI (up r0) (up r1) (up r2) (up r3) (up r4) b) (featI (up r5) · n) = ((lpR r0 r1 r2 r3 r4 r5 b n : ℝ) : EReal) := by
  unfold coefI featI lpR
  rw [l00_coe, l10_coe, l11_coe, l20_coe, l21_coe, l22_coe, means_coe, means_coe, means_coe, logDet_coe]
  exact lpPoly_coe _ _ _ _ _ _ _ _ _ _ _ _ _ (l00R_ne r0 r3 r4 b) (l11R_ne r0 r3 r4 b) (l22R_ne r0 r3 r4 b)

end Cert.KernelIdeal.KICoefSpec

end
-- ==== Proof.KILpSpec.lean ====
/-
  The kernel's polynomial is the reference's log-density. The kernel evaluates, for row b and pixel n, the ten-term
  polynomial whose coefficients are row b of a 512×10 array and whose monomials are column n of a 9×65536 array. When
  those arrays hold, entry by entry, the coefficients and monomials computed from readings of real arrays, the
  polynomial is the reading of the real log-density of the pixel — the same real number the reference reaches by
  forward substitution.
-/
import proofs.«169934_j78314433675744_2_alg».proof.Proof.KICoefSpec
import proofs.«169934_j78314433675744_2_alg».proof.Proof.KIRegion1Final

noncomputable section

namespace Cert.KernelIdeal.KILpSpec

open Cert.KernelIdeal Cert.KernelIdeal.Hand Cert.KernelIdeal.KICoefSpec Cert.ReferenceIdeal.RefReal Idealize.ShloMosaic Idealize.ShloMosaic.ValueIdx

/-- The polynomial of row b at pixel n is the ten-term sum of that row's coefficients against that pixel's monomials. -/
theorem lpArr_eq_lpPoly (feat : Vec Ideal S9x65536 .f32) (coef : Vec Ideal S512x10 .f32) (b : Fin 512) (n : Fin 65536) :
    lpArr feat coef b n = lpPoly (fun k => coef (ix2 b k)) (fun k => feat (ix2 k n)) := rfl

/-- With coefficient and monomial arrays that are, entry by entry, those computed from readings of real arrays, the
    polynomial is the reading of the real log-density. -/
theorem lpArr_coe (r0 : Cert.ReferenceIdeal.S512x256.Idx → ℝ) (r1 : Cert.ReferenceIdeal.S3x256.Idx → ℝ) (r2 : Cert.ReferenceIdeal.S3.Idx → ℝ) (r3 : Cert.ReferenceIdeal.S6x256.Idx → ℝ) (r4 : Cert.ReferenceIdeal.S6.Idx → ℝ) (r5 : Cert.ReferenceIdeal.S65536x3.Idx → ℝ)
    (feat : Vec Ideal S9x65536 .f32) (coef : Vec Ideal S512x10 .f32)
    (hf : ∀ (k : Fin 9) (n : Fin 65536), feat (ix2 k n) = featI (up r5) k n)
    (hc : ∀ (b : Fin 512) (k : Fin 10), coef (ix2 b k) = coefI (up r0) (up r1) (up r2) (up r3) (up r4) b k)
    (b : Fin 512) (n : Fin 65536) :
    lpArr feat coef b n = ((lpR r0 r1 r2 r3 r4 r5 b n : ℝ) : EReal) := by
  rw [lpArr_eq_lpPoly]
  have e1 : (fun k => coef (ix2 b k)) = coefI (up r0) (up r1) (up r2) (up r3) (up r4) b := funext (hc b)
  have e2 : (fun k => feat (ix2 k n)) = (featI (up r5) · n) := funext fun k => hf k n
  rw [e1, e2]
  exact lpPoly_coefI_featI r0 r1 r2 r3 r4 r5 b n

end Cert.KernelIdeal.KILpSpec

end
-- ==== Proof.GlueEqsA.lean ====
/-
  The host operations before the kernel regions, one equation each: operations 1 to 82 of the 244. For the operation
  `y = f a b` the contents `glue V` satisfy `glue V y = f (glue V a) (glue V b)`: every reference is written once, and
  an operation reads only references written before it.
-/
import proofs.«169934_j78314433675744_2_alg».proof.Proof.GlueValue

set_option maxRecDepth 8192

noncomputable section

namespace Cert.KernelIdeal.GlueValue

open Cert.KernelIdeal Cert.KernelIdeal.Gen Idealize.ShloMosaic Idealize.ShloMosaic.TcCoe Idealize.SL.Sem Idealize.ShloMosaic.StableHlo

variable {F : FTy → Type} [FloatOps F] [Named F]

theorem eq_main_v0 (V : Valuation τ sig (Elt F)) :
    (glue V (main_v0 : DevRef τ sig) : (⟨S256x3, .f32⟩ : BufTy).Contents (Elt F)) = ((transpose S256x3 [1, 0] · transposes_S3x256_S256x3_1_0) : (⟨S3x256, .f32⟩ : BufTy).Contents (Elt F) → (⟨S256x3, .f32⟩ : BufTy).Contents (Elt F)) (glue V (main_arg1 : DevRef τ sig)) := by line_eq V 0 with StableHlo.unary_result

theorem eq_main_v1 (V : Valuation τ sig (Elt F)) :
    (glue V (main_v1 : DevRef τ sig) : (⟨S512x3, .f32⟩ : BufTy).Contents (Elt F)) = ((fun l r => Host.dotGeneral dot_S512x256_S256x3_S512x3_1_0_0_1_n_n none l r) : (⟨S512x256, .f32⟩ : BufTy).Contents (Elt F) → (⟨S256x3, .f32⟩ : BufTy).Contents (Elt F) → (⟨S512x3, .f32⟩ : BufTy).Contents (Elt F)) (glue V (main_arg0 : DevRef τ sig)) (glue V (main_v0 : DevRef τ sig)) := by line_eq V 1 with StableHlo.binary_result

theorem eq_main_v2 (V : Valuation τ sig (Elt F)) :
    (glue V (main_v2 : DevRef τ sig) : (⟨S1x3, .f32⟩ : BufTy).Contents (Elt F)) = (broadcastInDim S1x3 ![1] bcast_S3_S1x3_1 : (⟨S3, .f32⟩ : BufTy).Contents (Elt F) → (⟨S1x3, .f32⟩ : BufTy).Contents (Elt F)) (glue V (main_arg2 : DevRef τ sig)) := by line_eq V 2 with StableHlo.unary_result

theorem eq_main_v3 (V : Valuation τ sig (Elt F)) :
    (glue V (main_v3 : DevRef τ sig) : (⟨S512x3, .f32⟩ : BufTy).Contents (Elt F)) = (broadcastInDim S512x3 ![0, 1] bcast_S1x3_S512x3_0_1 : (⟨S1x3, .f32⟩ : BufTy).Contents (Elt F) → (⟨S512x3, .f32⟩ : BufTy).Contents (Elt F)) (glue V (main_v2 : DevRef τ sig)) := by line_eq V 3 with StableHlo.unary_result

theorem eq_main_v4 (V : Valuation τ sig (Elt F)) :
    (glue V (main_v4 : DevRef τ sig) : (⟨S512x3, .f32⟩ : BufTy).Contents (Elt F)) = (addf : (⟨S512x3, .f32⟩ : BufTy).Contents (Elt F) → (⟨S512x3, .f32⟩ : BufTy).Contents (Elt F) → (⟨S512x3, .f32⟩ : BufTy).Contents (Elt F)) (glue V (main_v1 : DevRef τ sig)) (glue V (main_v3 : DevRef τ sig)) := by line_eq V 4 with StableHlo.binary_result

theorem eq_main_v5 (V : Valuation τ sig (Elt F)) :
    (glue V (main_v5 : DevRef τ sig) : (⟨S256x6, .f32⟩ : BufTy).Contents (Elt F)) = ((transpose S256x6 [1, 0] · transposes_S6x256_S256x6_1_0) : (⟨S6x256, .f32⟩ : BufTy).Contents (Elt F) → (⟨S256x6, .f32⟩ : BufTy).Contents (Elt F)) (glue V (main_arg3 : DevRef τ sig)) := by line_eq V 5 with StableHlo.unary_result

theorem eq_main_v6 (V : Valuation τ sig (Elt F)) :
    (glue V (main_v6 : DevRef τ sig) : (⟨S512x6, .f32⟩ : BufTy).Contents (Elt F)) = ((fun l r => Host.dotGeneral dot_S512x256_S256x6_S512x6_1_0_0_1_n_n none l r) : (⟨S512x256, .f32⟩ : BufTy).Contents (Elt F) → (⟨S256x6, .f32⟩ : BufTy).Contents (Elt F) → (⟨S512x6, .f32⟩ : BufTy).Contents (Elt F)) (glue V (main_arg0 : DevRef τ sig)) (glue V (main_v5 : DevRef τ sig)) := by line_eq V 6 with StableHlo.binary_result

theorem eq_main_v7 (V : Valuation τ sig (Elt F)) :
    (glue V (main_v7 : DevRef τ sig) : (⟨S1x6, .f32⟩ : BufTy).Contents (Elt F)) = (broadcastInDim S1x6 ![1] bcast_S6_S1x6_1 : (⟨S6, .f32⟩ : BufTy).Contents (Elt F) → (⟨S1x6, .f32⟩ : BufTy).Contents (Elt F)) (glue V (main_arg4 : DevRef τ sig)) := by line_eq V 7 with StableHlo.unary_result

theorem eq_main_v8 (V : Valuation τ sig (Elt F)) :
    (glue V (main_v8 : DevRef τ sig) : (⟨S512x6, .f32⟩ : BufTy).Contents (Elt F)) = (broadcastInDim S512x6 ![0, 1] bcast_S1x6_S512x6_0_1 : (⟨S1x6, .f32⟩ : BufTy).Contents (Elt F) → (⟨S512x6, .f32⟩ : BufTy).Contents (Elt F)) (glue V (main_v7 : DevRef τ sig)) := by line_eq V 8 with StableHlo.unary_result

theorem eq_main_v9 (V : Valuation τ sig (Elt F)) :
    (glue V (main_v9 : DevRef τ sig) : (⟨S512x6, .f32⟩ : BufTy).Contents (Elt F)) = (addf : (⟨S512x6, .f32⟩ : BufTy).Contents (Elt F) → (⟨S512x6, .f32⟩ : BufTy).Contents (Elt F) → (⟨S512x6, .f32⟩ : BufTy).Contents (Elt F)) (glue V (main_v6 : DevRef τ sig)) (glue V (main_v8 : DevRef τ sig)) := by line_eq V 9 with StableHlo.binary_result

theorem eq_main_call0_cst (V : Valuation τ sig (Elt F)) :
    (glue V (main_call0_cst : DevRef τ sig) : (⟨S_, .f32⟩ : BufTy).Contents (Elt F)) = (constant (F := F) S_ .f32 0x00000000#32 : (⟨S_, .f32⟩ : BufTy).Contents (Elt F)) := by line_eq V 10 with StableHlo.nullary_result

theorem eq_main_call0_v0 (V : Valuation τ sig (Elt F)) :
    (glue V (main_call0_v0 : DevRef τ sig) : (⟨S512x6, .f32⟩ : BufTy).Contents (Elt F)) = ((broadcastInDim S512x6 ![] bcast_S_S512x6) : (⟨S_, .f32⟩ : BufTy).Contents (Elt F) → (⟨S512x6, .f32⟩ : BufTy).Contents (Elt F)) (glue V (main_call0_cst : DevRef τ sig)) := by line_eq V 11 with StableHlo.unary_result

theorem eq_main_call0_v1 (V : Valuation τ sig (Elt F)) :
    (glue V (main_call0_v1 : DevRef τ sig) : (⟨S512x6, .i1⟩ : BufTy).Contents (Elt F)) = ((cmpf .ogt) : (⟨S512x6, .f32⟩ : BufTy).Contents (Elt F) → (⟨S512x6, .f32⟩ : BufTy).Contents (Elt F) → (⟨S512x6, .i1⟩ : BufTy).Contents (Elt F)) (glue V (main_v9 : DevRef τ sig)) (glue V (main_call0_v0 : DevRef τ sig)) := by line_eq V 12 with StableHlo.binary_result

theorem eq_main_call0_cst_0 (V : Valuation τ sig (Elt F)) :
    (glue V (main_call0_cst_0 : DevRef τ sig) : (⟨S_, .f32⟩ : BufTy).Contents (Elt F)) = (constant (F := F) S_ .f32 0x00000000#32 : (⟨S_, .f32⟩ : BufTy).Contents (Elt F)) := by line_eq V 13 with StableHlo.nullary_result

theorem eq_main_call0_v2 (V : Valuation τ sig (Elt F)) :
    (glue V (main_call0_v2 : DevRef τ sig) : (⟨S512x6, .f32⟩ : BufTy).Contents (Elt F)) = ((broadcastInDim S512x6 ![] bcast_S_S512x6) : (⟨S_, .f32⟩ : BufTy).Contents (Elt F) → (⟨S512x6, .f32⟩ : BufTy).Contents (Elt F)) (glue V (main_call0_cst_0 : DevRef τ sig)) := by line_eq V 14 with StableHlo.unary_result

theorem eq_main_call0_v3 (V : Valuation τ sig (Elt F)) :
    (glue V (main_call0_v3 : DevRef τ sig) : (⟨S512x6, .i1⟩ : BufTy).Contents (Elt F)) = ((cmpf .ogt) : (⟨S512x6, .f32⟩ : BufTy).Contents (Elt F) → (⟨S512x6, .f32⟩ : BufTy).Contents (Elt F) → (⟨S512x6, .i1⟩ : BufTy).Contents (Elt F)) (glue V (main_v9 : DevRef τ sig)) (glue V (main_call0_v2 : DevRef τ sig)) := by line_eq V 15 with StableHlo.binary_result

theorem eq_main_call0_cst_1 (V : Valuation τ sig (Elt F)) :
    (glue V (main_call0_cst_1 : DevRef τ sig) : (⟨S_, .f32⟩ : BufTy).Contents (Elt F)) = (constant (F := F) S_ .f32 0x00000000#32 : (⟨S_, .f32⟩ : BufTy).Contents (Elt F)) := by line_eq V 16 with StableHlo.nullary_result

theorem eq_main_call0_call0_v0 (V : Valuation τ sig (Elt F)) :
    (glue V (main_call0_call0_v0 : DevRef τ sig) : (⟨S_, .f32⟩ : BufTy).Contents (Elt F)) = (id : (⟨S_, .f32⟩ : BufTy).Contents (Elt F) → (⟨S_, .f32⟩ : BufTy).Contents (Elt F)) (glue V (main_call0_cst_1 : DevRef τ sig)) := by line_eq V 17 with StableHlo.unary_result

theorem eq_main_call0_call0_v1 (V : Valuation τ sig (Elt F)) :
    (glue V (main_call0_call0_v1 : DevRef τ sig) : (⟨S512x6, .f32⟩ : BufTy).Contents (Elt F)) = ((broadcastInDim S512x6 ![] bcast_S_S512x6) : (⟨S_, .f32⟩ : BufTy).Contents (Elt F) → (⟨S512x6, .f32⟩ : BufTy).Contents (Elt F)) (glue V (main_call0_call0_v0 : DevRef τ sig)) := by line_eq V 18 with StableHlo.unary_result

theorem eq_main_call0_v4 (V : Valuation τ sig (Elt F)) :
    (glue V (main_call0_v4 : DevRef τ sig) : (⟨S512x6, .f32⟩ : BufTy).Contents (Elt F)) = (select : (⟨S512x6, .i1⟩ : BufTy).Contents (Elt F) → (⟨S512x6, .f32⟩ : BufTy).Contents (Elt F) → (⟨S512x6, .f32⟩ : BufTy).Contents (Elt F) → (⟨S512x6, .f32⟩ : BufTy).Contents (Elt F)) (glue V (main_call0_v3 : DevRef τ sig)) (glue V (main_call0_call0_v1 : DevRef τ sig)) (glue V (main_v9 : DevRef τ sig)) := by line_eq V 19 with StableHlo.ternary_result

theorem eq_main_call0_v5 (V : Valuation τ sig (Elt F)) :
    (glue V (main_call0_v5 : DevRef τ sig) : (⟨S512x6, .f32⟩ : BufTy).Contents (Elt F)) = (Host.expm1 : (⟨S512x6, .f32⟩ : BufTy).Contents (Elt F) → (⟨S512x6, .f32⟩ : BufTy).Contents (Elt F)) (glue V (main_call0_v4 : DevRef τ sig)) := by line_eq V 20 with StableHlo.unary_result

theorem eq_main_call0_cst_2 (V : Valuation τ sig (Elt F)) :
    (glue V (main_call0_cst_2 : DevRef τ sig) : (⟨S_, .f32⟩ : BufTy).Contents (Elt F)) = (constant (F := F) S_ .f32 0x3F800000#32 : (⟨S_, .f32⟩ : BufTy).Contents (Elt F)) := by line_eq V 21 with StableHlo.nullary_result

theorem eq_main_call0_v6 (V : Valuation τ sig (Elt F)) :
    (glue V (main_call0_v6 : DevRef τ sig) : (⟨S512x6, .f32⟩ : BufTy).Contents (Elt F)) = ((broadcastInDim S512x6 ![] bcast_S_S512x6) : (⟨S_, .f32⟩ : BufTy).Contents (Elt F) → (⟨S512x6, .f32⟩ : BufTy).Contents (Elt F)) (glue V (main_call0_cst_2 : DevRef τ sig)) := by line_eq V 22 with StableHlo.unary_result

theorem eq_main_call0_v7 (V : Valuation τ sig (Elt F)) :
    (glue V (main_call0_v7 : DevRef τ sig) : (⟨S512x6, .f32⟩ : BufTy).Contents (Elt F)) = (mulf : (⟨S512x6, .f32⟩ : BufTy).Contents (Elt F) → (⟨S512x6, .f32⟩ : BufTy).Contents (Elt F) → (⟨S512x6, .f32⟩ : BufTy).Contents (Elt F)) (glue V (main_call0_v6 : DevRef τ sig)) (glue V (main_call0_v5 : DevRef τ sig)) := by line_eq V 23 with StableHlo.binary_result

theorem eq_main_v10 (V : Valuation τ sig (Elt F)) :
    (glue V (main_v10 : DevRef τ sig) : (⟨S512x6, .f32⟩ : BufTy).Contents (Elt F)) = (select : (⟨S512x6, .i1⟩ : BufTy).Contents (Elt F) → (⟨S512x6, .f32⟩ : BufTy).Contents (Elt F) → (⟨S512x6, .f32⟩ : BufTy).Contents (Elt F) → (⟨S512x6, .f32⟩ : BufTy).Contents (Elt F)) (glue V (main_call0_v1 : DevRef τ sig)) (glue V (main_v9 : DevRef τ sig)) (glue V (main_call0_v7 : DevRef τ sig)) := by line_eq V 24 with StableHlo.ternary_result

theorem eq_main_cst (V : Valuation τ sig (Elt F)) :
    (glue V (main_cst : DevRef τ sig) : (⟨S_, .f32⟩ : BufTy).Contents (Elt F)) = (constant (F := F) S_ .f32 0x3F800000#32 : (⟨S_, .f32⟩ : BufTy).Contents (Elt F)) := by line_eq V 25 with StableHlo.nullary_result

theorem eq_main_v11 (V : Valuation τ sig (Elt F)) :
    (glue V (main_v11 : DevRef τ sig) : (⟨S512x6, .f32⟩ : BufTy).Contents (Elt F)) = (broadcastInDim S512x6 ![] bcast_S_S512x6 : (⟨S_, .f32⟩ : BufTy).Contents (Elt F) → (⟨S512x6, .f32⟩ : BufTy).Contents (Elt F)) (glue V (main_cst : DevRef τ sig)) := by line_eq V 26 with StableHlo.unary_result

theorem eq_main_v12 (V : Valuation τ sig (Elt F)) :
    (glue V (main_v12 : DevRef τ sig) : (⟨S512x6, .f32⟩ : BufTy).Contents (Elt F)) = (addf : (⟨S512x6, .f32⟩ : BufTy).Contents (Elt F) → (⟨S512x6, .f32⟩ : BufTy).Contents (Elt F) → (⟨S512x6, .f32⟩ : BufTy).Contents (Elt F)) (glue V (main_v10 : DevRef τ sig)) (glue V (main_v11 : DevRef τ sig)) := by line_eq V 27 with StableHlo.binary_result

theorem eq_main_v13 (V : Valuation τ sig (Elt F)) :
    (glue V (main_v13 : DevRef τ sig) : (⟨S512x1, .f32⟩ : BufTy).Contents (Elt F)) = ((extractStridedSlice S512x1 ![0, 0] · slices_S512x6_S512x1_0_0) : (⟨S512x6, .f32⟩ : BufTy).Contents (Elt F) → (⟨S512x1, .f32⟩ : BufTy).Contents (Elt F)) (glue V (main_v12 : DevRef τ sig)) := by line_eq V 28 with StableHlo.unary_result

theorem eq_main_v14 (V : Valuation τ sig (Elt F)) :
    (glue V (main_v14 : DevRef τ sig) : (⟨S512, .f32⟩ : BufTy).Contents (Elt F)) = shapeCast S512 (glue V (main_v13 : DevRef τ sig)) shapeCasts_S512x1_S512 := by line_eq V 29 with StableHlo.reshape_result

theorem eq_main_call1_cst (V : Valuation τ sig (Elt F)) :
    (glue V (main_call1_cst : DevRef τ sig) : (⟨S_, .f32⟩ : BufTy).Contents (Elt F)) = (constant (F := F) S_ .f32 0x00000000#32 : (⟨S_, .f32⟩ : BufTy).Contents (Elt F)) := by line_eq V 30 with StableHlo.nullary_result

theorem eq_main_call1_v0 (V : Valuation τ sig (Elt F)) :
    (glue V (main_call1_v0 : DevRef τ sig) : (⟨S512, .f32⟩ : BufTy).Contents (Elt F)) = ((broadcastInDim S512 ![] bcast_S_S512) : (⟨S_, .f32⟩ : BufTy).Contents (Elt F) → (⟨S512, .f32⟩ : BufTy).Contents (Elt F)) (glue V (main_call1_cst : DevRef τ sig)) := by line_eq V 31 with StableHlo.unary_result

theorem eq_main_call1_v1 (V : Valuation τ sig (Elt F)) :
    (glue V (main_call1_v1 : DevRef τ sig) : (⟨S512, .f32⟩ : BufTy).Contents (Elt F)) = (maximumf : (⟨S512, .f32⟩ : BufTy).Contents (Elt F) → (⟨S512, .f32⟩ : BufTy).Contents (Elt F) → (⟨S512, .f32⟩ : BufTy).Contents (Elt F)) (glue V (main_v14 : DevRef τ sig)) (glue V (main_call1_v0 : DevRef τ sig)) := by line_eq V 32 with StableHlo.binary_result

theorem eq_main_call1_v2 (V : Valuation τ sig (Elt F)) :
    (glue V (main_call1_v2 : DevRef τ sig) : (⟨S512, .f32⟩ : BufTy).Contents (Elt F)) = ((broadcastInDim S512 ![] bcast_S_S512) : (⟨S_, .f32⟩ : BufTy).Contents (Elt F) → (⟨S512, .f32⟩ : BufTy).Contents (Elt F)) (glue V (main_call1_cst : DevRef τ sig)) := by line_eq V 33 with StableHlo.unary_result

theorem eq_main_call1_v3 (V : Valuation τ sig (Elt F)) :
    (glue V (main_call1_v3 : DevRef τ sig) : (⟨S512, .f32⟩ : BufTy).Contents (Elt F)) = (subf : (⟨S512, .f32⟩ : BufTy).Contents (Elt F) → (⟨S512, .f32⟩ : BufTy).Contents (Elt F) → (⟨S512, .f32⟩ : BufTy).Contents (Elt F)) (glue V (main_v14 : DevRef τ sig)) (glue V (main_call1_v2 : DevRef τ sig)) := by line_eq V 34 with StableHlo.binary_result

theorem eq_main_call1_v4 (V : Valuation τ sig (Elt F)) :
    (glue V (main_call1_v4 : DevRef τ sig) : (⟨S512, .i1⟩ : BufTy).Contents (Elt F)) = ((cmpf .une) : (⟨S512, .f32⟩ : BufTy).Contents (Elt F) → (⟨S512, .f32⟩ : BufTy).Contents (Elt F) → (⟨S512, .i1⟩ : BufTy).Contents (Elt F)) (glue V (main_call1_v3 : DevRef τ sig)) (glue V (main_call1_v3 : DevRef τ sig)) := by line_eq V 35 with StableHlo.binary_result

theorem eq_main_call1_v5 (V : Valuation τ sig (Elt F)) :
    (glue V (main_call1_v5 : DevRef τ sig) : (⟨S512, .f32⟩ : BufTy).Contents (Elt F)) = ((broadcastInDim S512 ![] bcast_S_S512) : (⟨S_, .f32⟩ : BufTy).Contents (Elt F) → (⟨S512, .f32⟩ : BufTy).Contents (Elt F)) (glue V (main_call1_cst : DevRef τ sig)) := by line_eq V 36 with StableHlo.unary_result

theorem eq_main_call1_v6 (V : Valuation τ sig (Elt F)) :
    (glue V (main_call1_v6 : DevRef τ sig) : (⟨S512, .f32⟩ : BufTy).Contents (Elt F)) = (addf : (⟨S512, .f32⟩ : BufTy).Contents (Elt F) → (⟨S512, .f32⟩ : BufTy).Contents (Elt F) → (⟨S512, .f32⟩ : BufTy).Contents (Elt F)) (glue V (main_v14 : DevRef τ sig)) (glue V (main_call1_v5 : DevRef τ sig)) := by line_eq V 37 with StableHlo.binary_result

theorem eq_main_call1_v7 (V : Valuation τ sig (Elt F)) :
    (glue V (main_call1_v7 : DevRef τ sig) : (⟨S512, .f32⟩ : BufTy).Contents (Elt F)) = (Host.absf : (⟨S512, .f32⟩ : BufTy).Contents (Elt F) → (⟨S512, .f32⟩ : BufTy).Contents (Elt F)) (glue V (main_call1_v3 : DevRef τ sig)) := by line_eq V 38 with StableHlo.unary_result

theorem eq_main_call1_v8 (V : Valuation τ sig (Elt F)) :
    (glue V (main_call1_v8 : DevRef τ sig) : (⟨S512, .f32⟩ : BufTy).Contents (Elt F)) = (Host.negf : (⟨S512, .f32⟩ : BufTy).Contents (Elt F) → (⟨S512, .f32⟩ : BufTy).Contents (Elt F)) (glue V (main_call1_v7 : DevRef τ sig)) := by line_eq V 39 with StableHlo.unary_result

theorem eq_main_call1_v9 (V : Valuation τ sig (Elt F)) :
    (glue V (main_call1_v9 : DevRef τ sig) : (⟨S512, .f32⟩ : BufTy).Contents (Elt F)) = (Host.exp : (⟨S512, .f32⟩ : BufTy).Contents (Elt F) → (⟨S512, .f32⟩ : BufTy).Contents (Elt F)) (glue V (main_call1_v8 : DevRef τ sig)) := by line_eq V 40 with StableHlo.unary_result

theorem eq_main_call1_v10 (V : Valuation τ sig (Elt F)) :
    (glue V (main_call1_v10 : DevRef τ sig) : (⟨S512, .f32⟩ : BufTy).Contents (Elt F)) = (Host.log1p : (⟨S512, .f32⟩ : BufTy).Contents (Elt F) → (⟨S512, .f32⟩ : BufTy).Contents (Elt F)) (glue V (main_call1_v9 : DevRef τ sig)) := by line_eq V 41 with StableHlo.unary_result

theorem eq_main_call1_v11 (V : Valuation τ sig (Elt F)) :
    (glue V (main_call1_v11 : DevRef τ sig) : (⟨S512, .f32⟩ : BufTy).Contents (Elt F)) = (addf : (⟨S512, .f32⟩ : BufTy).Contents (Elt F) → (⟨S512, .f32⟩ : BufTy).Contents (Elt F) → (⟨S512, .f32⟩ : BufTy).Contents (Elt F)) (glue V (main_call1_v1 : DevRef τ sig)) (glue V (main_call1_v10 : DevRef τ sig)) := by line_eq V 42 with StableHlo.binary_result

theorem eq_main_v15 (V : Valuation τ sig (Elt F)) :
    (glue V (main_v15 : DevRef τ sig) : (⟨S512, .f32⟩ : BufTy).Contents (Elt F)) = (select : (⟨S512, .i1⟩ : BufTy).Contents (Elt F) → (⟨S512, .f32⟩ : BufTy).Contents (Elt F) → (⟨S512, .f32⟩ : BufTy).Contents (Elt F) → (⟨S512, .f32⟩ : BufTy).Contents (Elt F)) (glue V (main_call1_v4 : DevRef τ sig)) (glue V (main_call1_v6 : DevRef τ sig)) (glue V (main_call1_v11 : DevRef τ sig)) := by line_eq V 43 with StableHlo.ternary_result

theorem eq_main_v16 (V : Valuation τ sig (Elt F)) :
    (glue V (main_v16 : DevRef τ sig) : (⟨S512x1, .f32⟩ : BufTy).Contents (Elt F)) = ((extractStridedSlice S512x1 ![0, 1] · slices_S512x6_S512x1_0_1) : (⟨S512x6, .f32⟩ : BufTy).Contents (Elt F) → (⟨S512x1, .f32⟩ : BufTy).Contents (Elt F)) (glue V (main_v12 : DevRef τ sig)) := by line_eq V 44 with StableHlo.unary_result

theorem eq_main_v17 (V : Valuation τ sig (Elt F)) :
    (glue V (main_v17 : DevRef τ sig) : (⟨S512, .f32⟩ : BufTy).Contents (Elt F)) = shapeCast S512 (glue V (main_v16 : DevRef τ sig)) shapeCasts_S512x1_S512 := by line_eq V 45 with StableHlo.reshape_result

theorem eq_main_v18 (V : Valuation τ sig (Elt F)) :
    (glue V (main_v18 : DevRef τ sig) : (⟨S512x1, .f32⟩ : BufTy).Contents (Elt F)) = ((extractStridedSlice S512x1 ![0, 2] · slices_S512x6_S512x1_0_2) : (⟨S512x6, .f32⟩ : BufTy).Contents (Elt F) → (⟨S512x1, .f32⟩ : BufTy).Contents (Elt F)) (glue V (main_v12 : DevRef τ sig)) := by line_eq V 46 with StableHlo.unary_result

theorem eq_main_v19 (V : Valuation τ sig (Elt F)) :
    (glue V (main_v19 : DevRef τ sig) : (⟨S512, .f32⟩ : BufTy).Contents (Elt F)) = shapeCast S512 (glue V (main_v18 : DevRef τ sig)) shapeCasts_S512x1_S512 := by line_eq V 47 with StableHlo.reshape_result

theorem eq_main_call2_cst (V : Valuation τ sig (Elt F)) :
    (glue V (main_call2_cst : DevRef τ sig) : (⟨S_, .f32⟩ : BufTy).Contents (Elt F)) = (constant (F := F) S_ .f32 0x00000000#32 : (⟨S_, .f32⟩ : BufTy).Contents (Elt F)) := by line_eq V 48 with StableHlo.nullary_result

theorem eq_main_call2_v0 (V : Valuation τ sig (Elt F)) :
    (glue V (main_call2_v0 : DevRef τ sig) : (⟨S512, .f32⟩ : BufTy).Contents (Elt F)) = ((broadcastInDim S512 ![] bcast_S_S512) : (⟨S_, .f32⟩ : BufTy).Contents (Elt F) → (⟨S512, .f32⟩ : BufTy).Contents (Elt F)) (glue V (main_call2_cst : DevRef τ sig)) := by line_eq V 49 with StableHlo.unary_result

theorem eq_main_call2_v1 (V : Valuation τ sig (Elt F)) :
    (glue V (main_call2_v1 : DevRef τ sig) : (⟨S512, .f32⟩ : BufTy).Contents (Elt F)) = (maximumf : (⟨S512, .f32⟩ : BufTy).Contents (Elt F) → (⟨S512, .f32⟩ : BufTy).Contents (Elt F) → (⟨S512, .f32⟩ : BufTy).Contents (Elt F)) (glue V (main_v19 : DevRef τ sig)) (glue V (main_call2_v0 : DevRef τ sig)) := by line_eq V 50 with StableHlo.binary_result

theorem eq_main_call2_v2 (V : Valuation τ sig (Elt F)) :
    (glue V (main_call2_v2 : DevRef τ sig) : (⟨S512, .f32⟩ : BufTy).Contents (Elt F)) = ((broadcastInDim S512 ![] bcast_S_S512) : (⟨S_, .f32⟩ : BufTy).Contents (Elt F) → (⟨S512, .f32⟩ : BufTy).Contents (Elt F)) (glue V (main_call2_cst : DevRef τ sig)) := by line_eq V 51 with StableHlo.unary_result

theorem eq_main_call2_v3 (V : Valuation τ sig (Elt F)) :
    (glue V (main_call2_v3 : DevRef τ sig) : (⟨S512, .f32⟩ : BufTy).Contents (Elt F)) = (subf : (⟨S512, .f32⟩ : BufTy).Contents (Elt F) → (⟨S512, .f32⟩ : BufTy).Contents (Elt F) → (⟨S512, .f32⟩ : BufTy).Contents (Elt F)) (glue V (main_v19 : DevRef τ sig)) (glue V (main_call2_v2 : DevRef τ sig)) := by line_eq V 52 with StableHlo.binary_result

theorem eq_main_call2_v4 (V : Valuation τ sig (Elt F)) :
    (glue V (main_call2_v4 : DevRef τ sig) : (⟨S512, .i1⟩ : BufTy).Contents (Elt F)) = ((cmpf .une) : (⟨S512, .f32⟩ : BufTy).Contents (Elt F) → (⟨S512, .f32⟩ : BufTy).Contents (Elt F) → (⟨S512, .i1⟩ : BufTy).Contents (Elt F)) (glue V (main_call2_v3 : DevRef τ sig)) (glue V (main_call2_v3 : DevRef τ sig)) := by line_eq V 53 with StableHlo.binary_result

theorem eq_main_call2_v5 (V : Valuation τ sig (Elt F)) :
    (glue V (main_call2_v5 : DevRef τ sig) : (⟨S512, .f32⟩ : BufTy).Contents (Elt F)) = ((broadcastInDim S512 ![] bcast_S_S512) : (⟨S_, .f32⟩ : BufTy).Contents (Elt F) → (⟨S512, .f32⟩ : BufTy).Contents (Elt F)) (glue V (main_call2_cst : DevRef τ sig)) := by line_eq V 54 with StableHlo.unary_result

theorem eq_main_call2_v6 (V : Valuation τ sig (Elt F)) :
    (glue V (main_call2_v6 : DevRef τ sig) : (⟨S512, .f32⟩ : BufTy).Contents (Elt F)) = (addf : (⟨S512, .f32⟩ : BufTy).Contents (Elt F) → (⟨S512, .f32⟩ : BufTy).Contents (Elt F) → (⟨S512, .f32⟩ : BufTy).Contents (Elt F)) (glue V (main_v19 : DevRef τ sig)) (glue V (main_call2_v5 : DevRef τ sig)) := by line_eq V 55 with StableHlo.binary_result

theorem eq_main_call2_v7 (V : Valuation τ sig (Elt F)) :
    (glue V (main_call2_v7 : DevRef τ sig) : (⟨S512, .f32⟩ : BufTy).Contents (Elt F)) = (Host.absf : (⟨S512, .f32⟩ : BufTy).Contents (Elt F) → (⟨S512, .f32⟩ : BufTy).Contents (Elt F)) (glue V (main_call2_v3 : DevRef τ sig)) := by line_eq V 56 with StableHlo.unary_result

theorem eq_main_call2_v8 (V : Valuation τ sig (Elt F)) :
    (glue V (main_call2_v8 : DevRef τ sig) : (⟨S512, .f32⟩ : BufTy).Contents (Elt F)) = (Host.negf : (⟨S512, .f32⟩ : BufTy).Contents (Elt F) → (⟨S512, .f32⟩ : BufTy).Contents (Elt F)) (glue V (main_call2_v7 : DevRef τ sig)) := by line_eq V 57 with StableHlo.unary_result

theorem eq_main_call2_v9 (V : Valuation τ sig (Elt F)) :
    (glue V (main_call2_v9 : DevRef τ sig) : (⟨S512, .f32⟩ : BufTy).Contents (Elt F)) = (Host.exp : (⟨S512, .f32⟩ : BufTy).Contents (Elt F) → (⟨S512, .f32⟩ : BufTy).Contents (Elt F)) (glue V (main_call2_v8 : DevRef τ sig)) := by line_eq V 58 with StableHlo.unary_result

theorem eq_main_call2_v10 (V : Valuation τ sig (Elt F)) :
    (glue V (main_call2_v10 : DevRef τ sig) : (⟨S512, .f32⟩ : BufTy).Contents (Elt F)) = (Host.log1p : (⟨S512, .f32⟩ : BufTy).Contents (Elt F) → (⟨S512, .f32⟩ : BufTy).Contents (Elt F)) (glue V (main_call2_v9 : DevRef τ sig)) := by line_eq V 59 with StableHlo.unary_result

theorem eq_main_call2_v11 (V : Valuation τ sig (Elt F)) :
    (glue V (main_call2_v11 : DevRef τ sig) : (⟨S512, .f32⟩ : BufTy).Contents (Elt F)) = (addf : (⟨S512, .f32⟩ : BufTy).Contents (Elt F) → (⟨S512, .f32⟩ : BufTy).Contents (Elt F) → (⟨S512, .f32⟩ : BufTy).Contents (Elt F)) (glue V (main_call2_v1 : DevRef τ sig)) (glue V (main_call2_v10 : DevRef τ sig)) := by line_eq V 60 with StableHlo.binary_result

theorem eq_main_v20 (V : Valuation τ sig (Elt F)) :
    (glue V (main_v20 : DevRef τ sig) : (⟨S512, .f32⟩ : BufTy).Contents (Elt F)) = (select : (⟨S512, .i1⟩ : BufTy).Contents (Elt F) → (⟨S512, .f32⟩ : BufTy).Contents (Elt F) → (⟨S512, .f32⟩ : BufTy).Contents (Elt F) → (⟨S512, .f32⟩ : BufTy).Contents (Elt F)) (glue V (main_call2_v4 : DevRef τ sig)) (glue V (main_call2_v6 : DevRef τ sig)) (glue V (main_call2_v11 : DevRef τ sig)) := by line_eq V 61 with StableHlo.ternary_result

theorem eq_main_v21 (V : Valuation τ sig (Elt F)) :
    (glue V (main_v21 : DevRef τ sig) : (⟨S512x1, .f32⟩ : BufTy).Contents (Elt F)) = ((extractStridedSlice S512x1 ![0, 3] · slices_S512x6_S512x1_0_3) : (⟨S512x6, .f32⟩ : BufTy).Contents (Elt F) → (⟨S512x1, .f32⟩ : BufTy).Contents (Elt F)) (glue V (main_v12 : DevRef τ sig)) := by line_eq V 62 with StableHlo.unary_result

theorem eq_main_v22 (V : Valuation τ sig (Elt F)) :
    (glue V (main_v22 : DevRef τ sig) : (⟨S512, .f32⟩ : BufTy).Contents (Elt F)) = shapeCast S512 (glue V (main_v21 : DevRef τ sig)) shapeCasts_S512x1_S512 := by line_eq V 63 with StableHlo.reshape_result

theorem eq_main_v23 (V : Valuation τ sig (Elt F)) :
    (glue V (main_v23 : DevRef τ sig) : (⟨S512x1, .f32⟩ : BufTy).Contents (Elt F)) = ((extractStridedSlice S512x1 ![0, 4] · slices_S512x6_S512x1_0_4) : (⟨S512x6, .f32⟩ : BufTy).Contents (Elt F) → (⟨S512x1, .f32⟩ : BufTy).Contents (Elt F)) (glue V (main_v12 : DevRef τ sig)) := by line_eq V 64 with StableHlo.unary_result

theorem eq_main_v24 (V : Valuation τ sig (Elt F)) :
    (glue V (main_v24 : DevRef τ sig) : (⟨S512, .f32⟩ : BufTy).Contents (Elt F)) = shapeCast S512 (glue V (main_v23 : DevRef τ sig)) shapeCasts_S512x1_S512 := by line_eq V 65 with StableHlo.reshape_result

theorem eq_main_v25 (V : Valuation τ sig (Elt F)) :
    (glue V (main_v25 : DevRef τ sig) : (⟨S512x1, .f32⟩ : BufTy).Contents (Elt F)) = ((extractStridedSlice S512x1 ![0, 5] · slices_S512x6_S512x1_0_5) : (⟨S512x6, .f32⟩ : BufTy).Contents (Elt F) → (⟨S512x1, .f32⟩ : BufTy).Contents (Elt F)) (glue V (main_v12 : DevRef τ sig)) := by line_eq V 66 with StableHlo.unary_result

theorem eq_main_v26 (V : Valuation τ sig (Elt F)) :
    (glue V (main_v26 : DevRef τ sig) : (⟨S512, .f32⟩ : BufTy).Contents (Elt F)) = shapeCast S512 (glue V (main_v25 : DevRef τ sig)) shapeCasts_S512x1_S512 := by line_eq V 67 with StableHlo.reshape_result

theorem eq_main_call3_cst (V : Valuation τ sig (Elt F)) :
    (glue V (main_call3_cst : DevRef τ sig) : (⟨S_, .f32⟩ : BufTy).Contents (Elt F)) = (constant (F := F) S_ .f32 0x00000000#32 : (⟨S_, .f32⟩ : BufTy).Contents (Elt F)) := by line_eq V 68 with StableHlo.nullary_result

theorem eq_main_call3_v0 (V : Valuation τ sig (Elt F)) :
    (glue V (main_call3_v0 : DevRef τ sig) : (⟨S512, .f32⟩ : BufTy).Contents (Elt F)) = ((broadcastInDim S512 ![] bcast_S_S512) : (⟨S_, .f32⟩ : BufTy).Contents (Elt F) → (⟨S512, .f32⟩ : BufTy).Contents (Elt F)) (glue V (main_call3_cst : DevRef τ sig)) := by line_eq V 69 with StableHlo.unary_result

theorem eq_main_call3_v1 (V : Valuation τ sig (Elt F)) :
    (glue V (main_call3_v1 : DevRef τ sig) : (⟨S512, .f32⟩ : BufTy).Contents (Elt F)) = (maximumf : (⟨S512, .f32⟩ : BufTy).Contents (Elt F) → (⟨S512, .f32⟩ : BufTy).Contents (Elt F) → (⟨S512, .f32⟩ : BufTy).Contents (Elt F)) (glue V (main_v26 : DevRef τ sig)) (glue V (main_call3_v0 : DevRef τ sig)) := by line_eq V 70 with StableHlo.binary_result

theorem eq_main_call3_v2 (V : Valuation τ sig (Elt F)) :
    (glue V (main_call3_v2 : DevRef τ sig) : (⟨S512, .f32⟩ : BufTy).Contents (Elt F)) = ((broadcastInDim S512 ![] bcast_S_S512) : (⟨S_, .f32⟩ : BufTy).Contents (Elt F) → (⟨S512, .f32⟩ : BufTy).Contents (Elt F)) (glue V (main_call3_cst : DevRef τ sig)) := by line_eq V 71 with StableHlo.unary_result

theorem eq_main_call3_v3 (V : Valuation τ sig (Elt F)) :
    (glue V (main_call3_v3 : DevRef τ sig) : (⟨S512, .f32⟩ : BufTy).Contents (Elt F)) = (subf : (⟨S512, .f32⟩ : BufTy).Contents (Elt F) → (⟨S512, .f32⟩ : BufTy).Contents (Elt F) → (⟨S512, .f32⟩ : BufTy).Contents (Elt F)) (glue V (main_v26 : DevRef τ sig)) (glue V (main_call3_v2 : DevRef τ sig)) := by line_eq V 72 with StableHlo.binary_result

theorem eq_main_call3_v4 (V : Valuation τ sig (Elt F)) :
    (glue V (main_call3_v4 : DevRef τ sig) : (⟨S512, .i1⟩ : BufTy).Contents (Elt F)) = ((cmpf .une) : (⟨S512, .f32⟩ : BufTy).Contents (Elt F) → (⟨S512, .f32⟩ : BufTy).Contents (Elt F) → (⟨S512, .i1⟩ : BufTy).Contents (Elt F)) (glue V (main_call3_v3 : DevRef τ sig)) (glue V (main_call3_v3 : DevRef τ sig)) := by line_eq V 73 with StableHlo.binary_result

theorem eq_main_call3_v5 (V : Valuation τ sig (Elt F)) :
    (glue V (main_call3_v5 : DevRef τ sig) : (⟨S512, .f32⟩ : BufTy).Contents (Elt F)) = ((broadcastInDim S512 ![] bcast_S_S512) : (⟨S_, .f32⟩ : BufTy).Contents (Elt F) → (⟨S512, .f32⟩ : BufTy).Contents (Elt F)) (glue V (main_call3_cst : DevRef τ sig)) := by line_eq V 74 with StableHlo.unary_result

theorem eq_main_call3_v6 (V : Valuation τ sig (Elt F)) :
    (glue V (main_call3_v6 : DevRef τ sig) : (⟨S512, .f32⟩ : BufTy).Contents (Elt F)) = (addf : (⟨S512, .f32⟩ : BufTy).Contents (Elt F) → (⟨S512, .f32⟩ : BufTy).Contents (Elt F) → (⟨S512, .f32⟩ : BufTy).Contents (Elt F)) (glue V (main_v26 : DevRef τ sig)) (glue V (main_call3_v5 : DevRef τ sig)) := by line_eq V 75 with StableHlo.binary_result

theorem eq_main_call3_v7 (V : Valuation τ sig (Elt F)) :
    (glue V (main_call3_v7 : DevRef τ sig) : (⟨S512, .f32⟩ : BufTy).Contents (Elt F)) = (Host.absf : (⟨S512, .f32⟩ : BufTy).Contents (Elt F) → (⟨S512, .f32⟩ : BufTy).Contents (Elt F)) (glue V (main_call3_v3 : DevRef τ sig)) := by line_eq V 76 with StableHlo.unary_result

theorem eq_main_call3_v8 (V : Valuation τ sig (Elt F)) :
    (glue V (main_call3_v8 : DevRef τ sig) : (⟨S512, .f32⟩ : BufTy).Contents (Elt F)) = (Host.negf : (⟨S512, .f32⟩ : BufTy).Contents (Elt F) → (⟨S512, .f32⟩ : BufTy).Contents (Elt F)) (glue V (main_call3_v7 : DevRef τ sig)) := by line_eq V 77 with StableHlo.unary_result

theorem eq_main_call3_v9 (V : Valuation τ sig (Elt F)) :
    (glue V (main_call3_v9 : DevRef τ sig) : (⟨S512, .f32⟩ : BufTy).Contents (Elt F)) = (Host.exp : (⟨S512, .f32⟩ : BufTy).Contents (Elt F) → (⟨S512, .f32⟩ : BufTy).Contents (Elt F)) (glue V (main_call3_v8 : DevRef τ sig)) := by line_eq V 78 with StableHlo.unary_result

theorem eq_main_call3_v10 (V : Valuation τ sig (Elt F)) :
    (glue V (main_call3_v10 : DevRef τ sig) : (⟨S512, .f32⟩ : BufTy).Contents (Elt F)) = (Host.log1p : (⟨S512, .f32⟩ : BufTy).Contents (Elt F) → (⟨S512, .f32⟩ : BufTy).Contents (Elt F)) (glue V (main_call3_v9 : DevRef τ sig)) := by line_eq V 79 with StableHlo.unary_result

theorem eq_main_call3_v11 (V : Valuation τ sig (Elt F)) :
    (glue V (main_call3_v11 : DevRef τ sig) : (⟨S512, .f32⟩ : BufTy).Contents (Elt F)) = (addf : (⟨S512, .f32⟩ : BufTy).Contents (Elt F) → (⟨S512, .f32⟩ : BufTy).Contents (Elt F) → (⟨S512, .f32⟩ : BufTy).Contents (Elt F)) (glue V (main_call3_v1 : DevRef τ sig)) (glue V (main_call3_v10 : DevRef τ sig)) := by line_eq V 80 with StableHlo.binary_result

theorem eq_main_v27 (V : Valuation τ sig (Elt F)) :
    (glue V (main_v27 : DevRef τ sig) : (⟨S512, .f32⟩ : BufTy).Contents (Elt F)) = (select : (⟨S512, .i1⟩ : BufTy).Contents (Elt F) → (⟨S512, .f32⟩ : BufTy).Contents (Elt F) → (⟨S512, .f32⟩ : BufTy).Contents (Elt F) → (⟨S512, .f32⟩ : BufTy).Contents (Elt F)) (glue V (main_call3_v4 : DevRef τ sig)) (glue V (main_call3_v6 : DevRef τ sig)) (glue V (main_call3_v11 : DevRef τ sig)) := by line_eq V 81 with StableHlo.ternary_result

end Cert.KernelIdeal.GlueValue

end
-- ==== Proof.GlueEqsB.lean ====
/-
  The host operations before the kernel regions, one equation each: operations 83 to 141 of the 244. For the operation
  `y = f a b` the contents `glue V` satisfy `glue V y = f (glue V a) (glue V b)`: every reference is written once, and
  an operation reads only references written before it.
-/
import proofs.«169934_j78314433675744_2_alg».proof.Proof.GlueEqsA

set_option maxRecDepth 8192

noncomputable section

namespace Cert.KernelIdeal.GlueValue

open Cert.KernelIdeal Cert.KernelIdeal.Gen Idealize.ShloMosaic Idealize.ShloMosaic.TcCoe Idealize.SL.Sem Idealize.ShloMosaic.StableHlo

variable {F : FTy → Type} [FloatOps F] [Named F]

theorem eq_main_v28 (V : Valuation τ sig (Elt F)) :
    (glue V (main_v28 : DevRef τ sig) : (⟨S512, .f32⟩ : BufTy).Contents (Elt F)) = (Host.log : (⟨S512, .f32⟩ : BufTy).Contents (Elt F) → (⟨S512, .f32⟩ : BufTy).Contents (Elt F)) (glue V (main_v15 : DevRef τ sig)) := by line_eq V 82 with StableHlo.unary_result

theorem eq_main_v29 (V : Valuation τ sig (Elt F)) :
    (glue V (main_v29 : DevRef τ sig) : (⟨S512, .f32⟩ : BufTy).Contents (Elt F)) = (Host.log : (⟨S512, .f32⟩ : BufTy).Contents (Elt F) → (⟨S512, .f32⟩ : BufTy).Contents (Elt F)) (glue V (main_v20 : DevRef τ sig)) := by line_eq V 83 with StableHlo.unary_result

theorem eq_main_v30 (V : Valuation τ sig (Elt F)) :
    (glue V (main_v30 : DevRef τ sig) : (⟨S512, .f32⟩ : BufTy).Contents (Elt F)) = (addf : (⟨S512, .f32⟩ : BufTy).Contents (Elt F) → (⟨S512, .f32⟩ : BufTy).Contents (Elt F) → (⟨S512, .f32⟩ : BufTy).Contents (Elt F)) (glue V (main_v28 : DevRef τ sig)) (glue V (main_v29 : DevRef τ sig)) := by line_eq V 84 with StableHlo.binary_result

theorem eq_main_v31 (V : Valuation τ sig (Elt F)) :
    (glue V (main_v31 : DevRef τ sig) : (⟨S512, .f32⟩ : BufTy).Contents (Elt F)) = (Host.log : (⟨S512, .f32⟩ : BufTy).Contents (Elt F) → (⟨S512, .f32⟩ : BufTy).Contents (Elt F)) (glue V (main_v27 : DevRef τ sig)) := by line_eq V 85 with StableHlo.unary_result

theorem eq_main_v32 (V : Valuation τ sig (Elt F)) :
    (glue V (main_v32 : DevRef τ sig) : (⟨S512, .f32⟩ : BufTy).Contents (Elt F)) = (addf : (⟨S512, .f32⟩ : BufTy).Contents (Elt F) → (⟨S512, .f32⟩ : BufTy).Contents (Elt F) → (⟨S512, .f32⟩ : BufTy).Contents (Elt F)) (glue V (main_v30 : DevRef τ sig)) (glue V (main_v31 : DevRef τ sig)) := by line_eq V 86 with StableHlo.binary_result

theorem eq_main_v33 (V : Valuation τ sig (Elt F)) :
    (glue V (main_v33 : DevRef τ sig) : (⟨S512x1, .f32⟩ : BufTy).Contents (Elt F)) = ((extractStridedSlice S512x1 ![0, 0] · slices_S512x3_S512x1_0_0) : (⟨S512x3, .f32⟩ : BufTy).Contents (Elt F) → (⟨S512x1, .f32⟩ : BufTy).Contents (Elt F)) (glue V (main_v4 : DevRef τ sig)) := by line_eq V 87 with StableHlo.unary_result

theorem eq_main_v34 (V : Valuation τ sig (Elt F)) :
    (glue V (main_v34 : DevRef τ sig) : (⟨S512, .f32⟩ : BufTy).Contents (Elt F)) = shapeCast S512 (glue V (main_v33 : DevRef τ sig)) shapeCasts_S512x1_S512 := by line_eq V 88 with StableHlo.reshape_result

theorem eq_main_v35 (V : Valuation τ sig (Elt F)) :
    (glue V (main_v35 : DevRef τ sig) : (⟨S512x1, .f32⟩ : BufTy).Contents (Elt F)) = ((extractStridedSlice S512x1 ![0, 1] · slices_S512x3_S512x1_0_1) : (⟨S512x3, .f32⟩ : BufTy).Contents (Elt F) → (⟨S512x1, .f32⟩ : BufTy).Contents (Elt F)) (glue V (main_v4 : DevRef τ sig)) := by line_eq V 89 with StableHlo.unary_result

theorem eq_main_v36 (V : Valuation τ sig (Elt F)) :
    (glue V (main_v36 : DevRef τ sig) : (⟨S512, .f32⟩ : BufTy).Contents (Elt F)) = shapeCast S512 (glue V (main_v35 : DevRef τ sig)) shapeCasts_S512x1_S512 := by line_eq V 90 with StableHlo.reshape_result

theorem eq_main_v37 (V : Valuation τ sig (Elt F)) :
    (glue V (main_v37 : DevRef τ sig) : (⟨S512x1, .f32⟩ : BufTy).Contents (Elt F)) = ((extractStridedSlice S512x1 ![0, 2] · slices_S512x3_S512x1_0_2) : (⟨S512x3, .f32⟩ : BufTy).Contents (Elt F) → (⟨S512x1, .f32⟩ : BufTy).Contents (Elt F)) (glue V (main_v4 : DevRef τ sig)) := by line_eq V 91 with StableHlo.unary_result

theorem eq_main_v38 (V : Valuation τ sig (Elt F)) :
    (glue V (main_v38 : DevRef τ sig) : (⟨S512, .f32⟩ : BufTy).Contents (Elt F)) = shapeCast S512 (glue V (main_v37 : DevRef τ sig)) shapeCasts_S512x1_S512 := by line_eq V 92 with StableHlo.reshape_result

theorem eq_main_cst_0 (V : Valuation τ sig (Elt F)) :
    (glue V (main_cst_0 : DevRef τ sig) : (⟨S_, .f32⟩ : BufTy).Contents (Elt F)) = (constant (F := F) S_ .f32 0x3F800000#32 : (⟨S_, .f32⟩ : BufTy).Contents (Elt F)) := by line_eq V 93 with StableHlo.nullary_result

theorem eq_main_v39 (V : Valuation τ sig (Elt F)) :
    (glue V (main_v39 : DevRef τ sig) : (⟨S512, .f32⟩ : BufTy).Contents (Elt F)) = (broadcastInDim S512 ![] bcast_S_S512 : (⟨S_, .f32⟩ : BufTy).Contents (Elt F) → (⟨S512, .f32⟩ : BufTy).Contents (Elt F)) (glue V (main_cst_0 : DevRef τ sig)) := by line_eq V 94 with StableHlo.unary_result

theorem eq_main_v40 (V : Valuation τ sig (Elt F)) :
    (glue V (main_v40 : DevRef τ sig) : (⟨S512, .f32⟩ : BufTy).Contents (Elt F)) = (Host.divf : (⟨S512, .f32⟩ : BufTy).Contents (Elt F) → (⟨S512, .f32⟩ : BufTy).Contents (Elt F) → (⟨S512, .f32⟩ : BufTy).Contents (Elt F)) (glue V (main_v39 : DevRef τ sig)) (glue V (main_v15 : DevRef τ sig)) := by line_eq V 95 with StableHlo.binary_result

theorem eq_main_v41 (V : Valuation τ sig (Elt F)) :
    (glue V (main_v41 : DevRef τ sig) : (⟨S512, .f32⟩ : BufTy).Contents (Elt F)) = (Host.negf : (⟨S512, .f32⟩ : BufTy).Contents (Elt F) → (⟨S512, .f32⟩ : BufTy).Contents (Elt F)) (glue V (main_v17 : DevRef τ sig)) := by line_eq V 96 with StableHlo.unary_result

theorem eq_main_v42 (V : Valuation τ sig (Elt F)) :
    (glue V (main_v42 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v41 : DevRef τ sig)) (glue V (main_v40 : DevRef τ sig)) := by line_eq V 97 with StableHlo.binary_result

theorem eq_main_v43 (V : Valuation τ sig (Elt F)) :
    (glue V (main_v43 : DevRef τ sig) : (⟨S512, .f32⟩ : BufTy).Contents (Elt F)) = (Host.divf : (⟨S512, .f32⟩ : BufTy).Contents (Elt F) → (⟨S512, .f32⟩ : BufTy).Contents (Elt F) → (⟨S512, .f32⟩ : BufTy).Contents (Elt F)) (glue V (main_v42 : DevRef τ sig)) (glue V (main_v20 : DevRef τ sig)) := by line_eq V 98 with StableHlo.binary_result

theorem eq_main_cst_1 (V : Valuation τ sig (Elt F)) :
    (glue V (main_cst_1 : DevRef τ sig) : (⟨S_, .f32⟩ : BufTy).Contents (Elt F)) = (constant (F := F) S_ .f32 0x3F800000#32 : (⟨S_, .f32⟩ : BufTy).Contents (Elt F)) := by line_eq V 99 with StableHlo.nullary_result

theorem eq_main_v44 (V : Valuation τ sig (Elt F)) :
    (glue V (main_v44 : DevRef τ sig) : (⟨S512, .f32⟩ : BufTy).Contents (Elt F)) = (broadcastInDim S512 ![] bcast_S_S512 : (⟨S_, .f32⟩ : BufTy).Contents (Elt F) → (⟨S512, .f32⟩ : BufTy).Contents (Elt F)) (glue V (main_cst_1 : DevRef τ sig)) := by line_eq V 100 with StableHlo.unary_result

theorem eq_main_v45 (V : Valuation τ sig (Elt F)) :
    (glue V (main_v45 : DevRef τ sig) : (⟨S512, .f32⟩ : BufTy).Contents (Elt F)) = (Host.divf : (⟨S512, .f32⟩ : BufTy).Contents (Elt F) → (⟨S512, .f32⟩ : BufTy).Contents (Elt F) → (⟨S512, .f32⟩ : BufTy).Contents (Elt F)) (glue V (main_v44 : DevRef τ sig)) (glue V (main_v20 : DevRef τ sig)) := by line_eq V 101 with StableHlo.binary_result

theorem eq_main_cst_2 (V : Valuation τ sig (Elt F)) :
    (glue V (main_cst_2 : DevRef τ sig) : (⟨S_, .f32⟩ : BufTy).Contents (Elt F)) = (constant (F := F) S_ .f32 0x3F800000#32 : (⟨S_, .f32⟩ : BufTy).Contents (Elt F)) := by line_eq V 102 with StableHlo.nullary_result

theorem eq_main_v46 (V : Valuation τ sig (Elt F)) :
    (glue V (main_v46 : DevRef τ sig) : (⟨S512, .f32⟩ : BufTy).Contents (Elt F)) = (broadcastInDim S512 ![] bcast_S_S512 : (⟨S_, .f32⟩ : BufTy).Contents (Elt F) → (⟨S512, .f32⟩ : BufTy).Contents (Elt F)) (glue V (main_cst_2 : DevRef τ sig)) := by line_eq V 103 with StableHlo.unary_result

theorem eq_main_v47 (V : Valuation τ sig (Elt F)) :
    (glue V (main_v47 : DevRef τ sig) : (⟨S512, .f32⟩ : BufTy).Contents (Elt F)) = (Host.divf : (⟨S512, .f32⟩ : BufTy).Contents (Elt F) → (⟨S512, .f32⟩ : BufTy).Contents (Elt F) → (⟨S512, .f32⟩ : BufTy).Contents (Elt F)) (glue V (main_v46 : DevRef τ sig)) (glue V (main_v27 : DevRef τ sig)) := by line_eq V 104 with StableHlo.binary_result

theorem eq_main_v48 (V : Valuation τ sig (Elt F)) :
    (glue V (main_v48 : DevRef τ sig) : (⟨S512, .f32⟩ : BufTy).Contents (Elt F)) = (Host.negf : (⟨S512, .f32⟩ : BufTy).Contents (Elt F) → (⟨S512, .f32⟩ : BufTy).Contents (Elt F)) (glue V (main_v24 : DevRef τ sig)) := by line_eq V 105 with StableHlo.unary_result

theorem eq_main_v49 (V : Valuation τ sig (Elt F)) :
    (glue V (main_v49 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v48 : DevRef τ sig)) (glue V (main_v45 : DevRef τ sig)) := by line_eq V 106 with StableHlo.binary_result

theorem eq_main_v50 (V : Valuation τ sig (Elt F)) :
    (glue V (main_v50 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v49 : DevRef τ sig)) (glue V (main_v47 : DevRef τ sig)) := by line_eq V 107 with StableHlo.binary_result

theorem eq_main_v51 (V : Valuation τ sig (Elt F)) :
    (glue V (main_v51 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v22 : DevRef τ sig)) (glue V (main_v40 : DevRef τ sig)) := by line_eq V 108 with StableHlo.binary_result

theorem eq_main_v52 (V : Valuation τ sig (Elt F)) :
    (glue V (main_v52 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v24 : DevRef τ sig)) (glue V (main_v43 : DevRef τ sig)) := by line_eq V 109 with StableHlo.binary_result

theorem eq_main_v53 (V : Valuation τ sig (Elt F)) :
    (glue V (main_v53 : DevRef τ sig) : (⟨S512, .f32⟩ : BufTy).Contents (Elt F)) = (addf : (⟨S512, .f32⟩ : BufTy).Contents (Elt F) → (⟨S512, .f32⟩ : BufTy).Contents (Elt F) → (⟨S512, .f32⟩ : BufTy).Contents (Elt F)) (glue V (main_v51 : DevRef τ sig)) (glue V (main_v52 : DevRef τ sig)) := by line_eq V 110 with StableHlo.binary_result

theorem eq_main_v54 (V : Valuation τ sig (Elt F)) :
    (glue V (main_v54 : DevRef τ sig) : (⟨S512, .f32⟩ : BufTy).Contents (Elt F)) = (Host.negf : (⟨S512, .f32⟩ : BufTy).Contents (Elt F) → (⟨S512, .f32⟩ : BufTy).Contents (Elt F)) (glue V (main_v53 : DevRef τ sig)) := by line_eq V 111 with StableHlo.unary_result

theorem eq_main_v55 (V : Valuation τ sig (Elt F)) :
    (glue V (main_v55 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v54 : DevRef τ sig)) (glue V (main_v47 : DevRef τ sig)) := by line_eq V 112 with StableHlo.binary_result

theorem eq_main_v56 (V : Valuation τ sig (Elt F)) :
    (glue V (main_v56 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v40 : DevRef τ sig)) (glue V (main_v40 : DevRef τ sig)) := by line_eq V 113 with StableHlo.binary_result

theorem eq_main_v57 (V : Valuation τ sig (Elt F)) :
    (glue V (main_v57 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v43 : DevRef τ sig)) (glue V (main_v43 : DevRef τ sig)) := by line_eq V 114 with StableHlo.binary_result

theorem eq_main_v58 (V : Valuation τ sig (Elt F)) :
    (glue V (main_v58 : DevRef τ sig) : (⟨S512, .f32⟩ : BufTy).Contents (Elt F)) = (addf : (⟨S512, .f32⟩ : BufTy).Contents (Elt F) → (⟨S512, .f32⟩ : BufTy).Contents (Elt F) → (⟨S512, .f32⟩ : BufTy).Contents (Elt F)) (glue V (main_v56 : DevRef τ sig)) (glue V (main_v57 : DevRef τ sig)) := by line_eq V 115 with StableHlo.binary_result

theorem eq_main_v59 (V : Valuation τ sig (Elt F)) :
    (glue V (main_v59 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v55 : DevRef τ sig)) (glue V (main_v55 : DevRef τ sig)) := by line_eq V 116 with StableHlo.binary_result

theorem eq_main_v60 (V : Valuation τ sig (Elt F)) :
    (glue V (main_v60 : DevRef τ sig) : (⟨S512, .f32⟩ : BufTy).Contents (Elt F)) = (addf : (⟨S512, .f32⟩ : BufTy).Contents (Elt F) → (⟨S512, .f32⟩ : BufTy).Contents (Elt F) → (⟨S512, .f32⟩ : BufTy).Contents (Elt F)) (glue V (main_v58 : DevRef τ sig)) (glue V (main_v59 : DevRef τ sig)) := by line_eq V 117 with StableHlo.binary_result

theorem eq_main_v61 (V : Valuation τ sig (Elt F)) :
    (glue V (main_v61 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v45 : DevRef τ sig)) (glue V (main_v45 : DevRef τ sig)) := by line_eq V 118 with StableHlo.binary_result

theorem eq_main_v62 (V : Valuation τ sig (Elt F)) :
    (glue V (main_v62 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v50 : DevRef τ sig)) (glue V (main_v50 : DevRef τ sig)) := by line_eq V 119 with StableHlo.binary_result

theorem eq_main_v63 (V : Valuation τ sig (Elt F)) :
    (glue V (main_v63 : DevRef τ sig) : (⟨S512, .f32⟩ : BufTy).Contents (Elt F)) = (addf : (⟨S512, .f32⟩ : BufTy).Contents (Elt F) → (⟨S512, .f32⟩ : BufTy).Contents (Elt F) → (⟨S512, .f32⟩ : BufTy).Contents (Elt F)) (glue V (main_v61 : DevRef τ sig)) (glue V (main_v62 : DevRef τ sig)) := by line_eq V 120 with StableHlo.binary_result

theorem eq_main_v64 (V : Valuation τ sig (Elt F)) :
    (glue V (main_v64 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v47 : DevRef τ sig)) (glue V (main_v47 : DevRef τ sig)) := by line_eq V 121 with StableHlo.binary_result

theorem eq_main_v65 (V : Valuation τ sig (Elt F)) :
    (glue V (main_v65 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v43 : DevRef τ sig)) (glue V (main_v45 : DevRef τ sig)) := by line_eq V 122 with StableHlo.binary_result

theorem eq_main_v66 (V : Valuation τ sig (Elt F)) :
    (glue V (main_v66 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v55 : DevRef τ sig)) (glue V (main_v50 : DevRef τ sig)) := by line_eq V 123 with StableHlo.binary_result

theorem eq_main_v67 (V : Valuation τ sig (Elt F)) :
    (glue V (main_v67 : DevRef τ sig) : (⟨S512, .f32⟩ : BufTy).Contents (Elt F)) = (addf : (⟨S512, .f32⟩ : BufTy).Contents (Elt F) → (⟨S512, .f32⟩ : BufTy).Contents (Elt F) → (⟨S512, .f32⟩ : BufTy).Contents (Elt F)) (glue V (main_v65 : DevRef τ sig)) (glue V (main_v66 : DevRef τ sig)) := by line_eq V 124 with StableHlo.binary_result

theorem eq_main_cst_3 (V : Valuation τ sig (Elt F)) :
    (glue V (main_cst_3 : DevRef τ sig) : (⟨S_, .f32⟩ : BufTy).Contents (Elt F)) = (constant (F := F) S_ .f32 0x40000000#32 : (⟨S_, .f32⟩ : BufTy).Contents (Elt F)) := by line_eq V 125 with StableHlo.nullary_result

theorem eq_main_v68 (V : Valuation τ sig (Elt F)) :
    (glue V (main_v68 : DevRef τ sig) : (⟨S512, .f32⟩ : BufTy).Contents (Elt F)) = (broadcastInDim S512 ![] bcast_S_S512 : (⟨S_, .f32⟩ : BufTy).Contents (Elt F) → (⟨S512, .f32⟩ : BufTy).Contents (Elt F)) (glue V (main_cst_3 : DevRef τ sig)) := by line_eq V 126 with StableHlo.unary_result

theorem eq_main_v69 (V : Valuation τ sig (Elt F)) :
    (glue V (main_v69 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v68 : DevRef τ sig)) (glue V (main_v67 : DevRef τ sig)) := by line_eq V 127 with StableHlo.binary_result

theorem eq_main_cst_4 (V : Valuation τ sig (Elt F)) :
    (glue V (main_cst_4 : DevRef τ sig) : (⟨S_, .f32⟩ : BufTy).Contents (Elt F)) = (constant (F := F) S_ .f32 0x40000000#32 : (⟨S_, .f32⟩ : BufTy).Contents (Elt F)) := by line_eq V 128 with StableHlo.nullary_result

theorem eq_main_v70 (V : Valuation τ sig (Elt F)) :
    (glue V (main_v70 : DevRef τ sig) : (⟨S512, .f32⟩ : BufTy).Contents (Elt F)) = (broadcastInDim S512 ![] bcast_S_S512 : (⟨S_, .f32⟩ : BufTy).Contents (Elt F) → (⟨S512, .f32⟩ : BufTy).Contents (Elt F)) (glue V (main_cst_4 : DevRef τ sig)) := by line_eq V 129 with StableHlo.unary_result

theorem eq_main_v71 (V : Valuation τ sig (Elt F)) :
    (glue V (main_v71 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v70 : DevRef τ sig)) (glue V (main_v55 : DevRef τ sig)) := by line_eq V 130 with StableHlo.binary_result

theorem eq_main_v72 (V : Valuation τ sig (Elt F)) :
    (glue V (main_v72 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v71 : DevRef τ sig)) (glue V (main_v47 : DevRef τ sig)) := by line_eq V 131 with StableHlo.binary_result

theorem eq_main_cst_5 (V : Valuation τ sig (Elt F)) :
    (glue V (main_cst_5 : DevRef τ sig) : (⟨S_, .f32⟩ : BufTy).Contents (Elt F)) = (constant (F := F) S_ .f32 0x40000000#32 : (⟨S_, .f32⟩ : BufTy).Contents (Elt F)) := by line_eq V 132 with StableHlo.nullary_result

theorem eq_main_v73 (V : Valuation τ sig (Elt F)) :
    (glue V (main_v73 : DevRef τ sig) : (⟨S512, .f32⟩ : BufTy).Contents (Elt F)) = (broadcastInDim S512 ![] bcast_S_S512 : (⟨S_, .f32⟩ : BufTy).Contents (Elt F) → (⟨S512, .f32⟩ : BufTy).Contents (Elt F)) (glue V (main_cst_5 : DevRef τ sig)) := by line_eq V 133 with StableHlo.unary_result

theorem eq_main_v74 (V : Valuation τ sig (Elt F)) :
    (glue V (main_v74 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v73 : DevRef τ sig)) (glue V (main_v50 : DevRef τ sig)) := by line_eq V 134 with StableHlo.binary_result

theorem eq_main_v75 (V : Valuation τ sig (Elt F)) :
    (glue V (main_v75 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v74 : DevRef τ sig)) (glue V (main_v47 : DevRef τ sig)) := by line_eq V 135 with StableHlo.binary_result

theorem eq_main_cst_6 (V : Valuation τ sig (Elt F)) :
    (glue V (main_cst_6 : DevRef τ sig) : (⟨S_, .f32⟩ : BufTy).Contents (Elt F)) = (constant (F := F) S_ .f32 0xBF000000#32 : (⟨S_, .f32⟩ : BufTy).Contents (Elt F)) := by line_eq V 136 with StableHlo.nullary_result

theorem eq_main_v76 (V : Valuation τ sig (Elt F)) :
    (glue V (main_v76 : DevRef τ sig) : (⟨S512, .f32⟩ : BufTy).Contents (Elt F)) = (broadcastInDim S512 ![] bcast_S_S512 : (⟨S_, .f32⟩ : BufTy).Contents (Elt F) → (⟨S512, .f32⟩ : BufTy).Contents (Elt F)) (glue V (main_cst_6 : DevRef τ sig)) := by line_eq V 137 with StableHlo.unary_result

theorem eq_main_v77 (V : Valuation τ sig (Elt F)) :
    (glue V (main_v77 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v76 : DevRef τ sig)) (glue V (main_v60 : DevRef τ sig)) := by line_eq V 138 with StableHlo.binary_result

theorem eq_main_cst_7 (V : Valuation τ sig (Elt F)) :
    (glue V (main_cst_7 : DevRef τ sig) : (⟨S_, .f32⟩ : BufTy).Contents (Elt F)) = (constant (F := F) S_ .f32 0xBF000000#32 : (⟨S_, .f32⟩ : BufTy).Contents (Elt F)) := by line_eq V 139 with StableHlo.nullary_result

theorem eq_main_v78 (V : Valuation τ sig (Elt F)) :
    (glue V (main_v78 : DevRef τ sig) : (⟨S512, .f32⟩ : BufTy).Contents (Elt F)) = (broadcastInDim S512 ![] bcast_S_S512 : (⟨S_, .f32⟩ : BufTy).Contents (Elt F) → (⟨S512, .f32⟩ : BufTy).Contents (Elt F)) (glue V (main_cst_7 : DevRef τ sig)) := by line_eq V 140 with StableHlo.unary_result

end Cert.KernelIdeal.GlueValue

end
-- ==== Proof.GlueEqsC.lean ====
/-
  The host operations before the kernel regions, one equation each: operations 142 to 200 of the 244. For the operation
  `y = f a b` the contents `glue V` satisfy `glue V y = f (glue V a) (glue V b)`: every reference is written once, and
  an operation reads only references written before it.
-/
import proofs.«169934_j78314433675744_2_alg».proof.Proof.GlueEqsB

set_option maxRecDepth 8192

noncomputable section

namespace Cert.KernelIdeal.GlueValue

open Cert.KernelIdeal Cert.KernelIdeal.Gen Idealize.ShloMosaic Idealize.ShloMosaic.TcCoe Idealize.SL.Sem Idealize.ShloMosaic.StableHlo

variable {F : FTy → Type} [FloatOps F] [Named F]

theorem eq_main_v79 (V : Valuation τ sig (Elt F)) :
    (glue V (main_v79 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v78 : DevRef τ sig)) (glue V (main_v63 : DevRef τ sig)) := by line_eq V 141 with StableHlo.binary_result

theorem eq_main_cst_8 (V : Valuation τ sig (Elt F)) :
    (glue V (main_cst_8 : DevRef τ sig) : (⟨S_, .f32⟩ : BufTy).Contents (Elt F)) = (constant (F := F) S_ .f32 0xBF000000#32 : (⟨S_, .f32⟩ : BufTy).Contents (Elt F)) := by line_eq V 142 with StableHlo.nullary_result

theorem eq_main_v80 (V : Valuation τ sig (Elt F)) :
    (glue V (main_v80 : DevRef τ sig) : (⟨S512, .f32⟩ : BufTy).Contents (Elt F)) = (broadcastInDim S512 ![] bcast_S_S512 : (⟨S_, .f32⟩ : BufTy).Contents (Elt F) → (⟨S512, .f32⟩ : BufTy).Contents (Elt F)) (glue V (main_cst_8 : DevRef τ sig)) := by line_eq V 143 with StableHlo.unary_result

theorem eq_main_v81 (V : Valuation τ sig (Elt F)) :
    (glue V (main_v81 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v80 : DevRef τ sig)) (glue V (main_v64 : DevRef τ sig)) := by line_eq V 144 with StableHlo.binary_result

theorem eq_main_cst_9 (V : Valuation τ sig (Elt F)) :
    (glue V (main_cst_9 : DevRef τ sig) : (⟨S_, .f32⟩ : BufTy).Contents (Elt F)) = (constant (F := F) S_ .f32 0xBF000000#32 : (⟨S_, .f32⟩ : BufTy).Contents (Elt F)) := by line_eq V 145 with StableHlo.nullary_result

theorem eq_main_v82 (V : Valuation τ sig (Elt F)) :
    (glue V (main_v82 : DevRef τ sig) : (⟨S512, .f32⟩ : BufTy).Contents (Elt F)) = (broadcastInDim S512 ![] bcast_S_S512 : (⟨S_, .f32⟩ : BufTy).Contents (Elt F) → (⟨S512, .f32⟩ : BufTy).Contents (Elt F)) (glue V (main_cst_9 : DevRef τ sig)) := by line_eq V 146 with StableHlo.unary_result

theorem eq_main_v83 (V : Valuation τ sig (Elt F)) :
    (glue V (main_v83 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v82 : DevRef τ sig)) (glue V (main_v69 : DevRef τ sig)) := by line_eq V 147 with StableHlo.binary_result

theorem eq_main_cst_10 (V : Valuation τ sig (Elt F)) :
    (glue V (main_cst_10 : DevRef τ sig) : (⟨S_, .f32⟩ : BufTy).Contents (Elt F)) = (constant (F := F) S_ .f32 0xBF000000#32 : (⟨S_, .f32⟩ : BufTy).Contents (Elt F)) := by line_eq V 148 with StableHlo.nullary_result

theorem eq_main_v84 (V : Valuation τ sig (Elt F)) :
    (glue V (main_v84 : DevRef τ sig) : (⟨S512, .f32⟩ : BufTy).Contents (Elt F)) = (broadcastInDim S512 ![] bcast_S_S512 : (⟨S_, .f32⟩ : BufTy).Contents (Elt F) → (⟨S512, .f32⟩ : BufTy).Contents (Elt F)) (glue V (main_cst_10 : DevRef τ sig)) := by line_eq V 149 with StableHlo.unary_result

theorem eq_main_v85 (V : Valuation τ sig (Elt F)) :
    (glue V (main_v85 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v84 : DevRef τ sig)) (glue V (main_v72 : DevRef τ sig)) := by line_eq V 150 with StableHlo.binary_result

theorem eq_main_cst_11 (V : Valuation τ sig (Elt F)) :
    (glue V (main_cst_11 : DevRef τ sig) : (⟨S_, .f32⟩ : BufTy).Contents (Elt F)) = (constant (F := F) S_ .f32 0xBF000000#32 : (⟨S_, .f32⟩ : BufTy).Contents (Elt F)) := by line_eq V 151 with StableHlo.nullary_result

theorem eq_main_v86 (V : Valuation τ sig (Elt F)) :
    (glue V (main_v86 : DevRef τ sig) : (⟨S512, .f32⟩ : BufTy).Contents (Elt F)) = (broadcastInDim S512 ![] bcast_S_S512 : (⟨S_, .f32⟩ : BufTy).Contents (Elt F) → (⟨S512, .f32⟩ : BufTy).Contents (Elt F)) (glue V (main_cst_11 : DevRef τ sig)) := by line_eq V 152 with StableHlo.unary_result

theorem eq_main_v87 (V : Valuation τ sig (Elt F)) :
    (glue V (main_v87 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v86 : DevRef τ sig)) (glue V (main_v75 : DevRef τ sig)) := by line_eq V 153 with StableHlo.binary_result

theorem eq_main_v88 (V : Valuation τ sig (Elt F)) :
    (glue V (main_v88 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v60 : DevRef τ sig)) (glue V (main_v34 : DevRef τ sig)) := by line_eq V 154 with StableHlo.binary_result

theorem eq_main_cst_12 (V : Valuation τ sig (Elt F)) :
    (glue V (main_cst_12 : DevRef τ sig) : (⟨S_, .f32⟩ : BufTy).Contents (Elt F)) = (constant (F := F) S_ .f32 0x3F000000#32 : (⟨S_, .f32⟩ : BufTy).Contents (Elt F)) := by line_eq V 155 with StableHlo.nullary_result

theorem eq_main_v89 (V : Valuation τ sig (Elt F)) :
    (glue V (main_v89 : DevRef τ sig) : (⟨S512, .f32⟩ : BufTy).Contents (Elt F)) = (broadcastInDim S512 ![] bcast_S_S512 : (⟨S_, .f32⟩ : BufTy).Contents (Elt F) → (⟨S512, .f32⟩ : BufTy).Contents (Elt F)) (glue V (main_cst_12 : DevRef τ sig)) := by line_eq V 156 with StableHlo.unary_result

theorem eq_main_v90 (V : Valuation τ sig (Elt F)) :
    (glue V (main_v90 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v89 : DevRef τ sig)) (glue V (main_v69 : DevRef τ sig)) := by line_eq V 157 with StableHlo.binary_result

theorem eq_main_v91 (V : Valuation τ sig (Elt F)) :
    (glue V (main_v91 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v90 : DevRef τ sig)) (glue V (main_v36 : DevRef τ sig)) := by line_eq V 158 with StableHlo.binary_result

theorem eq_main_v92 (V : Valuation τ sig (Elt F)) :
    (glue V (main_v92 : DevRef τ sig) : (⟨S512, .f32⟩ : BufTy).Contents (Elt F)) = (addf : (⟨S512, .f32⟩ : BufTy).Contents (Elt F) → (⟨S512, .f32⟩ : BufTy).Contents (Elt F) → (⟨S512, .f32⟩ : BufTy).Contents (Elt F)) (glue V (main_v88 : DevRef τ sig)) (glue V (main_v91 : DevRef τ sig)) := by line_eq V 159 with StableHlo.binary_result

theorem eq_main_cst_13 (V : Valuation τ sig (Elt F)) :
    (glue V (main_cst_13 : DevRef τ sig) : (⟨S_, .f32⟩ : BufTy).Contents (Elt F)) = (constant (F := F) S_ .f32 0x3F000000#32 : (⟨S_, .f32⟩ : BufTy).Contents (Elt F)) := by line_eq V 160 with StableHlo.nullary_result

theorem eq_main_v93 (V : Valuation τ sig (Elt F)) :
    (glue V (main_v93 : DevRef τ sig) : (⟨S512, .f32⟩ : BufTy).Contents (Elt F)) = (broadcastInDim S512 ![] bcast_S_S512 : (⟨S_, .f32⟩ : BufTy).Contents (Elt F) → (⟨S512, .f32⟩ : BufTy).Contents (Elt F)) (glue V (main_cst_13 : DevRef τ sig)) := by line_eq V 161 with StableHlo.unary_result

theorem eq_main_v94 (V : Valuation τ sig (Elt F)) :
    (glue V (main_v94 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v93 : DevRef τ sig)) (glue V (main_v72 : DevRef τ sig)) := by line_eq V 162 with StableHlo.binary_result

theorem eq_main_v95 (V : Valuation τ sig (Elt F)) :
    (glue V (main_v95 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v94 : DevRef τ sig)) (glue V (main_v38 : DevRef τ sig)) := by line_eq V 163 with StableHlo.binary_result

theorem eq_main_v96 (V : Valuation τ sig (Elt F)) :
    (glue V (main_v96 : DevRef τ sig) : (⟨S512, .f32⟩ : BufTy).Contents (Elt F)) = (addf : (⟨S512, .f32⟩ : BufTy).Contents (Elt F) → (⟨S512, .f32⟩ : BufTy).Contents (Elt F) → (⟨S512, .f32⟩ : BufTy).Contents (Elt F)) (glue V (main_v92 : DevRef τ sig)) (glue V (main_v95 : DevRef τ sig)) := by line_eq V 164 with StableHlo.binary_result

theorem eq_main_v97 (V : Valuation τ sig (Elt F)) :
    (glue V (main_v97 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v63 : DevRef τ sig)) (glue V (main_v36 : DevRef τ sig)) := by line_eq V 165 with StableHlo.binary_result

theorem eq_main_cst_14 (V : Valuation τ sig (Elt F)) :
    (glue V (main_cst_14 : DevRef τ sig) : (⟨S_, .f32⟩ : BufTy).Contents (Elt F)) = (constant (F := F) S_ .f32 0x3F000000#32 : (⟨S_, .f32⟩ : BufTy).Contents (Elt F)) := by line_eq V 166 with StableHlo.nullary_result

theorem eq_main_v98 (V : Valuation τ sig (Elt F)) :
    (glue V (main_v98 : DevRef τ sig) : (⟨S512, .f32⟩ : BufTy).Contents (Elt F)) = (broadcastInDim S512 ![] bcast_S_S512 : (⟨S_, .f32⟩ : BufTy).Contents (Elt F) → (⟨S512, .f32⟩ : BufTy).Contents (Elt F)) (glue V (main_cst_14 : DevRef τ sig)) := by line_eq V 167 with StableHlo.unary_result

theorem eq_main_v99 (V : Valuation τ sig (Elt F)) :
    (glue V (main_v99 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v98 : DevRef τ sig)) (glue V (main_v69 : DevRef τ sig)) := by line_eq V 168 with StableHlo.binary_result

theorem eq_main_v100 (V : Valuation τ sig (Elt F)) :
    (glue V (main_v100 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v99 : DevRef τ sig)) (glue V (main_v34 : DevRef τ sig)) := by line_eq V 169 with StableHlo.binary_result

theorem eq_main_v101 (V : Valuation τ sig (Elt F)) :
    (glue V (main_v101 : DevRef τ sig) : (⟨S512, .f32⟩ : BufTy).Contents (Elt F)) = (addf : (⟨S512, .f32⟩ : BufTy).Contents (Elt F) → (⟨S512, .f32⟩ : BufTy).Contents (Elt F) → (⟨S512, .f32⟩ : BufTy).Contents (Elt F)) (glue V (main_v97 : DevRef τ sig)) (glue V (main_v100 : DevRef τ sig)) := by line_eq V 170 with StableHlo.binary_result

theorem eq_main_cst_15 (V : Valuation τ sig (Elt F)) :
    (glue V (main_cst_15 : DevRef τ sig) : (⟨S_, .f32⟩ : BufTy).Contents (Elt F)) = (constant (F := F) S_ .f32 0x3F000000#32 : (⟨S_, .f32⟩ : BufTy).Contents (Elt F)) := by line_eq V 171 with StableHlo.nullary_result

theorem eq_main_v102 (V : Valuation τ sig (Elt F)) :
    (glue V (main_v102 : DevRef τ sig) : (⟨S512, .f32⟩ : BufTy).Contents (Elt F)) = (broadcastInDim S512 ![] bcast_S_S512 : (⟨S_, .f32⟩ : BufTy).Contents (Elt F) → (⟨S512, .f32⟩ : BufTy).Contents (Elt F)) (glue V (main_cst_15 : DevRef τ sig)) := by line_eq V 172 with StableHlo.unary_result

theorem eq_main_v103 (V : Valuation τ sig (Elt F)) :
    (glue V (main_v103 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v102 : DevRef τ sig)) (glue V (main_v75 : DevRef τ sig)) := by line_eq V 173 with StableHlo.binary_result

theorem eq_main_v104 (V : Valuation τ sig (Elt F)) :
    (glue V (main_v104 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v103 : DevRef τ sig)) (glue V (main_v38 : DevRef τ sig)) := by line_eq V 174 with StableHlo.binary_result

theorem eq_main_v105 (V : Valuation τ sig (Elt F)) :
    (glue V (main_v105 : DevRef τ sig) : (⟨S512, .f32⟩ : BufTy).Contents (Elt F)) = (addf : (⟨S512, .f32⟩ : BufTy).Contents (Elt F) → (⟨S512, .f32⟩ : BufTy).Contents (Elt F) → (⟨S512, .f32⟩ : BufTy).Contents (Elt F)) (glue V (main_v101 : DevRef τ sig)) (glue V (main_v104 : DevRef τ sig)) := by line_eq V 175 with StableHlo.binary_result

theorem eq_main_v106 (V : Valuation τ sig (Elt F)) :
    (glue V (main_v106 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v64 : DevRef τ sig)) (glue V (main_v38 : DevRef τ sig)) := by line_eq V 176 with StableHlo.binary_result

theorem eq_main_cst_16 (V : Valuation τ sig (Elt F)) :
    (glue V (main_cst_16 : DevRef τ sig) : (⟨S_, .f32⟩ : BufTy).Contents (Elt F)) = (constant (F := F) S_ .f32 0x3F000000#32 : (⟨S_, .f32⟩ : BufTy).Contents (Elt F)) := by line_eq V 177 with StableHlo.nullary_result

theorem eq_main_v107 (V : Valuation τ sig (Elt F)) :
    (glue V (main_v107 : DevRef τ sig) : (⟨S512, .f32⟩ : BufTy).Contents (Elt F)) = (broadcastInDim S512 ![] bcast_S_S512 : (⟨S_, .f32⟩ : BufTy).Contents (Elt F) → (⟨S512, .f32⟩ : BufTy).Contents (Elt F)) (glue V (main_cst_16 : DevRef τ sig)) := by line_eq V 178 with StableHlo.unary_result

theorem eq_main_v108 (V : Valuation τ sig (Elt F)) :
    (glue V (main_v108 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v107 : DevRef τ sig)) (glue V (main_v72 : DevRef τ sig)) := by line_eq V 179 with StableHlo.binary_result

theorem eq_main_v109 (V : Valuation τ sig (Elt F)) :
    (glue V (main_v109 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v108 : DevRef τ sig)) (glue V (main_v34 : DevRef τ sig)) := by line_eq V 180 with StableHlo.binary_result

theorem eq_main_v110 (V : Valuation τ sig (Elt F)) :
    (glue V (main_v110 : DevRef τ sig) : (⟨S512, .f32⟩ : BufTy).Contents (Elt F)) = (addf : (⟨S512, .f32⟩ : BufTy).Contents (Elt F) → (⟨S512, .f32⟩ : BufTy).Contents (Elt F) → (⟨S512, .f32⟩ : BufTy).Contents (Elt F)) (glue V (main_v106 : DevRef τ sig)) (glue V (main_v109 : DevRef τ sig)) := by line_eq V 181 with StableHlo.binary_result

theorem eq_main_cst_17 (V : Valuation τ sig (Elt F)) :
    (glue V (main_cst_17 : DevRef τ sig) : (⟨S_, .f32⟩ : BufTy).Contents (Elt F)) = (constant (F := F) S_ .f32 0x3F000000#32 : (⟨S_, .f32⟩ : BufTy).Contents (Elt F)) := by line_eq V 182 with StableHlo.nullary_result

theorem eq_main_v111 (V : Valuation τ sig (Elt F)) :
    (glue V (main_v111 : DevRef τ sig) : (⟨S512, .f32⟩ : BufTy).Contents (Elt F)) = (broadcastInDim S512 ![] bcast_S_S512 : (⟨S_, .f32⟩ : BufTy).Contents (Elt F) → (⟨S512, .f32⟩ : BufTy).Contents (Elt F)) (glue V (main_cst_17 : DevRef τ sig)) := by line_eq V 183 with StableHlo.unary_result

theorem eq_main_v112 (V : Valuation τ sig (Elt F)) :
    (glue V (main_v112 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v111 : DevRef τ sig)) (glue V (main_v75 : DevRef τ sig)) := by line_eq V 184 with StableHlo.binary_result

theorem eq_main_v113 (V : Valuation τ sig (Elt F)) :
    (glue V (main_v113 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v112 : DevRef τ sig)) (glue V (main_v36 : DevRef τ sig)) := by line_eq V 185 with StableHlo.binary_result

theorem eq_main_v114 (V : Valuation τ sig (Elt F)) :
    (glue V (main_v114 : DevRef τ sig) : (⟨S512, .f32⟩ : BufTy).Contents (Elt F)) = (addf : (⟨S512, .f32⟩ : BufTy).Contents (Elt F) → (⟨S512, .f32⟩ : BufTy).Contents (Elt F) → (⟨S512, .f32⟩ : BufTy).Contents (Elt F)) (glue V (main_v110 : DevRef τ sig)) (glue V (main_v113 : DevRef τ sig)) := by line_eq V 186 with StableHlo.binary_result

theorem eq_main_v115 (V : Valuation τ sig (Elt F)) :
    (glue V (main_v115 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v60 : DevRef τ sig)) (glue V (main_v34 : DevRef τ sig)) := by line_eq V 187 with StableHlo.binary_result

theorem eq_main_v116 (V : Valuation τ sig (Elt F)) :
    (glue V (main_v116 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v115 : DevRef τ sig)) (glue V (main_v34 : DevRef τ sig)) := by line_eq V 188 with StableHlo.binary_result

theorem eq_main_v117 (V : Valuation τ sig (Elt F)) :
    (glue V (main_v117 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v63 : DevRef τ sig)) (glue V (main_v36 : DevRef τ sig)) := by line_eq V 189 with StableHlo.binary_result

theorem eq_main_v118 (V : Valuation τ sig (Elt F)) :
    (glue V (main_v118 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v117 : DevRef τ sig)) (glue V (main_v36 : DevRef τ sig)) := by line_eq V 190 with StableHlo.binary_result

theorem eq_main_v119 (V : Valuation τ sig (Elt F)) :
    (glue V (main_v119 : DevRef τ sig) : (⟨S512, .f32⟩ : BufTy).Contents (Elt F)) = (addf : (⟨S512, .f32⟩ : BufTy).Contents (Elt F) → (⟨S512, .f32⟩ : BufTy).Contents (Elt F) → (⟨S512, .f32⟩ : BufTy).Contents (Elt F)) (glue V (main_v116 : DevRef τ sig)) (glue V (main_v118 : DevRef τ sig)) := by line_eq V 191 with StableHlo.binary_result

theorem eq_main_v120 (V : Valuation τ sig (Elt F)) :
    (glue V (main_v120 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v64 : DevRef τ sig)) (glue V (main_v38 : DevRef τ sig)) := by line_eq V 192 with StableHlo.binary_result

theorem eq_main_v121 (V : Valuation τ sig (Elt F)) :
    (glue V (main_v121 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v120 : DevRef τ sig)) (glue V (main_v38 : DevRef τ sig)) := by line_eq V 193 with StableHlo.binary_result

theorem eq_main_v122 (V : Valuation τ sig (Elt F)) :
    (glue V (main_v122 : DevRef τ sig) : (⟨S512, .f32⟩ : BufTy).Contents (Elt F)) = (addf : (⟨S512, .f32⟩ : BufTy).Contents (Elt F) → (⟨S512, .f32⟩ : BufTy).Contents (Elt F) → (⟨S512, .f32⟩ : BufTy).Contents (Elt F)) (glue V (main_v119 : DevRef τ sig)) (glue V (main_v121 : DevRef τ sig)) := by line_eq V 194 with StableHlo.binary_result

theorem eq_main_v123 (V : Valuation τ sig (Elt F)) :
    (glue V (main_v123 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v69 : DevRef τ sig)) (glue V (main_v34 : DevRef τ sig)) := by line_eq V 195 with StableHlo.binary_result

theorem eq_main_v124 (V : Valuation τ sig (Elt F)) :
    (glue V (main_v124 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v123 : DevRef τ sig)) (glue V (main_v36 : DevRef τ sig)) := by line_eq V 196 with StableHlo.binary_result

theorem eq_main_v125 (V : Valuation τ sig (Elt F)) :
    (glue V (main_v125 : DevRef τ sig) : (⟨S512, .f32⟩ : BufTy).Contents (Elt F)) = (addf : (⟨S512, .f32⟩ : BufTy).Contents (Elt F) → (⟨S512, .f32⟩ : BufTy).Contents (Elt F) → (⟨S512, .f32⟩ : BufTy).Contents (Elt F)) (glue V (main_v122 : DevRef τ sig)) (glue V (main_v124 : DevRef τ sig)) := by line_eq V 197 with StableHlo.binary_result

theorem eq_main_v126 (V : Valuation τ sig (Elt F)) :
    (glue V (main_v126 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v72 : DevRef τ sig)) (glue V (main_v34 : DevRef τ sig)) := by line_eq V 198 with StableHlo.binary_result

theorem eq_main_v127 (V : Valuation τ sig (Elt F)) :
    (glue V (main_v127 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v126 : DevRef τ sig)) (glue V (main_v38 : DevRef τ sig)) := by line_eq V 199 with StableHlo.binary_result

end Cert.KernelIdeal.GlueValue

end
-- ==== Proof.GlueEqsD.lean ====
/-
  The host operations before the kernel regions, one equation each: operations 201 to 244 of the 244. For the operation
  `y = f a b` the contents `glue V` satisfy `glue V y = f (glue V a) (glue V b)`: every reference is written once, and
  an operation reads only references written before it.
-/
import proofs.«169934_j78314433675744_2_alg».proof.Proof.GlueEqsC

set_option maxRecDepth 8192

noncomputable section

namespace Cert.KernelIdeal.GlueValue

open Cert.KernelIdeal Cert.KernelIdeal.Gen Idealize.ShloMosaic Idealize.ShloMosaic.TcCoe Idealize.SL.Sem Idealize.ShloMosaic.StableHlo

variable {F : FTy → Type} [FloatOps F] [Named F]

theorem eq_main_v128 (V : Valuation τ sig (Elt F)) :
    (glue V (main_v128 : DevRef τ sig) : (⟨S512, .f32⟩ : BufTy).Contents (Elt F)) = (addf : (⟨S512, .f32⟩ : BufTy).Contents (Elt F) → (⟨S512, .f32⟩ : BufTy).Contents (Elt F) → (⟨S512, .f32⟩ : BufTy).Contents (Elt F)) (glue V (main_v125 : DevRef τ sig)) (glue V (main_v127 : DevRef τ sig)) := by line_eq V 200 with StableHlo.binary_result

theorem eq_main_v129 (V : Valuation τ sig (Elt F)) :
    (glue V (main_v129 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v75 : DevRef τ sig)) (glue V (main_v36 : DevRef τ sig)) := by line_eq V 201 with StableHlo.binary_result

theorem eq_main_v130 (V : Valuation τ sig (Elt F)) :
    (glue V (main_v130 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v129 : DevRef τ sig)) (glue V (main_v38 : DevRef τ sig)) := by line_eq V 202 with StableHlo.binary_result

theorem eq_main_v131 (V : Valuation τ sig (Elt F)) :
    (glue V (main_v131 : DevRef τ sig) : (⟨S512, .f32⟩ : BufTy).Contents (Elt F)) = (addf : (⟨S512, .f32⟩ : BufTy).Contents (Elt F) → (⟨S512, .f32⟩ : BufTy).Contents (Elt F) → (⟨S512, .f32⟩ : BufTy).Contents (Elt F)) (glue V (main_v128 : DevRef τ sig)) (glue V (main_v130 : DevRef τ sig)) := by line_eq V 203 with StableHlo.binary_result

theorem eq_main_cst_18 (V : Valuation τ sig (Elt F)) :
    (glue V (main_cst_18 : DevRef τ sig) : (⟨S_, .f32⟩ : BufTy).Contents (Elt F)) = (constant (F := F) S_ .f32 0xBF000000#32 : (⟨S_, .f32⟩ : BufTy).Contents (Elt F)) := by line_eq V 204 with StableHlo.nullary_result

theorem eq_main_v132 (V : Valuation τ sig (Elt F)) :
    (glue V (main_v132 : DevRef τ sig) : (⟨S512, .f32⟩ : BufTy).Contents (Elt F)) = (broadcastInDim S512 ![] bcast_S_S512 : (⟨S_, .f32⟩ : BufTy).Contents (Elt F) → (⟨S512, .f32⟩ : BufTy).Contents (Elt F)) (glue V (main_cst_18 : DevRef τ sig)) := by line_eq V 205 with StableHlo.unary_result

theorem eq_main_v133 (V : Valuation τ sig (Elt F)) :
    (glue V (main_v133 : DevRef τ sig) : (⟨S512, .f32⟩ : BufTy).Contents (Elt F)) = (mulf : (⟨S512, .f32⟩ : BufTy).Contents (Elt F) → (⟨S512, .f32⟩ : BufTy).Contents (Elt F) → (⟨S512, .f32⟩ : BufTy).Contents (Elt F)) (glue V (main_v132 : DevRef τ sig)) (glue V (main_v131 : DevRef τ sig)) := by line_eq V 206 with StableHlo.binary_result

theorem eq_main_cst_19 (V : Valuation τ sig (Elt F)) :
    (glue V (main_cst_19 : DevRef τ sig) : (⟨S_, .f32⟩ : BufTy).Contents (Elt F)) = (constant (F := F) S_ .f32 0x40306FAB#32 : (⟨S_, .f32⟩ : BufTy).Contents (Elt F)) := by line_eq V 207 with StableHlo.nullary_result

theorem eq_main_v134 (V : Valuation τ sig (Elt F)) :
    (glue V (main_v134 : DevRef τ sig) : (⟨S512, .f32⟩ : BufTy).Contents (Elt F)) = (broadcastInDim S512 ![] bcast_S_S512 : (⟨S_, .f32⟩ : BufTy).Contents (Elt F) → (⟨S512, .f32⟩ : BufTy).Contents (Elt F)) (glue V (main_cst_19 : DevRef τ sig)) := by line_eq V 208 with StableHlo.unary_result

theorem eq_main_v135 (V : Valuation τ sig (Elt F)) :
    (glue V (main_v135 : DevRef τ sig) : (⟨S512, .f32⟩ : BufTy).Contents (Elt F)) = (subf : (⟨S512, .f32⟩ : BufTy).Contents (Elt F) → (⟨S512, .f32⟩ : BufTy).Contents (Elt F) → (⟨S512, .f32⟩ : BufTy).Contents (Elt F)) (glue V (main_v133 : DevRef τ sig)) (glue V (main_v134 : DevRef τ sig)) := by line_eq V 209 with StableHlo.binary_result

theorem eq_main_v136 (V : Valuation τ sig (Elt F)) :
    (glue V (main_v136 : DevRef τ sig) : (⟨S512, .f32⟩ : BufTy).Contents (Elt F)) = (subf : (⟨S512, .f32⟩ : BufTy).Contents (Elt F) → (⟨S512, .f32⟩ : BufTy).Contents (Elt F) → (⟨S512, .f32⟩ : BufTy).Contents (Elt F)) (glue V (main_v135 : DevRef τ sig)) (glue V (main_v32 : DevRef τ sig)) := by line_eq V 210 with StableHlo.binary_result

theorem eq_main_v137 (V : Valuation τ sig (Elt F)) :
    (glue V (main_v137 : DevRef τ sig) : (⟨S512x1, .f32⟩ : BufTy).Contents (Elt F)) = (broadcastInDim S512x1 ![0] bcast_S512_S512x1_0 : (⟨S512, .f32⟩ : BufTy).Contents (Elt F) → (⟨S512x1, .f32⟩ : BufTy).Contents (Elt F)) (glue V (main_v136 : DevRef τ sig)) := by line_eq V 211 with StableHlo.unary_result

theorem eq_main_v138 (V : Valuation τ sig (Elt F)) :
    (glue V (main_v138 : DevRef τ sig) : (⟨S512x1, .f32⟩ : BufTy).Contents (Elt F)) = (broadcastInDim S512x1 ![0] bcast_S512_S512x1_0 : (⟨S512, .f32⟩ : BufTy).Contents (Elt F) → (⟨S512x1, .f32⟩ : BufTy).Contents (Elt F)) (glue V (main_v96 : DevRef τ sig)) := by line_eq V 212 with StableHlo.unary_result

theorem eq_main_v139 (V : Valuation τ sig (Elt F)) :
    (glue V (main_v139 : DevRef τ sig) : (⟨S512x1, .f32⟩ : BufTy).Contents (Elt F)) = (broadcastInDim S512x1 ![0] bcast_S512_S512x1_0 : (⟨S512, .f32⟩ : BufTy).Contents (Elt F) → (⟨S512x1, .f32⟩ : BufTy).Contents (Elt F)) (glue V (main_v105 : DevRef τ sig)) := by line_eq V 213 with StableHlo.unary_result

theorem eq_main_v140 (V : Valuation τ sig (Elt F)) :
    (glue V (main_v140 : DevRef τ sig) : (⟨S512x1, .f32⟩ : BufTy).Contents (Elt F)) = (broadcastInDim S512x1 ![0] bcast_S512_S512x1_0 : (⟨S512, .f32⟩ : BufTy).Contents (Elt F) → (⟨S512x1, .f32⟩ : BufTy).Contents (Elt F)) (glue V (main_v114 : DevRef τ sig)) := by line_eq V 214 with StableHlo.unary_result

theorem eq_main_v141 (V : Valuation τ sig (Elt F)) :
    (glue V (main_v141 : DevRef τ sig) : (⟨S512x1, .f32⟩ : BufTy).Contents (Elt F)) = (broadcastInDim S512x1 ![0] bcast_S512_S512x1_0 : (⟨S512, .f32⟩ : BufTy).Contents (Elt F) → (⟨S512x1, .f32⟩ : BufTy).Contents (Elt F)) (glue V (main_v77 : DevRef τ sig)) := by line_eq V 215 with StableHlo.unary_result

theorem eq_main_v142 (V : Valuation τ sig (Elt F)) :
    (glue V (main_v142 : DevRef τ sig) : (⟨S512x1, .f32⟩ : BufTy).Contents (Elt F)) = (broadcastInDim S512x1 ![0] bcast_S512_S512x1_0 : (⟨S512, .f32⟩ : BufTy).Contents (Elt F) → (⟨S512x1, .f32⟩ : BufTy).Contents (Elt F)) (glue V (main_v79 : DevRef τ sig)) := by line_eq V 216 with StableHlo.unary_result

theorem eq_main_v143 (V : Valuation τ sig (Elt F)) :
    (glue V (main_v143 : DevRef τ sig) : (⟨S512x1, .f32⟩ : BufTy).Contents (Elt F)) = (broadcastInDim S512x1 ![0] bcast_S512_S512x1_0 : (⟨S512, .f32⟩ : BufTy).Contents (Elt F) → (⟨S512x1, .f32⟩ : BufTy).Contents (Elt F)) (glue V (main_v81 : DevRef τ sig)) := by line_eq V 217 with StableHlo.unary_result

theorem eq_main_v144 (V : Valuation τ sig (Elt F)) :
    (glue V (main_v144 : DevRef τ sig) : (⟨S512x1, .f32⟩ : BufTy).Contents (Elt F)) = (broadcastInDim S512x1 ![0] bcast_S512_S512x1_0 : (⟨S512, .f32⟩ : BufTy).Contents (Elt F) → (⟨S512x1, .f32⟩ : BufTy).Contents (Elt F)) (glue V (main_v83 : DevRef τ sig)) := by line_eq V 218 with StableHlo.unary_result

theorem eq_main_v145 (V : Valuation τ sig (Elt F)) :
    (glue V (main_v145 : DevRef τ sig) : (⟨S512x1, .f32⟩ : BufTy).Contents (Elt F)) = (broadcastInDim S512x1 ![0] bcast_S512_S512x1_0 : (⟨S512, .f32⟩ : BufTy).Contents (Elt F) → (⟨S512x1, .f32⟩ : BufTy).Contents (Elt F)) (glue V (main_v85 : DevRef τ sig)) := by line_eq V 219 with StableHlo.unary_result

theorem eq_main_v146 (V : Valuation τ sig (Elt F)) :
    (glue V (main_v146 : DevRef τ sig) : (⟨S512x1, .f32⟩ : BufTy).Contents (Elt F)) = (broadcastInDim S512x1 ![0] bcast_S512_S512x1_0 : (⟨S512, .f32⟩ : BufTy).Contents (Elt F) → (⟨S512x1, .f32⟩ : BufTy).Contents (Elt F)) (glue V (main_v87 : DevRef τ sig)) := by line_eq V 220 with StableHlo.unary_result

theorem eq_main_v147 (V : Valuation τ sig (Elt F)) :
    (glue V (main_v147 : DevRef τ sig) : (⟨S512x10, .f32⟩ : BufTy).Contents (Elt F)) =
      concatenate S512x10 1 [⟨S512x1, (glue V (main_v137 : DevRef τ sig) : (⟨S512x1, .f32⟩ : BufTy).Contents (Elt F))⟩, ⟨S512x1, (glue V (main_v138 : DevRef τ sig) : (⟨S512x1, .f32⟩ : BufTy).Contents (Elt F))⟩, ⟨S512x1, (glue V (main_v139 : DevRef τ sig) : (⟨S512x1, .f32⟩ : BufTy).Contents (Elt F))⟩, ⟨S512x1, (glue V (main_v140 : DevRef τ sig) : (⟨S512x1, .f32⟩ : BufTy).Contents (Elt F))⟩, ⟨S512x1, (glue V (main_v141 : DevRef τ sig) : (⟨S512x1, .f32⟩ : BufTy).Contents (Elt F))⟩, ⟨S512x1, (glue V (main_v142 : DevRef τ sig) : (⟨S512x1, .f32⟩ : BufTy).Contents (Elt F))⟩, ⟨S512x1, (glue V (main_v143 : DevRef τ sig) : (⟨S512x1, .f32⟩ : BufTy).Contents (Elt F))⟩, ⟨S512x1, (glue V (main_v144 : DevRef τ sig) : (⟨S512x1, .f32⟩ : BufTy).Contents (Elt F))⟩, ⟨S512x1, (glue V (main_v145 : DevRef τ sig) : (⟨S512x1, .f32⟩ : BufTy).Contents (Elt F))⟩, ⟨S512x1, (glue V (main_v146 : DevRef τ sig) : (⟨S512x1, .f32⟩ : BufTy).Contents (Elt F))⟩] concatenates_S512x1_S512x1_S512x1_S512x1_S512x1_S512x1_S512x1_S512x1_S512x1_S512x1_S512x10_d1 := by
  obtain ⟨F', hF, hy⟩ := glue_at V 221 _ _ rfl rfl
  refine hy.trans ?_
  rw [StableHlo.nary_result]
  rw [← hF main_v137 (by decide), ← hF main_v138 (by decide), ← hF main_v139 (by decide), ← hF main_v140 (by decide), ← hF main_v141 (by decide), ← hF main_v142 (by decide), ← hF main_v143 (by decide), ← hF main_v144 (by decide), ← hF main_v145 (by decide), ← hF main_v146 (by decide)]
  rfl

theorem eq_main_v148 (V : Valuation τ sig (Elt F)) :
    (glue V (main_v148 : DevRef τ sig) : (⟨S65536x1, .f32⟩ : BufTy).Contents (Elt F)) = ((extractStridedSlice S65536x1 ![0, 0] · slices_S65536x3_S65536x1_0_0) : (⟨S65536x3, .f32⟩ : BufTy).Contents (Elt F) → (⟨S65536x1, .f32⟩ : BufTy).Contents (Elt F)) (glue V (main_arg5 : DevRef τ sig)) := by line_eq V 222 with StableHlo.unary_result

theorem eq_main_v149 (V : Valuation τ sig (Elt F)) :
    (glue V (main_v149 : DevRef τ sig) : (⟨S65536, .f32⟩ : BufTy).Contents (Elt F)) = shapeCast S65536 (glue V (main_v148 : DevRef τ sig)) shapeCasts_S65536x1_S65536 := by line_eq V 223 with StableHlo.reshape_result

theorem eq_main_v150 (V : Valuation τ sig (Elt F)) :
    (glue V (main_v150 : DevRef τ sig) : (⟨S65536x1, .f32⟩ : BufTy).Contents (Elt F)) = ((extractStridedSlice S65536x1 ![0, 1] · slices_S65536x3_S65536x1_0_1) : (⟨S65536x3, .f32⟩ : BufTy).Contents (Elt F) → (⟨S65536x1, .f32⟩ : BufTy).Contents (Elt F)) (glue V (main_arg5 : DevRef τ sig)) := by line_eq V 224 with StableHlo.unary_result

theorem eq_main_v151 (V : Valuation τ sig (Elt F)) :
    (glue V (main_v151 : DevRef τ sig) : (⟨S65536, .f32⟩ : BufTy).Contents (Elt F)) = shapeCast S65536 (glue V (main_v150 : DevRef τ sig)) shapeCasts_S65536x1_S65536 := by line_eq V 225 with StableHlo.reshape_result

theorem eq_main_v152 (V : Valuation τ sig (Elt F)) :
    (glue V (main_v152 : DevRef τ sig) : (⟨S65536x1, .f32⟩ : BufTy).Contents (Elt F)) = ((extractStridedSlice S65536x1 ![0, 2] · slices_S65536x3_S65536x1_0_2) : (⟨S65536x3, .f32⟩ : BufTy).Contents (Elt F) → (⟨S65536x1, .f32⟩ : BufTy).Contents (Elt F)) (glue V (main_arg5 : DevRef τ sig)) := by line_eq V 226 with StableHlo.unary_result

theorem eq_main_v153 (V : Valuation τ sig (Elt F)) :
    (glue V (main_v153 : DevRef τ sig) : (⟨S65536, .f32⟩ : BufTy).Contents (Elt F)) = shapeCast S65536 (glue V (main_v152 : DevRef τ sig)) shapeCasts_S65536x1_S65536 := by line_eq V 227 with StableHlo.reshape_result

theorem eq_main_v154 (V : Valuation τ sig (Elt F)) :
    (glue V (main_v154 : DevRef τ sig) : (⟨S65536, .f32⟩ : BufTy).Contents (Elt F)) = (mulf : (⟨S65536, .f32⟩ : BufTy).Contents (Elt F) → (⟨S65536, .f32⟩ : BufTy).Contents (Elt F) → (⟨S65536, .f32⟩ : BufTy).Contents (Elt F)) (glue V (main_v149 : DevRef τ sig)) (glue V (main_v149 : DevRef τ sig)) := by line_eq V 228 with StableHlo.binary_result

theorem eq_main_v155 (V : Valuation τ sig (Elt F)) :
    (glue V (main_v155 : DevRef τ sig) : (⟨S65536, .f32⟩ : BufTy).Contents (Elt F)) = (mulf : (⟨S65536, .f32⟩ : BufTy).Contents (Elt F) → (⟨S65536, .f32⟩ : BufTy).Contents (Elt F) → (⟨S65536, .f32⟩ : BufTy).Contents (Elt F)) (glue V (main_v151 : DevRef τ sig)) (glue V (main_v151 : DevRef τ sig)) := by line_eq V 229 with StableHlo.binary_result

theorem eq_main_v156 (V : Valuation τ sig (Elt F)) :
    (glue V (main_v156 : DevRef τ sig) : (⟨S65536, .f32⟩ : BufTy).Contents (Elt F)) = (mulf : (⟨S65536, .f32⟩ : BufTy).Contents (Elt F) → (⟨S65536, .f32⟩ : BufTy).Contents (Elt F) → (⟨S65536, .f32⟩ : BufTy).Contents (Elt F)) (glue V (main_v153 : DevRef τ sig)) (glue V (main_v153 : DevRef τ sig)) := by line_eq V 230 with StableHlo.binary_result

theorem eq_main_v157 (V : Valuation τ sig (Elt F)) :
    (glue V (main_v157 : DevRef τ sig) : (⟨S65536, .f32⟩ : BufTy).Contents (Elt F)) = (mulf : (⟨S65536, .f32⟩ : BufTy).Contents (Elt F) → (⟨S65536, .f32⟩ : BufTy).Contents (Elt F) → (⟨S65536, .f32⟩ : BufTy).Contents (Elt F)) (glue V (main_v149 : DevRef τ sig)) (glue V (main_v151 : DevRef τ sig)) := by line_eq V 231 with StableHlo.binary_result

theorem eq_main_v158 (V : Valuation τ sig (Elt F)) :
    (glue V (main_v158 : DevRef τ sig) : (⟨S65536, .f32⟩ : BufTy).Contents (Elt F)) = (mulf : (⟨S65536, .f32⟩ : BufTy).Contents (Elt F) → (⟨S65536, .f32⟩ : BufTy).Contents (Elt F) → (⟨S65536, .f32⟩ : BufTy).Contents (Elt F)) (glue V (main_v149 : DevRef τ sig)) (glue V (main_v153 : DevRef τ sig)) := by line_eq V 232 with StableHlo.binary_result

theorem eq_main_v159 (V : Valuation τ sig (Elt F)) :
    (glue V (main_v159 : DevRef τ sig) : (⟨S65536, .f32⟩ : BufTy).Contents (Elt F)) = (mulf : (⟨S65536, .f32⟩ : BufTy).Contents (Elt F) → (⟨S65536, .f32⟩ : BufTy).Contents (Elt F) → (⟨S65536, .f32⟩ : BufTy).Contents (Elt F)) (glue V (main_v151 : DevRef τ sig)) (glue V (main_v153 : DevRef τ sig)) := by line_eq V 233 with StableHlo.binary_result

theorem eq_main_v160 (V : Valuation τ sig (Elt F)) :
    (glue V (main_v160 : DevRef τ sig) : (⟨S1x65536, .f32⟩ : BufTy).Contents (Elt F)) = (broadcastInDim S1x65536 ![1] bcast_S65536_S1x65536_1 : (⟨S65536, .f32⟩ : BufTy).Contents (Elt F) → (⟨S1x65536, .f32⟩ : BufTy).Contents (Elt F)) (glue V (main_v149 : DevRef τ sig)) := by line_eq V 234 with StableHlo.unary_result

theorem eq_main_v161 (V : Valuation τ sig (Elt F)) :
    (glue V (main_v161 : DevRef τ sig) : (⟨S1x65536, .f32⟩ : BufTy).Contents (Elt F)) = (broadcastInDim S1x65536 ![1] bcast_S65536_S1x65536_1 : (⟨S65536, .f32⟩ : BufTy).Contents (Elt F) → (⟨S1x65536, .f32⟩ : BufTy).Contents (Elt F)) (glue V (main_v151 : DevRef τ sig)) := by line_eq V 235 with StableHlo.unary_result

theorem eq_main_v162 (V : Valuation τ sig (Elt F)) :
    (glue V (main_v162 : DevRef τ sig) : (⟨S1x65536, .f32⟩ : BufTy).Contents (Elt F)) = (broadcastInDim S1x65536 ![1] bcast_S65536_S1x65536_1 : (⟨S65536, .f32⟩ : BufTy).Contents (Elt F) → (⟨S1x65536, .f32⟩ : BufTy).Contents (Elt F)) (glue V (main_v153 : DevRef τ sig)) := by line_eq V 236 with StableHlo.unary_result

theorem eq_main_v163 (V : Valuation τ sig (Elt F)) :
    (glue V (main_v163 : DevRef τ sig) : (⟨S1x65536, .f32⟩ : BufTy).Contents (Elt F)) = (broadcastInDim S1x65536 ![1] bcast_S65536_S1x65536_1 : (⟨S65536, .f32⟩ : BufTy).Contents (Elt F) → (⟨S1x65536, .f32⟩ : BufTy).Contents (Elt F)) (glue V (main_v154 : DevRef τ sig)) := by line_eq V 237 with StableHlo.unary_result

theorem eq_main_v164 (V : Valuation τ sig (Elt F)) :
    (glue V (main_v164 : DevRef τ sig) : (⟨S1x65536, .f32⟩ : BufTy).Contents (Elt F)) = (broadcastInDim S1x65536 ![1] bcast_S65536_S1x65536_1 : (⟨S65536, .f32⟩ : BufTy).Contents (Elt F) → (⟨S1x65536, .f32⟩ : BufTy).Contents (Elt F)) (glue V (main_v155 : DevRef τ sig)) := by line_eq V 238 with StableHlo.unary_result

theorem eq_main_v165 (V : Valuation τ sig (Elt F)) :
    (glue V (main_v165 : DevRef τ sig) : (⟨S1x65536, .f32⟩ : BufTy).Contents (Elt F)) = (broadcastInDim S1x65536 ![1] bcast_S65536_S1x65536_1 : (⟨S65536, .f32⟩ : BufTy).Contents (Elt F) → (⟨S1x65536, .f32⟩ : BufTy).Contents (Elt F)) (glue V (main_v156 : DevRef τ sig)) := by line_eq V 239 with StableHlo.unary_result

theorem eq_main_v166 (V : Valuation τ sig (Elt F)) :
    (glue V (main_v166 : DevRef τ sig) : (⟨S1x65536, .f32⟩ : BufTy).Contents (Elt F)) = (broadcastInDim S1x65536 ![1] bcast_S65536_S1x65536_1 : (⟨S65536, .f32⟩ : BufTy).Contents (Elt F) → (⟨S1x65536, .f32⟩ : BufTy).Contents (Elt F)) (glue V (main_v157 : DevRef τ sig)) := by line_eq V 240 with StableHlo.unary_result

theorem eq_main_v167 (V : Valuation τ sig (Elt F)) :
    (glue V (main_v167 : DevRef τ sig) : (⟨S1x65536, .f32⟩ : BufTy).Contents (Elt F)) = (broadcastInDim S1x65536 ![1] bcast_S65536_S1x65536_1 : (⟨S65536, .f32⟩ : BufTy).Contents (Elt F) → (⟨S1x65536, .f32⟩ : BufTy).Contents (Elt F)) (glue V (main_v158 : DevRef τ sig)) := by line_eq V 241 with StableHlo.unary_result

theorem eq_main_v168 (V : Valuation τ sig (Elt F)) :
    (glue V (main_v168 : DevRef τ sig) : (⟨S1x65536, .f32⟩ : BufTy).Contents (Elt F)) = (broadcastInDim S1x65536 ![1] bcast_S65536_S1x65536_1 : (⟨S65536, .f32⟩ : BufTy).Contents (Elt F) → (⟨S1x65536, .f32⟩ : BufTy).Contents (Elt F)) (glue V (main_v159 : DevRef τ sig)) := by line_eq V 242 with StableHlo.unary_result

theorem eq_main_v169 (V : Valuation τ sig (Elt F)) :
    (glue V (main_v169 : DevRef τ sig) : (⟨S9x65536, .f32⟩ : BufTy).Contents (Elt F)) =
      concatenate S9x65536 0 [⟨S1x65536, (glue V (main_v160 : DevRef τ sig) : (⟨S1x65536, .f32⟩ : BufTy).Contents (Elt F))⟩, ⟨S1x65536, (glue V (main_v161 : DevRef τ sig) : (⟨S1x65536, .f32⟩ : BufTy).Contents (Elt F))⟩, ⟨S1x65536, (glue V (main_v162 : DevRef τ sig) : (⟨S1x65536, .f32⟩ : BufTy).Contents (Elt F))⟩, ⟨S1x65536, (glue V (main_v163 : DevRef τ sig) : (⟨S1x65536, .f32⟩ : BufTy).Contents (Elt F))⟩, ⟨S1x65536, (glue V (main_v164 : DevRef τ sig) : (⟨S1x65536, .f32⟩ : BufTy).Contents (Elt F))⟩, ⟨S1x65536, (glue V (main_v165 : DevRef τ sig) : (⟨S1x65536, .f32⟩ : BufTy).Contents (Elt F))⟩, ⟨S1x65536, (glue V (main_v166 : DevRef τ sig) : (⟨S1x65536, .f32⟩ : BufTy).Contents (Elt F))⟩, ⟨S1x65536, (glue V (main_v167 : DevRef τ sig) : (⟨S1x65536, .f32⟩ : BufTy).Contents (Elt F))⟩, ⟨S1x65536, (glue V (main_v168 : DevRef τ sig) : (⟨S1x65536, .f32⟩ : BufTy).Contents (Elt F))⟩] concatenates_S1x65536_S1x65536_S1x65536_S1x65536_S1x65536_S1x65536_S1x65536_S1x65536_S1x65536_S9x65536_d0 := by
  obtain ⟨F', hF, hy⟩ := glue_at V 243 _ _ rfl rfl
  refine hy.trans ?_
  rw [StableHlo.nary_result]
  rw [← hF main_v160 (by decide), ← hF main_v161 (by decide), ← hF main_v162 (by decide), ← hF main_v163 (by decide), ← hF main_v164 (by decide), ← hF main_v165 (by decide), ← hF main_v166 (by decide), ← hF main_v167 (by decide), ← hF main_v168 (by decide)]
  rfl

end Cert.KernelIdeal.GlueValue

end
-- ==== Proof.LibIndexReads.lean ====
/-
  Layout operations of a host program read at an index given by coordinates, at the ranks this program uses: a
  trailing unit axis dropped by a reshape, a vector broadcast to a row or to a column, a scalar broadcast to any
  shape, one row broadcast over many. Each is the library's general lemma (`shapeCast_apply`, `broadcastInDim_apply`)
  with the coordinates' arithmetic done.
-/
import Idealize.ShloMosaic.Lib.ValueLayout

namespace Cert.IndexReads

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector `[a]` broadcast to the row `[1, a]` (its axis named as the result's axis 1) reads, at `(u, i)`, the operand at `i`. -/
theorem bcast_a_1a_apply {a : ℕ} (x : (⟨1, ![a]⟩ : Shape).Idx → α) (dims : Fin 1 → Fin 2) (hd : dims 0 = 1)
    (h : (⟨1, ![a]⟩ : Shape).BroadcastsInDim ⟨2, ![1, a]⟩ dims) (u : Fin 1) (i : Fin a) :
    broadcastInDim ⟨2, ![1, a]⟩ dims h x (ix2 u i) = x (ix1 i) := by
  refine broadcastInDim_apply dims h x (ix2 u i) (ix1 i) fun ax => ?_
  match ax with
  | ⟨0, _⟩ =>
    show i.val = if a = 1 then 0 else (ix2 u i (dims 0)).val
    rw [hd]
    split
    · have := i.isLt; omega
    · rfl

/-- A vector `[a]` broadcast to the column `[a, 1]` (its axis named as the result's axis 0) reads, at `(i, u)`, the operand at `i`. -/
theorem bcast_a_a1_apply {a : ℕ} (x : (⟨1, ![a]⟩ : Shape).Idx → α) (dims : Fin 1 → Fin 2) (hd : dims 0 = 0)
    (h : (⟨1, ![a]⟩ : Shape).BroadcastsInDim ⟨2, ![a, 1]⟩ dims) (i : Fin a) (u : Fin 1) :
    broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else (ix2 i u (dims 0)).val
    rw [hd]
    split
    · have := i.isLt; omega
    · rfl

/-- A scalar broadcast to any shape reads the scalar everywhere. -/
theorem bcast_scalar_apply {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 fun ax => ax.elim0

/-- A row `[1, b]` broadcast over `a` rows (axes named in order) reads, at `(p, c)`, the row at `c`. -/
theorem bcast_1b_ab_apply {a b : ℕ} (x : (⟨2, ![1, b]⟩ : Shape).Idx → α) (dims : Fin 2 → Fin 2) (hd0 : dims 0 = 0) (hd1 : dims 1 = 1)
    (h : (⟨2, ![1, b]⟩ : Shape).BroadcastsInDim ⟨2, ![a, b]⟩ dims) (p : Fin a) (c : Fin b) :
    broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else (ix2 p c (dims 1)).val
    rw [hd1]
    split
    · have := c.isLt; omega
    · rfl

end Cert.IndexReads
-- ==== Proof.GlueFeat.lean ====
/-
  The feature array the kernels read, at an index. The host program cuts the three coordinate columns out of the pixel
  positions, squares and multiplies them, turns each of the nine vectors into a row and stacks the rows: entry `(k, n)` of
  the stack is the `k`-th of the monomials x, y, z, x², y², z², xy, xz, yz of pixel `n`'s position.
-/
import proofs.«169934_j78314433675744_2_alg».proof.Proof.GlueEqsD
import proofs.«169934_j78314433675744_2_alg».proof.Proof.LibIndexReads
import Idealize.ShloMosaic.Lib.ValueIdx
import Idealize.ShloMosaic.Lib.ValueLayout
import Idealize.ShloMosaic.Lib.Pipeline.Value

set_option maxRecDepth 8192

noncomputable section

namespace Cert.KernelIdeal.GlueValue

open Cert.KernelIdeal Cert.KernelIdeal.Gen Idealize.ShloMosaic Idealize.ShloMosaic.TcCoe Idealize.SL.Sem Idealize.ShloMosaic.StableHlo Idealize.ShloMosaic.ValueIdx Cert.IndexReads

/-- Coordinate `c` of pixel `n`'s position. -/
def pos (V : Valuation τ sig (Elt Ideal)) (n : Fin 65536) (c : Fin 3) : EReal :=
  (V (main_arg5 : DevRef τ sig) : S65536x3.Idx → EReal) (ix2 n c)

/-- Column 0 of the positions, as a vector over the pixels. -/
theorem col0 (V : Valuation τ sig (Elt Ideal)) (n : Fin 65536) :
    (glue V (main_v149 : DevRef τ sig) : S65536.Idx → EReal) (ix1 n) = pos V n 0 :=
  (congrFun (eq_main_v149 V) (ix1 n)).trans <|
  (shapeCast_a1_a_apply _ _ n).trans <|
  (congrFun (eq_main_v148 V) (ix2 n (0 : Fin 1))).trans <|
  (slice2_axis1_apply 0 _ _ n (0 : Fin 1) (0 : Fin 3) rfl).trans <|
  congrFun (glue_arg5 V) (ix2 n (0 : Fin 3))

/-- Column 1 of the positions, as a vector over the pixels. -/
theorem col1 (V : Valuation τ sig (Elt Ideal)) (n : Fin 65536) :
    (glue V (main_v151 : DevRef τ sig) : S65536.Idx → EReal) (ix1 n) = pos V n 1 :=
  (congrFun (eq_main_v151 V) (ix1 n)).trans <|
  (shapeCast_a1_a_apply _ _ n).trans <|
  (congrFun (eq_main_v150 V) (ix2 n (0 : Fin 1))).trans <|
  (slice2_axis1_apply 1 _ _ n (0 : Fin 1) (1 : Fin 3) rfl).trans <|
  congrFun (glue_arg5 V) (ix2 n (1 : Fin 3))

/-- Column 2 of the positions, as a vector over the pixels. -/
theorem col2 (V : Valuation τ sig (Elt Ideal)) (n : Fin 65536) :
    (glue V (main_v153 : DevRef τ sig) : S65536.Idx → EReal) (ix1 n) = pos V n 2 :=
  (congrFun (eq_main_v153 V) (ix1 n)).trans <|
  (shapeCast_a1_a_apply _ _ n).trans <|
  (congrFun (eq_main_v152 V) (ix2 n (0 : Fin 1))).trans <|
  (slice2_axis1_apply 2 _ _ n (0 : Fin 1) (2 : Fin 3) rfl).trans <|
  congrFun (glue_arg5 V) (ix2 n (2 : Fin 3))

theorem prod154 (V : Valuation τ sig (Elt Ideal)) (n : Fin 65536) :
    (glue V (main_v154 : DevRef τ sig) : S65536.Idx → EReal) (ix1 n) = pos V n 0 * pos V n 0 :=
  (congrFun (eq_main_v154 V) (ix1 n)).trans (congrArg₂ (· * ·) (col0 V n) (col0 V n))

theorem prod155 (V : Valuation τ sig (Elt Ideal)) (n : Fin 65536) :
    (glue V (main_v155 : DevRef τ sig) : S65536.Idx → EReal) (ix1 n) = pos V n 1 * pos V n 1 :=
  (congrFun (eq_main_v155 V) (ix1 n)).trans (congrArg₂ (· * ·) (col1 V n) (col1 V n))

theorem prod156 (V : Valuation τ sig (Elt Ideal)) (n : Fin 65536) :
    (glue V (main_v156 : DevRef τ sig) : S65536.Idx → EReal) (ix1 n) = pos V n 2 * pos V n 2 :=
  (congrFun (eq_main_v156 V) (ix1 n)).trans (congrArg₂ (· * ·) (col2 V n) (col2 V n))

theorem prod157 (V : Valuation τ sig (Elt Ideal)) (n : Fin 65536) :
    (glue V (main_v157 : DevRef τ sig) : S65536.Idx → EReal) (ix1 n) = pos V n 0 * pos V n 1 :=
  (congrFun (eq_main_v157 V) (ix1 n)).trans (congrArg₂ (· * ·) (col0 V n) (col1 V n))

theorem prod158 (V : Valuation τ sig (Elt Ideal)) (n : Fin 65536) :
    (glue V (main_v158 : DevRef τ sig) : S65536.Idx → EReal) (ix1 n) = pos V n 0 * pos V n 2 :=
  (congrFun (eq_main_v158 V) (ix1 n)).trans (congrArg₂ (· * ·) (col0 V n) (col2 V n))

theorem prod159 (V : Valuation τ sig (Elt Ideal)) (n : Fin 65536) :
    (glue V (main_v159 : DevRef τ sig) : S65536.Idx → EReal) (ix1 n) = pos V n 1 * pos V n 2 :=
  (congrFun (eq_main_v159 V) (ix1 n)).trans (congrArg₂ (· * ·) (col1 V n) (col2 V n))

theorem row0 (V : Valuation τ sig (Elt Ideal)) (n : Fin 65536) :
    (glue V (main_v160 : DevRef τ sig) : S1x65536.Idx → EReal) (ix2 (0 : Fin 1) n) = pos V n 0 :=
  (congrFun (eq_main_v160 V) (ix2 (0 : Fin 1) n)).trans <|
  (bcast_a_1a_apply _ _ rfl _ (0 : Fin 1) n).trans <| col0 V n

theorem row1 (V : Valuation τ sig (Elt Ideal)) (n : Fin 65536) :
    (glue V (main_v161 : DevRef τ sig) : S1x65536.Idx → EReal) (ix2 (0 : Fin 1) n) = pos V n 1 :=
  (congrFun (eq_main_v161 V) (ix2 (0 : Fin 1) n)).trans <|
  (bcast_a_1a_apply _ _ rfl _ (0 : Fin 1) n).trans <| col1 V n

theorem row2 (V : Valuation τ sig (Elt Ideal)) (n : Fin 65536) :
    (glue V (main_v162 : DevRef τ sig) : S1x65536.Idx → EReal) (ix2 (0 : Fin 1) n) = pos V n 2 :=
  (congrFun (eq_main_v162 V) (ix2 (0 : Fin 1) n)).trans <|
  (bcast_a_1a_apply _ _ rfl _ (0 : Fin 1) n).trans <| col2 V n

theorem row3 (V : Valuation τ sig (Elt Ideal)) (n : Fin 65536) :
    (glue V (main_v163 : DevRef τ sig) : S1x65536.Idx → EReal) (ix2 (0 : Fin 1) n) = pos V n 0 * pos V n 0 :=
  (congrFun (eq_main_v163 V) (ix2 (0 : Fin 1) n)).trans <|
  (bcast_a_1a_apply _ _ rfl _ (0 : Fin 1) n).trans <| prod154 V n

theorem row4 (V : Valuation τ sig (Elt Ideal)) (n : Fin 65536) :
    (glue V (main_v164 : DevRef τ sig) : S1x65536.Idx → EReal) (ix2 (0 : Fin 1) n) = pos V n 1 * pos V n 1 :=
  (congrFun (eq_main_v164 V) (ix2 (0 : Fin 1) n)).trans <|
  (bcast_a_1a_apply _ _ rfl _ (0 : Fin 1) n).trans <| prod155 V n

theorem row5 (V : Valuation τ sig (Elt Ideal)) (n : Fin 65536) :
    (glue V (main_v165 : DevRef τ sig) : S1x65536.Idx → EReal) (ix2 (0 : Fin 1) n) = pos V n 2 * pos V n 2 :=
  (congrFun (eq_main_v165 V) (ix2 (0 : Fin 1) n)).trans <|
  (bcast_a_1a_apply _ _ rfl _ (0 : Fin 1) n).trans <| prod156 V n

theorem row6 (V : Valuation τ sig (Elt Ideal)) (n : Fin 65536) :
    (glue V (main_v166 : DevRef τ sig) : S1x65536.Idx → EReal) (ix2 (0 : Fin 1) n) = pos V n 0 * pos V n 1 :=
  (congrFun (eq_main_v166 V) (ix2 (0 : Fin 1) n)).trans <|
  (bcast_a_1a_apply _ _ rfl _ (0 : Fin 1) n).trans <| prod157 V n

theorem row7 (V : Valuation τ sig (Elt Ideal)) (n : Fin 65536) :
    (glue V (main_v167 : DevRef τ sig) : S1x65536.Idx → EReal) (ix2 (0 : Fin 1) n) = pos V n 0 * pos V n 2 :=
  (congrFun (eq_main_v167 V) (ix2 (0 : Fin 1) n)).trans <|
  (bcast_a_1a_apply _ _ rfl _ (0 : Fin 1) n).trans <| prod158 V n

theorem row8 (V : Valuation τ sig (Elt Ideal)) (n : Fin 65536) :
    (glue V (main_v168 : DevRef τ sig) : S1x65536.Idx → EReal) (ix2 (0 : Fin 1) n) = pos V n 1 * pos V n 2 :=
  (congrFun (eq_main_v168 V) (ix2 (0 : Fin 1) n)).trans <|
  (bcast_a_1a_apply _ _ rfl _ (0 : Fin 1) n).trans <| prod159 V n

/-- Row 0 of the stack. -/
theorem feat0 (V : Valuation τ sig (Elt Ideal)) (n : Fin 65536) :
    (glue V (main_v169 : DevRef τ sig) : S9x65536.Idx → EReal) (ix2 (0 : Fin 9) n) = pos V n 0 :=
  (congrFun (eq_main_v169 V) (ix2 (0 : Fin 9) n)).trans <|
  (concatenate_apply_piece _ _ _ (ix2 (0 : Fin 9) n) 0 (by simp) S1x65536 _ rfl rfl 0 rfl (ix2 (0 : Fin 1) n)
    (fun b hb => match b, hb with | ⟨0, _⟩, hb => absurd rfl hb | ⟨1, _⟩, _ => rfl) rfl).trans <| row0 V n

/-- Row 1 of the stack. -/
theorem feat1 (V : Valuation τ sig (Elt Ideal)) (n : Fin 65536) :
    (glue V (main_v169 : DevRef τ sig) : S9x65536.Idx → EReal) (ix2 (1 : Fin 9) n) = pos V n 1 :=
  (congrFun (eq_main_v169 V) (ix2 (1 : Fin 9) n)).trans <|
  (concatenate_apply_piece _ _ _ (ix2 (1 : Fin 9) n) 1 (by simp) S1x65536 _ rfl rfl 1 rfl (ix2 (0 : Fin 1) n)
    (fun b hb => match b, hb with | ⟨0, _⟩, hb => absurd rfl hb | ⟨1, _⟩, _ => rfl) rfl).trans <| row1 V n

/-- Row 2 of the stack. -/
theorem feat2 (V : Valuation τ sig (Elt Ideal)) (n : Fin 65536) :
    (glue V (main_v169 : DevRef τ sig) : S9x65536.Idx → EReal) (ix2 (2 : Fin 9) n) = pos V n 2 :=
  (congrFun (eq_main_v169 V) (ix2 (2 : Fin 9) n)).trans <|
  (concatenate_apply_piece _ _ _ (ix2 (2 : Fin 9) n) 2 (by simp) S1x65536 _ rfl rfl 2 rfl (ix2 (0 : Fin 1) n)
    (fun b hb => match b, hb with | ⟨0, _⟩, hb => absurd rfl hb | ⟨1, _⟩, _ => rfl) rfl).trans <| row2 V n

/-- Row 3 of the stack. -/
theorem feat3 (V : Valuation τ sig (Elt Ideal)) (n : Fin 65536) :
    (glue V (main_v169 : DevRef τ sig) : S9x65536.Idx → EReal) (ix2 (3 : Fin 9) n) = pos V n 0 * pos V n 0 :=
  (congrFun (eq_main_v169 V) (ix2 (3 : Fin 9) n)).trans <|
  (concatenate_apply_piece _ _ _ (ix2 (3 : Fin 9) n) 3 (by simp) S1x65536 _ rfl rfl 3 rfl (ix2 (0 : Fin 1) n)
    (fun b hb => match b, hb with | ⟨0, _⟩, hb => absurd rfl hb | ⟨1, _⟩, _ => rfl) rfl).trans <| row3 V n

/-- Row 4 of the stack. -/
theorem feat4 (V : Valuation τ sig (Elt Ideal)) (n : Fin 65536) :
    (glue V (main_v169 : DevRef τ sig) : S9x65536.Idx → EReal) (ix2 (4 : Fin 9) n) = pos V n 1 * pos V n 1 :=
  (congrFun (eq_main_v169 V) (ix2 (4 : Fin 9) n)).trans <|
  (concatenate_apply_piece _ _ _ (ix2 (4 : Fin 9) n) 4 (by simp) S1x65536 _ rfl rfl 4 rfl (ix2 (0 : Fin 1) n)
    (fun b hb => match b, hb with | ⟨0, _⟩, hb => absurd rfl hb | ⟨1, _⟩, _ => rfl) rfl).trans <| row4 V n

/-- Row 5 of the stack. -/
theorem feat5 (V : Valuation τ sig (Elt Ideal)) (n : Fin 65536) :
    (glue V (main_v169 : DevRef τ sig) : S9x65536.Idx → EReal) (ix2 (5 : Fin 9) n) = pos V n 2 * pos V n 2 :=
  (congrFun (eq_main_v169 V) (ix2 (5 : Fin 9) n)).trans <|
  (concatenate_apply_piece _ _ _ (ix2 (5 : Fin 9) n) 5 (by simp) S1x65536 _ rfl rfl 5 rfl (ix2 (0 : Fin 1) n)
    (fun b hb => match b, hb with | ⟨0, _⟩, hb => absurd rfl hb | ⟨1, _⟩, _ => rfl) rfl).trans <| row5 V n

/-- Row 6 of the stack. -/
theorem feat6 (V : Valuation τ sig (Elt Ideal)) (n : Fin 65536) :
    (glue V (main_v169 : DevRef τ sig) : S9x65536.Idx → EReal) (ix2 (6 : Fin 9) n) = pos V n 0 * pos V n 1 :=
  (congrFun (eq_main_v169 V) (ix2 (6 : Fin 9) n)).trans <|
  (concatenate_apply_piece _ _ _ (ix2 (6 : Fin 9) n) 6 (by simp) S1x65536 _ rfl rfl 6 rfl (ix2 (0 : Fin 1) n)
    (fun b hb => match b, hb with | ⟨0, _⟩, hb => absurd rfl hb | ⟨1, _⟩, _ => rfl) rfl).trans <| row6 V n

/-- Row 7 of the stack. -/
theorem feat7 (V : Valuation τ sig (Elt Ideal)) (n : Fin 65536) :
    (glue V (main_v169 : DevRef τ sig) : S9x65536.Idx → EReal) (ix2 (7 : Fin 9) n) = pos V n 0 * pos V n 2 :=
  (congrFun (eq_main_v169 V) (ix2 (7 : Fin 9) n)).trans <|
  (concatenate_apply_piece _ _ _ (ix2 (7 : Fin 9) n) 7 (by simp) S1x65536 _ rfl rfl 7 rfl (ix2 (0 : Fin 1) n)
    (fun b hb => match b, hb with | ⟨0, _⟩, hb => absurd rfl hb | ⟨1, _⟩, _ => rfl) rfl).trans <| row7 V n

/-- Row 8 of the stack. -/
theorem feat8 (V : Valuation τ sig (Elt Ideal)) (n : Fin 65536) :
    (glue V (main_v169 : DevRef τ sig) : S9x65536.Idx → EReal) (ix2 (8 : Fin 9) n) = pos V n 1 * pos V n 2 :=
  (congrFun (eq_main_v169 V) (ix2 (8 : Fin 9) n)).trans <|
  (concatenate_apply_piece _ _ _ (ix2 (8 : Fin 9) n) 8 (by simp) S1x65536 _ rfl rfl 8 rfl (ix2 (0 : Fin 1) n)
    (fun b hb => match b, hb with | ⟨0, _⟩, hb => absurd rfl hb | ⟨1, _⟩, _ => rfl) rfl).trans <| row8 V n

/-- The nine monomials of a position `(x, y, z)`, in the order the rows are stacked. -/
def mono (x y z : EReal) : Fin 9 → EReal := ![x, y, z, x * x, y * y, z * z, x * y, x * z, y * z]

/-- **The feature array at an index**: entry `(k, n)` is the `k`-th monomial of pixel `n`'s position. -/
theorem feat (V : Valuation τ sig (Elt Ideal)) (k : Fin 9) (n : Fin 65536) :
    (glue V (main_v169 : DevRef τ sig) : S9x65536.Idx → EReal) (ix2 k n) = mono (pos V n 0) (pos V n 1) (pos V n 2) k := by
  match k with
  | ⟨0, _⟩ => exact feat0 V n
  | ⟨1, _⟩ => exact feat1 V n
  | ⟨2, _⟩ => exact feat2 V n
  | ⟨3, _⟩ => exact feat3 V n
  | ⟨4, _⟩ => exact feat4 V n
  | ⟨5, _⟩ => exact feat5 V n
  | ⟨6, _⟩ => exact feat6 V n
  | ⟨7, _⟩ => exact feat7 V n
  | ⟨8, _⟩ => exact feat8 V n

end Cert.KernelIdeal.GlueValue

end
-- ==== Proof.GlueRow.lean ====
/-
  The row quantities the coefficient array is built from, at an index. Per row the host program computes three means
  and six raw scale entries by two matrix products with a bias, passes the raw entries through `elu(·) + 1`, and the three
  diagonal ones further through a softplus: that gives the lower-triangular scale `l00, l10, l11, l20, l21, l22`. Each is
  read here at a row as a scalar function — written with the printed operations and the printed literals — of the two
  arrays `meansArr V` and `srawArr V`, themselves the printed terms over the argument arrays.
-/
import proofs.«169934_j78314433675744_2_alg».proof.Proof.GlueFeat
import proofs.«169934_j78314433675744_2_alg».proof.Proof.LibIndexReads
import Idealize.ShloMosaic.Lib.ValueIdx
import Idealize.ShloMosaic.Lib.ValueLayout
import Idealize.ShloMosaic.Lib.Pipeline.Value

set_option maxRecDepth 8192

noncomputable section

namespace Cert.KernelIdeal.GlueValue

open Cert.KernelIdeal Cert.KernelIdeal.Gen Idealize.ShloMosaic Idealize.ShloMosaic.TcCoe Idealize.SL.Sem Idealize.ShloMosaic.StableHlo Idealize.ShloMosaic.ValueIdx Cert.IndexReads

/-! ## The printed literals -/

/-- The literal `0.0`. -/
abbrev cZero : EReal := Ideal.ofBits .f32 0x00000000#32
/-- The literal `1.0`. -/
abbrev cOne : EReal := Ideal.ofBits .f32 0x3F800000#32
/-- The literal `2.0`. -/
abbrev cTwo : EReal := Ideal.ofBits .f32 0x40000000#32
/-- The literal `0.5`. -/
abbrev cHalf : EReal := Ideal.ofBits .f32 0x3F000000#32
/-- The literal `-0.5`. -/
abbrev cNegHalf : EReal := Ideal.ofBits .f32 0xBF000000#32
/-- The literal `0x40306FAB` (three halves of `log 2π`, rounded). -/
abbrev cK : EReal := Ideal.ofBits .f32 0x40306FAB#32

/-! ## The two matrix products with their biases -/

/-- The means: the first argument times the transposed second, plus the third along rows. -/
def meansArr (V : Valuation τ sig (Elt Ideal)) : FVec Ideal S512x3 .f32 :=
  addf (F := Ideal) (φ := .f32) (Host.dotGeneral (F := Ideal) (φ₁ := .f32) (φ₂ := .f32) dot_S512x256_S256x3_S512x3_1_0_0_1_n_n none (V (main_arg0 : DevRef τ sig) : FVec Ideal S512x256 .f32)
      (transpose S256x3 [1, 0] (V (main_arg1 : DevRef τ sig) : FVec Ideal S3x256 .f32) transposes_S3x256_S256x3_1_0))
    (broadcastInDim S512x3 ![0, 1] bcast_S1x3_S512x3_0_1 (broadcastInDim S1x3 ![1] bcast_S3_S1x3_1 (V (main_arg2 : DevRef τ sig) : FVec Ideal S3 .f32)))

/-- The raw scale entries: the first argument times the transposed fourth, plus the fifth along rows. -/
def srawArr (V : Valuation τ sig (Elt Ideal)) : FVec Ideal S512x6 .f32 :=
  addf (F := Ideal) (φ := .f32) (Host.dotGeneral (F := Ideal) (φ₁ := .f32) (φ₂ := .f32) dot_S512x256_S256x6_S512x6_1_0_0_1_n_n none (V (main_arg0 : DevRef τ sig) : FVec Ideal S512x256 .f32)
      (transpose S256x6 [1, 0] (V (main_arg3 : DevRef τ sig) : FVec Ideal S6x256 .f32) transposes_S6x256_S256x6_1_0))
    (broadcastInDim S512x6 ![0, 1] bcast_S1x6_S512x6_0_1 (broadcastInDim S1x6 ![1] bcast_S6_S1x6_1 (V (main_arg4 : DevRef τ sig) : FVec Ideal S6 .f32)))

theorem glue_v4 (V : Valuation τ sig (Elt Ideal)) : (glue V (main_v4 : DevRef τ sig) : S512x3.Idx → EReal) = meansArr V := by
  rw [eq_main_v4, eq_main_v3, eq_main_v2, eq_main_v1, eq_main_v0, glue_arg0, glue_arg1, glue_arg2]
  all_goals rfl

theorem glue_v9 (V : Valuation τ sig (Elt Ideal)) : (glue V (main_v9 : DevRef τ sig) : S512x6.Idx → EReal) = srawArr V := by
  rw [eq_main_v9, eq_main_v8, eq_main_v7, eq_main_v6, eq_main_v5, glue_arg0, glue_arg3, glue_arg4]
  all_goals rfl

/-- Mean `j` of row `b`. -/
def mean (V : Valuation τ sig (Elt Ideal)) (b : Fin 512) (j : Fin 3) : EReal := meansArr V (ix2 b j)
/-- Raw scale entry `j` of row `b`. -/
def sraw (V : Valuation τ sig (Elt Ideal)) (b : Fin 512) (j : Fin 6) : EReal := srawArr V (ix2 b j)

/-! ## The scalar functions, as printed -/

/-- The exponential linear unit as the program computes it: `x` where `x > 0`, else `1 · expm1` of (`0` where `x > 0`, else `x`). -/
def eluP (x : EReal) : EReal :=
  Scalar.select (Ideal.cmp .ogt x cZero) x (cOne * Ideal.hostUnary .expm1 (Scalar.select (Ideal.cmp .ogt x cZero) cZero x))

/-- The softplus as the program computes it: `x + 0` where `x - 0` differs from itself, else `max x 0 + log1p (exp (-|x - 0|))`. -/
def softplusP (x : EReal) : EReal :=
  Scalar.select (Ideal.cmp .une (x - cZero) (x - cZero)) (x + cZero)
    (max x cZero + Ideal.hostUnary .log1p (Ideal.hostUnary .exp (-(max (x - cZero) (-(x - cZero))))))

/-- Scale entry `j` of row `b` after `elu(·) + 1`. -/
def sv (V : Valuation τ sig (Elt Ideal)) (b : Fin 512) (j : Fin 6) : EReal := eluP (sraw V b j) + cOne

theorem g_v12 (V : Valuation τ sig (Elt Ideal)) (b : Fin 512) (j : Fin 6) :
    (glue V (main_v12 : DevRef τ sig) : S512x6.Idx → EReal) (ix2 b j) = sv V b j := by
  have e : sv V b j = eluP ((glue V (main_v9 : DevRef τ sig) : S512x6.Idx → EReal) (ix2 b j)) + cOne := by
    rw [glue_v9]; rfl
  rw [e, eq_main_v12, eq_main_v11, eq_main_cst, eq_main_v10, eq_main_call0_v7, eq_main_call0_v6, eq_main_call0_cst_2, eq_main_call0_v5,
    eq_main_call0_v4, eq_main_call0_call0_v1, eq_main_call0_call0_v0, eq_main_call0_cst_1, eq_main_call0_v3, eq_main_call0_v2,
    eq_main_call0_cst_0, eq_main_call0_v1, eq_main_call0_v0, eq_main_call0_cst]
  generalize (glue V (main_v9 : DevRef τ sig)) = X
  rfl

/-! ## The six entries of the scale -/

/-- The lower-triangular scale of row `b`: the diagonal through the softplus, the rest as they are. -/
def l00 (V : Valuation τ sig (Elt Ideal)) (b : Fin 512) : EReal := softplusP (sv V b 0)
def l10 (V : Valuation τ sig (Elt Ideal)) (b : Fin 512) : EReal := sv V b 1
def l11 (V : Valuation τ sig (Elt Ideal)) (b : Fin 512) : EReal := softplusP (sv V b 2)
def l20 (V : Valuation τ sig (Elt Ideal)) (b : Fin 512) : EReal := sv V b 3
def l21 (V : Valuation τ sig (Elt Ideal)) (b : Fin 512) : EReal := sv V b 4
def l22 (V : Valuation τ sig (Elt Ideal)) (b : Fin 512) : EReal := softplusP (sv V b 5)

theorem g_v14 (V : Valuation τ sig (Elt Ideal)) (b : Fin 512) :
    (glue V (main_v14 : DevRef τ sig) : S512.Idx → EReal) (ix1 b) = sv V b 0 :=
  (congrFun (eq_main_v14 V) (ix1 b)).trans <|
  (shapeCast_a1_a_apply _ _ b).trans <|
  (congrFun (eq_main_v13 V) (ix2 b (0 : Fin 1))).trans <|
  (slice2_axis1_apply 0 _ _ b (0 : Fin 1) (0 : Fin 6) rfl).trans <| g_v12 V b 0

theorem g_v15 (V : Valuation τ sig (Elt Ideal)) (b : Fin 512) :
    (glue V (main_v15 : DevRef τ sig) : S512.Idx → EReal) (ix1 b) = l00 V b := by
  have e : l00 V b = softplusP ((glue V (main_v14 : DevRef τ sig) : S512.Idx → EReal) (ix1 b)) := by
    rw [g_v14 V b]; rfl
  rw [e, eq_main_v15, eq_main_call1_v11, eq_main_call1_v10, eq_main_call1_v9, eq_main_call1_v8, eq_main_call1_v7, eq_main_call1_v6, eq_main_call1_v5, eq_main_call1_v4, eq_main_call1_v3, eq_main_call1_v2, eq_main_call1_v1, eq_main_call1_v0, eq_main_call1_cst]
  generalize (glue V (main_v14 : DevRef τ sig)) = X
  rfl

theorem g_v17 (V : Valuation τ sig (Elt Ideal)) (b : Fin 512) :
    (glue V (main_v17 : DevRef τ sig) : S512.Idx → EReal) (ix1 b) = l10 V b :=
  (congrFun (eq_main_v17 V) (ix1 b)).trans <|
  (shapeCast_a1_a_apply _ _ b).trans <|
  (congrFun (eq_main_v16 V) (ix2 b (0 : Fin 1))).trans <|
  (slice2_axis1_apply 1 _ _ b (0 : Fin 1) (1 : Fin 6) rfl).trans <| g_v12 V b 1

theorem g_v19 (V : Valuation τ sig (Elt Ideal)) (b : Fin 512) :
    (glue V (main_v19 : DevRef τ sig) : S512.Idx → EReal) (ix1 b) = sv V b 2 :=
  (congrFun (eq_main_v19 V) (ix1 b)).trans <|
  (shapeCast_a1_a_apply _ _ b).trans <|
  (congrFun (eq_main_v18 V) (ix2 b (0 : Fin 1))).trans <|
  (slice2_axis1_apply 2 _ _ b (0 : Fin 1) (2 : Fin 6) rfl).trans <| g_v12 V b 2

theorem g_v20 (V : Valuation τ sig (Elt Ideal)) (b : Fin 512) :
    (glue V (main_v20 : DevRef τ sig) : S512.Idx → EReal) (ix1 b) = l11 V b := by
  have e : l11 V b = softplusP ((glue V (main_v19 : DevRef τ sig) : S512.Idx → EReal) (ix1 b)) := by
    rw [g_v19 V b]; rfl
  rw [e, eq_main_v20, eq_main_call2_v11, eq_main_call2_v10, eq_main_call2_v9, eq_main_call2_v8, eq_main_call2_v7, eq_main_call2_v6, eq_main_call2_v5, eq_main_call2_v4, eq_main_call2_v3, eq_main_call2_v2, eq_main_call2_v1, eq_main_call2_v0, eq_main_call2_cst]
  generalize (glue V (main_v19 : DevRef τ sig)) = X
  rfl

theorem g_v22 (V : Valuation τ sig (Elt Ideal)) (b : Fin 512) :
    (glue V (main_v22 : DevRef τ sig) : S512.Idx → EReal) (ix1 b) = l20 V b :=
  (congrFun (eq_main_v22 V) (ix1 b)).trans <|
  (shapeCast_a1_a_apply _ _ b).trans <|
  (congrFun (eq_main_v21 V) (ix2 b (0 : Fin 1))).trans <|
  (slice2_axis1_apply 3 _ _ b (0 : Fin 1) (3 : Fin 6) rfl).trans <| g_v12 V b 3

theorem g_v24 (V : Valuation τ sig (Elt Ideal)) (b : Fin 512) :
    (glue V (main_v24 : DevRef τ sig) : S512.Idx → EReal) (ix1 b) = l21 V b :=
  (congrFun (eq_main_v24 V) (ix1 b)).trans <|
  (shapeCast_a1_a_apply _ _ b).trans <|
  (congrFun (eq_main_v23 V) (ix2 b (0 : Fin 1))).trans <|
  (slice2_axis1_apply 4 _ _ b (0 : Fin 1) (4 : Fin 6) rfl).trans <| g_v12 V b 4

theorem g_v26 (V : Valuation τ sig (Elt Ideal)) (b : Fin 512) :
    (glue V (main_v26 : DevRef τ sig) : S512.Idx → EReal) (ix1 b) = sv V b 5 :=
  (congrFun (eq_main_v26 V) (ix1 b)).trans <|
  (shapeCast_a1_a_apply _ _ b).trans <|
  (congrFun (eq_main_v25 V) (ix2 b (0 : Fin 1))).trans <|
  (slice2_axis1_apply 5 _ _ b (0 : Fin 1) (5 : Fin 6) rfl).trans <| g_v12 V b 5

theorem g_v27 (V : Valuation τ sig (Elt Ideal)) (b : Fin 512) :
    (glue V (main_v27 : DevRef τ sig) : S512.Idx → EReal) (ix1 b) = l22 V b := by
  have e : l22 V b = softplusP ((glue V (main_v26 : DevRef τ sig) : S512.Idx → EReal) (ix1 b)) := by
    rw [g_v26 V b]; rfl
  rw [e, eq_main_v27, eq_main_call3_v11, eq_main_call3_v10, eq_main_call3_v9, eq_main_call3_v8, eq_main_call3_v7, eq_main_call3_v6, eq_main_call3_v5, eq_main_call3_v4, eq_main_call3_v3, eq_main_call3_v2, eq_main_call3_v1, eq_main_call3_v0, eq_main_call3_cst]
  generalize (glue V (main_v26 : DevRef τ sig)) = X
  rfl

end Cert.KernelIdeal.GlueValue

end
-- ==== Proof.GlueCoef.lean ====
/-
  The coefficient array the kernels read, at an index. From a row's means `m0 m1 m2` and scale `l00 … l22` the host
  program computes the entries `A0, B0, B1, C0, C1, C2` of the inverse scale, the six entries `Qxx … Qyz` of the
  quadratic form, the constant `c0` (with the log-determinant `logdet` and the literal `cK`) and the nine coefficients
  `c1 … c9` of the monomials, and stacks the ten along columns: entry `(b, k)` of the array is `c_k` of row `b`. Every
  quantity is written in the printed order of operations, with the printed literals.
-/
import proofs.«169934_j78314433675744_2_alg».proof.Proof.GlueRow
import proofs.«169934_j78314433675744_2_alg».proof.Proof.LibIndexReads
import Idealize.ShloMosaic.Lib.ValueIdx
import Idealize.ShloMosaic.Lib.ValueLayout
import Idealize.ShloMosaic.Lib.Pipeline.Value

set_option maxRecDepth 8192

noncomputable section

namespace Cert.KernelIdeal.GlueValue

open Cert.KernelIdeal Cert.KernelIdeal.Gen Idealize.ShloMosaic Idealize.ShloMosaic.TcCoe Idealize.SL.Sem Idealize.ShloMosaic.StableHlo Idealize.ShloMosaic.ValueIdx Cert.IndexReads

-- `glue V` enters below only through the equations of its operations
attribute [local irreducible] glue

theorem g_v28 (V : Valuation τ sig (Elt Ideal)) (b : Fin 512) :
    (glue V (main_v28 : DevRef τ sig) : S512.Idx → EReal) (ix1 b) = Ideal.hostUnary .log (l00 V b) :=
  (congrFun (eq_main_v28 V) (ix1 b)).trans (congrArg (Ideal.hostUnary .log) (g_v15 V b))

theorem g_v29 (V : Valuation τ sig (Elt Ideal)) (b : Fin 512) :
    (glue V (main_v29 : DevRef τ sig) : S512.Idx → EReal) (ix1 b) = Ideal.hostUnary .log (l11 V b) :=
  (congrFun (eq_main_v29 V) (ix1 b)).trans (congrArg (Ideal.hostUnary .log) (g_v20 V b))

theorem g_v30 (V : Valuation τ sig (Elt Ideal)) (b : Fin 512) :
    (glue V (main_v30 : DevRef τ sig) : S512.Idx → EReal) (ix1 b) = (Ideal.hostUnary .log (l00 V b)) + (Ideal.hostUnary .log (l11 V b)) :=
  (congrFun (eq_main_v30 V) (ix1 b)).trans (congrArg₂ (fun x y : EReal => x + y) (g_v28 V b) (g_v29 V b))

theorem g_v31 (V : Valuation τ sig (Elt Ideal)) (b : Fin 512) :
    (glue V (main_v31 : DevRef τ sig) : S512.Idx → EReal) (ix1 b) = Ideal.hostUnary .log (l22 V b) :=
  (congrFun (eq_main_v31 V) (ix1 b)).trans (congrArg (Ideal.hostUnary .log) (g_v27 V b))

def logdet (V : Valuation τ sig (Elt Ideal)) (b : Fin 512) : EReal := ((Ideal.hostUnary .log (l00 V b)) + (Ideal.hostUnary .log (l11 V b))) + (Ideal.hostUnary .log (l22 V b))

theorem g_v32 (V : Valuation τ sig (Elt Ideal)) (b : Fin 512) :
    (glue V (main_v32 : DevRef τ sig) : S512.Idx → EReal) (ix1 b) = logdet V b :=
  (congrFun (eq_main_v32 V) (ix1 b)).trans (congrArg₂ (fun x y : EReal => x + y) (g_v30 V b) (g_v31 V b))

def m0 (V : Valuation τ sig (Elt Ideal)) (b : Fin 512) : EReal := mean V b 0

theorem g_v34 (V : Valuation τ sig (Elt Ideal)) (b : Fin 512) :
    (glue V (main_v34 : DevRef τ sig) : S512.Idx → EReal) (ix1 b) = m0 V b :=
  (congrFun (eq_main_v34 V) (ix1 b)).trans <|
  (shapeCast_a1_a_apply _ _ b).trans <|
  (congrFun (eq_main_v33 V) (ix2 b (0 : Fin 1))).trans <|
  (slice2_axis1_apply 0 _ _ b (0 : Fin 1) (0 : Fin 3) rfl).trans <|
  congrFun (glue_v4 V) (ix2 b (0 : Fin 3))

def m1 (V : Valuation τ sig (Elt Ideal)) (b : Fin 512) : EReal := mean V b 1

theorem g_v36 (V : Valuation τ sig (Elt Ideal)) (b : Fin 512) :
    (glue V (main_v36 : DevRef τ sig) : S512.Idx → EReal) (ix1 b) = m1 V b :=
  (congrFun (eq_main_v36 V) (ix1 b)).trans <|
  (shapeCast_a1_a_apply _ _ b).trans <|
  (congrFun (eq_main_v35 V) (ix2 b (0 : Fin 1))).trans <|
  (slice2_axis1_apply 1 _ _ b (0 : Fin 1) (1 : Fin 3) rfl).trans <|
  congrFun (glue_v4 V) (ix2 b (1 : Fin 3))

def m2 (V : Valuation τ sig (Elt Ideal)) (b : Fin 512) : EReal := mean V b 2

theorem g_v38 (V : Valuation τ sig (Elt Ideal)) (b : Fin 512) :
    (glue V (main_v38 : DevRef τ sig) : S512.Idx → EReal) (ix1 b) = m2 V b :=
  (congrFun (eq_main_v38 V) (ix1 b)).trans <|
  (shapeCast_a1_a_apply _ _ b).trans <|
  (congrFun (eq_main_v37 V) (ix2 b (0 : Fin 1))).trans <|
  (slice2_axis1_apply 2 _ _ b (0 : Fin 1) (2 : Fin 3) rfl).trans <|
  congrFun (glue_v4 V) (ix2 b (2 : Fin 3))

theorem g_v39 (V : Valuation τ sig (Elt Ideal)) (b : Fin 512) :
    (glue V (main_v39 : DevRef τ sig) : S512.Idx → EReal) (ix1 b) = cOne :=
  (congrFun (eq_main_v39 V) (ix1 b)).trans <|
  (bcast_scalar_apply _ _ _ _).trans <| congrFun (eq_main_cst_0 V) ix0

def A0 (V : Valuation τ sig (Elt Ideal)) (b : Fin 512) : EReal := Ideal.div (cOne) (l00 V b)

theorem g_v40 (V : Valuation τ sig (Elt Ideal)) (b : Fin 512) :
    (glue V (main_v40 : DevRef τ sig) : S512.Idx → EReal) (ix1 b) = A0 V b :=
  (congrFun (eq_main_v40 V) (ix1 b)).trans (congrArg₂ Ideal.div (g_v39 V b) (g_v15 V b))

theorem g_v41 (V : Valuation τ sig (Elt Ideal)) (b : Fin 512) :
    (glue V (main_v41 : DevRef τ sig) : S512.Idx → EReal) (ix1 b) = -(l10 V b) :=
  (congrFun (eq_main_v41 V) (ix1 b)).trans (congrArg (fun x : EReal => -x) (g_v17 V b))

theorem g_v42 (V : Valuation τ sig (Elt Ideal)) (b : Fin 512) :
    (glue V (main_v42 : DevRef τ sig) : S512.Idx → EReal) (ix1 b) = (-(l10 V b)) * (A0 V b) :=
  (congrFun (eq_main_v42 V) (ix1 b)).trans (congrArg₂ (fun x y : EReal => x * y) (g_v41 V b) (g_v40 V b))

def B0 (V : Valuation τ sig (Elt Ideal)) (b : Fin 512) : EReal := Ideal.div ((-(l10 V b)) * (A0 V b)) (l11 V b)

theorem g_v43 (V : Valuation τ sig (Elt Ideal)) (b : Fin 512) :
    (glue V (main_v43 : DevRef τ sig) : S512.Idx → EReal) (ix1 b) = B0 V b :=
  (congrFun (eq_main_v43 V) (ix1 b)).trans (congrArg₂ Ideal.div (g_v42 V b) (g_v20 V b))

theorem g_v44 (V : Valuation τ sig (Elt Ideal)) (b : Fin 512) :
    (glue V (main_v44 : DevRef τ sig) : S512.Idx → EReal) (ix1 b) = cOne :=
  (congrFun (eq_main_v44 V) (ix1 b)).trans <|
  (bcast_scalar_apply _ _ _ _).trans <| congrFun (eq_main_cst_1 V) ix0

def B1 (V : Valuation τ sig (Elt Ideal)) (b : Fin 512) : EReal := Ideal.div (cOne) (l11 V b)

theorem g_v45 (V : Valuation τ sig (Elt Ideal)) (b : Fin 512) :
    (glue V (main_v45 : DevRef τ sig) : S512.Idx → EReal) (ix1 b) = B1 V b :=
  (congrFun (eq_main_v45 V) (ix1 b)).trans (congrArg₂ Ideal.div (g_v44 V b) (g_v20 V b))

theorem g_v46 (V : Valuation τ sig (Elt Ideal)) (b : Fin 512) :
    (glue V (main_v46 : DevRef τ sig) : S512.Idx → EReal) (ix1 b) = cOne :=
  (congrFun (eq_main_v46 V) (ix1 b)).trans <|
  (bcast_scalar_apply _ _ _ _).trans <| congrFun (eq_main_cst_2 V) ix0

def C2 (V : Valuation τ sig (Elt Ideal)) (b : Fin 512) : EReal := Ideal.div (cOne) (l22 V b)

theorem g_v47 (V : Valuation τ sig (Elt Ideal)) (b : Fin 512) :
    (glue V (main_v47 : DevRef τ sig) : S512.Idx → EReal) (ix1 b) = C2 V b :=
  (congrFun (eq_main_v47 V) (ix1 b)).trans (congrArg₂ Ideal.div (g_v46 V b) (g_v27 V b))

theorem g_v48 (V : Valuation τ sig (Elt Ideal)) (b : Fin 512) :
    (glue V (main_v48 : DevRef τ sig) : S512.Idx → EReal) (ix1 b) = -(l21 V b) :=
  (congrFun (eq_main_v48 V) (ix1 b)).trans (congrArg (fun x : EReal => -x) (g_v24 V b))

theorem g_v49 (V : Valuation τ sig (Elt Ideal)) (b : Fin 512) :
    (glue V (main_v49 : DevRef τ sig) : S512.Idx → EReal) (ix1 b) = (-(l21 V b)) * (B1 V b) :=
  (congrFun (eq_main_v49 V) (ix1 b)).trans (congrArg₂ (fun x y : EReal => x * y) (g_v48 V b) (g_v45 V b))

def C1 (V : Valuation τ sig (Elt Ideal)) (b : Fin 512) : EReal := ((-(l21 V b)) * (B1 V b)) * (C2 V b)

theorem g_v50 (V : Valuation τ sig (Elt Ideal)) (b : Fin 512) :
    (glue V (main_v50 : DevRef τ sig) : S512.Idx → EReal) (ix1 b) = C1 V b :=
  (congrFun (eq_main_v50 V) (ix1 b)).trans (congrArg₂ (fun x y : EReal => x * y) (g_v49 V b) (g_v47 V b))

theorem g_v51 (V : Valuation τ sig (Elt Ideal)) (b : Fin 512) :
    (glue V (main_v51 : DevRef τ sig) : S512.Idx → EReal) (ix1 b) = (l20 V b) * (A0 V b) :=
  (congrFun (eq_main_v51 V) (ix1 b)).trans (congrArg₂ (fun x y : EReal => x * y) (g_v22 V b) (g_v40 V b))

theorem g_v52 (V : Valuation τ sig (Elt Ideal)) (b : Fin 512) :
    (glue V (main_v52 : DevRef τ sig) : S512.Idx → EReal) (ix1 b) = (l21 V b) * (B0 V b) :=
  (congrFun (eq_main_v52 V) (ix1 b)).trans (congrArg₂ (fun x y : EReal => x * y) (g_v24 V b) (g_v43 V b))

theorem g_v53 (V : Valuation τ sig (Elt Ideal)) (b : Fin 512) :
    (glue V (main_v53 : DevRef τ sig) : S512.Idx → EReal) (ix1 b) = ((l20 V b) * (A0 V b)) + ((l21 V b) * (B0 V b)) :=
  (congrFun (eq_main_v53 V) (ix1 b)).trans (congrArg₂ (fun x y : EReal => x + y) (g_v51 V b) (g_v52 V b))

theorem g_v54 (V : Valuation τ sig (Elt Ideal)) (b : Fin 512) :
    (glue V (main_v54 : DevRef τ sig) : S512.Idx → EReal) (ix1 b) = -(((l20 V b) * (A0 V b)) + ((l21 V b) * (B0 V b))) :=
  (congrFun (eq_main_v54 V) (ix1 b)).trans (congrArg (fun x : EReal => -x) (g_v53 V b))

def C0 (V : Valuation τ sig (Elt Ideal)) (b : Fin 512) : EReal := (-(((l20 V b) * (A0 V b)) + ((l21 V b) * (B0 V b)))) * (C2 V b)

theorem g_v55 (V : Valuation τ sig (Elt Ideal)) (b : Fin 512) :
    (glue V (main_v55 : DevRef τ sig) : S512.Idx → EReal) (ix1 b) = C0 V b :=
  (congrFun (eq_main_v55 V) (ix1 b)).trans (congrArg₂ (fun x y : EReal => x * y) (g_v54 V b) (g_v47 V b))

theorem g_v56 (V : Valuation τ sig (Elt Ideal)) (b : Fin 512) :
    (glue V (main_v56 : DevRef τ sig) : S512.Idx → EReal) (ix1 b) = (A0 V b) * (A0 V b) :=
  (congrFun (eq_main_v56 V) (ix1 b)).trans (congrArg₂ (fun x y : EReal => x * y) (g_v40 V b) (g_v40 V b))

theorem g_v57 (V : Valuation τ sig (Elt Ideal)) (b : Fin 512) :
    (glue V (main_v57 : DevRef τ sig) : S512.Idx → EReal) (ix1 b) = (B0 V b) * (B0 V b) :=
  (congrFun (eq_main_v57 V) (ix1 b)).trans (congrArg₂ (fun x y : EReal => x * y) (g_v43 V b) (g_v43 V b))

theorem g_v58 (V : Valuation τ sig (Elt Ideal)) (b : Fin 512) :
    (glue V (main_v58 : DevRef τ sig) : S512.Idx → EReal) (ix1 b) = ((A0 V b) * (A0 V b)) + ((B0 V b) * (B0 V b)) :=
  (congrFun (eq_main_v58 V) (ix1 b)).trans (congrArg₂ (fun x y : EReal => x + y) (g_v56 V b) (g_v57 V b))

theorem g_v59 (V : Valuation τ sig (Elt Ideal)) (b : Fin 512) :
    (glue V (main_v59 : DevRef τ sig) : S512.Idx → EReal) (ix1 b) = (C0 V b) * (C0 V b) :=
  (congrFun (eq_main_v59 V) (ix1 b)).trans (congrArg₂ (fun x y : EReal => x * y) (g_v55 V b) (g_v55 V b))

def Qxx (V : Valuation τ sig (Elt Ideal)) (b : Fin 512) : EReal := (((A0 V b) * (A0 V b)) + ((B0 V b) * (B0 V b))) + ((C0 V b) * (C0 V b))

theorem g_v60 (V : Valuation τ sig (Elt Ideal)) (b : Fin 512) :
    (glue V (main_v60 : DevRef τ sig) : S512.Idx → EReal) (ix1 b) = Qxx V b :=
  (congrFun (eq_main_v60 V) (ix1 b)).trans (congrArg₂ (fun x y : EReal => x + y) (g_v58 V b) (g_v59 V b))

theorem g_v61 (V : Valuation τ sig (Elt Ideal)) (b : Fin 512) :
    (glue V (main_v61 : DevRef τ sig) : S512.Idx → EReal) (ix1 b) = (B1 V b) * (B1 V b) :=
  (congrFun (eq_main_v61 V) (ix1 b)).trans (congrArg₂ (fun x y : EReal => x * y) (g_v45 V b) (g_v45 V b))

theorem g_v62 (V : Valuation τ sig (Elt Ideal)) (b : Fin 512) :
    (glue V (main_v62 : DevRef τ sig) : S512.Idx → EReal) (ix1 b) = (C1 V b) * (C1 V b) :=
  (congrFun (eq_main_v62 V) (ix1 b)).trans (congrArg₂ (fun x y : EReal => x * y) (g_v50 V b) (g_v50 V b))

def Qyy (V : Valuation τ sig (Elt Ideal)) (b : Fin 512) : EReal := ((B1 V b) * (B1 V b)) + ((C1 V b) * (C1 V b))

theorem g_v63 (V : Valuation τ sig (Elt Ideal)) (b : Fin 512) :
    (glue V (main_v63 : DevRef τ sig) : S512.Idx → EReal) (ix1 b) = Qyy V b :=
  (congrFun (eq_main_v63 V) (ix1 b)).trans (congrArg₂ (fun x y : EReal => x + y) (g_v61 V b) (g_v62 V b))

def Qzz (V : Valuation τ sig (Elt Ideal)) (b : Fin 512) : EReal := (C2 V b) * (C2 V b)

theorem g_v64 (V : Valuation τ sig (Elt Ideal)) (b : Fin 512) :
    (glue V (main_v64 : DevRef τ sig) : S512.Idx → EReal) (ix1 b) = Qzz V b :=
  (congrFun (eq_main_v64 V) (ix1 b)).trans (congrArg₂ (fun x y : EReal => x * y) (g_v47 V b) (g_v47 V b))

theorem g_v65 (V : Valuation τ sig (Elt Ideal)) (b : Fin 512) :
    (glue V (main_v65 : DevRef τ sig) : S512.Idx → EReal) (ix1 b) = (B0 V b) * (B1 V b) :=
  (congrFun (eq_main_v65 V) (ix1 b)).trans (congrArg₂ (fun x y : EReal => x * y) (g_v43 V b) (g_v45 V b))

theorem g_v66 (V : Valuation τ sig (Elt Ideal)) (b : Fin 512) :
    (glue V (main_v66 : DevRef τ sig) : S512.Idx → EReal) (ix1 b) = (C0 V b) * (C1 V b) :=
  (congrFun (eq_main_v66 V) (ix1 b)).trans (congrArg₂ (fun x y : EReal => x * y) (g_v55 V b) (g_v50 V b))

theorem g_v67 (V : Valuation τ sig (Elt Ideal)) (b : Fin 512) :
    (glue V (main_v67 : DevRef τ sig) : S512.Idx → EReal) (ix1 b) = ((B0 V b) * (B1 V b)) + ((C0 V b) * (C1 V b)) :=
  (congrFun (eq_main_v67 V) (ix1 b)).trans (congrArg₂ (fun x y : EReal => x + y) (g_v65 V b) (g_v66 V b))

theorem g_v68 (V : Valuation τ sig (Elt Ideal)) (b : Fin 512) :
    (glue V (main_v68 : DevRef τ sig) : S512.Idx → EReal) (ix1 b) = cTwo :=
  (congrFun (eq_main_v68 V) (ix1 b)).trans <|
  (bcast_scalar_apply _ _ _ _).trans <| congrFun (eq_main_cst_3 V) ix0

def Qxy (V : Valuation τ sig (Elt Ideal)) (b : Fin 512) : EReal := (cTwo) * (((B0 V b) * (B1 V b)) + ((C0 V b) * (C1 V b)))

theorem g_v69 (V : Valuation τ sig (Elt Ideal)) (b : Fin 512) :
    (glue V (main_v69 : DevRef τ sig) : S512.Idx → EReal) (ix1 b) = Qxy V b :=
  (congrFun (eq_main_v69 V) (ix1 b)).trans (congrArg₂ (fun x y : EReal => x * y) (g_v68 V b) (g_v67 V b))

theorem g_v70 (V : Valuation τ sig (Elt Ideal)) (b : Fin 512) :
    (glue V (main_v70 : DevRef τ sig) : S512.Idx → EReal) (ix1 b) = cTwo :=
  (congrFun (eq_main_v70 V) (ix1 b)).trans <|
  (bcast_scalar_apply _ _ _ _).trans <| congrFun (eq_main_cst_4 V) ix0

theorem g_v71 (V : Valuation τ sig (Elt Ideal)) (b : Fin 512) :
    (glue V (main_v71 : DevRef τ sig) : S512.Idx → EReal) (ix1 b) = (cTwo) * (C0 V b) :=
  (congrFun (eq_main_v71 V) (ix1 b)).trans (congrArg₂ (fun x y : EReal => x * y) (g_v70 V b) (g_v55 V b))

def Qxz (V : Valuation τ sig (Elt Ideal)) (b : Fin 512) : EReal := ((cTwo) * (C0 V b)) * (C2 V b)

theorem g_v72 (V : Valuation τ sig (Elt Ideal)) (b : Fin 512) :
    (glue V (main_v72 : DevRef τ sig) : S512.Idx → EReal) (ix1 b) = Qxz V b :=
  (congrFun (eq_main_v72 V) (ix1 b)).trans (congrArg₂ (fun x y : EReal => x * y) (g_v71 V b) (g_v47 V b))

theorem g_v73 (V : Valuation τ sig (Elt Ideal)) (b : Fin 512) :
    (glue V (main_v73 : DevRef τ sig) : S512.Idx → EReal) (ix1 b) = cTwo :=
  (congrFun (eq_main_v73 V) (ix1 b)).trans <|
  (bcast_scalar_apply _ _ _ _).trans <| congrFun (eq_main_cst_5 V) ix0

theorem g_v74 (V : Valuation τ sig (Elt Ideal)) (b : Fin 512) :
    (glue V (main_v74 : DevRef τ sig) : S512.Idx → EReal) (ix1 b) = (cTwo) * (C1 V b) :=
  (congrFun (eq_main_v74 V) (ix1 b)).trans (congrArg₂ (fun x y : EReal => x * y) (g_v73 V b) (g_v50 V b))

def Qyz (V : Valuation τ sig (Elt Ideal)) (b : Fin 512) : EReal := ((cTwo) * (C1 V b)) * (C2 V b)

theorem g_v75 (V : Valuation τ sig (Elt Ideal)) (b : Fin 512) :
    (glue V (main_v75 : DevRef τ sig) : S512.Idx → EReal) (ix1 b) = Qyz V b :=
  (congrFun (eq_main_v75 V) (ix1 b)).trans (congrArg₂ (fun x y : EReal => x * y) (g_v74 V b) (g_v47 V b))

theorem g_v76 (V : Valuation τ sig (Elt Ideal)) (b : Fin 512) :
    (glue V (main_v76 : DevRef τ sig) : S512.Idx → EReal) (ix1 b) = cNegHalf :=
  (congrFun (eq_main_v76 V) (ix1 b)).trans <|
  (bcast_scalar_apply _ _ _ _).trans <| congrFun (eq_main_cst_6 V) ix0

def c4 (V : Valuation τ sig (Elt Ideal)) (b : Fin 512) : EReal := (cNegHalf) * (Qxx V b)

theorem g_v77 (V : Valuation τ sig (Elt Ideal)) (b : Fin 512) :
    (glue V (main_v77 : DevRef τ sig) : S512.Idx → EReal) (ix1 b) = c4 V b :=
  (congrFun (eq_main_v77 V) (ix1 b)).trans (congrArg₂ (fun x y : EReal => x * y) (g_v76 V b) (g_v60 V b))

theorem g_v78 (V : Valuation τ sig (Elt Ideal)) (b : Fin 512) :
    (glue V (main_v78 : DevRef τ sig) : S512.Idx → EReal) (ix1 b) = cNegHalf :=
  (congrFun (eq_main_v78 V) (ix1 b)).trans <|
  (bcast_scalar_apply _ _ _ _).trans <| congrFun (eq_main_cst_7 V) ix0

def c5 (V : Valuation τ sig (Elt Ideal)) (b : Fin 512) : EReal := (cNegHalf) * (Qyy V b)

theorem g_v79 (V : Valuation τ sig (Elt Ideal)) (b : Fin 512) :
    (glue V (main_v79 : DevRef τ sig) : S512.Idx → EReal) (ix1 b) = c5 V b :=
  (congrFun (eq_main_v79 V) (ix1 b)).trans (congrArg₂ (fun x y : EReal => x * y) (g_v78 V b) (g_v63 V b))

theorem g_v80 (V : Valuation τ sig (Elt Ideal)) (b : Fin 512) :
    (glue V (main_v80 : DevRef τ sig) : S512.Idx → EReal) (ix1 b) = cNegHalf :=
  (congrFun (eq_main_v80 V) (ix1 b)).trans <|
  (bcast_scalar_apply _ _ _ _).trans <| congrFun (eq_main_cst_8 V) ix0

def c6 (V : Valuation τ sig (Elt Ideal)) (b : Fin 512) : EReal := (cNegHalf) * (Qzz V b)

theorem g_v81 (V : Valuation τ sig (Elt Ideal)) (b : Fin 512) :
    (glue V (main_v81 : DevRef τ sig) : S512.Idx → EReal) (ix1 b) = c6 V b :=
  (congrFun (eq_main_v81 V) (ix1 b)).trans (congrArg₂ (fun x y : EReal => x * y) (g_v80 V b) (g_v64 V b))

theorem g_v82 (V : Valuation τ sig (Elt Ideal)) (b : Fin 512) :
    (glue V (main_v82 : DevRef τ sig) : S512.Idx → EReal) (ix1 b) = cNegHalf :=
  (congrFun (eq_main_v82 V) (ix1 b)).trans <|
  (bcast_scalar_apply _ _ _ _).trans <| congrFun (eq_main_cst_9 V) ix0

def c7 (V : Valuation τ sig (Elt Ideal)) (b : Fin 512) : EReal := (cNegHalf) * (Qxy V b)

theorem g_v83 (V : Valuation τ sig (Elt Ideal)) (b : Fin 512) :
    (glue V (main_v83 : DevRef τ sig) : S512.Idx → EReal) (ix1 b) = c7 V b :=
  (congrFun (eq_main_v83 V) (ix1 b)).trans (congrArg₂ (fun x y : EReal => x * y) (g_v82 V b) (g_v69 V b))

theorem g_v84 (V : Valuation τ sig (Elt Ideal)) (b : Fin 512) :
    (glue V (main_v84 : DevRef τ sig) : S512.Idx → EReal) (ix1 b) = cNegHalf :=
  (congrFun (eq_main_v84 V) (ix1 b)).trans <|
  (bcast_scalar_apply _ _ _ _).trans <| congrFun (eq_main_cst_10 V) ix0

def c8 (V : Valuation τ sig (Elt Ideal)) (b : Fin 512) : EReal := (cNegHalf) * (Qxz V b)

theorem g_v85 (V : Valuation τ sig (Elt Ideal)) (b : Fin 512) :
    (glue V (main_v85 : DevRef τ sig) : S512.Idx → EReal) (ix1 b) = c8 V b :=
  (congrFun (eq_main_v85 V) (ix1 b)).trans (congrArg₂ (fun x y : EReal => x * y) (g_v84 V b) (g_v72 V b))

theorem g_v86 (V : Valuation τ sig (Elt Ideal)) (b : Fin 512) :
    (glue V (main_v86 : DevRef τ sig) : S512.Idx → EReal) (ix1 b) = cNegHalf :=
  (congrFun (eq_main_v86 V) (ix1 b)).trans <|
  (bcast_scalar_apply _ _ _ _).trans <| congrFun (eq_main_cst_11 V) ix0

def c9 (V : Valuation τ sig (Elt Ideal)) (b : Fin 512) : EReal := (cNegHalf) * (Qyz V b)

theorem g_v87 (V : Valuation τ sig (Elt Ideal)) (b : Fin 512) :
    (glue V (main_v87 : DevRef τ sig) : S512.Idx → EReal) (ix1 b) = c9 V b :=
  (congrFun (eq_main_v87 V) (ix1 b)).trans (congrArg₂ (fun x y : EReal => x * y) (g_v86 V b) (g_v75 V b))

theorem g_v88 (V : Valuation τ sig (Elt Ideal)) (b : Fin 512) :
    (glue V (main_v88 : DevRef τ sig) : S512.Idx → EReal) (ix1 b) = (Qxx V b) * (m0 V b) :=
  (congrFun (eq_main_v88 V) (ix1 b)).trans (congrArg₂ (fun x y : EReal => x * y) (g_v60 V b) (g_v34 V b))

theorem g_v89 (V : Valuation τ sig (Elt Ideal)) (b : Fin 512) :
    (glue V (main_v89 : DevRef τ sig) : S512.Idx → EReal) (ix1 b) = cHalf :=
  (congrFun (eq_main_v89 V) (ix1 b)).trans <|
  (bcast_scalar_apply _ _ _ _).trans <| congrFun (eq_main_cst_12 V) ix0

theorem g_v90 (V : Valuation τ sig (Elt Ideal)) (b : Fin 512) :
    (glue V (main_v90 : DevRef τ sig) : S512.Idx → EReal) (ix1 b) = (cHalf) * (Qxy V b) :=
  (congrFun (eq_main_v90 V) (ix1 b)).trans (congrArg₂ (fun x y : EReal => x * y) (g_v89 V b) (g_v69 V b))

theorem g_v91 (V : Valuation τ sig (Elt Ideal)) (b : Fin 512) :
    (glue V (main_v91 : DevRef τ sig) : S512.Idx → EReal) (ix1 b) = ((cHalf) * (Qxy V b)) * (m1 V b) :=
  (congrFun (eq_main_v91 V) (ix1 b)).trans (congrArg₂ (fun x y : EReal => x * y) (g_v90 V b) (g_v36 V b))

theorem g_v92 (V : Valuation τ sig (Elt Ideal)) (b : Fin 512) :
    (glue V (main_v92 : DevRef τ sig) : S512.Idx → EReal) (ix1 b) = ((Qxx V b) * (m0 V b)) + (((cHalf) * (Qxy V b)) * (m1 V b)) :=
  (congrFun (eq_main_v92 V) (ix1 b)).trans (congrArg₂ (fun x y : EReal => x + y) (g_v88 V b) (g_v91 V b))

theorem g_v93 (V : Valuation τ sig (Elt Ideal)) (b : Fin 512) :
    (glue V (main_v93 : DevRef τ sig) : S512.Idx → EReal) (ix1 b) = cHalf :=
  (congrFun (eq_main_v93 V) (ix1 b)).trans <|
  (bcast_scalar_apply _ _ _ _).trans <| congrFun (eq_main_cst_13 V) ix0

theorem g_v94 (V : Valuation τ sig (Elt Ideal)) (b : Fin 512) :
    (glue V (main_v94 : DevRef τ sig) : S512.Idx → EReal) (ix1 b) = (cHalf) * (Qxz V b) :=
  (congrFun (eq_main_v94 V) (ix1 b)).trans (congrArg₂ (fun x y : EReal => x * y) (g_v93 V b) (g_v72 V b))

theorem g_v95 (V : Valuation τ sig (Elt Ideal)) (b : Fin 512) :
    (glue V (main_v95 : DevRef τ sig) : S512.Idx → EReal) (ix1 b) = ((cHalf) * (Qxz V b)) * (m2 V b) :=
  (congrFun (eq_main_v95 V) (ix1 b)).trans (congrArg₂ (fun x y : EReal => x * y) (g_v94 V b) (g_v38 V b))

def c1 (V : Valuation τ sig (Elt Ideal)) (b : Fin 512) : EReal := (((Qxx V b) * (m0 V b)) + (((cHalf) * (Qxy V b)) * (m1 V b))) + (((cHalf) * (Qxz V b)) * (m2 V b))

theorem g_v96 (V : Valuation τ sig (Elt Ideal)) (b : Fin 512) :
    (glue V (main_v96 : DevRef τ sig) : S512.Idx → EReal) (ix1 b) = c1 V b :=
  (congrFun (eq_main_v96 V) (ix1 b)).trans (congrArg₂ (fun x y : EReal => x + y) (g_v92 V b) (g_v95 V b))

theorem g_v97 (V : Valuation τ sig (Elt Ideal)) (b : Fin 512) :
    (glue V (main_v97 : DevRef τ sig) : S512.Idx → EReal) (ix1 b) = (Qyy V b) * (m1 V b) :=
  (congrFun (eq_main_v97 V) (ix1 b)).trans (congrArg₂ (fun x y : EReal => x * y) (g_v63 V b) (g_v36 V b))

theorem g_v98 (V : Valuation τ sig (Elt Ideal)) (b : Fin 512) :
    (glue V (main_v98 : DevRef τ sig) : S512.Idx → EReal) (ix1 b) = cHalf :=
  (congrFun (eq_main_v98 V) (ix1 b)).trans <|
  (bcast_scalar_apply _ _ _ _).trans <| congrFun (eq_main_cst_14 V) ix0

theorem g_v99 (V : Valuation τ sig (Elt Ideal)) (b : Fin 512) :
    (glue V (main_v99 : DevRef τ sig) : S512.Idx → EReal) (ix1 b) = (cHalf) * (Qxy V b) :=
  (congrFun (eq_main_v99 V) (ix1 b)).trans (congrArg₂ (fun x y : EReal => x * y) (g_v98 V b) (g_v69 V b))

theorem g_v100 (V : Valuation τ sig (Elt Ideal)) (b : Fin 512) :
    (glue V (main_v100 : DevRef τ sig) : S512.Idx → EReal) (ix1 b) = ((cHalf) * (Qxy V b)) * (m0 V b) :=
  (congrFun (eq_main_v100 V) (ix1 b)).trans (congrArg₂ (fun x y : EReal => x * y) (g_v99 V b) (g_v34 V b))

theorem g_v101 (V : Valuation τ sig (Elt Ideal)) (b : Fin 512) :
    (glue V (main_v101 : DevRef τ sig) : S512.Idx → EReal) (ix1 b) = ((Qyy V b) * (m1 V b)) + (((cHalf) * (Qxy V b)) * (m0 V b)) :=
  (congrFun (eq_main_v101 V) (ix1 b)).trans (congrArg₂ (fun x y : EReal => x + y) (g_v97 V b) (g_v100 V b))

theorem g_v102 (V : Valuation τ sig (Elt Ideal)) (b : Fin 512) :
    (glue V (main_v102 : DevRef τ sig) : S512.Idx → EReal) (ix1 b) = cHalf :=
  (congrFun (eq_main_v102 V) (ix1 b)).trans <|
  (bcast_scalar_apply _ _ _ _).trans <| congrFun (eq_main_cst_15 V) ix0

theorem g_v103 (V : Valuation τ sig (Elt Ideal)) (b : Fin 512) :
    (glue V (main_v103 : DevRef τ sig) : S512.Idx → EReal) (ix1 b) = (cHalf) * (Qyz V b) :=
  (congrFun (eq_main_v103 V) (ix1 b)).trans (congrArg₂ (fun x y : EReal => x * y) (g_v102 V b) (g_v75 V b))

theorem g_v104 (V : Valuation τ sig (Elt Ideal)) (b : Fin 512) :
    (glue V (main_v104 : DevRef τ sig) : S512.Idx → EReal) (ix1 b) = ((cHalf) * (Qyz V b)) * (m2 V b) :=
  (congrFun (eq_main_v104 V) (ix1 b)).trans (congrArg₂ (fun x y : EReal => x * y) (g_v103 V b) (g_v38 V b))

def c2 (V : Valuation τ sig (Elt Ideal)) (b : Fin 512) : EReal := (((Qyy V b) * (m1 V b)) + (((cHalf) * (Qxy V b)) * (m0 V b))) + (((cHalf) * (Qyz V b)) * (m2 V b))

theorem g_v105 (V : Valuation τ sig (Elt Ideal)) (b : Fin 512) :
    (glue V (main_v105 : DevRef τ sig) : S512.Idx → EReal) (ix1 b) = c2 V b :=
  (congrFun (eq_main_v105 V) (ix1 b)).trans (congrArg₂ (fun x y : EReal => x + y) (g_v101 V b) (g_v104 V b))

theorem g_v106 (V : Valuation τ sig (Elt Ideal)) (b : Fin 512) :
    (glue V (main_v106 : DevRef τ sig) : S512.Idx → EReal) (ix1 b) = (Qzz V b) * (m2 V b) :=
  (congrFun (eq_main_v106 V) (ix1 b)).trans (congrArg₂ (fun x y : EReal => x * y) (g_v64 V b) (g_v38 V b))

theorem g_v107 (V : Valuation τ sig (Elt Ideal)) (b : Fin 512) :
    (glue V (main_v107 : DevRef τ sig) : S512.Idx → EReal) (ix1 b) = cHalf :=
  (congrFun (eq_main_v107 V) (ix1 b)).trans <|
  (bcast_scalar_apply _ _ _ _).trans <| congrFun (eq_main_cst_16 V) ix0

theorem g_v108 (V : Valuation τ sig (Elt Ideal)) (b : Fin 512) :
    (glue V (main_v108 : DevRef τ sig) : S512.Idx → EReal) (ix1 b) = (cHalf) * (Qxz V b) :=
  (congrFun (eq_main_v108 V) (ix1 b)).trans (congrArg₂ (fun x y : EReal => x * y) (g_v107 V b) (g_v72 V b))

theorem g_v109 (V : Valuation τ sig (Elt Ideal)) (b : Fin 512) :
    (glue V (main_v109 : DevRef τ sig) : S512.Idx → EReal) (ix1 b) = ((cHalf) * (Qxz V b)) * (m0 V b) :=
  (congrFun (eq_main_v109 V) (ix1 b)).trans (congrArg₂ (fun x y : EReal => x * y) (g_v108 V b) (g_v34 V b))

theorem g_v110 (V : Valuation τ sig (Elt Ideal)) (b : Fin 512) :
    (glue V (main_v110 : DevRef τ sig) : S512.Idx → EReal) (ix1 b) = ((Qzz V b) * (m2 V b)) + (((cHalf) * (Qxz V b)) * (m0 V b)) :=
  (congrFun (eq_main_v110 V) (ix1 b)).trans (congrArg₂ (fun x y : EReal => x + y) (g_v106 V b) (g_v109 V b))

theorem g_v111 (V : Valuation τ sig (Elt Ideal)) (b : Fin 512) :
    (glue V (main_v111 : DevRef τ sig) : S512.Idx → EReal) (ix1 b) = cHalf :=
  (congrFun (eq_main_v111 V) (ix1 b)).trans <|
  (bcast_scalar_apply _ _ _ _).trans <| congrFun (eq_main_cst_17 V) ix0

theorem g_v112 (V : Valuation τ sig (Elt Ideal)) (b : Fin 512) :
    (glue V (main_v112 : DevRef τ sig) : S512.Idx → EReal) (ix1 b) = (cHalf) * (Qyz V b) :=
  (congrFun (eq_main_v112 V) (ix1 b)).trans (congrArg₂ (fun x y : EReal => x * y) (g_v111 V b) (g_v75 V b))

theorem g_v113 (V : Valuation τ sig (Elt Ideal)) (b : Fin 512) :
    (glue V (main_v113 : DevRef τ sig) : S512.Idx → EReal) (ix1 b) = ((cHalf) * (Qyz V b)) * (m1 V b) :=
  (congrFun (eq_main_v113 V) (ix1 b)).trans (congrArg₂ (fun x y : EReal => x * y) (g_v112 V b) (g_v36 V b))

def c3 (V : Valuation τ sig (Elt Ideal)) (b : Fin 512) : EReal := (((Qzz V b) * (m2 V b)) + (((cHalf) * (Qxz V b)) * (m0 V b))) + (((cHalf) * (Qyz V b)) * (m1 V b))

theorem g_v114 (V : Valuation τ sig (Elt Ideal)) (b : Fin 512) :
    (glue V (main_v114 : DevRef τ sig) : S512.Idx → EReal) (ix1 b) = c3 V b :=
  (congrFun (eq_main_v114 V) (ix1 b)).trans (congrArg₂ (fun x y : EReal => x + y) (g_v110 V b) (g_v113 V b))

theorem g_v115 (V : Valuation τ sig (Elt Ideal)) (b : Fin 512) :
    (glue V (main_v115 : DevRef τ sig) : S512.Idx → EReal) (ix1 b) = (Qxx V b) * (m0 V b) :=
  (congrFun (eq_main_v115 V) (ix1 b)).trans (congrArg₂ (fun x y : EReal => x * y) (g_v60 V b) (g_v34 V b))

theorem g_v116 (V : Valuation τ sig (Elt Ideal)) (b : Fin 512) :
    (glue V (main_v116 : DevRef τ sig) : S512.Idx → EReal) (ix1 b) = ((Qxx V b) * (m0 V b)) * (m0 V b) :=
  (congrFun (eq_main_v116 V) (ix1 b)).trans (congrArg₂ (fun x y : EReal => x * y) (g_v115 V b) (g_v34 V b))

theorem g_v117 (V : Valuation τ sig (Elt Ideal)) (b : Fin 512) :
    (glue V (main_v117 : DevRef τ sig) : S512.Idx → EReal) (ix1 b) = (Qyy V b) * (m1 V b) :=
  (congrFun (eq_main_v117 V) (ix1 b)).trans (congrArg₂ (fun x y : EReal => x * y) (g_v63 V b) (g_v36 V b))

theorem g_v118 (V : Valuation τ sig (Elt Ideal)) (b : Fin 512) :
    (glue V (main_v118 : DevRef τ sig) : S512.Idx → EReal) (ix1 b) = ((Qyy V b) * (m1 V b)) * (m1 V b) :=
  (congrFun (eq_main_v118 V) (ix1 b)).trans (congrArg₂ (fun x y : EReal => x * y) (g_v117 V b) (g_v36 V b))

theorem g_v119 (V : Valuation τ sig (Elt Ideal)) (b : Fin 512) :
    (glue V (main_v119 : DevRef τ sig) : S512.Idx → EReal) (ix1 b) = (((Qxx V b) * (m0 V b)) * (m0 V b)) + (((Qyy V b) * (m1 V b)) * (m1 V b)) :=
  (congrFun (eq_main_v119 V) (ix1 b)).trans (congrArg₂ (fun x y : EReal => x + y) (g_v116 V b) (g_v118 V b))

theorem g_v120 (V : Valuation τ sig (Elt Ideal)) (b : Fin 512) :
    (glue V (main_v120 : DevRef τ sig) : S512.Idx → EReal) (ix1 b) = (Qzz V b) * (m2 V b) :=
  (congrFun (eq_main_v120 V) (ix1 b)).trans (congrArg₂ (fun x y : EReal => x * y) (g_v64 V b) (g_v38 V b))

theorem g_v121 (V : Valuation τ sig (Elt Ideal)) (b : Fin 512) :
    (glue V (main_v121 : DevRef τ sig) : S512.Idx → EReal) (ix1 b) = ((Qzz V b) * (m2 V b)) * (m2 V b) :=
  (congrFun (eq_main_v121 V) (ix1 b)).trans (congrArg₂ (fun x y : EReal => x * y) (g_v120 V b) (g_v38 V b))

theorem g_v122 (V : Valuation τ sig (Elt Ideal)) (b : Fin 512) :
    (glue V (main_v122 : DevRef τ sig) : S512.Idx → EReal) (ix1 b) = ((((Qxx V b) * (m0 V b)) * (m0 V b)) + (((Qyy V b) * (m1 V b)) * (m1 V b))) + (((Qzz V b) * (m2 V b)) * (m2 V b)) :=
  (congrFun (eq_main_v122 V) (ix1 b)).trans (congrArg₂ (fun x y : EReal => x + y) (g_v119 V b) (g_v121 V b))

theorem g_v123 (V : Valuation τ sig (Elt Ideal)) (b : Fin 512) :
    (glue V (main_v123 : DevRef τ sig) : S512.Idx → EReal) (ix1 b) = (Qxy V b) * (m0 V b) :=
  (congrFun (eq_main_v123 V) (ix1 b)).trans (congrArg₂ (fun x y : EReal => x * y) (g_v69 V b) (g_v34 V b))

theorem g_v124 (V : Valuation τ sig (Elt Ideal)) (b : Fin 512) :
    (glue V (main_v124 : DevRef τ sig) : S512.Idx → EReal) (ix1 b) = ((Qxy V b) * (m0 V b)) * (m1 V b) :=
  (congrFun (eq_main_v124 V) (ix1 b)).trans (congrArg₂ (fun x y : EReal => x * y) (g_v123 V b) (g_v36 V b))

theorem g_v125 (V : Valuation τ sig (Elt Ideal)) (b : Fin 512) :
    (glue V (main_v125 : DevRef τ sig) : S512.Idx → EReal) (ix1 b) = (((((Qxx V b) * (m0 V b)) * (m0 V b)) + (((Qyy V b) * (m1 V b)) * (m1 V b))) + (((Qzz V b) * (m2 V b)) * (m2 V b))) + (((Qxy V b) * (m0 V b)) * (m1 V b)) :=
  (congrFun (eq_main_v125 V) (ix1 b)).trans (congrArg₂ (fun x y : EReal => x + y) (g_v122 V b) (g_v124 V b))

theorem g_v126 (V : Valuation τ sig (Elt Ideal)) (b : Fin 512) :
    (glue V (main_v126 : DevRef τ sig) : S512.Idx → EReal) (ix1 b) = (Qxz V b) * (m0 V b) :=
  (congrFun (eq_main_v126 V) (ix1 b)).trans (congrArg₂ (fun x y : EReal => x * y) (g_v72 V b) (g_v34 V b))

theorem g_v127 (V : Valuation τ sig (Elt Ideal)) (b : Fin 512) :
    (glue V (main_v127 : DevRef τ sig) : S512.Idx → EReal) (ix1 b) = ((Qxz V b) * (m0 V b)) * (m2 V b) :=
  (congrFun (eq_main_v127 V) (ix1 b)).trans (congrArg₂ (fun x y : EReal => x * y) (g_v126 V b) (g_v38 V b))

theorem g_v128 (V : Valuation τ sig (Elt Ideal)) (b : Fin 512) :
    (glue V (main_v128 : DevRef τ sig) : S512.Idx → EReal) (ix1 b) = ((((((Qxx V b) * (m0 V b)) * (m0 V b)) + (((Qyy V b) * (m1 V b)) * (m1 V b))) + (((Qzz V b) * (m2 V b)) * (m2 V b))) + (((Qxy V b) * (m0 V b)) * (m1 V b))) + (((Qxz V b) * (m0 V b)) * (m2 V b)) :=
  (congrFun (eq_main_v128 V) (ix1 b)).trans (congrArg₂ (fun x y : EReal => x + y) (g_v125 V b) (g_v127 V b))

theorem g_v129 (V : Valuation τ sig (Elt Ideal)) (b : Fin 512) :
    (glue V (main_v129 : DevRef τ sig) : S512.Idx → EReal) (ix1 b) = (Qyz V b) * (m1 V b) :=
  (congrFun (eq_main_v129 V) (ix1 b)).trans (congrArg₂ (fun x y : EReal => x * y) (g_v75 V b) (g_v36 V b))

theorem g_v130 (V : Valuation τ sig (Elt Ideal)) (b : Fin 512) :
    (glue V (main_v130 : DevRef τ sig) : S512.Idx → EReal) (ix1 b) = ((Qyz V b) * (m1 V b)) * (m2 V b) :=
  (congrFun (eq_main_v130 V) (ix1 b)).trans (congrArg₂ (fun x y : EReal => x * y) (g_v129 V b) (g_v38 V b))

def quad (V : Valuation τ sig (Elt Ideal)) (b : Fin 512) : EReal := (((((((Qxx V b) * (m0 V b)) * (m0 V b)) + (((Qyy V b) * (m1 V b)) * (m1 V b))) + (((Qzz V b) * (m2 V b)) * (m2 V b))) + (((Qxy V b) * (m0 V b)) * (m1 V b))) + (((Qxz V b) * (m0 V b)) * (m2 V b))) + (((Qyz V b) * (m1 V b)) * (m2 V b))

theorem g_v131 (V : Valuation τ sig (Elt Ideal)) (b : Fin 512) :
    (glue V (main_v131 : DevRef τ sig) : S512.Idx → EReal) (ix1 b) = quad V b :=
  (congrFun (eq_main_v131 V) (ix1 b)).trans (congrArg₂ (fun x y : EReal => x + y) (g_v128 V b) (g_v130 V b))

theorem g_v132 (V : Valuation τ sig (Elt Ideal)) (b : Fin 512) :
    (glue V (main_v132 : DevRef τ sig) : S512.Idx → EReal) (ix1 b) = cNegHalf :=
  (congrFun (eq_main_v132 V) (ix1 b)).trans <|
  (bcast_scalar_apply _ _ _ _).trans <| congrFun (eq_main_cst_18 V) ix0

theorem g_v133 (V : Valuation τ sig (Elt Ideal)) (b : Fin 512) :
    (glue V (main_v133 : DevRef τ sig) : S512.Idx → EReal) (ix1 b) = (cNegHalf) * (quad V b) :=
  (congrFun (eq_main_v133 V) (ix1 b)).trans (congrArg₂ (fun x y : EReal => x * y) (g_v132 V b) (g_v131 V b))

theorem g_v134 (V : Valuation τ sig (Elt Ideal)) (b : Fin 512) :
    (glue V (main_v134 : DevRef τ sig) : S512.Idx → EReal) (ix1 b) = cK :=
  (congrFun (eq_main_v134 V) (ix1 b)).trans <|
  (bcast_scalar_apply _ _ _ _).trans <| congrFun (eq_main_cst_19 V) ix0

theorem g_v135 (V : Valuation τ sig (Elt Ideal)) (b : Fin 512) :
    (glue V (main_v135 : DevRef τ sig) : S512.Idx → EReal) (ix1 b) = ((cNegHalf) * (quad V b)) - (cK) :=
  (congrFun (eq_main_v135 V) (ix1 b)).trans (congrArg₂ (fun x y : EReal => x - y) (g_v133 V b) (g_v134 V b))

def c0 (V : Valuation τ sig (Elt Ideal)) (b : Fin 512) : EReal := (((cNegHalf) * (quad V b)) - (cK)) - (logdet V b)

theorem g_v136 (V : Valuation τ sig (Elt Ideal)) (b : Fin 512) :
    (glue V (main_v136 : DevRef τ sig) : S512.Idx → EReal) (ix1 b) = c0 V b :=
  (congrFun (eq_main_v136 V) (ix1 b)).trans (congrArg₂ (fun x y : EReal => x - y) (g_v135 V b) (g_v32 V b))

/-- Column 0 of the array. -/
theorem coef0 (V : Valuation τ sig (Elt Ideal)) (b : Fin 512) :
    (glue V (main_v147 : DevRef τ sig) : S512x10.Idx → EReal) (ix2 b (0 : Fin 10)) = c0 V b :=
  (congrFun (eq_main_v147 V) (ix2 b (0 : Fin 10))).trans <|
  (concatenate_apply_piece _ _ _ (ix2 b (0 : Fin 10)) 0 (by simp) S512x1 _ rfl rfl 0 rfl (ix2 b (0 : Fin 1))
    (fun a ha => match a, ha with | ⟨0, _⟩, _ => rfl | ⟨1, _⟩, ha => absurd rfl ha) rfl).trans <|
  (congrFun (eq_main_v137 V) (ix2 b (0 : Fin 1))).trans <|
  (bcast_a_a1_apply _ _ rfl _ b (0 : Fin 1)).trans <| g_v136 V b

/-- Column 1 of the array. -/
theorem coef1 (V : Valuation τ sig (Elt Ideal)) (b : Fin 512) :
    (glue V (main_v147 : DevRef τ sig) : S512x10.Idx → EReal) (ix2 b (1 : Fin 10)) = c1 V b :=
  (congrFun (eq_main_v147 V) (ix2 b (1 : Fin 10))).trans <|
  (concatenate_apply_piece _ _ _ (ix2 b (1 : Fin 10)) 1 (by simp) S512x1 _ rfl rfl 1 rfl (ix2 b (0 : Fin 1))
    (fun a ha => match a, ha with | ⟨0, _⟩, _ => rfl | ⟨1, _⟩, ha => absurd rfl ha) rfl).trans <|
  (congrFun (eq_main_v138 V) (ix2 b (0 : Fin 1))).trans <|
  (bcast_a_a1_apply _ _ rfl _ b (0 : Fin 1)).trans <| g_v96 V b

/-- Column 2 of the array. -/
theorem coef2 (V : Valuation τ sig (Elt Ideal)) (b : Fin 512) :
    (glue V (main_v147 : DevRef τ sig) : S512x10.Idx → EReal) (ix2 b (2 : Fin 10)) = c2 V b :=
  (congrFun (eq_main_v147 V) (ix2 b (2 : Fin 10))).trans <|
  (concatenate_apply_piece _ _ _ (ix2 b (2 : Fin 10)) 2 (by simp) S512x1 _ rfl rfl 2 rfl (ix2 b (0 : Fin 1))
    (fun a ha => match a, ha with | ⟨0, _⟩, _ => rfl | ⟨1, _⟩, ha => absurd rfl ha) rfl).trans <|
  (congrFun (eq_main_v139 V) (ix2 b (0 : Fin 1))).trans <|
  (bcast_a_a1_apply _ _ rfl _ b (0 : Fin 1)).trans <| g_v105 V b

/-- Column 3 of the array. -/
theorem coef3 (V : Valuation τ sig (Elt Ideal)) (b : Fin 512) :
    (glue V (main_v147 : DevRef τ sig) : S512x10.Idx → EReal) (ix2 b (3 : Fin 10)) = c3 V b :=
  (congrFun (eq_main_v147 V) (ix2 b (3 : Fin 10))).trans <|
  (concatenate_apply_piece _ _ _ (ix2 b (3 : Fin 10)) 3 (by simp) S512x1 _ rfl rfl 3 rfl (ix2 b (0 : Fin 1))
    (fun a ha => match a, ha with | ⟨0, _⟩, _ => rfl | ⟨1, _⟩, ha => absurd rfl ha) rfl).trans <|
  (congrFun (eq_main_v140 V) (ix2 b (0 : Fin 1))).trans <|
  (bcast_a_a1_apply _ _ rfl _ b (0 : Fin 1)).trans <| g_v114 V b

/-- Column 4 of the array. -/
theorem coef4 (V : Valuation τ sig (Elt Ideal)) (b : Fin 512) :
    (glue V (main_v147 : DevRef τ sig) : S512x10.Idx → EReal) (ix2 b (4 : Fin 10)) = c4 V b :=
  (congrFun (eq_main_v147 V) (ix2 b (4 : Fin 10))).trans <|
  (concatenate_apply_piece _ _ _ (ix2 b (4 : Fin 10)) 4 (by simp) S512x1 _ rfl rfl 4 rfl (ix2 b (0 : Fin 1))
    (fun a ha => match a, ha with | ⟨0, _⟩, _ => rfl | ⟨1, _⟩, ha => absurd rfl ha) rfl).trans <|
  (congrFun (eq_main_v141 V) (ix2 b (0 : Fin 1))).trans <|
  (bcast_a_a1_apply _ _ rfl _ b (0 : Fin 1)).trans <| g_v77 V b

/-- Column 5 of the array. -/
theorem coef5 (V : Valuation τ sig (Elt Ideal)) (b : Fin 512) :
    (glue V (main_v147 : DevRef τ sig) : S512x10.Idx → EReal) (ix2 b (5 : Fin 10)) = c5 V b :=
  (congrFun (eq_main_v147 V) (ix2 b (5 : Fin 10))).trans <|
  (concatenate_apply_piece _ _ _ (ix2 b (5 : Fin 10)) 5 (by simp) S512x1 _ rfl rfl 5 rfl (ix2 b (0 : Fin 1))
    (fun a ha => match a, ha with | ⟨0, _⟩, _ => rfl | ⟨1, _⟩, ha => absurd rfl ha) rfl).trans <|
  (congrFun (eq_main_v142 V) (ix2 b (0 : Fin 1))).trans <|
  (bcast_a_a1_apply _ _ rfl _ b (0 : Fin 1)).trans <| g_v79 V b

/-- Column 6 of the array. -/
theorem coef6 (V : Valuation τ sig (Elt Ideal)) (b : Fin 512) :
    (glue V (main_v147 : DevRef τ sig) : S512x10.Idx → EReal) (ix2 b (6 : Fin 10)) = c6 V b :=
  (congrFun (eq_main_v147 V) (ix2 b (6 : Fin 10))).trans <|
  (concatenate_apply_piece _ _ _ (ix2 b (6 : Fin 10)) 6 (by simp) S512x1 _ rfl rfl 6 rfl (ix2 b (0 : Fin 1))
    (fun a ha => match a, ha with | ⟨0, _⟩, _ => rfl | ⟨1, _⟩, ha => absurd rfl ha) rfl).trans <|
  (congrFun (eq_main_v143 V) (ix2 b (0 : Fin 1))).trans <|
  (bcast_a_a1_apply _ _ rfl _ b (0 : Fin 1)).trans <| g_v81 V b

/-- Column 7 of the array. -/
theorem coef7 (V : Valuation τ sig (Elt Ideal)) (b : Fin 512) :
    (glue V (main_v147 : DevRef τ sig) : S512x10.Idx → EReal) (ix2 b (7 : Fin 10)) = c7 V b :=
  (congrFun (eq_main_v147 V) (ix2 b (7 : Fin 10))).trans <|
  (concatenate_apply_piece _ _ _ (ix2 b (7 : Fin 10)) 7 (by simp) S512x1 _ rfl rfl 7 rfl (ix2 b (0 : Fin 1))
    (fun a ha => match a, ha with | ⟨0, _⟩, _ => rfl | ⟨1, _⟩, ha => absurd rfl ha) rfl).trans <|
  (congrFun (eq_main_v144 V) (ix2 b (0 : Fin 1))).trans <|
  (bcast_a_a1_apply _ _ rfl _ b (0 : Fin 1)).trans <| g_v83 V b

/-- Column 8 of the array. -/
theorem coef8 (V : Valuation τ sig (Elt Ideal)) (b : Fin 512) :
    (glue V (main_v147 : DevRef τ sig) : S512x10.Idx → EReal) (ix2 b (8 : Fin 10)) = c8 V b :=
  (congrFun (eq_main_v147 V) (ix2 b (8 : Fin 10))).trans <|
  (concatenate_apply_piece _ _ _ (ix2 b (8 : Fin 10)) 8 (by simp) S512x1 _ rfl rfl 8 rfl (ix2 b (0 : Fin 1))
    (fun a ha => match a, ha with | ⟨0, _⟩, _ => rfl | ⟨1, _⟩, ha => absurd rfl ha) rfl).trans <|
  (congrFun (eq_main_v145 V) (ix2 b (0 : Fin 1))).trans <|
  (bcast_a_a1_apply _ _ rfl _ b (0 : Fin 1)).trans <| g_v85 V b

/-- Column 9 of the array. -/
theorem coef9 (V : Valuation τ sig (Elt Ideal)) (b : Fin 512) :
    (glue V (main_v147 : DevRef τ sig) : S512x10.Idx → EReal) (ix2 b (9 : Fin 10)) = c9 V b :=
  (congrFun (eq_main_v147 V) (ix2 b (9 : Fin 10))).trans <|
  (concatenate_apply_piece _ _ _ (ix2 b (9 : Fin 10)) 9 (by simp) S512x1 _ rfl rfl 9 rfl (ix2 b (0 : Fin 1))
    (fun a ha => match a, ha with | ⟨0, _⟩, _ => rfl | ⟨1, _⟩, ha => absurd rfl ha) rfl).trans <|
  (congrFun (eq_main_v146 V) (ix2 b (0 : Fin 1))).trans <|
  (bcast_a_a1_apply _ _ rfl _ b (0 : Fin 1)).trans <| g_v87 V b

/-- The ten coefficients of row `b`, in the order the columns are stacked: the constant, then those of
    x, y, z, x², y², z², xy, xz, yz. -/
def coefRow (V : Valuation τ sig (Elt Ideal)) (b : Fin 512) : Fin 10 → EReal :=
  ![c0 V b, c1 V b, c2 V b, c3 V b, c4 V b, c5 V b, c6 V b, c7 V b, c8 V b, c9 V b]

/-- **The coefficient array at an index**: entry `(b, k)` is coefficient `k` of row `b`. -/
theorem coef (V : Valuation τ sig (Elt Ideal)) (b : Fin 512) (k : Fin 10) :
    (glue V (main_v147 : DevRef τ sig) : S512x10.Idx → EReal) (ix2 b k) = coefRow V b k := by
  match k with
  | ⟨0, _⟩ => exact coef0 V b
  | ⟨1, _⟩ => exact coef1 V b
  | ⟨2, _⟩ => exact coef2 V b
  | ⟨3, _⟩ => exact coef3 V b
  | ⟨4, _⟩ => exact coef4 V b
  | ⟨5, _⟩ => exact coef5 V b
  | ⟨6, _⟩ => exact coef6 V b
  | ⟨7, _⟩ => exact coef7 V b
  | ⟨8, _⟩ => exact coef8 V b
  | ⟨9, _⟩ => exact coef9 V b

end Cert.KernelIdeal.GlueValue

end
-- ==== Proof.GlueSpec.lean ====
/-
  The two arrays the kernels read, against the specification of the coefficients and the features. The row quantities of
  this side — means, raw scale entries, the scale after `elu(·) + 1` and the softplus, the log-determinant — are the
  reference's, the two matrix products read as sums; the ten coefficients and nine monomials are then the specification's
  by unfolding, the operations being written in the same order on both sides.
-/
import proofs.«169934_j78314433675744_2_alg».proof.Proof.GlueCoef
import proofs.«169934_j78314433675744_2_alg».proof.Proof.KICoefSpec
import Idealize.ShloMosaic.Lib.ValueIdx
import Idealize.ShloMosaic.Lib.ValueLayout
import Idealize.ShloMosaic.Lib.Pipeline.Value

set_option maxRecDepth 8192

noncomputable section

namespace Cert.KernelIdeal.GlueValue

open Cert.KernelIdeal Cert.KernelIdeal.Gen Idealize.ShloMosaic Idealize.ShloMosaic.TcCoe Idealize.SL.Sem Idealize.ShloMosaic.StableHlo Idealize.ShloMosaic.ValueIdx

-- `glue V` enters below only through the two theorems that read it at an index
attribute [local irreducible] glue

/-! ## The row quantities are the reference's -/

theorem mean_eq (V : Valuation τ sig (Elt Ideal)) (b : Fin 512) (j : Fin 3) : mean V b j = Cert.ReferenceIdeal.RefValue.means (V (main_arg0 : DevRef τ sig)) (V (main_arg1 : DevRef τ sig)) (V (main_arg2 : DevRef τ sig)) b j :=
  Cert.ReferenceIdeal.RefValue.R4_apply _ _ _ b j

theorem sraw_eq (V : Valuation τ sig (Elt Ideal)) (b : Fin 512) (j : Fin 6) : sraw V b j = Cert.ReferenceIdeal.RefValue.sraw (V (main_arg0 : DevRef τ sig)) (V (main_arg3 : DevRef τ sig)) (V (main_arg4 : DevRef τ sig)) b j :=
  Cert.ReferenceIdeal.RefValue.R9_apply _ _ _ b j

theorem sv_eq (V : Valuation τ sig (Elt Ideal)) (b : Fin 512) (j : Fin 6) : sv V b j = Cert.ReferenceIdeal.RefValue.sVal (V (main_arg0 : DevRef τ sig)) (V (main_arg3 : DevRef τ sig)) (V (main_arg4 : DevRef τ sig)) b j := by
  unfold sv Cert.ReferenceIdeal.RefValue.sVal
  rw [sraw_eq]
  rfl

theorem l00_eq (V : Valuation τ sig (Elt Ideal)) (b : Fin 512) : l00 V b = Cert.ReferenceIdeal.RefValue.l00 (V (main_arg0 : DevRef τ sig)) (V (main_arg3 : DevRef τ sig)) (V (main_arg4 : DevRef τ sig)) b := by
  unfold l00 Cert.ReferenceIdeal.RefValue.l00 Cert.ReferenceIdeal.RefValue.d00
  rw [sv_eq]
  rfl

theorem l10_eq (V : Valuation τ sig (Elt Ideal)) (b : Fin 512) : l10 V b = Cert.ReferenceIdeal.RefValue.l10 (V (main_arg0 : DevRef τ sig)) (V (main_arg3 : DevRef τ sig)) (V (main_arg4 : DevRef τ sig)) b := by
  unfold l10 Cert.ReferenceIdeal.RefValue.l10
  rw [sv_eq]
  rfl

theorem l11_eq (V : Valuation τ sig (Elt Ideal)) (b : Fin 512) : l11 V b = Cert.ReferenceIdeal.RefValue.l11 (V (main_arg0 : DevRef τ sig)) (V (main_arg3 : DevRef τ sig)) (V (main_arg4 : DevRef τ sig)) b := by
  unfold l11 Cert.ReferenceIdeal.RefValue.l11 Cert.ReferenceIdeal.RefValue.d11
  rw [sv_eq]
  rfl

theorem l20_eq (V : Valuation τ sig (Elt Ideal)) (b : Fin 512) : l20 V b = Cert.ReferenceIdeal.RefValue.l20 (V (main_arg0 : DevRef τ sig)) (V (main_arg3 : DevRef τ sig)) (V (main_arg4 : DevRef τ sig)) b := by
  unfold l20 Cert.ReferenceIdeal.RefValue.l20
  rw [sv_eq]
  rfl

theorem l21_eq (V : Valuation τ sig (Elt Ideal)) (b : Fin 512) : l21 V b = Cert.ReferenceIdeal.RefValue.l21 (V (main_arg0 : DevRef τ sig)) (V (main_arg3 : DevRef τ sig)) (V (main_arg4 : DevRef τ sig)) b := by
  unfold l21 Cert.ReferenceIdeal.RefValue.l21
  rw [sv_eq]
  rfl

theorem l22_eq (V : Valuation τ sig (Elt Ideal)) (b : Fin 512) : l22 V b = Cert.ReferenceIdeal.RefValue.l22 (V (main_arg0 : DevRef τ sig)) (V (main_arg3 : DevRef τ sig)) (V (main_arg4 : DevRef τ sig)) b := by
  unfold l22 Cert.ReferenceIdeal.RefValue.l22 Cert.ReferenceIdeal.RefValue.d22
  rw [sv_eq]
  rfl

theorem logdet_eq (V : Valuation τ sig (Elt Ideal)) (b : Fin 512) : logdet V b = Cert.ReferenceIdeal.RefValue.logDet (V (main_arg0 : DevRef τ sig)) (V (main_arg3 : DevRef τ sig)) (V (main_arg4 : DevRef τ sig)) b := by
  unfold logdet Cert.ReferenceIdeal.RefValue.logDet
  rw [l00_eq, l11_eq, l22_eq]
  rfl

theorem m0_eq (V : Valuation τ sig (Elt Ideal)) (b : Fin 512) : m0 V b = Cert.ReferenceIdeal.RefValue.means (V (main_arg0 : DevRef τ sig)) (V (main_arg1 : DevRef τ sig)) (V (main_arg2 : DevRef τ sig)) b ⟨0, by decide⟩ :=
  mean_eq V b _

theorem m1_eq (V : Valuation τ sig (Elt Ideal)) (b : Fin 512) : m1 V b = Cert.ReferenceIdeal.RefValue.means (V (main_arg0 : DevRef τ sig)) (V (main_arg1 : DevRef τ sig)) (V (main_arg2 : DevRef τ sig)) b ⟨1, by decide⟩ :=
  mean_eq V b _

theorem m2_eq (V : Valuation τ sig (Elt Ideal)) (b : Fin 512) : m2 V b = Cert.ReferenceIdeal.RefValue.means (V (main_arg0 : DevRef τ sig)) (V (main_arg1 : DevRef τ sig)) (V (main_arg2 : DevRef τ sig)) b ⟨2, by decide⟩ :=
  mean_eq V b _

/-! ## The two arrays against the specification -/

/-- The ten coefficients of a row are the specification's at this side's row quantities: the same operations in the same order. -/
theorem coefRow_eq (V : Valuation τ sig (Elt Ideal)) (b : Fin 512) (k : Fin 10) :
    coefRow V b k = Cert.KernelIdeal.KICoefSpec.coefS (l00 V b) (l10 V b) (l11 V b) (l20 V b) (l21 V b) (l22 V b) (m0 V b) (m1 V b) (m2 V b) (logdet V b) k := by
  match k with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl

/-- **The feature array is the specification's.** -/
theorem feat_spec (V : Valuation τ sig (Elt Ideal)) (k : Fin 9) (n : Fin 65536) :
    (glue V (main_v169 : DevRef τ sig) : S9x65536.Idx → EReal) (ix2 k n) = Cert.KernelIdeal.KICoefSpec.featI (V (main_arg5 : DevRef τ sig)) k n :=
  (feat V k n).trans rfl

/-- **The coefficient array is the specification's.** -/
theorem coef_spec (V : Valuation τ sig (Elt Ideal)) (b : Fin 512) (k : Fin 10) :
    (glue V (main_v147 : DevRef τ sig) : S512x10.Idx → EReal) (ix2 b k)
      = Cert.KernelIdeal.KICoefSpec.coefI (V (main_arg0 : DevRef τ sig)) (V (main_arg1 : DevRef τ sig)) (V (main_arg2 : DevRef τ sig)) (V (main_arg3 : DevRef τ sig)) (V (main_arg4 : DevRef τ sig)) b k := by
  refine (coef V b k).trans ?_
  rw [coefRow_eq, l00_eq, l10_eq, l11_eq, l20_eq, l21_eq, l22_eq, m0_eq, m1_eq, m2_eq, logdet_eq]
  rfl

end Cert.KernelIdeal.GlueValue

end
-- ==== Proof.PreReal.lean ====
/-
  Finite inputs are real. The precondition says, of six arrays of extended reals, that every entry has absolute value
  below +∞: it is the conjunction over the arrays of "all entries satisfy |x| < +∞", computed as a reduction by `and`
  of the entrywise comparison. An extended real whose absolute value max x (-x) is below +∞ is neither infinity, so it
  is the reading of a real number. Hence each array is, entry by entry, the reading of an array of reals.
-/
import proofs.«169934_j78314433675744_2_alg».proof.Pre_finite_inputs
import Idealize.ShloMosaic.Lib.ReduceAll
import Idealize.ShloMosaic.Lib.ValueIdx
import Idealize.ShloMosaic.Lib.Affine
import Idealize.ShloMosaic.PureOps.Ideal

namespace Cert.PreReal

open Idealize.ShloMosaic Cert.Pre_finite_inputs

instance : Subsingleton S_.Idx := ⟨fun a b => funext fun d => d.elim0⟩

/-- The word of +∞ in the 32-bit format denotes the top of the extended reals. -/
theorem ofBits_inf_f32 : Ideal.ofBits .f32 0x7F800000#32 = (⊤ : EReal) := by
  simp [Ideal.ofBits, Ideal.ieee]

/-- An extended real whose absolute value is below +∞ is the reading of a real number. -/
theorem real_of_abs_lt_top (x : EReal) (h : Ideal.cmp .olt (max x (-x)) (Ideal.ofBits .f32 0x7F800000#32) = 1#1) :
    ∃ r : ℝ, x = (r : EReal) := by
  rw [ofBits_inf_f32] at h
  have hlt : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  induction x using EReal.rec with
  | bot => exact absurd hlt (by simp)
  | coe r => exact ⟨r, rfl⟩
  | top => exact absurd hlt (by simp)

/-- An array all of whose entries pass the comparison |x| < +∞ is the reading of an array of reals. -/
theorem array_real {s : Shape} (a : FVec Ideal s .f32) (hb : S_.BroadcastsInDim s (![] : Fin 0 → Fin s.rank))
    (h : ∀ i : s.Idx, cmpf .olt (Host.absf a) (broadcastInDim s ![] hb (constant (F := Ideal) S_ .f32 0x7F800000#32)) i = 1#1) :
    ∃ r : s.Idx → ℝ, a = fun i => ((r i : ℝ) : EReal) := by
  have hi : ∀ i : s.Idx, ∃ r : ℝ, a i = (r : EReal) := fun i => real_of_abs_lt_top (a i) (h i)
  choose r hr using hi
  exact ⟨r, funext hr⟩

/-- Under the precondition each of the six argument arrays is, entry by entry, the reading of an array of reals. -/
theorem arrays_real [Facts] (a0 : FVec Ideal S512x256 .f32) (a1 : FVec Ideal S3x256 .f32) (a2 : FVec Ideal S3 .f32)
    (a3 : FVec Ideal S6x256 .f32) (a4 : FVec Ideal S6 .f32) (a5 : FVec Ideal S65536x3 .f32)
    (h : fn (F := Ideal) a0 a1 a2 a3 a4 a5 = fun _ => 1#1) :
    (∃ r0 : S512x256.Idx → ℝ, a0 = fun i => ((r0 i : ℝ) : EReal)) ∧ (∃ r1 : S3x256.Idx → ℝ, a1 = fun i => ((r1 i : ℝ) : EReal))
      ∧ (∃ r2 : S3.Idx → ℝ, a2 = fun i => ((r2 i : ℝ) : EReal)) ∧ (∃ r3 : S6x256.Idx → ℝ, a3 = fun i => ((r3 i : ℝ) : EReal))
      ∧ (∃ r4 : S6.Idx → ℝ, a4 = fun i => ((r4 i : ℝ) : EReal)) ∧ (∃ r5 : S65536x3.Idx → ℝ, a5 = fun i => ((r5 i : ℝ) : EReal)) := by
  have h0 := congrFun h ValueIdx.ix0
  dsimp only [fn, fn_part1] at h0
  obtain ⟨h01234, e5⟩ := IntOp.andi_eq_one.mp h0
  obtain ⟨h0123, e4⟩ := IntOp.andi_eq_one.mp h01234
  obtain ⟨h012, e3⟩ := IntOp.andi_eq_one.mp h0123
  obtain ⟨h01, e2⟩ := IntOp.andi_eq_one.mp h012
  obtain ⟨e0, e1⟩ := IntOp.andi_eq_one.mp h01
  exact ⟨array_real a0 Facts.bcast_S_S512x256 (Host.reduce_andi_all _ _ Facts.reducesTo_S512x256_S_d0_1 Facts.h_S_ ValueIdx.ix0 e0),
    array_real a1 Facts.bcast_S_S3x256 (Host.reduce_andi_all _ _ Facts.reducesTo_S3x256_S_d0_1 Facts.h_S_ ValueIdx.ix0 e1),
    array_real a2 Facts.bcast_S_S3 (Host.reduce_andi_all _ _ Facts.reducesTo_S3_S_d0 Facts.h_S_ ValueIdx.ix0 e2),
    array_real a3 Facts.bcast_S_S6x256 (Host.reduce_andi_all _ _ Facts.reducesTo_S6x256_S_d0_1 Facts.h_S_ ValueIdx.ix0 e3),
    array_real a4 Facts.bcast_S_S6 (Host.reduce_andi_all _ _ Facts.reducesTo_S6_S_d0 Facts.h_S_ ValueIdx.ix0 e4),
    array_real a5 Facts.bcast_S_S65536x3 (Host.reduce_andi_all _ _ Facts.reducesTo_S65536x3_S_d0_1 Facts.h_S_ ValueIdx.ix0 e5)⟩

end Cert.PreReal
-- ==== Proof.KIFinal.lean ====
/-
  The kernel program's result is the reference's, as extended reals, for finite inputs. Finite inputs are readings of
  real arrays. For a row b the kernel's ten-term polynomial of its coefficient and feature arrays is, pixel by pixel, the
  reading of the real log-density the reference reaches by forward substitution; so the first region's tile-by-tile pair
  ends at the row's maximum and its sum of exponentials (plus ε in the stored column), the second region's entry is
  exp(lp - max) · (1 / (sum + ε)), and that is the reference's exp(lp - max) / (sum + ε).
-/
import proofs.«169934_j78314433675744_2_alg».proof.Proof.KIValue
import proofs.«169934_j78314433675744_2_alg».proof.Proof.KIRowFinal
import proofs.«169934_j78314433675744_2_alg».proof.Proof.KILpSpec
import proofs.«169934_j78314433675744_2_alg».proof.Proof.GlueSpec
import proofs.«169934_j78314433675744_2_alg».proof.Proof.RefReal
import proofs.«169934_j78314433675744_2_alg».proof.Proof.PreReal

noncomputable section

namespace Cert.KernelIdeal.Hand

open Cert.KernelIdeal Cert.KernelIdeal.Gen
open Idealize.ShloMosaic Idealize.ShloMosaic.TcCoe Idealize.ShloMosaic.ValueIdx
open Idealize.SL.Sem
open Cert.ReferenceIdeal.RefReal (up lpR epsR epsR_pos eps_coe outR_coe outRR maxR sumR)

variable (m : (ℓ : Loc nD τ sig) → Buf (Elt Ideal) ℓ) (ρ : Dev nD → PrngReg)

theorem result_eq_ref [Cert.Pre_finite_inputs.Facts] (c : Dev nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) = fun _ => 1#1) :
    W11 m ρ c (Proc.devRef .tc main_v171) = Cert.ReferenceIdeal.RefValue.outR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  obtain ⟨⟨r0, h0⟩, ⟨r1, h1⟩, ⟨r2, h2⟩, ⟨r3, h3⟩, ⟨r4, h4⟩, ⟨r5, h5⟩⟩ := Cert.PreReal.arrays_real _ _ _ _ _ _ hpre
  rw [result_array, h0, h1, h2, h3, h4, h5]
  funext i
  obtain ⟨b, n, rfl⟩ : ∃ (b : Fin 512) (n : Fin 65536), i = ix2 b n := ⟨i 0, i 1, eq_ix2 i⟩
  have e0 : W0 m ρ c (main_arg0 : DevRef τ sig) = up r0 := h0
  have e1 : W0 m ρ c (main_arg1 : DevRef τ sig) = up r1 := h1
  have e2 : W0 m ρ c (main_arg2 : DevRef τ sig) = up r2 := h2
  have e3 : W0 m ρ c (main_arg3 : DevRef τ sig) = up r3 := h3
  have e4 : W0 m ρ c (main_arg4 : DevRef τ sig) = up r4 := h4
  have e5 : W0 m ρ c (main_arg5 : DevRef τ sig) = up r5 := h5
  have hy : ∀ n', lpArr (V9 m ρ c main_v169) (V9 m ρ c main_v147) b n' = ((lpR r0 r1 r2 r3 r4 r5 b n' : ℝ) : EReal) := fun n' =>
    Cert.KernelIdeal.KILpSpec.lpArr_coe r0 r1 r2 r3 r4 r5 _ _
      (fun k n'' => (GlueValue.feat_spec (W0 m ρ c) k n'').trans (by rw [e5]))
      (fun b' k => (GlueValue.coef_spec (W0 m ρ c) b' k).trans (by rw [e0, e1, e2, e3, e4]))
      b n'
  rw [row_final (V9 m ρ) c b _ hy epsR epsR_pos eps_coe n]
  exact (outR_coe r0 r1 r2 r3 r4 r5 b n).symm

end Cert.KernelIdeal.Hand

end
-- ==== Proof.lean ====
/- The kernel is a two-pass softmax of a trivariate Gaussian log-density over a pixel grid.
   Pass one keeps, row by row, a running maximum and a running sum of exponentials over tiles of pixels (started
   from a constant standing for -∞ and from 0); pass two recomputes each log-density, subtracts the row maximum,
   exponentiates and multiplies by the reciprocal of (row sum + ε). The log-density is evaluated as a quadratic
   polynomial c0 + c1 x + … + c9 yz in the pixel position whose ten coefficients are the expansion, about the mean,
   of -½‖L⁻¹(p - μ)‖² - (3/2)·log 2π - log det L for a lower-triangular L with positive diagonal.
   The reference computes L⁻¹(p - μ) by forward substitution, the squared norm, the same constants, the row
   maximum, and divides by (row sum + ε).
   On the extended reals the two agree for finite inputs once the running maximum's start is read as -∞:
   all intermediate quantities are real, L's diagonal (a softplus) is positive, the polynomial is the expanded
   quadratic form, the tile-by-tile pair is the whole row's maximum and sum (Proof/LibOnlineSoftmax.lean), and
   multiplying by a reciprocal of a nonzero real is dividing by it.
   Below: the three programs run to the end with their arguments unchanged (Proof/KRun.lean, Proof/KIRun.lean, Proof/RefRun.lean), the
   idealization's one named constant, and the equality of the two results (Proof/KIFinal.lean). -/
import proofs.«169934_j78314433675744_2_alg».proof.Defs
import proofs.«169934_j78314433675744_2_alg».proof.Proof.Gen.Kernel
import proofs.«169934_j78314433675744_2_alg».proof.Proof.Gen.Kernel.Skeleton
import proofs.«169934_j78314433675744_2_alg».proof.Proof.Gen.Kernel.Launch
import proofs.«169934_j78314433675744_2_alg».proof.Proof.Gen.Kernel.Regions
import proofs.«169934_j78314433675744_2_alg».proof.Proof.Gen.Kernel.Points
import proofs.«169934_j78314433675744_2_alg».proof.Proof.Gen.KernelIdeal
import proofs.«169934_j78314433675744_2_alg».proof.Proof.Gen.KernelIdeal.Skeleton
import proofs.«169934_j78314433675744_2_alg».proof.Proof.Gen.KernelIdeal.Launch
import proofs.«169934_j78314433675744_2_alg».proof.Proof.Gen.KernelIdeal.Regions
import proofs.«169934_j78314433675744_2_alg».proof.Proof.Gen.KernelIdeal.Points
import proofs.«169934_j78314433675744_2_alg».proof.Proof.Gen.ReferenceIdeal
import proofs.«169934_j78314433675744_2_alg».proof.Proof.Gen.Pre_finite_inputs
import proofs.«169934_j78314433675744_2_alg».proof.Proof.KRun
import proofs.«169934_j78314433675744_2_alg».proof.Proof.KIRun
import proofs.«169934_j78314433675744_2_alg».proof.Proof.RefRun
import proofs.«169934_j78314433675744_2_alg».proof.Proof.KIFinal
import Idealize.ShloMosaic.Adequacy
import Idealize.ShloMosaic.Init

noncomputable section

namespace Cert.Proof

open Idealize.ShloMosaic Idealize.SL.Sem Cert.Kernel

/-- The idealization reads the one constant the running maximum starts from, a large negative finite number
    standing for -∞, as -∞ itself: the table gives the name that value. -/
theorem preserves : Cert.preserves_Kernel_KernelIdeal :=
  IdealRules.named_const.statement Cert.KernelIdeal.κ "neg_big" .f32 0xFF333332#32 ⊥ rfl

/-- The word-level kernel program runs to the end, faulting nowhere, and leaves its arguments as launched. -/
theorem frame_kernel : Cert.frame_Kernel := fun m ρ _ => Cert.Kernel.Hand.frame (F := Bits) m ρ

/-- So does its idealization. -/
theorem frame_kernel_ideal : Cert.frame_KernelIdeal := fun m ρ _ => Cert.KernelIdeal.Hand.frame (F := Ideal) m ρ

/-- The reference is a straight line of host operations none of which writes an argument. -/
theorem frame_reference_ideal : Cert.frame_ReferenceIdeal := fun m ρ _ =>
  (θ_run Cert.ReferenceIdeal.defs _ _).mono (fun r h c =>
    ⟨(h c Cert.ReferenceIdeal.main_arg0).trans (Cert.ReferenceIdeal.RefRun.kept _ Cert.ReferenceIdeal.main_arg0 (by decide)),
     (h c Cert.ReferenceIdeal.main_arg1).trans (Cert.ReferenceIdeal.RefRun.kept _ Cert.ReferenceIdeal.main_arg1 (by decide)),
     (h c Cert.ReferenceIdeal.main_arg2).trans (Cert.ReferenceIdeal.RefRun.kept _ Cert.ReferenceIdeal.main_arg2 (by decide)),
     (h c Cert.ReferenceIdeal.main_arg3).trans (Cert.ReferenceIdeal.RefRun.kept _ Cert.ReferenceIdeal.main_arg3 (by decide)),
     (h c Cert.ReferenceIdeal.main_arg4).trans (Cert.ReferenceIdeal.RefRun.kept _ Cert.ReferenceIdeal.main_arg4 (by decide)),
     (h c Cert.ReferenceIdeal.main_arg5).trans (Cert.ReferenceIdeal.RefRun.kept _ Cert.ReferenceIdeal.main_arg5 (by decide))⟩)
    (Cert.ReferenceIdeal.RefRun.run_all (F := Ideal) m ρ)

/-- For finite inputs the idealized kernel and the idealized reference, from memories that agree on the arguments, both run to
    the end and end with the same result array, element by element as extended reals, their arguments unchanged. -/
theorem algebraic : Cert.algebraic_KernelIdeal_ReferenceIdeal := by
  intro m ρ m' ρ' hpre hagree
  refine ⟨fun c => Cert.KernelIdeal.Hand.W11 m ρ c (Proc.devRef .tc Cert.KernelIdeal.main_v171), ?_, ?_⟩
  · exact (θ_run Cert.KernelIdeal.defs _ _).mono (fun r h c =>
      ⟨h c _ (Cert.KernelIdeal.Hand.mem_uc Cert.KernelIdeal.main_v171 (by decide)),
       (h c _ (Cert.KernelIdeal.Hand.mem_uc Cert.KernelIdeal.main_arg0 (by decide))).trans (Cert.KernelIdeal.Hand.W11_main_arg0 m ρ c),
       (h c _ (Cert.KernelIdeal.Hand.mem_uc Cert.KernelIdeal.main_arg1 (by decide))).trans (Cert.KernelIdeal.Hand.W11_main_arg1 m ρ c),
       (h c _ (Cert.KernelIdeal.Hand.mem_uc Cert.KernelIdeal.main_arg2 (by decide))).trans (Cert.KernelIdeal.Hand.W11_main_arg2 m ρ c),
       (h c _ (Cert.KernelIdeal.Hand.mem_uc Cert.KernelIdeal.main_arg3 (by decide))).trans (Cert.KernelIdeal.Hand.W11_main_arg3 m ρ c),
       (h c _ (Cert.KernelIdeal.Hand.mem_uc Cert.KernelIdeal.main_arg4 (by decide))).trans (Cert.KernelIdeal.Hand.W11_main_arg4 m ρ c),
       (h c _ (Cert.KernelIdeal.Hand.mem_uc Cert.KernelIdeal.main_arg5 (by decide))).trans (Cert.KernelIdeal.Hand.W11_main_arg5 m ρ c)⟩)
      (Cert.KernelIdeal.Hand.run_all (F := Ideal) m ρ)
  · refine (θ_run Cert.ReferenceIdeal.defs _ _).mono (fun r h c =>
      ⟨?_,
       (h c Cert.ReferenceIdeal.main_arg0).trans (Cert.ReferenceIdeal.RefRun.kept _ Cert.ReferenceIdeal.main_arg0 (by decide)),
       (h c Cert.ReferenceIdeal.main_arg1).trans (Cert.ReferenceIdeal.RefRun.kept _ Cert.ReferenceIdeal.main_arg1 (by decide)),
       (h c Cert.ReferenceIdeal.main_arg2).trans (Cert.ReferenceIdeal.RefRun.kept _ Cert.ReferenceIdeal.main_arg2 (by decide)),
       (h c Cert.ReferenceIdeal.main_arg3).trans (Cert.ReferenceIdeal.RefRun.kept _ Cert.ReferenceIdeal.main_arg3 (by decide)),
       (h c Cert.ReferenceIdeal.main_arg4).trans (Cert.ReferenceIdeal.RefRun.kept _ Cert.ReferenceIdeal.main_arg4 (by decide)),
       (h c Cert.ReferenceIdeal.main_arg5).trans (Cert.ReferenceIdeal.RefRun.kept _ Cert.ReferenceIdeal.main_arg5 (by decide))⟩)
      (Cert.ReferenceIdeal.RefRun.run_all (F := Ideal) m' ρ')
    refine (h c Cert.ReferenceIdeal.main_v87).trans ((Cert.ReferenceIdeal.RefValue.result_eq _).trans ?_)
    have hag := hagree c
    show Cert.ReferenceIdeal.RefValue.outR (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
    rw [hag.1, hag.2.1, hag.2.2.1, hag.2.2.2.1, hag.2.2.2.2.1, hag.2.2.2.2.2]
    exact (Cert.KernelIdeal.Hand.result_eq_ref m ρ c (hpre c)).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
